-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_v182) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x768 : Shape := ⟨2, ![4096, 768]⟩
abbrev S768x768 : Shape := ⟨2, ![768, 768]⟩
abbrev S768 : Shape := ⟨1, ![768]⟩
abbrev S2304x768 : Shape := ⟨2, ![2304, 768]⟩
abbrev S2304 : Shape := ⟨1, ![2304]⟩
abbrev S768x1536 : Shape := ⟨2, ![768, 1536]⟩
abbrev S768x65536 : Shape := ⟨2, ![768, 65536]⟩
abbrev S1 : Shape := ⟨1, ![1]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x1536 : S_.BroadcastsInDim S768x1536 (![] : Fin 0 → Fin S768x1536.rank)
  reducesTo_S768x1536_S_d0_1 : S768x1536.ReducesTo [0, 1] S_
  bcast_S_S768x65536 : S_.BroadcastsInDim S768x65536 (![] : Fin 0 → Fin S768x65536.rank)
  reducesTo_S768x65536_S_d0_1 : S768x65536.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S768x65536 .f32) (main_arg19 : IVec S1 32) (main_v83 : IVec S_ 1) (main_v84 : FVec F S768 .f32) (main_cst_32 : FVec F S_ .f32) : IVec S_ 1 :=
  let main_v85 : FVec F S768 .f32 := broadcastInDim S768 ![] bcast_S_S768 main_cst_32
  let main_v86 : IVec S768 1 := cmpf .olt main_v84 main_v85
  let main_c_33 : IVec S_ 1 := constantI S_ 1 1#1
  let main_v87 : IVec S_ 1 := (fun x v => Host.reduce IntOp.andi x v reducesTo_S768_S_d0 h_S_) main_v86 main_c_33
  let main_v88 : IVec S_ 1 := andi main_v83 main_v87
  let main_v89 : FVec F S768x65536 .f32 := Host.absf main_arg18
  let main_cst_34 : FVec F S_ .f32 := constant S_ .f32 0x7F800000#32
  let main_v90 : FVec F S768x65536 .f32 := broadcastInDim S768x65536 ![] bcast_S_S768x65536 main_cst_34
  let main_v91 : IVec S768x65536 1 := cmpf .olt main_v89 main_v90
  let main_c_35 : IVec S_ 1 := constantI S_ 1 1#1
  let main_v92 : IVec S_ 1 := (fun x v => Host.reduce IntOp.andi x v reducesTo_S768x65536_S_d0_1 h_S_) main_v91 main_c_35
  let main_v93 : IVec S_ 1 := andi main_v88 main_v92
  let main_c_36 : IVec S_ 32 := constantI S_ 32 0#32
  let main_v94 : IVec S1 32 := broadcastInDim S1 ![] bcast_S_S1 main_c_36
  let main_v95 : IVec S1 1 := cmpi .sge main_arg19 main_v94
  let main_c_37 : IVec S_ 32 := constantI S_ 32 0#32
  let main_v96 : IVec S1 32 := broadcastInDim S1 ![] bcast_S_S1 main_c_37
  let main_v97 : IVec S1 1 := cmpi .sle main_arg19 main_v96
  let main_v98 : IVec S1 1 := andi main_v95 main_v97
  let main_c_38 : IVec S_ 1 := constantI S_ 1 1#1
  let main_v99 : IVec S_ 1 := (fun x v => Host.reduce IntOp.andi x v reducesTo_S1_S_d0 h_S_) main_v98 main_c_38
  let main_v100 : IVec S_ 1 := andi main_v93 main_v99
  main_v100

def fn_part4 {F : FTy → Type} [FloatOps F] (main_arg14 : FVec F S768 .f32) (main_arg15 : FVec F S768 .f32) (main_arg16 : FVec F S768 .f32) (main_arg17 : FVec F S768 .f32) (main_arg18 : FVec F S768x65536 .f32) (main_arg19 : IVec S1 32) (main_v63 : IVec S_ 1) (main_v67 : IVec S_ 1) : IVec S_ 1 :=
  let main_v68 : IVec S_ 1 := andi main_v63 main_v67
  let main_v69 : FVec F S768 .f32 := Host.absf main_arg14
  let main_cst_26 : FVec F S_ .f32 := constant S_ .f32 0x7F800000#32
  let main_v70 : FVec F S768 .f32 := broadcastInDim S768 ![] bcast_S_S768 main_cst_26
  let main_v71 : IVec S768 1 := cmpf .olt main_v69 main_v70
  let main_c_27 : IVec S_ 1 := constantI S_ 1 1#1
  let main_v72 : IVec S_ 1 := (fun x v => Host.reduce IntOp.andi x v reducesTo_S768_S_d0 h_S_) main_v71 main_c_27
  let main_v73 : IVec S_ 1 := andi main_v68 main_v72
  let main_v74 : FVec F S768 .f32 := Host.absf main_arg15
  let main_cst_28 : FVec F S_ .f32 := constant S_ .f32 0x7F800000#32
  let main_v75 : FVec F S768 .f32 := broadcastInDim S768 ![] bcast_S_S768 main_cst_28
  let main_v76 : IVec S768 1 := cmpf .olt main_v74 main_v75
  let main_c_29 : IVec S_ 1 := constantI S_ 1 1#1
  let main_v77 : IVec S_ 1 := (fun x v => Host.reduce IntOp.andi x v reducesTo_S768_S_d0 h_S_) main_v76 main_c_29
  let main_v78 : IVec S_ 1 := andi main_v73 main_v77
  let main_v79 : FVec F S768 .f32 := Host.absf main_arg16
  let main_cst_30 : FVec F S_ .f32 := constant S_ .f32 0x7F800000#32
  let main_v80 : FVec F S768 .f32 := broadcastInDim S768 ![] bcast_S_S768 main_cst_30
  let main_v81 : IVec S768 1 := cmpf .olt main_v79 main_v80
  let main_c_31 : IVec S_ 1 := constantI S_ 1 1#1
  let main_v82 : IVec S_ 1 := (fun x v => Host.reduce IntOp.andi x v reducesTo_S768_S_d0 h_S_) main_v81 main_c_31
  let main_v83 : IVec S_ 1 := andi main_v78 main_v82
  let main_v84 : FVec F S768 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768x65536 .f32) (main_arg19 : IVec S1 32) (main_v48 : IVec S_ 1) (main_v49 : FVec F S768x1536 .f32) (main_v50 : FVec F S768x1536 .f32) : IVec S_ 1 :=
  let main_v51 : IVec S768x1536 1 := cmpf .olt main_v49 main_v50
  let main_c_19 : IVec S_ 1 := constantI S_ 1 1#1
  let main_v52 : IVec S_ 1 := (fun x v => Host.reduce IntOp.andi x v reducesTo_S768x1536_S_d0_1 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg14 main_arg15 main_arg16 main_arg17 main_arg18 main_arg19 main_v63 main_v67

def fn_part2 {F : FTy → Type} [FloatOps F] (main_arg7 : FVec F S2304 .f32) (main_arg8 : FVec F S768x768 .f32) (main_arg9 : FVec F S768 .f32) (main_arg10 : FVec F S768x1536 .f32) (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768x65536 .f32) (main_arg19 : IVec S1 32) (main_v33 : IVec S_ 1) : IVec S_ 1 :=
  let main_v34 : FVec F S2304 .f32 := Host.absf main_arg7
  let main_cst_12 : FVec F S_ .f32 := constant S_ .f32 0x7F800000#32
  let main_v35 : FVec F S2304 .f32 := broadcastInDim S2304 ![] bcast_S_S2304 main_cst_12
  let main_v36 : IVec S2304 1 := cmpf .olt main_v34 main_v35
  let main_c_13 : IVec S_ 1 := constantI S_ 1 1#1
  let main_v37 : IVec S_ 1 := (fun x v => Host.reduce IntOp.andi x v reducesTo_S2304_S_d0 h_S_) main_v36 main_c_13
  let main_v38 : IVec S_ 1 := andi main_v33 main_v37
  let main_v39 : FVec F S768x768 .f32 := Host.absf main_arg8
  let main_cst_14 : FVec F S_ .f32 := constant S_ .f32 0x7F800000#32
  let main_v40 : FVec F S768x768 .f32 := broadcastInDim S768x768 ![] bcast_S_S768x768 main_cst_14
  let main_v41 : IVec S768x768 1 := cmpf .olt main_v39 main_v40
  let main_c_15 : IVec S_ 1 := constantI S_ 1 1#1
  let main_v42 : IVec S_ 1 := (fun x v => Host.reduce IntOp.andi x v reducesTo_S768x768_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768x1536 .f32 := Host.absf main_arg10
  let main_cst_18 : FVec F S_ .f32 := constant S_ .f32 0x7F800000#32
  let main_v50 : FVec F S768x1536 .f32 := broadcastInDim S768x1536 ![] bcast_S_S768x1536 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S768x768 .f32) (main_arg5 : FVec F S768 .f32) (main_arg6 : FVec F S2304x768 .f32) (main_arg7 : FVec F S2304 .f32) (main_arg8 : FVec F S768x768 .f32) (main_arg9 : FVec F S768 .f32) (main_arg10 : FVec F S768x1536 .f32) (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768x65536 .f32) (main_arg19 : IVec S1 32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S2304x768 .f32 := Host.absf main_arg6
  let main_cst_10 : FVec F S_ .f32 := constant S_ .f32 0x7F800000#32
  let main_v30 : FVec F S2304x768 .f32 := broadcastInDim S2304x768 ![] bcast_S_S2304x768 main_cst_10
  let main_v31 : IVec S2304x768 1 := cmpf .olt main_v29 main_v30
  let main_c_11 : IVec S_ 1 := constantI S_ 1 1#1
  let main_v32 : IVec S_ 1 := (fun x v => Host.reduce IntOp.andi x v reducesTo_S2304x768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S4096x768 .f32) (main_arg1 : FVec F S4096x768 .f32) (main_arg2 : FVec F S768x768 .f32) (main_arg3 : FVec F S768 .f32) (main_arg4 : FVec F S768x768 .f32) (main_arg5 : FVec F S768 .f32) (main_arg6 : FVec F S2304x768 .f32) (main_arg7 : FVec F S2304 .f32) (main_arg8 : FVec F S768x768 .f32) (main_arg9 : FVec F S768 .f32) (main_arg10 : FVec F S768x1536 .f32) (main_arg11 : FVec F S768 .f32) (main_arg12 : FVec F S768 .f32) (main_arg13 : FVec F S768 .f32) (main_arg14 : FVec F S768 .f32) (main_arg15 : FVec F S768 .f32) (main_arg16 : FVec F S768 .f32) (main_arg17 : FVec F S768 .f32) (main_arg18 : FVec F S768x65536 .f32) (main_arg19 : IVec S1 32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S4096x768 : Shape := ⟨2, ![4096, 768]⟩
abbrev S768x768 : Shape := ⟨2, ![768, 768]⟩
abbrev S768 : Shape := ⟨1, ![768]⟩
abbrev S2304x768 : Shape := ⟨2, ![2304, 768]⟩
abbrev S2304 : Shape := ⟨1, ![2304]⟩
abbrev S768x1536 : Shape := ⟨2, ![768, 1536]⟩
abbrev S768x65536 : Shape := ⟨2, ![768, 65536]⟩
abbrev S1 : Shape := ⟨1, ![1]⟩
abbrev S1x768 : Shape := ⟨2, ![1, 768]⟩
abbrev S30720 : Shape := ⟨1, ![30720]⟩
abbrev S_ : Shape := ⟨0, ![]⟩
abbrev S1x30720 : Shape := ⟨2, ![1, 30720]⟩
abbrev S768x4096 : Shape := ⟨2, ![768, 4096]⟩
abbrev S512x768 : Shape := ⟨2, ![512, 768]⟩
abbrev S768x512 : Shape := ⟨2, ![768, 512]⟩
abbrev S512 : Shape := ⟨1, ![512]⟩
abbrev S512x1 : Shape := ⟨2, ![512, 1]⟩
abbrev S768x2048 : Shape := ⟨2, ![768, 2048]⟩

abbrev nBuf : Table → Nat
  | .hbm => 70
  | .local .tc .vmem => 40
  | .local .scVector .vmem => 4
  | _ => 0

abbrev bufTy : (tb : Table) → Fin (nBuf tb) → BufTy
  | .hbm, ⟨0, _⟩ => ⟨S4096x768, .f32⟩
  | .hbm, ⟨1, _⟩ => ⟨S4096x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S2304x768, .f32⟩
  | .hbm, ⟨7, _⟩ => ⟨S2304, .f32⟩
  | .hbm, ⟨8, _⟩ => ⟨S768x768, .f32⟩
  | .hbm, ⟨9, _⟩ => ⟨S768, .f32⟩
  | .hbm, ⟨10, _⟩ => ⟨S768x1536, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768, .f32⟩
  | .hbm, ⟨15, _⟩ => ⟨S768, .f32⟩
  | .hbm, ⟨16, _⟩ => ⟨S768, .f32⟩
  | .hbm, ⟨17, _⟩ => ⟨S768, .f32⟩
  | .hbm, ⟨18, _⟩ => ⟨S768x65536, .f32⟩
  | .hbm, ⟨19, _⟩ => ⟨S1, .i32⟩
  | .hbm, ⟨20, _⟩ => ⟨S768x768, .f32⟩
  | .hbm, ⟨21, _⟩ => ⟨S768, .f32⟩
  | .hbm, ⟨22, _⟩ => ⟨S1x768, .f32⟩
  | .hbm, ⟨23, _⟩ => ⟨S1x768, .f32⟩
  | .hbm, ⟨24, _⟩ => ⟨S1x768, .f32⟩
  | .hbm, ⟨25, _⟩ => ⟨S1x768, .f32⟩
  | .hbm, ⟨26, _⟩ => ⟨S768x768, .bf16⟩
  | .hbm, ⟨27, _⟩ => ⟨S768x768, .bf16⟩
  | .hbm, ⟨28, _⟩ => ⟨S1x768, .f32⟩
  | .hbm, ⟨29, _⟩ => ⟨S1x768, .f32⟩
  | .hbm, ⟨30, _⟩ => ⟨S768x768, .bf16⟩
  | .hbm, ⟨31, _⟩ => ⟨S768x768, .bf16⟩
  | .hbm, ⟨32, _⟩ => ⟨S768x65536, .f32⟩
  | .hbm, ⟨33, _⟩ => ⟨S4096x768, .bf16⟩
  | .hbm, ⟨34, _⟩ => ⟨S4096x768, .bf16⟩
  | .hbm, ⟨35, _⟩ => ⟨S1x768, .f32⟩
  | .hbm, ⟨36, _⟩ => ⟨S1x768, .f32⟩
  | .hbm, ⟨37, _⟩ => ⟨S1x768, .f32⟩
  | .hbm, ⟨38, _⟩ => ⟨S1x768, .f32⟩
  | .hbm, ⟨39, _⟩ => ⟨S1x768, .f32⟩
  | .hbm, ⟨40, _⟩ => ⟨S1x768, .f32⟩
  | .hbm, ⟨41, _⟩ => ⟨S1x768, .f32⟩
  | .hbm, ⟨42, _⟩ => ⟨S4096x768, .f32⟩
  | .hbm, ⟨43, _⟩ => ⟨S768x4096, .f32⟩
  | .hbm, ⟨44, _⟩ => ⟨S768x65536, .f32⟩
  | .hbm, ⟨45, _⟩ => ⟨S_, .i32⟩
  | .hbm, ⟨46, _⟩ => ⟨S1, .i32⟩
  | .hbm, ⟨47, _⟩ => ⟨S1, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S_, .i32⟩
  | .hbm, ⟨63, _⟩ => ⟨S_, .i1⟩
  | .hbm, ⟨64, _⟩ => ⟨S1, .i1⟩
  | .hbm, ⟨65, _⟩ => ⟨S1, .i1⟩
  | .hbm, ⟨66, _⟩ => ⟨S1, .i1⟩
  | .hbm, ⟨67, _⟩ => ⟨S1, .i32⟩
  | .hbm, ⟨68, _⟩ => ⟨S1, .i32⟩
  | .hbm, ⟨69, _⟩ => ⟨S1, .i32⟩
  | .local .tc .vmem, ⟨0, _⟩ => ⟨S768x768, .f32⟩
  | .local .tc .vmem, ⟨1, _⟩ => ⟨S1x768, .f32⟩
  | .local .tc .vmem, ⟨2, _⟩ => ⟨S768x768, .f32⟩
  | .local .tc .vmem, ⟨3, _⟩ => ⟨S1x768, .f32⟩
  | .local .tc .vmem, ⟨4, _⟩ => ⟨S768x768, .f32⟩
  | .local .tc .vmem, ⟨5, _⟩ => ⟨S1x768, .f32⟩
  | .local .tc .vmem, ⟨6, _⟩ => ⟨S768x768, .f32⟩
  | .local .tc .vmem, ⟨7, _⟩ => ⟨S1x768, .f32⟩
  | .local .tc .vmem, ⟨8, _⟩ => ⟨S768x1536, .f32⟩
  | .local .tc .vmem, ⟨9, _⟩ => ⟨S768x768, .bf16⟩
  | .local .tc .vmem, ⟨10, _⟩ => ⟨S768x768, .bf16⟩
  | .local .tc .vmem, ⟨11, _⟩ => ⟨S1x768, .f32⟩
  | .local .tc .vmem, ⟨12, _⟩ => ⟨S1x768, .f32⟩
  | .local .tc .vmem, ⟨13, _⟩ => ⟨S768x768, .bf16⟩
  | .local .tc .vmem, ⟨14, _⟩ => ⟨S768x768, .bf16⟩
  | .local .tc .vmem, ⟨15, _⟩ => ⟨S512x768, .bf16⟩
  | .local .tc .vmem, ⟨16, _⟩ => ⟨S512x768, .bf16⟩
  | .local .tc .vmem, ⟨17, _⟩ => ⟨S512x768, .bf16⟩
  | .local .tc .vmem, ⟨18, _⟩ => ⟨S512x768, .bf16⟩
  | .local .tc .vmem, ⟨19, _⟩ => ⟨S768x768, .bf16⟩
  | .local .tc .vmem, ⟨20, _⟩ => ⟨S768x768, .bf16⟩
  | .local .tc .vmem, ⟨21, _⟩ => ⟨S1x768, .f32⟩
  | .local .tc .vmem, ⟨22, _⟩ => ⟨S1x768, .f32⟩
  | .local .tc .vmem, ⟨23, _⟩ => ⟨S768x768, .bf16⟩
  | .local .tc .vmem, ⟨24, _⟩ => ⟨S768x768, .bf16⟩
  | .local .tc .vmem, ⟨25, _⟩ => ⟨S1x768, .f32⟩
  | .local .tc .vmem, ⟨26, _⟩ => ⟨S1x768, .f32⟩
  | .local .tc .vmem, ⟨27, _⟩ => ⟨S1x768, .f32⟩
  | .local .tc .vmem, ⟨28, _⟩ => ⟨S1x768, .f32⟩
  | .local .tc .vmem, ⟨29, _⟩ => ⟨S1x768, .f32⟩
  | .local .tc .vmem, ⟨30, _⟩ => ⟨S1x768, .f32⟩
  | .local .tc .vmem, ⟨31, _⟩ => ⟨S1x768, .f32⟩
  | .local .tc .vmem, ⟨32, _⟩ => ⟨S512x768, .f32⟩
  | .local .tc .vmem, ⟨33, _⟩ => ⟨S512x768, .f32⟩
  | .local .tc .vmem, ⟨34, _⟩ => ⟨S768x512, .f32⟩
  | .local .tc .vmem, ⟨35, _⟩ => ⟨S768x512, .f32⟩
  | .local .tc .vmem, ⟨36, _⟩ => ⟨S768x2048, .f32⟩
  | .local .tc .vmem, ⟨37, _⟩ => ⟨S768x2048, .f32⟩
  | .local .tc .vmem, ⟨38, _⟩ => ⟨S768x2048, .f32⟩
  | .local .tc .vmem, ⟨39, _⟩ => ⟨S768x2048, .f32⟩
  | .local .scVector .vmem, ⟨0, _⟩ => ⟨S30720, .f32⟩
  | .local .scVector .vmem, ⟨1, _⟩ => ⟨S30720, .f32⟩
  | .local .scVector .vmem, ⟨2, _⟩ => ⟨S30720, .f32⟩
  | .local .scVector .vmem, ⟨3, _⟩ => ⟨S30720, .f32⟩
  | _, _ => ⟨S4096x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTables nBuf rfl bufTy 4 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6_0 : Ref sig .tc := ⟨.hbm, 26, rfl⟩
abbrev main_v6_1 : Ref sig .tc := ⟨.hbm, 27, rfl⟩
abbrev main_v6_2 : Ref sig .tc := ⟨.hbm, 28, rfl⟩
abbrev main_v6_3 : Ref sig .tc := ⟨.hbm, 29, rfl⟩
abbrev main_v6_4 : Ref sig .tc := ⟨.hbm, 30, rfl⟩
abbrev main_v6_5 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17_0 : Ref sig .tc := ⟨.hbm, 42, rfl⟩
abbrev main_v17_1 : Ref sig .tc := ⟨.hbm, 43, rfl⟩
abbrev main_v18 : Ref sig .tc := ⟨.hbm, 44, rfl⟩
abbrev main_c : Ref sig .tc := ⟨.hbm, 45, rfl⟩
abbrev main_v19 : Ref sig .tc := ⟨.hbm, 46, rfl⟩
abbrev main_v20 : Ref sig .tc := ⟨.hbm, 47, rfl⟩
abbrev main_c_0 : Ref sig .tc := ⟨.hbm, 48, rfl⟩
abbrev main_call0_v0 : Ref sig .tc := ⟨.hbm, 49, rfl⟩
abbrev main_call0_c : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_c_1 : Ref sig .tc := ⟨.hbm, 56, rfl⟩
abbrev main_call0_v5 : Ref sig .tc := ⟨.hbm, 57, rfl⟩
abbrev main_call0_v6 : Ref sig .tc := ⟨.hbm, 58, rfl⟩
abbrev main_call0_c_2 : Ref sig .tc := ⟨.hbm, 59, rfl⟩
abbrev main_call0_v7 : Ref sig .tc := ⟨.hbm, 60, rfl⟩
abbrev main_call0_v8 : Ref sig .tc := ⟨.hbm, 61, rfl⟩
abbrev main_call0_c_3 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_v21 : Ref sig .tc := ⟨.hbm, 69, rfl⟩
abbrev main_arg18_scv : Ref sig .scVector := ⟨.hbm, 18, rfl⟩
abbrev main_v7_scv : Ref sig .scVector := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg13_0 : Ref sig .tc := ⟨.vmem, 30, rfl⟩
abbrev cc2_stg14_0 : Ref sig .tc := ⟨.vmem, 31, rfl⟩
abbrev cc2_stg15_0 : Ref sig .tc := ⟨.vmem, 32, rfl⟩
abbrev cc2_stg15_1 : Ref sig .tc := ⟨.vmem, 33, rfl⟩
abbrev cc2_stg16_0 : Ref sig .tc := ⟨.vmem, 34, rfl⟩
abbrev cc2_stg16_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem13_0 : DmaSem sig := 38
abbrev cc2_sem14_0 : DmaSem sig := 39
abbrev cc2_sem15_0 : DmaSem sig := 40
abbrev cc2_sem15_1 : DmaSem sig := 41
abbrev cc2_sem16_0 : DmaSem sig := 42
abbrev cc2_sem16_1 : DmaSem sig := 43
abbrev cc3_sem0_0 : DmaSem sig := 44
abbrev cc3_sem0_1 : DmaSem sig := 45
abbrev cc3_sem1_0 : DmaSem sig := 46
abbrev cc3_sem1_1 : DmaSem sig := 47
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S768x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S768x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let v3 : BitVec 32 := Scalar.addi v2 c0_i32
  let c4096_i32 : BitVec 32 := 4096#32
  ![v3.toNat, 4096]
def k1_off1_at (r : Fin 4) : BitVec 32 :=
  if r.val < 2 then
    if r.val < 1 then
      0#32
    else
      1#32
  else
    if r.val < 3 then
      22#32
    else
      23#32
def k1_off2 (i : grid1.Coords) (c0_i32_1 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let v8 : BitVec 32 := Scalar.addi v2 c0_i32_1
  let c34816_i32 : BitVec 32 := 34816#32
  ![v8.toNat, 34816]
def k1_off2_at (r : Fin 3) : BitVec 32 :=
  if r.val < 1 then
    0#32
  else
    if r.val < 2 then
      22#32
    else
      23#32
@[reducible] def k1_t1_loop : Scf.Loop 32 :=
  let c0_i32_5 : BitVec 32 := 0#32
  let c12_i32 : BitVec 32 := 12#32
  let v18 : BitVec 32 := Scalar.addi c0_i32_5 c12_i32
  let c1_i32_6 : BitVec 32 := 1#32
  ⟨c0_i32_5, v18, c1_i32_6⟩
def k1_off3 (i : grid1.Coords) (k1_t1 : Fin k1_t1_loop.trips) (c0_i32_20 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let c4_i32 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v41 : BitVec 32 := Scalar.muli c4_i32 v40
  let v42 : BitVec 32 := Scalar.addi v41 c0_i32_20
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.addi v2 v59
  let c4096_i32_33 : BitVec 32 := 4096#32
  let c2_i32_27 : BitVec 32 := 2#32
  let c0_i32_28 : BitVec 32 := 0#32
  let v61 : BitVec 1 := Scalar.cmpi .eq c2_i32_27 c0_i32_28
  let c1_i32_29 : BitVec 32 := 1#32
  let v62 : BitVec 32 := Scalar.select v61 c1_i32_29 c2_i32_27
  let v63 : BitVec 32 := Scalar.remsi v42 v62
  let c0_i32_31 : BitVec 32 := 0#32
  let v65 : BitVec 1 := Scalar.cmpi .slt v63 c0_i32_31
  let c0_i32_32 : BitVec 32 := 0#32
  let v66 : BitVec 1 := Scalar.cmpi .slt v62 c0_i32_32
  let v67 : BitVec 1 := Scalar.xori v65 v66
  let c0_i32_30 : BitVec 32 := 0#32
  let v64 : BitVec 1 := Scalar.cmpi .ne v63 c0_i32_30
  let v68 : BitVec 1 := Scalar.andi v67 v64
  let v69 : BitVec 32 := Scalar.addi v63 v62
  let v70 : BitVec 32 := Scalar.select v68 v69 v63
  let c30720_i32 : BitVec 32 := 30720#32
  let v71 : BitVec 32 := Scalar.muli v70 c30720_i32
  let v72 : BitVec 32 := Scalar.addi c4096_i32_33 v71
  ![v60.toNat, v72.toNat]
def k1_cond1 (k1_t1 : Fin k1_t1_loop.trips) : BitVec 1 :=
  let c4_i32 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v41 : BitVec 32 := Scalar.muli c4_i32 v40
  let c0_i32_20 : BitVec 32 := 0#32
  let v42 : BitVec 32 := Scalar.addi v41 c0_i32_20
  let c3_i32 : BitVec 32 := 3#32
  let v111 : BitVec 32 := Scalar.addi v42 c3_i32
  let c48_i32 : BitVec 32 := 48#32
  let v112 : BitVec 1 := Scalar.cmpi .slt v111 c48_i32
  let v113 : BitVec 32 := Scalar.extui v112
  let c0_i32_49 : BitVec 32 := 0#32
  let v114 : BitVec 1 := Scalar.cmpi .ne v113 c0_i32_49
  v114

def k1_cond2 (k1_t1 : Fin k1_t1_loop.trips) : BitVec 1 :=
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let c0_i32_155 : BitVec 32 := 0#32
  let v337 : BitVec 1 := Scalar.cmpi .sgt v40 c0_i32_155
  let v338 : BitVec 32 := Scalar.extui v337
  let c0_i32_156 : BitVec 32 := 0#32
  let v339 : BitVec 1 := Scalar.cmpi .ne v338 c0_i32_156
  v339

def k1_off4 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let c4_i32 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v41 : BitVec 32 := Scalar.muli c4_i32 v40
  let c0_i32_20 : BitVec 32 := 0#32
  let v42 : BitVec 32 := Scalar.addi v41 c0_i32_20
  let c3_i32 : BitVec 32 := 3#32
  let v111 : BitVec 32 := Scalar.addi v42 c3_i32
  let c4_i32_172 : BitVec 32 := 4#32
  let v374 : BitVec 32 := Scalar.subi v111 c4_i32_172
  let c0_i32_174 : BitVec 32 := 0#32
  let v376 : BitVec 1 := Scalar.cmpi .sgt v374 c0_i32_174
  let v377 : BitVec 32 := Scalar.extui v376
  let c0_i32_175 : BitVec 32 := 0#32
  let v378 : BitVec 1 := Scalar.cmpi .slt v374 c0_i32_175
  let v379 : BitVec 32 := Scalar.extui v378
  let v380 : BitVec 32 := Scalar.subi v377 v379
  let c2_i32_173 : BitVec 32 := 2#32
  let c0_i32_176 : BitVec 32 := 0#32
  let v381 : BitVec 1 := Scalar.cmpi .sgt c2_i32_173 c0_i32_176
  let v382 : BitVec 32 := Scalar.extui v381
  let c0_i32_177 : BitVec 32 := 0#32
  let v383 : BitVec 1 := Scalar.cmpi .slt c2_i32_173 c0_i32_177
  let v384 : BitVec 32 := Scalar.extui v383
  let v385 : BitVec 32 := Scalar.subi v382 v384
  let v386 : BitVec 1 := Scalar.cmpi .ne v380 v385
  let v387 : BitVec 32 := Scalar.remsi v374 c2_i32_173
  let c0_i32_178 : BitVec 32 := 0#32
  let v388 : BitVec 1 := Scalar.cmpi .ne v387 c0_i32_178
  let v389 : BitVec 1 := Scalar.andi v386 v388
  let v375 : BitVec 32 := Scalar.divsi v374 c2_i32_173
  let c1_i32_179 : BitVec 32 := 1#32
  let v390 : BitVec 32 := Scalar.subi v375 c1_i32_179
  let v391 : BitVec 32 := Scalar.select v389 v390 v375
  let v392 : BitVec 32 := Scalar.addi v2 v391
  let c4096_i32_187 : BitVec 32 := 4096#32
  let c2_i32_180 : BitVec 32 := 2#32
  let c0_i32_181 : BitVec 32 := 0#32
  let v393 : BitVec 1 := Scalar.cmpi .eq c2_i32_180 c0_i32_181
  let c1_i32_182 : BitVec 32 := 1#32
  let v394 : BitVec 32 := Scalar.select v393 c1_i32_182 c2_i32_180
  let v395 : BitVec 32 := Scalar.remsi v374 v394
  let c0_i32_184 : BitVec 32 := 0#32
  let v397 : BitVec 1 := Scalar.cmpi .slt v395 c0_i32_184
  let c0_i32_185 : BitVec 32 := 0#32
  let v398 : BitVec 1 := Scalar.cmpi .slt v394 c0_i32_185
  let v399 : BitVec 1 := Scalar.xori v397 v398
  let c0_i32_183 : BitVec 32 := 0#32
  let v396 : BitVec 1 := Scalar.cmpi .ne v395 c0_i32_183
  let v400 : BitVec 1 := Scalar.andi v399 v396
  let v401 : BitVec 32 := Scalar.addi v395 v394
  let v402 : BitVec 32 := Scalar.select v400 v401 v395
  let c30720_i32_186 : BitVec 32 := 30720#32
  let v403 : BitVec 32 := Scalar.muli v402 c30720_i32_186
  let v404 : BitVec 32 := Scalar.addi c4096_i32_187 v403
  ![v392.toNat, v404.toNat]
def k1_off5 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let c4_i32 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v41 : BitVec 32 := Scalar.muli c4_i32 v40
  let c0_i32_20 : BitVec 32 := 0#32
  let v42 : BitVec 32 := Scalar.addi v41 c0_i32_20
  let c3_i32 : BitVec 32 := 3#32
  let v111 : BitVec 32 := Scalar.addi v42 c3_i32
  let c0_i32_158 : BitVec 32 := 0#32
  let v341 : BitVec 1 := Scalar.cmpi .sgt v111 c0_i32_158
  let v342 : BitVec 32 := Scalar.extui v341
  let c0_i32_159 : BitVec 32 := 0#32
  let v343 : BitVec 1 := Scalar.cmpi .slt v111 c0_i32_159
  let v344 : BitVec 32 := Scalar.extui v343
  let v345 : BitVec 32 := Scalar.subi v342 v344
  let c2_i32_157 : BitVec 32 := 2#32
  let c0_i32_160 : BitVec 32 := 0#32
  let v346 : BitVec 1 := Scalar.cmpi .sgt c2_i32_157 c0_i32_160
  let v347 : BitVec 32 := Scalar.extui v346
  let c0_i32_161 : BitVec 32 := 0#32
  let v348 : BitVec 1 := Scalar.cmpi .slt c2_i32_157 c0_i32_161
  let v349 : BitVec 32 := Scalar.extui v348
  let v350 : BitVec 32 := Scalar.subi v347 v349
  let v351 : BitVec 1 := Scalar.cmpi .ne v345 v350
  let v352 : BitVec 32 := Scalar.remsi v111 c2_i32_157
  let c0_i32_162 : BitVec 32 := 0#32
  let v353 : BitVec 1 := Scalar.cmpi .ne v352 c0_i32_162
  let v354 : BitVec 1 := Scalar.andi v351 v353
  let v340 : BitVec 32 := Scalar.divsi v111 c2_i32_157
  let c1_i32_163 : BitVec 32 := 1#32
  let v355 : BitVec 32 := Scalar.subi v340 c1_i32_163
  let v356 : BitVec 32 := Scalar.select v354 v355 v340
  let v357 : BitVec 32 := Scalar.addi v2 v356
  let c4096_i32_171 : BitVec 32 := 4096#32
  let c2_i32_164 : BitVec 32 := 2#32
  let c0_i32_165 : BitVec 32 := 0#32
  let v358 : BitVec 1 := Scalar.cmpi .eq c2_i32_164 c0_i32_165
  let c1_i32_166 : BitVec 32 := 1#32
  let v359 : BitVec 32 := Scalar.select v358 c1_i32_166 c2_i32_164
  let v360 : BitVec 32 := Scalar.remsi v111 v359
  let c0_i32_168 : BitVec 32 := 0#32
  let v362 : BitVec 1 := Scalar.cmpi .slt v360 c0_i32_168
  let c0_i32_169 : BitVec 32 := 0#32
  let v363 : BitVec 1 := Scalar.cmpi .slt v359 c0_i32_169
  let v364 : BitVec 1 := Scalar.xori v362 v363
  let c0_i32_167 : BitVec 32 := 0#32
  let v361 : BitVec 1 := Scalar.cmpi .ne v360 c0_i32_167
  let v365 : BitVec 1 := Scalar.andi v364 v361
  let v366 : BitVec 32 := Scalar.addi v360 v359
  let v367 : BitVec 32 := Scalar.select v365 v366 v360
  let c30720_i32_170 : BitVec 32 := 30720#32
  let v368 : BitVec 32 := Scalar.muli v367 c30720_i32_170
  let v369 : BitVec 32 := Scalar.addi c4096_i32_171 v368
  ![v357.toNat, v369.toNat]
def k1_cond3 (k1_t1 : Fin k1_t1_loop.trips) : BitVec 1 :=
  let c4_i32_50 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v115 : BitVec 32 := Scalar.muli c4_i32_50 v40
  let c1_i32_51 : BitVec 32 := 1#32
  let v116 : BitVec 32 := Scalar.addi v115 c1_i32_51
  let c3_i32_82 : BitVec 32 := 3#32
  let v185 : BitVec 32 := Scalar.addi v116 c3_i32_82
  let c48_i32_83 : BitVec 32 := 48#32
  let v186 : BitVec 1 := Scalar.cmpi .slt v185 c48_i32_83
  let v187 : BitVec 32 := Scalar.extui v186
  let c0_i32_84 : BitVec 32 := 0#32
  let v188 : BitVec 1 := Scalar.cmpi .ne v187 c0_i32_84
  v188

def k1_off6 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let c4_i32_50 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v115 : BitVec 32 := Scalar.muli c4_i32_50 v40
  let c1_i32_51 : BitVec 32 := 1#32
  let v116 : BitVec 32 := Scalar.addi v115 c1_i32_51
  let c3_i32_82 : BitVec 32 := 3#32
  let v185 : BitVec 32 := Scalar.addi v116 c3_i32_82
  let c4_i32_155 : BitVec 32 := 4#32
  let v337 : BitVec 32 := Scalar.subi v185 c4_i32_155
  let c0_i32_157 : BitVec 32 := 0#32
  let v339 : BitVec 1 := Scalar.cmpi .sgt v337 c0_i32_157
  let v340 : BitVec 32 := Scalar.extui v339
  let c0_i32_158 : BitVec 32 := 0#32
  let v341 : BitVec 1 := Scalar.cmpi .slt v337 c0_i32_158
  let v342 : BitVec 32 := Scalar.extui v341
  let v343 : BitVec 32 := Scalar.subi v340 v342
  let c2_i32_156 : BitVec 32 := 2#32
  let c0_i32_159 : BitVec 32 := 0#32
  let v344 : BitVec 1 := Scalar.cmpi .sgt c2_i32_156 c0_i32_159
  let v345 : BitVec 32 := Scalar.extui v344
  let c0_i32_160 : BitVec 32 := 0#32
  let v346 : BitVec 1 := Scalar.cmpi .slt c2_i32_156 c0_i32_160
  let v347 : BitVec 32 := Scalar.extui v346
  let v348 : BitVec 32 := Scalar.subi v345 v347
  let v349 : BitVec 1 := Scalar.cmpi .ne v343 v348
  let v350 : BitVec 32 := Scalar.remsi v337 c2_i32_156
  let c0_i32_161 : BitVec 32 := 0#32
  let v351 : BitVec 1 := Scalar.cmpi .ne v350 c0_i32_161
  let v352 : BitVec 1 := Scalar.andi v349 v351
  let v338 : BitVec 32 := Scalar.divsi v337 c2_i32_156
  let c1_i32_162 : BitVec 32 := 1#32
  let v353 : BitVec 32 := Scalar.subi v338 c1_i32_162
  let v354 : BitVec 32 := Scalar.select v352 v353 v338
  let v355 : BitVec 32 := Scalar.addi v2 v354
  let c4096_i32_170 : BitVec 32 := 4096#32
  let c2_i32_163 : BitVec 32 := 2#32
  let c0_i32_164 : BitVec 32 := 0#32
  let v356 : BitVec 1 := Scalar.cmpi .eq c2_i32_163 c0_i32_164
  let c1_i32_165 : BitVec 32 := 1#32
  let v357 : BitVec 32 := Scalar.select v356 c1_i32_165 c2_i32_163
  let v358 : BitVec 32 := Scalar.remsi v337 v357
  let c0_i32_167 : BitVec 32 := 0#32
  let v360 : BitVec 1 := Scalar.cmpi .slt v358 c0_i32_167
  let c0_i32_168 : BitVec 32 := 0#32
  let v361 : BitVec 1 := Scalar.cmpi .slt v357 c0_i32_168
  let v362 : BitVec 1 := Scalar.xori v360 v361
  let c0_i32_166 : BitVec 32 := 0#32
  let v359 : BitVec 1 := Scalar.cmpi .ne v358 c0_i32_166
  let v363 : BitVec 1 := Scalar.andi v362 v359
  let v364 : BitVec 32 := Scalar.addi v358 v357
  let v365 : BitVec 32 := Scalar.select v363 v364 v358
  let c30720_i32_169 : BitVec 32 := 30720#32
  let v366 : BitVec 32 := Scalar.muli v365 c30720_i32_169
  let v367 : BitVec 32 := Scalar.addi c4096_i32_170 v366
  ![v355.toNat, v367.toNat]
def k1_off7 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let c4_i32_50 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v115 : BitVec 32 := Scalar.muli c4_i32_50 v40
  let c1_i32_51 : BitVec 32 := 1#32
  let v116 : BitVec 32 := Scalar.addi v115 c1_i32_51
  let c3_i32_82 : BitVec 32 := 3#32
  let v185 : BitVec 32 := Scalar.addi v116 c3_i32_82
  let c0_i32_172 : BitVec 32 := 0#32
  let v373 : BitVec 1 := Scalar.cmpi .sgt v185 c0_i32_172
  let v374 : BitVec 32 := Scalar.extui v373
  let c0_i32_173 : BitVec 32 := 0#32
  let v375 : BitVec 1 := Scalar.cmpi .slt v185 c0_i32_173
  let v376 : BitVec 32 := Scalar.extui v375
  let v377 : BitVec 32 := Scalar.subi v374 v376
  let c2_i32_171 : BitVec 32 := 2#32
  let c0_i32_174 : BitVec 32 := 0#32
  let v378 : BitVec 1 := Scalar.cmpi .sgt c2_i32_171 c0_i32_174
  let v379 : BitVec 32 := Scalar.extui v378
  let c0_i32_175 : BitVec 32 := 0#32
  let v380 : BitVec 1 := Scalar.cmpi .slt c2_i32_171 c0_i32_175
  let v381 : BitVec 32 := Scalar.extui v380
  let v382 : BitVec 32 := Scalar.subi v379 v381
  let v383 : BitVec 1 := Scalar.cmpi .ne v377 v382
  let v384 : BitVec 32 := Scalar.remsi v185 c2_i32_171
  let c0_i32_176 : BitVec 32 := 0#32
  let v385 : BitVec 1 := Scalar.cmpi .ne v384 c0_i32_176
  let v386 : BitVec 1 := Scalar.andi v383 v385
  let v372 : BitVec 32 := Scalar.divsi v185 c2_i32_171
  let c1_i32_177 : BitVec 32 := 1#32
  let v387 : BitVec 32 := Scalar.subi v372 c1_i32_177
  let v388 : BitVec 32 := Scalar.select v386 v387 v372
  let v389 : BitVec 32 := Scalar.addi v2 v388
  let c4096_i32_185 : BitVec 32 := 4096#32
  let c2_i32_178 : BitVec 32 := 2#32
  let c0_i32_179 : BitVec 32 := 0#32
  let v390 : BitVec 1 := Scalar.cmpi .eq c2_i32_178 c0_i32_179
  let c1_i32_180 : BitVec 32 := 1#32
  let v391 : BitVec 32 := Scalar.select v390 c1_i32_180 c2_i32_178
  let v392 : BitVec 32 := Scalar.remsi v185 v391
  let c0_i32_182 : BitVec 32 := 0#32
  let v394 : BitVec 1 := Scalar.cmpi .slt v392 c0_i32_182
  let c0_i32_183 : BitVec 32 := 0#32
  let v395 : BitVec 1 := Scalar.cmpi .slt v391 c0_i32_183
  let v396 : BitVec 1 := Scalar.xori v394 v395
  let c0_i32_181 : BitVec 32 := 0#32
  let v393 : BitVec 1 := Scalar.cmpi .ne v392 c0_i32_181
  let v397 : BitVec 1 := Scalar.andi v396 v393
  let v398 : BitVec 32 := Scalar.addi v392 v391
  let v399 : BitVec 32 := Scalar.select v397 v398 v392
  let c30720_i32_184 : BitVec 32 := 30720#32
  let v400 : BitVec 32 := Scalar.muli v399 c30720_i32_184
  let v401 : BitVec 32 := Scalar.addi c4096_i32_185 v400
  ![v389.toNat, v401.toNat]
def k1_cond4 (k1_t1 : Fin k1_t1_loop.trips) : BitVec 1 :=
  let c4_i32_85 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v189 : BitVec 32 := Scalar.muli c4_i32_85 v40
  let c2_i32_86 : BitVec 32 := 2#32
  let v190 : BitVec 32 := Scalar.addi v189 c2_i32_86
  let c3_i32_117 : BitVec 32 := 3#32
  let v259 : BitVec 32 := Scalar.addi v190 c3_i32_117
  let c48_i32_118 : BitVec 32 := 48#32
  let v260 : BitVec 1 := Scalar.cmpi .slt v259 c48_i32_118
  let v261 : BitVec 32 := Scalar.extui v260
  let c0_i32_119 : BitVec 32 := 0#32
  let v262 : BitVec 1 := Scalar.cmpi .ne v261 c0_i32_119
  v262

def k1_off8 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let c4_i32_85 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v189 : BitVec 32 := Scalar.muli c4_i32_85 v40
  let c2_i32_86 : BitVec 32 := 2#32
  let v190 : BitVec 32 := Scalar.addi v189 c2_i32_86
  let c3_i32_117 : BitVec 32 := 3#32
  let v259 : BitVec 32 := Scalar.addi v190 c3_i32_117
  let c4_i32_155 : BitVec 32 := 4#32
  let v337 : BitVec 32 := Scalar.subi v259 c4_i32_155
  let c0_i32_157 : BitVec 32 := 0#32
  let v339 : BitVec 1 := Scalar.cmpi .sgt v337 c0_i32_157
  let v340 : BitVec 32 := Scalar.extui v339
  let c0_i32_158 : BitVec 32 := 0#32
  let v341 : BitVec 1 := Scalar.cmpi .slt v337 c0_i32_158
  let v342 : BitVec 32 := Scalar.extui v341
  let v343 : BitVec 32 := Scalar.subi v340 v342
  let c2_i32_156 : BitVec 32 := 2#32
  let c0_i32_159 : BitVec 32 := 0#32
  let v344 : BitVec 1 := Scalar.cmpi .sgt c2_i32_156 c0_i32_159
  let v345 : BitVec 32 := Scalar.extui v344
  let c0_i32_160 : BitVec 32 := 0#32
  let v346 : BitVec 1 := Scalar.cmpi .slt c2_i32_156 c0_i32_160
  let v347 : BitVec 32 := Scalar.extui v346
  let v348 : BitVec 32 := Scalar.subi v345 v347
  let v349 : BitVec 1 := Scalar.cmpi .ne v343 v348
  let v350 : BitVec 32 := Scalar.remsi v337 c2_i32_156
  let c0_i32_161 : BitVec 32 := 0#32
  let v351 : BitVec 1 := Scalar.cmpi .ne v350 c0_i32_161
  let v352 : BitVec 1 := Scalar.andi v349 v351
  let v338 : BitVec 32 := Scalar.divsi v337 c2_i32_156
  let c1_i32_162 : BitVec 32 := 1#32
  let v353 : BitVec 32 := Scalar.subi v338 c1_i32_162
  let v354 : BitVec 32 := Scalar.select v352 v353 v338
  let v355 : BitVec 32 := Scalar.addi v2 v354
  let c4096_i32_170 : BitVec 32 := 4096#32
  let c2_i32_163 : BitVec 32 := 2#32
  let c0_i32_164 : BitVec 32 := 0#32
  let v356 : BitVec 1 := Scalar.cmpi .eq c2_i32_163 c0_i32_164
  let c1_i32_165 : BitVec 32 := 1#32
  let v357 : BitVec 32 := Scalar.select v356 c1_i32_165 c2_i32_163
  let v358 : BitVec 32 := Scalar.remsi v337 v357
  let c0_i32_167 : BitVec 32 := 0#32
  let v360 : BitVec 1 := Scalar.cmpi .slt v358 c0_i32_167
  let c0_i32_168 : BitVec 32 := 0#32
  let v361 : BitVec 1 := Scalar.cmpi .slt v357 c0_i32_168
  let v362 : BitVec 1 := Scalar.xori v360 v361
  let c0_i32_166 : BitVec 32 := 0#32
  let v359 : BitVec 1 := Scalar.cmpi .ne v358 c0_i32_166
  let v363 : BitVec 1 := Scalar.andi v362 v359
  let v364 : BitVec 32 := Scalar.addi v358 v357
  let v365 : BitVec 32 := Scalar.select v363 v364 v358
  let c30720_i32_169 : BitVec 32 := 30720#32
  let v366 : BitVec 32 := Scalar.muli v365 c30720_i32_169
  let v367 : BitVec 32 := Scalar.addi c4096_i32_170 v366
  ![v355.toNat, v367.toNat]
def k1_off9 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let c4_i32_85 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v189 : BitVec 32 := Scalar.muli c4_i32_85 v40
  let c2_i32_86 : BitVec 32 := 2#32
  let v190 : BitVec 32 := Scalar.addi v189 c2_i32_86
  let c3_i32_117 : BitVec 32 := 3#32
  let v259 : BitVec 32 := Scalar.addi v190 c3_i32_117
  let c0_i32_172 : BitVec 32 := 0#32
  let v373 : BitVec 1 := Scalar.cmpi .sgt v259 c0_i32_172
  let v374 : BitVec 32 := Scalar.extui v373
  let c0_i32_173 : BitVec 32 := 0#32
  let v375 : BitVec 1 := Scalar.cmpi .slt v259 c0_i32_173
  let v376 : BitVec 32 := Scalar.extui v375
  let v377 : BitVec 32 := Scalar.subi v374 v376
  let c2_i32_171 : BitVec 32 := 2#32
  let c0_i32_174 : BitVec 32 := 0#32
  let v378 : BitVec 1 := Scalar.cmpi .sgt c2_i32_171 c0_i32_174
  let v379 : BitVec 32 := Scalar.extui v378
  let c0_i32_175 : BitVec 32 := 0#32
  let v380 : BitVec 1 := Scalar.cmpi .slt c2_i32_171 c0_i32_175
  let v381 : BitVec 32 := Scalar.extui v380
  let v382 : BitVec 32 := Scalar.subi v379 v381
  let v383 : BitVec 1 := Scalar.cmpi .ne v377 v382
  let v384 : BitVec 32 := Scalar.remsi v259 c2_i32_171
  let c0_i32_176 : BitVec 32 := 0#32
  let v385 : BitVec 1 := Scalar.cmpi .ne v384 c0_i32_176
  let v386 : BitVec 1 := Scalar.andi v383 v385
  let v372 : BitVec 32 := Scalar.divsi v259 c2_i32_171
  let c1_i32_177 : BitVec 32 := 1#32
  let v387 : BitVec 32 := Scalar.subi v372 c1_i32_177
  let v388 : BitVec 32 := Scalar.select v386 v387 v372
  let v389 : BitVec 32 := Scalar.addi v2 v388
  let c4096_i32_185 : BitVec 32 := 4096#32
  let c2_i32_178 : BitVec 32 := 2#32
  let c0_i32_179 : BitVec 32 := 0#32
  let v390 : BitVec 1 := Scalar.cmpi .eq c2_i32_178 c0_i32_179
  let c1_i32_180 : BitVec 32 := 1#32
  let v391 : BitVec 32 := Scalar.select v390 c1_i32_180 c2_i32_178
  let v392 : BitVec 32 := Scalar.remsi v259 v391
  let c0_i32_182 : BitVec 32 := 0#32
  let v394 : BitVec 1 := Scalar.cmpi .slt v392 c0_i32_182
  let c0_i32_183 : BitVec 32 := 0#32
  let v395 : BitVec 1 := Scalar.cmpi .slt v391 c0_i32_183
  let v396 : BitVec 1 := Scalar.xori v394 v395
  let c0_i32_181 : BitVec 32 := 0#32
  let v393 : BitVec 1 := Scalar.cmpi .ne v392 c0_i32_181
  let v397 : BitVec 1 := Scalar.andi v396 v393
  let v398 : BitVec 32 := Scalar.addi v392 v391
  let v399 : BitVec 32 := Scalar.select v397 v398 v392
  let c30720_i32_184 : BitVec 32 := 30720#32
  let v400 : BitVec 32 := Scalar.muli v399 c30720_i32_184
  let v401 : BitVec 32 := Scalar.addi c4096_i32_185 v400
  ![v389.toNat, v401.toNat]
def k1_cond5 (k1_t1 : Fin k1_t1_loop.trips) : BitVec 1 :=
  let c4_i32_120 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v263 : BitVec 32 := Scalar.muli c4_i32_120 v40
  let c3_i32_121 : BitVec 32 := 3#32
  let v264 : BitVec 32 := Scalar.addi v263 c3_i32_121
  let c3_i32_152 : BitVec 32 := 3#32
  let v333 : BitVec 32 := Scalar.addi v264 c3_i32_152
  let c48_i32_153 : BitVec 32 := 48#32
  let v334 : BitVec 1 := Scalar.cmpi .slt v333 c48_i32_153
  let v335 : BitVec 32 := Scalar.extui v334
  let c0_i32_154 : BitVec 32 := 0#32
  let v336 : BitVec 1 := Scalar.cmpi .ne v335 c0_i32_154
  v336

def k1_off10 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let c4_i32_120 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v263 : BitVec 32 := Scalar.muli c4_i32_120 v40
  let c3_i32_121 : BitVec 32 := 3#32
  let v264 : BitVec 32 := Scalar.addi v263 c3_i32_121
  let c3_i32_152 : BitVec 32 := 3#32
  let v333 : BitVec 32 := Scalar.addi v264 c3_i32_152
  let c4_i32_155 : BitVec 32 := 4#32
  let v337 : BitVec 32 := Scalar.subi v333 c4_i32_155
  let c0_i32_157 : BitVec 32 := 0#32
  let v339 : BitVec 1 := Scalar.cmpi .sgt v337 c0_i32_157
  let v340 : BitVec 32 := Scalar.extui v339
  let c0_i32_158 : BitVec 32 := 0#32
  let v341 : BitVec 1 := Scalar.cmpi .slt v337 c0_i32_158
  let v342 : BitVec 32 := Scalar.extui v341
  let v343 : BitVec 32 := Scalar.subi v340 v342
  let c2_i32_156 : BitVec 32 := 2#32
  let c0_i32_159 : BitVec 32 := 0#32
  let v344 : BitVec 1 := Scalar.cmpi .sgt c2_i32_156 c0_i32_159
  let v345 : BitVec 32 := Scalar.extui v344
  let c0_i32_160 : BitVec 32 := 0#32
  let v346 : BitVec 1 := Scalar.cmpi .slt c2_i32_156 c0_i32_160
  let v347 : BitVec 32 := Scalar.extui v346
  let v348 : BitVec 32 := Scalar.subi v345 v347
  let v349 : BitVec 1 := Scalar.cmpi .ne v343 v348
  let v350 : BitVec 32 := Scalar.remsi v337 c2_i32_156
  let c0_i32_161 : BitVec 32 := 0#32
  let v351 : BitVec 1 := Scalar.cmpi .ne v350 c0_i32_161
  let v352 : BitVec 1 := Scalar.andi v349 v351
  let v338 : BitVec 32 := Scalar.divsi v337 c2_i32_156
  let c1_i32_162 : BitVec 32 := 1#32
  let v353 : BitVec 32 := Scalar.subi v338 c1_i32_162
  let v354 : BitVec 32 := Scalar.select v352 v353 v338
  let v355 : BitVec 32 := Scalar.addi v2 v354
  let c4096_i32_170 : BitVec 32 := 4096#32
  let c2_i32_163 : BitVec 32 := 2#32
  let c0_i32_164 : BitVec 32 := 0#32
  let v356 : BitVec 1 := Scalar.cmpi .eq c2_i32_163 c0_i32_164
  let c1_i32_165 : BitVec 32 := 1#32
  let v357 : BitVec 32 := Scalar.select v356 c1_i32_165 c2_i32_163
  let v358 : BitVec 32 := Scalar.remsi v337 v357
  let c0_i32_167 : BitVec 32 := 0#32
  let v360 : BitVec 1 := Scalar.cmpi .slt v358 c0_i32_167
  let c0_i32_168 : BitVec 32 := 0#32
  let v361 : BitVec 1 := Scalar.cmpi .slt v357 c0_i32_168
  let v362 : BitVec 1 := Scalar.xori v360 v361
  let c0_i32_166 : BitVec 32 := 0#32
  let v359 : BitVec 1 := Scalar.cmpi .ne v358 c0_i32_166
  let v363 : BitVec 1 := Scalar.andi v362 v359
  let v364 : BitVec 32 := Scalar.addi v358 v357
  let v365 : BitVec 32 := Scalar.select v363 v364 v358
  let c30720_i32_169 : BitVec 32 := 30720#32
  let v366 : BitVec 32 := Scalar.muli v365 c30720_i32_169
  let v367 : BitVec 32 := Scalar.addi c4096_i32_170 v366
  ![v355.toNat, v367.toNat]
def k1_off11 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c24_i32 : BitVec 32 := 24#32
  let v2 : BitVec 32 := Scalar.muli v1 c24_i32
  let c4_i32_120 : BitVec 32 := 4#32
  let c0_i32_19 : BitVec 32 := 0#32
  let c0_i32_5 : BitVec 32 := 0#32
  let c1_i32_6 : BitVec 32 := 1#32
  let arg16 : BitVec 32 := Scf.iv c0_i32_5 c1_i32_6 k1_t1
  let c1_i32_18 : BitVec 32 := 1#32
  let v39 : BitVec 32 := Scalar.muli arg16 c1_i32_18
  let v40 : BitVec 32 := Scalar.addi c0_i32_19 v39
  let v263 : BitVec 32 := Scalar.muli c4_i32_120 v40
  let c3_i32_121 : BitVec 32 := 3#32
  let v264 : BitVec 32 := Scalar.addi v263 c3_i32_121
  let c3_i32_152 : BitVec 32 := 3#32
  let v333 : BitVec 32 := Scalar.addi v264 c3_i32_152
  let c0_i32_172 : BitVec 32 := 0#32
  let v373 : BitVec 1 := Scalar.cmpi .sgt v333 c0_i32_172
  let v374 : BitVec 32 := Scalar.extui v373
  let c0_i32_173 : BitVec 32 := 0#32
  let v375 : BitVec 1 := Scalar.cmpi .slt v333 c0_i32_173
  let v376 : BitVec 32 := Scalar.extui v375
  let v377 : BitVec 32 := Scalar.subi v374 v376
  let c2_i32_171 : BitVec 32 := 2#32
  let c0_i32_174 : BitVec 32 := 0#32
  let v378 : BitVec 1 := Scalar.cmpi .sgt c2_i32_171 c0_i32_174
  let v379 : BitVec 32 := Scalar.extui v378
  let c0_i32_175 : BitVec 32 := 0#32
  let v380 : BitVec 1 := Scalar.cmpi .slt c2_i32_171 c0_i32_175
  let v381 : BitVec 32 := Scalar.extui v380
  let v382 : BitVec 32 := Scalar.subi v379 v381
  let v383 : BitVec 1 := Scalar.cmpi .ne v377 v382
  let v384 : BitVec 32 := Scalar.remsi v333 c2_i32_171
  let c0_i32_176 : BitVec 32 := 0#32
  let v385 : BitVec 1 := Scalar.cmpi .ne v384 c0_i32_176
  let v386 : BitVec 1 := Scalar.andi v383 v385
  let v372 : BitVec 32 := Scalar.divsi v333 c2_i32_171
  let c1_i32_177 : BitVec 32 := 1#32
  let v387 : BitVec 32 := Scalar.subi v372 c1_i32_177
  let v388 : BitVec 32 := Scalar.select v386 v387 v372
  let v389 : BitVec 32 := Scalar.addi v2 v388
  let c4096_i32_185 : BitVec 32 := 4096#32
  let c2_i32_178 : BitVec 32 := 2#32
  let c0_i32_179 : BitVec 32 := 0#32
  let v390 : BitVec 1 := Scalar.cmpi .eq c2_i32_178 c0_i32_179
  let c1_i32_180 : BitVec 32 := 1#32
  let v391 : BitVec 32 := Scalar.select v390 c1_i32_180 c2_i32_178
  let v392 : BitVec 32 := Scalar.remsi v333 v391
  let c0_i32_182 : BitVec 32 := 0#32
  let v394 : BitVec 1 := Scalar.cmpi .slt v392 c0_i32_182
  let c0_i32_183 : BitVec 32 := 0#32
  let v395 : BitVec 1 := Scalar.cmpi .slt v391 c0_i32_183
  let v396 : BitVec 1 := Scalar.xori v394 v395
  let c0_i32_181 : BitVec 32 := 0#32
  let v393 : BitVec 1 := Scalar.cmpi .ne v392 c0_i32_181
  let v397 : BitVec 1 := Scalar.andi v396 v393
  let v398 : BitVec 32 := Scalar.addi v392 v391
  let v399 : BitVec 32 := Scalar.select v397 v398 v392
  let c30720_i32_184 : BitVec 32 := 30720#32
  let v400 : BitVec 32 := Scalar.muli v399 c30720_i32_184
  let v401 : BitVec 32 := Scalar.addi c4096_i32_185 v400
  ![v389.toNat, v401.toNat]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S768x768 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S768x768 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S768x768 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x768 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x768 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x768 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x768 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x768 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x768 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x768 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S512x768 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S768x512 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev grid3 : Pipeline.Grid := ⟨1, ![2], ![false]⟩

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S768x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S768x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2304x768_S768x768_1536_0 : S2304x768.Slices ![1536, 0] S768x768
  slices_S2304_S768_1536 : S2304.Slices ![1536] S768
  shapeCasts_S768_S1x768 : S768.ShapeCasts S1x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  transposes_S768x768_p1_0_S768x768 : S768x768.Transposes [1, 0] S768x768
  bitsLt_bf16_f32 : FTy.bits .bf16 < FTy.bits .f32
  packedbf16_S768x768_S768x768_0_0 : (Rect.unit (s := S768x768) ![0, 0] S768x768.size inb_S768x768_S768x768_0_0).PackedRows (EltTy.packing .bf16)
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S768x1536_S768x768_0_0 : ∀ a, (![0, 0] : Fin 2 → Nat) a + S768x768.size a ≤ S768x1536.size a
  inb_S768x1536_S768x768_0_768 : ∀ a, (![0, 768] : Fin 2 → Nat) a + S768x768.size a ≤ S768x1536.size a
  squeezes_S1x30720_S30720 : S1x30720.Squeezes S30720
  inb_S512x768_S512x768_0_0 : ∀ a, (![0, 0] : Fin 2 → Nat) a + S512x768.size a ≤ S512x768.size a
  h_S512x768 : 0 < S512x768.numel
  shapeCasts_S512x768_S512x768 : S512x768.ShapeCasts S512x768
  broadcasts_S1x768_S512x768 : S1x768.Broadcasts S512x768
  reduces_S512x768_S512 : S512x768.Reduces [1] S512
  shapeCasts_S512_S512x1 : S512.ShapeCasts S512x1
  broadcasts_S512x1_S512x768 : S512x1.Broadcasts S512x768
  transposes_S512x768_p1_0_S768x512 : S512x768.Transposes [1, 0] S768x512
  inb_S768x512_S768x512_0_0 : ∀ a, (![0, 0] : Fin 2 → Nat) a + S768x512.size a ≤ S768x512.size a
  h_S768x512 : 0 < S768x512.numel
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  bcast_S_S1 : S_.BroadcastsInDim S1 (![] : Fin 0 → Fin S1.rank)
  dot_S768x768_S768x768_S768x768_1_0_0_1_n_n_wf : DotDims.WF S768x768 S768x768 S768x768 [1] [0] [0] [1] [] []
  dot_S1x768_S768x768_S1x768_1_0_0_1_n_n_wf : DotDims.WF S1x768 S768x768 S1x768 [1] [0] [0] [1] [] []
  dot_S512x768_S768x768_S512x768_1_0_0_1_n_n_wf : DotDims.WF S512x768 S768x768 S512x768 [1] [0] [0] [1] [] []
  hcc1_scratch4 : 15 + S_.numel ≤ 48
  hcc1_scratch5 : 16 + S_.numel ≤ 48
  hcc1_scratch6 : 17 + S_.numel ≤ 48
  hcc1_scratch7 : 18 + S_.numel ≤ 48
  hcc1_scratch8 : 19 + S_.numel ≤ 48
  hcc1_scratch9 : 20 + S_.numel ≤ 48
  hcc1_scratch10 : 21 + S_.numel ≤ 48
  hcc1_scratch11 : 22 + S_.numel ≤ 48
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hcore1 : grid1.bound 0 ≤ τ.nSC
  hsub1 : grid1.bound 1 ≤ τ.nSub
  k1_off1_inb : ∀ i : grid1.Coords, ∀ (r : Fin 4), ∀ a, (k1_off1 i (k1_off1_at r)) a + S1x30720.size a ≤ S768x65536.size a
  k1_off2_inb : ∀ i : grid1.Coords, ∀ (r : Fin 3), ∀ a, (k1_off2 i (k1_off2_at r)) a + S1x30720.size a ≤ S768x65536.size a
  k1_t1_ok : k1_t1_loop.OK
  k1_off3_inb : ∀ (i : grid1.Coords) (k1_t1 : Fin k1_t1_loop.trips), ∀ (r : Fin 4), ∀ a, (k1_off3 i k1_t1 (BitVec.ofNat 32 r.val)) a + S1x30720.size a ≤ S768x65536.size a
  k1_off4_inb : ∀ (i : grid1.Coords) (k1_t1 : Fin k1_t1_loop.trips), ∀ (k1_h1 : k1_cond1 k1_t1 = 1#1), ∀ (k1_h2 : k1_cond2 k1_t1 = 1#1), ∀ a, (k1_off4 i k1_t1) a + S1x30720.size a ≤ S768x65536.size a
  k1_off5_inb : ∀ (i : grid1.Coords) (k1_t1 : Fin k1_t1_loop.trips), ∀ (k1_h1 : k1_cond1 k1_t1 = 1#1), ∀ a, (k1_off5 i k1_t1) a + S1x30720.size a ≤ S768x65536.size a
  k1_off6_inb : ∀ (i : grid1.Coords) (k1_t1 : Fin k1_t1_loop.trips), ∀ (k1_h3 : k1_cond3 k1_t1 = 1#1), ∀ a, (k1_off6 i k1_t1) a + S1x30720.size a ≤ S768x65536.size a
  k1_off7_inb : ∀ (i : grid1.Coords) (k1_t1 : Fin k1_t1_loop.trips), ∀ (k1_h3 : k1_cond3 k1_t1 = 1#1), ∀ a, (k1_off7 i k1_t1) a + S1x30720.size a ≤ S768x65536.size a
  k1_off8_inb : ∀ (i : grid1.Coords) (k1_t1 : Fin k1_t1_loop.trips), ∀ (k1_h4 : k1_cond4 k1_t1 = 1#1), ∀ a, (k1_off8 i k1_t1) a + S1x30720.size a ≤ S768x65536.size a
  k1_off9_inb : ∀ (i : grid1.Coords) (k1_t1 : Fin k1_t1_loop.trips), ∀ (k1_h4 : k1_cond4 k1_t1 = 1#1), ∀ a, (k1_off9 i k1_t1) a + S1x30720.size a ≤ S768x65536.size a
  k1_off10_inb : ∀ (i : grid1.Coords) (k1_t1 : Fin k1_t1_loop.trips), ∀ (k1_h5 : k1_cond5 k1_t1 = 1#1), ∀ a, (k1_off10 i k1_t1) a + S1x30720.size a ≤ S768x65536.size a
  k1_off11_inb : ∀ (i : grid1.Coords) (k1_t1 : Fin k1_t1_loop.trips), ∀ (k1_h5 : k1_cond5 k1_t1 = 1#1), ∀ a, (k1_off11 i k1_t1) a + S1x30720.size a ≤ S768x65536.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S4096x768.size a
  hwx2_0 : ∀ i : grid2.Coords, EltTy.bits .bf16 = 32 ∨ (Rect.block (s := S4096x768) S512x768.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x768.size a ≤ S4096x768.size a
  hwx2_1 : ∀ i : grid2.Coords, EltTy.bits .bf16 = 32 ∨ (Rect.block (s := S4096x768) S512x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x768.size a ≤ S768x768.size a
  hwx2_2 : ∀ i : grid2.Coords, EltTy.bits .bf16 = 32 ∨ (Rect.block (s := S768x768) S768x768.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768x768.size a ≤ S768x768.size a
  hwx2_3 : ∀ i : grid2.Coords, EltTy.bits .bf16 = 32 ∨ (Rect.block (s := S768x768) S768x768.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x768.size a ≤ S1x768.size a
  hwx2_4 : ∀ i : grid2.Coords, EltTy.bits .f32 = 32 ∨ (Rect.block (s := S1x768) S1x768.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x768.size a ≤ S1x768.size a
  hwx2_5 : ∀ i : grid2.Coords, EltTy.bits .f32 = 32 ∨ (Rect.block (s := S1x768) S1x768.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S768x768.size a ≤ S768x768.size a
  hwx2_6 : ∀ i : grid2.Coords, EltTy.bits .bf16 = 32 ∨ (Rect.block (s := S768x768) S768x768.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S768x768.size a ≤ S768x768.size a
  hwx2_7 : ∀ i : grid2.Coords, EltTy.bits .bf16 = 32 ∨ (Rect.block (s := S768x768) S768x768.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x768.size a ≤ S1x768.size a
  hwx2_8 : ∀ i : grid2.Coords, EltTy.bits .f32 = 32 ∨ (Rect.block (s := S1x768) S1x768.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x768.size a ≤ S1x768.size a
  hwx2_9 : ∀ i : grid2.Coords, EltTy.bits .f32 = 32 ∨ (Rect.block (s := S1x768) S1x768.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x768.size a ≤ S1x768.size a
  hwx2_10 : ∀ i : grid2.Coords, EltTy.bits .f32 = 32 ∨ (Rect.block (s := S1x768) S1x768.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x768.size a ≤ S1x768.size a
  hwx2_11 : ∀ i : grid2.Coords, EltTy.bits .f32 = 32 ∨ (Rect.block (s := S1x768) S1x768.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x768.size a ≤ S1x768.size a
  hwx2_12 : ∀ i : grid2.Coords, EltTy.bits .f32 = 32 ∨ (Rect.block (s := S1x768) S1x768.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x768.size a ≤ S1x768.size a
  hwx2_13 : ∀ i : grid2.Coords, EltTy.bits .f32 = 32 ∨ (Rect.block (s := S1x768) S1x768.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x768.size a ≤ S1x768.size a
  hwx2_14 : ∀ i : grid2.Coords, EltTy.bits .f32 = 32 ∨ (Rect.block (s := S1x768) S1x768.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S512x768.size a ≤ S4096x768.size a
  hwx2_15 : ∀ i : grid2.Coords, EltTy.bits .f32 = 32 ∨ (Rect.block (s := S4096x768) S512x768.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S768x512.size a ≤ S768x4096.size a
  hwx2_16 : ∀ i : grid2.Coords, EltTy.bits .f32 = 32 ∨ (Rect.block (s := S768x4096) S768x512.size (cc2_transform_16 i) (hinb2_16 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S768x2048.size a ≤ S768x4096.size a
  hwx3_0 : ∀ i : grid3.Coords, EltTy.bits .f32 = 32 ∨ (Rect.block (s := S768x4096) S768x2048.size (cc3_transform_1 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S768x2048.size a ≤ S768x65536.size a
  hwx3_1 : ∀ i : grid3.Coords, EltTy.bits .f32 = 32 ∨ (Rect.block (s := S768x65536) S768x2048.size (cc3_transform_2 i) (hinb3_1 i)).WholeWords (EltTy.packing .f32)

variable [Facts₀]

abbrev cc1_scratch4 : DmaSems sig S_ := SemArray.consecutive 15 S_ hcc1_scratch4
abbrev cc1_scratch5 : DmaSems sig S_ := SemArray.consecutive 16 S_ hcc1_scratch5
abbrev cc1_scratch6 : DmaSems sig S_ := SemArray.consecutive 17 S_ hcc1_scratch6
abbrev cc1_scratch7 : DmaSems sig S_ := SemArray.consecutive 18 S_ hcc1_scratch7
abbrev cc1_scratch8 : DmaSems sig S_ := SemArray.consecutive 19 S_ hcc1_scratch8
abbrev cc1_scratch9 : DmaSems sig S_ := SemArray.consecutive 20 S_ hcc1_scratch9
abbrev cc1_scratch10 : DmaSems sig S_ := SemArray.consecutive 21 S_ hcc1_scratch10
abbrev cc1_scratch11 : DmaSems sig S_ := SemArray.consecutive 22 S_ hcc1_scratch11
def dot_S768x768_S768x768_S768x768_1_0_0_1_n_n : DotDims S768x768 S768x768 S768x768 where
  lhsContracting := [1]
  rhsContracting := [0]
  lhsNonContracting := [0]
  rhsNonContracting := [1]
  lhsBatch := []
  rhsBatch := []
  wf := dot_S768x768_S768x768_S768x768_1_0_0_1_n_n_wf
def dot_S1x768_S768x768_S1x768_1_0_0_1_n_n : DotDims S1x768 S768x768 S1x768 where
  lhsContracting := [1]
  rhsContracting := [0]
  lhsNonContracting := [0]
  rhsNonContracting := [1]
  lhsBatch := []
  rhsBatch := []
  wf := dot_S1x768_S768x768_S1x768_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_v3) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_v4) false false (stage0_3 0) (sem0_3 0) (Memref.isWhole_whole _) (hstage0_3 0)

abbrev win0_4 : Pipeline.Window sig grid0 :=
  Pipeline.Window.whole (Memref.whole main_v0) false false (stage0_4 0) (sem0_4 0) (Memref.isWhole_whole _) (hstage0_4 0)

abbrev win0_5 : Pipeline.Window sig grid0 :=
  Pipeline.Window.whole (Memref.whole main_v2) false false (stage0_5 0) (sem0_5 0) (Memref.isWhole_whole _) (hstage0_5 0)

abbrev win0_6 : Pipeline.Window sig grid0 :=
  Pipeline.Window.whole (Memref.whole main_arg8) false false (stage0_6 0) (sem0_6 0) (Memref.isWhole_whole _) (hstage0_6 0)

abbrev win0_7 : Pipeline.Window sig grid0 :=
  Pipeline.Window.whole (Memref.whole main_v5) false false (stage0_7 0) (sem0_7 0) (Memref.isWhole_whole _) (hstage0_7 0)

abbrev win0_8 : Pipeline.Window sig grid0 :=
  Pipeline.Window.whole (Memref.whole main_arg10) false false (stage0_8 0) (sem0_8 0) (Memref.isWhole_whole _) (hstage0_8 0)

abbrev win0_9 : Pipeline.Window sig grid0 :=
  Pipeline.Window.whole (Memref.whole main_v6_0) true false (stage0_9 0) (sem0_9 0) (Memref.isWhole_whole _) (hstage0_9 0)

abbrev win0_10 : Pipeline.Window sig grid0 :=
  Pipeline.Window.whole (Memref.whole main_v6_1) true false (stage0_10 0) (sem0_10 0) (Memref.isWhole_whole _) (hstage0_10 0)

abbrev win0_11 : Pipeline.Window sig grid0 :=
  Pipeline.Window.whole (Memref.whole main_v6_2) true false (stage0_11 0) (sem0_11 0) (Memref.isWhole_whole _) (hstage0_11 0)

abbrev win0_12 : Pipeline.Window sig grid0 :=
  Pipeline.Window.whole (Memref.whole main_v6_3) true false (stage0_12 0) (sem0_12 0) (Memref.isWhole_whole _) (hstage0_12 0)

abbrev win0_13 : Pipeline.Window sig grid0 :=
  Pipeline.Window.whole (Memref.whole main_v6_4) true false (stage0_13 0) (sem0_13 0) (Memref.isWhole_whole _) (hstage0_13 0)

abbrev win0_14 : Pipeline.Window sig grid0 :=
  Pipeline.Window.whole (Memref.whole main_v6_5) true false (stage0_14 0) (sem0_14 0) (Memref.isWhole_whole _) (hstage0_14 0)

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win2_0 : Pipeline.Window sig grid2 :=
  Pipeline.Window.ofSpec (Memref.whole main_v8) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S512x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_0) S768x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6_1) S768x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6_2) S1x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6_3) S1x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6_4) S768x768.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6_5) S768x768.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v10) S1x768.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v11) S1x768.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v12) S1x768.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v13) S1x768.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v14) S1x768.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v15) S1x768.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v16) S1x768.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v17_0) S512x768.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v17_1) S768x512.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev win3_0 : Pipeline.Window sig grid3 :=
  Pipeline.Window.ofSpec (Memref.whole main_v17_1) S768x2048.size cc3_transform_1 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S768x2048.size cc3_transform_2 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S4096x768 : Shape := ⟨2, ![4096, 768]⟩
abbrev S768x768 : Shape := ⟨2, ![768, 768]⟩
abbrev S768 : Shape := ⟨1, ![768]⟩
abbrev S2304x768 : Shape := ⟨2, ![2304, 768]⟩
abbrev S2304 : Shape := ⟨1, ![2304]⟩
abbrev S768x1536 : Shape := ⟨2, ![768, 1536]⟩
abbrev S768x65536 : Shape := ⟨2, ![768, 65536]⟩
abbrev S1 : Shape := ⟨1, ![1]⟩
abbrev S1x768 : Shape := ⟨2, ![1, 768]⟩
abbrev S4096x8x96 : Shape := ⟨3, ![4096, 8, 96]⟩
abbrev S_ : Shape := ⟨0, ![]⟩
abbrev S4096x8 : Shape := ⟨2, ![4096, 8]⟩
abbrev S4096x8x1 : Shape := ⟨3, ![4096, 8, 1]⟩
abbrev S4096 : Shape := ⟨1, ![4096]⟩
abbrev S4096x1 : Shape := ⟨2, ![4096, 1]⟩
abbrev S4096x1536 : Shape := ⟨2, ![4096, 1536]⟩
abbrev S1536x768 : Shape := ⟨2, ![1536, 768]⟩
abbrev S768x4096 : Shape := ⟨2, ![768, 4096]⟩

abbrev nBuf : Space → Nat
  | .hbm => 336
  | .vmem => 0
  | .smem => 0
  | _ => 0

abbrev hbmTy0_0 (i : Nat) : BufTy := match i % 128 with
  | 0 => ⟨S4096x768, .f32⟩
  | 1 => ⟨S4096x768, .f32⟩
  | 2 => ⟨S768x768, .f32⟩
  | 3 => ⟨S768, .f32⟩
  | 4 => ⟨S768x768, .f32⟩
  | 5 => ⟨S768, .f32⟩
  | 6 => ⟨S2304x768, .f32⟩
  | 7 => ⟨S2304, .f32⟩
  | 8 => ⟨S768x768, .f32⟩
  | 9 => ⟨S768, .f32⟩
  | 10 => ⟨S768x1536, .f32⟩
  | 11 => ⟨S768, .f32⟩
  | 12 => ⟨S768, .f32⟩
  | 13 => ⟨S768, .f32⟩
  | 14 => ⟨S768, .f32⟩
  | 15 => ⟨S768, .f32⟩
  | 16 => ⟨S768, .f32⟩
  | 17 => ⟨S768, .f32⟩
  | 18 => ⟨S768x65536, .f32⟩
  | 19 => ⟨S1, .i32⟩
  | 20 => ⟨S768x768, .f32⟩
  | 21 => ⟨S4096x768, .f32⟩
  | 22 => ⟨S1x768, .f32⟩
  | 23 => ⟨S4096x768, .f32⟩
  | 24 => ⟨S4096x768, .f32⟩
  | 25 => ⟨S768x768, .f32⟩
  | 26 => ⟨S4096x768, .f32⟩
  | 27 => ⟨S1x768, .f32⟩
  | 28 => ⟨S4096x768, .f32⟩
  | 29 => ⟨S4096x768, .f32⟩
  | 30 => ⟨S768x768, .f32⟩
  | 31 => ⟨S768x768, .f32⟩
  | 32 => ⟨S768x768, .f32⟩
  | 33 => ⟨S768, .f32⟩
  | 34 => ⟨S768, .f32⟩
  | 35 => ⟨S768, .f32⟩
  | 36 => ⟨S768x768, .f32⟩
  | 37 => ⟨S4096x768, .f32⟩
  | 38 => ⟨S1x768, .f32⟩
  | 39 => ⟨S4096x768, .f32⟩
  | 40 => ⟨S4096x768, .f32⟩
  | 41 => ⟨S768x768, .f32⟩
  | 42 => ⟨S4096x768, .f32⟩
  | 43 => ⟨S1x768, .f32⟩
  | 44 => ⟨S4096x768, .f32⟩
  | 45 => ⟨S4096x768, .f32⟩
  | 46 => ⟨S768x768, .f32⟩
  | 47 => ⟨S4096x768, .f32⟩
  | 48 => ⟨S1x768, .f32⟩
  | 49 => ⟨S4096x768, .f32⟩
  | 50 => ⟨S4096x768, .f32⟩
  | 51 => ⟨S4096x8x96, .f32⟩
  | 52 => ⟨S4096x8x96, .f32⟩
  | 53 => ⟨S4096x8x96, .f32⟩
  | 54 => ⟨S4096x8x96, .f32⟩
  | 55 => ⟨S_, .f32⟩
  | 56 => ⟨S4096x8, .f32⟩
  | 57 => ⟨S4096x8x1, .f32⟩
  | 58 => ⟨S_, .f32⟩
  | 59 => ⟨S4096x8x1, .f32⟩
  | 60 => ⟨S4096x8x1, .f32⟩
  | 61 => ⟨S_, .f32⟩
  | 62 => ⟨S4096x8, .f32⟩
  | 63 => ⟨S_, .f32⟩
  | 64 => ⟨S4096x8, .f32⟩
  | 65 => ⟨S4096x8, .f32⟩
  | 66 => ⟨S4096x8x1, .f32⟩
  | 67 => ⟨S4096x8x1, .f32⟩
  | 68 => ⟨S4096x8x1, .f32⟩
  | 69 => ⟨S_, .f32⟩
  | 70 => ⟨S4096x8, .f32⟩
  | 71 => ⟨S4096x8x1, .f32⟩
  | 72 => ⟨S4096x8x1, .f32⟩
  | 73 => ⟨S4096x8x96, .f32⟩
  | 74 => ⟨S4096x8x96, .f32⟩
  | 75 => ⟨S4096x768, .f32⟩
  | 76 => ⟨S768x768, .f32⟩
  | 77 => ⟨S4096x768, .f32⟩
  | 78 => ⟨S1x768, .f32⟩
  | 79 => ⟨S4096x768, .f32⟩
  | 80 => ⟨S4096x768, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S_, .i32⟩
  | 88 => ⟨S_, .f32⟩
  | 89 => ⟨S4096, .f32⟩
  | 90 => ⟨S4096x1, .f32⟩
  | 91 => ⟨S_, .f32⟩
  | 92 => ⟨S4096x1, .f32⟩
  | 93 => ⟨S4096x1, .f32⟩
  | 94 => ⟨S4096x768, .f32⟩
  | 95 => ⟨S4096x768, .f32⟩
  | 96 => ⟨S4096x768, .f32⟩
  | 97 => ⟨S_, .f32⟩
  | 98 => ⟨S_, .f32⟩
  | 99 => ⟨S_, .f32⟩
  | 100 => ⟨S_, .f32⟩
  | 101 => ⟨S4096, .f32⟩
  | 102 => ⟨S4096x1, .f32⟩
  | 103 => ⟨S4096x1, .f32⟩
  | 104 => ⟨S4096x1, .f32⟩
  | 105 => ⟨S_, .f32⟩
  | 106 => ⟨S_, .i1⟩
  | 107 => ⟨S_, .f32⟩
  | 108 => ⟨S_, .f32⟩
  | 109 => ⟨S4096x1, .f32⟩
  | 110 => ⟨S4096x1, .f32⟩
  | 111 => ⟨S4096x768, .f32⟩
  | 112 => ⟨S4096x768, .f32⟩
  | 113 => ⟨S_, .f32⟩
  | 114 => ⟨S4096x1, .f32⟩
  | 115 => ⟨S4096x1, .f32⟩
  | 116 => ⟨S4096x1, .f32⟩
  | 117 => ⟨S4096x768, .f32⟩
  | 118 => ⟨S4096x768, .f32⟩
  | 119 => ⟨S1x768, .f32⟩
  | 120 => ⟨S4096x768, .f32⟩
  | 121 => ⟨S4096x768, .f32⟩
  | 122 => ⟨S1x768, .f32⟩
  | 123 => ⟨S4096x768, .f32⟩
  | 124 => ⟨S4096x768, .f32⟩
  | 125 => ⟨S768x768, .f32⟩
  | 126 => ⟨S768x768, .f32⟩
  | 127 => ⟨S768x768, .f32⟩
  | _ => ⟨S4096x768, .f32⟩

abbrev hbmTy0_1 (i : Nat) : BufTy := match i % 128 with
  | 0 => ⟨S768, .f32⟩
  | 1 => ⟨S768, .f32⟩
  | 2 => ⟨S768, .f32⟩
  | 3 => ⟨S768x768, .f32⟩
  | 4 => ⟨S4096x768, .f32⟩
  | 5 => ⟨S1x768, .f32⟩
  | 6 => ⟨S4096x768, .f32⟩
  | 7 => ⟨S4096x768, .f32⟩
  | 8 => ⟨S768x768, .f32⟩
  | 9 => ⟨S4096x768, .f32⟩
  | 10 => ⟨S1x768, .f32⟩
  | 11 => ⟨S4096x768, .f32⟩
  | 12 => ⟨S4096x768, .f32⟩
  | 13 => ⟨S768x768, .f32⟩
  | 14 => ⟨S4096x768, .f32⟩
  | 15 => ⟨S1x768, .f32⟩
  | 16 => ⟨S4096x768, .f32⟩
  | 17 => ⟨S4096x768, .f32⟩
  | 18 => ⟨S4096x8x96, .f32⟩
  | 19 => ⟨S4096x8x96, .f32⟩
  | 20 => ⟨S4096x8x96, .f32⟩
  | 21 => ⟨S4096x8x96, .f32⟩
  | 22 => ⟨S_, .f32⟩
  | 23 => ⟨S4096x8, .f32⟩
  | 24 => ⟨S4096x8x1, .f32⟩
  | 25 => ⟨S_, .f32⟩
  | 26 => ⟨S4096x8x1, .f32⟩
  | 27 => ⟨S4096x8x1, .f32⟩
  | 28 => ⟨S_, .f32⟩
  | 29 => ⟨S4096x8, .f32⟩
  | 30 => ⟨S_, .f32⟩
  | 31 => ⟨S4096x8, .f32⟩
  | 32 => ⟨S4096x8, .f32⟩
  | 33 => ⟨S4096x8x1, .f32⟩
  | 34 => ⟨S4096x8x1, .f32⟩
  | 35 => ⟨S4096x8x1, .f32⟩
  | 36 => ⟨S_, .f32⟩
  | 37 => ⟨S4096x8, .f32⟩
  | 38 => ⟨S4096x8x1, .f32⟩
  | 39 => ⟨S4096x8x1, .f32⟩
  | 40 => ⟨S4096x8x96, .f32⟩
  | 41 => ⟨S4096x8x96, .f32⟩
  | 42 => ⟨S4096x768, .f32⟩
  | 43 => ⟨S768x768, .f32⟩
  | 44 => ⟨S4096x768, .f32⟩
  | 45 => ⟨S1x768, .f32⟩
  | 46 => ⟨S4096x768, .f32⟩
  | 47 => ⟨S4096x768, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .i32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S4096x768, .f32⟩
  | 62 => ⟨S4096x768, .f32⟩
  | 63 => ⟨S4096x768, .f32⟩
  | 64 => ⟨S_, .f32⟩
  | 65 => ⟨S_, .f32⟩
  | 66 => ⟨S_, .f32⟩
  | 67 => ⟨S_, .f32⟩
  | 68 => ⟨S4096, .f32⟩
  | 69 => ⟨S4096x1, .f32⟩
  | 70 => ⟨S4096x1, .f32⟩
  | 71 => ⟨S4096x1, .f32⟩
  | 72 => ⟨S_, .f32⟩
  | 73 => ⟨S_, .i1⟩
  | 74 => ⟨S_, .f32⟩
  | 75 => ⟨S_, .f32⟩
  | 76 => ⟨S4096x1, .f32⟩
  | 77 => ⟨S4096x1, .f32⟩
  | 78 => ⟨S4096x768, .f32⟩
  | 79 => ⟨S4096x768, .f32⟩
  | 80 => ⟨S_, .f32⟩
  | 81 => ⟨S4096x1, .f32⟩
  | 82 => ⟨S4096x1, .f32⟩
  | 83 => ⟨S4096x1, .f32⟩
  | 84 => ⟨S4096x768, .f32⟩
  | 85 => ⟨S4096x768, .f32⟩
  | 86 => ⟨S1x768, .f32⟩
  | 87 => ⟨S4096x768, .f32⟩
  | 88 => ⟨S4096x768, .f32⟩
  | 89 => ⟨S1x768, .f32⟩
  | 90 => ⟨S4096x768, .f32⟩
  | 91 => ⟨S4096x768, .f32⟩
  | 92 => ⟨S4096x1536, .f32⟩
  | 93 => ⟨S1536x768, .f32⟩
  | 94 => ⟨S4096x768, .f32⟩
  | 95 => ⟨S1x768, .f32⟩
  | 96 => ⟨S4096x768, .f32⟩
  | 97 => ⟨S4096x768, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S_, .i32⟩
  | 105 => ⟨S_, .f32⟩
  | 106 => ⟨S4096, .f32⟩
  | 107 => ⟨S4096x1, .f32⟩
  | 108 => ⟨S_, .f32⟩
  | 109 => ⟨S4096x1, .f32⟩
  | 110 => ⟨S4096x1, .f32⟩
  | 111 => ⟨S4096x768, .f32⟩
  | 112 => ⟨S4096x768, .f32⟩
  | 113 => ⟨S4096x768, .f32⟩
  | 114 => ⟨S_, .f32⟩
  | 115 => ⟨S_, .f32⟩
  | 116 => ⟨S_, .f32⟩
  | 117 => ⟨S_, .f32⟩
  | 118 => ⟨S4096, .f32⟩
  | 119 => ⟨S4096x1, .f32⟩
  | 120 => ⟨S4096x1, .f32⟩
  | 121 => ⟨S4096x1, .f32⟩
  | 122 => ⟨S_, .f32⟩
  | 123 => ⟨S_, .i1⟩
  | 124 => ⟨S_, .f32⟩
  | 125 => ⟨S_, .f32⟩
  | 126 => ⟨S4096x1, .f32⟩
  | 127 => ⟨S4096x1, .f32⟩
  | _ => ⟨S4096x768, .f32⟩

abbrev hbmTy0_2 (i : Nat) : BufTy := match i % 128 with
  | 0 => ⟨S4096x768, .f32⟩
  | 1 => ⟨S4096x768, .f32⟩
  | 2 => ⟨S_, .f32⟩
  | 3 => ⟨S4096x1, .f32⟩
  | 4 => ⟨S4096x1, .f32⟩
  | 5 => ⟨S4096x1, .f32⟩
  | 6 => ⟨S4096x768, .f32⟩
  | 7 => ⟨S4096x768, .f32⟩
  | 8 => ⟨S1x768, .f32⟩
  | 9 => ⟨S4096x768, .f32⟩
  | 10 => ⟨S4096x768, .f32⟩
  | 11 => ⟨S1x768, .f32⟩
  | 12 => ⟨S4096x768, .f32⟩
  | 13 => ⟨S4096x768, .f32⟩
  | 14 => ⟨S4096x768, .f32⟩
  | 15 => ⟨S_, .f32⟩
  | 16 => ⟨S4096, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x768, .f32⟩
  | 23 => ⟨S4096x768, .f32⟩
  | 24 => ⟨S_, .i32⟩
  | 25 => ⟨S4096, .i32⟩
  | 26 => ⟨S4096, .i32⟩
  | 27 => ⟨S4096, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i1⟩
  | 42 => ⟨S_, .i32⟩
  | 43 => ⟨S_, .i1⟩
  | 44 => ⟨S4096, .i1⟩
  | 45 => ⟨S4096, .i1⟩
  | 46 => ⟨S4096, .i1⟩
  | 47 => ⟨S4096, .i32⟩
  | 48 => ⟨S4096, .i32⟩
  | 49 => ⟨S4096, .i32⟩
  | 50 => ⟨S768x4096, .f32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S768x65536, .f32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i1⟩
  | 73 => ⟨S_, .i32⟩
  | 74 => ⟨S_, .i1⟩
  | 75 => ⟨S_, .i1⟩
  | 76 => ⟨S_, .i1⟩
  | 77 => ⟨S_, .i32⟩
  | 78 => ⟨S_, .i32⟩
  | 79 => ⟨S1, .i32⟩
  | _ => ⟨S4096x768, .f32⟩

abbrev hbmTy (i : Nat) : BufTy := match i / 128 with
  | 0 => hbmTy0_0 i
  | 1 => hbmTy0_1 i
  | 2 => hbmTy0_2 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_v35 : Ref sig .tc := ⟨.hbm, 56, rfl⟩
abbrev main_v36 : Ref sig .tc := ⟨.hbm, 57, rfl⟩
abbrev main_cst_0 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_4 : Ref sig .tc := ⟨.hbm, 81, rfl⟩
abbrev main_v56 : Ref sig .tc := ⟨.hbm, 82, rfl⟩
abbrev main_v57 : Ref sig .tc := ⟨.hbm, 83, rfl⟩
abbrev main_cst_5 : Ref sig .tc := ⟨.hbm, 84, rfl⟩
abbrev main_v58 : Ref sig .tc := ⟨.hbm, 85, rfl⟩
abbrev main_v59 : Ref sig .tc := ⟨.hbm, 86, rfl⟩
abbrev main_c : Ref sig .tc := ⟨.hbm, 87, rfl⟩
abbrev main_call0_cst : Ref sig .tc := ⟨.hbm, 88, rfl⟩
abbrev main_call0_v0 : Ref sig .tc := ⟨.hbm, 89, rfl⟩
abbrev main_call0_v1 : Ref sig .tc := ⟨.hbm, 90, rfl⟩
abbrev main_call0_cst_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_cst_1 : Ref sig .tc := ⟨.hbm, 98, rfl⟩
abbrev main_call0_v8 : Ref sig .tc := ⟨.hbm, 99, rfl⟩
abbrev main_call0_cst_2 : Ref sig .tc := ⟨.hbm, 100, rfl⟩
abbrev main_call0_v9 : Ref sig .tc := ⟨.hbm, 101, rfl⟩
abbrev main_call0_v10 : Ref sig .tc := ⟨.hbm, 102, rfl⟩
abbrev main_call0_v11 : Ref sig .tc := ⟨.hbm, 103, rfl⟩
abbrev main_call0_v12 : Ref sig .tc := ⟨.hbm, 104, rfl⟩
abbrev main_call0_cst_3 : Ref sig .tc := ⟨.hbm, 105, rfl⟩
abbrev main_call0_v13 : Ref sig .tc := ⟨.hbm, 106, rfl⟩
abbrev main_call0_cst_4 : Ref sig .tc := ⟨.hbm, 107, rfl⟩
abbrev main_call0_call0_v0 : Ref sig .tc := ⟨.hbm, 108, rfl⟩
abbrev main_call0_call0_v1 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_6 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_7 : Ref sig .tc := ⟨.hbm, 150, rfl⟩
abbrev main_v99 : Ref sig .tc := ⟨.hbm, 151, rfl⟩
abbrev main_v100 : Ref sig .tc := ⟨.hbm, 152, rfl⟩
abbrev main_cst_8 : Ref sig .tc := ⟨.hbm, 153, rfl⟩
abbrev main_v101 : Ref sig .tc := ⟨.hbm, 154, rfl⟩
abbrev main_v102 : Ref sig .tc := ⟨.hbm, 155, rfl⟩
abbrev main_cst_9 : Ref sig .tc := ⟨.hbm, 156, rfl⟩
abbrev main_v103 : Ref sig .tc := ⟨.hbm, 157, rfl⟩
abbrev main_cst_10 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_11 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_12 : Ref sig .tc := ⟨.hbm, 176, rfl⟩
abbrev main_v120 : Ref sig .tc := ⟨.hbm, 177, rfl⟩
abbrev main_v121 : Ref sig .tc := ⟨.hbm, 178, rfl⟩
abbrev main_cst_13 : Ref sig .tc := ⟨.hbm, 179, rfl⟩
abbrev main_v122 : Ref sig .tc := ⟨.hbm, 180, rfl⟩
abbrev main_v123 : Ref sig .tc := ⟨.hbm, 181, rfl⟩
abbrev main_c_14 : Ref sig .tc := ⟨.hbm, 182, rfl⟩
abbrev main_call1_cst : Ref sig .tc := ⟨.hbm, 183, rfl⟩
abbrev main_call1_v0 : Ref sig .tc := ⟨.hbm, 184, rfl⟩
abbrev main_call1_v1 : Ref sig .tc := ⟨.hbm, 185, rfl⟩
abbrev main_call1_cst_0 : Ref sig .tc := ⟨.hbm, 186, rfl⟩
abbrev main_call1_v2 : Ref sig .tc := ⟨.hbm, 187, rfl⟩
abbrev main_call1_v3 : Ref sig .tc := ⟨.hbm, 188, rfl⟩
abbrev main_call1_v4 : Ref sig .tc := ⟨.hbm, 189, rfl⟩
abbrev main_call1_v5 : Ref sig .tc := ⟨.hbm, 190, rfl⟩
abbrev main_call1_v6 : Ref sig .tc := ⟨.hbm, 191, rfl⟩
abbrev main_call1_v7 : Ref sig .tc := ⟨.hbm, 192, rfl⟩
abbrev main_call1_cst_1 : Ref sig .tc := ⟨.hbm, 193, rfl⟩
abbrev main_call1_v8 : Ref sig .tc := ⟨.hbm, 194, rfl⟩
abbrev main_call1_cst_2 : Ref sig .tc := ⟨.hbm, 195, rfl⟩
abbrev main_call1_v9 : Ref sig .tc := ⟨.hbm, 196, rfl⟩
abbrev main_call1_v10 : Ref sig .tc := ⟨.hbm, 197, rfl⟩
abbrev main_call1_v11 : Ref sig .tc := ⟨.hbm, 198, rfl⟩
abbrev main_call1_v12 : Ref sig .tc := ⟨.hbm, 199, rfl⟩
abbrev main_call1_cst_3 : Ref sig .tc := ⟨.hbm, 200, rfl⟩
abbrev main_call1_v13 : Ref sig .tc := ⟨.hbm, 201, rfl⟩
abbrev main_call1_cst_4 : Ref sig .tc := ⟨.hbm, 202, rfl⟩
abbrev main_call1_call0_v0 : Ref sig .tc := ⟨.hbm, 203, rfl⟩
abbrev main_call1_call0_v1 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_cst_15 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_cst_16 : Ref sig .tc := ⟨.hbm, 226, rfl⟩
abbrev main_v144 : Ref sig .tc := ⟨.hbm, 227, rfl⟩
abbrev main_v145 : Ref sig .tc := ⟨.hbm, 228, rfl⟩
abbrev main_cst_17 : Ref sig .tc := ⟨.hbm, 229, rfl⟩
abbrev main_v146 : Ref sig .tc := ⟨.hbm, 230, rfl⟩
abbrev main_v147 : Ref sig .tc := ⟨.hbm, 231, rfl⟩
abbrev main_c_18 : Ref sig .tc := ⟨.hbm, 232, rfl⟩
abbrev main_call2_cst : Ref sig .tc := ⟨.hbm, 233, rfl⟩
abbrev main_call2_v0 : Ref sig .tc := ⟨.hbm, 234, rfl⟩
abbrev main_call2_v1 : Ref sig .tc := ⟨.hbm, 235, rfl⟩
abbrev main_call2_cst_0 : Ref sig .tc := ⟨.hbm, 236, rfl⟩
abbrev main_call2_v2 : Ref sig .tc := ⟨.hbm, 237, rfl⟩
abbrev main_call2_v3 : Ref sig .tc := ⟨.hbm, 238, rfl⟩
abbrev main_call2_v4 : Ref sig .tc := ⟨.hbm, 239, rfl⟩
abbrev main_call2_v5 : Ref sig .tc := ⟨.hbm, 240, rfl⟩
abbrev main_call2_v6 : Ref sig .tc := ⟨.hbm, 241, rfl⟩
abbrev main_call2_v7 : Ref sig .tc := ⟨.hbm, 242, rfl⟩
abbrev main_call2_cst_1 : Ref sig .tc := ⟨.hbm, 243, rfl⟩
abbrev main_call2_v8 : Ref sig .tc := ⟨.hbm, 244, rfl⟩
abbrev main_call2_cst_2 : Ref sig .tc := ⟨.hbm, 245, rfl⟩
abbrev main_call2_v9 : Ref sig .tc := ⟨.hbm, 246, rfl⟩
abbrev main_call2_v10 : Ref sig .tc := ⟨.hbm, 247, rfl⟩
abbrev main_call2_v11 : Ref sig .tc := ⟨.hbm, 248, rfl⟩
abbrev main_call2_v12 : Ref sig .tc := ⟨.hbm, 249, rfl⟩
abbrev main_call2_cst_3 : Ref sig .tc := ⟨.hbm, 250, rfl⟩
abbrev main_call2_v13 : Ref sig .tc := ⟨.hbm, 251, rfl⟩
abbrev main_call2_cst_4 : Ref sig .tc := ⟨.hbm, 252, rfl⟩
abbrev main_call2_call0_v0 : Ref sig .tc := ⟨.hbm, 253, rfl⟩
abbrev main_call2_call0_v1 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_cst_19 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_call3_v0 : Ref sig .tc := ⟨.hbm, 270, rfl⟩
abbrev main_call3_cst : Ref sig .tc := ⟨.hbm, 271, rfl⟩
abbrev main_call3_v1 : Ref sig .tc := ⟨.hbm, 272, rfl⟩
abbrev main_call3_v2 : Ref sig .tc := ⟨.hbm, 273, rfl⟩
abbrev main_v162 : Ref sig .tc := ⟨.hbm, 274, rfl⟩
abbrev main_cst_20 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_c_21 : Ref sig .tc := ⟨.hbm, 284, rfl⟩
abbrev main_call4_v0 : Ref sig .tc := ⟨.hbm, 285, rfl⟩
abbrev main_call4_c : Ref sig .tc := ⟨.hbm, 286, rfl⟩
abbrev main_call4_v1 : Ref sig .tc := ⟨.hbm, 287, rfl⟩
abbrev main_call4_c_0 : Ref sig .tc := ⟨.hbm, 288, rfl⟩
abbrev main_call4_v2 : Ref sig .tc := ⟨.hbm, 289, rfl⟩
abbrev main_call4_v3 : Ref sig .tc := ⟨.hbm, 290, rfl⟩
abbrev main_call4_v4 : Ref sig .tc := ⟨.hbm, 291, rfl⟩
abbrev main_call4_c_1 : Ref sig .tc := ⟨.hbm, 292, rfl⟩
abbrev main_call4_v5 : Ref sig .tc := ⟨.hbm, 293, rfl⟩
abbrev main_call4_v6 : Ref sig .tc := ⟨.hbm, 294, rfl⟩
abbrev main_call4_c_2 : Ref sig .tc := ⟨.hbm, 295, rfl⟩
abbrev main_call4_v7 : Ref sig .tc := ⟨.hbm, 296, rfl⟩
abbrev main_call4_v8 : Ref sig .tc := ⟨.hbm, 297, rfl⟩
abbrev main_call4_c_3 : Ref sig .tc := ⟨.hbm, 298, rfl⟩
abbrev main_call4_v9 : Ref sig .tc := ⟨.hbm, 299, rfl⟩
abbrev main_call4_v10 : Ref sig .tc := ⟨.hbm, 300, rfl⟩
abbrev main_call4_v11 : Ref sig .tc := ⟨.hbm, 301, rfl⟩
abbrev main_call4_v12 : Ref sig .tc := ⟨.hbm, 302, rfl⟩
abbrev main_call4_v13 : Ref sig .tc := ⟨.hbm, 303, rfl⟩
abbrev main_call4_v14 : Ref sig .tc := ⟨.hbm, 304, rfl⟩
abbrev main_v171 : Ref sig .tc := ⟨.hbm, 305, rfl⟩
abbrev main_v172 : Ref sig .tc := ⟨.hbm, 306, rfl⟩
abbrev main_c_22 : Ref sig .tc := ⟨.hbm, 307, rfl⟩
abbrev main_v173 : Ref sig .tc := ⟨.hbm, 308, rfl⟩
abbrev main_v174 : Ref sig .tc := ⟨.hbm, 309, rfl⟩
abbrev main_c_23 : Ref sig .tc := ⟨.hbm, 310, rfl⟩
abbrev main_v175 : Ref sig .tc := ⟨.hbm, 311, rfl⟩
abbrev main_v176 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_c_24 : Ref sig .tc := ⟨.hbm, 316, rfl⟩
abbrev main_v180 : Ref sig .tc := ⟨.hbm, 317, rfl⟩
abbrev main_c_25 : Ref sig .tc := ⟨.hbm, 318, rfl⟩
abbrev main_call5_v0 : Ref sig .tc := ⟨.hbm, 319, rfl⟩
abbrev main_call5_c : Ref sig .tc := ⟨.hbm, 320, rfl⟩
abbrev main_call5_v1 : Ref sig .tc := ⟨.hbm, 321, rfl⟩
abbrev main_call5_c_0 : Ref sig .tc := ⟨.hbm, 322, rfl⟩
abbrev main_call5_v2 : Ref sig .tc := ⟨.hbm, 323, rfl⟩
abbrev main_call5_v3 : Ref sig .tc := ⟨.hbm, 324, rfl⟩
abbrev main_call5_c_1 : Ref sig .tc := ⟨.hbm, 325, rfl⟩
abbrev main_call5_v4 : Ref sig .tc := ⟨.hbm, 326, rfl⟩
abbrev main_call5_c_2 : Ref sig .tc := ⟨.hbm, 327, rfl⟩
abbrev main_call5_v5 : Ref sig .tc := ⟨.hbm, 328, rfl⟩
abbrev main_call5_c_3 : Ref sig .tc := ⟨.hbm, 329, rfl⟩
abbrev main_call5_v6 : Ref sig .tc := ⟨.hbm, 330, rfl⟩
abbrev main_call5_v7 : Ref sig .tc := ⟨.hbm, 331, rfl⟩
abbrev main_call5_v8 : Ref sig .tc := ⟨.hbm, 332, rfl⟩
abbrev main_call5_v9 : Ref sig .tc := ⟨.hbm, 333, rfl⟩
abbrev main_v181 : Ref sig .tc := ⟨.hbm, 334, rfl⟩
abbrev main_v182 : Ref sig .tc := ⟨.hbm, 335, rfl⟩

abbrev nD : Nat := 1
abbrev τ : Topo := Topo.v7x

variable {F : FTy → Type} [FloatOps F]

class Facts₀ : Prop where
  transposes_S768x768_S768x768_1_0 : S768x768.Transposes [1, 0] S768x768
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  slices_S2304x768_S768x768_0_0 : S2304x768.Slices ![0, 0] S768x768
  slices_S2304x768_S768x768_768_0 : S2304x768.Slices ![768, 0] S768x768
  slices_S2304x768_S768x768_1536_0 : S2304x768.Slices ![1536, 0] S768x768
  slices_S2304_S768_0 : S2304.Slices ![0] S768
  slices_S2304_S768_768 : S2304.Slices ![768] S768
  slices_S2304_S768_1536 : S2304.Slices ![1536] S768
  shapeCasts_S4096x768_S4096x8x96 : S4096x768.ShapeCasts S4096x8x96
  reducesTo_S4096x8x96_S4096x8_d2 : S4096x8x96.ReducesTo [2] S4096x8
  h_S_ : 0 < S_.numel
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  reducesTo_S4096x8x1_S4096x8_d2 : S4096x8x1.ReducesTo [2] S4096x8
  bcast_S_S4096x8 : S_.BroadcastsInDim S4096x8 (![] : Fin 0 → Fin S4096x8.rank)
  bcast_S4096x8x1_S4096x8x96_0_1_2 : S4096x8x1.BroadcastsInDim S4096x8x96 (![0, 1, 2] : Fin 3 → Fin S4096x8x96.rank)
  shapeCasts_S4096x8x96_S4096x768 : S4096x8x96.ShapeCasts S4096x768
  reducesTo_S4096x768_S4096_d1 : S4096x768.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  concatenates_S4096x768_S4096x768_S4096x1536_d1 : Shape.Concatenates [S4096x768, S4096x768] S4096x1536 1
  transposes_S768x1536_S1536x768_1_0 : S768x1536.Transposes [1, 0] S1536x768
  shapeCasts_S1_S_ : S1.ShapeCasts S_
  bcast_S_S4096 : S_.BroadcastsInDim S4096 (![] : Fin 0 → Fin S4096.rank)
  transposes_S4096x768_S768x4096_1_0 : S4096x768.Transposes [1, 0] S768x4096
  shapeCasts_S_S1 : S_.ShapeCasts S1
  dot_S4096x768_S768x768_S4096x768_1_0_0_1_n_n_wf : DotDims.WF S4096x768 S768x768 S4096x768 [1] [0] [0] [1] [] []
  dot_S4096x1536_S1536x768_S4096x768_1_0_0_1_n_n_wf : DotDims.WF S4096x1536 S1536x768 S4096x768 [1] [0] [0] [1] [] []
  scatter_S768x65536_S4096x1_S768x4096_0_1_1_1_wf : ScatterDims.WF S768x65536 S4096x1 S768x4096 [0] [1] [1] 1

variable [Facts₀]

def dot_S4096x768_S768x768_S4096x768_1_0_0_1_n_n : DotDims S4096x768 S768x768 S4096x768 where
  lhsContracting := [1]
  rhsContracting := [0]
  lhsNonContracting := [0]
  rhsNonContracting := [1]
  lhsBatch := []
  rhsBatch := []
  wf := dot_S4096x768_S768x768_S4096x768_1_0_0_1_n_n_wf
def dot_S4096x1536_S1536x768_S4096x768_1_0_0_1_n_n : DotDims S4096x1536 S1536x768 S4096x768 where
  lhsContracting := [1]
  rhsContracting := [0]
  lhsNonContracting := [0]
  rhsNonContracting := [1]
  lhsBatch := []
  rhsBatch := []
  wf := dot_S4096x1536_S1536x768_S4096x768_1_0_0_1_n_n_wf
def scatter_S768x65536_S4096x1_S768x4096_0_1_1_1 : ScatterDims S768x65536 S4096x1 S768x4096 where
  updateWindowDims := [0]
  insertedWindowDims := [1]
  scatterDimsToOperandDims := [1]
  indexVectorDim := 1
  wf := scatter_S768x65536_S4096x1_S768x4096_0_1_1_1_wf

class Facts : Prop extends Facts₀ where

variable [Facts]
-- ==== Proof.Setup.lean ====
/-
  The shared set-up of the frame proof: the program as the SparseCore launch theorem sees it, the ghost state
  (the handshakes' rounds, the TensorCore pipelines' rounds, the local transfers' counters), the two HBM arrays the
  vector subcores work on — the queue (argument 18) and its copy (result of the SparseCore call) —, their split
  into 32 strips of 24 rows, one per vector subcore, and what the call's handshakes carry: each vector subcore is
  handed its strip of both arrays and hands them back, the queue's unchanged.
-/
import proofs.«211565_g20684562498226_cont_8to1_684_24_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«211565_g20684562498226_cont_8to1_684_24_alg».proof.Proof.Gen.KernelIdeal
import proofs.«211565_g20684562498226_cont_8to1_684_24_alg».proof.Proof.Gen.KernelIdeal.Skeleton
import proofs.«211565_g20684562498226_cont_8to1_684_24_alg».proof.Proof.Gen.KernelIdeal.Launch

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The TensorCore pipelines' rounds library: the left factor of the right factor (the counters are found by instance). -/
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP embR; infer_instance

/-! ## The launch memory and the two arrays -/

variable (m : (ℓ : Loc nD τ sig) → Buf (Elt F) ℓ) (ρ : Dev nD → PrngReg)

/-- The queue (argument 18) and the SparseCore call's result, as locations of device `d`. -/
abbrev qLoc (d : Dev nD) : Loc nD τ sig := (SparseCore.T d).loc main_arg18
abbrev oLoc (d : Dev nD) : Loc nD τ sig := (SparseCore.T d).loc main_v7

/-- The 768 rows in 32 strips of 24: strip `t` is rows `24 t … 24 t + 23`, all 65536 columns. -/
theorem hdiv : 32 ∣ S768x65536.size 0 := ⟨24, rfl⟩
abbrev strip (t : Fin 32) : Rect S768x65536 := Rect.part (s := S768x65536) (a₀ := 0) hdiv t
abbrev stripSet (t : Fin 32) : Finset S768x65536.Idx := (strip t).set

/-- Vector subcore `i` of SparseCore `c` works on strip `16 c + i`. -/
def tileIx (c : Fin 2) (i : Fin 16) : Fin 32 := ⟨16 * c.val + i.val, by omega⟩

abbrev qStrip (d : Dev nD) (t : Fin 32) : sProp 𝕄 := qLoc d ↦[stripSet t]{fullShare} m (qLoc d)
abbrev oStrip (d : Dev nD) (t : Fin 32) (f : Buf (Elt F) (oLoc d)) : sProp 𝕄 := oLoc d ↦[stripSet t]{fullShare} f

/-- What a vector subcore is handed and hands back: its strip of the queue at the launch contents, its strip of the
    copy at some contents. -/
abbrev forTile (d : Dev nD) (t : Fin 32) : sProp 𝕄 := iprop(qStrip m d t ∗ ∃ f, oStrip d t f)

/-- The one SparseCore call: each SparseCore gets its sixteen strips of both arrays, each vector subcore its one. -/
def P : (K (F := F)).Pay (nD := nD) (Val := Elt F) (Name := ℕ) (U := UU) where
  st := fun q d c => match q with | 0 => bigSep Finset.univ fun i : Fin 16 => forTile m d (tileIx (Fin.cast nCore_zero c) i)
  dn := fun q d c => match q with | 0 => bigSep Finset.univ fun i : Fin 16 => forTile m d (tileIx (Fin.cast nCore_zero c) i)
  go := fun q d c i => match q with | 0 => forTile m d (tileIx (Fin.cast nCore_zero c) (Fin.cast nSub_zero i))
  td := fun q d c i => match q with | 0 => forTile m d (tileIx (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => forTile m d (tileIx (Fin.cast nCore_zero c) i)))
  dn q d c := match q with
    | 0 => (inferInstance : BI.Storable (upEmb : UEmb _ 𝕄) (bigSep Finset.univ fun i : Fin 16 => forTile m d (tileIx (Fin.cast nCore_zero c) i)))
  go q d c i := match q with
    | 0 => (inferInstance : BI.Storable (upEmb : UEmb _ 𝕄) (forTile m d (tileIx (Fin.cast nCore_zero c) (Fin.cast nSub_zero i))))
  td q d c i := match q with
    | 0 => (inferInstance : BI.Storable (upEmb : UEmb _ 𝕄) (forTile m d (tileIx (Fin.cast nCore_zero c) (Fin.cast nSub_zero i))))

/-- The sixteen tasks' shares are the SparseCore's, both ways. -/
theorem vecSplit : (K (F := F)).VecSplit' (P m) 0 := by
  intro d c
  show (bigSep Finset.univ fun i : Fin 16 => forTile m d (tileIx (Fin.cast nCore_zero c) i)) ⊢ |={Set.univ}=> iprop(
      (bigSep Finset.univ fun i : Fin ((K (F := F)).nSub 0) => forTile m d (tileIx (Fin.cast nCore_zero c) (Fin.cast nSub_zero i)))
      ∗ ((bigSep Finset.univ fun i : Fin ((K (F := F)).nSub 0) => forTile m d (tileIx (Fin.cast nCore_zero c) (Fin.cast nSub_zero i)))
          -∗ bigSep Finset.univ fun i : Fin 16 => forTile m d (tileIx (Fin.cast nCore_zero c) i)))
  have e : (bigSep Finset.univ fun i : Fin ((K (F := F)).nSub 0) => forTile m d (tileIx (Fin.cast nCore_zero c) (Fin.cast nSub_zero i)))
      = bigSep Finset.univ fun i : Fin 16 => forTile m d (tileIx (Fin.cast nCore_zero c) i) :=
    bigSep_congr fun _ _ => congrArg (fun i => forTile m d (tileIx (Fin.cast nCore_zero c) i)) (Fin.ext rfl)
  rw [e]
  iintro H; imodintro
  isplitl [H]; · iexact H
  iintro H; iexact H

/-! ## The TensorCore pipelines' part of the launch -/

/-- The prefetched tables' admissible contents: no pipeline has a table. -/
abbrev adm : (p : Fin 3) → (pcfgs (F := F) p).Adm := fun p => (cfgs p).toPCfg_adm

/-- The three pipelines' staging cells are pairwise distinct (the generated launch kit's fact, at the pinned family). -/
theorem pcell_inj : Function.Injective (Pipeline.cellOf (nD := nD) (τ := τ) (Pipeline.pin (pcfgs (F := F)) adm)) :=
  Cert.KernelIdeal.Gen.cellOf_inj

/-- The launch element: the handshakes' rounds at their cells, the pipelines' rounds at the staging cells, no counter. -/
def u₀ : UU :=
  (initOf (K (F := F)).hsCells (K (F := F)).hsToks,
    (initOf (Pipeline.cells (Pipeline.pin (pcfgs (F := F)) adm) pcell_inj) (Pipeline.launchToks (Pipeline.pin (pcfgs (F := F)) adm) pcell_inj), 1))

/-- What the launch leaves device `d`'s TensorCore for its three regions: each pipeline's cells' ghost state and duty tokens. -/
def Gp (d : Dev nD) : sProp 𝕄 :=
  bigSep Finset.univ fun p : Fin 3 => iprop(Pipeline.cellsGhost (Pipeline.pin (pcfgs (F := F)) adm) EP p d ∗ Pipeline.toksInit (Pipeline.pin (pcfgs (F := F)) adm) EP p d)

end Cert.KernelIdeal.Hand

end
-- ==== Proof.SetupV.lean ====
/-
  The SparseCore call's payloads with the value of the copy. Each vector subcore is handed its strip (24 rows) of the
  queue at the launch contents and of the copy at some contents, as in the frame's payloads; what it hands back says in
  addition what the copy's strip holds: the queue's words in every column from 4096 on. The sixteen subcores' shares
  are the SparseCore's, before and after.
-/
import proofs.«211565_g20684562498226_cont_8to1_684_24_alg».proof.Proof.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- What a vector subcore hands back, with the value: its strip of the queue unchanged, its strip of the copy holding the
    queue's words from column 4096 on. -/
abbrev forTileV (d : Dev nD) (t : Fin 32) : sProp 𝕄 :=
  iprop(qStrip m d t ∗ ∃ f, oStrip d t f ∗ ⌜∀ idx ∈ stripSet t, 4096 ≤ (idx 1).val → f idx = m (qLoc d) idx⌝)

/-- The one SparseCore call with the value: each vector subcore is handed its strip of both arrays and hands them back, the
    queue's unchanged, the copy's holding the queue's words from column 4096 on. -/
def PV : (K (F := F)).Pay (nD := nD) (Val := Elt F) (Name := ℕ) (U := UU) where
  st := fun q d c => match q with | 0 => bigSep Finset.univ fun i : Fin 16 => forTile m d (tileIx (Fin.cast nCore_zero c) i)
  dn := fun q d c => match q with | 0 => bigSep Finset.univ fun i : Fin 16 => forTileV m d (tileIx (Fin.cast nCore_zero c) i)
  go := fun q d c i => match q with | 0 => forTile m d (tileIx (Fin.cast nCore_zero c) (Fin.cast nSub_zero i))
  td := fun q d c i => match q with | 0 => forTileV m d (tileIx (Fin.cast nCore_zero c) (Fin.cast nSub_zero i))
  x := fun _ _ => iprop(emp)

instance PV_storable : (PV (F := F) m).IsStorable where
  st q d c := match q with
    | 0 => (inferInstance : BI.Storable (upEmb : UEmb _ 𝕄) (bigSep Finset.univ fun i : Fin 16 => forTile m d (tileIx (Fin.cast nCore_zero c) i)))
  dn q d c := match q with
    | 0 => (inferInstance : BI.Storable (upEmb : UEmb _ 𝕄) (bigSep Finset.univ fun i : Fin 16 => forTileV m d (tileIx (Fin.cast nCore_zero c) i)))
  go q d c i := match q with
    | 0 => (inferInstance : BI.Storable (upEmb : UEmb _ 𝕄) (forTile m d (tileIx (Fin.cast nCore_zero c) (Fin.cast nSub_zero i))))
  td q d c i := match q with
    | 0 => (inferInstance : BI.Storable (upEmb : UEmb _ 𝕄) (forTileV m d (tileIx (Fin.cast nCore_zero c) (Fin.cast nSub_zero i))))

/-- The sixteen tasks' shares are the SparseCore's, both ways, with the value. -/
theorem vecSplitV : (K (F := F)).VecSplit' (PV m) 0 := by
  intro d c
  show (bigSep Finset.univ fun i : Fin 16 => forTile m d (tileIx (Fin.cast nCore_zero c) i)) ⊢ |={Set.univ}=> iprop(
      (bigSep Finset.univ fun i : Fin ((K (F := F)).nSub 0) => forTile m d (tileIx (Fin.cast nCore_zero c) (Fin.cast nSub_zero i)))
      ∗ ((bigSep Finset.univ fun i : Fin ((K (F := F)).nSub 0) => forTileV m d (tileIx (Fin.cast nCore_zero c) (Fin.cast nSub_zero i)))
          -∗ bigSep Finset.univ fun i : Fin 16 => forTileV m d (tileIx (Fin.cast nCore_zero c) i)))
  have e : (bigSep Finset.univ fun i : Fin ((K (F := F)).nSub 0) => forTile m d (tileIx (Fin.cast nCore_zero c) (Fin.cast nSub_zero i)))
      = bigSep Finset.univ fun i : Fin 16 => forTile m d (tileIx (Fin.cast nCore_zero c) i) :=
    bigSep_congr fun _ _ => congrArg (fun i => forTile m d (tileIx (Fin.cast nCore_zero c) i)) (Fin.ext rfl)
  have eV : (bigSep Finset.univ fun i : Fin ((K (F := F)).nSub 0) => forTileV m d (tileIx (Fin.cast nCore_zero c) (Fin.cast nSub_zero i)))
      = bigSep Finset.univ fun i : Fin 16 => forTileV m d (tileIx (Fin.cast nCore_zero c) i) :=
    bigSep_congr fun _ _ => congrArg (fun i => forTileV m d (tileIx (Fin.cast nCore_zero c) i)) (Fin.ext rfl)
  rw [e, eV]
  iintro H; imodintro
  isplitl [H]; · iexact H
  iintro H; iexact H

end Cert.KernelIdeal.Hand

end
-- ==== Proof.Launch.lean ====
/-
  The launch: the launch element of the ghost state dealt to the handshakes and to the three TensorCore pipelines,
  and the run of all the device's threads from the proofs of the vector subcores' task and of @main.
-/
import proofs.«211565_g20684562498226_cont_8to1_684_24_alg».proof.Proof.SetupV

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

omit m in
theorem bigSep_emp' {I : Type} (s : Finset I) : (bigSep s fun _ => iprop(emp)) = (iprop(emp) : sProp 𝕄) := bigSep_emp_const s

/-- The launch element: the handshakes' rounds go to the launch theorem, the pipelines' rounds fund each
    device's three pipelines' cells and duty tokens, the counters are let go; no kernel's proof is dealt anything. -/
theorem hu₀ [FloatOps F] : (ownU (u₀ (F := F)) : sProp 𝕄)
    ⊢ |={Set.univ}=> iprop(BI.own (EH (initOf (K (F := F)).hsCells (K (F := F)).hsToks)) ∗ (bigSep Finset.univ fun d : Dev nD => Gp (F := F) d)
        ∗ bigSep Finset.univ fun thr : Thread nD τ => bigSep Finset.univ fun q : Fin 1 => (PV m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP2 := (show (BI.own (((Emb.inl : Emb UP (UP × Counters)).trans (embR : Emb (UP × Counters) 𝕄))
        (initOf (Pipeline.cells (Pipeline.pin (pcfgs (F := F)) adm) pcell_inj) (Pipeline.launchToks (Pipeline.pin (pcfgs (F := F)) adm) pcell_inj))) : sProp 𝕄)
      ⊢ BI.own (EP (initOf (Pipeline.cells (Pipeline.pin (pcfgs (F := F)) adm) pcell_inj) (Pipeline.launchToks (Pipeline.pin (pcfgs (F := F)) adm) pcell_inj)))
      from by unfold EP; exact BI.Entails.refl _) $$ HP
  imod (Pipeline.fund_ghost (Pipeline.pin (pcfgs (F := F)) adm) EP pcell_inj) $$ HP2 with ⟨Hg, Ht⟩
  imodintro
  isplitl [HH]; · iexact HH
  isplitl [Hg Ht]
  · unfold Gp
    simp only [bigSep_sep']
    isplitl [Hg]; · iexact Hg
    iexact Ht
  unfold PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Hand

end
-- ==== Proof.Args.lean ====
/-
  The twenty argument arrays of @main, as buffers of a device: what every frame claim says end unchanged.
-/
import proofs.«211565_g20684562498226_cont_8to1_684_24_alg».proof.Proof.Setup

noncomputable section

namespace Cert.KernelIdeal.Hand

open Cert.KernelIdeal Idealize.ShloMosaic

/-- The twenty argument arrays. -/
def argRefs : Finset (DevRef τ sig) :=
  {Proc.devRef .tc main_arg0, Proc.devRef .tc main_arg1, Proc.devRef .tc main_arg2, Proc.devRef .tc main_arg3, Proc.devRef .tc main_arg4,
   Proc.devRef .tc main_arg5, Proc.devRef .tc main_arg6, Proc.devRef .tc main_arg7, Proc.devRef .tc main_arg8, Proc.devRef .tc main_arg9,
   Proc.devRef .tc main_arg10, Proc.devRef .tc main_arg11, Proc.devRef .tc main_arg12, Proc.devRef .tc main_arg13, Proc.devRef .tc main_arg14,
   Proc.devRef .tc main_arg15, Proc.devRef .tc main_arg16, Proc.devRef .tc main_arg17, Proc.devRef .tc main_arg18, Proc.devRef .tc main_arg19}

end Cert.KernelIdeal.Hand

end
-- ==== Proof.MainOps.lean ====
/-
  The four straight lines of host operations of @main, between and around its three TensorCore kernel regions and the
  SparseCore call, each operation as the printed program spells it.
-/
import proofs.«211565_g20684562498226_cont_8to1_684_24_alg».proof.Proof.Args
import Idealize.ShloMosaic.Lib.StableHlo.Run

noncomputable section

namespace Cert.KernelIdeal.Hand

open Cert.KernelIdeal Cert.KernelIdeal.Gen
open Idealize.ShloMosaic
open Idealize.SL Idealize.SL.Sem Idealize.ShloMosaic.StableHlo

variable {F : FTy → Type} [FloatOps F]

/-- Before the first region: the value projection's slices, four vectors as rows. -/
abbrev ops0 : List (HloOp τ sig (Elt F)) :=
  [StableHlo.unary main_arg6 main_v0 ((extractStridedSlice S768x768 ![1536, 0] · slices_S2304x768_S768x768_1536_0) : (⟨S2304x768, .f32⟩ : BufTy).Contents (Elt F) → (⟨S768x768, .f32⟩ : BufTy).Contents (Elt F)),
   StableHlo.unary main_arg7 main_v1 ((extractStridedSlice S768 ![1536] · slices_S2304_S768_1536) : (⟨S2304, .f32⟩ : BufTy).Contents (Elt F) → (⟨S768, .f32⟩ : BufTy).Contents (Elt F)),
   StableHlo.reshape main_v1 main_v2 rfl shapeCasts_S768_S1x768,
   StableHlo.reshape main_arg3 main_v3 rfl shapeCasts_S768_S1x768,
   StableHlo.reshape main_arg5 main_v4 rfl shapeCasts_S768_S1x768,
   StableHlo.reshape main_arg9 main_v5 rfl shapeCasts_S768_S1x768]

/-- The buffers the line writes, in order. -/
abbrev ops0_W : List (Ref sig .tc) := [main_v0, main_v1, main_v2, main_v3, main_v4, main_v5]

/-- Between the SparseCore call and the second region: two narrowings, seven vectors as rows. -/
abbrev ops1 : List (HloOp τ sig (Elt F)) :=
  [StableHlo.unary main_arg0 main_v8 ((truncf .bf16 · bitsLt_bf16_f32) : (⟨S4096x768, .f32⟩ : BufTy).Contents (Elt F) → (⟨S4096x768, .bf16⟩ : BufTy).Contents (Elt F)),
   StableHlo.unary main_arg1 main_v9 ((truncf .bf16 · bitsLt_bf16_f32) : (⟨S4096x768, .f32⟩ : BufTy).Contents (Elt F) → (⟨S4096x768, .bf16⟩ : BufTy).Contents (Elt F)),
   StableHlo.reshape main_arg11 main_v10 rfl shapeCasts_S768_S1x768,
   StableHlo.reshape main_arg12 main_v11 rfl shapeCasts_S768_S1x768,
   StableHlo.reshape main_arg13 main_v12 rfl shapeCasts_S768_S1x768,
   StableHlo.reshape main_arg14 main_v13 rfl shapeCasts_S768_S1x768,
   StableHlo.reshape main_arg15 main_v14 rfl shapeCasts_S768_S1x768,
   StableHlo.reshape main_arg16 main_v15 rfl shapeCasts_S768_S1x768,
   StableHlo.reshape main_arg17 main_v16 rfl shapeCasts_S768_S1x768]

/-- The buffers the line writes, in order. -/
abbrev ops1_W : List (Ref sig .tc) := [main_v8, main_v9, main_v10, main_v11, main_v12, main_v13, main_v14, main_v15, main_v16]

/-- Between the second and the third region: the aliased output's buffer starts as a copy of the SparseCore call's result. -/
abbrev ops2 : List (HloOp τ sig (Elt F)) :=
  [StableHlo.unary main_v7 main_v18 id]

/-- The buffers the line writes, in order. -/
abbrev ops2_W : List (Ref sig .tc) := [main_v18]

/-- After the third region: the new queue pointer, (pointer + 4096) modulo 65536 (the modulo function's body at its one call). -/
abbrev ops3 : List (HloOp τ sig (Elt F)) :=
  [StableHlo.nullary main_c (constantI S_ 32 4096#32),
   StableHlo.unary main_c main_v19 (broadcastInDim S1 ![] bcast_S_S1 : (⟨S_, .i32⟩ : BufTy).Contents (Elt F) → (⟨S1, .i32⟩ : BufTy).Contents (Elt F)),
   StableHlo.binary main_arg19 main_v19 main_v20 (addi : (⟨S1, .i32⟩ : BufTy).Contents (Elt F) → (⟨S1, .i32⟩ : BufTy).Contents (Elt F) → (⟨S1, .i32⟩ : BufTy).Contents (Elt F)),
   StableHlo.nullary main_c_0 (constantI S_ 32 65536#32),
   StableHlo.TRef.unary (.of main_c_0) main_call0.v0 id,
   StableHlo.TRef.nullary main_call0.c (constantI S_ 32 0#32),
   StableHlo.TRef.binary main_call0.v0 main_call0.c main_call0.v1 (cmpi .eq),
   StableHlo.TRef.nullary main_call0.c_0 (constantI S_ 32 1#32),
   StableHlo.TRef.ternary main_call0.v1 main_call0.c_0 main_call0.v0 main_call0.call0.v0 select,
   StableHlo.TRef.unary main_call0.call0.v0 main_call0.v3 (broadcastInDim S1 ![] bcast_S_S1),
   StableHlo.TRef.binary (.of main_v20) main_call0.v3 main_call0.v4 Host.remsi,
   StableHlo.TRef.nullary main_call0.c_1 (constantI S_ 32 0#32),
   StableHlo.TRef.unary main_call0.c_1 main_call0.v5 (broadcastInDim S1 ![] bcast_S_S1),
   StableHlo.TRef.binary main_call0.v4 main_call0.v5 main_call0.v6 (cmpi .ne),
   StableHlo.TRef.nullary main_call0.c_2 (constantI S_ 32 0#32),
   StableHlo.TRef.unary main_call0.c_2 main_call0.v7 (broadcastInDim S1 ![] bcast_S_S1),
   StableHlo.TRef.binary main_call0.v4 main_call0.v7 main_call0.v8 (cmpi .slt),
   StableHlo.TRef.nullary main_call0.c_3 (constantI S_ 32 0#32),
   StableHlo.TRef.binary main_call0.call0.v0 main_call0.c_3 main_call0.v9 (cmpi .slt),
   StableHlo.TRef.unary main_call0.v9 main_call0.v10 (broadcastInDim S1 ![] bcast_S_S1),
   StableHlo.TRef.binary main_call0.v8 main_call0.v10 main_call0.v11 (cmpi .ne),
   StableHlo.TRef.binary main_call0.v11 main_call0.v6 main_call0.v12 andi,
   StableHlo.TRef.unary main_call0.call0.v0 main_call0.v13 (broadcastInDim S1 ![] bcast_S_S1),
   StableHlo.TRef.binary main_call0.v4 main_call0.v13 main_call0.v14 addi,
   StableHlo.TRef.ternary main_call0.v12 main_call0.v14 main_call0.v4 main_call0.v15 select]

/-- The buffers the line writes, in order. -/
abbrev ops3_W : List (Ref sig .tc) := [main_c, main_v19, main_v20, main_c_0, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v21]

end Cert.KernelIdeal.Hand

end
-- ==== Proof.MainEq.lean ====
/-
  @main on the TensorCore as its segments: four straight lines of host operations around the three TensorCore
  kernel regions and the SparseCore call, in the order the program runs them.
-/
import proofs.«211565_g20684562498226_cont_8to1_684_24_alg».proof.Proof.MainOps

noncomputable section

namespace Cert.KernelIdeal.Hand

open Cert.KernelIdeal Cert.KernelIdeal.Gen
open Idealize.ShloMosaic
open Idealize.SL Idealize.SL.Sem

variable {F : FTy → Type} [FloatOps F]

/-- A TensorCore kernel region's call, as @main spells it. -/
abbrev callP (p : Fin 3) : Prog (TpuEff nD τ sig (Elt F) (SparseCore.Sig (ΛP (F := F)) 1) .tc) PUnit :=
  Prog.lift (.customCall (SparseCore.inner (Pipeline.entry p)) ())

/-- @main is those segments in order (the two sides unfold to the same sequence of statements). -/
theorem main_eq (d : Dev nD) : main (F := F) d =
    (StableHlo.seq (ops0 (F := F)) >>= fun _ => callP 0 >>= fun _ => sc.run d 0 >>= fun _ => StableHlo.seq (ops1 (F := F)) >>= fun _ =>
      callP 1 >>= fun _ => StableHlo.seq (ops2 (F := F)) >>= fun _ => callP 2 >>= fun _ => StableHlo.seq (ops3 (F := F))) := by
  rfl

end Cert.KernelIdeal.Hand

end
-- ==== Proof.MainOpsFacts.lean ====
/-
  Side facts of @main's four straight lines of host operations: every operation names TensorCore buffers only,
  none allocates, each writes its one result buffer, and no result buffer is an argument array.
-/
import proofs.«211565_g20684562498226_cont_8to1_684_24_alg».proof.Proof.MainOps

noncomputable section

namespace Cert.KernelIdeal.Hand

open Cert.KernelIdeal Cert.KernelIdeal.Gen
open Idealize.ShloMosaic Idealize.ShloMosaic.StableHlo
open Idealize.SL Idealize.SL.Sem

variable {F : FTy → Type} [FloatOps F]

/-- An operation's written set is the singleton of its result buffer, and that buffer is in the line's list. -/
local macro "wr1" : tactic =>
  `(tactic| (simp only [nullary_writes, unary_writes, binary_writes, ternary_writes, quaternary_writes, reshape_writes, Finset.singleton_subset_iff, List.mem_toFinset]; exact List.mem_map_of_mem (by decide)))

/-- A fact of every operation of a literal list: the list's conjunction, one goal per operation. -/
local macro "each_op" t:tactic : tactic =>
  `(tactic| (refine List.forall_iff_forall_mem.mp ?_; simp only [List.Forall]; (repeat' apply And.intro); all_goals ($t:tactic)))

theorem ops0_sub : ∀ op ∈ (ops0 : List (HloOp τ sig (Elt F))), op.bufs ⊆ tcRefs τ sig := by
  each_op (simp only [unary_bufs_sub, binary_bufs_sub, nullary_bufs_sub, ternary_bufs_sub, reshape_bufs_sub])
theorem ops1_sub : ∀ op ∈ (ops1 : List (HloOp τ sig (Elt F))), op.bufs ⊆ tcRefs τ sig := by
  each_op (simp only [unary_bufs_sub, binary_bufs_sub, nullary_bufs_sub, ternary_bufs_sub, reshape_bufs_sub])
theorem ops2_sub : ∀ op ∈ (ops2 : List (HloOp τ sig (Elt F))), op.bufs ⊆ tcRefs τ sig := by
  each_op (simp only [unary_bufs_sub, binary_bufs_sub, nullary_bufs_sub, ternary_bufs_sub, reshape_bufs_sub])
theorem ops3_sub : ∀ op ∈ (ops3 : List (HloOp τ sig (Elt F))), op.bufs ⊆ tcRefs τ sig := by
  each_op (simp only [unary_bufs_sub, binary_bufs_sub, nullary_bufs_sub, ternary_bufs_sub, reshape_bufs_sub])

theorem ops0_fresh : ∀ op ∈ (ops0 : List (HloOp τ sig (Elt F))), op.fresh = ∅ := by each_op rfl
theorem ops1_fresh : ∀ op ∈ (ops1 : List (HloOp τ sig (Elt F))), op.fresh = ∅ := by each_op rfl
theorem ops2_fresh : ∀ op ∈ (ops2 : List (HloOp τ sig (Elt F))), op.fresh = ∅ := by each_op rfl
theorem ops3_fresh : ∀ op ∈ (ops3 : List (HloOp τ sig (Elt F))), op.fresh = ∅ := by each_op rfl

theorem ops0_writes : ∀ op ∈ (ops0 : List (HloOp τ sig (Elt F))), op.writes ⊆ (ops0_W.map (Proc.devRef (τ := τ) .tc)).toFinset := by each_op wr1
theorem ops1_writes : ∀ op ∈ (ops1 : List (HloOp τ sig (Elt F))), op.writes ⊆ (ops1_W.map (Proc.devRef (τ := τ) .tc)).toFinset := by each_op wr1
theorem ops2_writes : ∀ op ∈ (ops2 : List (HloOp τ sig (Elt F))), op.writes ⊆ (ops2_W.map (Proc.devRef (τ := τ) .tc)).toFinset := by each_op wr1
theorem ops3_writes : ∀ op ∈ (ops3 : List (HloOp τ sig (Elt F))), op.writes ⊆ (ops3_W.map (Proc.devRef (τ := τ) .tc)).toFinset := by each_op wr1

/-- A line whose written buffers (a literal list) include no argument array writes no argument array. -/
theorem keep_of_writes {ops : List (HloOp τ sig (Elt F))} {W : List (Ref sig .tc)}
    (hw : ∀ op ∈ ops, op.writes ⊆ (W.map (Proc.devRef (τ := τ) .tc)).toFinset)
    (hd : ∀ b ∈ argRefs, b ∉ (W.map (Proc.devRef (τ := τ) .tc)).toFinset) : ∀ op ∈ ops, ∀ b ∈ argRefs, b ∉ op.writes :=
  fun op hop b hb hb' => hd b hb (hw op hop hb')

theorem ops0_keep : ∀ op ∈ (ops0 : List (HloOp τ sig (Elt F))), ∀ b ∈ argRefs, b ∉ op.writes := keep_of_writes ops0_writes (by decide)
theorem ops1_keep : ∀ op ∈ (ops1 : List (HloOp τ sig (Elt F))), ∀ b ∈ argRefs, b ∉ op.writes := keep_of_writes ops1_writes (by decide)
theorem ops2_keep : ∀ op ∈ (ops2 : List (HloOp τ sig (Elt F))), ∀ b ∈ argRefs, b ∉ op.writes := keep_of_writes ops2_writes (by decide)
theorem ops3_keep : ∀ op ∈ (ops3 : List (HloOp τ sig (Elt F))), ∀ b ∈ argRefs, b ∉ op.writes := keep_of_writes ops3_writes (by decide)

end Cert.KernelIdeal.Hand

end
-- ==== Proof.ScCall.lean ====
/-
  The SparseCore call seen from @main: the queue and its copy, each whole, are the 32 strips of 24 rows the
  vector subcores are handed (2 SparseCores × 16 vector subcores), and the strips handed back are the two arrays
  whole again, the queue at its launch contents, the copy at whatever the tasks left.
-/
import proofs.«211565_g20684562498226_cont_8to1_684_24_alg».proof.Proof.SetupV

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-- Distinct strips share no row. -/
theorem strips_disjoint : ∀ i ∈ (Finset.univ : Finset (Fin 32)), ∀ j ∈ (Finset.univ : Finset (Fin 32)), i ≠ j → Disjoint (stripSet i) (stripSet j) :=
  fun _ _ _ _ h => Rect.part_disjoint hdiv h
/-- The 32 strips are all 768 rows. -/
theorem strips_cover : (Finset.univ : Finset (Fin 32)).biUnion stripSet = Finset.univ := Rect.biUnion_part hdiv

/-- The queue whole is its 32 strips. -/
theorem qPts_strips (d : Dev nD) (f : Buf (Elt F) (qLoc d)) :
    (qLoc d ↦{fullShare} f : sProp 𝕄) = bigSep Finset.univ fun t : Fin 32 => qLoc d ↦[stripSet t]{fullShare} f := by
  rw [← pointsTo_biUnion Finset.univ (ℓ := qLoc d) stripSet strips_disjoint, strips_cover]; try rfl
/-- The copy whole is its 32 strips. -/
theorem oPts_strips (d : Dev nD) (f : Buf (Elt F) (oLoc d)) :
    (oLoc d ↦{fullShare} f : sProp 𝕄) = bigSep Finset.univ fun t : Fin 32 => oLoc d ↦[stripSet t]{fullShare} f := by
  rw [← pointsTo_biUnion Finset.univ (ℓ := oLoc d) stripSet strips_disjoint, strips_cover]; try rfl

/-- Strip `16 c + i` is the pair `(c, i)` under the standard numbering of pairs. -/
theorem tileIx_eq (ci : Fin 2 × Fin 16) : tileIx ci.1 ci.2 = finProdFinEquiv ci := by
  apply Fin.ext
  simp only [tileIx, finProdFinEquiv, Equiv.coe_fn_mk]
  omega

/-- Conjoined over the 32 strips is conjoined over the SparseCores and, per SparseCore, its vector subcores. -/
theorem bigSep_tiles (Φ : Fin 32 → sProp 𝕄) :
    bigSep Finset.univ Φ = bigSep Finset.univ fun c : Fin 2 => bigSep Finset.univ fun i : Fin 16 => Φ (tileIx c i) := by
  rw [← bigSep_univ_prod (fun ci : Fin 2 × Fin 16 => Φ (tileIx ci.1 ci.2)),
    ← Finset.map_univ_equiv (finProdFinEquiv : Fin 2 × Fin 16 ≃ Fin 32), bigSep_map]
  exact bigSep_congr fun ci _ => congrArg Φ (tileIx_eq ci).symm

/-- What the call takes, for both SparseCores: every strip of the queue at its launch contents and of the copy at
    some contents. -/
theorem st_eq (d : Dev nD) :
    (bigSep Finset.univ fun c : Fin ((K (F := F)).nCore 0) => (PV m).st 0 d c)
      = iprop((bigSep Finset.univ fun t : Fin 32 => qStrip m d t) ∗ bigSep Finset.univ fun t : Fin 32 => iprop(∃ f, oStrip d t f)) := by
  rw [bigSep_tiles (fun t => qStrip m d t), bigSep_tiles (fun t => iprop(∃ f, oStrip d t f)), ← bigSep_sep']
  refine bigSep_congr fun c _ => ?_
  rw [← bigSep_sep']
  rfl
/-- What a vector subcore's strip of the copy is known to hold afterwards: the queue's words from column 4096 on. -/
abbrev copied (d : Dev nD) (t : Fin 32) (f : Buf (Elt F) (oLoc d)) : Prop :=
  ∀ idx ∈ stripSet t, 4096 ≤ (idx 1).val → f idx = m (qLoc d) idx

/-- What it hands back: every strip of the queue, and of the copy at contents that hold the queue's words from
    column 4096 on. -/
theorem dn_eq (d : Dev nD) :
    (bigSep Finset.univ fun c : Fin ((K (F := F)).nCore 0) => (PV m).dn 0 d c)
      = iprop((bigSep Finset.univ fun t : Fin 32 => qStrip m d t) ∗ bigSep Finset.univ fun t : Fin 32 => iprop(∃ f, oStrip d t f ∗ ⌜copied m d t f⌝)) := by
  rw [bigSep_tiles (fun t => qStrip m d t), bigSep_tiles (fun t => iprop(∃ f, oStrip d t f ∗ ⌜copied m d t f⌝)), ← bigSep_sep']
  refine bigSep_congr fun c _ => ?_
  rw [← bigSep_sep']
  rfl

variable [FloatOps F] [∀ e, Nonempty (Elt F e)]

/-- A pure fact of every member of a conjunction is a fact of all. -/
theorem bigSep_pure_all {I : Type} [DecidableEq I] (S : Finset I) (φ : I → Prop) (Ψ : I → sProp 𝕄) :
    bigSep S (fun i => iprop(Ψ i ∗ ⌜φ i⌝)) ⊢ iprop(⌜∀ i ∈ S, φ i⌝ ∗ bigSep S Ψ) := by
  induction S using Finset.induction_on with
  | empty =>
    rw [bigSep_empty, bigSep_empty]
    iintro -
    isplitr
    · ipureintro; exact fun i hi => absurd hi (Finset.notMem_empty i)
    · iempintro
  | insert c S hc ih =>
    have e1 : bigSep (insert c S) (fun i => iprop(Ψ i ∗ ⌜φ i⌝)) = iprop((Ψ c ∗ ⌜φ c⌝) ∗ bigSep S fun i => iprop(Ψ i ∗ ⌜φ i⌝)) :=
      bigSep_insert hc
    have e2 : bigSep (insert c S) Ψ = iprop(Ψ c ∗ bigSep S Ψ) := bigSep_insert hc
    rw [e1, e2]
    iintro ⟨⟨Hc, %hφ⟩, HS⟩
    ihave H := ih $$ HS
    icases H with ⟨%hall, HS⟩
    isplitr
    · ipureintro
      intro i hi
      rcases Finset.mem_insert.mp hi with rfl | hi
      · exact hφ
      · exact hall i hi
    isplitl [Hc]; · iexact Hc
    iexact HS

/-- The strips of the copy, each holding the queue's words from column 4096 on, are the copy whole holding them. -/
theorem oStrips_join (d : Dev nD) :
    (bigSep Finset.univ fun t : Fin 32 => iprop(∃ f, oStrip d t f ∗ ⌜copied m d t f⌝))
      ⊢ (iprop(∃ g, (oLoc d ↦{fullShare} g) ∗ ⌜∀ idx : S768x65536.Idx, 4096 ≤ (idx 1).val → g idx = m (qLoc d) idx⌝) : sProp 𝕄) := by
  refine (bigSep_exists_pi Finset.univ (fun t (f : Buf (Elt F) (oLoc d)) => iprop(oStrip d t f ∗ ⌜copied m d t f⌝))).trans ?_
  iintro ⟨%fs, H⟩
  ihave H1 := (bigSep_pure_all Finset.univ (fun t => copied m d t (fs t)) (fun t => oStrip d t (fs t))) $$ H
  icases H1 with ⟨%hc, H⟩
  ihave H' := (pointsTo_biUnion_join Finset.univ stripSet fs (fs 0) strips_disjoint) $$ H
  icases H' with ⟨%g, %hg, Hg⟩
  rw [strips_cover]
  iexists g
  isplitl [Hg]; · iexact Hg
  ipureintro
  intro idx hidx
  have hmem : idx ∈ (Finset.univ : Finset (Fin 32)).biUnion stripSet := by rw [strips_cover]; exact Finset.mem_univ _
  obtain ⟨t, -, ht⟩ := Finset.mem_biUnion.mp hmem
  rw [hg t (Finset.mem_univ t) idx ht]
  exact hc t (Finset.mem_univ t) idx ht hidx

/-- The two arrays whole are what the call takes. -/
theorem sc_take (d : Dev nD) (fo : Buf (Elt F) (oLoc d)) :
    iprop((qLoc d ↦{fullShare} m (qLoc d)) ∗ oLoc d ↦{fullShare} fo)
      ⊢ (bigSep Finset.univ fun c : Fin ((K (F := F)).nCore 0) => (PV m).st 0 d c : sProp 𝕄) := by
  rw [st_eq, qPts_strips, oPts_strips]
  iintro ⟨Hq, Ho⟩
  isplitl [Hq]; · iexact Hq
  have h : (bigSep Finset.univ fun t : Fin 32 => oStrip d t fo : sProp 𝕄) ⊢ bigSep Finset.univ fun t : Fin 32 => iprop(∃ f, oStrip d t f) :=
    bigSep_mono fun t _ => exists_intro (Φ := fun f => oStrip d t f) fo
  iapply h; iexact Ho

/-- What the call hands back is the two arrays whole: the queue unchanged, the copy holding the queue's words from
    column 4096 on. -/
theorem sc_give (d : Dev nD) :
    (bigSep Finset.univ fun c : Fin ((K (F := F)).nCore 0) => (PV m).dn 0 d c : sProp 𝕄)
      ⊢ iprop((qLoc d ↦{fullShare} m (qLoc d)) ∗ ∃ g, (oLoc d ↦{fullShare} g) ∗ ⌜∀ idx : S768x65536.Idx, 4096 ≤ (idx 1).val → g idx = m (qLoc d) idx⌝) := by
  rw [dn_eq, qPts_strips]
  iintro ⟨Hq, Ho⟩
  isplitl [Hq]; · iexact Hq
  iapply (oStrips_join m d); iexact Ho

end Cert.KernelIdeal.Hand

end
-- ==== Proof.MainRun.lean ====
/-
  @main on the TensorCore, run segment by segment: each straight line of host operations over the TensorCore's
  unscoped buffers held whole, each kernel region by its region step (a hypothesis here: the three regions' proofs
  are their own modules), the SparseCore call by the launch theorem's call rule. Carried through: the twenty
  argument arrays keep their launch contents (no host operation and no region writes one).
-/
import proofs.«211565_g20684562498226_cont_8to1_684_24_alg».proof.Proof.Launch
import proofs.«211565_g20684562498226_cont_8to1_684_24_alg».proof.Proof.MainEq
import proofs.«211565_g20684562498226_cont_8to1_684_24_alg».proof.Proof.MainOpsFacts
import proofs.«211565_g20684562498226_cont_8to1_684_24_alg».proof.Proof.ScCall
import Idealize.ShloMosaic.Lib.Pipeline.Frame

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ
/-- The SparseCore program's body table. -/
abbrev DK [FloatOps F] : Defs nD τ sig (Elt F) (SparseCore.Sig (ΛP (F := F)) 1) := (K (F := F)).defs (D (F := F))

variable (m : (ℓ : Loc nD τ sig) → Buf (Elt F) ℓ) (ρ : Dev nD → PrngReg)

/-- The TensorCore's unscoped buffers: what @main holds whole between its segments. -/
abbrev Sall : Finset (DevRef τ sig) := Pipeline.ucRefs τ sig

/-- A valuation of device `d`'s buffers at which every argument array has its launch contents. -/
def Keeps (d : Dev nD) (V : Valuation τ sig (Elt F)) : Prop := ∀ b ∈ argRefs, V b = StableHlo.launchContents m d b

/-- What @main leaves the claim: the buffers held at a valuation of which the final fact `I` holds. -/
def FINI (I : Valuation τ sig (Elt F) → Prop) (d : Dev nD) : sProp 𝕄 := iprop(∃ V : Valuation τ sig (Elt F), ⌜I V⌝ ∗ held (T d) Sall V)
/-- The frame's: the arguments kept. -/
abbrev FIN (d : Dev nD) : sProp 𝕄 := FINI (Keeps m d) d

/-- Pipeline `p`'s share of the launch's ghost state on device `d`. -/
abbrev Gq (p : Fin 3) (d : Dev nD) : sProp 𝕄 :=
  iprop(Pipeline.cellsGhost (Pipeline.pin (pcfgs (F := F)) adm) EP p d ∗ Pipeline.toksInit (Pipeline.pin (pcfgs (F := F)) adm) EP p d)

set_option maxHeartbeats 1600000 in
/-- A KERNEL REGION as a step of @main, at the pipelines' body table: from the region boundary, the buffers held at
    `V`, what the TensorCore owes (nothing at the pipelines' own index) and the pipeline's ghost state, the region's
    call runs, and the continuation finds the buffers held at a valuation that differs from `V` on the region's
    output arrays at most — the relation `Rel` between the two valuations says how —, and the same debt with only waits at the pipelines' index recorded. -/
def RegionStep [FloatOps F] (p : Fin 3) (Rel : Valuation τ sig (Elt F) → Valuation τ sig (Elt F) → Prop) : Prop :=
  ∀ (d : Dev nD) (O : CellTallies nD τ sig (HIx 1)) (W : Waits sig (HIx 1)), (∀ g, O g none = 0) →
  ∀ (V : Valuation τ sig (Elt F)) {α : Type} (k : PUnit → Prog (TpuEff nD τ sig (Elt F) (ΛP (F := F)) .tc) α) (Q : α → sProp 𝕄),
    iprop((∀ (V' : Valuation τ sig (Elt F)) (W' : Waits sig (HIx 1)),
            iprop(⌜Rel V V'⌝ ∗ ⌜∀ x ∈ W', x ∈ W ∨ x.2 = none⌝ ∗ boundary (T d) ∗ held (T d) Sall V' ∗ owes (T d) O W')
              -∗ wp frame (wpE (D (F := F)) 𝒱 (T d) none) Set.univ (k ⟨⟩) Q)
        ∗ boundary (T d) ∗ held (T d) Sall V ∗ owes (T d) O W ∗ levAts (K (F := F)).L (K (F := F)).lev ∗ Gq p d)
      ⊢ wp frame (wpE (D (F := F)) 𝒱 (T d) none) Set.univ (.op (.customCall (Pipeline.entry p) ()) k) Q

/-- The frame's relation: the exit valuation differs from the entry one on the output arrays `outs` at most. -/
def offOuts (outs : Finset (DevRef τ sig)) (V V' : Valuation τ sig (Elt F)) : Prop := ∀ b, b ∉ outs → V' b = V b

set_option maxHeartbeats 3200000 in
set_option backward.isDefEq.respectTransparency.types false in
/-- A region step, lifted into the SparseCore program's body table and closed by a postcondition. -/
theorem region_lift [FloatOps F] {p : Fin 3} {Rel : Valuation τ sig (Elt F) → Valuation τ sig (Elt F) → Prop} (hr : RegionStep (F := F) p Rel)
    (d : Dev nD) (O : CellTallies nD τ sig (HIx 1)) (W : Waits sig (HIx 1)) (hO : ∀ g, O g none = 0) (V : Valuation τ sig (Elt F))
    (Φ : PUnit → sProp 𝕄) :
    iprop((∀ (V' : Valuation τ sig (Elt F)) (W' : Waits sig (HIx 1)),
            iprop(⌜Rel V V'⌝ ∗ ⌜∀ x ∈ W', x ∈ W ∨ x.2 = none⌝ ∗ boundary (T d) ∗ held (T d) Sall V' ∗ owes (T d) O W') -∗ Φ ⟨⟩)
        ∗ boundary (T d) ∗ held (T d) Sall V ∗ owes (T d) O W ∗ levAts (K (F := F)).L (K (F := F)).lev ∗ Gq p d)
      ⊢ wp frame (wpE (DK (F := F)) 𝒱 (T d) none) Set.univ (callP (F := F) p) Φ := by
  have h1 := hr d O W hO V (α := PUnit) (fun _ => .ret ⟨⟩) Φ
  have h2 := (K (F := F)).wp_liftProg (D (F := F)) 𝒱 (T d) Set.univ none
    (Prog.lift (.customCall (Pipeline.entry p) ()) : Prog (TpuEff nD τ sig (Elt F) (ΛP (F := F)) .tc) PUnit) Φ
  have h0 : iprop((∀ (V' : Valuation τ sig (Elt F)) (W' : Waits sig (HIx 1)),
            iprop(⌜Rel V V'⌝ ∗ ⌜∀ x ∈ W', x ∈ W ∨ x.2 = none⌝ ∗ boundary (T d) ∗ held (T d) Sall V' ∗ owes (T d) O W') -∗ Φ ⟨⟩)
        ∗ boundary (T d) ∗ held (T d) Sall V ∗ owes (T d) O W ∗ levAts (K (F := F)).L (K (F := F)).lev ∗ Gq p d)
      ⊢ iprop((∀ (V' : Valuation τ sig (Elt F)) (W' : Waits sig (HIx 1)),
            iprop(⌜Rel V V'⌝ ∗ ⌜∀ x ∈ W', x ∈ W ∨ x.2 = none⌝ ∗ boundary (T d) ∗ held (T d) Sall V' ∗ owes (T d) O W')
              -∗ wp frame (wpE (D (F := F)) 𝒱 (T d) none) Set.univ (.ret ⟨⟩) Φ)
        ∗ boundary (T d) ∗ held (T d) Sall V ∗ owes (T d) O W ∗ levAts (K (F := F)).L (K (F := F)).lev ∗ Gq p d) := by
    iintro ⟨Hk, Hrest⟩
    isplitl [Hk]
    · iintro %V' %W' H
      rw [wp_ret]; imodintro
      ispecialize Hk $$ %V'
      ispecialize Hk $$ %W'
      iapply Hk; iexact H
    · iexact Hrest
  exact BI.Entails.trans h0 (BI.Entails.trans h1 h2)

/-! ## The segments -/

/-- Recorded waits stay below a level bound when only waits at the pipelines' index (level 0) are added. -/
theorem wbelow_keep {thr : Thread nD τ} {W W' : Waits sig (HIx 1)} {b : ℕ} (h : (K (F := F)).WBelow thr W b)
    (h' : ∀ x ∈ W', x ∈ W ∨ x.2 = none) : (K (F := F)).WBelow thr W' b := fun p hp =>
  (h' p hp).elim (h p) fun e => by rw [e, SparseCore.Cfg.lev_none]; exact Nat.zero_le _

/-- What the TensorCore owes the SparseCores is all at the calls' indices: nothing at the pipelines' index. -/
theorem Otc_none (d : Dev nD) (n : ℕ) : ∀ g, (K (F := F)).Otc d n g none = 0 := by
  intro g
  unfold SparseCore.Cfg.Otc
  simp only [Finset.sum_apply, Finsupp.coe_finset_sum, Finset.sum_ite, Finset.sum_const_zero, add_zero]
  simp [Finset.sum_apply, tallyAt_apply]
  split_ifs <;> simp [tallyAt_apply]

/-- A line that writes no argument array keeps the arguments. -/
theorem keeps_after {d : Dev nD} {ops : List (HloOp τ sig (Elt F))} (hkeep : ∀ op ∈ ops, ∀ b ∈ argRefs, b ∉ op.writes)
    (V : Valuation τ sig (Elt F)) (hV : Keeps m d V) : Keeps m d (StableHlo.after ops V) :=
  fun b hb => (StableHlo.after_of_forall_not_mem ops V fun op hop => hkeep op hop b hb).trans (hV b hb)

set_option backward.isDefEq.respectTransparency.types false in
/-- A straight line of host operations: the continuation finds the buffers at the line's result, of which the next
    stage's fact holds. -/
theorem stretch [FloatOps F] (d : Dev nD) (ops : List (HloOp τ sig (Elt F)))
    (hsub : ∀ op ∈ ops, op.bufs ⊆ StableHlo.tcRefs τ sig) (hfresh : ∀ op ∈ ops, op.fresh = ∅)
    (I J : Valuation τ sig (Elt F) → Prop) (hIJ : ∀ V, I V → J (StableHlo.after ops V))
    (rest : Prog (TpuEff nD τ sig (Elt F) (SparseCore.Sig (ΛP (F := F)) 1) .tc) PUnit) (X : sProp 𝕄) (Φ : PUnit → sProp 𝕄)
    (hnext : ∀ V, J V → iprop(X ∗ boundary (T d) ∗ held (T d) Sall V) ⊢ wp frame (wpE (DK (F := F)) 𝒱 (T d) none) Set.univ rest Φ)
    (V : Valuation τ sig (Elt F)) (hV : I V) :
    iprop(X ∗ boundary (T d) ∗ held (T d) Sall V) ⊢ wp frame (wpE (DK (F := F)) 𝒱 (T d) none) Set.univ (StableHlo.seq ops >>= fun _ => rest) Φ := by
  iintro ⟨HX, Hb, Hh⟩
  iapply (StableHlo.wp_seq 𝒱 none Set.univ d Sall (fun _ => rest) ops
      (fun op hop => Pipeline.sub_ucRefs op (hsub op hop)) hfresh V) $$ [Hb Hh]
  · isplitl [Hb]; · iexact Hb
    iexact Hh
  iintro ⟨Hb, Hh⟩
  iapply (hnext (StableHlo.after ops V) (hIJ V hV))
  isplitl [HX]; · iexact HX
  isplitl [Hb]; · iexact Hb
  iexact Hh

/-- A region that writes no argument array keeps the arguments. -/
theorem keeps_region {d : Dev nD} {outs : Finset (DevRef τ sig)} (houts : ∀ b ∈ argRefs, b ∉ outs) (V V' : Valuation τ sig (Elt F))
    (hV : Keeps m d V) (h : offOuts outs V V') : Keeps m d V' := fun b hb => (h b (houts b hb)).trans (hV b hb)

/-- A kernel region, before call `n` of the SparseCores: the TensorCore's debt to them
    passes through the region untouched. -/
theorem regionSeg [FloatOps F] {p : Fin 3} {Rel : Valuation τ sig (Elt F) → Valuation τ sig (Elt F) → Prop} (hr : RegionStep (F := F) p Rel)
    (I J : Valuation τ sig (Elt F) → Prop) (hIJ : ∀ V V', I V → Rel V V' → J V')
    (κ : GSem nD τ sig → ℕ) (d : Dev nD) (n : ℕ)
    (rest : Prog (TpuEff nD τ sig (Elt F) (SparseCore.Sig (ΛP (F := F)) 1) .tc) PUnit) (GS : sProp 𝕄) (Φ : PUnit → sProp 𝕄)
    (hnext : ∀ V, J V → iprop(iprop((K (F := F)).ctx EH (PV m) κ ∗ (K (F := F)).tcSt EH d n ∗ GS) ∗ boundary (T d) ∗ held (T d) Sall V)
      ⊢ wp frame (wpE (DK (F := F)) 𝒱 (T d) none) Set.univ rest Φ)
    (V : Valuation τ sig (Elt F)) (hV : I V) :
    iprop(iprop((K (F := F)).ctx EH (PV m) κ ∗ (K (F := F)).tcSt EH d n ∗ Gq p d ∗ GS) ∗ boundary (T d) ∗ held (T d) Sall V)
      ⊢ wp frame (wpE (DK (F := F)) 𝒱 (T d) none) Set.univ (callP (F := F) p >>= fun _ => rest) Φ := by
  rw [wp_bind]
  have hst : ((K (F := F)).tcSt (EH (F := F)) d n : sProp 𝕄) = iprop((∃ W, ⌜(K (F := F)).WBelow (T d) W (8 * n)⌝ ∗ owes (T d) ((K (F := F)).Otc d n) W)
      ∗ iprop(atPos (EH (F := F)) ((K (F := F)).doneCell d) n ∅ 0 ∗ reached (EH (F := F)) ((K (F := F)).doneCell d) n
        ∗ (bigSep Finset.univ fun c : Fin τ.nSC => reached (EH (F := F)) ((K (F := F)).startCell d c) ((K (F := F)).sRank c n))
        ∗ bigSep (SparseCore.Cfg.callsFrom n) fun q => bigSep Finset.univ fun c : Fin ((K (F := F)).nCore q) =>
            iprop(dutyTok (EH (F := F)) ((K (F := F)).startCell d ((K (F := F)).core q c)) ((K (F := F)).sRank ((K (F := F)).core q c) q.val) 0
              ∗ cred (tallyAt ((K (F := F)).doneCell d) (some q) 1)))) := rfl
  rw [hst]
  iintro ⟨⟨#Hctx, ⟨⟨%W, %hW, HO⟩, Hst⟩, HGp, HG⟩, Hb, Hh⟩
  ihave Hlev := (SparseCore.Cfg.ctx_levAts κ) $$ Hctx
  iapply (region_lift hr d ((K (F := F)).Otc d n) W (Otc_none d n) V _)
  isplitr [Hb Hh HO Hlev HGp]
  · iintro %V' %W' ⟨%hV', %hW', Hb, Hh, HO⟩
    iapply (hnext V' (hIJ V V' hV hV'))
    rw [hst]
    isplitl [HO Hst HG]
    · isplitr; · iexact Hctx
      isplitl [HO Hst]
      · isplitl [HO]
        · iexists W'; isplitr
          · ipureintro; exact wbelow_keep hW hW'
          · iexact HO
        · iexact Hst
      iexact HG
    isplitl [Hb]; · iexact Hb
    iexact Hh
  · isplitl [Hb]; · iexact Hb
    isplitl [Hh]; · iexact Hh
    isplitl [HO]; · iexact HO
    isplitl [Hlev]; · iexact Hlev
    iexact HGp

/-! ## The SparseCore call -/

/-- The queue and the call's result, as buffers of a device. -/
abbrev q' : DevRef τ sig := Proc.devRef .tc (main_arg18 : Ref sig .tc)
abbrev o' : DevRef τ sig := Proc.devRef .tc (main_v7 : Ref sig .tc)
abbrev qo : Finset (DevRef τ sig) := {q', o'}

theorem qo_sub : qo ⊆ Sall := by
  intro b hb
  rcases Finset.mem_insert.mp hb with rfl | hb
  · exact Finset.mem_filter.mpr ⟨StableHlo.devRef_mem_tcRefs _, by decide⟩
  · rw [Finset.mem_singleton.mp hb]; exact Finset.mem_filter.mpr ⟨StableHlo.devRef_mem_tcRefs _, by decide⟩

omit m in
theorem held_qo (d : Dev nD) (V : Valuation τ sig (Elt F)) :
    (held (T d) qo V : sProp 𝕄) = iprop((qLoc d ↦{fullShare} V q') ∗ oLoc d ↦{fullShare} V o') := by
  unfold StableHlo.held qo
  rw [SparseCore.bigSep_insert' (by decide), bigSep_singleton]

/-- The SparseCore call's result is no argument array: rewriting it keeps the arguments. -/
theorem keeps_update {d : Dev nD} (V : Valuation τ sig (Elt F)) (g : Buf (Elt F) (oLoc d)) (hV : Keeps m d V) :
    Keeps m d (Function.update V o' g) := fun b hb =>
  (Function.update_of_ne (fun e => absurd (e ▸ hb) (by decide)) _ _).trans (hV b hb)

/-- The SparseCore call: the queue and its copy go to the vector subcores as strips and come back whole, the queue
    unchanged; every other buffer is untouched. -/
theorem scSeg [FloatOps F] [∀ e, Nonempty (Elt F e)] (κ : GSem nD τ sig → ℕ) (d : Dev nD)
    (rest : Prog (TpuEff nD τ sig (Elt F) (SparseCore.Sig (ΛP (F := F)) 1) .tc) PUnit) (GS : sProp 𝕄) (Φ : PUnit → sProp 𝕄)
    (I J : Valuation τ sig (Elt F) → Prop) (hIq : ∀ V, I V → V q' = m (qLoc d))
    (hIJ : ∀ V (g : Buf (Elt F) (oLoc d)), I V → (∀ idx : S768x65536.Idx, 4096 ≤ (idx 1).val → g idx = m (qLoc d) idx) → J (Function.update V o' g))
    (hnext : ∀ V, J V → iprop(iprop((K (F := F)).ctx EH (PV m) κ ∗ (K (F := F)).tcSt EH d 1 ∗ GS) ∗ boundary (T d) ∗ held (T d) Sall V)
      ⊢ wp frame (wpE (DK (F := F)) 𝒱 (T d) none) Set.univ rest Φ)
    (V : Valuation τ sig (Elt F)) (hV : I V) :
    iprop(iprop((K (F := F)).ctx EH (PV m) κ ∗ (K (F := F)).tcSt EH d 0 ∗ GS) ∗ boundary (T d) ∗ held (T d) Sall V)
      ⊢ wp frame (wpE (DK (F := F)) 𝒱 (T d) none) Set.univ (sc.run d 0 >>= fun _ => rest) Φ := by
  have hq : V q' = m (qLoc d) := hIq V hV
  rw [wp_bind, StableHlo.held_sub_split (T d) qo_sub V, held_qo, hq]
  iintro ⟨⟨#Hctx, Hst, HG⟩, Hb, ⟨Hq, Ho⟩, Hrest⟩
  iapply ((K (F := F)).wp_run (D (F := F)) 𝒱 (EH := EH) (P := PV m) κ d 0) $$ [Hst Hq Ho Hb Hrest HG]
  isplitr; · iexact Hctx
  isplitl [Hst]; · iexact Hst
  isplitl [Hq Ho]
  · iapply (sc_take m d (V o'))
    isplitl [Hq]; · iexact Hq
    iexact Ho
  iintro ⟨Hst, Hdn⟩
  ihave Hdn' := (sc_give m d) $$ Hdn
  icases Hdn' with ⟨Hq, %g, Ho, %hg⟩
  iapply (hnext (Function.update V o' g) (hIJ V g hV hg))
  isplitl [Hst HG]
  · isplitr; · iexact Hctx
    isplitl [Hst]; · iexact Hst
    iexact HG
  isplitl [Hb]; · iexact Hb
  rw [StableHlo.held_sub_split (T d) qo_sub (Function.update V o' g), held_qo,
    Function.update_of_ne (show q' ≠ o' by decide), Function.update_self, hq,
    StableHlo.held_congr (T d) (S := Sall \ qo) (V := Function.update V o' g) (V' := V)
      (fun b hb => Function.update_of_ne (fun e => (Finset.mem_sdiff.mp hb).2 (by rw [e]; exact Finset.mem_insert_of_mem (Finset.mem_singleton_self _))) _ _)]
  isplitl [Hq Ho]
  · isplitl [Hq]; · iexact Hq
    iexact Ho
  iexact Hrest

/-! ## The end of @main, and @main whole -/

/-- At the return: the TensorCore's handshake state after the one call, and the buffers held with the arguments kept. -/
theorem finish [FloatOps F] (I : Valuation τ sig (Elt F) → Prop) (κ : GSem nD τ sig → ℕ) (d : Dev nD) (V : Valuation τ sig (Elt F)) (hV : I V) :
    iprop(iprop((K (F := F)).ctx EH (PV m) κ ∗ (K (F := F)).tcSt EH d 1 ∗ emp) ∗ boundary (T d) ∗ held (T d) Sall V)
      ⊢ wp frame (wpE (DK (F := F)) 𝒱 (T d) none) Set.univ (pure PUnit.unit : Prog (TpuEff nD τ sig (Elt F) (SparseCore.Sig (ΛP (F := F)) 1) .tc) PUnit)
          fun _ => iprop((K (F := F)).tcSt EH d 1 ∗ FINI I d) := by
  rw [wp_pure]
  iintro ⟨⟨-, Hst, -⟩, -, Hh⟩
  imodintro
  isplitl [Hst]; · iexact Hst
  unfold FINI
  iexists V; isplitr
  · ipureintro; exact hV
  · iexact Hh

/-! ## The final state, and the run -/

theorem args_sub : argRefs ⊆ Sall := by
  intro b hb
  refine Finset.mem_filter.mpr ⟨?_, ?_⟩
  · revert b; decide
  · revert b; decide

omit m in
/-- A buffer held whole reads, against a final state, as that state's contents of it. -/
theorem held_read (d : Dev nD) (V : Valuation τ sig (Elt F)) (s' : Phys nD τ sig (Elt F)) (b : DevRef τ sig) (hb : b ∈ Sall) :
    iprop(held (T d) Sall V ∗ SI s') ⊢ (⌜s'.mem.mem (d, b) = V b⌝ : sProp 𝕄) := by
  rw [StableHlo.held_sub_split (T d) (Finset.singleton_subset_iff.mpr hb) V]
  unfold StableHlo.held
  rw [bigSep_singleton]
  iintro ⟨⟨Hb, -⟩, HSI⟩
  ihave H := (SI_pointsTo_agree (st := s') (ℓ := (d, b)) (I := Finset.univ) (q := fullShare) (f := V b)) $$ [HSI Hb]
  · isplitl [HSI] <;> iassumption
  icases H with %h
  ipureintro; exact funext fun i => h i (Finset.mem_univ i)

/-- What the claim reads of a final state on device `d`: every argument array at its launch contents. -/
def fq (d : Dev nD) (s' : Phys nD τ sig (Elt F)) : Prop := ∀ b ∈ argRefs, s'.mem.mem (d, b) = m (d, b)

/-- Read against a final state, the buffers held at a valuation of which `I` holds: the state's contents of every
    unscoped buffer are some such valuation's. -/
def fqI (I : Valuation τ sig (Elt F) → Prop) (d : Dev nD) (s' : Phys nD τ sig (Elt F)) : Prop :=
  ∃ V : Valuation τ sig (Elt F), I V ∧ ∀ b ∈ Sall, s'.mem.mem (d, b) = V b

omit m in
theorem hfinI (I : Valuation τ sig (Elt F) → Prop) (d : Dev nD) (s' : Phys nD τ sig (Elt F)) :
    iprop(FINI I d ∗ SI s') ⊢ (⌜fqI I d s'⌝ : sProp 𝕄) := by
  unfold FINI
  iintro ⟨⟨%V, %hV, Hh⟩, HSI⟩
  have key : iprop(held (T d) Sall V ∗ SI s') ⊢ (⌜fqI I d s'⌝ : sProp 𝕄) :=
    fun a ha => ⟨V, hV, fun b hb => held_read d V s' b hb a ha⟩
  iapply key
  isplitl [Hh]; · iexact Hh
  iexact HSI

theorem fq_of_fqI (d : Dev nD) (s' : Phys nD τ sig (Elt F)) (h : fqI (Keeps m d) d s') : fq m d s' := by
  obtain ⟨V, hV, hr⟩ := h
  exact fun b hb => (hr b (args_sub hb)).trans (hV b hb)

/-- The run's postcondition: on every device every argument array ends at its launch contents. -/
def QC : PUnit × MemSt nD τ sig (Elt F) → Prop := fun r => ∀ c : Dev nD, ∀ b ∈ argRefs, r.2.mem (c, b) = m (c, b)

end Cert.KernelIdeal.Hand

end
-- ==== Proof.MainRun2.lean ====
/-
  @main whole, and the run of the device's threads. @main's eight suffixes — from each segment to the return — are
  named, so that each segment's lemma is applied to a named continuation.
-/
import proofs.«211565_g20684562498226_cont_8to1_684_24_alg».proof.Proof.MainRun

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ
/-- Programs of the TensorCore thread in the SparseCore program's signature. -/
abbrev ProgT (F : FTy → Type) : Type 1 := Prog (TpuEff nD τ sig (Elt F) (SparseCore.Sig (ΛP (F := F)) 1) Proc.tc) PUnit

variable (m : (ℓ : Loc nD τ sig) → Buf (Elt F) ℓ) (ρ : Dev nD → PrngReg)

/-! ## @main's suffixes -/

def r7 [FloatOps F] : ProgT F := StableHlo.seq (ops3 (F := F))
def r6 [FloatOps F] : ProgT F := callP (F := F) 2 >>= fun _ => r7
def r5 [FloatOps F] : ProgT F := StableHlo.seq (ops2 (F := F)) >>= fun _ => r6
def r4 [FloatOps F] : ProgT F := callP (F := F) 1 >>= fun _ => r5
def r3 [FloatOps F] : ProgT F := StableHlo.seq (ops1 (F := F)) >>= fun _ => r4
def r2 [FloatOps F] (d : Dev nD) : ProgT F := sc.run d 0 >>= fun _ => r3
def r1 [FloatOps F] (d : Dev nD) : ProgT F := callP (F := F) 0 >>= fun _ => r2 d
def r0 [FloatOps F] (d : Dev nD) : ProgT F := StableHlo.seq (ops0 (F := F)) >>= fun _ => r1 d

/-- @main is its first suffix (both unfold to the same sequence of statements). -/
theorem main_r0 [FloatOps F] (d : Dev nD) : main (F := F) d = r0 d := by
  rw [main_eq]
  rfl

/-- The nine facts of the buffers' valuation along @main — at launch, after each of the four lines of host
    operations, after each of the three regions and after the SparseCore call — and the steps between them. -/
structure Stages [FloatOps F] (d : Dev nD) where
  I : Fin 9 → Valuation τ sig (Elt F) → Prop
  Rel0 : Valuation τ sig (Elt F) → Valuation τ sig (Elt F) → Prop
  Rel1 : Valuation τ sig (Elt F) → Valuation τ sig (Elt F) → Prop
  Rel2 : Valuation τ sig (Elt F) → Valuation τ sig (Elt F) → Prop
  h0 : I 0 (StableHlo.launchContents m d)
  t0 : ∀ V, I 0 V → I 1 (StableHlo.after (ops0 (F := F)) V)
  t1 : ∀ V V', I 1 V → Rel0 V V' → I 2 V'
  tq : ∀ V, I 2 V → V q' = m (qLoc d)
  t2 : ∀ V (g : Buf (Elt F) (oLoc d)), I 2 V → (∀ idx : S768x65536.Idx, 4096 ≤ (idx 1).val → g idx = m (qLoc d) idx) → I 3 (Function.update V o' g)
  t3 : ∀ V, I 3 V → I 4 (StableHlo.after (ops1 (F := F)) V)
  t4 : ∀ V V', I 4 V → Rel1 V V' → I 5 V'
  t5 : ∀ V, I 5 V → I 6 (StableHlo.after (ops2 (F := F)) V)
  t6 : ∀ V V', I 6 V → Rel2 V V' → I 7 V'
  t7 : ∀ V, I 7 V → I 8 (StableHlo.after (ops3 (F := F)) V)

/-- What @main ends in. -/
def PhiEnd (d : Dev nD) (I : Valuation τ sig (Elt F) → Prop) : PUnit → sProp 𝕄 := fun _ => iprop((K (F := F)).tcSt EH d 1 ∗ FINI I d)

/-- The state between segments: the handshakes' context, the TensorCore's handshake state before call `n`, the ghost
    state of the regions still to come. -/
abbrev St (κ : GSem nD τ sig → ℕ) (d : Dev nD) (n : ℕ) (GS : sProp 𝕄) : sProp 𝕄 :=
  iprop((K (F := F)).ctx EH (PV m) κ ∗ (K (F := F)).tcSt EH d n ∗ GS)

section Segments

variable [FloatOps F] [∀ e, Nonempty (Elt F e)] (κ : GSem nD τ sig → ℕ) (d : Dev nD) (Sg : Stages m d)
  (hr0 : RegionStep (F := F) 0 Sg.Rel0) (hr1 : RegionStep (F := F) 1 Sg.Rel1) (hr2 : RegionStep (F := F) 2 Sg.Rel2)

/-- The last line of host operations, then the return. -/
theorem seg7 : ∀ V, Sg.I 7 V → iprop(St m κ d 1 iprop(emp) ∗ boundary (T d) ∗ held (T d) Sall V)
    ⊢ wp frame (wpE (DK (F := F)) 𝒱 (T d) none) Set.univ (r7 (F := F)) (PhiEnd d (Sg.I 8)) := by
  have e3 : (r7 (F := F)) = (StableHlo.seq (ops3 (F := F)) >>= fun _ => pure PUnit.unit) := (bind_pure _).symm
  rw [e3]
  exact stretch d (ops3 (F := F)) ops3_sub ops3_fresh (Sg.I 7) (Sg.I 8) Sg.t7 (pure PUnit.unit) (St m κ d 1 iprop(emp)) (PhiEnd d (Sg.I 8)) (finish m (Sg.I 8) κ d)

include hr2 in
/-- The third region. -/
theorem seg6 : ∀ V, Sg.I 6 V → iprop(St m κ d 1 iprop(Gq 2 d ∗ emp) ∗ boundary (T d) ∗ held (T d) Sall V)
    ⊢ wp frame (wpE (DK (F := F)) 𝒱 (T d) none) Set.univ (r6 (F := F)) (PhiEnd d (Sg.I 8)) :=
  regionSeg m hr2 (Sg.I 6) (Sg.I 7) Sg.t6 κ d 1 (r7 (F := F)) iprop(emp) (PhiEnd d (Sg.I 8)) (seg7 m κ d Sg)

include hr2 in
theorem seg5 : ∀ V, Sg.I 5 V → iprop(St m κ d 1 iprop(Gq 2 d ∗ emp) ∗ boundary (T d) ∗ held (T d) Sall V)
    ⊢ wp frame (wpE (DK (F := F)) 𝒱 (T d) none) Set.univ (r5 (F := F)) (PhiEnd d (Sg.I 8)) :=
  stretch d (ops2 (F := F)) ops2_sub ops2_fresh (Sg.I 5) (Sg.I 6) Sg.t5 (r6 (F := F)) (St m κ d 1 iprop(Gq 2 d ∗ emp)) (PhiEnd d (Sg.I 8)) (seg6 m κ d Sg hr2)

include hr1 hr2 in
/-- The second region. -/
theorem seg4 : ∀ V, Sg.I 4 V → iprop(St m κ d 1 iprop(Gq 1 d ∗ Gq 2 d ∗ emp) ∗ boundary (T d) ∗ held (T d) Sall V)
    ⊢ wp frame (wpE (DK (F := F)) 𝒱 (T d) none) Set.univ (r4 (F := F)) (PhiEnd d (Sg.I 8)) :=
  regionSeg m hr1 (Sg.I 4) (Sg.I 5) Sg.t4 κ d 1 (r5 (F := F)) iprop(Gq 2 d ∗ emp) (PhiEnd d (Sg.I 8)) (seg5 m κ d Sg hr2)

include hr1 hr2 in
theorem seg3 : ∀ V, Sg.I 3 V → iprop(St m κ d 1 iprop(Gq 1 d ∗ Gq 2 d ∗ emp) ∗ boundary (T d) ∗ held (T d) Sall V)
    ⊢ wp frame (wpE (DK (F := F)) 𝒱 (T d) none) Set.univ (r3 (F := F)) (PhiEnd d (Sg.I 8)) :=
  stretch d (ops1 (F := F)) ops1_sub ops1_fresh (Sg.I 3) (Sg.I 4) Sg.t3 (r4 (F := F)) (St m κ d 1 iprop(Gq 1 d ∗ Gq 2 d ∗ emp)) (PhiEnd d (Sg.I 8)) (seg4 m κ d Sg hr1 hr2)

include hr1 hr2 in
/-- The SparseCore call. -/
theorem seg2 : ∀ V, Sg.I 2 V → iprop(St m κ d 0 iprop(Gq 1 d ∗ Gq 2 d ∗ emp) ∗ boundary (T d) ∗ held (T d) Sall V)
    ⊢ wp frame (wpE (DK (F := F)) 𝒱 (T d) none) Set.univ (r2 (F := F) d) (PhiEnd d (Sg.I 8)) :=
  scSeg m κ d (r3 (F := F)) iprop(Gq 1 d ∗ Gq 2 d ∗ emp) (PhiEnd d (Sg.I 8)) (Sg.I 2) (Sg.I 3) Sg.tq Sg.t2 (seg3 m κ d Sg hr1 hr2)

include hr0 hr1 hr2 in
/-- The first region. -/
theorem seg1 : ∀ V, Sg.I 1 V → iprop(St m κ d 0 iprop(Gq 0 d ∗ Gq 1 d ∗ Gq 2 d ∗ emp) ∗ boundary (T d) ∗ held (T d) Sall V)
    ⊢ wp frame (wpE (DK (F := F)) 𝒱 (T d) none) Set.univ (r1 (F := F) d) (PhiEnd d (Sg.I 8)) :=
  regionSeg m hr0 (Sg.I 1) (Sg.I 2) Sg.t1 κ d 0 (r2 (F := F) d) iprop(Gq 1 d ∗ Gq 2 d ∗ emp) (PhiEnd d (Sg.I 8)) (seg2 m κ d Sg hr1 hr2)

include hr0 hr1 hr2 in
theorem seg0 : ∀ V, Sg.I 0 V → iprop(St m κ d 0 iprop(Gq 0 d ∗ Gq 1 d ∗ Gq 2 d ∗ emp) ∗ boundary (T d) ∗ held (T d) Sall V)
    ⊢ wp frame (wpE (DK (F := F)) 𝒱 (T d) none) Set.univ (r0 (F := F) d) (PhiEnd d (Sg.I 8)) :=
  stretch d (ops0 (F := F)) ops0_sub ops0_fresh (Sg.I 0) (Sg.I 1) Sg.t0 (r1 (F := F) d) (St m κ d 0 iprop(Gq 0 d ∗ Gq 1 d ∗ Gq 2 d ∗ emp)) (PhiEnd d (Sg.I 8)) (seg1 m κ d Sg hr0 hr1 hr2)

omit [∀ e, Nonempty (Elt F e)] in
set_option maxHeartbeats 1600000 in
/-- The launch's unscoped buffers are the set @main holds, at the launch contents. -/
theorem unscoped_held0 : (unscopedBufs d (fun b => m ((SparseCore.T d).loc b)) : sProp 𝕄) = held (SparseCore.T d) Sall (StableHlo.launchContents m d) :=
  Pipeline.unscopedBufs_held (Ix := HIx 1) (Name := ℕ) (U := UU) (Lvl := ℕ) d (StableHlo.launchContents m d)

/-- What the launch deals the TensorCore, sorted for @main's first segment. -/
theorem glue0 : iprop((K (F := F)).ctx EH (PV m) κ ∗ (K (F := F)).tcSt EH d 0 ∗ (K (F := F)).tcRes m ρ d ∗ Gp d)
    ⊢ iprop(St m κ d 0 iprop(Gq 0 d ∗ Gq 1 d ∗ Gq 2 d ∗ emp) ∗ boundary (T d) ∗ held (T d) Sall (StableHlo.launchContents m d)) := by
  unfold SparseCore.Cfg.tcRes Gp
  rw [unscoped_held0 m d,
    show (bigSep Finset.univ fun p : Fin 3 => Gq (F := F) p d) = iprop(Gq (F := F) 0 d ∗ Gq (F := F) 1 d ∗ Gq (F := F) 2 d)
      from bigSep_univ_eq_bigSepL [(0 : Fin 3), 1, 2] (by decide) (by decide) _]
  iintro ⟨Hctx, Hst, ⟨Hb, Hh, -, -⟩, H0, H1, H2⟩
  isplitl [Hctx Hst H0 H1 H2]
  · isplitl [Hctx]; · iexact Hctx
    isplitl [Hst]; · iexact Hst
    isplitl [H0]; · iexact H0
    isplitl [H1]; · iexact H1
    isplitl [H2]; · iexact H2
    iempintro
  isplitl [Hb]; · iexact Hb
  iexact Hh

include hr0 hr1 hr2 in
/-- @main on device `d`'s TensorCore, from the three regions' steps and the stages' facts: it ends with the buffers held at
    a valuation of which the last fact holds. -/
theorem hmainG :
    iprop((K (F := F)).ctx EH (PV m) κ ∗ (K (F := F)).tcSt EH d 0 ∗ (K (F := F)).tcRes m ρ d ∗ Gp d)
      ⊢ wp frame (wpE (DK (F := F)) 𝒱 (T d) none) Set.univ (main d) fun _ => iprop((K (F := F)).tcSt EH d 1 ∗ FINI (Sg.I 8) d) := by
  rw [main_r0]
  exact BI.Entails.trans (glue0 m ρ κ d) (seg0 m κ d Sg hr0 hr1 hr2 (StableHlo.launchContents m d) Sg.h0)

end Segments

/-- The run's postcondition: on every device the unscoped buffers end at a valuation of which the last fact holds. -/
def QCI (I : Dev nD → Valuation τ sig (Elt F) → Prop) : PUnit × MemSt nD τ sig (Elt F) → Prop :=
  fun r => ∀ c : Dev nD, ∃ V : Valuation τ sig (Elt F), I c V ∧ ∀ b ∈ Sall, r.2.mem (c, b) = V b

/-- THE RUN, from the vector subcores' task, the three regions' steps and the stages' facts: every weakly fair
    execution of the device's threads — the TensorCore's @main, the sequencers, the vector subcores — terminates,
    nothing faulting, and the buffers end at a valuation of which the last fact holds. -/
theorem run_mainG [FloatOps F] [∀ e, Nonempty (Elt F e)] (Sg : (d : Dev nD) → Stages m d)
    (htile : (K (F := F)).TileObl (D (F := F)) 𝒱 (PV m) v₀ 0)
    (hr0 : ∀ d, RegionStep (F := F) 0 (Sg d).Rel0) (hr1 : ∀ d, RegionStep (F := F) 1 (Sg d).Rel1) (hr2 : ∀ d, RegionStep (F := F) 2 (Sg d).Rel2) :
    θ_run (Cert.KernelIdeal.defs (F := F)) (Cert.KernelIdeal.threads (F := F)) ⟨m, fun _ => 0, ρ⟩ (QCI fun d => (Sg d).I 8) :=
  SparseCore.Cfg.θ_run_sc (K := K (F := F)) (D := D (F := F)) (𝒱 := 𝒱) (EH := EH) (P := PV m) facts v₀
    (fun q hq => match q with | 0 => nomatch hq)
    (fun q _ => match q with | 0 => htile)
    (fun q _ => match q with | 0 => SparseCore.Cfg.VecSplit.of_plain (vecSplitV m))
    m ρ main (Gp (F := F)) (fun d => FINI ((Sg d).I 8) d) (u₀ (F := F)) (sep_elim_left.trans (hu₀ m))
    (fun κ d => hmainG m ρ κ d (Sg d) (hr0 d) (hr1 d) (hr2 d)) (fun d => fqI ((Sg d).I 8) d) (fun d => hfinI ((Sg d).I 8) d)
    (QCI fun d => (Sg d).I 8) (fun _ h => h)

/-! ## The frame's instance: every stage's fact is that the arguments are kept -/

/-- The stages of the frame: at every stage the twenty argument arrays have their launch contents. -/
def frameStages [FloatOps F] (outs0 outs1 outs2 : Finset (DevRef τ sig))
    (h0 : ∀ b ∈ argRefs, b ∉ outs0) (h1 : ∀ b ∈ argRefs, b ∉ outs1) (h2 : ∀ b ∈ argRefs, b ∉ outs2) (d : Dev nD) : Stages m d where
  I := fun _ => Keeps m d
  Rel0 := offOuts outs0
  Rel1 := offOuts outs1
  Rel2 := offOuts outs2
  h0 := fun _ _ => rfl
  t0 := keeps_after m ops0_keep
  t1 := fun V V' hV h => keeps_region m h0 V V' hV h
  tq := fun V hV => hV q' (by decide)
  t2 := fun V g hV _ => keeps_update m V g hV
  t3 := keeps_after m ops1_keep
  t4 := fun V V' hV h => keeps_region m h1 V V' hV h
  t5 := keeps_after m ops2_keep
  t6 := fun V V' hV h => keeps_region m h2 V V' hV h
  t7 := keeps_after m ops3_keep

/-- The run, frame strength: the argument arrays end unchanged. -/
theorem run_main [FloatOps F] [∀ e, Nonempty (Elt F e)] {outs0 outs1 outs2 : Finset (DevRef τ sig)}
    (htile : (K (F := F)).TileObl (D (F := F)) 𝒱 (PV m) v₀ 0)
    (hr0 : RegionStep (F := F) 0 (offOuts outs0)) (hr1 : RegionStep (F := F) 1 (offOuts outs1)) (hr2 : RegionStep (F := F) 2 (offOuts outs2))
    (h0 : ∀ b ∈ argRefs, b ∉ outs0) (h1 : ∀ b ∈ argRefs, b ∉ outs1) (h2 : ∀ b ∈ argRefs, b ∉ outs2) :
    θ_run (Cert.KernelIdeal.defs (F := F)) (Cert.KernelIdeal.threads (F := F)) ⟨m, fun _ => 0, ρ⟩ (QC m) :=
  (θ_run _ _ _).mono (fun r h c b hb => by
      obtain ⟨V, hV, hr⟩ := h c
      exact (hr b (args_sub hb)).trans (hV b hb))
    (run_mainG m ρ (frameStages m outs0 outs1 outs2 h0 h1 h2) htile (fun _ => hr0) (fun _ => hr1) (fun _ => hr2))

end Cert.KernelIdeal.Hand

end
-- ==== Proof.RegionsData.lean ====
/-
  The proof data of the three TensorCore pallas_calls, run at frame strength inside the SparseCore launch, and what
  their regions share: how the thread's tally enters and leaves a pipeline, and how the unscoped buffers are sorted
  into a pipeline's arrays and the rest at entry and put together again at exit.
-/
import proofs.«211565_g20684562498226_cont_8to1_684_24_alg».proof.Proof.Setup
import proofs.«211565_g20684562498226_cont_8to1_684_24_alg».proof.Proof.Gen.KernelIdeal.Points
import Idealize.ShloMosaic.Lib.Pipeline.Frame

noncomputable section

namespace Cert.KernelIdeal.Hand

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The proof data of the three TensorCore regions

Every region is run at frame strength: of what a body leaves in a staging buffer nothing is said (the relation that
holds of any two contents), so an output array ends at contents not named, and an input array — never written back —
ends as it was entered. The thread owes a constant tally throughout, all of it at indices other than the pipelines' own
(`none`); the pairs its waits have recorded stay within a given set and the pairs at index `none`. -/

/-- The bound on the recorded pairs: those of a given set, and every pair at the pipelines' own index. -/
def recB (WW : Waits sig (HIx 1)) : Set (SemLoc sig × HIx 1) := {x | x ∈ WW ∨ x.2 = none}

/-- The proof data of one pipeline on core `c`, entered with the unscoped buffers at the valuation `Vc`: each window's
    array at what `Vc` says; nothing said of what the body leaves; the invariant is the scoped buffers no window
    stages; full shares; the constant tally `OO` owed. -/
def rdatG (cfg : Pipeline.Cfg sig Λ₀) (c : Dev nD) (Vc : Valuation τ sig (Elt F)) (WW : Waits sig (HIx 1))
    (OO : CellTallies nD τ sig (HIx 1)) : Pipeline.RDat τ (Elt F) (HIx 1) ℕ UU ℕ cfg c where
  A w := Vc (Pipeline.arrRef cfg.spec w)
  after _ _ _ _ := True
  Φ _ := Pipeline.scopedRest cfg.spec c
  q _ := fullShare
  owed _ := OO
  recorded _ := recB WW

variable (VV : Dev nD → Valuation τ sig (Elt F)) (WW : Waits sig (HIx 1)) (OO : CellTallies nD τ sig (HIx 1))

/-- The three pipelines' proof data at once. -/
def rdats : (p : Fin 3) → (c : Dev nD) → Pipeline.RDat τ (Elt F) (HIx 1) ℕ UU ℕ (Pipeline.pin (pcfgs (F := F)) adm p) c
  | 0 => fun c => rdatG cfg0 c (VV c) WW OO
  | 1 => fun c => rdatG cfg2 c (VV c) WW OO
  | 2 => fun c => rdatG cfg3 c (VV c) WW OO

/-- Every array is held at the full share. -/
theorem rdatG_share (cfg : Pipeline.Cfg sig Λ₀) (c : Dev nD) (Vc : Valuation τ sig (Elt F)) (w : Fin cfg.W) :
    (rdatG cfg c Vc WW OO).share w = fullShare := by
  unfold Pipeline.RDat.share; split <;> rfl

/-- A conjunction over no index. -/
theorem bigSep_Fin0 {M : Type} [URA M] (Φ : Fin 0 → sProp M) : bigSep Finset.univ Φ = (BI.emp : sProp M) :=
  bigSep_univ_eq_bigSepL [] (by decide) (by decide) Φ

/-! ## The thread's tally, in and out of a pipeline's own form -/

/-- What the thread owes between segments: the tally `OO`, its recorded pairs within `recB WW`. -/
def owesT (c : Dev nD) : sProp 𝕄 := iprop(∃ W' : Waits sig (HIx 1), ⌜∀ x ∈ W', x ∈ WW ∨ x.2 = none⌝ ∗ owes (SparseCore.T c) OO W')

theorem owesAt_intro {cfg : Pipeline.Cfg sig Λ₀} (c : Dev nD) (Vc : Valuation τ sig (Elt F)) (t : Fin (cfg.N + 1)) :
    owesT WW OO c ⊢ ((rdatG cfg c Vc WW OO).owesAt none t : sProp 𝕄) := by
  unfold owesT Pipeline.RDat.owesAt Pipeline.owesWithin
  iintro ⟨%W', %h, HO⟩
  iexists W'; isplitr
  · ipureintro; exact fun x hx => Or.inl (h x (Finset.mem_coe.mp hx))
  iexact HO

theorem owesAt_elim {cfg : Pipeline.Cfg sig Λ₀} (c : Dev nD) (Vc : Valuation τ sig (Elt F)) (t : Fin (cfg.N + 1)) :
    ((rdatG cfg c Vc WW OO).owesAt none t : sProp 𝕄) ⊢ owesT WW OO c := by
  unfold owesT Pipeline.RDat.owesAt Pipeline.owesWithin
  iintro ⟨%W', %h, HO⟩
  iexists W'; isplitr
  · ipureintro
    intro x hx
    rcases h (Finset.mem_coe.mpr hx) with h' | ⟨w, s, rfl⟩
    · exact h'
    · exact Or.inr rfl
  iexact HO

/-! ## Exit: the unscoped buffers put together again -/

variable [FloatOps F]

/-- The arrays of a pipeline's output windows, as device buffers. -/
def outs (cfg : Pipeline.Cfg sig Λ₀) : Finset (DevRef τ sig) :=
  (Finset.univ.filter fun w : Fin cfg.W => (cfg.win w).isOut = true).image fun w => Proc.devRef (τ := τ) .tc (Pipeline.arrRef cfg.spec w)

/-- An unscoped buffer at some contents, those it was entered at if it is no output window's array. -/
abbrev someAt (cfg : Pipeline.Cfg sig Λ₀) (c : Dev nD) (Vc : Valuation τ sig (Elt F)) (b : DevRef τ sig) (f : b.ty.Contents (Elt F)) : sProp 𝕄 :=
  iprop(⌜b ∉ outs cfg → f = Vc b⌝ ∗ ((c, b) : Loc nD τ sig) ↦{fullShare} f)

/-- A window's array after the write-backs is at some contents, those it was entered at if the window is an input:
    an input's array is never written back (`RDat.ArrAt_in`). -/
theorem exit_arr {cfg : Pipeline.Cfg sig Λ₀} (c : Dev nD) (Vc : Valuation τ sig (Elt F)) (harr : ∀ w, (cfg.spec w).arr.IsWhole) (n : ℕ) (w : Fin cfg.W) :
    (iprop(∃ Fw, ⌜(rdatG cfg c Vc WW OO).ArrAt w n Fw⌝
        ∗ (cfg.win w).arr.view.loc (c.tc : Thread nD τ) ↦[(cfg.win w).arr.view.set]{(rdatG cfg c Vc WW OO).share w} Fw) : sProp 𝕄)
      ⊢ iprop(∃ f, someAt cfg c Vc (Proc.devRef (τ := τ) .tc (Pipeline.arrRef cfg.spec w)) f) := by
  rw [(harr w).set_eq_univ, rdatG_share]
  unfold someAt
  iintro ⟨%Fw, %hFw, H⟩
  iexists Fw; isplitr
  · ipureintro; intro hno
    have hin : (cfg.win w).isOut = false := by
      cases h : (cfg.win w).isOut
      · rfl
      · exact absurd (Finset.mem_image.mpr ⟨w, Finset.mem_filter.mpr ⟨Finset.mem_univ _, h⟩, rfl⟩) hno
    rw [(rdatG cfg c Vc WW OO).ArrAt_in w hin n] at hFw
    exact hFw
  iexact H

/-- An unscoped buffer that is no window's array stays as it was. -/
theorem exit_rest {cfg : Pipeline.Cfg sig Λ₀} (c : Dev nD) (Vc : Valuation τ sig (Elt F)) (b : Ref sig .tc) :
    ((((c.tc : Thread nD τ).loc b) ↦{fullShare} Vc b) : sProp 𝕄) ⊢ iprop(∃ f, someAt cfg c Vc (Proc.devRef (τ := τ) .tc b) f) := by
  unfold someAt
  iintro H; iexists Vc b; isplitr
  · ipureintro; exact fun _ => rfl
  iexact H

/-- The TensorCore's unscoped buffers, as references and as device buffers. -/
theorem ucRefs_bigSep (Φ : DevRef τ sig → sProp 𝕄) :
    bigSep (Pipeline.ucRefs τ sig) Φ = bigSep (Finset.univ.filter fun b : Ref sig .tc => ¬ b.isScoped) fun b => Φ (Proc.devRef (τ := τ) .tc b) := by
  unfold Pipeline.ucRefs StableHlo.tcRefs
  rw [Finset.filter_map, bigSep_map]
  rfl

/-- The pipeline's arrays after the write-backs and the rest of the unscoped buffers: every unscoped buffer at some contents. -/
theorem exit_step {cfg : Pipeline.Cfg sig Λ₀} (c : Dev nD) (Vc : Valuation τ sig (Elt F))
    (hw : Pipeline.WinFacts cfg.spec) (harr : ∀ w, (cfg.spec w).arr.IsWhole) (n : ℕ) :
    iprop((rdatG cfg c Vc WW OO).arraysAt n ∗ Pipeline.unscopedRest cfg.spec c (fun b => Vc b))
      ⊢ (bigSep (Pipeline.ucRefs τ sig) fun b => iprop(∃ f, someAt cfg c Vc b f) : sProp 𝕄) := by
  classical
  have hA : Finset.univ.map ⟨Pipeline.arrRef cfg.spec, hw.arr_inj⟩ ⊆ Finset.univ.filter fun b : Ref sig .tc => ¬ b.isScoped := fun b hb => by
    obtain ⟨w, -, rfl⟩ := Finset.mem_map.mp hb
    exact Finset.mem_filter.mpr ⟨Finset.mem_univ _, by simp [hw.arr_unscoped w]⟩
  rw [ucRefs_bigSep, bigSep_sdiff_split hA, bigSep_map, Finset.map_eq_image]
  unfold Pipeline.RDat.arraysAt Pipeline.unscopedRest
  exact BIClass.sep_mono (bigSep_mono fun w _ => exit_arr WW OO c Vc harr n w) (bigSep_mono fun b _ => exit_rest c Vc b)

/-- After the write-backs below any point, the pipeline's arrays and the unscoped buffers that are no window's array
    are all the unscoped buffers at SOME valuation, which agrees with the one the region was entered at on every
    buffer that is no output window's array. -/
theorem exit_held {cfg : Pipeline.Cfg sig Λ₀} (c : Dev nD) (Vc : Valuation τ sig (Elt F))
    (hw : Pipeline.WinFacts cfg.spec) (harr : ∀ w, (cfg.spec w).arr.IsWhole) (n : ℕ) :
    iprop((rdatG cfg c Vc WW OO).arraysAt n ∗ Pipeline.unscopedRest cfg.spec c (fun b => Vc b))
      ⊢ (iprop(∃ V' : Valuation τ sig (Elt F), ⌜∀ b, b ∉ outs cfg → V' b = Vc b⌝
            ∗ StableHlo.held (SparseCore.T c) (Pipeline.ucRefs τ sig) V') : sProp 𝕄) := by
  classical
  refine (exit_step WW OO c Vc hw harr n).trans ?_
  refine (bigSep_exists_pi (Pipeline.ucRefs τ sig) (fun (b : DevRef τ sig) (f : b.ty.Contents (Elt F)) => someAt cfg c Vc b f)).trans ?_
  unfold someAt
  iintro ⟨%V', H⟩
  ihave H2 := (bigSep_pure_sep (Pipeline.ucRefs τ sig) (fun b => b ∉ outs cfg → V' b = Vc b)
    (fun b => ((((c, b) : Loc nD τ sig) ↦{fullShare} V' b) : sProp 𝕄))) $$ H
  icases H2 with ⟨%h, H⟩
  iexists (fun b => if b ∈ Pipeline.ucRefs τ sig then V' b else Vc b)
  isplitr
  · ipureintro; intro b hb
    by_cases hm : b ∈ Pipeline.ucRefs τ sig
    · show (if b ∈ Pipeline.ucRefs τ sig then V' b else Vc b) = Vc b
      rw [if_pos hm]; exact h b hm hb
    · show (if b ∈ Pipeline.ucRefs τ sig then V' b else Vc b) = Vc b
      rw [if_neg hm]
  unfold StableHlo.held
  iapply (Entails.of_eq (bigSep_congr (fun b hb => by rw [if_pos hb]) :
    (bigSep (Pipeline.ucRefs τ sig) fun b => ((((c, b) : Loc nD τ sig) ↦{fullShare} V' b) : sProp 𝕄))
      = bigSep (Pipeline.ucRefs τ sig) fun b => ((((c, b) : Loc nD τ sig) ↦{fullShare} (if b ∈ Pipeline.ucRefs τ sig then V' b else Vc b)) : sProp 𝕄)))
  iexact H

end Cert.KernelIdeal.Hand

end
-- ==== Proof.Region0.lean ====
/-
  The first TensorCore pallas_call (no grid: one point; nine input windows, six output windows, each a whole array), as
  one region of the TensorCore thread: its body on any staging memrefs, the body obligation, and the region's step at
  frame strength.
-/
import proofs.«211565_g20684562498226_cont_8to1_684_24_alg».proof.Proof.Setup
import proofs.«211565_g20684562498226_cont_8to1_684_24_alg».proof.Proof.Gen.KernelIdeal.Points
import Idealize.ShloMosaic.Lib.Pipeline.Frame
import proofs.«211565_g20684562498226_cont_8to1_684_24_alg».proof.Proof.RegionsData

noncomputable section

namespace Cert.KernelIdeal.Hand

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

set_option maxHeartbeats 8000000 in
/-- The body reads its nine input blocks and stores into its six output blocks: from the fifteen staging buffers at any
    contents it returns holding all of them, at contents not named. -/
theorem run0 (c : Dev nD) (arg0 : Memref sig .tc .vmem S768x768 .f32) (harg0 : arg0.IsWhole) (arg1 : Memref sig .tc .vmem S1x768 .f32) (harg1 : arg1.IsWhole) (arg2 : Memref sig .tc .vmem S768x768 .f32) (harg2 : arg2.IsWhole) (arg3 : Memref sig .tc .vmem S1x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x1536 .f32) (harg8 : arg8.IsWhole) (arg9 : Memref sig .tc .vmem S768x768 .bf16) (harg9 : arg9.IsWhole) (arg10 : Memref sig .tc .vmem S768x768 .bf16) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole)
    (x0 : Vec F S768x768 .f32) (x1 : Vec F S1x768 .f32) (x2 : Vec F S768x768 .f32) (x3 : Vec F S1x768 .f32) (x4 : Vec F S768x768 .f32) (x5 : Vec F S1x768 .f32) (x6 : Vec F S768x768 .f32) (x7 : Vec F S1x768 .f32) (x8 : Vec F S768x1536 .f32) (x9 : Vec F S768x768 .bf16) (x10 : Vec F S768x768 .bf16) (x11 : Vec F S1x768 .f32) (x12 : Vec F S1x768 .f32) (x13 : Vec F S768x768 .bf16) (x14 : Vec F S768x768 .bf16) (E : Set ℕ) (Q : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ (iprop((∃ y, owns (c : Thread nD τ) arg0 fullShare y)
            ∗ (∃ y, owns (c : Thread nD τ) arg1 fullShare y)
            ∗ (∃ y, owns (c : Thread nD τ) arg2 fullShare y)
            ∗ (∃ y, owns (c : Thread nD τ) arg3 fullShare y)
            ∗ (∃ y, owns (c : Thread nD τ) arg4 fullShare y)
            ∗ (∃ y, owns (c : Thread nD τ) arg5 fullShare y)
            ∗ (∃ y, owns (c : Thread nD τ) arg6 fullShare y)
            ∗ (∃ y, owns (c : Thread nD τ) arg7 fullShare y)
            ∗ (∃ y, owns (c : Thread nD τ) arg8 fullShare y)
            ∗ (∃ y, owns (c : Thread nD τ) arg9 fullShare y)
            ∗ (∃ y, owns (c : Thread nD τ) arg10 fullShare y)
            ∗ (∃ y, owns (c : Thread nD τ) arg11 fullShare y)
            ∗ (∃ y, owns (c : Thread nD τ) arg12 fullShare y)
            ∗ (∃ y, owns (c : Thread nD τ) arg13 fullShare y)
            ∗ (∃ y, owns (c : Thread nD τ) arg14 fullShare y)) -∗ Q ⟨⟩))
      ⊢ wp frame (wpE (defs₀ (F := F)) Variants.none c none) E (cc0__prep_body arg0 harg0 arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0__prep_body_eq_skeleton]; unfold cc0__prep_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  sl_exec
  sl_step
  iapply Hk
  isplitl [H0]
  · iexists _; iexists _; isplitr
    swap
    · iexact H0
    ipureintro; rfl
  isplitl [H1]
  · iexists _; iexists _; isplitr
    swap
    · iexact H1
    ipureintro; rfl
  isplitl [H2]
  · iexists _; iexists _; isplitr
    swap
    · iexact H2
    ipureintro; rfl
  isplitl [H3]
  · iexists _; iexists _; isplitr
    swap
    · iexact H3
    ipureintro; rfl
  isplitl [H4]
  · iexists _; iexists _; isplitr
    swap
    · iexact H4
    ipureintro; rfl
  isplitl [H5]
  · iexists _; iexists _; isplitr
    swap
    · iexact H5
    ipureintro; rfl
  isplitl [H6]
  · iexists _; iexists _; isplitr
    swap
    · iexact H6
    ipureintro; rfl
  isplitl [H7]
  · iexists _; iexists _; isplitr
    swap
    · iexact H7
    ipureintro; rfl
  isplitl [H8]
  · iexists _; iexists _; isplitr
    swap
    · iexact H8
    ipureintro; rfl
  isplitl [H9]
  · iexists _; iexists _; isplitr
    swap
    · iexact H9
    ipureintro; rfl
  isplitl [H10]
  · iexists _; iexists _; isplitr
    swap
    · iexact H10
    ipureintro; rfl
  isplitl [H11]
  · iexists _; iexists _; isplitr
    swap
    · iexact H11
    ipureintro; rfl
  isplitl [H12]
  · iexists _; iexists _; isplitr
    swap
    · iexact H12
    ipureintro; rfl
  isplitl [H13]
  · iexists _; iexists _; isplitr
    swap
    · iexact H13
    ipureintro; rfl
  iexists _; iexists _; isplitr
  swap
  · iexact H14
  ipureintro; rfl

variable (VV : Dev nD → Valuation τ sig (Elt F)) (WW : Waits sig (HIx 1)) (OO : CellTallies nD τ sig (HIx 1))

set_option maxHeartbeats 2000000 in
/-- The body obligation of the first pallas_call, at every point. -/
theorem body0 (c : Dev nD) : (rdats VV WW OO 0 c).BodyObligation defs₀ 𝒱₀ (none : HIx 1) Set.univ := fun t Y _ => by
  rw [Gen.bigSep_W0, Gen.bigSep_W0]
  show iprop(Pipeline.scopedRest spec0 c ∗ (rdatG cfg0 c (VV c) WW OO).owesAt none t.castSucc
        ∗ owns (c : Thread nD τ) (Gen.st0_0 t) fullShare (Y 0)
        ∗ owns (c : Thread nD τ) (Gen.st0_1 t) fullShare (Y 1)
        ∗ owns (c : Thread nD τ) (Gen.st0_2 t) fullShare (Y 2)
        ∗ owns (c : Thread nD τ) (Gen.st0_3 t) fullShare (Y 3)
        ∗ owns (c : Thread nD τ) (Gen.st0_4 t) fullShare (Y 4)
        ∗ owns (c : Thread nD τ) (Gen.st0_5 t) fullShare (Y 5)
        ∗ owns (c : Thread nD τ) (Gen.st0_6 t) fullShare (Y 6)
        ∗ owns (c : Thread nD τ) (Gen.st0_7 t) fullShare (Y 7)
        ∗ owns (c : Thread nD τ) (Gen.st0_8 t) fullShare (Y 8)
        ∗ owns (c : Thread nD τ) (Gen.st0_9 t) fullShare (Y 9)
        ∗ owns (c : Thread nD τ) (Gen.st0_10 t) fullShare (Y 10)
        ∗ owns (c : Thread nD τ) (Gen.st0_11 t) fullShare (Y 11)
        ∗ owns (c : Thread nD τ) (Gen.st0_12 t) fullShare (Y 12)
        ∗ owns (c : Thread nD τ) (Gen.st0_13 t) fullShare (Y 13)
        ∗ owns (c : Thread nD τ) (Gen.st0_14 t) fullShare (Y 14))
      ⊢ wp frame (wpE (defs₀ (F := F)) Variants.none c none) Set.univ (Gen.bodyAt0 t) (fun _ =>
          iprop(Pipeline.scopedRest spec0 c ∗ (rdatG cfg0 c (VV c) WW OO).owesAt none t.succ
            ∗ (∃ X, ⌜True⌝ ∗ owns (c : Thread nD τ) (Gen.st0_0 t) fullShare X)
            ∗ (∃ X, ⌜True⌝ ∗ owns (c : Thread nD τ) (Gen.st0_1 t) fullShare X)
            ∗ (∃ X, ⌜True⌝ ∗ owns (c : Thread nD τ) (Gen.st0_2 t) fullShare X)
            ∗ (∃ X, ⌜True⌝ ∗ owns (c : Thread nD τ) (Gen.st0_3 t) fullShare X)
            ∗ (∃ X, ⌜True⌝ ∗ owns (c : Thread nD τ) (Gen.st0_4 t) fullShare X)
            ∗ (∃ X, ⌜True⌝ ∗ owns (c : Thread nD τ) (Gen.st0_5 t) fullShare X)
            ∗ (∃ X, ⌜True⌝ ∗ owns (c : Thread nD τ) (Gen.st0_6 t) fullShare X)
            ∗ (∃ X, ⌜True⌝ ∗ owns (c : Thread nD τ) (Gen.st0_7 t) fullShare X)
            ∗ (∃ X, ⌜True⌝ ∗ owns (c : Thread nD τ) (Gen.st0_8 t) fullShare X)
            ∗ (∃ X, ⌜True⌝ ∗ owns (c : Thread nD τ) (Gen.st0_9 t) fullShare X)
            ∗ (∃ X, ⌜True⌝ ∗ owns (c : Thread nD τ) (Gen.st0_10 t) fullShare X)
            ∗ (∃ X, ⌜True⌝ ∗ owns (c : Thread nD τ) (Gen.st0_11 t) fullShare X)
            ∗ (∃ X, ⌜True⌝ ∗ owns (c : Thread nD τ) (Gen.st0_12 t) fullShare X)
            ∗ (∃ X, ⌜True⌝ ∗ owns (c : Thread nD τ) (Gen.st0_13 t) fullShare X)
            ∗ (∃ X, ⌜True⌝ ∗ owns (c : Thread nD τ) (Gen.st0_14 t) fullShare X)))
  iintro ⟨HΦ, HO, H0, H1, H2, H3, H4, H5, H6, H7, H8, H9, H10, H11, H12, H13, H14⟩
  iapply (run0 c _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩, ⟨%y10, H10⟩, ⟨%y11, H11⟩, ⟨%y12, H12⟩, ⟨%y13, H13⟩, ⟨%y14, H14⟩⟩
  isplitl [HΦ]; · iexact HΦ
  isplitl [HO]; · iexact HO
  isplitl [H0]
  · iexists y0; isplitr
    · ipureintro; trivial
    iexact H0
  isplitl [H1]
  · iexists y1; isplitr
    · ipureintro; trivial
    iexact H1
  isplitl [H2]
  · iexists y2; isplitr
    · ipureintro; trivial
    iexact H2
  isplitl [H3]
  · iexists y3; isplitr
    · ipureintro; trivial
    iexact H3
  isplitl [H4]
  · iexists y4; isplitr
    · ipureintro; trivial
    iexact H4
  isplitl [H5]
  · iexists y5; isplitr
    · ipureintro; trivial
    iexact H5
  isplitl [H6]
  · iexists y6; isplitr
    · ipureintro; trivial
    iexact H6
  isplitl [H7]
  · iexists y7; isplitr
    · ipureintro; trivial
    iexact H7
  isplitl [H8]
  · iexists y8; isplitr
    · ipureintro; trivial
    iexact H8
  isplitl [H9]
  · iexists y9; isplitr
    · ipureintro; trivial
    iexact H9
  isplitl [H10]
  · iexists y10; isplitr
    · ipureintro; trivial
    iexact H10
  isplitl [H11]
  · iexists y11; isplitr
    · ipureintro; trivial
    iexact H11
  isplitl [H12]
  · iexists y12; isplitr
    · ipureintro; trivial
    iexact H12
  isplitl [H13]
  · iexists y13; isplitr
    · ipureintro; trivial
    iexact H13
  iexists y14; isplitr
  · ipureintro; trivial
  iexact H14

/-- No pipeline has a prefetched table. -/
theorem prefHeld0 (c : Dev nD) (q) (pf) : (Pipeline.prefHeld (Ix := HIx 1) (Name := ℕ) (U := UU) (Lvl := ℕ) (Val := Elt F) (pcfgs (F := F) 0).pre c q pf : sProp 𝕄) = BI.emp :=
  bigSep_Fin0 _

/-- ENTRY, the arrays' part: the unscoped buffers held at a valuation are the pipeline's arrays at the proof data's
    entry contents and the rest. -/
theorem entry0 (c : Dev nD) :
    (StableHlo.held (SparseCore.T c) (Pipeline.ucRefs τ sig) (VV c) : sProp 𝕄)
      ⊢ iprop((rdats VV WW OO 0 c).arrays (rdats VV WW OO 0 c).A ∗ Pipeline.unscopedRest spec0 c (fun b => VV c b)) := by
  have h1 := Pipeline.RDat.arrays_of_unscopedBufs (pcfgs (F := F)) adm (rdats VV WW OO) (p := 0) Gen.winFacts0 Gen.arr_whole0 c
    (fun w => rdatG_share WW OO cfg0 c (VV c) w) (fun b => VV c b) (fun _ => rfl)
  rw [Pipeline.unscopedBufs_held (Ix := HIx 1) (Name := ℕ) (U := UU) (Lvl := ℕ) c (VV c)] at h1
  exact h1

/-- THE FIRST REGION (pipeline 0): entered from the unscoped buffers at a valuation and the thread's tally, it leaves the
    unscoped buffers at some valuation that differs only on the six output windows' arrays, and the same tally. -/
def reg0 (hO : ∀ g, OO g none = 0) :
    Pipeline.RDat.RegionSeg (pcfgs (F := F)) adm (rdats VV WW OO) (none : HIx 1) defs₀ 𝒱₀ (K (F := F)).L (K (F := F)).lev 0 where
  win := Gen.winFacts0.to₀
  block_pos := Gen.block_pos0
  stage_whole := Gen.stage_whole0
  K := PEmpty
  osem k := k.elim
  ho := Pipeline.OwnSemFacts.none _
  hbody c := body0 VV WW OO c
  hwaits c := Pipeline.RDat.cellsWaits_intro (Pipeline.pin (pcfgs (F := F)) adm) (rdats VV WW OO) none 0 c
    fun w s t => (K (F := F)).mayWait_none _ hO
  pre c := iprop(StableHlo.held (SparseCore.T c) (Pipeline.ucRefs τ sig) (VV c) ∗ owesT WW OO c)
  post c := iprop((∃ V' : Valuation τ sig (Elt F), ⌜∀ b, b ∉ outs cfg0 → V' b = VV c b⌝
      ∗ StableHlo.held (SparseCore.T c) (Pipeline.ucRefs τ sig) V') ∗ owesT WW OO c)
  X _ := iprop(emp)
  Y _ := iprop(emp)
  Z c := Pipeline.unscopedRest spec0 c (fun b => VV c b)
  hentry c := by
    rw [Pipeline.ownSems0_none, prefHeld0]
    iintro ⟨⟨Hh, HO⟩, -, -⟩
    imodintro
    ihave Ha := (entry0 VV WW OO c) $$ Hh
    icases Ha with ⟨Ha, Hr⟩
    isplitl [Ha]; · iexact Ha
    isplitr; · iempintro
    isplitl [HO]; · iapply (owesAt_intro WW OO c (VV c) 0); iexact HO
    isplitr; · iempintro
    iexact Hr
  hin c := by
    rw [show (rdats VV WW OO 0 c).Φ 0 = Pipeline.scopedRest spec0 c from rfl]
    iintro ⟨-, -, H⟩; iexact H
  hout c := by
    rw [show (rdats VV WW OO 0 c).Φ (Fin.last _) = Pipeline.scopedRest spec0 c from rfl, Pipeline.ownSems0_none]
    iintro H
    isplitr; · iempintro
    isplitr; · iempintro
    iexact H
  hexit c := by
    iintro ⟨Ha, HO, -, HZ⟩
    imodintro
    isplitl [Ha HZ]
    · iapply (exit_held WW OO c (VV c) Gen.winFacts0 Gen.arr_whole0 _)
      isplitl [Ha]; · iexact Ha
      iexact HZ
    iapply (owesAt_elim WW OO c (VV c) _); iexact HO

/-- The region's step on core `d`, as the TensorCore thread of the launch takes it. -/
theorem region0_wp (hO : ∀ g, OO g none = 0) (d : Dev nD) {α : Type}
    (k : PUnit → Prog (TpuEff nD τ sig (Elt F) (ΛP (F := F)) .tc) α) (Q : α → sProp 𝕄) :
    iprop((iprop(boundary (SparseCore.T d) ∗ (reg0 VV WW OO hO).post d) -∗ wp frame (wpE D 𝒱 (SparseCore.T d) none) Set.univ (k ⟨⟩) Q)
        ∗ boundary (SparseCore.T d) ∗ (reg0 VV WW OO hO).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE D 𝒱 (SparseCore.T d) none) Set.univ (.op (.customCall (Pipeline.entry 0) ()) k) Q :=
  (reg0 VV WW OO hO).wp (pcfgs (F := F)) adm (rdats VV WW OO) none pcell_inj EP defs₀ 𝒱₀ (K (F := F)).L (K (F := F)).lev d none
    (fun u hu => nomatch hu) k Q

end Cert.KernelIdeal.Hand

end
-- ==== Proof.Region1.lean ====
/-
  The second TensorCore pallas_call (a grid of eight points; fifteen input windows, two of them moving with the point,
  and two output windows), as one region of the TensorCore thread: its body on any staging memrefs at any point, the
  body obligation, and the region's step at frame strength.
-/
import proofs.«211565_g20684562498226_cont_8to1_684_24_alg».proof.Proof.Setup
import proofs.«211565_g20684562498226_cont_8to1_684_24_alg».proof.Proof.Gen.KernelIdeal.Points
import Idealize.ShloMosaic.Lib.Pipeline.Frame
import proofs.«211565_g20684562498226_cont_8to1_684_24_alg».proof.Proof.RegionsData

noncomputable section

namespace Cert.KernelIdeal.Hand

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

set_option maxHeartbeats 8000000 in
/-- The body reads its fifteen input blocks and stores into its two output blocks: from the seventeen staging buffers at
    any contents it returns holding all of them, at contents not named. -/
theorem run1 (c : Dev nD) (i : grid2.Coords) (arg1 : Memref sig .tc .vmem S512x768 .bf16) (harg1 : arg1.IsWhole) (arg2 : Memref sig .tc .vmem S512x768 .bf16) (harg2 : arg2.IsWhole) (arg3 : Memref sig .tc .vmem S768x768 .bf16) (harg3 : arg3.IsWhole) (arg4 : Memref sig .tc .vmem S768x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S512x768 .f32) (harg16 : arg16.IsWhole) (arg17 : Memref sig .tc .vmem S768x512 .f32) (harg17 : arg17.IsWhole)
    (x1 : Vec F S512x768 .bf16) (x2 : Vec F S512x768 .bf16) (x3 : Vec F S768x768 .bf16) (x4 : Vec F S768x768 .bf16) (x5 : Vec F S1x768 .f32) (x6 : Vec F S1x768 .f32) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S1x768 .f32) (x15 : Vec F S1x768 .f32) (x16 : Vec F S512x768 .f32) (x17 : Vec F S768x512 .f32) (E : Set ℕ) (Q : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ (iprop((∃ y, owns (c : Thread nD τ) arg1 fullShare y)
            ∗ (∃ y, owns (c : Thread nD τ) arg2 fullShare y)
            ∗ (∃ y, owns (c : Thread nD τ) arg3 fullShare y)
            ∗ (∃ y, owns (c : Thread nD τ) arg4 fullShare y)
            ∗ (∃ y, owns (c : Thread nD τ) arg5 fullShare y)
            ∗ (∃ y, owns (c : Thread nD τ) arg6 fullShare y)
            ∗ (∃ y, owns (c : Thread nD τ) arg7 fullShare y)
            ∗ (∃ y, owns (c : Thread nD τ) arg8 fullShare y)
            ∗ (∃ y, owns (c : Thread nD τ) arg9 fullShare y)
            ∗ (∃ y, owns (c : Thread nD τ) arg10 fullShare y)
            ∗ (∃ y, owns (c : Thread nD τ) arg11 fullShare y)
            ∗ (∃ y, owns (c : Thread nD τ) arg12 fullShare y)
            ∗ (∃ y, owns (c : Thread nD τ) arg13 fullShare y)
            ∗ (∃ y, owns (c : Thread nD τ) arg14 fullShare y)
            ∗ (∃ y, owns (c : Thread nD τ) arg15 fullShare y)
            ∗ (∃ y, owns (c : Thread nD τ) arg16 fullShare y)
            ∗ (∃ y, owns (c : Thread nD τ) arg17 fullShare y)) -∗ Q ⟨⟩))
      ⊢ wp frame (wpE (defs₀ (F := F)) Variants.none c none) E (cc2__dense_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  simp only [cc2__dense_body_eq_skeleton]; unfold cc2__dense_body_skel
  simp only [k2_part1_eq_skeleton, k2_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  sl_exec
  sl_step
  iapply Hk
  isplitl [H1]
  · iexists _; iexists _; isplitr
    swap
    · iexact H1
    ipureintro; rfl
  isplitl [H2]
  · iexists _; iexists _; isplitr
    swap
    · iexact H2
    ipureintro; rfl
  isplitl [H3]
  · iexists _; iexists _; isplitr
    swap
    · iexact H3
    ipureintro; rfl
  isplitl [H4]
  · iexists _; iexists _; isplitr
    swap
    · iexact H4
    ipureintro; rfl
  isplitl [H5]
  · iexists _; iexists _; isplitr
    swap
    · iexact H5
    ipureintro; rfl
  isplitl [H6]
  · iexists _; iexists _; isplitr
    swap
    · iexact H6
    ipureintro; rfl
  isplitl [H7]
  · iexists _; iexists _; isplitr
    swap
    · iexact H7
    ipureintro; rfl
  isplitl [H8]
  · iexists _; iexists _; isplitr
    swap
    · iexact H8
    ipureintro; rfl
  isplitl [H9]
  · iexists _; iexists _; isplitr
    swap
    · iexact H9
    ipureintro; rfl
  isplitl [H10]
  · iexists _; iexists _; isplitr
    swap
    · iexact H10
    ipureintro; rfl
  isplitl [H11]
  · iexists _; iexists _; isplitr
    swap
    · iexact H11
    ipureintro; rfl
  isplitl [H12]
  · iexists _; iexists _; isplitr
    swap
    · iexact H12
    ipureintro; rfl
  isplitl [H13]
  · iexists _; iexists _; isplitr
    swap
    · iexact H13
    ipureintro; rfl
  isplitl [H14]
  · iexists _; iexists _; isplitr
    swap
    · iexact H14
    ipureintro; rfl
  isplitl [H15]
  · iexists _; iexists _; isplitr
    swap
    · iexact H15
    ipureintro; rfl
  isplitl [H16]
  · iexists _; iexists _; isplitr
    swap
    · iexact H16
    ipureintro; rfl
  iexists _; iexists _; isplitr
  swap
  · iexact H17
  ipureintro; rfl

variable (VV : Dev nD → Valuation τ sig (Elt F)) (WW : Waits sig (HIx 1)) (OO : CellTallies nD τ sig (HIx 1))

set_option maxHeartbeats 2000000 in
/-- The body obligation of the second pallas_call, at every point. -/
theorem body1 (c : Dev nD) : (rdats VV WW OO 1 c).BodyObligation defs₀ 𝒱₀ (none : HIx 1) Set.univ := fun t Y _ => by
  rw [Gen.bigSep_W2, Gen.bigSep_W2]
  show iprop(Pipeline.scopedRest spec2 c ∗ (rdatG cfg2 c (VV c) WW OO).owesAt none t.castSucc
        ∗ owns (c : Thread nD τ) (Gen.st2_0 t) fullShare (Y 0)
        ∗ owns (c : Thread nD τ) (Gen.st2_1 t) fullShare (Y 1)
        ∗ owns (c : Thread nD τ) (Gen.st2_2 t) fullShare (Y 2)
        ∗ owns (c : Thread nD τ) (Gen.st2_3 t) fullShare (Y 3)
        ∗ owns (c : Thread nD τ) (Gen.st2_4 t) fullShare (Y 4)
        ∗ owns (c : Thread nD τ) (Gen.st2_5 t) fullShare (Y 5)
        ∗ owns (c : Thread nD τ) (Gen.st2_6 t) fullShare (Y 6)
        ∗ owns (c : Thread nD τ) (Gen.st2_7 t) fullShare (Y 7)
        ∗ owns (c : Thread nD τ) (Gen.st2_8 t) fullShare (Y 8)
        ∗ owns (c : Thread nD τ) (Gen.st2_9 t) fullShare (Y 9)
        ∗ owns (c : Thread nD τ) (Gen.st2_10 t) fullShare (Y 10)
        ∗ owns (c : Thread nD τ) (Gen.st2_11 t) fullShare (Y 11)
        ∗ owns (c : Thread nD τ) (Gen.st2_12 t) fullShare (Y 12)
        ∗ owns (c : Thread nD τ) (Gen.st2_13 t) fullShare (Y 13)
        ∗ owns (c : Thread nD τ) (Gen.st2_14 t) fullShare (Y 14)
        ∗ owns (c : Thread nD τ) (Gen.st2_15 t) fullShare (Y 15)
        ∗ owns (c : Thread nD τ) (Gen.st2_16 t) fullShare (Y 16))
      ⊢ wp frame (wpE (defs₀ (F := F)) Variants.none c none) Set.univ (Gen.bodyAt2 t) (fun _ =>
          iprop(Pipeline.scopedRest spec2 c ∗ (rdatG cfg2 c (VV c) WW OO).owesAt none t.succ
            ∗ (∃ X, ⌜True⌝ ∗ owns (c : Thread nD τ) (Gen.st2_0 t) fullShare X)
            ∗ (∃ X, ⌜True⌝ ∗ owns (c : Thread nD τ) (Gen.st2_1 t) fullShare X)
            ∗ (∃ X, ⌜True⌝ ∗ owns (c : Thread nD τ) (Gen.st2_2 t) fullShare X)
            ∗ (∃ X, ⌜True⌝ ∗ owns (c : Thread nD τ) (Gen.st2_3 t) fullShare X)
            ∗ (∃ X, ⌜True⌝ ∗ owns (c : Thread nD τ) (Gen.st2_4 t) fullShare X)
            ∗ (∃ X, ⌜True⌝ ∗ owns (c : Thread nD τ) (Gen.st2_5 t) fullShare X)
            ∗ (∃ X, ⌜True⌝ ∗ owns (c : Thread nD τ) (Gen.st2_6 t) fullShare X)
            ∗ (∃ X, ⌜True⌝ ∗ owns (c : Thread nD τ) (Gen.st2_7 t) fullShare X)
            ∗ (∃ X, ⌜True⌝ ∗ owns (c : Thread nD τ) (Gen.st2_8 t) fullShare X)
            ∗ (∃ X, ⌜True⌝ ∗ owns (c : Thread nD τ) (Gen.st2_9 t) fullShare X)
            ∗ (∃ X, ⌜True⌝ ∗ owns (c : Thread nD τ) (Gen.st2_10 t) fullShare X)
            ∗ (∃ X, ⌜True⌝ ∗ owns (c : Thread nD τ) (Gen.st2_11 t) fullShare X)
            ∗ (∃ X, ⌜True⌝ ∗ owns (c : Thread nD τ) (Gen.st2_12 t) fullShare X)
            ∗ (∃ X, ⌜True⌝ ∗ owns (c : Thread nD τ) (Gen.st2_13 t) fullShare X)
            ∗ (∃ X, ⌜True⌝ ∗ owns (c : Thread nD τ) (Gen.st2_14 t) fullShare X)
            ∗ (∃ X, ⌜True⌝ ∗ owns (c : Thread nD τ) (Gen.st2_15 t) fullShare X)
            ∗ (∃ X, ⌜True⌝ ∗ owns (c : Thread nD τ) (Gen.st2_16 t) fullShare X)))
  iintro ⟨HΦ, HO, H0, H1, H2, H3, H4, H5, H6, H7, H8, H9, H10, H11, H12, H13, H14, H15, H16⟩
  iapply (run1 c _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 15) (Y 16) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩, ⟨%y10, H10⟩, ⟨%y11, H11⟩, ⟨%y12, H12⟩, ⟨%y13, H13⟩, ⟨%y14, H14⟩, ⟨%y15, H15⟩, ⟨%y16, H16⟩⟩
  isplitl [HΦ]; · iexact HΦ
  isplitl [HO]; · iexact HO
  isplitl [H0]
  · iexists y0; isplitr
    · ipureintro; trivial
    iexact H0
  isplitl [H1]
  · iexists y1; isplitr
    · ipureintro; trivial
    iexact H1
  isplitl [H2]
  · iexists y2; isplitr
    · ipureintro; trivial
    iexact H2
  isplitl [H3]
  · iexists y3; isplitr
    · ipureintro; trivial
    iexact H3
  isplitl [H4]
  · iexists y4; isplitr
    · ipureintro; trivial
    iexact H4
  isplitl [H5]
  · iexists y5; isplitr
    · ipureintro; trivial
    iexact H5
  isplitl [H6]
  · iexists y6; isplitr
    · ipureintro; trivial
    iexact H6
  isplitl [H7]
  · iexists y7; isplitr
    · ipureintro; trivial
    iexact H7
  isplitl [H8]
  · iexists y8; isplitr
    · ipureintro; trivial
    iexact H8
  isplitl [H9]
  · iexists y9; isplitr
    · ipureintro; trivial
    iexact H9
  isplitl [H10]
  · iexists y10; isplitr
    · ipureintro; trivial
    iexact H10
  isplitl [H11]
  · iexists y11; isplitr
    · ipureintro; trivial
    iexact H11
  isplitl [H12]
  · iexists y12; isplitr
    · ipureintro; trivial
    iexact H12
  isplitl [H13]
  · iexists y13; isplitr
    · ipureintro; trivial
    iexact H13
  isplitl [H14]
  · iexists y14; isplitr
    · ipureintro; trivial
    iexact H14
  isplitl [H15]
  · iexists y15; isplitr
    · ipureintro; trivial
    iexact H15
  iexists y16; isplitr
  · ipureintro; trivial
  iexact H16

/-- No pipeline has a prefetched table. -/
theorem prefHeld1 (c : Dev nD) (q) (pf) : (Pipeline.prefHeld (Ix := HIx 1) (Name := ℕ) (U := UU) (Lvl := ℕ) (Val := Elt F) (pcfgs (F := F) 1).pre c q pf : sProp 𝕄) = BI.emp :=
  bigSep_Fin0 _

/-- ENTRY, the arrays' part: the unscoped buffers held at a valuation are the pipeline's arrays at the proof data's
    entry contents and the rest. -/
theorem entry1 (c : Dev nD) :
    (StableHlo.held (SparseCore.T c) (Pipeline.ucRefs τ sig) (VV c) : sProp 𝕄)
      ⊢ iprop((rdats VV WW OO 1 c).arrays (rdats VV WW OO 1 c).A ∗ Pipeline.unscopedRest spec2 c (fun b => VV c b)) := by
  have h1 := Pipeline.RDat.arrays_of_unscopedBufs (pcfgs (F := F)) adm (rdats VV WW OO) (p := 1) Gen.winFacts2 Gen.arr_whole2 c
    (fun w => rdatG_share WW OO cfg2 c (VV c) w) (fun b => VV c b) (fun _ => rfl)
  rw [Pipeline.unscopedBufs_held (Ix := HIx 1) (Name := ℕ) (U := UU) (Lvl := ℕ) c (VV c)] at h1
  exact h1

/-- THE SECOND REGION (pipeline 1, a grid of eight points): entered from the unscoped buffers at a valuation and the
    thread's tally, it leaves the unscoped buffers at some valuation that differs only on the two output windows' arrays,
    and the same tally. -/
def reg1 (hO : ∀ g, OO g none = 0) :
    Pipeline.RDat.RegionSeg (pcfgs (F := F)) adm (rdats VV WW OO) (none : HIx 1) defs₀ 𝒱₀ (K (F := F)).L (K (F := F)).lev 1 where
  win := Gen.winFacts2.to₀
  block_pos := Gen.block_pos2
  stage_whole := Gen.stage_whole2
  K := PEmpty
  osem k := k.elim
  ho := Pipeline.OwnSemFacts.none _
  hbody c := body1 VV WW OO c
  hwaits c := Pipeline.RDat.cellsWaits_intro (Pipeline.pin (pcfgs (F := F)) adm) (rdats VV WW OO) none 1 c
    fun w s t => (K (F := F)).mayWait_none _ hO
  pre c := iprop(StableHlo.held (SparseCore.T c) (Pipeline.ucRefs τ sig) (VV c) ∗ owesT WW OO c)
  post c := iprop((∃ V' : Valuation τ sig (Elt F), ⌜∀ b, b ∉ outs cfg2 → V' b = VV c b⌝
      ∗ StableHlo.held (SparseCore.T c) (Pipeline.ucRefs τ sig) V') ∗ owesT WW OO c)
  X _ := iprop(emp)
  Y _ := iprop(emp)
  Z c := Pipeline.unscopedRest spec2 c (fun b => VV c b)
  hentry c := by
    rw [Pipeline.ownSems0_none, prefHeld1]
    iintro ⟨⟨Hh, HO⟩, -, -⟩
    imodintro
    ihave Ha := (entry1 VV WW OO c) $$ Hh
    icases Ha with ⟨Ha, Hr⟩
    isplitl [Ha]; · iexact Ha
    isplitr; · iempintro
    isplitl [HO]; · iapply (owesAt_intro WW OO c (VV c) 0); iexact HO
    isplitr; · iempintro
    iexact Hr
  hin c := by
    rw [show (rdats VV WW OO 1 c).Φ 0 = Pipeline.scopedRest spec2 c from rfl]
    iintro ⟨-, -, H⟩; iexact H
  hout c := by
    rw [show (rdats VV WW OO 1 c).Φ (Fin.last _) = Pipeline.scopedRest spec2 c from rfl, Pipeline.ownSems0_none]
    iintro H
    isplitr; · iempintro
    isplitr; · iempintro
    iexact H
  hexit c := by
    iintro ⟨Ha, HO, -, HZ⟩
    imodintro
    isplitl [Ha HZ]
    · iapply (exit_held WW OO c (VV c) Gen.winFacts2 Gen.arr_whole2 _)
      isplitl [Ha]; · iexact Ha
      iexact HZ
    iapply (owesAt_elim WW OO c (VV c) _); iexact HO

/-- The region's step on core `d`, as the TensorCore thread of the launch takes it. -/
theorem region1_wp (hO : ∀ g, OO g none = 0) (d : Dev nD) {α : Type}
    (k : PUnit → Prog (TpuEff nD τ sig (Elt F) (ΛP (F := F)) .tc) α) (Q : α → sProp 𝕄) :
    iprop((iprop(boundary (SparseCore.T d) ∗ (reg1 VV WW OO hO).post d) -∗ wp frame (wpE D 𝒱 (SparseCore.T d) none) Set.univ (k ⟨⟩) Q)
        ∗ boundary (SparseCore.T d) ∗ (reg1 VV WW OO hO).pre d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE D 𝒱 (SparseCore.T d) none) Set.univ (.op (.customCall (Pipeline.entry 1) ()) k) Q :=
  (reg1 VV WW OO hO).wp (pcfgs (F := F)) adm (rdats VV WW OO) none pcell_inj EP defs₀ 𝒱₀ (K (F := F)).L (K (F := F)).lev d none
    (fun u hu => nomatch hu) k Q

end Cert.KernelIdeal.Hand

end
-- ==== Proof.Region2.lean ====
/-
  The last TensorCore pallas_call (two windows over a grid of two points: it copies the blocks of its input's array
  over blocks of its output's array through the staging buffers), as one region of the TensorCore thread: its body on
  any staging memrefs, the body obligation, and the region's step at frame strength.
-/
import proofs.«211565_g20684562498226_cont_8to1_684_24_alg».proof.Proof.Setup
import proofs.«211565_g20684562498226_cont_8to1_684_24_alg».proof.Proof.Gen.KernelIdeal.Points
import Idealize.ShloMosaic.Lib.Pipeline.Frame
import proofs.«211565_g20684562498226_cont_8to1_684_24_alg».proof.Proof.RegionsData

noncomputable section

namespace Cert.KernelIdeal.Hand

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The body of the last pallas_call on any staging memrefs -/

set_option maxHeartbeats 1000000 in
/-- The body loads its input block and its output block and stores the input block (reshaped to itself) over the
    output block: from the two staging buffers at any contents it returns holding both, at contents not named. The
    HBM operand is never touched. -/
theorem run3 (c : Dev nD) (i : grid3.Coords) (arg1 : Memref sig .tc .hbm S768x65536 .f32) (harg1 : arg1.IsWhole)
    (arg2 : Memref sig .tc .vmem S768x2048 .f32) (harg2 : arg2.IsWhole) (arg3 : Memref sig .tc .vmem S768x2048 .f32) (harg3 : arg3.IsWhole)
    (x2 x3 : Vec F S768x2048 .f32) (E : Set ℕ) (Q : PUnit → sProp 𝕄) :
    iprop(owns (c : Thread nD τ) arg2 fullShare x2 ∗ owns (c : Thread nD τ) arg3 fullShare x3
        ∗ (iprop((∃ y, owns (c : Thread nD τ) arg2 fullShare y) ∗ (∃ y, owns (c : Thread nD τ) arg3 fullShare y)) -∗ Q ⟨⟩))
      ⊢ wp frame (wpE (defs₀ (F := F)) Variants.none c none) E (cc3__enqueue_body i arg1 harg1 arg2 harg2 arg3 harg3) Q := by
  simp only [cc3__enqueue_body_eq_skeleton]; unfold cc3__enqueue_body_skel
  unfold owns
  iintro ⟨⟨%f2, %hf2, H2⟩, ⟨%f3, %hf3, H3⟩, Hk⟩
  sl_exec
  sl_step
  iapply Hk
  isplitl [H2]
  · iexists _; iexists _; isplitr
    swap
    · iexact H2
    ipureintro; rfl
  iexists _; iexists _; isplitr
  swap
  · iexact H3
  ipureintro; rfl

variable (VV : Dev nD → Valuation τ sig (Elt F)) (WW : Waits sig (HIx 1)) (OO : CellTallies nD τ sig (HIx 1))

/-- The body obligation of the last pallas_call, at every point. -/
theorem body3 (c : Dev nD) : (rdats VV WW OO 2 c).BodyObligation defs₀ 𝒱₀ (none : HIx 1) Set.univ := fun t Y _ => by
  rw [Gen.bigSep_W3, Gen.bigSep_W3]
  show iprop(Pipeline.scopedRest spec3 c ∗ (rdatG cfg3 c (VV c) WW OO).owesAt none t.castSucc
        ∗ owns (c : Thread nD τ) (Gen.st3_0 t) fullShare (Y 0) ∗ owns (c : Thread nD τ) (Gen.st3_1 t) fullShare (Y 1))
      ⊢ wp frame (wpE (defs₀ (F := F)) Variants.none c none) Set.univ (Gen.bodyAt3 t) (fun _ =>
          iprop(Pipeline.scopedRest spec3 c ∗ (rdatG cfg3 c (VV c) WW OO).owesAt none t.succ
            ∗ (∃ X, ⌜True⌝ ∗ owns (c : Thread nD τ) (Gen.st3_0 t) fullShare X) ∗ (∃ X, ⌜True⌝ ∗ owns (c : Thread nD τ) (Gen.st3_1 t) fullShare X)))
  iintro ⟨HΦ, HO, H0, H1⟩
  iapply (run3 c _ _ _ _ _ _ _ (Y 0) (Y 1) Set.univ _)
  isplitl [H0]; · iexact H0
  isplitl [H1]; · iexact H1
  iintro ⟨⟨%y0, H0⟩, ⟨%y1, H1⟩⟩
  isplitl [HΦ]; · iexact HΦ
  isplitl [HO]; · iexact HO
  isplitl [H0]
  · iexists y0; isplitr
    · ipureintro; trivial
    iexact H0
  iexists y1; isplitr
  · ipureintro; trivial
  iexact H1

/-- No pipeline has a prefetched table. -/
theorem prefHeld2 (c : Dev nD) (q) (pf) : (Pipeline.prefHeld (Ix := HIx 1) (Name := ℕ) (U := UU) (Lvl := ℕ) (Val := Elt F) (pcfgs (F := F) 2).pre c q pf : sProp 𝕄) = BI.emp :=
  bigSep_Fin0 _

/-- ENTRY, the arrays' part: the unscoped buffers held at a valuation are the last pipeline's arrays at the proof
    data's entry contents and the rest. -/
theorem entry2 (c : Dev nD) :
    (StableHlo.held (SparseCore.T c) (Pipeline.ucRefs τ sig) (VV c) : sProp 𝕄)
      ⊢ iprop((rdats VV WW OO 2 c).arrays (rdats VV WW OO 2 c).A ∗ Pipeline.unscopedRest spec3 c (fun b => VV c b)) := by
  have h1 := Pipeline.RDat.arrays_of_unscopedBufs (pcfgs (F := F)) adm (rdats VV WW OO) (p := 2) Gen.winFacts3 Gen.arr_whole3 c
    (fun w => rdatG_share WW OO cfg3 c (VV c) w) (fun b => VV c b) (fun _ => rfl)
  rw [Pipeline.unscopedBufs_held (Ix := HIx 1) (Name := ℕ) (U := UU) (Lvl := ℕ) c (VV c)] at h1
  exact h1

/-- THE LAST REGION (pipeline 2): entered from the unscoped buffers at a valuation and the thread's tally, it leaves the
    unscoped buffers at some valuation that differs only on the output window's array, and the same tally. -/
def reg2 (hO : ∀ g, OO g none = 0) :
    Pipeline.RDat.RegionSeg (pcfgs (F := F)) adm (rdats VV WW OO) (none : HIx 1) defs₀ 𝒱₀ (K (F := F)).L (K (F := F)).lev 2 where
  win := Gen.winFacts3.to₀
  block_pos := Gen.block_pos3
  stage_whole := Gen.stage_whole3
  K := PEmpty
  osem k := k.elim
  ho := Pipeline.OwnSemFacts.none _
  hbody c := body3 VV WW OO c
  hwaits c := Pipeline.RDat.cellsWaits_intro (Pipeline.pin (pcfgs (F := F)) adm) (rdats VV WW OO) none 2 c
    fun w s t => (K (F := F)).mayWait_none _ hO
  pre c := iprop(StableHlo.held (SparseCore.T c) (Pipeline.ucRefs τ sig) (VV c) ∗ owesT WW OO c)
  post c := iprop((∃ V' : Valuation τ sig (Elt F), ⌜∀ b, b ∉ outs cfg3 → V' b = VV c b⌝
      ∗ StableHlo.held (SparseCore.T c) (Pipeline.ucRefs τ sig) V') ∗ owesT WW OO c)
  X _ := iprop(emp)
  Y _ := iprop(emp)
  Z c := Pipeline.unscopedRest spec3 c (fun b => VV c b)
  hentry c := by
    rw [Pipeline.ownSems0_none, prefHeld2]
    iintro ⟨⟨Hh, HO⟩, -, -⟩
    imodintro
    ihave Ha := (entry2 VV WW OO c) $$ Hh
    icases Ha with ⟨Ha, Hr⟩
    isplitl [Ha]; · iexact Ha
    isplitr; · iempintro
    isplitl [HO]; · iapply (owesAt_intro WW OO c (VV c) 0); iexact HO
    isplitr; · iempintro
    iexact Hr
  hin c := by
    rw [show (rdats VV WW OO 2 c).Φ 0 = Pipeline.scopedRest spec3 c from rfl]
    iintro ⟨-, -, H⟩; iexact H
  hout c := by
    rw [show (rdats VV WW OO 2 c).Φ (Fin.last _) = Pipeline.scopedRest spec3 c from rfl, Pipeline.ownSems0_none]
    iintro H
    isplitr; · iempintro
    isplitr; · iempintro
    iexact H
  hexit c := by
    iintro ⟨Ha, HO, -, HZ⟩
    imodintro
    isplitl [Ha HZ]
    · iapply (exit_held WW OO c (VV c) Gen.winFacts3 Gen.arr_whole3 _)
      isplitl [Ha]; · iexact Ha
      iexact HZ
    iapply (owesAt_elim WW OO c (VV c) _); iexact HO

/-- The last region's step on core `d`, as the TensorCore thread of the launch takes it. -/
theorem region2_wp (hO : ∀ g, OO g none = 0) (d : Dev nD) {α : Type}
    (k : PUnit → Prog (TpuEff nD τ sig (Elt F) (ΛP (F := F)) .tc) α) (Q : α → sProp 𝕄) :
    iprop((iprop(boundary (SparseCore.T d) ∗ (reg2 VV WW OO hO).post d) -∗ wp frame (wpE D 𝒱 (SparseCore.T d) none) Set.univ (k ⟨⟩) Q)
        ∗ boundary (SparseCore.T d) ∗ (reg2 VV WW OO hO).pre d ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE D 𝒱 (SparseCore.T d) none) Set.univ (.op (.customCall (Pipeline.entry 2) ()) k) Q :=
  (reg2 VV WW OO hO).wp (pcfgs (F := F)) adm (rdats VV WW OO) none pcell_inj EP defs₀ 𝒱₀ (K (F := F)).L (K (F := F)).lev d none
    (fun u hu => nomatch hu) k Q

end Cert.KernelIdeal.Hand

end
-- ==== Proof.Regions.lean ====
/-
  The three TensorCore pallas_calls as steps of the TensorCore thread, stated over one pair of thread states: before a
  region the unscoped buffers at a valuation and the thread's tally; after it the unscoped buffers at a valuation that
  differs only on the region's output arrays, and the same tally.
-/
import proofs.«211565_g20684562498226_cont_8to1_684_24_alg».proof.Proof.Setup
import proofs.«211565_g20684562498226_cont_8to1_684_24_alg».proof.Proof.Gen.KernelIdeal.Points
import Idealize.ShloMosaic.Lib.Pipeline.Frame
import proofs.«211565_g20684562498226_cont_8to1_684_24_alg».proof.Proof.Region0
import proofs.«211565_g20684562498226_cont_8to1_684_24_alg».proof.Proof.Region1
import proofs.«211565_g20684562498226_cont_8to1_684_24_alg».proof.Proof.Region2

noncomputable section

namespace Cert.KernelIdeal.Hand

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (VV : Dev nD → Valuation τ sig (Elt F)) (WW : Waits sig (HIx 1)) (OO : CellTallies nD τ sig (HIx 1))

/-! ## The output windows' arrays of each pipeline -/

theorem outs0_eq : outs cfg0 = ({Proc.devRef (τ := τ) .tc main_v6_0, Proc.devRef (τ := τ) .tc main_v6_1, Proc.devRef (τ := τ) .tc main_v6_2,
    Proc.devRef (τ := τ) .tc main_v6_3, Proc.devRef (τ := τ) .tc main_v6_4, Proc.devRef (τ := τ) .tc main_v6_5} : Finset (DevRef τ sig)) := by decide
theorem outs2_eq : outs cfg2 = ({Proc.devRef (τ := τ) .tc main_v17_0, Proc.devRef (τ := τ) .tc main_v17_1} : Finset (DevRef τ sig)) := by decide
theorem outs3_eq : outs cfg3 = ({Proc.devRef (τ := τ) .tc main_v18} : Finset (DevRef τ sig)) := by decide

/-! ## The thread states around a region -/

/-- Before a region: the TensorCore's unscoped buffers at the valuation `VV d`, and the thread's tally. -/
def preR (d : Dev nD) : sProp 𝕄 :=
  iprop(StableHlo.held (SparseCore.T d) (Pipeline.ucRefs τ sig) (VV d) ∗ owesT WW OO d)

/-- After the region of the pipeline `cfg`: the unscoped buffers at some valuation that agrees with `VV d` on every
    buffer that is no output window's array of the pipeline, and the same tally. -/
def postR (cfg : Pipeline.Cfg sig Λ₀) (d : Dev nD) : sProp 𝕄 :=
  iprop((∃ V' : Valuation τ sig (Elt F), ⌜∀ b, b ∉ outs cfg → V' b = VV d b⌝
      ∗ StableHlo.held (SparseCore.T d) (Pipeline.ucRefs τ sig) V') ∗ owesT WW OO d)

theorem reg0_pre (hO : ∀ g, OO g none = 0) (d : Dev nD) : (reg0 VV WW OO hO).pre d = preR VV WW OO d := rfl
theorem reg0_post (hO : ∀ g, OO g none = 0) (d : Dev nD) : (reg0 VV WW OO hO).post d = postR VV WW OO cfg0 d := rfl
theorem reg1_pre (hO : ∀ g, OO g none = 0) (d : Dev nD) : (reg1 VV WW OO hO).pre d = preR VV WW OO d := rfl
theorem reg1_post (hO : ∀ g, OO g none = 0) (d : Dev nD) : (reg1 VV WW OO hO).post d = postR VV WW OO cfg2 d := rfl
theorem reg2_pre (hO : ∀ g, OO g none = 0) (d : Dev nD) : (reg2 VV WW OO hO).pre d = preR VV WW OO d := rfl
theorem reg2_post (hO : ∀ g, OO g none = 0) (d : Dev nD) : (reg2 VV WW OO hO).post d = postR VV WW OO cfg3 d := rfl

/-! ## The three regions' steps, over the named thread states -/

/-- The first pallas_call's custom call, on core `d`. -/
theorem region0 (hO : ∀ g, OO g none = 0) (d : Dev nD) {α : Type}
    (k : PUnit → Prog (TpuEff nD τ sig (Elt F) (ΛP (F := F)) .tc) α) (Q : α → sProp 𝕄) :
    iprop((iprop(boundary (SparseCore.T d) ∗ postR VV WW OO cfg0 d) -∗ wp frame (wpE D 𝒱 (SparseCore.T d) none) Set.univ (k ⟨⟩) Q)
        ∗ boundary (SparseCore.T d) ∗ preR VV WW OO d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE D 𝒱 (SparseCore.T d) none) Set.univ (.op (.customCall (Pipeline.entry 0) ()) k) Q :=
  region0_wp VV WW OO hO d k Q

/-- The second pallas_call's custom call, on core `d`. -/
theorem region1 (hO : ∀ g, OO g none = 0) (d : Dev nD) {α : Type}
    (k : PUnit → Prog (TpuEff nD τ sig (Elt F) (ΛP (F := F)) .tc) α) (Q : α → sProp 𝕄) :
    iprop((iprop(boundary (SparseCore.T d) ∗ postR VV WW OO cfg2 d) -∗ wp frame (wpE D 𝒱 (SparseCore.T d) none) Set.univ (k ⟨⟩) Q)
        ∗ boundary (SparseCore.T d) ∗ preR VV WW OO d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE D 𝒱 (SparseCore.T d) none) Set.univ (.op (.customCall (Pipeline.entry 1) ()) k) Q :=
  region1_wp VV WW OO hO d k Q

/-- The third pallas_call's custom call, on core `d`. -/
theorem region2 (hO : ∀ g, OO g none = 0) (d : Dev nD) {α : Type}
    (k : PUnit → Prog (TpuEff nD τ sig (Elt F) (ΛP (F := F)) .tc) α) (Q : α → sProp 𝕄) :
    iprop((iprop(boundary (SparseCore.T d) ∗ postR VV WW OO cfg3 d) -∗ wp frame (wpE D 𝒱 (SparseCore.T d) none) Set.univ (k ⟨⟩) Q)
        ∗ boundary (SparseCore.T d) ∗ preR VV WW OO d ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE D 𝒱 (SparseCore.T d) none) Set.univ (.op (.customCall (Pipeline.entry 2) ()) k) Q :=
  region2_wp VV WW OO hO d k Q

end Cert.KernelIdeal.Hand

end
-- ==== Proof.RegionAdapt.lean ====
/-
  The three TensorCore kernel regions as steps of @main: each region's proof, stated over its own entry valuation and
  the TensorCore's debt, in the form @main's run takes — the buffers held before at any valuation, after at one that
  differs on the region's output arrays at most; no region's output array is an argument array.
-/
import proofs.«211565_g20684562498226_cont_8to1_684_24_alg».proof.Proof.MainRun
import proofs.«211565_g20684562498226_cont_8to1_684_24_alg».proof.Proof.Regions

noncomputable section

namespace Cert.KernelIdeal.Hand

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

/-- A region's proof over named thread states is a region step. -/
theorem regionStep_of [FloatOps F] {p : Fin 3} (cfg : Pipeline.Cfg sig Λ₀)
    (h : ∀ (VV : Dev nD → Valuation τ sig (Elt F)) (WW : Waits sig (HIx 1)) (OO : CellTallies nD τ sig (HIx 1)), (∀ g, OO g none = 0) →
      ∀ (d : Dev nD) {α : Type} (k : PUnit → Prog (TpuEff nD τ sig (Elt F) (ΛP (F := F)) .tc) α) (Q : α → sProp 𝕄),
      iprop((iprop(boundary (SparseCore.T d) ∗ postR VV WW OO cfg d) -∗ wp frame (wpE (D (F := F)) 𝒱 (SparseCore.T d) none) Set.univ (k ⟨⟩) Q)
          ∗ boundary (SparseCore.T d) ∗ preR VV WW OO d ∗ levAts (K (F := F)).L (K (F := F)).lev
          ∗ Pipeline.cellsGhost (Pipeline.pin (pcfgs (F := F)) adm) EP p d ∗ Pipeline.toksInit (Pipeline.pin (pcfgs (F := F)) adm) EP p d)
        ⊢ wp frame (wpE (D (F := F)) 𝒱 (SparseCore.T d) none) Set.univ (.op (.customCall (Pipeline.entry p) ()) k) Q) :
    RegionStep (F := F) p (offOuts (outs cfg)) := by
  intro d O W hO V α k Q
  have h0 : iprop((∀ (V' : Valuation τ sig (Elt F)) (W' : Waits sig (HIx 1)),
            iprop(⌜offOuts (outs cfg) V V'⌝ ∗ ⌜∀ x ∈ W', x ∈ W ∨ x.2 = none⌝ ∗ boundary (SparseCore.T d) ∗ held (SparseCore.T d) Sall V' ∗ owes (SparseCore.T d) O W')
              -∗ wp frame (wpE (D (F := F)) 𝒱 (SparseCore.T d) none) Set.univ (k ⟨⟩) Q)
        ∗ boundary (SparseCore.T d) ∗ held (SparseCore.T d) Sall V ∗ owes (SparseCore.T d) O W ∗ levAts (K (F := F)).L (K (F := F)).lev ∗ Gq p d)
      ⊢ iprop((iprop(boundary (SparseCore.T d) ∗ postR (fun _ => V) W O cfg d) -∗ wp frame (wpE (D (F := F)) 𝒱 (SparseCore.T d) none) Set.univ (k ⟨⟩) Q)
          ∗ boundary (SparseCore.T d) ∗ preR (fun _ => V) W O d ∗ levAts (K (F := F)).L (K (F := F)).lev
          ∗ Pipeline.cellsGhost (Pipeline.pin (pcfgs (F := F)) adm) EP p d ∗ Pipeline.toksInit (Pipeline.pin (pcfgs (F := F)) adm) EP p d) := by
    unfold preR postR owesT
    iintro ⟨Hk, Hb, Hh, HO, Hlev, HG⟩
    isplitl [Hk]
    · iintro ⟨Hb, ⟨%V', %hV', Hh⟩, ⟨%W', %hW', HO⟩⟩
      ispecialize Hk $$ %V'
      ispecialize Hk $$ %W'
      iapply Hk
      isplitr; · ipureintro; exact hV'
      isplitr; · ipureintro; exact hW'
      isplitl [Hb]; · iexact Hb
      isplitl [Hh]; · iexact Hh
      iexact HO
    · isplitl [Hb]; · iexact Hb
      isplitl [Hh HO]
      · isplitl [Hh]; · iexact Hh
        iexists W; isplitr
        · ipureintro; exact fun x hx => .inl hx
        · iexact HO
      isplitl [Hlev]; · iexact Hlev
      iexact HG
  exact BI.Entails.trans h0 (h (fun _ => V) W O hO d k Q)

theorem regionStep0 [FloatOps F] : RegionStep (F := F) 0 (offOuts (outs cfg0)) := regionStep_of cfg0 fun VV WW OO hO d _ k Q => region0 VV WW OO hO d k Q
theorem regionStep1 [FloatOps F] : RegionStep (F := F) 1 (offOuts (outs cfg2)) := regionStep_of cfg2 fun VV WW OO hO d _ k Q => region1 VV WW OO hO d k Q
theorem regionStep2 [FloatOps F] : RegionStep (F := F) 2 (offOuts (outs cfg3)) := regionStep_of cfg3 fun VV WW OO hO d _ k Q => region2 VV WW OO hO d k Q

/-- No region's output array is an argument array. -/
theorem args_not_outs0 : ∀ b ∈ argRefs, b ∉ outs cfg0 := by rw [outs0_eq]; decide
theorem args_not_outs1 : ∀ b ∈ argRefs, b ∉ outs cfg2 := by rw [outs2_eq]; decide
theorem args_not_outs2 : ∀ b ∈ argRefs, b ∉ outs cfg3 := by rw [outs3_eq]; decide

end Cert.KernelIdeal.Hand

end
-- ==== Proof.ScTileA.lean ====
/-
  The geometry of one vector subcore's task in the SparseCore copy kernel. The subcore at grid coordinates `L` owns strip
  `16 · L 0 + L 1` of the queue and of its copy: 24 rows, all 65536 columns. Its program copies the strip's columns
  4096 … 65535 in 48 blocks of 30720 words — block `n` is row `n / 2` of the strip, columns `4096 + (n % 2) · 30720`
  onwards — and never touches the first 4096 columns. This module states the blocks as sets of positions of the
  array, proves that the strip is the disjoint union of its head and its 48 blocks, identifies every offset function
  the printed kernel computes (at every subcore and every trip of its loop) with the block it names and every guard
  with a comparison of the trip number, converts between a block held through the program's sliced memref and the same
  positions of the TensorCore's array, and opens the subcore's scoped storage into its four scratch buffers and eight
  DMA semaphores.
-/
import proofs.«211565_g20684562498226_cont_8to1_684_24_alg».proof.Proof.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

abbrev qV : Memref sig .scVector .hbm S768x65536 .f32 := Memref.whole main_arg18_scv
abbrev oV : Memref sig .scVector .hbm S768x65536 .f32 := Memref.whole main_v7_scv
abbrev b0 : Memref sig .scVector .vmem S30720 .f32 := Memref.whole cc1_scratch0
abbrev b1 : Memref sig .scVector .vmem S30720 .f32 := Memref.whole cc1_scratch1
abbrev b2 : Memref sig .scVector .vmem S30720 .f32 := Memref.whole cc1_scratch2
abbrev b3 : Memref sig .scVector .vmem S30720 .f32 := Memref.whole cc1_scratch3

def coordsV (c : Fin (grid1.bound 0)) (s : Fin (grid1.bound 1)) : grid1.Coords :=
  fun | 0 => c | 1 => s | ⟨_ + 2, h⟩ => absurd h (Nat.not_lt.2 (Nat.le_add_left _ _))

abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)
theorem bound_zero : grid1.bound 0 = 2 := rfl
theorem bound_one : grid1.bound 1 = 16 := rfl
/-- The strip of the vector subcore at coordinates `L`. -/
def tIx (L : grid1.Coords) : Fin 32 := tileIx (Fin.cast bound_zero (L 0)) (Fin.cast bound_one (L 1))

/-- A block of the queue / of the copy as the program slices it: the row-and-half the offsets name, squeezed. -/
abbrev blkOf (M : Memref sig .scVector .hbm S768x65536 .f32) (off : Fin 2 → Nat) (h : ∀ a, off a + S1x30720.size a ≤ S768x65536.size a) :
    Memref sig .scVector .hbm S30720 .f32 :=
  (M.slice (Rect.unit (s := S768x65536) off S1x30720.size h) (fun _ => rfl)).squeeze S30720 squeezes_S1x30720_S30720

/-! ## Peeling members off a big separating conjunction -/

/-- `Φ a₁ ∗ … ∗ Φ aₙ ∗ R`. -/
def sepL {α : Type} (Φ : α → sProp 𝕄) : List α → sProp 𝕄 → sProp 𝕄
  | [], R => R
  | a :: l, R => iprop(Φ a ∗ sepL Φ l R)

/-- Distinct members of `s`, in any order, come out of the conjunction over `s` one by one. -/
theorem bigSep_peel {α : Type} [DecidableEq α] (Φ : α → sProp 𝕄) :
    ∀ (l : List α) (s : Finset α), l.Nodup → (∀ a ∈ l, a ∈ s) → bigSep s Φ = sepL Φ l (bigSep (l.foldl Finset.erase s) Φ)
  | [], _, _, _ => rfl
  | a :: l, s, hnd, hmem => by
    have hnd' := List.nodup_cons.mp hnd
    rw [SparseCore.bigSep_erase' (hmem a (List.mem_cons_self)) (Φ := Φ),
      bigSep_peel Φ l (s.erase a) hnd'.2 (fun b hb => Finset.mem_erase.mpr ⟨fun e => hnd'.1 (e ▸ hb), hmem b (List.mem_cons_of_mem _ hb)⟩)]
    rfl

/-! ## The blocks of a strip

Strip `t` is rows `24 t … 24 t + 23`. The kernel moves its columns `4096 … 65535` in 48 blocks of 30720 words:
block `n` is row `24 t + n / 2`, columns `4096 + (n % 2) · 30720` onwards. The first 4096 columns of the strip's rows
(its head) are never touched. -/

/-- Where block `n` of strip `t` starts. -/
def blkOff (t n : ℕ) : Fin 2 → ℕ := ![24 * t + n / 2, 4096 + (n % 2) * 30720]

/-- Block `n` of strip `t`, as a set of positions. -/
def blkSet (t n : ℕ) : Finset S768x65536.Idx :=
  Finset.univ.filter fun i => (i 0).val = 24 * t + n / 2 ∧ 4096 + (n % 2) * 30720 ≤ (i 1).val ∧ (i 1).val < 4096 + (n % 2) * 30720 + 30720

/-- The first 4096 columns of strip `t`'s rows. -/
def headSet (t : ℕ) : Finset S768x65536.Idx :=
  Finset.univ.filter fun i => 24 * t ≤ (i 0).val ∧ (i 0).val < 24 * t + 24 ∧ (i 1).val < 4096

theorem mem_blkSet {t n : ℕ} {i : S768x65536.Idx} :
    i ∈ blkSet t n ↔ (i 0).val = 24 * t + n / 2 ∧ 4096 + (n % 2) * 30720 ≤ (i 1).val ∧ (i 1).val < 4096 + (n % 2) * 30720 + 30720 := by
  simp [blkSet]
theorem mem_headSet {t : ℕ} {i : S768x65536.Idx} : i ∈ headSet t ↔ 24 * t ≤ (i 0).val ∧ (i 0).val < 24 * t + 24 ∧ (i 1).val < 4096 := by
  simp [headSet]
theorem mem_stripSet {t : Fin 32} {i : S768x65536.Idx} : i ∈ stripSet t ↔ 24 * t.val ≤ (i 0).val ∧ (i 0).val < 24 * t.val + 24 := by
  have h1 : (i 1).val < 65536 := (i 1).isLt
  unfold stripSet strip Rect.part Rect.block
  rw [Rect.mem_set_unit, Fin.forall_fin_two]
  simp only [Shape.partIx, Shape.partSize]
  simp
  omega

/-- A block the program slices — one row, 30720 columns from its offsets — is the block its offsets name. -/
theorem set_unit_blk {off : Fin 2 → ℕ} (h : ∀ a, off a + S1x30720.size a ≤ S768x65536.size a) {t n : ℕ} (e : off = blkOff t n) :
    (Rect.unit (s := S768x65536) off S1x30720.size h).set = blkSet t n := by
  subst e
  ext i
  rw [Rect.mem_set_unit, Fin.forall_fin_two, mem_blkSet]
  simp [blkOff]
  omega

theorem blk_disjoint (t : ℕ) {n n' : ℕ} (h : n ≠ n') : Disjoint (blkSet t n) (blkSet t n') :=
  Finset.disjoint_left.mpr fun i h1 h2 => by
    rw [mem_blkSet] at h1 h2; omega
theorem head_disjoint (t n : ℕ) : Disjoint (headSet t) (blkSet t n) :=
  Finset.disjoint_left.mpr fun i h1 h2 => by
    rw [mem_headSet] at h1; rw [mem_blkSet] at h2; omega

/-- The strip is its head and its 48 blocks. -/
theorem strip_cover (t : Fin 32) : stripSet t = headSet t.val ∪ (Finset.range 48).biUnion (blkSet t.val) := by
  ext i
  have h1 : (i 1).val < 65536 := (i 1).isLt
  rw [mem_stripSet, Finset.mem_union, mem_headSet, Finset.mem_biUnion]
  constructor
  · rintro ⟨ha, hb⟩
    by_cases hc : (i 1).val < 4096
    · exact .inl ⟨ha, hb, hc⟩
    · refine .inr ⟨2 * ((i 0).val - 24 * t.val) + ((i 1).val - 4096) / 30720, Finset.mem_range.mpr (by omega), mem_blkSet.mpr ?_⟩
      omega
  · rintro (⟨ha, hb, -⟩ | ⟨n, hn, hi⟩)
    · exact ⟨ha, hb⟩
    · rw [Finset.mem_range] at hn; rw [mem_blkSet] at hi; omega

/-! ## The printed offsets and conditions, in closed form

Every offset function of the kernel, at the vector subcore `L` and trip `k`, names a block of `L`'s strip; the
conditions compare the trip with the ends of the loop. Decided over the 32 subcores and 12 trips. -/

theorem trips_eq : k1_t1_loop.trips = 12 := by decide +kernel

theorem off1_0 : ∀ L : grid1.Coords, k1_off1 L 0#32 = blkOff (tIx L).val 0 := by decide +kernel
theorem off1_1 : ∀ L : grid1.Coords, k1_off1 L 1#32 = blkOff (tIx L).val 2 := by decide +kernel
theorem off1_22 : ∀ L : grid1.Coords, k1_off1 L 22#32 = blkOff (tIx L).val 44 := by decide +kernel
theorem off1_23 : ∀ L : grid1.Coords, k1_off1 L 23#32 = blkOff (tIx L).val 46 := by decide +kernel
theorem off2_0 : ∀ L : grid1.Coords, k1_off2 L 0#32 = blkOff (tIx L).val 1 := by decide +kernel
theorem off2_22 : ∀ L : grid1.Coords, k1_off2 L 22#32 = blkOff (tIx L).val 45 := by decide +kernel
theorem off2_23 : ∀ L : grid1.Coords, k1_off2 L 23#32 = blkOff (tIx L).val 47 := by decide +kernel
theorem off3_0 : ∀ (L : grid1.Coords) (k : Fin k1_t1_loop.trips), k1_off3 L k 0#32 = blkOff (tIx L).val (4 * k.val) := by decide +kernel
theorem off3_1 : ∀ (L : grid1.Coords) (k : Fin k1_t1_loop.trips), k1_off3 L k 1#32 = blkOff (tIx L).val (4 * k.val + 1) := by decide +kernel
theorem off3_2 : ∀ (L : grid1.Coords) (k : Fin k1_t1_loop.trips), k1_off3 L k 2#32 = blkOff (tIx L).val (4 * k.val + 2) := by decide +kernel
theorem off3_3 : ∀ (L : grid1.Coords) (k : Fin k1_t1_loop.trips), k1_off3 L k 3#32 = blkOff (tIx L).val (4 * k.val + 3) := by decide +kernel
theorem off5_eq : ∀ (L : grid1.Coords) (k : Fin k1_t1_loop.trips), k1_off5 L k = blkOff (tIx L).val (4 * k.val + 3) := by decide +kernel
theorem off7_eq : ∀ (L : grid1.Coords) (k : Fin k1_t1_loop.trips), k1_off7 L k = blkOff (tIx L).val (4 * k.val + 4) := by decide +kernel
theorem off9_eq : ∀ (L : grid1.Coords) (k : Fin k1_t1_loop.trips), k1_off9 L k = blkOff (tIx L).val (4 * k.val + 5) := by decide +kernel
theorem off11_eq : ∀ (L : grid1.Coords) (k : Fin k1_t1_loop.trips), k1_off11 L k = blkOff (tIx L).val (4 * k.val + 6) := by decide +kernel

theorem cond1_true : ∀ k : Fin k1_t1_loop.trips, k1_cond1 k = 1#1 := by decide +kernel
theorem cond2_iff : ∀ k : Fin k1_t1_loop.trips, k1_cond2 k = 1#1 ↔ 0 < k.val := by decide +kernel
theorem cond3_iff : ∀ k : Fin k1_t1_loop.trips, k1_cond3 k = 1#1 ↔ k.val < 11 := by decide +kernel
theorem cond4_iff : ∀ k : Fin k1_t1_loop.trips, k1_cond4 k = 1#1 ↔ k.val < 11 := by decide +kernel
theorem cond5_iff : ∀ k : Fin k1_t1_loop.trips, k1_cond5 k = 1#1 ↔ k.val < 11 := by decide +kernel

/-! ## A block as the program's memref and as a set of the array's positions -/

section Tile

variable (d : Dev nD) (L : grid1.Coords)

/-- A block memref's positions are the block its offsets name. -/
theorem set_blkOf_q {off : Fin 2 → ℕ} (h : ∀ a, off a + S1x30720.size a ≤ S768x65536.size a) {n : ℕ} (e : off = blkOff (tIx L).val n) :
    (blkOf qV off h).view.set = blkSet (tIx L).val n := by
  show (((qV : Memref sig .scVector .hbm S768x65536 .f32).view.slice (Rect.unit (s := S768x65536) off S1x30720.size h)).reshape S30720
    squeezes_S1x30720_S30720.numel_eq).set = _
  rw [View.set_reshape]
  exact (View.set_slice_whole _ _).trans (set_unit_blk h e)
theorem set_blkOf_o {off : Fin 2 → ℕ} (h : ∀ a, off a + S1x30720.size a ≤ S768x65536.size a) {n : ℕ} (e : off = blkOff (tIx L).val n) :
    (blkOf oV off h).view.set = blkSet (tIx L).val n := by
  show (((oV : Memref sig .scVector .hbm S768x65536 .f32).view.slice (Rect.unit (s := S768x65536) off S1x30720.size h)).reshape S30720
    squeezes_S1x30720_S30720.numel_eq).set = _
  rw [View.set_reshape]
  exact (View.set_slice_whole _ _).trans (set_unit_blk h e)

/-- The queue's block `n`, held through the program's memref, is the TensorCore's array held on the block's positions. -/
theorem pts_q {off : Fin 2 → ℕ} (h : ∀ a, off a + S1x30720.size a ≤ S768x65536.size a) {n : ℕ} (e : off = blkOff (tIx L).val n)
    (f : Buf (Elt F) (qLoc d)) :
    ((blkOf qV off h).view.loc (thrV d L) ↦[(blkOf qV off h).view.set]{fullShare} f : sProp 𝕄) = qLoc d ↦[blkSet (tIx L).val n]{fullShare} f := by
  rw [set_blkOf_q L h e]
theorem pts_o {off : Fin 2 → ℕ} (h : ∀ a, off a + S1x30720.size a ≤ S768x65536.size a) {n : ℕ} (e : off = blkOff (tIx L).val n)
    (f : Buf (Elt F) (oLoc d)) :
    ((blkOf oV off h).view.loc (thrV d L) ↦[(blkOf oV off h).view.set]{fullShare} f : sProp 𝕄) = oLoc d ↦[blkSet (tIx L).val n]{fullShare} f := by
  rw [set_blkOf_o L h e]

/-- A scratch buffer held by its own elements is held whole. -/
theorem pts_buf_set (r : Ref sig .scVector) (f : Buf (Elt F) ((Memref.whole r : Memref sig .scVector _ _ _).view.loc (thrV d L))) :
    ((Memref.whole r : Memref sig .scVector _ _ _).view.loc (thrV d L) ↦[(Memref.whole r : Memref sig .scVector _ _ _).view.set]{fullShare} f : sProp 𝕄)
      = ((Memref.whole r : Memref sig .scVector _ _ _).view.loc (thrV d L) ↦{fullShare} f) := by
  simp only [Memref.view_whole, View.set_whole]
/-- and nothing of it is left over. -/
theorem pts_buf_rest (r : Ref sig .scVector) (f : Buf (Elt F) ((Memref.whole r : Memref sig .scVector _ _ _).view.loc (thrV d L))) :
    ((Memref.whole r : Memref sig .scVector _ _ _).view.loc (thrV d L) ↦[Finset.univ \ (Memref.whole r : Memref sig .scVector _ _ _).view.set]{fullShare} f : sProp 𝕄) = iprop(emp) := by
  simp only [Memref.view_whole, View.set_whole, Finset.sdiff_self]
  exact pointsTo_empty

/-! ## The subcore's scoped storage: four scratch buffers, eight DMA semaphores -/

def semsL : List (SemLoc sig) :=
  [.dma cc1_scratch4.sem, .dma cc1_scratch5.sem, .dma cc1_scratch6.sem, .dma cc1_scratch7.sem,
   .dma cc1_scratch8.sem, .dma cc1_scratch9.sem, .dma cc1_scratch10.sem, .dma cc1_scratch11.sem]
theorem semsL_nodup : semsL.Nodup := by decide
theorem semsL_scoped : ∀ a ∈ semsL, a.isScoped .scVector = true := by decide
def refsL : List (Ref sig .scVector) := [cc1_scratch0, cc1_scratch1, cc1_scratch2, cc1_scratch3]
theorem refsL_nodup : refsL.Nodup := by decide

/-- The subcore's other scoped semaphores, and its other buffers. -/
def restCells : Finset (GSem nD τ sig) := (semsL.map fun a => ((thrV d L, a) : GSem nD τ sig)).foldl Finset.erase (ownCells (thrV d L))
def restRefs : Finset (DevRef τ sig) := (refsL.map fun r => (Proc.scVector (cV L) (jV L)).devRef r).foldl Finset.erase (ownRefs (τ := τ) (.scVector (cV L) (jV L)))

theorem ownSems0_V :
    (ownSems0 (thrV d L) : sProp 𝕄)
      = iprop(semVal (thrV d L, SemLoc.dma cc1_scratch4.sem) 0 ∗ semVal (thrV d L, SemLoc.dma cc1_scratch5.sem) 0
          ∗ semVal (thrV d L, SemLoc.dma cc1_scratch6.sem) 0 ∗ semVal (thrV d L, SemLoc.dma cc1_scratch7.sem) 0
          ∗ semVal (thrV d L, SemLoc.dma cc1_scratch8.sem) 0 ∗ semVal (thrV d L, SemLoc.dma cc1_scratch9.sem) 0
          ∗ semVal (thrV d L, SemLoc.dma cc1_scratch10.sem) 0 ∗ semVal (thrV d L, SemLoc.dma cc1_scratch11.sem) 0
          ∗ bigSep (restCells d L) fun g => semVal g 0) := by
  unfold SparseCore.Cfg.ownSems0
  rw [bigSep_peel (F := F) (fun g => semVal g 0) (semsL.map fun a => ((thrV d L, a) : GSem nD τ sig)) _
    (List.Nodup.map (fun _ _ e => (Prod.mk.inj e).2) semsL_nodup)
    (fun g hg => by
      obtain ⟨a, ha, rfl⟩ := List.mem_map.mp hg
      exact mem_ownCells.mpr ⟨rfl, semsL_scoped a ha⟩)]
  rfl

theorem ownBufs_V :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ bigSep (restRefs L) fun b => iprop(∃ f, ((d, b) : Loc nD τ sig) ↦{fullShare} f)) := by
  unfold SparseCore.Cfg.ownBufs
  rw [bigSep_peel (F := F) (fun b => iprop(∃ f, ((d, b) : Loc nD τ sig) ↦{fullShare} f))
    (refsL.map fun r => (Proc.scVector (cV L) (jV L)).devRef r) _
    (List.Nodup.map (Proc.devRef_injective _) refsL_nodup)
    (fun b hb => by
      obtain ⟨r, hr, rfl⟩ := List.mem_map.mp hb
      simp only [refsL, List.mem_cons, List.not_mem_nil, or_false] at hr
      rcases hr with rfl | rfl | rfl | rfl <;> exact SparseCore.Cfg.mem_ownRefs_of_owner rfl)]
  rfl

/-! ## A strip as its head and its 48 blocks -/

theorem blocks_disjoint (t : ℕ) : ∀ a ∈ Finset.range 48, ∀ b ∈ Finset.range 48, a ≠ b → Disjoint (blkSet t a) (blkSet t b) :=
  fun _ _ _ _ h => blk_disjoint t h
theorem head_disjoint_blocks (t : ℕ) : Disjoint (headSet t) ((Finset.range 48).biUnion (blkSet t)) :=
  (Finset.disjoint_biUnion_right _ _ _).mpr fun n _ => head_disjoint t n

theorem q_split (t : Fin 32) (f : Buf (Elt F) (qLoc d)) :
    (qLoc d ↦[stripSet t]{fullShare} f : sProp 𝕄)
      = iprop((qLoc d ↦[headSet t.val]{fullShare} f) ∗ bigSep (Finset.range 48) fun n => qLoc d ↦[blkSet t.val n]{fullShare} f) := by
  rw [strip_cover, ← pointsTo_biUnion (Finset.range 48) (ℓ := qLoc d) (blkSet t.val) (blocks_disjoint t.val)]
  exact BI.equiv_iff.mp ⟨(pointsTo_union (head_disjoint_blocks t.val)).1, (pointsTo_union (head_disjoint_blocks t.val)).2⟩
theorem o_split (t : Fin 32) (f : Buf (Elt F) (oLoc d)) :
    (oLoc d ↦[stripSet t]{fullShare} f : sProp 𝕄)
      = iprop((oLoc d ↦[headSet t.val]{fullShare} f) ∗ bigSep (Finset.range 48) fun n => oLoc d ↦[blkSet t.val n]{fullShare} f) := by
  rw [strip_cover, ← pointsTo_biUnion (Finset.range 48) (ℓ := oLoc d) (blkSet t.val) (blocks_disjoint t.val)]
  exact BI.equiv_iff.mp ⟨(pointsTo_union (head_disjoint_blocks t.val)).1, (pointsTo_union (head_disjoint_blocks t.val)).2⟩

variable [FloatOps F] in
/-- The copy's strip back from its head and its blocks, each at some contents. -/
theorem o_join (t : Fin 32) :
    iprop((∃ f, oLoc d ↦[headSet t.val]{fullShare} f) ∗ bigSep (Finset.range 48) fun n => iprop(∃ f, oLoc d ↦[blkSet t.val n]{fullShare} f))
      ⊢ (iprop(∃ f, oLoc d ↦[stripSet t]{fullShare} f) : sProp 𝕄) := by
  rw [strip_cover]
  iintro ⟨⟨%fh, Hh⟩, Hb⟩
  ihave Hb' := (bigSep_exists_pi (Finset.range 48) (fun n (f : Buf (Elt F) (oLoc d)) => oLoc d ↦[blkSet t.val n]{fullShare} f)) $$ Hb
  icases Hb' with ⟨%fs, H⟩
  ihave H' := (pointsTo_biUnion_join (Finset.range 48) (blkSet t.val) fs (fs 0) (blocks_disjoint t.val)) $$ H
  icases H' with ⟨%g, -, Hg⟩
  iexists _
  iapply (pointsTo_join (ℓ := oLoc d) (head_disjoint_blocks t.val))
  isplitl [Hh]; · iexact Hh
  iexact Hg

/-! ## Moving the ends of a run of blocks -/

theorem bigSep_range_push (Φ : ℕ → sProp 𝕄) (n : ℕ) :
    bigSep (Finset.range (n + 1)) Φ = iprop(Φ n ∗ bigSep (Finset.range n) Φ) := by
  rw [Finset.range_add_one, SparseCore.bigSep_insert' Finset.notMem_range_self]
theorem bigSep_Ico_pop (Φ : ℕ → sProp 𝕄) {a b : ℕ} (h : a < b) :
    bigSep (Finset.Ico a b) Φ = iprop(Φ a ∗ bigSep (Finset.Ico (a + 1) b) Φ) := by
  have e : Finset.Ico a b = insert a (Finset.Ico (a + 1) b) := by
    ext x; simp only [Finset.mem_Ico, Finset.mem_insert]; omega
  rw [e, SparseCore.bigSep_insert' (by simp)]
theorem bigSep_Ico_self (Φ : ℕ → sProp 𝕄) {a b : ℕ} (h : b ≤ a) : bigSep (Finset.Ico a b) Φ = (iprop(emp) : sProp 𝕄) := by
  rw [Finset.Ico_eq_empty (by omega)]; rfl
theorem bigSep_range_zero (Φ : ℕ → sProp 𝕄) : bigSep (Finset.range 0) Φ = (iprop(emp) : sProp 𝕄) := rfl
theorem bigSep_Ico_zero (Φ : ℕ → sProp 𝕄) (b : ℕ) : bigSep (Finset.Ico 0 b) Φ = bigSep (Finset.range b) Φ := by
  rw [Finset.range_eq_Ico]

/-- Four blocks off the front of a run. -/
theorem bigSep_Ico_pop4 (Φ : ℕ → sProp 𝕄) (a a1 a2 a3 a4 : ℕ) (h1 : a1 = a + 1) (h2 : a2 = a + 2) (h3 : a3 = a + 3) (h4 : a4 = a + 4) (h : a + 3 < 48) :
    bigSep (Finset.Ico a 48) Φ = iprop(Φ a ∗ Φ a1 ∗ Φ a2 ∗ Φ a3 ∗ bigSep (Finset.Ico a4 48) Φ) := by
  subst h1 h2 h3 h4
  rw [bigSep_Ico_pop Φ (by omega : a < 48), bigSep_Ico_pop Φ (by omega : a + 1 < 48), bigSep_Ico_pop Φ (by omega : a + 1 + 1 < 48),
    bigSep_Ico_pop Φ (by omega : a + 1 + 1 + 1 < 48)]
/-- Blocks onto the end of a run. -/
theorem bigSep_range_push4 (Φ : ℕ → sProp 𝕄) (a a1 a2 a3 a4 : ℕ) (h1 : a1 = a + 1) (h2 : a2 = a + 2) (h3 : a3 = a + 3) (h4 : a4 = a + 4) :
    bigSep (Finset.range a4) Φ = iprop(Φ a3 ∗ Φ a2 ∗ Φ a1 ∗ Φ a ∗ bigSep (Finset.range a) Φ) := by
  subst h1 h2 h3 h4
  rw [bigSep_range_push Φ (a + 3), bigSep_range_push Φ (a + 2), bigSep_range_push Φ (a + 1), bigSep_range_push Φ a]
theorem bigSep_range_push3 (Φ : ℕ → sProp 𝕄) (a a1 a2 a3 : ℕ) (h1 : a1 = a + 1) (h2 : a2 = a + 2) (h3 : a3 = a + 3) :
    bigSep (Finset.range a3) Φ = iprop(Φ a2 ∗ Φ a1 ∗ Φ a ∗ bigSep (Finset.range a) Φ) := by
  subst h1 h2 h3
  rw [bigSep_range_push Φ (a + 2), bigSep_range_push Φ (a + 1), bigSep_range_push Φ a]

theorem bigSep_Ico_pop3 (Φ : ℕ → sProp 𝕄) (a a1 a2 a3 : ℕ) (h1 : a1 = a + 1) (h2 : a2 = a + 2) (h3 : a3 = a + 3) (h : a + 2 < 48) :
    bigSep (Finset.Ico a 48) Φ = iprop(Φ a ∗ Φ a1 ∗ Φ a2 ∗ bigSep (Finset.Ico a3 48) Φ) := by
  subst h1 h2 h3
  rw [bigSep_Ico_pop Φ (by omega : a < 48), bigSep_Ico_pop Φ (by omega : a + 1 < 48), bigSep_Ico_pop Φ (by omega : a + 1 + 1 < 48)]

/-- A scratch buffer as the subcore's memref addresses it is the subcore's buffer. -/
theorem pts_b (r : Ref sig .scVector) (f : Buf (Elt F) ((thrV d L).loc r)) :
    ((Memref.whole r : Memref sig .scVector _ _ _).view.loc (thrV d L) ↦{fullShare} f : sProp 𝕄) = ((thrV d L).loc r ↦{fullShare} f) := rfl

/-- The copy's blocks at one valuation are its blocks each at some contents. -/
theorem o_blocks_ex (fo : Buf (Elt F) (oLoc d)) :
    (bigSep (Finset.range 48) (fun n => oLoc d ↦[blkSet (tIx L).val n]{fullShare} fo) : sProp 𝕄)
      ⊢ bigSep (Finset.Ico 0 48) fun n => iprop(∃ f, oLoc d ↦[blkSet (tIx L).val n]{fullShare} f) := by
  rw [bigSep_Ico_zero]
  refine bigSep_mono fun n _ => ?_
  show (oLoc d ↦[blkSet (tIx L).val n]{fullShare} fo : sProp 𝕄) ⊢ iprop(∃ f, oLoc d ↦[blkSet (tIx L).val n]{fullShare} f)
  iintro H; iexists fo; iexact H

end Tile

end Cert.KernelIdeal.Hand

end
-- ==== Proof.ScTileB.lean ====
/-
  The loop of one vector subcore's task in the SparseCore copy kernel, trip by trip. The task moves the 48 blocks of its
  strip through a ring of four scratch buffers, each with one semaphore for its copy in and one for its copy out, so
  that at most one copy is outstanding per semaphore and no buffer is touched between a copy's start and its wait.
  Between trips `k` and `k + 1` of the loop the ring holds the copies in of blocks `4k + 4, 4k + 5, 4k + 6` (buffers
  0, 1, 2) and the copy out of block `4k + 3` (buffer 3); before the first trip only the copies in of blocks 0, 1, 2;
  after the last only the copies out of blocks 44 … 47. This module states that invariant — the outstanding copies, the
  semaphores at rest, and the blocks of the queue and of its copy the subcore holds meanwhile, as runs of consecutive
  block numbers — and proves that each trip of the loop carries it to the next: the first trip, a trip in the middle,
  and the last trip, which differ in which guards of the program hold.
-/
import proofs.«211565_g20684562498226_cont_8to1_684_24_alg».proof.Proof.Setup
import proofs.«211565_g20684562498226_cont_8to1_684_24_alg».proof.Proof.ScTileA

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The loop's invariant

Between trips the ring holds: the copies IN of the next three blocks into buffers 0, 1, 2 and (after the first trip) the
copy OUT of the previous block from buffer 3; at the loop's exit, the copies OUT of the last four blocks and no copy in.
The blocks of the queue whose copy in has been waited for (or not yet started), and the blocks of the copy whose copy out
has been waited for (or not yet started), are held by the subcore, as runs of consecutive block numbers. -/

section Body

variable (d : Dev nD) (L : grid1.Coords) (O : CellTallies nD τ sig (HIx 1)) (W : Waits sig (HIx 1))

/-- Block `n` of the subcore's strip of the queue, at the launch contents; of the copy, at some contents. -/
abbrev qB (n : ℕ) : sProp 𝕄 := qLoc d ↦[blkSet (tIx L).val n]{fullShare} m (qLoc d)
abbrev oB (n : ℕ) : sProp 𝕄 := iprop(∃ f, oLoc d ↦[blkSet (tIx L).val n]{fullShare} f)
abbrev sem0 (sm : DmaSems sig S_) : sProp 𝕄 := semVal (thrV d L, SemLoc.dma sm.sem) 0

/-- The copy IN of the queue's block `n` into the scratch buffer `r`, outstanding on semaphore `sm`: its wait hands back
    the buffer and the block. -/
abbrev FlIn (sm : DmaSems sig S_) (r : Ref sig .scVector) (n : ℕ) : sProp 𝕄 :=
  iprop(∃ g, Transfers.Flight countersEmb (thrV d L) (SemLoc.dma sm.sem) default 983040
    iprop(((Memref.whole r : Memref sig .scVector _ _ _).view.loc (thrV d L) ↦{fullShare} g) ∗ qB m d L n))
/-- The copy OUT of the scratch buffer `r` onto the copy's block `n`, outstanding on semaphore `sm`. -/
abbrev FlOut (sm : DmaSems sig S_) (r : Ref sig .scVector) (n : ℕ) : sProp 𝕄 :=
  iprop(∃ g fo, Transfers.Flight countersEmb (thrV d L) (SemLoc.dma sm.sem) default 983040
    iprop((oLoc d ↦[blkSet (tIx L).val n]{fullShare} fo) ∗ ((Memref.whole r : Memref sig .scVector _ _ _).view.loc (thrV d L) ↦{fullShare} g)))

theorem FlIn_intro (sm : DmaSems sig S_) (r : Ref sig .scVector) {off : Fin 2 → ℕ} (h : ∀ a, off a + S1x30720.size a ≤ S768x65536.size a) {n : ℕ}
    (e : off = blkOff (tIx L).val n) (g : Buf (Elt F) ((Memref.whole r : Memref sig .scVector _ _ _).view.loc (thrV d L))) :
    (Transfers.Flight countersEmb (thrV d L) (SemLoc.dma sm.sem) default 983040
      iprop(((Memref.whole r : Memref sig .scVector _ _ _).view.loc (thrV d L) ↦{fullShare} g)
        ∗ ((blkOf qV off h).view.loc (thrV d L) ↦[(blkOf qV off h).view.set]{fullShare} m (qLoc d))) : sProp 𝕄) ⊢ FlIn m d L sm r n := by
  rw [pts_q d L h e]
  iintro H; iexists g; iexact H

theorem FlOut_intro (sm : DmaSems sig S_) (r : Ref sig .scVector) {off : Fin 2 → ℕ} (h : ∀ a, off a + S1x30720.size a ≤ S768x65536.size a) {n : ℕ}
    (e : off = blkOff (tIx L).val n) (g : Buf (Elt F) ((Memref.whole r : Memref sig .scVector _ _ _).view.loc (thrV d L))) (fo : Buf (Elt F) (oLoc d)) :
    (Transfers.Flight countersEmb (thrV d L) (SemLoc.dma sm.sem) default 983040
      iprop(((blkOf oV off h).view.loc (thrV d L) ↦[(blkOf oV off h).view.set]{fullShare} fo)
        ∗ ((Memref.whole r : Memref sig .scVector _ _ _).view.loc (thrV d L) ↦[(Memref.whole r : Memref sig .scVector _ _ _).view.set]{fullShare} g)) : sProp 𝕄)
      ⊢ FlOut d L sm r n := by
  rw [pts_o d L h e, pts_buf_set d L r g]
  iintro H; iexists g, fo; iexact H

abbrev Inv0 : sProp 𝕄 :=
  iprop(FlIn m d L cc1_scratch4 cc1_scratch0 0 ∗ FlIn m d L cc1_scratch5 cc1_scratch1 1 ∗ FlIn m d L cc1_scratch6 cc1_scratch2 2
    ∗ (∃ g, (b3).view.loc (thrV d L) ↦{fullShare} g) ∗ sem0 d L cc1_scratch11
    ∗ sem0 d L cc1_scratch7 ∗ sem0 d L cc1_scratch8 ∗ sem0 d L cc1_scratch9 ∗ sem0 d L cc1_scratch10
    ∗ bigSep (Finset.range 0) (qB m d L) ∗ bigSep (Finset.Ico 3 48) (qB m d L) ∗ bigSep (Finset.range 0) (oB d L) ∗ bigSep (Finset.Ico 0 48) (oB d L))

abbrev InvMid (j : ℕ) : sProp 𝕄 :=
  iprop(FlIn m d L cc1_scratch4 cc1_scratch0 (4 * j + 4) ∗ FlIn m d L cc1_scratch5 cc1_scratch1 (4 * j + 5) ∗ FlIn m d L cc1_scratch6 cc1_scratch2 (4 * j + 6)
    ∗ FlOut d L cc1_scratch11 cc1_scratch3 (4 * j + 3)
    ∗ sem0 d L cc1_scratch7 ∗ sem0 d L cc1_scratch8 ∗ sem0 d L cc1_scratch9 ∗ sem0 d L cc1_scratch10
    ∗ bigSep (Finset.range (4 * j + 4)) (qB m d L) ∗ bigSep (Finset.Ico (4 * j + 7) 48) (qB m d L)
    ∗ bigSep (Finset.range (4 * j + 3)) (oB d L) ∗ bigSep (Finset.Ico (4 * j + 4) 48) (oB d L))

abbrev InvEnd : sProp 𝕄 :=
  iprop(FlOut d L cc1_scratch8 cc1_scratch0 44 ∗ FlOut d L cc1_scratch9 cc1_scratch1 45 ∗ FlOut d L cc1_scratch10 cc1_scratch2 46 ∗ FlOut d L cc1_scratch11 cc1_scratch3 47
    ∗ sem0 d L cc1_scratch4 ∗ sem0 d L cc1_scratch5 ∗ sem0 d L cc1_scratch6 ∗ sem0 d L cc1_scratch7
    ∗ bigSep (Finset.range 48) (qB m d L) ∗ bigSep (Finset.range 44) (oB d L))

/-- What the subcore may wait for, and what it owes: unchanged but for the waits recorded. -/
abbrev Owing : sProp 𝕄 :=
  iprop(Transfers.MayWaits (thrV d L) (none : HIx 1) O ∗ ∃ W', ⌜∀ p ∈ W', p ∈ W ∨ p.2 = none⌝ ∗ owes (thrV d L) O W')

def Inv (n : ℕ) (_ : Unit) : sProp 𝕄 :=
  iprop(Owing d L O W ∗ (match n with | 0 => Inv0 m d L | j + 1 => if j < 11 then InvMid m d L j else InvEnd m d L))

theorem Inv_zero (u : Unit) : Inv m d L O W 0 u = iprop(Owing d L O W ∗ Inv0 m d L) := rfl
theorem Inv_mid (j : ℕ) (h : j < 11) (u : Unit) : Inv m d L O W (j + 1) u = iprop(Owing d L O W ∗ InvMid m d L j) := by
  show iprop(_ ∗ (if j < 11 then _ else _)) = _
  rw [if_pos h]
theorem Inv_end (u : Unit) : Inv m d L O W 12 u = iprop(Owing d L O W ∗ InvEnd m d L) := by
  show iprop(_ ∗ (if 11 < 11 then _ else _)) = _
  rw [if_neg (by omega)]

theorem Inv_mid_fun (j : ℕ) (h : j < 11) : Inv m d L O W (j + 1) = fun _ => iprop(Owing d L O W ∗ InvMid m d L j) :=
  funext fun u => Inv_mid m d L O W j h u
theorem Inv_end_fun : Inv m d L O W 12 = fun _ => iprop(Owing d L O W ∗ InvEnd m d L) :=
  funext fun u => Inv_end m d L O W u

omit m in
theorem bigSep_range_push1 (Φ : ℕ → sProp 𝕄) (a a1 : ℕ) (h : a1 = a + 1) : bigSep (Finset.range a1) Φ = iprop(Φ a ∗ bigSep (Finset.range a) Φ) := by
  subst h; exact bigSep_range_push Φ a

omit m in
theorem mem_ins {W' : Waits sig (HIx 1)} (hW' : ∀ p ∈ W', p ∈ W ∨ p.2 = none) (a : SemLoc sig) :
    ∀ p ∈ insert (a, (default : HIx 1)) W', p ∈ W ∨ p.2 = none := by
  intro p hp
  rcases Finset.mem_insert.mp hp with rfl | hp
  · exact .inr rfl
  · exact hW' p hp

omit m in
theorem owes_wrap {W1 : Waits sig (HIx 1)} (h : ∀ p ∈ W1, p ∈ W ∨ p.2 = none) :
    (owes (thrV d L) O W1 : sProp 𝕄) ⊢ iprop(∃ W', ⌜∀ p ∈ W', p ∈ W ∨ p.2 = none⌝ ∗ owes (thrV d L) O W') := by
  iintro H; iexists W1; isplitr
  · ipureintro; exact h
  · iexact H

variable [FloatOps F]

/-- A trip in the middle of the loop (`1 ≤ k ≤ 10`): every guard holds. -/
theorem trip_mid (v2 : BitVec 32) (k : Fin k1_t1_loop.trips) (j : ℕ) (hj : k.val = j + 1) (hk : j < 10) :
    Inv m d L O W (j + 1) () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (Inv m d L O W (j + 1 + 1)) := by
  have h1 : k1_cond1 k = 1#1 := cond1_true k
  have h2 : k1_cond2 k = 1#1 := (cond2_iff k).mpr (by omega)
  have h3 : k1_cond3 k = 1#1 := (cond3_iff k).mpr (by omega)
  have h4 : k1_cond4 k = 1#1 := (cond4_iff k).mpr (by omega)
  have h5 : k1_cond5 k = 1#1 := (cond5_iff k).mpr (by omega)
  have e30 : k1_off3 L k 0#32 = blkOff (tIx L).val (4 * j + 4) := (off3_0 L k).trans (congrArg _ (by omega))
  have e31 : k1_off3 L k 1#32 = blkOff (tIx L).val (4 * j + 5) := (off3_1 L k).trans (congrArg _ (by omega))
  have e32 : k1_off3 L k 2#32 = blkOff (tIx L).val (4 * j + 6) := (off3_2 L k).trans (congrArg _ (by omega))
  have e33 : k1_off3 L k 3#32 = blkOff (tIx L).val (4 * (j + 1) + 3) := (off3_3 L k).trans (congrArg _ (by omega))
  have e33' : k1_off3 L k 3#32 = blkOff (tIx L).val (4 * j + 7) := (off3_3 L k).trans (congrArg _ (by omega))
  have e5 : k1_off5 L k = blkOff (tIx L).val (4 * j + 7) := (off5_eq L k).trans (congrArg _ (by omega))
  have e7 : k1_off7 L k = blkOff (tIx L).val (4 * (j + 1) + 4) := (off7_eq L k).trans (congrArg _ (by omega))
  have e7' : k1_off7 L k = blkOff (tIx L).val (4 * j + 8) := (off7_eq L k).trans (congrArg _ (by omega))
  have e9 : k1_off9 L k = blkOff (tIx L).val (4 * (j + 1) + 5) := (off9_eq L k).trans (congrArg _ (by omega))
  have e9' : k1_off9 L k = blkOff (tIx L).val (4 * j + 9) := (off9_eq L k).trans (congrArg _ (by omega))
  have e11 : k1_off11 L k = blkOff (tIx L).val (4 * (j + 1) + 6) := (off11_eq L k).trans (congrArg _ (by omega))
  have e11' : k1_off11 L k = blkOff (tIx L).val (4 * j + 10) := (off11_eq L k).trans (congrArg _ (by omega))
  rw [Inv_mid m d L O W j (by omega), Inv_mid_fun m d L O W (j + 1) (by omega)]
  iintro ⟨⟨#Hmw, %W', %hW', HO⟩, ⟨%g0, Hs0⟩, ⟨%g1, Hs1⟩, ⟨%g2, Hs2⟩, ⟨%g3, %fo, Ht3⟩, Hs3, Ht0, Ht1, Ht2, HQd, HQt, HOd, HOt⟩
  ihave HQt' := (Entails.of_eq (bigSep_Ico_pop4 (qB m d L) (4 * j + 7) (4 * j + 8) (4 * j + 9) (4 * j + 10) (4 * (j + 1) + 7)
    (by omega) (by omega) (by omega) (by omega) (by omega))) $$ HQt
  icases HQt' with ⟨Hq5, Hq7, Hq9, Hq11, HQt⟩
  ihave HOt' := (Entails.of_eq (bigSep_Ico_pop4 (oB d L) (4 * j + 4) (4 * j + 5) (4 * j + 6) (4 * j + 7) (4 * (j + 1) + 4)
    (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hq7 := (Entails.of_eq (pts_q d L (k1_off7_inb L k h3) e7' (m (qLoc d))).symm) $$ Hq7
  ihave Hq9 := (Entails.of_eq (pts_q d L (k1_off9_inb L k h4) e9' (m (qLoc d))).symm) $$ Hq9
  ihave Hq11 := (Entails.of_eq (pts_q d L (k1_off11_inb L k h5) e11' (m (qLoc d))).symm) $$ Hq11
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33' fd).symm) $$ Hod
  sl_unfold [k1_t1_body]
  sl_exec
  sl_step
  ihave He := (Entails.of_eq (pts_buf_rest d L cc1_scratch3 _)) $$ Ht3_src
  iclear He
  isplitl [HO]
  · isplitr; · iexact Hmw
    iapply (owes_wrap d L O W ?hW) $$ HO
    case hW => repeat (first | exact hW' | refine mem_ins W ?_ _)
  isplitl [Hs0]; · iapply (FlIn_intro m d L cc1_scratch4 cc1_scratch0 (k1_off7_inb L k h3) e7 _); iexact Hs0
  isplitl [Hs1]; · iapply (FlIn_intro m d L cc1_scratch5 cc1_scratch1 (k1_off9_inb L k h4) e9 _); iexact Hs1
  isplitl [Hs2]; · iapply (FlIn_intro m d L cc1_scratch6 cc1_scratch2 (k1_off11_inb L k h5) e11 _); iexact Hs2
  isplitl [Ht3]; · iapply (FlOut_intro d L cc1_scratch11 cc1_scratch3 (k1_off3_inb L k 3) e33 _ _); iexact Ht3
  isplitl [Hs3]; · iexact Hs3
  isplitl [Ht0]; · iexact Ht0
  isplitl [Ht1]; · iexact Ht1
  isplitl [Ht2]; · iexact Ht2
  isplitl [HQd Hs0_src Hs1_src Hs2_src Hq5]
  · iapply (Entails.of_eq (bigSep_range_push4 (qB m d L) (4 * j + 4) (4 * j + 5) (4 * j + 6) (4 * j + 7) (4 * (j + 1) + 4)
      (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  isplitl [HQt]; · iexact HQt
  isplitl [HOd Ht3_dst Hoa Hob Hoc]
  · iapply (Entails.of_eq (bigSep_range_push4 (oB d L) (4 * j + 3) (4 * j + 4) (4 * j + 5) (4 * j + 6) (4 * (j + 1) + 3)
      (by omega) (by omega) (by omega) (by omega)).symm)
    isplitl [Hoc]; · iexists _; iapply (Entails.of_eq (pts_o d L (k1_off3_inb L k 2) e32 _)); iexact Hoc
    isplitl [Hob]; · iexists _; iapply (Entails.of_eq (pts_o d L (k1_off3_inb L k 1) e31 _)); iexact Hob
    isplitl [Hoa]; · iexists _; iapply (Entails.of_eq (pts_o d L (k1_off3_inb L k 0) e30 _)); iexact Hoa
    isplitl [Ht3_dst]; · iexists _; iexact Ht3_dst
    iexact HOd
  iexact HOt

/-- The first trip: nothing to wait for on buffer 3 yet. -/
theorem trip_zero (v2 : BitVec 32) (k : Fin k1_t1_loop.trips) (hk : k.val = 0) :
    Inv m d L O W 0 () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (Inv m d L O W (0 + 1)) := by
  have h1 : k1_cond1 k = 1#1 := cond1_true k
  have h2 : ¬ k1_cond2 k = 1#1 := fun h => by have := (cond2_iff k).mp h; omega
  have h3 : k1_cond3 k = 1#1 := (cond3_iff k).mpr (by omega)
  have h4 : k1_cond4 k = 1#1 := (cond4_iff k).mpr (by omega)
  have h5 : k1_cond5 k = 1#1 := (cond5_iff k).mpr (by omega)
  have e30 : k1_off3 L k 0#32 = blkOff (tIx L).val 0 := (off3_0 L k).trans (congrArg _ (by omega))
  have e31 : k1_off3 L k 1#32 = blkOff (tIx L).val 1 := (off3_1 L k).trans (congrArg _ (by omega))
  have e32 : k1_off3 L k 2#32 = blkOff (tIx L).val 2 := (off3_2 L k).trans (congrArg _ (by omega))
  have e33 : k1_off3 L k 3#32 = blkOff (tIx L).val (4 * 0 + 3) := (off3_3 L k).trans (congrArg _ (by omega))
  have e33' : k1_off3 L k 3#32 = blkOff (tIx L).val 3 := (off3_3 L k).trans (congrArg _ (by omega))
  have e5 : k1_off5 L k = blkOff (tIx L).val 3 := (off5_eq L k).trans (congrArg _ (by omega))
  have e7 : k1_off7 L k = blkOff (tIx L).val (4 * 0 + 4) := (off7_eq L k).trans (congrArg _ (by omega))
  have e7' : k1_off7 L k = blkOff (tIx L).val 4 := (off7_eq L k).trans (congrArg _ (by omega))
  have e9 : k1_off9 L k = blkOff (tIx L).val (4 * 0 + 5) := (off9_eq L k).trans (congrArg _ (by omega))
  have e9' : k1_off9 L k = blkOff (tIx L).val 5 := (off9_eq L k).trans (congrArg _ (by omega))
  have e11 : k1_off11 L k = blkOff (tIx L).val (4 * 0 + 6) := (off11_eq L k).trans (congrArg _ (by omega))
  have e11' : k1_off11 L k = blkOff (tIx L).val 6 := (off11_eq L k).trans (congrArg _ (by omega))
  rw [Inv_zero m d L O W, Inv_mid_fun m d L O W 0 (by omega)]
  iintro ⟨⟨#Hmw, %W', %hW', HO⟩, ⟨%g0, Hs0⟩, ⟨%g1, Hs1⟩, ⟨%g2, Hs2⟩, ⟨%g3, Hb3⟩, Ht3, Hs3, Ht0, Ht1, Ht2, HQd, HQt, HOd, HOt⟩
  ihave HQt' := (Entails.of_eq (bigSep_Ico_pop4 (qB m d L) 3 4 5 6 (4 * 0 + 7) (by omega) (by omega) (by omega) (by omega) (by omega))) $$ HQt
  icases HQt' with ⟨Hq5, Hq7, Hq9, Hq11, HQt⟩
  ihave HOt' := (Entails.of_eq (bigSep_Ico_pop4 (oB d L) 0 1 2 3 (4 * 0 + 4) (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hq7 := (Entails.of_eq (pts_q d L (k1_off7_inb L k h3) e7' (m (qLoc d))).symm) $$ Hq7
  ihave Hq9 := (Entails.of_eq (pts_q d L (k1_off9_inb L k h4) e9' (m (qLoc d))).symm) $$ Hq9
  ihave Hq11 := (Entails.of_eq (pts_q d L (k1_off11_inb L k h5) e11' (m (qLoc d))).symm) $$ Hq11
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33' fd).symm) $$ Hod
  sl_unfold [k1_t1_body]
  sl_exec
  sl_step
  ihave He := (Entails.of_eq (pts_buf_rest d L cc1_scratch3 _)) $$ Hb3
  iclear He
  isplitl [HO]
  · isplitr; · iexact Hmw
    iapply (owes_wrap d L O W ?hW) $$ HO
    case hW => repeat (first | exact hW' | refine mem_ins W ?_ _)
  isplitl [Hs0]; · iapply (FlIn_intro m d L cc1_scratch4 cc1_scratch0 (k1_off7_inb L k h3) e7 _); iexact Hs0
  isplitl [Hs1]; · iapply (FlIn_intro m d L cc1_scratch5 cc1_scratch1 (k1_off9_inb L k h4) e9 _); iexact Hs1
  isplitl [Hs2]; · iapply (FlIn_intro m d L cc1_scratch6 cc1_scratch2 (k1_off11_inb L k h5) e11 _); iexact Hs2
  isplitl [Ht3]; · iapply (FlOut_intro d L cc1_scratch11 cc1_scratch3 (k1_off3_inb L k 3) e33 _ _); iexact Ht3
  isplitl [Hs3]; · iexact Hs3
  isplitl [Ht0]; · iexact Ht0
  isplitl [Ht1]; · iexact Ht1
  isplitl [Ht2]; · iexact Ht2
  isplitl [HQd Hs0_src Hs1_src Hs2_src Hq5]
  · iapply (Entails.of_eq (bigSep_range_push4 (qB m d L) 0 1 2 3 (4 * 0 + 4) (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  isplitl [HQt]; · iexact HQt
  isplitl [HOd Hoa Hob Hoc]
  · iapply (Entails.of_eq (bigSep_range_push3 (oB d L) 0 1 2 (4 * 0 + 3) (by omega) (by omega) (by omega)).symm)
    isplitl [Hoc]; · iexists _; iapply (Entails.of_eq (pts_o d L (k1_off3_inb L k 2) e32 _)); iexact Hoc
    isplitl [Hob]; · iexists _; iapply (Entails.of_eq (pts_o d L (k1_off3_inb L k 1) e31 _)); iexact Hob
    isplitl [Hoa]; · iexists _; iapply (Entails.of_eq (pts_o d L (k1_off3_inb L k 0) e30 _)); iexact Hoa
    iexact HOd
  iexact HOt

/-- The last trip: no block is left to copy in, and the last three copies out are left outstanding. -/
theorem trip_last (v2 : BitVec 32) (k : Fin k1_t1_loop.trips) (hk : k.val = 11) :
    Inv m d L O W (10 + 1) () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (Inv m d L O W 12) := by
  have h1 : k1_cond1 k = 1#1 := cond1_true k
  have h2 : k1_cond2 k = 1#1 := (cond2_iff k).mpr (by omega)
  have h3 : ¬ k1_cond3 k = 1#1 := fun h => by have := (cond3_iff k).mp h; omega
  have h4 : ¬ k1_cond4 k = 1#1 := fun h => by have := (cond4_iff k).mp h; omega
  have h5 : ¬ k1_cond5 k = 1#1 := fun h => by have := (cond5_iff k).mp h; omega
  have e30 : k1_off3 L k 0#32 = blkOff (tIx L).val 44 := (off3_0 L k).trans (congrArg _ (by omega))
  have e31 : k1_off3 L k 1#32 = blkOff (tIx L).val 45 := (off3_1 L k).trans (congrArg _ (by omega))
  have e32 : k1_off3 L k 2#32 = blkOff (tIx L).val 46 := (off3_2 L k).trans (congrArg _ (by omega))
  have e33 : k1_off3 L k 3#32 = blkOff (tIx L).val 47 := (off3_3 L k).trans (congrArg _ (by omega))
  have e5 : k1_off5 L k = blkOff (tIx L).val 47 := (off5_eq L k).trans (congrArg _ (by omega))
  rw [Inv_mid m d L O W 10 (by omega), Inv_end_fun m d L O W]
  iintro ⟨⟨#Hmw, %W', %hW', HO⟩, ⟨%g0, Hs0⟩, ⟨%g1, Hs1⟩, ⟨%g2, Hs2⟩, ⟨%g3, %fo, Ht3⟩, Hs3, Ht0, Ht1, Ht2, HQd, HQt, HOd, HOt⟩
  ihave HQt' := (Entails.of_eq (bigSep_Ico_pop (qB m d L) (by omega : 4 * 10 + 7 < 48))) $$ HQt
  icases HQt' with ⟨Hq5, HQt⟩
  ihave HOt' := (Entails.of_eq (bigSep_Ico_pop4 (oB d L) 44 45 46 47 48 (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33 fd).symm) $$ Hod
  sl_unfold [k1_t1_body]
  sl_exec
  sl_step
  ihave He := (Entails.of_eq (pts_buf_rest d L cc1_scratch3 _)) $$ Ht3_src
  iclear He
  ihave He := (Entails.of_eq (pts_buf_rest d L cc1_scratch0 _)) $$ Hs0_dst
  iclear He
  ihave He := (Entails.of_eq (pts_buf_rest d L cc1_scratch1 _)) $$ Hs1_dst
  iclear He
  ihave He := (Entails.of_eq (pts_buf_rest d L cc1_scratch2 _)) $$ Hs2_dst
  iclear He
  ihave He := (Entails.of_eq (bigSep_Ico_self (qB m d L) (by omega : 48 ≤ 4 * 10 + 7 + 1))) $$ HQt
  iclear He
  ihave He := (Entails.of_eq (bigSep_Ico_self (oB d L) (by omega : 48 ≤ 48))) $$ HOt
  iclear He
  isplitl [HO]
  · isplitr; · iexact Hmw
    iapply (owes_wrap d L O W ?hW) $$ HO
    case hW => repeat (first | exact hW' | refine mem_ins W ?_ _)
  isplitl [Ht0]; · iapply (FlOut_intro d L cc1_scratch8 cc1_scratch0 (k1_off3_inb L k 0) e30 _ _); iexact Ht0
  isplitl [Ht1]; · iapply (FlOut_intro d L cc1_scratch9 cc1_scratch1 (k1_off3_inb L k 1) e31 _ _); iexact Ht1
  isplitl [Ht2]; · iapply (FlOut_intro d L cc1_scratch10 cc1_scratch2 (k1_off3_inb L k 2) e32 _ _); iexact Ht2
  isplitl [Ht3]; · iapply (FlOut_intro d L cc1_scratch11 cc1_scratch3 (k1_off3_inb L k 3) e33 _ _); iexact Ht3
  isplitl [Hs0]; · iexact Hs0
  isplitl [Hs1]; · iexact Hs1
  isplitl [Hs2]; · iexact Hs2
  isplitl [Hs3]; · iexact Hs3
  isplitl [HQd Hs0_src Hs1_src Hs2_src Hq5]
  · iapply (Entails.of_eq (bigSep_range_push4 (qB m d L) (4 * 10 + 4) (4 * 10 + 5) (4 * 10 + 6) 47 48 (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  iapply (Entails.of_eq (bigSep_range_push1 (oB d L) (4 * 10 + 3) 44 (by omega)).symm)
  isplitl [Ht3_dst]; · iexists _; iexact Ht3_dst
  iexact HOd

end Body

end Cert.KernelIdeal.Hand

end
-- ==== Proof.ScTileVA.lean ====
/-
  What the copies of one vector subcore's task carry. A copy in lands the queue's block in a scratch buffer whatever
  the buffer held; a copy out of a buffer that holds the queue's block `n` leaves the copy's block `n` — the same row,
  the same columns — holding the queue's words. This module states those two facts about contents read and written
  through the program's views, restates the loop's invariant with them — an outstanding copy in lands the block it
  names, an outstanding copy out lands the queue's words, every finished block of the copy holds the queue's words —
  and proves again that the first trip, a trip in the middle and the last trip of the loop each carry the invariant to
  the next.
-/
import proofs.«211565_g20684562498226_cont_8to1_684_24_alg».proof.Proof.Setup
import proofs.«211565_g20684562498226_cont_8to1_684_24_alg».proof.Proof.ScTileB

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## What the copies carry -/

section Val

variable (d : Dev nD) (L : grid1.Coords)

set_option maxRecDepth 65536 in
/-- The scratch buffer `B`, at contents `g`, holds the queue's block `n`: read through `B`, the contents are the
    launch contents of the queue read through the block. -/
def HoldsQ (B : Memref sig .scVector .vmem S30720 .f32) (g : Buf (Elt F) (B.view.loc (thrV d L))) (n : ℕ) : Prop :=
  ∃ (off : Fin 2 → ℕ) (h : ∀ a, off a + S1x30720.size a ≤ S768x65536.size a), off = blkOff (tIx L).val n
    ∧ B.view.read (Elt F) g = (blkOf qV off h).view.read (Elt F) (m (qLoc d))

set_option maxRecDepth 65536 in
/-- A copy in lands the block: whatever the buffer held, it now holds the block. -/
theorem holdsQ_of_write (B : Memref sig .scVector .vmem S30720 .f32) (g₀ : Buf (Elt F) (B.view.loc (thrV d L)))
    {off : Fin 2 → ℕ} (h : ∀ a, off a + S1x30720.size a ≤ S768x65536.size a) {n : ℕ} (e : off = blkOff (tIx L).val n)
    (P : S30720.Idx → Elt F .f32) (hP : P = (blkOf qV off h).view.read (Elt F) (m (qLoc d))) :
    HoldsQ m d L B (View.write (Elt F) B.view g₀ P Finset.univ) n :=
  ⟨off, h, e, (View.read_write_univ (v := B.view) g₀ P).trans hP⟩

set_option maxRecDepth 65536 in
/-- A block of the copy, after a buffer holding the queue's block of the same place has been copied onto it, holds the
    queue's words there. -/
theorem out_lands {off off' : Fin 2 → ℕ} (h : ∀ a, off a + S1x30720.size a ≤ S768x65536.size a)
    (h' : ∀ a, off' a + S1x30720.size a ≤ S768x65536.size a) (e : off' = off) (fa : Buf (Elt F) (oLoc d))
    (P : S30720.Idx → Elt F .f32) (hP : P = (blkOf qV off' h').view.read (Elt F) (m (qLoc d))) :
    ∀ idx ∈ (blkOf oV off h).view.set,
      ((blkOf oV off h).view.writes (Elt F) fa [⟨Rect.whole S30720, P⟩]) idx = m (qLoc d) idx := by
  subst e hP
  intro idx hidx
  obtain ⟨y, -, rfl⟩ := Finset.mem_map.mp hidx
  have hw := View.read_writes_cons_emb (v := (blkOf oV off' h).view) (f := fa) (Rect.whole S30720)
    ((blkOf qV off' h').view.read (Elt F) (m (qLoc d))) [] y
  rw [Rect.emb_whole_apply] at hw
  calc ((blkOf oV off' h).view.writes (Elt F) fa [⟨Rect.whole S30720, (blkOf qV off' h').view.read (Elt F) (m (qLoc d))⟩]) ((blkOf oV off' h).view.emb y)
      = (blkOf oV off' h).view.read (Elt F) ((blkOf oV off' h).view.writes (Elt F) fa [⟨Rect.whole S30720, (blkOf qV off' h').view.read (Elt F) (m (qLoc d))⟩]) y :=
        ((View.read_apply _ _).trans (cast_eq _ _)).symm
    _ = (blkOf qV off' h').view.read (Elt F) (m (qLoc d)) y := hw
    _ = m (qLoc d) ((blkOf qV off' h').view.emb y) := (View.read_apply _ _).trans (cast_eq _ _)
    _ = m (qLoc d) ((blkOf oV off' h).view.emb y) := rfl

end Val

section BodyV

variable (d : Dev nD) (L : grid1.Coords) (O : CellTallies nD τ sig (HIx 1)) (W : Waits sig (HIx 1))

/-- Block `n` of the copy, finished: it holds the queue's words. -/
abbrev oBV (n : ℕ) : sProp 𝕄 :=
  iprop(∃ f, ⌜∀ idx ∈ blkSet (tIx L).val n, f idx = m (qLoc d) idx⌝ ∗ oLoc d ↦[blkSet (tIx L).val n]{fullShare} f)

/-- The copy IN of the queue's block `n` into the scratch buffer `B`, outstanding on `sm`: what lands is the block. -/
abbrev FlInV (sm : DmaSems sig S_) (B : Memref sig .scVector .vmem S30720 .f32) (n : ℕ) : sProp 𝕄 :=
  iprop(∃ g, ⌜HoldsQ m d L B g n⌝ ∗ Transfers.Flight countersEmb (thrV d L) (SemLoc.dma sm.sem) default 983040
    iprop((B.view.loc (thrV d L) ↦{fullShare} g) ∗ qB m d L n))
/-- The copy OUT of the scratch buffer `B`, which holds the queue's block `n`, onto the copy's block `n`. -/
abbrev FlOutV (sm : DmaSems sig S_) (B : Memref sig .scVector .vmem S30720 .f32) (n : ℕ) : sProp 𝕄 :=
  iprop(∃ g fo, ⌜∀ idx ∈ blkSet (tIx L).val n, fo idx = m (qLoc d) idx⌝ ∗ Transfers.Flight countersEmb (thrV d L) (SemLoc.dma sm.sem) default 983040
    iprop((oLoc d ↦[blkSet (tIx L).val n]{fullShare} fo) ∗ (B.view.loc (thrV d L) ↦{fullShare} g)))

set_option maxRecDepth 65536 in
theorem FlInV_intro (sm : DmaSems sig S_) (B : Memref sig .scVector .vmem S30720 .f32) {off : Fin 2 → ℕ} (h : ∀ a, off a + S1x30720.size a ≤ S768x65536.size a) {n : ℕ}
    (e : off = blkOff (tIx L).val n) (g₀ : Buf (Elt F) (B.view.loc (thrV d L))) (P : S30720.Idx → Elt F .f32)
    (hP : P = (blkOf qV off h).view.read (Elt F) (m (qLoc d))) :
    (Transfers.Flight countersEmb (thrV d L) (SemLoc.dma sm.sem) default 983040
      iprop((B.view.loc (thrV d L) ↦{fullShare} View.write (Elt F) B.view g₀ P Finset.univ)
        ∗ ((blkOf qV off h).view.loc (thrV d L) ↦[(blkOf qV off h).view.set]{fullShare} m (qLoc d))) : sProp 𝕄) ⊢ FlInV m d L sm B n := by
  rw [pts_q d L h e]
  iintro H; iexists _; isplitr
  · ipureintro; exact holdsQ_of_write m d L B g₀ h e P hP
  · iexact H

set_option maxRecDepth 65536 in
theorem FlOutV_intro (sm : DmaSems sig S_) (B : Memref sig .scVector .vmem S30720 .f32) (hB : B.view.set = Finset.univ)
    {off : Fin 2 → ℕ} (h : ∀ a, off a + S1x30720.size a ≤ S768x65536.size a) {n : ℕ}
    (e : off = blkOff (tIx L).val n) (g : Buf (Elt F) (B.view.loc (thrV d L))) (hg : HoldsQ m d L B g n) (fa : Buf (Elt F) (oLoc d))
    (P : S30720.Idx → Elt F .f32) (hP : P = B.view.read (Elt F) g) :
    (Transfers.Flight countersEmb (thrV d L) (SemLoc.dma sm.sem) default 983040
      iprop(((blkOf oV off h).view.loc (thrV d L) ↦[(blkOf oV off h).view.set]{fullShare} (blkOf oV off h).view.writes (Elt F) fa [⟨Rect.whole S30720, P⟩])
        ∗ (B.view.loc (thrV d L) ↦[B.view.set]{fullShare} g)) : sProp 𝕄)
      ⊢ FlOutV m d L sm B n := by
  obtain ⟨off', h', e', hr⟩ := hg
  have key := out_lands m d h h' (e'.trans e.symm) fa P (hP.trans hr)
  rw [set_blkOf_o L h e] at key
  rw [pts_o d L h e, hB]
  iintro H; iexists g, _; isplitr
  · ipureintro; exact key
  · iexact H

set_option maxRecDepth 65536 in
/-- A block of the copy handed back by the wait for its copy out, finished. -/
theorem oBV_of_blk (B : Memref sig .scVector .vmem S30720 .f32) {off : Fin 2 → ℕ} (h : ∀ a, off a + S1x30720.size a ≤ S768x65536.size a) {n : ℕ}
    (e : off = blkOff (tIx L).val n) (g : Buf (Elt F) (B.view.loc (thrV d L))) (hg : HoldsQ m d L B g n) (fa : Buf (Elt F) (oLoc d))
    (P : S30720.Idx → Elt F .f32) (hP : P = B.view.read (Elt F) g) :
    ((blkOf oV off h).view.loc (thrV d L) ↦[(blkOf oV off h).view.set]{fullShare} (blkOf oV off h).view.writes (Elt F) fa [⟨Rect.whole S30720, P⟩] : sProp 𝕄)
      ⊢ oBV m d L n := by
  obtain ⟨off', h', e', hr⟩ := hg
  have key := out_lands m d h h' (e'.trans e.symm) fa P (hP.trans hr)
  rw [set_blkOf_o L h e] at key
  rw [pts_o d L h e]
  iintro H; iexists _; isplitr
  · ipureintro; exact key
  · iexact H

abbrev Inv0V : sProp 𝕄 :=
  iprop(FlInV m d L cc1_scratch4 b0 0 ∗ FlInV m d L cc1_scratch5 b1 1 ∗ FlInV m d L cc1_scratch6 b2 2
    ∗ (∃ g, (b3).view.loc (thrV d L) ↦{fullShare} g) ∗ sem0 d L cc1_scratch11
    ∗ sem0 d L cc1_scratch7 ∗ sem0 d L cc1_scratch8 ∗ sem0 d L cc1_scratch9 ∗ sem0 d L cc1_scratch10
    ∗ bigSep (Finset.range 0) (qB m d L) ∗ bigSep (Finset.Ico 3 48) (qB m d L) ∗ bigSep (Finset.range 0) (oBV m d L) ∗ bigSep (Finset.Ico 0 48) (oB d L))

abbrev InvMidV (j : ℕ) : sProp 𝕄 :=
  iprop(FlInV m d L cc1_scratch4 b0 (4 * j + 4) ∗ FlInV m d L cc1_scratch5 b1 (4 * j + 5) ∗ FlInV m d L cc1_scratch6 b2 (4 * j + 6)
    ∗ FlOutV m d L cc1_scratch11 b3 (4 * j + 3)
    ∗ sem0 d L cc1_scratch7 ∗ sem0 d L cc1_scratch8 ∗ sem0 d L cc1_scratch9 ∗ sem0 d L cc1_scratch10
    ∗ bigSep (Finset.range (4 * j + 4)) (qB m d L) ∗ bigSep (Finset.Ico (4 * j + 7) 48) (qB m d L)
    ∗ bigSep (Finset.range (4 * j + 3)) (oBV m d L) ∗ bigSep (Finset.Ico (4 * j + 4) 48) (oB d L))

abbrev InvEndV : sProp 𝕄 :=
  iprop(FlOutV m d L cc1_scratch8 b0 (4 * 10 + 4) ∗ FlOutV m d L cc1_scratch9 b1 (4 * 10 + 5) ∗ FlOutV m d L cc1_scratch10 b2 (4 * 10 + 6) ∗ FlOutV m d L cc1_scratch11 b3 47
    ∗ sem0 d L cc1_scratch4 ∗ sem0 d L cc1_scratch5 ∗ sem0 d L cc1_scratch6 ∗ sem0 d L cc1_scratch7
    ∗ bigSep (Finset.range 48) (qB m d L) ∗ bigSep (Finset.range 44) (oBV m d L))

def InvV (n : ℕ) (_ : Unit) : sProp 𝕄 :=
  iprop(Owing d L O W ∗ (match n with | 0 => Inv0V m d L | j + 1 => if j < 11 then InvMidV m d L j else InvEndV m d L))

theorem InvV_zero (u : Unit) : InvV m d L O W 0 u = iprop(Owing d L O W ∗ Inv0V m d L) := rfl
theorem InvV_mid (j : ℕ) (h : j < 11) (u : Unit) : InvV m d L O W (j + 1) u = iprop(Owing d L O W ∗ InvMidV m d L j) := by
  show iprop(_ ∗ (if j < 11 then _ else _)) = _
  rw [if_pos h]
theorem InvV_end (u : Unit) : InvV m d L O W 12 u = iprop(Owing d L O W ∗ InvEndV m d L) := by
  show iprop(_ ∗ (if 11 < 11 then _ else _)) = _
  rw [if_neg (by omega)]
theorem InvV_mid_fun (j : ℕ) (h : j < 11) : InvV m d L O W (j + 1) = fun _ => iprop(Owing d L O W ∗ InvMidV m d L j) :=
  funext fun u => InvV_mid m d L O W j h u
theorem InvV_end_fun : InvV m d L O W 12 = fun _ => iprop(Owing d L O W ∗ InvEndV m d L) :=
  funext fun u => InvV_end m d L O W u

variable [FloatOps F]

/-- A trip in the middle of the loop (`1 ≤ k ≤ 10`): every guard holds. -/
theorem trip_midV (v2 : BitVec 32) (k : Fin k1_t1_loop.trips) (j : ℕ) (hj : k.val = j + 1) (hk : j < 10) :
    InvV m d L O W (j + 1) () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (InvV m d L O W (j + 1 + 1)) := by
  have h1 : k1_cond1 k = 1#1 := cond1_true k
  have h2 : k1_cond2 k = 1#1 := (cond2_iff k).mpr (by omega)
  have h3 : k1_cond3 k = 1#1 := (cond3_iff k).mpr (by omega)
  have h4 : k1_cond4 k = 1#1 := (cond4_iff k).mpr (by omega)
  have h5 : k1_cond5 k = 1#1 := (cond5_iff k).mpr (by omega)
  have e30 : k1_off3 L k 0#32 = blkOff (tIx L).val (4 * j + 4) := (off3_0 L k).trans (congrArg _ (by omega))
  have e31 : k1_off3 L k 1#32 = blkOff (tIx L).val (4 * j + 5) := (off3_1 L k).trans (congrArg _ (by omega))
  have e32 : k1_off3 L k 2#32 = blkOff (tIx L).val (4 * j + 6) := (off3_2 L k).trans (congrArg _ (by omega))
  have e33 : k1_off3 L k 3#32 = blkOff (tIx L).val (4 * (j + 1) + 3) := (off3_3 L k).trans (congrArg _ (by omega))
  have e33' : k1_off3 L k 3#32 = blkOff (tIx L).val (4 * j + 7) := (off3_3 L k).trans (congrArg _ (by omega))
  have e5n : k1_off5 L k = blkOff (tIx L).val (4 * (j + 1) + 3) := (off5_eq L k).trans (congrArg _ (by omega))
  have e5 : k1_off5 L k = blkOff (tIx L).val (4 * j + 7) := (off5_eq L k).trans (congrArg _ (by omega))
  have e7 : k1_off7 L k = blkOff (tIx L).val (4 * (j + 1) + 4) := (off7_eq L k).trans (congrArg _ (by omega))
  have e7' : k1_off7 L k = blkOff (tIx L).val (4 * j + 8) := (off7_eq L k).trans (congrArg _ (by omega))
  have e9 : k1_off9 L k = blkOff (tIx L).val (4 * (j + 1) + 5) := (off9_eq L k).trans (congrArg _ (by omega))
  have e9' : k1_off9 L k = blkOff (tIx L).val (4 * j + 9) := (off9_eq L k).trans (congrArg _ (by omega))
  have e11 : k1_off11 L k = blkOff (tIx L).val (4 * (j + 1) + 6) := (off11_eq L k).trans (congrArg _ (by omega))
  have e11' : k1_off11 L k = blkOff (tIx L).val (4 * j + 10) := (off11_eq L k).trans (congrArg _ (by omega))
  rw [InvV_mid m d L O W j (by omega), InvV_mid_fun m d L O W (j + 1) (by omega)]
  iintro ⟨⟨#Hmw, %W', %hW', HO⟩, ⟨%g0, %hg0, Hs0⟩, ⟨%g1, %hg1, Hs1⟩, ⟨%g2, %hg2, Hs2⟩, ⟨%g3, %fo, %hfo, Ht3⟩, Hs3, Ht0, Ht1, Ht2, HQd, HQt, HOd, HOt⟩
  ihave HQt' := (Entails.of_eq (bigSep_Ico_pop4 (qB m d L) (4 * j + 7) (4 * j + 8) (4 * j + 9) (4 * j + 10) (4 * (j + 1) + 7)
    (by omega) (by omega) (by omega) (by omega) (by omega))) $$ HQt
  icases HQt' with ⟨Hq5, Hq7, Hq9, Hq11, HQt⟩
  ihave HOt' := (Entails.of_eq (bigSep_Ico_pop4 (oB d L) (4 * j + 4) (4 * j + 5) (4 * j + 6) (4 * j + 7) (4 * (j + 1) + 4)
    (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hq7 := (Entails.of_eq (pts_q d L (k1_off7_inb L k h3) e7' (m (qLoc d))).symm) $$ Hq7
  ihave Hq9 := (Entails.of_eq (pts_q d L (k1_off9_inb L k h4) e9' (m (qLoc d))).symm) $$ Hq9
  ihave Hq11 := (Entails.of_eq (pts_q d L (k1_off11_inb L k h5) e11' (m (qLoc d))).symm) $$ Hq11
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33' fd).symm) $$ Hod
  sl_unfold [k1_t1_body]
  sl_exec
  sl_step
  ihave He := (Entails.of_eq (pts_buf_rest d L cc1_scratch3 _)) $$ Ht3_src
  iclear He
  isplitl [HO]
  · isplitr; · iexact Hmw
    iapply (owes_wrap d L O W ?hW) $$ HO
    case hW => repeat (first | exact hW' | refine mem_ins W ?_ _)
  isplitl [Hs0]; · iapply (FlInV_intro m d L cc1_scratch4 b0 (k1_off7_inb L k h3) e7 _ _ rfl); iexact Hs0
  isplitl [Hs1]; · iapply (FlInV_intro m d L cc1_scratch5 b1 (k1_off9_inb L k h4) e9 _ _ rfl); iexact Hs1
  isplitl [Hs2]; · iapply (FlInV_intro m d L cc1_scratch6 b2 (k1_off11_inb L k h5) e11 _ _ rfl); iexact Hs2
  isplitl [Ht3]; · iapply (FlOutV_intro m d L cc1_scratch11 b3 (View.set_whole _) (k1_off3_inb L k 3) e33 _ (holdsQ_of_write m d L b3 _ (k1_off5_inb L k h1) e5n _ rfl) _ _ rfl); iexact Ht3
  isplitl [Hs3]; · iexact Hs3
  isplitl [Ht0]; · iexact Ht0
  isplitl [Ht1]; · iexact Ht1
  isplitl [Ht2]; · iexact Ht2
  isplitl [HQd Hs0_src Hs1_src Hs2_src Hq5]
  · iapply (Entails.of_eq (bigSep_range_push4 (qB m d L) (4 * j + 4) (4 * j + 5) (4 * j + 6) (4 * j + 7) (4 * (j + 1) + 4)
      (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  isplitl [HQt]; · iexact HQt
  isplitl [HOd Ht3_dst Hoa Hob Hoc]
  · iapply (Entails.of_eq (bigSep_range_push4 (oBV m d L) (4 * j + 3) (4 * j + 4) (4 * j + 5) (4 * j + 6) (4 * (j + 1) + 3)
      (by omega) (by omega) (by omega) (by omega)).symm)
    isplitl [Hoc]; · iapply (oBV_of_blk m d L b2 (k1_off3_inb L k 2) e32 g2 hg2 _ _ rfl); iexact Hoc
    isplitl [Hob]; · iapply (oBV_of_blk m d L b1 (k1_off3_inb L k 1) e31 g1 hg1 _ _ rfl); iexact Hob
    isplitl [Hoa]; · iapply (oBV_of_blk m d L b0 (k1_off3_inb L k 0) e30 g0 hg0 _ _ rfl); iexact Hoa
    isplitl [Ht3_dst]
    · iexists fo; isplitr
      · ipureintro; exact hfo
      · iexact Ht3_dst
    iexact HOd
  iexact HOt

/-- The first trip: nothing to wait for on buffer 3 yet. -/
theorem trip_zeroV (v2 : BitVec 32) (k : Fin k1_t1_loop.trips) (hk : k.val = 0) :
    InvV m d L O W 0 () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (InvV m d L O W (0 + 1)) := by
  have h1 : k1_cond1 k = 1#1 := cond1_true k
  have h2 : ¬ k1_cond2 k = 1#1 := fun h => by have := (cond2_iff k).mp h; omega
  have h3 : k1_cond3 k = 1#1 := (cond3_iff k).mpr (by omega)
  have h4 : k1_cond4 k = 1#1 := (cond4_iff k).mpr (by omega)
  have h5 : k1_cond5 k = 1#1 := (cond5_iff k).mpr (by omega)
  have e30 : k1_off3 L k 0#32 = blkOff (tIx L).val 0 := (off3_0 L k).trans (congrArg _ (by omega))
  have e31 : k1_off3 L k 1#32 = blkOff (tIx L).val 1 := (off3_1 L k).trans (congrArg _ (by omega))
  have e32 : k1_off3 L k 2#32 = blkOff (tIx L).val 2 := (off3_2 L k).trans (congrArg _ (by omega))
  have e33 : k1_off3 L k 3#32 = blkOff (tIx L).val (4 * 0 + 3) := (off3_3 L k).trans (congrArg _ (by omega))
  have e33' : k1_off3 L k 3#32 = blkOff (tIx L).val 3 := (off3_3 L k).trans (congrArg _ (by omega))
  have e5n : k1_off5 L k = blkOff (tIx L).val (4 * 0 + 3) := (off5_eq L k).trans (congrArg _ (by omega))
  have e5 : k1_off5 L k = blkOff (tIx L).val 3 := (off5_eq L k).trans (congrArg _ (by omega))
  have e7 : k1_off7 L k = blkOff (tIx L).val (4 * 0 + 4) := (off7_eq L k).trans (congrArg _ (by omega))
  have e7' : k1_off7 L k = blkOff (tIx L).val 4 := (off7_eq L k).trans (congrArg _ (by omega))
  have e9 : k1_off9 L k = blkOff (tIx L).val (4 * 0 + 5) := (off9_eq L k).trans (congrArg _ (by omega))
  have e9' : k1_off9 L k = blkOff (tIx L).val 5 := (off9_eq L k).trans (congrArg _ (by omega))
  have e11 : k1_off11 L k = blkOff (tIx L).val (4 * 0 + 6) := (off11_eq L k).trans (congrArg _ (by omega))
  have e11' : k1_off11 L k = blkOff (tIx L).val 6 := (off11_eq L k).trans (congrArg _ (by omega))
  rw [InvV_zero m d L O W, InvV_mid_fun m d L O W 0 (by omega)]
  iintro ⟨⟨#Hmw, %W', %hW', HO⟩, ⟨%g0, %hg0, Hs0⟩, ⟨%g1, %hg1, Hs1⟩, ⟨%g2, %hg2, Hs2⟩, ⟨%g3, Hb3⟩, Ht3, Hs3, Ht0, Ht1, Ht2, HQd, HQt, HOd, HOt⟩
  ihave HQt' := (Entails.of_eq (bigSep_Ico_pop4 (qB m d L) 3 4 5 6 (4 * 0 + 7) (by omega) (by omega) (by omega) (by omega) (by omega))) $$ HQt
  icases HQt' with ⟨Hq5, Hq7, Hq9, Hq11, HQt⟩
  ihave HOt' := (Entails.of_eq (bigSep_Ico_pop4 (oB d L) 0 1 2 3 (4 * 0 + 4) (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hq7 := (Entails.of_eq (pts_q d L (k1_off7_inb L k h3) e7' (m (qLoc d))).symm) $$ Hq7
  ihave Hq9 := (Entails.of_eq (pts_q d L (k1_off9_inb L k h4) e9' (m (qLoc d))).symm) $$ Hq9
  ihave Hq11 := (Entails.of_eq (pts_q d L (k1_off11_inb L k h5) e11' (m (qLoc d))).symm) $$ Hq11
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33' fd).symm) $$ Hod
  sl_unfold [k1_t1_body]
  sl_exec
  sl_step
  ihave He := (Entails.of_eq (pts_buf_rest d L cc1_scratch3 _)) $$ Hb3
  iclear He
  isplitl [HO]
  · isplitr; · iexact Hmw
    iapply (owes_wrap d L O W ?hW) $$ HO
    case hW => repeat (first | exact hW' | refine mem_ins W ?_ _)
  isplitl [Hs0]; · iapply (FlInV_intro m d L cc1_scratch4 b0 (k1_off7_inb L k h3) e7 _ _ rfl); iexact Hs0
  isplitl [Hs1]; · iapply (FlInV_intro m d L cc1_scratch5 b1 (k1_off9_inb L k h4) e9 _ _ rfl); iexact Hs1
  isplitl [Hs2]; · iapply (FlInV_intro m d L cc1_scratch6 b2 (k1_off11_inb L k h5) e11 _ _ rfl); iexact Hs2
  isplitl [Ht3]; · iapply (FlOutV_intro m d L cc1_scratch11 b3 (View.set_whole _) (k1_off3_inb L k 3) e33 _ (holdsQ_of_write m d L b3 _ (k1_off5_inb L k h1) e5n _ rfl) _ _ rfl); iexact Ht3
  isplitl [Hs3]; · iexact Hs3
  isplitl [Ht0]; · iexact Ht0
  isplitl [Ht1]; · iexact Ht1
  isplitl [Ht2]; · iexact Ht2
  isplitl [HQd Hs0_src Hs1_src Hs2_src Hq5]
  · iapply (Entails.of_eq (bigSep_range_push4 (qB m d L) 0 1 2 3 (4 * 0 + 4) (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  isplitl [HQt]; · iexact HQt
  isplitl [HOd Hoa Hob Hoc]
  · iapply (Entails.of_eq (bigSep_range_push3 (oBV m d L) 0 1 2 (4 * 0 + 3) (by omega) (by omega) (by omega)).symm)
    isplitl [Hoc]; · iapply (oBV_of_blk m d L b2 (k1_off3_inb L k 2) e32 g2 hg2 _ _ rfl); iexact Hoc
    isplitl [Hob]; · iapply (oBV_of_blk m d L b1 (k1_off3_inb L k 1) e31 g1 hg1 _ _ rfl); iexact Hob
    isplitl [Hoa]; · iapply (oBV_of_blk m d L b0 (k1_off3_inb L k 0) e30 g0 hg0 _ _ rfl); iexact Hoa
    iexact HOd
  iexact HOt

/-- The last trip: no block is left to copy in, and the last three copies out are left outstanding. -/
theorem trip_lastV (v2 : BitVec 32) (k : Fin k1_t1_loop.trips) (hk : k.val = 11) :
    InvV m d L O W (10 + 1) () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (InvV m d L O W 12) := by
  have h1 : k1_cond1 k = 1#1 := cond1_true k
  have h2 : k1_cond2 k = 1#1 := (cond2_iff k).mpr (by omega)
  have h3 : ¬ k1_cond3 k = 1#1 := fun h => by have := (cond3_iff k).mp h; omega
  have h4 : ¬ k1_cond4 k = 1#1 := fun h => by have := (cond4_iff k).mp h; omega
  have h5 : ¬ k1_cond5 k = 1#1 := fun h => by have := (cond5_iff k).mp h; omega
  have e30 : k1_off3 L k 0#32 = blkOff (tIx L).val (4 * 10 + 4) := (off3_0 L k).trans (congrArg _ (by omega))
  have e31 : k1_off3 L k 1#32 = blkOff (tIx L).val (4 * 10 + 5) := (off3_1 L k).trans (congrArg _ (by omega))
  have e32 : k1_off3 L k 2#32 = blkOff (tIx L).val (4 * 10 + 6) := (off3_2 L k).trans (congrArg _ (by omega))
  have e33 : k1_off3 L k 3#32 = blkOff (tIx L).val 47 := (off3_3 L k).trans (congrArg _ (by omega))
  have e5 : k1_off5 L k = blkOff (tIx L).val 47 := (off5_eq L k).trans (congrArg _ (by omega))
  rw [InvV_mid m d L O W 10 (by omega), InvV_end_fun m d L O W]
  iintro ⟨⟨#Hmw, %W', %hW', HO⟩, ⟨%g0, %hg0, Hs0⟩, ⟨%g1, %hg1, Hs1⟩, ⟨%g2, %hg2, Hs2⟩, ⟨%g3, %fo, %hfo, Ht3⟩, Hs3, Ht0, Ht1, Ht2, HQd, HQt, HOd, HOt⟩
  ihave HQt' := (Entails.of_eq (bigSep_Ico_pop (qB m d L) (by omega : 4 * 10 + 7 < 48))) $$ HQt
  icases HQt' with ⟨Hq5, HQt⟩
  ihave HOt' := (Entails.of_eq (bigSep_Ico_pop4 (oB d L) 44 45 46 47 48 (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33 fd).symm) $$ Hod
  sl_unfold [k1_t1_body]
  sl_exec
  sl_step
  ihave He := (Entails.of_eq (pts_buf_rest d L cc1_scratch3 _)) $$ Ht3_src
  iclear He
  ihave He := (Entails.of_eq (pts_buf_rest d L cc1_scratch0 _)) $$ Hs0_dst
  iclear He
  ihave He := (Entails.of_eq (pts_buf_rest d L cc1_scratch1 _)) $$ Hs1_dst
  iclear He
  ihave He := (Entails.of_eq (pts_buf_rest d L cc1_scratch2 _)) $$ Hs2_dst
  iclear He
  ihave He := (Entails.of_eq (bigSep_Ico_self (qB m d L) (by omega : 48 ≤ 4 * 10 + 7 + 1))) $$ HQt
  iclear He
  ihave He := (Entails.of_eq (bigSep_Ico_self (oB d L) (by omega : 48 ≤ 48))) $$ HOt
  iclear He
  isplitl [HO]
  · isplitr; · iexact Hmw
    iapply (owes_wrap d L O W ?hW) $$ HO
    case hW => repeat (first | exact hW' | refine mem_ins W ?_ _)
  isplitl [Ht0]; · iapply (FlOutV_intro m d L cc1_scratch8 b0 (View.set_whole _) (k1_off3_inb L k 0) e30 g0 hg0 _ _ rfl); iexact Ht0
  isplitl [Ht1]; · iapply (FlOutV_intro m d L cc1_scratch9 b1 (View.set_whole _) (k1_off3_inb L k 1) e31 g1 hg1 _ _ rfl); iexact Ht1
  isplitl [Ht2]; · iapply (FlOutV_intro m d L cc1_scratch10 b2 (View.set_whole _) (k1_off3_inb L k 2) e32 g2 hg2 _ _ rfl); iexact Ht2
  isplitl [Ht3]; · iapply (FlOutV_intro m d L cc1_scratch11 b3 (View.set_whole _) (k1_off3_inb L k 3) e33 _ (holdsQ_of_write m d L b3 _ (k1_off5_inb L k h1) e5 _ rfl) _ _ rfl); iexact Ht3
  isplitl [Hs0]; · iexact Hs0
  isplitl [Hs1]; · iexact Hs1
  isplitl [Hs2]; · iexact Hs2
  isplitl [Hs3]; · iexact Hs3
  isplitl [HQd Hs0_src Hs1_src Hs2_src Hq5]
  · iapply (Entails.of_eq (bigSep_range_push4 (qB m d L) (4 * 10 + 4) (4 * 10 + 5) (4 * 10 + 6) 47 48 (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  iapply (Entails.of_eq (bigSep_range_push1 (oBV m d L) (4 * 10 + 3) 44 (by omega)).symm)
  isplitl [Ht3_dst]
  · iexists fo; isplitr
    · ipureintro; exact hfo
    · iexact Ht3_dst
  iexact HOd

end BodyV

end Cert.KernelIdeal.Hand

end
-- ==== Proof.ScTile.lean ====
/-
  The body obligation of the SparseCore copy kernel: the task of one vector subcore, once, at symbolic grid coordinates.
  The task is handed its strip (24 rows) of the queue at the launch contents and of the copy at some contents, its four
  scratch buffers and its eight DMA semaphores at rest. It starts the copies in of blocks 0, 1, 2, runs the twelve trips of
  its loop — each trip waits for four copies in, starts the four copies out of what they brought and, where blocks are
  left, waits for the previous copies out and starts the next copies in —, and waits for the last four copies out. At
  most one copy is outstanding on a semaphore at any time and no buffer is touched between a copy's start and its wait,
  so every wait is answered. At the end the subcore holds its strip of the queue unchanged, its strip of the copy at
  some contents (the first 4096 columns untouched), its scratch buffers, and every semaphore at rest again; what it
  owed before it owes still, having recorded only waits of its own.
-/
import proofs.«211565_g20684562498226_cont_8to1_684_24_alg».proof.Proof.Setup
import proofs.«211565_g20684562498226_cont_8to1_684_24_alg».proof.Proof.ScTileB

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Body

variable (d : Dev nD) (L : grid1.Coords) (O : CellTallies nD τ sig (HIx 1)) (W : Waits sig (HIx 1))

variable [FloatOps F]

theorem Inv_exit (u : Unit) :
    Inv m d L O W (Scf.trips k1_t1_loop.lb k1_t1_loop.ub k1_t1_loop.st) u = iprop(Owing d L O W ∗ InvEnd m d L) := by
  rw [show Scf.trips k1_t1_loop.lb k1_t1_loop.ub k1_t1_loop.st = 12 from trips_eq]
  exact Inv_end m d L O W u

/-! The three cases of a trip, in the shape the loop rule asks for. -/

theorem region_zero (v2 : BitVec 32) (k : Fin (Scf.trips k1_t1_loop.lb k1_t1_loop.ub k1_t1_loop.st)) (acc : PUnit.{1}) (h0 : k.val = 0) :
    Inv m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (Inv m d L O W (↑k + 1)) := by
  rw [h0]; exact trip_zero m d L O W v2 k h0

theorem region_mid (v2 : BitVec 32) (k : Fin (Scf.trips k1_t1_loop.lb k1_t1_loop.ub k1_t1_loop.st)) (acc : PUnit.{1}) (j : ℕ) (hj : k.val = j + 1) (hk : j < 10) :
    Inv m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (Inv m d L O W (↑k + 1)) := by
  rw [hj]; exact trip_mid m d L O W v2 k j hj hk

theorem region_last (v2 : BitVec 32) (k : Fin (Scf.trips k1_t1_loop.lb k1_t1_loop.ub k1_t1_loop.st)) (acc : PUnit.{1}) (h11 : k.val = 11) :
    Inv m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (Inv m d L O W (↑k + 1)) := by
  rw [show (k : ℕ) = 10 + 1 from h11, show (10 + 1 + 1 : ℕ) = 12 from rfl]
  exact trip_last m d L O W v2 k h11

theorem region_all (v2 : BitVec 32) (k : Fin (Scf.trips k1_t1_loop.lb k1_t1_loop.ub k1_t1_loop.st)) (acc : PUnit.{1}) :
    Inv m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (Inv m d L O W (↑k + 1)) := by
  have hk12 : k.val < 12 := trips_eq ▸ k.isLt
  rcases Nat.eq_zero_or_pos k.val with h0 | hpos
  · exact region_zero m d L O W v2 k acc h0
  · rcases Nat.lt_or_ge k.val 11 with hlt | hge
    · obtain ⟨j, hj⟩ : ∃ j, k.val = j + 1 := ⟨k.val - 1, by omega⟩
      exact region_mid m d L O W v2 k acc j hj (by omega)
    · exact region_last m d L O W v2 k acc (by omega)

set_option maxHeartbeats 1600000 in
/-- The task of the vector subcore at grid coordinates `L` of device `d`: three copies in started, the loop, the last
    four waits. From its strips of the queue and of the copy, its scoped storage and what it owes, to the strips — the
    queue's unchanged —, the storage as it was, and the same debt with its own waits recorded. -/
theorem tile_body (hF : (K (F := F)).Facts) (hO : ∀ g, O g none = 0) :
    (iprop(levAts (K (F := F)).L (K (F := F)).lev ∗ emp ∗ ((qLoc d ↦[stripSet (tIx L)]{fullShare} m (qLoc d)) ∗ ∃ f, oLoc d ↦[stripSet (tIx L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc1_sc_kernel L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11)
          fun _ => iprop(((qLoc d ↦[stripSet (tIx L)]{fullShare} m (qLoc d)) ∗ ∃ f, oLoc d ↦[stripSet (tIx L)]{fullShare} f) ∗ scopedBufs (thrV d L) ∗ scopedSems0 (thrV d L)
            ∗ ∃ W', ⌜∀ p ∈ W', p ∈ W ∨ p.2 = none⌝ ∗ owes (thrV d L) O W') := by
  simp only [cc1_sc_kernel_eq_skeleton]; unfold cc1_sc_kernel_skel
  simp only [k1_part11_eq_skeleton]; unfold k1_part11_skel
  rw [(K (F := F)).scopedBufs_V hF d (cV L) (jV L), SparseCore.Cfg.scopedSems0_V (Val := Elt F) d (cV L) (jV L), ownSems0_V d L, ownBufs_V d L,
    q_split d (tIx L) (m (qLoc d))]
  iintro ⟨#Hlv, -, ⟨⟨Hqh, HQ⟩, %fo, Ho⟩, ⟨⟨%f0, Hb0⟩, ⟨%f1, Hb1⟩, ⟨%f2, Hb2⟩, ⟨%f3, Hb3⟩, Hbufs⟩, ⟨Hs0, Hs1, Hs2, Hs3, Ht0, Ht1, Ht2, Ht3, Hsems⟩, HO⟩
  ihave Ho' := (Entails.of_eq (o_split d (tIx L) fo)) $$ Ho
  icases Ho' with ⟨Hoh, HOb⟩
  ihave HOt := (o_blocks_ex d L fo) $$ HOb
  ihave HQ := (Entails.of_eq (bigSep_Ico_zero (qB m d L) 48).symm) $$ HQ
  ihave HQ := (Entails.of_eq (bigSep_Ico_pop3 (qB m d L) 0 1 2 3 (by omega) (by omega) (by omega) (by omega))) $$ HQ
  icases HQ with ⟨Hq0, Hq1, Hq2, HQ⟩
  ihave Hq0 := (Entails.of_eq (pts_q d L (k1_off1_inb L 0) (off1_0 L) (m (qLoc d))).symm) $$ Hq0
  ihave Hq1 := (Entails.of_eq (pts_q d L (k1_off2_inb L 0) (off2_0 L) (m (qLoc d))).symm) $$ Hq1
  ihave Hq2 := (Entails.of_eq (pts_q d L (k1_off1_inb L 1) (off1_1 L) (m (qLoc d))).symm) $$ Hq2
  ihave Hb0 := (Entails.of_eq (pts_b d L cc1_scratch0 f0).symm) $$ Hb0
  ihave Hb1 := (Entails.of_eq (pts_b d L cc1_scratch1 f1).symm) $$ Hb1
  ihave Hb2 := (Entails.of_eq (pts_b d L cc1_scratch2 f2).symm) $$ Hb2
  ihave Hb3 := (Entails.of_eq (pts_b d L cc1_scratch3 f3).symm) $$ Hb3
  ihave Hmw := ((K (F := F)).mayWaits_none (thr := thrV d L) hO) $$ Hlv
  icases Hmw with #Hmw
  sl_exec
  sl_rw [Prog.bind_assoc]
  sl_for (Inv m d L O W) $$ [Hs0 Hs1 Hs2 Hb3 Ht3 Hs3 Ht0 Ht1 Ht2 HQ HOt HO]
  case region =>
    intro k acc
    sl_respell []
    generalize tile_body.sl.v2 L = v2
    exact region_all m d L O W v2 k acc
  · rw [Inv_zero m d L O W]
    isplitl [HO]
    · isplitr; · iexact Hmw
      iapply (owes_wrap d L O W ?hW) $$ HO
      case hW => exact fun p hp => .inl hp
    isplitl [Hs0]; · iapply (FlIn_intro m d L cc1_scratch4 cc1_scratch0 (k1_off1_inb L 0) (off1_0 L) _); iexact Hs0
    isplitl [Hs1]; · iapply (FlIn_intro m d L cc1_scratch5 cc1_scratch1 (k1_off2_inb L 0) (off2_0 L) _); iexact Hs1
    isplitl [Hs2]; · iapply (FlIn_intro m d L cc1_scratch6 cc1_scratch2 (k1_off1_inb L 1) (off1_1 L) _); iexact Hs2
    isplitl [Hb3]; · iexists _; iexact Hb3
    isplitl [Ht3]; · iexact Ht3
    isplitl [Hs3]; · iexact Hs3
    isplitl [Ht0]; · iexact Ht0
    isplitl [Ht1]; · iexact Ht1
    isplitl [Ht2]; · iexact Ht2
    isplitr; · iapply (Entails.of_eq (bigSep_range_zero (qB m d L)).symm); iempintro
    isplitl [HQ]; · iexact HQ
    isplitr; · iapply (Entails.of_eq (bigSep_range_zero (oB d L)).symm); iempintro
    iexact HOt
  iintro %acc HI
  ihave HI := (Entails.of_eq (Inv_exit m d L O W acc)) $$ HI
  icases HI with ⟨⟨-, %W', %hW', HO⟩, ⟨%g0, %fo0, Ht0⟩, ⟨%g1, %fo1, Ht1⟩, ⟨%g2, %fo2, Ht2⟩, ⟨%g3, %fo3, Ht3⟩, Hs0, Hs1, Hs2, Hs3, HQd, HOd⟩
  sl_exec
  sl_step
  isplitl [Hqh HQd Hoh HOd Ht0_dst Ht1_dst Ht2_dst Ht3_dst]
  · isplitl [Hqh HQd]
    · isplitl [Hqh]; · iexact Hqh
      iexact HQd
    iapply (o_join d (tIx L))
    isplitl [Hoh]; · iexists fo; iexact Hoh
    iapply (Entails.of_eq (bigSep_range_push4 (oB d L) 44 45 46 47 48 (by omega) (by omega) (by omega) (by omega)).symm)
    isplitl [Ht3_dst]; · iexists _; iexact Ht3_dst
    isplitl [Ht2_dst]; · iexists _; iexact Ht2_dst
    isplitl [Ht1_dst]; · iexists _; iexact Ht1_dst
    isplitl [Ht0_dst]; · iexists _; iexact Ht0_dst
    iexact HOd
  isplitl [Ht0_src Ht1_src Ht2_src Ht3_src Hbufs]
  · isplitl [Ht0_src]; · iexists _; iapply (Entails.of_eq (pts_b d L cc1_scratch0 _)); iexact Ht0_src
    isplitl [Ht1_src]; · iexists _; iapply (Entails.of_eq (pts_b d L cc1_scratch1 _)); iexact Ht1_src
    isplitl [Ht2_src]; · iexists _; iapply (Entails.of_eq (pts_b d L cc1_scratch2 _)); iexact Ht2_src
    isplitl [Ht3_src]; · iexists _; iapply (Entails.of_eq (pts_b d L cc1_scratch3 _)); iexact Ht3_src
    iexact Hbufs
  isplitl [Hs0 Hs1 Hs2 Hs3 Ht0 Ht1 Ht2 Ht3 Hsems]
  · isplitl [Hs0]; · iexact Hs0
    isplitl [Hs1]; · iexact Hs1
    isplitl [Hs2]; · iexact Hs2
    isplitl [Hs3]; · iexact Hs3
    isplitl [Ht0]; · iexact Ht0
    isplitl [Ht1]; · iexact Ht1
    isplitl [Ht2]; · iexact Ht2
    isplitl [Ht3]; · iexact Ht3
    iexact Hsems
  iapply (owes_wrap d L O W ?hW) $$ HO
  case hW => repeat (first | exact hW' | refine mem_ins W ?_ _)

end Body

/-! ## The launch theorem's obligation -/

variable [FloatOps F]

theorem defs₀_vector (c : Fin τ.nSC) (s : Fin τ.nSub) :
    defs₀ (F := F) (.scVector c s) 1 ⟨⟩
      = SparseCore.onTile hcore1 hsub1 (fun c s => cc1_sc_kernel (coordsV c s) qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the SparseCore kernel, at every vector subcore of its grid: the task of `tile_body`. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have ht : tIx (coordsV ⟨_, hc.1⟩ ⟨_, hc.2⟩) = tileIx (Fin.cast nCore_zero c) (Fin.cast nSub_zero i) := rfl
  show iprop(_ ∗ _ ∗ forTile m d (tileIx (Fin.cast nCore_zero c) (Fin.cast nSub_zero i)) ∗ _) ⊢ wp _ _ _ _ (fun _ => iprop(forTile m d (tileIx (Fin.cast nCore_zero c) (Fin.cast nSub_zero i)) ∗ _))
  rw [← ht]
  exact (tile_body m d (coordsV ⟨_, hc.1⟩ ⟨_, hc.2⟩) O W hF hO).trans (wp_mono frame _ _ fun _ => obl_post)

end Cert.KernelIdeal.Hand

end
-- ==== Proof.ScTileV.lean ====
/-
  The body obligation of the SparseCore copy kernel with its value: the task of one vector subcore, at symbolic grid
  coordinates, ends with its strip of the copy holding the queue's words in every column from 4096 on, the first 4096
  columns being what they were. The 48 finished blocks, each agreeing with the queue on its own positions, are held at
  the queue's contents themselves and joined with the untouched head of the strip; the strip of the queue is handed
  back unchanged, the scratch buffers and semaphores as they were found.
-/
import proofs.«211565_g20684562498226_cont_8to1_684_24_alg».proof.Proof.Setup
import proofs.«211565_g20684562498226_cont_8to1_684_24_alg».proof.Proof.SetupV
import proofs.«211565_g20684562498226_cont_8to1_684_24_alg».proof.Proof.ScTileVA
import proofs.«211565_g20684562498226_cont_8to1_684_24_alg».proof.Proof.ScTile

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section JoinV

variable (d : Dev nD) (L : grid1.Coords)

/-- A finished block is held at the queue's contents themselves. -/
theorem oBV_to (n : ℕ) :
    oBV m d L n ⊢ (oLoc d ↦[blkSet (tIx L).val n]{fullShare} (fun idx => m (qLoc d) idx : Buf (Elt F) (oLoc d)) : sProp 𝕄) := by
  iintro ⟨%f, %hf, H⟩
  iapply (Entails.of_eq (pointsTo_congr (ℓ := oLoc d) hf))
  iexact H

/-- The copy's strip back from its untouched head and its 48 finished blocks: from column 4096 on it holds the queue's words. -/
theorem o_joinV (fh : Buf (Elt F) (oLoc d)) :
    iprop((oLoc d ↦[headSet (tIx L).val]{fullShare} fh) ∗ bigSep (Finset.range 48) (oBV m d L))
      ⊢ (iprop(∃ f, (oLoc d ↦[stripSet (tIx L)]{fullShare} f) ∗ ⌜∀ idx ∈ stripSet (tIx L), 4096 ≤ (idx 1).val → f idx = m (qLoc d) idx⌝) : sProp 𝕄) := by
  rw [strip_cover]
  iintro ⟨Hh, Hb⟩
  ihave Hb := (SparseCore.ent (bigSep_mono (s := Finset.range 48) fun n _ => oBV_to m d L n)) $$ Hb
  ihave Hb := (Entails.of_eq (pointsTo_biUnion (Finset.range 48) (ℓ := oLoc d) (blkSet (tIx L).val) (blocks_disjoint (tIx L).val)).symm) $$ Hb
  iexists ((Finset.range 48).biUnion (blkSet (tIx L).val)).piecewise (fun idx => m (qLoc d) idx : Buf (Elt F) (oLoc d)) fh
  isplitl [Hh Hb]
  · iapply (pointsTo_join (ℓ := oLoc d) (head_disjoint_blocks (tIx L).val))
    isplitl [Hh]; · iexact Hh
    iexact Hb
  · ipureintro
    intro idx hidx h4096
    have hmem : idx ∈ (Finset.range 48).biUnion (blkSet (tIx L).val) := by
      rcases Finset.mem_union.mp hidx with hh | hb
      · exact absurd (mem_headSet.mp hh).2.2 (by omega)
      · exact hb
    exact Finset.piecewise_eq_of_mem _ _ _ hmem

end JoinV

section BodyV2

variable (d : Dev nD) (L : grid1.Coords) (O : CellTallies nD τ sig (HIx 1)) (W : Waits sig (HIx 1))

variable [FloatOps F]

theorem InvV_exit (u : Unit) :
    InvV m d L O W (Scf.trips k1_t1_loop.lb k1_t1_loop.ub k1_t1_loop.st) u = iprop(Owing d L O W ∗ InvEndV m d L) := by
  rw [show Scf.trips k1_t1_loop.lb k1_t1_loop.ub k1_t1_loop.st = 12 from trips_eq]
  exact InvV_end m d L O W u

/-! The three cases of a trip, in the shape the loop rule asks for. -/

theorem region_zeroV (v2 : BitVec 32) (k : Fin (Scf.trips k1_t1_loop.lb k1_t1_loop.ub k1_t1_loop.st)) (acc : PUnit.{1}) (h0 : k.val = 0) :
    InvV m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (InvV m d L O W (↑k + 1)) := by
  rw [h0]; exact trip_zeroV m d L O W v2 k h0

theorem region_midV (v2 : BitVec 32) (k : Fin (Scf.trips k1_t1_loop.lb k1_t1_loop.ub k1_t1_loop.st)) (acc : PUnit.{1}) (j : ℕ) (hj : k.val = j + 1) (hk : j < 10) :
    InvV m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (InvV m d L O W (↑k + 1)) := by
  rw [hj]; exact trip_midV m d L O W v2 k j hj hk

theorem region_lastV (v2 : BitVec 32) (k : Fin (Scf.trips k1_t1_loop.lb k1_t1_loop.ub k1_t1_loop.st)) (acc : PUnit.{1}) (h11 : k.val = 11) :
    InvV m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (InvV m d L O W (↑k + 1)) := by
  rw [show (k : ℕ) = 10 + 1 from h11, show (10 + 1 + 1 : ℕ) = 12 from rfl]
  exact trip_lastV m d L O W v2 k h11

theorem region_allV (v2 : BitVec 32) (k : Fin (Scf.trips k1_t1_loop.lb k1_t1_loop.ub k1_t1_loop.st)) (acc : PUnit.{1}) :
    InvV m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (InvV m d L O W (↑k + 1)) := by
  have hk12 : k.val < 12 := trips_eq ▸ k.isLt
  rcases Nat.eq_zero_or_pos k.val with h0 | hpos
  · exact region_zeroV m d L O W v2 k acc h0
  · rcases Nat.lt_or_ge k.val 11 with hlt | hge
    · obtain ⟨j, hj⟩ : ∃ j, k.val = j + 1 := ⟨k.val - 1, by omega⟩
      exact region_midV m d L O W v2 k acc j hj (by omega)
    · exact region_lastV m d L O W v2 k acc (by omega)

set_option maxHeartbeats 1600000 in
/-- The task of the vector subcore at grid coordinates `L` of device `d`: three copies in started, the loop, the last
    four waits. From its strips of the queue and of the copy, its scoped storage and what it owes, to the strips — the
    queue's unchanged —, the storage as it was, and the same debt with its own waits recorded. -/
theorem tile_bodyV (hF : (K (F := F)).Facts) (hO : ∀ g, O g none = 0) :
    (iprop(levAts (K (F := F)).L (K (F := F)).lev ∗ emp ∗ ((qLoc d ↦[stripSet (tIx L)]{fullShare} m (qLoc d)) ∗ ∃ f, oLoc d ↦[stripSet (tIx L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc1_sc_kernel L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11)
          fun _ => iprop(((qLoc d ↦[stripSet (tIx L)]{fullShare} m (qLoc d)) ∗ ∃ f, (oLoc d ↦[stripSet (tIx L)]{fullShare} f) ∗ ⌜∀ idx ∈ stripSet (tIx L), 4096 ≤ (idx 1).val → f idx = m (qLoc d) idx⌝) ∗ scopedBufs (thrV d L) ∗ scopedSems0 (thrV d L)
            ∗ ∃ W', ⌜∀ p ∈ W', p ∈ W ∨ p.2 = none⌝ ∗ owes (thrV d L) O W') := by
  simp only [cc1_sc_kernel_eq_skeleton]; unfold cc1_sc_kernel_skel
  simp only [k1_part11_eq_skeleton]; unfold k1_part11_skel
  rw [(K (F := F)).scopedBufs_V hF d (cV L) (jV L), SparseCore.Cfg.scopedSems0_V (Val := Elt F) d (cV L) (jV L), ownSems0_V d L, ownBufs_V d L,
    q_split d (tIx L) (m (qLoc d))]
  iintro ⟨#Hlv, -, ⟨⟨Hqh, HQ⟩, %fo, Ho⟩, ⟨⟨%f0, Hb0⟩, ⟨%f1, Hb1⟩, ⟨%f2, Hb2⟩, ⟨%f3, Hb3⟩, Hbufs⟩, ⟨Hs0, Hs1, Hs2, Hs3, Ht0, Ht1, Ht2, Ht3, Hsems⟩, HO⟩
  ihave Ho' := (Entails.of_eq (o_split d (tIx L) fo)) $$ Ho
  icases Ho' with ⟨Hoh, HOb⟩
  ihave HOt := (o_blocks_ex d L fo) $$ HOb
  ihave HQ := (Entails.of_eq (bigSep_Ico_zero (qB m d L) 48).symm) $$ HQ
  ihave HQ := (Entails.of_eq (bigSep_Ico_pop3 (qB m d L) 0 1 2 3 (by omega) (by omega) (by omega) (by omega))) $$ HQ
  icases HQ with ⟨Hq0, Hq1, Hq2, HQ⟩
  ihave Hq0 := (Entails.of_eq (pts_q d L (k1_off1_inb L 0) (off1_0 L) (m (qLoc d))).symm) $$ Hq0
  ihave Hq1 := (Entails.of_eq (pts_q d L (k1_off2_inb L 0) (off2_0 L) (m (qLoc d))).symm) $$ Hq1
  ihave Hq2 := (Entails.of_eq (pts_q d L (k1_off1_inb L 1) (off1_1 L) (m (qLoc d))).symm) $$ Hq2
  ihave Hb0 := (Entails.of_eq (pts_b d L cc1_scratch0 f0).symm) $$ Hb0
  ihave Hb1 := (Entails.of_eq (pts_b d L cc1_scratch1 f1).symm) $$ Hb1
  ihave Hb2 := (Entails.of_eq (pts_b d L cc1_scratch2 f2).symm) $$ Hb2
  ihave Hb3 := (Entails.of_eq (pts_b d L cc1_scratch3 f3).symm) $$ Hb3
  ihave Hmw := ((K (F := F)).mayWaits_none (thr := thrV d L) hO) $$ Hlv
  icases Hmw with #Hmw
  sl_exec
  sl_rw [Prog.bind_assoc]
  sl_for (InvV m d L O W) $$ [Hs0 Hs1 Hs2 Hb3 Ht3 Hs3 Ht0 Ht1 Ht2 HQ HOt HO]
  case region =>
    intro k acc
    sl_respell []
    generalize tile_bodyV.sl.v2 L = v2
    exact region_allV m d L O W v2 k acc
  · rw [InvV_zero m d L O W]
    isplitl [HO]
    · isplitr; · iexact Hmw
      iapply (owes_wrap d L O W ?hW) $$ HO
      case hW => exact fun p hp => .inl hp
    isplitl [Hs0]; · iapply (FlInV_intro m d L cc1_scratch4 b0 (k1_off1_inb L 0) (off1_0 L) _ _ rfl); iexact Hs0
    isplitl [Hs1]; · iapply (FlInV_intro m d L cc1_scratch5 b1 (k1_off2_inb L 0) (off2_0 L) _ _ rfl); iexact Hs1
    isplitl [Hs2]; · iapply (FlInV_intro m d L cc1_scratch6 b2 (k1_off1_inb L 1) (off1_1 L) _ _ rfl); iexact Hs2
    isplitl [Hb3]; · iexists _; iexact Hb3
    isplitl [Ht3]; · iexact Ht3
    isplitl [Hs3]; · iexact Hs3
    isplitl [Ht0]; · iexact Ht0
    isplitl [Ht1]; · iexact Ht1
    isplitl [Ht2]; · iexact Ht2
    isplitr; · iapply (Entails.of_eq (bigSep_range_zero (qB m d L)).symm); iempintro
    isplitl [HQ]; · iexact HQ
    isplitr; · iapply (Entails.of_eq (bigSep_range_zero (oBV m d L)).symm); iempintro
    iexact HOt
  iintro %acc HI
  ihave HI := (Entails.of_eq (InvV_exit m d L O W acc)) $$ HI
  icases HI with ⟨⟨-, %W', %hW', HO⟩, ⟨%g0, %fo0, %hf0, Ht0⟩, ⟨%g1, %fo1, %hf1, Ht1⟩, ⟨%g2, %fo2, %hf2, Ht2⟩, ⟨%g3, %fo3, %hf3, Ht3⟩, Hs0, Hs1, Hs2, Hs3, HQd, HOd⟩
  sl_exec
  sl_step
  isplitl [Hqh HQd Hoh HOd Ht0_dst Ht1_dst Ht2_dst Ht3_dst]
  · isplitl [Hqh HQd]
    · isplitl [Hqh]; · iexact Hqh
      iexact HQd
    iapply (o_joinV m d L fo)
    isplitl [Hoh]; · iexact Hoh
    iapply (Entails.of_eq (bigSep_range_push4 (oBV m d L) 44 45 46 47 48 (by omega) (by omega) (by omega) (by omega)).symm)
    isplitl [Ht3_dst]
    · iexists fo3; isplitr
      · ipureintro; exact hf3
      · iexact Ht3_dst
    isplitl [Ht2_dst]
    · iexists fo2; isplitr
      · ipureintro; exact hf2
      · iexact Ht2_dst
    isplitl [Ht1_dst]
    · iexists fo1; isplitr
      · ipureintro; exact hf1
      · iexact Ht1_dst
    isplitl [Ht0_dst]
    · iexists fo0; isplitr
      · ipureintro; exact hf0
      · iexact Ht0_dst
    iexact HOd
  isplitl [Ht0_src Ht1_src Ht2_src Ht3_src Hbufs]
  · isplitl [Ht0_src]; · iexists _; iapply (Entails.of_eq (pts_b d L cc1_scratch0 _)); iexact Ht0_src
    isplitl [Ht1_src]; · iexists _; iapply (Entails.of_eq (pts_b d L cc1_scratch1 _)); iexact Ht1_src
    isplitl [Ht2_src]; · iexists _; iapply (Entails.of_eq (pts_b d L cc1_scratch2 _)); iexact Ht2_src
    isplitl [Ht3_src]; · iexists _; iapply (Entails.of_eq (pts_b d L cc1_scratch3 _)); iexact Ht3_src
    iexact Hbufs
  isplitl [Hs0 Hs1 Hs2 Hs3 Ht0 Ht1 Ht2 Ht3 Hsems]
  · isplitl [Hs0]; · iexact Hs0
    isplitl [Hs1]; · iexact Hs1
    isplitl [Hs2]; · iexact Hs2
    isplitl [Hs3]; · iexact Hs3
    isplitl [Ht0]; · iexact Ht0
    isplitl [Ht1]; · iexact Ht1
    isplitl [Ht2]; · iexact Ht2
    isplitl [Ht3]; · iexact Ht3
    iexact Hsems
  iapply (owes_wrap d L O W ?hW) $$ HO
  case hW => repeat (first | exact hW' | refine mem_ins W ?_ _)

end BodyV2

/-! ## The obligation with the value -/

variable [FloatOps F]

/-- The body obligation of the SparseCore kernel with the value: each vector subcore's strip of the copy ends holding the
    queue's words from column 4096 on. -/
theorem tileOblV (hF : (K (F := F)).Facts) : (K (F := F)).TileObl (D (F := F)) 𝒱 (PV m) v₀ 0 := by
  intro d c i O W hO _ _
  simp only [show (PV m).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have ht : tIx (coordsV ⟨_, hc.1⟩ ⟨_, hc.2⟩) = tileIx (Fin.cast nCore_zero c) (Fin.cast nSub_zero i) := rfl
  show iprop(_ ∗ _ ∗ forTile m d (tileIx (Fin.cast nCore_zero c) (Fin.cast nSub_zero i)) ∗ _) ⊢ wp _ _ _ _ (fun _ => iprop(forTileV m d (tileIx (Fin.cast nCore_zero c) (Fin.cast nSub_zero i)) ∗ _))
  rw [← ht]
  exact (tile_bodyV m d (coordsV ⟨_, hc.1⟩ ⟨_, hc.2⟩) O W hF hO).trans (wp_mono frame _ _ fun _ => obl_post)

end Cert.KernelIdeal.Hand

end
-- ==== Proof.Frames.lean ====
/-
  The frame of the whole program: every weakly fair execution of the device's threads terminates, nothing faulting,
  and the twenty argument arrays end unchanged — from the vector subcores' task (the ring of four buffers copying 24
  rows of the queue), the three TensorCore regions and @main's run.
-/
import proofs.«211565_g20684562498226_cont_8to1_684_24_alg».proof.Proof.MainRun2
import proofs.«211565_g20684562498226_cont_8to1_684_24_alg».proof.Proof.RegionAdapt
import proofs.«211565_g20684562498226_cont_8to1_684_24_alg».proof.Proof.ScTileV

noncomputable section

namespace Cert.KernelIdeal.Hand

open Cert.KernelIdeal Cert.KernelIdeal.Gen
open Idealize.ShloMosaic Idealize.SL.Sem

variable {F : FTy → Type}

/-- The run, frame strength, at any float instance. -/
theorem frame_run [FloatOps F] [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  run_main m ρ (tileOblV m facts) regionStep0 regionStep1 regionStep2 args_not_outs0 args_not_outs1 args_not_outs2

end Cert.KernelIdeal.Hand

end
-- ==== Proof.Bits.Setup.lean ====
/-
  The shared set-up of the frame proof: the program as the SparseCore launch theorem sees it, the ghost state
  (the handshakes' rounds, the TensorCore pipelines' rounds, the local transfers' counters), the two HBM arrays the
  vector subcores work on — the queue (argument 18) and its copy (result of the SparseCore call) —, their split
  into 32 strips of 24 rows, one per vector subcore, and what the call's handshakes carry: each vector subcore is
  handed its strip of both arrays and hands them back, the queue's unchanged.
-/
import proofs.«211565_g20684562498226_cont_8to1_684_24_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«211565_g20684562498226_cont_8to1_684_24_alg».proof.Proof.Gen.Kernel
import proofs.«211565_g20684562498226_cont_8to1_684_24_alg».proof.Proof.Gen.Kernel.Skeleton
import proofs.«211565_g20684562498226_cont_8to1_684_24_alg».proof.Proof.Gen.Kernel.Launch

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The TensorCore pipelines' rounds library: the left factor of the right factor (the counters are found by instance). -/
def EP : Emb UP (MT nD τ sig (HIx 1) (Elt F) ℕ UU ℕ) :=
  (Emb.inl : Emb UP (UP × Counters)).trans (embR : Emb (UP × Counters) (MT nD τ sig (HIx 1) (Elt F) ℕ UU ℕ))
instance EP_landsIn : (EP : Emb UP 𝕄).LandsIn (upEmb : UEmb _ 𝕄) := by unfold EP embR; infer_instance

/-! ## The launch memory and the two arrays -/

variable (m : (ℓ : Loc nD τ sig) → Buf (Elt F) ℓ) (ρ : Dev nD → PrngReg)

/-- The queue (argument 18) and the SparseCore call's result, as locations of device `d`. -/
abbrev qLoc (d : Dev nD) : Loc nD τ sig := (SparseCore.T d).loc main_arg18
abbrev oLoc (d : Dev nD) : Loc nD τ sig := (SparseCore.T d).loc main_v7

/-- The 768 rows in 32 strips of 24: strip `t` is rows `24 t … 24 t + 23`, all 65536 columns. -/
theorem hdiv : 32 ∣ S768x65536.size 0 := ⟨24, rfl⟩
abbrev strip (t : Fin 32) : Rect S768x65536 := Rect.part (s := S768x65536) (a₀ := 0) hdiv t
abbrev stripSet (t : Fin 32) : Finset S768x65536.Idx := (strip t).set

/-- Vector subcore `i` of SparseCore `c` works on strip `16 c + i`. -/
def tileIx (c : Fin 2) (i : Fin 16) : Fin 32 := ⟨16 * c.val + i.val, by omega⟩

abbrev qStrip (d : Dev nD) (t : Fin 32) : sProp 𝕄 := qLoc d ↦[stripSet t]{fullShare} m (qLoc d)
abbrev oStrip (d : Dev nD) (t : Fin 32) (f : Buf (Elt F) (oLoc d)) : sProp 𝕄 := oLoc d ↦[stripSet t]{fullShare} f

/-- What a vector subcore is handed and hands back: its strip of the queue at the launch contents, its strip of the
    copy at some contents. -/
abbrev forTile (d : Dev nD) (t : Fin 32) : sProp 𝕄 := iprop(qStrip m d t ∗ ∃ f, oStrip d t f)

/-- The one SparseCore call: each SparseCore gets its sixteen strips of both arrays, each vector subcore its one. -/
def P : (K (F := F)).Pay (nD := nD) (Val := Elt F) (Name := ℕ) (U := UU) where
  st := fun q d c => match q with | 0 => bigSep Finset.univ fun i : Fin 16 => forTile m d (tileIx (Fin.cast nCore_zero c) i)
  dn := fun q d c => match q with | 0 => bigSep Finset.univ fun i : Fin 16 => forTile m d (tileIx (Fin.cast nCore_zero c) i)
  go := fun q d c i => match q with | 0 => forTile m d (tileIx (Fin.cast nCore_zero c) (Fin.cast nSub_zero i))
  td := fun q d c i => match q with | 0 => forTile m d (tileIx (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => forTile m d (tileIx (Fin.cast nCore_zero c) i)))
  dn q d c := match q with
    | 0 => (inferInstance : BI.Storable (upEmb : UEmb _ 𝕄) (bigSep Finset.univ fun i : Fin 16 => forTile m d (tileIx (Fin.cast nCore_zero c) i)))
  go q d c i := match q with
    | 0 => (inferInstance : BI.Storable (upEmb : UEmb _ 𝕄) (forTile m d (tileIx (Fin.cast nCore_zero c) (Fin.cast nSub_zero i))))
  td q d c i := match q with
    | 0 => (inferInstance : BI.Storable (upEmb : UEmb _ 𝕄) (forTile m d (tileIx (Fin.cast nCore_zero c) (Fin.cast nSub_zero i))))

/-- The sixteen tasks' shares are the SparseCore's, both ways. -/
theorem vecSplit : (K (F := F)).VecSplit' (P m) 0 := by
  intro d c
  show (bigSep Finset.univ fun i : Fin 16 => forTile m d (tileIx (Fin.cast nCore_zero c) i)) ⊢ |={Set.univ}=> iprop(
      (bigSep Finset.univ fun i : Fin ((K (F := F)).nSub 0) => forTile m d (tileIx (Fin.cast nCore_zero c) (Fin.cast nSub_zero i)))
      ∗ ((bigSep Finset.univ fun i : Fin ((K (F := F)).nSub 0) => forTile m d (tileIx (Fin.cast nCore_zero c) (Fin.cast nSub_zero i)))
          -∗ bigSep Finset.univ fun i : Fin 16 => forTile m d (tileIx (Fin.cast nCore_zero c) i)))
  have e : (bigSep Finset.univ fun i : Fin ((K (F := F)).nSub 0) => forTile m d (tileIx (Fin.cast nCore_zero c) (Fin.cast nSub_zero i)))
      = bigSep Finset.univ fun i : Fin 16 => forTile m d (tileIx (Fin.cast nCore_zero c) i) :=
    bigSep_congr fun _ _ => congrArg (fun i => forTile m d (tileIx (Fin.cast nCore_zero c) i)) (Fin.ext rfl)
  rw [e]
  iintro H; imodintro
  isplitl [H]; · iexact H
  iintro H; iexact H

/-! ## The TensorCore pipelines' part of the launch -/

/-- The prefetched tables' admissible contents: no pipeline has a table. -/
abbrev adm : (p : Fin 3) → (pcfgs (F := F) p).Adm := fun p => (cfgs p).toPCfg_adm

/-- The three pipelines' staging cells are pairwise distinct (the generated launch kit's fact, at the pinned family). -/
theorem pcell_inj : Function.Injective (Pipeline.cellOf (nD := nD) (τ := τ) (Pipeline.pin (pcfgs (F := F)) adm)) :=
  Cert.Kernel.Gen.cellOf_inj

/-- The launch element: the handshakes' rounds at their cells, the pipelines' rounds at the staging cells, no counter. -/
def u₀ : UU :=
  (initOf (K (F := F)).hsCells (K (F := F)).hsToks,
    (initOf (Pipeline.cells (Pipeline.pin (pcfgs (F := F)) adm) pcell_inj) (Pipeline.launchToks (Pipeline.pin (pcfgs (F := F)) adm) pcell_inj), 1))

/-- What the launch leaves device `d`'s TensorCore for its three regions: each pipeline's cells' ghost state and duty tokens. -/
def Gp (d : Dev nD) : sProp 𝕄 :=
  bigSep Finset.univ fun p : Fin 3 => iprop(Pipeline.cellsGhost (Pipeline.pin (pcfgs (F := F)) adm) EP p d ∗ Pipeline.toksInit (Pipeline.pin (pcfgs (F := F)) adm) EP p d)

end Cert.Kernel.Hand

end
-- ==== Proof.Bits.SetupV.lean ====
/-
  The SparseCore call's payloads with the value of the copy. Each vector subcore is handed its strip (24 rows) of the
  queue at the launch contents and of the copy at some contents, as in the frame's payloads; what it hands back says in
  addition what the copy's strip holds: the queue's words in every column from 4096 on. The sixteen subcores' shares
  are the SparseCore's, before and after.
-/
import proofs.«211565_g20684562498226_cont_8to1_684_24_alg».proof.Proof.Bits.Setup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- What a vector subcore hands back, with the value: its strip of the queue unchanged, its strip of the copy holding the
    queue's words from column 4096 on. -/
abbrev forTileV (d : Dev nD) (t : Fin 32) : sProp 𝕄 :=
  iprop(qStrip m d t ∗ ∃ f, oStrip d t f ∗ ⌜∀ idx ∈ stripSet t, 4096 ≤ (idx 1).val → f idx = m (qLoc d) idx⌝)

/-- The one SparseCore call with the value: each vector subcore is handed its strip of both arrays and hands them back, the
    queue's unchanged, the copy's holding the queue's words from column 4096 on. -/
def PV : (K (F := F)).Pay (nD := nD) (Val := Elt F) (Name := ℕ) (U := UU) where
  st := fun q d c => match q with | 0 => bigSep Finset.univ fun i : Fin 16 => forTile m d (tileIx (Fin.cast nCore_zero c) i)
  dn := fun q d c => match q with | 0 => bigSep Finset.univ fun i : Fin 16 => forTileV m d (tileIx (Fin.cast nCore_zero c) i)
  go := fun q d c i => match q with | 0 => forTile m d (tileIx (Fin.cast nCore_zero c) (Fin.cast nSub_zero i))
  td := fun q d c i => match q with | 0 => forTileV m d (tileIx (Fin.cast nCore_zero c) (Fin.cast nSub_zero i))
  x := fun _ _ => iprop(emp)

instance PV_storable : (PV (F := F) m).IsStorable where
  st q d c := match q with
    | 0 => (inferInstance : BI.Storable (upEmb : UEmb _ 𝕄) (bigSep Finset.univ fun i : Fin 16 => forTile m d (tileIx (Fin.cast nCore_zero c) i)))
  dn q d c := match q with
    | 0 => (inferInstance : BI.Storable (upEmb : UEmb _ 𝕄) (bigSep Finset.univ fun i : Fin 16 => forTileV m d (tileIx (Fin.cast nCore_zero c) i)))
  go q d c i := match q with
    | 0 => (inferInstance : BI.Storable (upEmb : UEmb _ 𝕄) (forTile m d (tileIx (Fin.cast nCore_zero c) (Fin.cast nSub_zero i))))
  td q d c i := match q with
    | 0 => (inferInstance : BI.Storable (upEmb : UEmb _ 𝕄) (forTileV m d (tileIx (Fin.cast nCore_zero c) (Fin.cast nSub_zero i))))

/-- The sixteen tasks' shares are the SparseCore's, both ways, with the value. -/
theorem vecSplitV : (K (F := F)).VecSplit' (PV m) 0 := by
  intro d c
  show (bigSep Finset.univ fun i : Fin 16 => forTile m d (tileIx (Fin.cast nCore_zero c) i)) ⊢ |={Set.univ}=> iprop(
      (bigSep Finset.univ fun i : Fin ((K (F := F)).nSub 0) => forTile m d (tileIx (Fin.cast nCore_zero c) (Fin.cast nSub_zero i)))
      ∗ ((bigSep Finset.univ fun i : Fin ((K (F := F)).nSub 0) => forTileV m d (tileIx (Fin.cast nCore_zero c) (Fin.cast nSub_zero i)))
          -∗ bigSep Finset.univ fun i : Fin 16 => forTileV m d (tileIx (Fin.cast nCore_zero c) i)))
  have e : (bigSep Finset.univ fun i : Fin ((K (F := F)).nSub 0) => forTile m d (tileIx (Fin.cast nCore_zero c) (Fin.cast nSub_zero i)))
      = bigSep Finset.univ fun i : Fin 16 => forTile m d (tileIx (Fin.cast nCore_zero c) i) :=
    bigSep_congr fun _ _ => congrArg (fun i => forTile m d (tileIx (Fin.cast nCore_zero c) i)) (Fin.ext rfl)
  have eV : (bigSep Finset.univ fun i : Fin ((K (F := F)).nSub 0) => forTileV m d (tileIx (Fin.cast nCore_zero c) (Fin.cast nSub_zero i)))
      = bigSep Finset.univ fun i : Fin 16 => forTileV m d (tileIx (Fin.cast nCore_zero c) i) :=
    bigSep_congr fun _ _ => congrArg (fun i => forTileV m d (tileIx (Fin.cast nCore_zero c) i)) (Fin.ext rfl)
  rw [e, eV]
  iintro H; imodintro
  isplitl [H]; · iexact H
  iintro H; iexact H

end Cert.Kernel.Hand

end
-- ==== Proof.Bits.Launch.lean ====
/-
  The launch: the launch element of the ghost state dealt to the handshakes and to the three TensorCore pipelines,
  and the run of all the device's threads from the proofs of the vector subcores' task and of @main.
-/
import proofs.«211565_g20684562498226_cont_8to1_684_24_alg».proof.Proof.Bits.SetupV

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

omit m in
theorem bigSep_emp' {I : Type} (s : Finset I) : (bigSep s fun _ => iprop(emp)) = (iprop(emp) : sProp 𝕄) := bigSep_emp_const s

/-- The launch element: the handshakes' rounds go to the launch theorem, the pipelines' rounds fund each
    device's three pipelines' cells and duty tokens, the counters are let go; no kernel's proof is dealt anything. -/
theorem hu₀ [FloatOps F] : (ownU (u₀ (F := F)) : sProp 𝕄)
    ⊢ |={Set.univ}=> iprop(BI.own (EH (initOf (K (F := F)).hsCells (K (F := F)).hsToks)) ∗ (bigSep Finset.univ fun d : Dev nD => Gp (F := F) d)
        ∗ bigSep Finset.univ fun thr : Thread nD τ => bigSep Finset.univ fun q : Fin 1 => (PV m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP2 := (show (BI.own (((Emb.inl : Emb UP (UP × Counters)).trans (embR : Emb (UP × Counters) 𝕄))
        (initOf (Pipeline.cells (Pipeline.pin (pcfgs (F := F)) adm) pcell_inj) (Pipeline.launchToks (Pipeline.pin (pcfgs (F := F)) adm) pcell_inj))) : sProp 𝕄)
      ⊢ BI.own (EP (initOf (Pipeline.cells (Pipeline.pin (pcfgs (F := F)) adm) pcell_inj) (Pipeline.launchToks (Pipeline.pin (pcfgs (F := F)) adm) pcell_inj)))
      from by unfold EP; exact BI.Entails.refl _) $$ HP
  imod (Pipeline.fund_ghost (Pipeline.pin (pcfgs (F := F)) adm) EP pcell_inj) $$ HP2 with ⟨Hg, Ht⟩
  imodintro
  isplitl [HH]; · iexact HH
  isplitl [Hg Ht]
  · unfold Gp
    simp only [bigSep_sep']
    isplitl [Hg]; · iexact Hg
    iexact Ht
  unfold PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Hand

end
-- ==== Proof.Bits.Args.lean ====
/-
  The twenty argument arrays of @main, as buffers of a device: what every frame claim says end unchanged.
-/
import proofs.«211565_g20684562498226_cont_8to1_684_24_alg».proof.Proof.Bits.Setup

noncomputable section

namespace Cert.Kernel.Hand

open Cert.Kernel Idealize.ShloMosaic

/-- The twenty argument arrays. -/
def argRefs : Finset (DevRef τ sig) :=
  {Proc.devRef .tc main_arg0, Proc.devRef .tc main_arg1, Proc.devRef .tc main_arg2, Proc.devRef .tc main_arg3, Proc.devRef .tc main_arg4,
   Proc.devRef .tc main_arg5, Proc.devRef .tc main_arg6, Proc.devRef .tc main_arg7, Proc.devRef .tc main_arg8, Proc.devRef .tc main_arg9,
   Proc.devRef .tc main_arg10, Proc.devRef .tc main_arg11, Proc.devRef .tc main_arg12, Proc.devRef .tc main_arg13, Proc.devRef .tc main_arg14,
   Proc.devRef .tc main_arg15, Proc.devRef .tc main_arg16, Proc.devRef .tc main_arg17, Proc.devRef .tc main_arg18, Proc.devRef .tc main_arg19}

end Cert.Kernel.Hand

end
-- ==== Proof.Bits.MainOps.lean ====
/-
  The four straight lines of host operations of @main, between and around its three TensorCore kernel regions and the
  SparseCore call, each operation as the printed program spells it.
-/
import proofs.«211565_g20684562498226_cont_8to1_684_24_alg».proof.Proof.Bits.Args
import Idealize.ShloMosaic.Lib.StableHlo.Run

noncomputable section

namespace Cert.Kernel.Hand

open Cert.Kernel Cert.Kernel.Gen
open Idealize.ShloMosaic
open Idealize.SL Idealize.SL.Sem Idealize.ShloMosaic.StableHlo

variable {F : FTy → Type} [FloatOps F]

/-- Before the first region: the value projection's slices, four vectors as rows. -/
abbrev ops0 : List (HloOp τ sig (Elt F)) :=
  [StableHlo.unary main_arg6 main_v0 ((extractStridedSlice S768x768 ![1536, 0] · slices_S2304x768_S768x768_1536_0) : (⟨S2304x768, .f32⟩ : BufTy).Contents (Elt F) → (⟨S768x768, .f32⟩ : BufTy).Contents (Elt F)),
   StableHlo.unary main_arg7 main_v1 ((extractStridedSlice S768 ![1536] · slices_S2304_S768_1536) : (⟨S2304, .f32⟩ : BufTy).Contents (Elt F) → (⟨S768, .f32⟩ : BufTy).Contents (Elt F)),
   StableHlo.reshape main_v1 main_v2 rfl shapeCasts_S768_S1x768,
   StableHlo.reshape main_arg3 main_v3 rfl shapeCasts_S768_S1x768,
   StableHlo.reshape main_arg5 main_v4 rfl shapeCasts_S768_S1x768,
   StableHlo.reshape main_arg9 main_v5 rfl shapeCasts_S768_S1x768]

/-- The buffers the line writes, in order. -/
abbrev ops0_W : List (Ref sig .tc) := [main_v0, main_v1, main_v2, main_v3, main_v4, main_v5]

/-- Between the SparseCore call and the second region: two narrowings, seven vectors as rows. -/
abbrev ops1 : List (HloOp τ sig (Elt F)) :=
  [StableHlo.unary main_arg0 main_v8 ((truncf .bf16 · bitsLt_bf16_f32) : (⟨S4096x768, .f32⟩ : BufTy).Contents (Elt F) → (⟨S4096x768, .bf16⟩ : BufTy).Contents (Elt F)),
   StableHlo.unary main_arg1 main_v9 ((truncf .bf16 · bitsLt_bf16_f32) : (⟨S4096x768, .f32⟩ : BufTy).Contents (Elt F) → (⟨S4096x768, .bf16⟩ : BufTy).Contents (Elt F)),
   StableHlo.reshape main_arg11 main_v10 rfl shapeCasts_S768_S1x768,
   StableHlo.reshape main_arg12 main_v11 rfl shapeCasts_S768_S1x768,
   StableHlo.reshape main_arg13 main_v12 rfl shapeCasts_S768_S1x768,
   StableHlo.reshape main_arg14 main_v13 rfl shapeCasts_S768_S1x768,
   StableHlo.reshape main_arg15 main_v14 rfl shapeCasts_S768_S1x768,
   StableHlo.reshape main_arg16 main_v15 rfl shapeCasts_S768_S1x768,
   StableHlo.reshape main_arg17 main_v16 rfl shapeCasts_S768_S1x768]

/-- The buffers the line writes, in order. -/
abbrev ops1_W : List (Ref sig .tc) := [main_v8, main_v9, main_v10, main_v11, main_v12, main_v13, main_v14, main_v15, main_v16]

/-- Between the second and the third region: the aliased output's buffer starts as a copy of the SparseCore call's result. -/
abbrev ops2 : List (HloOp τ sig (Elt F)) :=
  [StableHlo.unary main_v7 main_v18 id]

/-- The buffers the line writes, in order. -/
abbrev ops2_W : List (Ref sig .tc) := [main_v18]

/-- After the third region: the new queue pointer, (pointer + 4096) modulo 65536 (the modulo function's body at its one call). -/
abbrev ops3 : List (HloOp τ sig (Elt F)) :=
  [StableHlo.nullary main_c (constantI S_ 32 4096#32),
   StableHlo.unary main_c main_v19 (broadcastInDim S1 ![] bcast_S_S1 : (⟨S_, .i32⟩ : BufTy).Contents (Elt F) → (⟨S1, .i32⟩ : BufTy).Contents (Elt F)),
   StableHlo.binary main_arg19 main_v19 main_v20 (addi : (⟨S1, .i32⟩ : BufTy).Contents (Elt F) → (⟨S1, .i32⟩ : BufTy).Contents (Elt F) → (⟨S1, .i32⟩ : BufTy).Contents (Elt F)),
   StableHlo.nullary main_c_0 (constantI S_ 32 65536#32),
   StableHlo.TRef.unary (.of main_c_0) main_call0.v0 id,
   StableHlo.TRef.nullary main_call0.c (constantI S_ 32 0#32),
   StableHlo.TRef.binary main_call0.v0 main_call0.c main_call0.v1 (cmpi .eq),
   StableHlo.TRef.nullary main_call0.c_0 (constantI S_ 32 1#32),
   StableHlo.TRef.ternary main_call0.v1 main_call0.c_0 main_call0.v0 main_call0.call0.v0 select,
   StableHlo.TRef.unary main_call0.call0.v0 main_call0.v3 (broadcastInDim S1 ![] bcast_S_S1),
   StableHlo.TRef.binary (.of main_v20) main_call0.v3 main_call0.v4 Host.remsi,
   StableHlo.TRef.nullary main_call0.c_1 (constantI S_ 32 0#32),
   StableHlo.TRef.unary main_call0.c_1 main_call0.v5 (broadcastInDim S1 ![] bcast_S_S1),
   StableHlo.TRef.binary main_call0.v4 main_call0.v5 main_call0.v6 (cmpi .ne),
   StableHlo.TRef.nullary main_call0.c_2 (constantI S_ 32 0#32),
   StableHlo.TRef.unary main_call0.c_2 main_call0.v7 (broadcastInDim S1 ![] bcast_S_S1),
   StableHlo.TRef.binary main_call0.v4 main_call0.v7 main_call0.v8 (cmpi .slt),
   StableHlo.TRef.nullary main_call0.c_3 (constantI S_ 32 0#32),
   StableHlo.TRef.binary main_call0.call0.v0 main_call0.c_3 main_call0.v9 (cmpi .slt),
   StableHlo.TRef.unary main_call0.v9 main_call0.v10 (broadcastInDim S1 ![] bcast_S_S1),
   StableHlo.TRef.binary main_call0.v8 main_call0.v10 main_call0.v11 (cmpi .ne),
   StableHlo.TRef.binary main_call0.v11 main_call0.v6 main_call0.v12 andi,
   StableHlo.TRef.unary main_call0.call0.v0 main_call0.v13 (broadcastInDim S1 ![] bcast_S_S1),
   StableHlo.TRef.binary main_call0.v4 main_call0.v13 main_call0.v14 addi,
   StableHlo.TRef.ternary main_call0.v12 main_call0.v14 main_call0.v4 main_call0.v15 select]

/-- The buffers the line writes, in order. -/
abbrev ops3_W : List (Ref sig .tc) := [main_c, main_v19, main_v20, main_c_0, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v21]

end Cert.Kernel.Hand

end
-- ==== Proof.Bits.MainEq.lean ====
/-
  @main on the TensorCore as its segments: four straight lines of host operations around the three TensorCore
  kernel regions and the SparseCore call, in the order the program runs them.
-/
import proofs.«211565_g20684562498226_cont_8to1_684_24_alg».proof.Proof.Bits.MainOps

noncomputable section

namespace Cert.Kernel.Hand

open Cert.Kernel Cert.Kernel.Gen
open Idealize.ShloMosaic
open Idealize.SL Idealize.SL.Sem

variable {F : FTy → Type} [FloatOps F]

/-- A TensorCore kernel region's call, as @main spells it. -/
abbrev callP (p : Fin 3) : Prog (TpuEff nD τ sig (Elt F) (SparseCore.Sig (ΛP (F := F)) 1) .tc) PUnit :=
  Prog.lift (.customCall (SparseCore.inner (Pipeline.entry p)) ())

/-- @main is those segments in order (the two sides unfold to the same sequence of statements). -/
theorem main_eq (d : Dev nD) : main (F := F) d =
    (StableHlo.seq (ops0 (F := F)) >>= fun _ => callP 0 >>= fun _ => sc.run d 0 >>= fun _ => StableHlo.seq (ops1 (F := F)) >>= fun _ =>
      callP 1 >>= fun _ => StableHlo.seq (ops2 (F := F)) >>= fun _ => callP 2 >>= fun _ => StableHlo.seq (ops3 (F := F))) := by
  rfl

end Cert.Kernel.Hand

end
-- ==== Proof.Bits.MainOpsFacts.lean ====
/-
  Side facts of @main's four straight lines of host operations: every operation names TensorCore buffers only,
  none allocates, each writes its one result buffer, and no result buffer is an argument array.
-/
import proofs.«211565_g20684562498226_cont_8to1_684_24_alg».proof.Proof.Bits.MainOps

noncomputable section

namespace Cert.Kernel.Hand

open Cert.Kernel Cert.Kernel.Gen
open Idealize.ShloMosaic Idealize.ShloMosaic.StableHlo
open Idealize.SL Idealize.SL.Sem

variable {F : FTy → Type} [FloatOps F]

/-- An operation's written set is the singleton of its result buffer, and that buffer is in the line's list. -/
local macro "wr1" : tactic =>
  `(tactic| (simp only [nullary_writes, unary_writes, binary_writes, ternary_writes, quaternary_writes, reshape_writes, Finset.singleton_subset_iff, List.mem_toFinset]; exact List.mem_map_of_mem (by decide)))

/-- A fact of every operation of a literal list: the list's conjunction, one goal per operation. -/
local macro "each_op" t:tactic : tactic =>
  `(tactic| (refine List.forall_iff_forall_mem.mp ?_; simp only [List.Forall]; (repeat' apply And.intro); all_goals ($t:tactic)))

theorem ops0_sub : ∀ op ∈ (ops0 : List (HloOp τ sig (Elt F))), op.bufs ⊆ tcRefs τ sig := by
  each_op (simp only [unary_bufs_sub, binary_bufs_sub, nullary_bufs_sub, ternary_bufs_sub, reshape_bufs_sub])
theorem ops1_sub : ∀ op ∈ (ops1 : List (HloOp τ sig (Elt F))), op.bufs ⊆ tcRefs τ sig := by
  each_op (simp only [unary_bufs_sub, binary_bufs_sub, nullary_bufs_sub, ternary_bufs_sub, reshape_bufs_sub])
theorem ops2_sub : ∀ op ∈ (ops2 : List (HloOp τ sig (Elt F))), op.bufs ⊆ tcRefs τ sig := by
  each_op (simp only [unary_bufs_sub, binary_bufs_sub, nullary_bufs_sub, ternary_bufs_sub, reshape_bufs_sub])
theorem ops3_sub : ∀ op ∈ (ops3 : List (HloOp τ sig (Elt F))), op.bufs ⊆ tcRefs τ sig := by
  each_op (simp only [unary_bufs_sub, binary_bufs_sub, nullary_bufs_sub, ternary_bufs_sub, reshape_bufs_sub])

theorem ops0_fresh : ∀ op ∈ (ops0 : List (HloOp τ sig (Elt F))), op.fresh = ∅ := by each_op rfl
theorem ops1_fresh : ∀ op ∈ (ops1 : List (HloOp τ sig (Elt F))), op.fresh = ∅ := by each_op rfl
theorem ops2_fresh : ∀ op ∈ (ops2 : List (HloOp τ sig (Elt F))), op.fresh = ∅ := by each_op rfl
theorem ops3_fresh : ∀ op ∈ (ops3 : List (HloOp τ sig (Elt F))), op.fresh = ∅ := by each_op rfl

theorem ops0_writes : ∀ op ∈ (ops0 : List (HloOp τ sig (Elt F))), op.writes ⊆ (ops0_W.map (Proc.devRef (τ := τ) .tc)).toFinset := by each_op wr1
theorem ops1_writes : ∀ op ∈ (ops1 : List (HloOp τ sig (Elt F))), op.writes ⊆ (ops1_W.map (Proc.devRef (τ := τ) .tc)).toFinset := by each_op wr1
theorem ops2_writes : ∀ op ∈ (ops2 : List (HloOp τ sig (Elt F))), op.writes ⊆ (ops2_W.map (Proc.devRef (τ := τ) .tc)).toFinset := by each_op wr1
theorem ops3_writes : ∀ op ∈ (ops3 : List (HloOp τ sig (Elt F))), op.writes ⊆ (ops3_W.map (Proc.devRef (τ := τ) .tc)).toFinset := by each_op wr1

/-- A line whose written buffers (a literal list) include no argument array writes no argument array. -/
theorem keep_of_writes {ops : List (HloOp τ sig (Elt F))} {W : List (Ref sig .tc)}
    (hw : ∀ op ∈ ops, op.writes ⊆ (W.map (Proc.devRef (τ := τ) .tc)).toFinset)
    (hd : ∀ b ∈ argRefs, b ∉ (W.map (Proc.devRef (τ := τ) .tc)).toFinset) : ∀ op ∈ ops, ∀ b ∈ argRefs, b ∉ op.writes :=
  fun op hop b hb hb' => hd b hb (hw op hop hb')

theorem ops0_keep : ∀ op ∈ (ops0 : List (HloOp τ sig (Elt F))), ∀ b ∈ argRefs, b ∉ op.writes := keep_of_writes ops0_writes (by decide)
theorem ops1_keep : ∀ op ∈ (ops1 : List (HloOp τ sig (Elt F))), ∀ b ∈ argRefs, b ∉ op.writes := keep_of_writes ops1_writes (by decide)
theorem ops2_keep : ∀ op ∈ (ops2 : List (HloOp τ sig (Elt F))), ∀ b ∈ argRefs, b ∉ op.writes := keep_of_writes ops2_writes (by decide)
theorem ops3_keep : ∀ op ∈ (ops3 : List (HloOp τ sig (Elt F))), ∀ b ∈ argRefs, b ∉ op.writes := keep_of_writes ops3_writes (by decide)

end Cert.Kernel.Hand

end
-- ==== Proof.Bits.ScCall.lean ====
/-
  The SparseCore call seen from @main: the queue and its copy, each whole, are the 32 strips of 24 rows the
  vector subcores are handed (2 SparseCores × 16 vector subcores), and the strips handed back are the two arrays
  whole again, the queue at its launch contents, the copy at whatever the tasks left.
-/
import proofs.«211565_g20684562498226_cont_8to1_684_24_alg».proof.Proof.Bits.SetupV

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-- Distinct strips share no row. -/
theorem strips_disjoint : ∀ i ∈ (Finset.univ : Finset (Fin 32)), ∀ j ∈ (Finset.univ : Finset (Fin 32)), i ≠ j → Disjoint (stripSet i) (stripSet j) :=
  fun _ _ _ _ h => Rect.part_disjoint hdiv h
/-- The 32 strips are all 768 rows. -/
theorem strips_cover : (Finset.univ : Finset (Fin 32)).biUnion stripSet = Finset.univ := Rect.biUnion_part hdiv

/-- The queue whole is its 32 strips. -/
theorem qPts_strips (d : Dev nD) (f : Buf (Elt F) (qLoc d)) :
    (qLoc d ↦{fullShare} f : sProp 𝕄) = bigSep Finset.univ fun t : Fin 32 => qLoc d ↦[stripSet t]{fullShare} f := by
  rw [← pointsTo_biUnion Finset.univ (ℓ := qLoc d) stripSet strips_disjoint, strips_cover]; try rfl
/-- The copy whole is its 32 strips. -/
theorem oPts_strips (d : Dev nD) (f : Buf (Elt F) (oLoc d)) :
    (oLoc d ↦{fullShare} f : sProp 𝕄) = bigSep Finset.univ fun t : Fin 32 => oLoc d ↦[stripSet t]{fullShare} f := by
  rw [← pointsTo_biUnion Finset.univ (ℓ := oLoc d) stripSet strips_disjoint, strips_cover]; try rfl

/-- Strip `16 c + i` is the pair `(c, i)` under the standard numbering of pairs. -/
theorem tileIx_eq (ci : Fin 2 × Fin 16) : tileIx ci.1 ci.2 = finProdFinEquiv ci := by
  apply Fin.ext
  simp only [tileIx, finProdFinEquiv, Equiv.coe_fn_mk]
  omega

/-- Conjoined over the 32 strips is conjoined over the SparseCores and, per SparseCore, its vector subcores. -/
theorem bigSep_tiles (Φ : Fin 32 → sProp 𝕄) :
    bigSep Finset.univ Φ = bigSep Finset.univ fun c : Fin 2 => bigSep Finset.univ fun i : Fin 16 => Φ (tileIx c i) := by
  rw [← bigSep_univ_prod (fun ci : Fin 2 × Fin 16 => Φ (tileIx ci.1 ci.2)),
    ← Finset.map_univ_equiv (finProdFinEquiv : Fin 2 × Fin 16 ≃ Fin 32), bigSep_map]
  exact bigSep_congr fun ci _ => congrArg Φ (tileIx_eq ci).symm

/-- What the call takes, for both SparseCores: every strip of the queue at its launch contents and of the copy at
    some contents. -/
theorem st_eq (d : Dev nD) :
    (bigSep Finset.univ fun c : Fin ((K (F := F)).nCore 0) => (PV m).st 0 d c)
      = iprop((bigSep Finset.univ fun t : Fin 32 => qStrip m d t) ∗ bigSep Finset.univ fun t : Fin 32 => iprop(∃ f, oStrip d t f)) := by
  rw [bigSep_tiles (fun t => qStrip m d t), bigSep_tiles (fun t => iprop(∃ f, oStrip d t f)), ← bigSep_sep']
  refine bigSep_congr fun c _ => ?_
  rw [← bigSep_sep']
  rfl
/-- What a vector subcore's strip of the copy is known to hold afterwards: the queue's words from column 4096 on. -/
abbrev copied (d : Dev nD) (t : Fin 32) (f : Buf (Elt F) (oLoc d)) : Prop :=
  ∀ idx ∈ stripSet t, 4096 ≤ (idx 1).val → f idx = m (qLoc d) idx

/-- What it hands back: every strip of the queue, and of the copy at contents that hold the queue's words from
    column 4096 on. -/
theorem dn_eq (d : Dev nD) :
    (bigSep Finset.univ fun c : Fin ((K (F := F)).nCore 0) => (PV m).dn 0 d c)
      = iprop((bigSep Finset.univ fun t : Fin 32 => qStrip m d t) ∗ bigSep Finset.univ fun t : Fin 32 => iprop(∃ f, oStrip d t f ∗ ⌜copied m d t f⌝)) := by
  rw [bigSep_tiles (fun t => qStrip m d t), bigSep_tiles (fun t => iprop(∃ f, oStrip d t f ∗ ⌜copied m d t f⌝)), ← bigSep_sep']
  refine bigSep_congr fun c _ => ?_
  rw [← bigSep_sep']
  rfl

variable [FloatOps F] [∀ e, Nonempty (Elt F e)]

/-- A pure fact of every member of a conjunction is a fact of all. -/
theorem bigSep_pure_all {I : Type} [DecidableEq I] (S : Finset I) (φ : I → Prop) (Ψ : I → sProp 𝕄) :
    bigSep S (fun i => iprop(Ψ i ∗ ⌜φ i⌝)) ⊢ iprop(⌜∀ i ∈ S, φ i⌝ ∗ bigSep S Ψ) := by
  induction S using Finset.induction_on with
  | empty =>
    rw [bigSep_empty, bigSep_empty]
    iintro -
    isplitr
    · ipureintro; exact fun i hi => absurd hi (Finset.notMem_empty i)
    · iempintro
  | insert c S hc ih =>
    have e1 : bigSep (insert c S) (fun i => iprop(Ψ i ∗ ⌜φ i⌝)) = iprop((Ψ c ∗ ⌜φ c⌝) ∗ bigSep S fun i => iprop(Ψ i ∗ ⌜φ i⌝)) :=
      bigSep_insert hc
    have e2 : bigSep (insert c S) Ψ = iprop(Ψ c ∗ bigSep S Ψ) := bigSep_insert hc
    rw [e1, e2]
    iintro ⟨⟨Hc, %hφ⟩, HS⟩
    ihave H := ih $$ HS
    icases H with ⟨%hall, HS⟩
    isplitr
    · ipureintro
      intro i hi
      rcases Finset.mem_insert.mp hi with rfl | hi
      · exact hφ
      · exact hall i hi
    isplitl [Hc]; · iexact Hc
    iexact HS

/-- The strips of the copy, each holding the queue's words from column 4096 on, are the copy whole holding them. -/
theorem oStrips_join (d : Dev nD) :
    (bigSep Finset.univ fun t : Fin 32 => iprop(∃ f, oStrip d t f ∗ ⌜copied m d t f⌝))
      ⊢ (iprop(∃ g, (oLoc d ↦{fullShare} g) ∗ ⌜∀ idx : S768x65536.Idx, 4096 ≤ (idx 1).val → g idx = m (qLoc d) idx⌝) : sProp 𝕄) := by
  refine (bigSep_exists_pi Finset.univ (fun t (f : Buf (Elt F) (oLoc d)) => iprop(oStrip d t f ∗ ⌜copied m d t f⌝))).trans ?_
  iintro ⟨%fs, H⟩
  ihave H1 := (bigSep_pure_all Finset.univ (fun t => copied m d t (fs t)) (fun t => oStrip d t (fs t))) $$ H
  icases H1 with ⟨%hc, H⟩
  ihave H' := (pointsTo_biUnion_join Finset.univ stripSet fs (fs 0) strips_disjoint) $$ H
  icases H' with ⟨%g, %hg, Hg⟩
  rw [strips_cover]
  iexists g
  isplitl [Hg]; · iexact Hg
  ipureintro
  intro idx hidx
  have hmem : idx ∈ (Finset.univ : Finset (Fin 32)).biUnion stripSet := by rw [strips_cover]; exact Finset.mem_univ _
  obtain ⟨t, -, ht⟩ := Finset.mem_biUnion.mp hmem
  rw [hg t (Finset.mem_univ t) idx ht]
  exact hc t (Finset.mem_univ t) idx ht hidx

/-- The two arrays whole are what the call takes. -/
theorem sc_take (d : Dev nD) (fo : Buf (Elt F) (oLoc d)) :
    iprop((qLoc d ↦{fullShare} m (qLoc d)) ∗ oLoc d ↦{fullShare} fo)
      ⊢ (bigSep Finset.univ fun c : Fin ((K (F := F)).nCore 0) => (PV m).st 0 d c : sProp 𝕄) := by
  rw [st_eq, qPts_strips, oPts_strips]
  iintro ⟨Hq, Ho⟩
  isplitl [Hq]; · iexact Hq
  have h : (bigSep Finset.univ fun t : Fin 32 => oStrip d t fo : sProp 𝕄) ⊢ bigSep Finset.univ fun t : Fin 32 => iprop(∃ f, oStrip d t f) :=
    bigSep_mono fun t _ => exists_intro (Φ := fun f => oStrip d t f) fo
  iapply h; iexact Ho

/-- What the call hands back is the two arrays whole: the queue unchanged, the copy holding the queue's words from
    column 4096 on. -/
theorem sc_give (d : Dev nD) :
    (bigSep Finset.univ fun c : Fin ((K (F := F)).nCore 0) => (PV m).dn 0 d c : sProp 𝕄)
      ⊢ iprop((qLoc d ↦{fullShare} m (qLoc d)) ∗ ∃ g, (oLoc d ↦{fullShare} g) ∗ ⌜∀ idx : S768x65536.Idx, 4096 ≤ (idx 1).val → g idx = m (qLoc d) idx⌝) := by
  rw [dn_eq, qPts_strips]
  iintro ⟨Hq, Ho⟩
  isplitl [Hq]; · iexact Hq
  iapply (oStrips_join m d); iexact Ho

end Cert.Kernel.Hand

end
-- ==== Proof.Bits.MainRun.lean ====
/-
  @main on the TensorCore, run segment by segment: each straight line of host operations over the TensorCore's
  unscoped buffers held whole, each kernel region by its region step (a hypothesis here: the three regions' proofs
  are their own modules), the SparseCore call by the launch theorem's call rule. Carried through: the twenty
  argument arrays keep their launch contents (no host operation and no region writes one).
-/
import proofs.«211565_g20684562498226_cont_8to1_684_24_alg».proof.Proof.Bits.Launch
import proofs.«211565_g20684562498226_cont_8to1_684_24_alg».proof.Proof.Bits.MainEq
import proofs.«211565_g20684562498226_cont_8to1_684_24_alg».proof.Proof.Bits.MainOpsFacts
import proofs.«211565_g20684562498226_cont_8to1_684_24_alg».proof.Proof.Bits.ScCall
import Idealize.ShloMosaic.Lib.Pipeline.Frame

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ
/-- The SparseCore program's body table. -/
abbrev DK [FloatOps F] : Defs nD τ sig (Elt F) (SparseCore.Sig (ΛP (F := F)) 1) := (K (F := F)).defs (D (F := F))

variable (m : (ℓ : Loc nD τ sig) → Buf (Elt F) ℓ) (ρ : Dev nD → PrngReg)

/-- The TensorCore's unscoped buffers: what @main holds whole between its segments. -/
abbrev Sall : Finset (DevRef τ sig) := Pipeline.ucRefs τ sig

/-- A valuation of device `d`'s buffers at which every argument array has its launch contents. -/
def Keeps (d : Dev nD) (V : Valuation τ sig (Elt F)) : Prop := ∀ b ∈ argRefs, V b = StableHlo.launchContents m d b

/-- What @main leaves the claim: the buffers held at a valuation of which the final fact `I` holds. -/
def FINI (I : Valuation τ sig (Elt F) → Prop) (d : Dev nD) : sProp 𝕄 := iprop(∃ V : Valuation τ sig (Elt F), ⌜I V⌝ ∗ held (T d) Sall V)
/-- The frame's: the arguments kept. -/
abbrev FIN (d : Dev nD) : sProp 𝕄 := FINI (Keeps m d) d

/-- Pipeline `p`'s share of the launch's ghost state on device `d`. -/
abbrev Gq (p : Fin 3) (d : Dev nD) : sProp 𝕄 :=
  iprop(Pipeline.cellsGhost (Pipeline.pin (pcfgs (F := F)) adm) EP p d ∗ Pipeline.toksInit (Pipeline.pin (pcfgs (F := F)) adm) EP p d)

set_option maxHeartbeats 1600000 in
/-- A KERNEL REGION as a step of @main, at the pipelines' body table: from the region boundary, the buffers held at
    `V`, what the TensorCore owes (nothing at the pipelines' own index) and the pipeline's ghost state, the region's
    call runs, and the continuation finds the buffers held at a valuation that differs from `V` on the region's
    output arrays at most — the relation `Rel` between the two valuations says how —, and the same debt with only waits at the pipelines' index recorded. -/
def RegionStep [FloatOps F] (p : Fin 3) (Rel : Valuation τ sig (Elt F) → Valuation τ sig (Elt F) → Prop) : Prop :=
  ∀ (d : Dev nD) (O : CellTallies nD τ sig (HIx 1)) (W : Waits sig (HIx 1)), (∀ g, O g none = 0) →
  ∀ (V : Valuation τ sig (Elt F)) {α : Type} (k : PUnit → Prog (TpuEff nD τ sig (Elt F) (ΛP (F := F)) .tc) α) (Q : α → sProp 𝕄),
    iprop((∀ (V' : Valuation τ sig (Elt F)) (W' : Waits sig (HIx 1)),
            iprop(⌜Rel V V'⌝ ∗ ⌜∀ x ∈ W', x ∈ W ∨ x.2 = none⌝ ∗ boundary (T d) ∗ held (T d) Sall V' ∗ owes (T d) O W')
              -∗ wp frame (wpE (D (F := F)) 𝒱 (T d) none) Set.univ (k ⟨⟩) Q)
        ∗ boundary (T d) ∗ held (T d) Sall V ∗ owes (T d) O W ∗ levAts (K (F := F)).L (K (F := F)).lev ∗ Gq p d)
      ⊢ wp frame (wpE (D (F := F)) 𝒱 (T d) none) Set.univ (.op (.customCall (Pipeline.entry p) ()) k) Q

/-- The frame's relation: the exit valuation differs from the entry one on the output arrays `outs` at most. -/
def offOuts (outs : Finset (DevRef τ sig)) (V V' : Valuation τ sig (Elt F)) : Prop := ∀ b, b ∉ outs → V' b = V b

set_option maxHeartbeats 3200000 in
set_option backward.isDefEq.respectTransparency.types false in
/-- A region step, lifted into the SparseCore program's body table and closed by a postcondition. -/
theorem region_lift [FloatOps F] {p : Fin 3} {Rel : Valuation τ sig (Elt F) → Valuation τ sig (Elt F) → Prop} (hr : RegionStep (F := F) p Rel)
    (d : Dev nD) (O : CellTallies nD τ sig (HIx 1)) (W : Waits sig (HIx 1)) (hO : ∀ g, O g none = 0) (V : Valuation τ sig (Elt F))
    (Φ : PUnit → sProp 𝕄) :
    iprop((∀ (V' : Valuation τ sig (Elt F)) (W' : Waits sig (HIx 1)),
            iprop(⌜Rel V V'⌝ ∗ ⌜∀ x ∈ W', x ∈ W ∨ x.2 = none⌝ ∗ boundary (T d) ∗ held (T d) Sall V' ∗ owes (T d) O W') -∗ Φ ⟨⟩)
        ∗ boundary (T d) ∗ held (T d) Sall V ∗ owes (T d) O W ∗ levAts (K (F := F)).L (K (F := F)).lev ∗ Gq p d)
      ⊢ wp frame (wpE (DK (F := F)) 𝒱 (T d) none) Set.univ (callP (F := F) p) Φ := by
  have h1 := hr d O W hO V (α := PUnit) (fun _ => .ret ⟨⟩) Φ
  have h2 := (K (F := F)).wp_liftProg (D (F := F)) 𝒱 (T d) Set.univ none
    (Prog.lift (.customCall (Pipeline.entry p) ()) : Prog (TpuEff nD τ sig (Elt F) (ΛP (F := F)) .tc) PUnit) Φ
  have h0 : iprop((∀ (V' : Valuation τ sig (Elt F)) (W' : Waits sig (HIx 1)),
            iprop(⌜Rel V V'⌝ ∗ ⌜∀ x ∈ W', x ∈ W ∨ x.2 = none⌝ ∗ boundary (T d) ∗ held (T d) Sall V' ∗ owes (T d) O W') -∗ Φ ⟨⟩)
        ∗ boundary (T d) ∗ held (T d) Sall V ∗ owes (T d) O W ∗ levAts (K (F := F)).L (K (F := F)).lev ∗ Gq p d)
      ⊢ iprop((∀ (V' : Valuation τ sig (Elt F)) (W' : Waits sig (HIx 1)),
            iprop(⌜Rel V V'⌝ ∗ ⌜∀ x ∈ W', x ∈ W ∨ x.2 = none⌝ ∗ boundary (T d) ∗ held (T d) Sall V' ∗ owes (T d) O W')
              -∗ wp frame (wpE (D (F := F)) 𝒱 (T d) none) Set.univ (.ret ⟨⟩) Φ)
        ∗ boundary (T d) ∗ held (T d) Sall V ∗ owes (T d) O W ∗ levAts (K (F := F)).L (K (F := F)).lev ∗ Gq p d) := by
    iintro ⟨Hk, Hrest⟩
    isplitl [Hk]
    · iintro %V' %W' H
      rw [wp_ret]; imodintro
      ispecialize Hk $$ %V'
      ispecialize Hk $$ %W'
      iapply Hk; iexact H
    · iexact Hrest
  exact BI.Entails.trans h0 (BI.Entails.trans h1 h2)

/-! ## The segments -/

/-- Recorded waits stay below a level bound when only waits at the pipelines' index (level 0) are added. -/
theorem wbelow_keep {thr : Thread nD τ} {W W' : Waits sig (HIx 1)} {b : ℕ} (h : (K (F := F)).WBelow thr W b)
    (h' : ∀ x ∈ W', x ∈ W ∨ x.2 = none) : (K (F := F)).WBelow thr W' b := fun p hp =>
  (h' p hp).elim (h p) fun e => by rw [e, SparseCore.Cfg.lev_none]; exact Nat.zero_le _

/-- What the TensorCore owes the SparseCores is all at the calls' indices: nothing at the pipelines' index. -/
theorem Otc_none (d : Dev nD) (n : ℕ) : ∀ g, (K (F := F)).Otc d n g none = 0 := by
  intro g
  unfold SparseCore.Cfg.Otc
  simp only [Finset.sum_apply, Finsupp.coe_finset_sum, Finset.sum_ite, Finset.sum_const_zero, add_zero]
  simp [Finset.sum_apply, tallyAt_apply]
  split_ifs <;> simp [tallyAt_apply]

/-- A line that writes no argument array keeps the arguments. -/
theorem keeps_after {d : Dev nD} {ops : List (HloOp τ sig (Elt F))} (hkeep : ∀ op ∈ ops, ∀ b ∈ argRefs, b ∉ op.writes)
    (V : Valuation τ sig (Elt F)) (hV : Keeps m d V) : Keeps m d (StableHlo.after ops V) :=
  fun b hb => (StableHlo.after_of_forall_not_mem ops V fun op hop => hkeep op hop b hb).trans (hV b hb)

set_option backward.isDefEq.respectTransparency.types false in
/-- A straight line of host operations: the continuation finds the buffers at the line's result, of which the next
    stage's fact holds. -/
theorem stretch [FloatOps F] (d : Dev nD) (ops : List (HloOp τ sig (Elt F)))
    (hsub : ∀ op ∈ ops, op.bufs ⊆ StableHlo.tcRefs τ sig) (hfresh : ∀ op ∈ ops, op.fresh = ∅)
    (I J : Valuation τ sig (Elt F) → Prop) (hIJ : ∀ V, I V → J (StableHlo.after ops V))
    (rest : Prog (TpuEff nD τ sig (Elt F) (SparseCore.Sig (ΛP (F := F)) 1) .tc) PUnit) (X : sProp 𝕄) (Φ : PUnit → sProp 𝕄)
    (hnext : ∀ V, J V → iprop(X ∗ boundary (T d) ∗ held (T d) Sall V) ⊢ wp frame (wpE (DK (F := F)) 𝒱 (T d) none) Set.univ rest Φ)
    (V : Valuation τ sig (Elt F)) (hV : I V) :
    iprop(X ∗ boundary (T d) ∗ held (T d) Sall V) ⊢ wp frame (wpE (DK (F := F)) 𝒱 (T d) none) Set.univ (StableHlo.seq ops >>= fun _ => rest) Φ := by
  iintro ⟨HX, Hb, Hh⟩
  iapply (StableHlo.wp_seq 𝒱 none Set.univ d Sall (fun _ => rest) ops
      (fun op hop => Pipeline.sub_ucRefs op (hsub op hop)) hfresh V) $$ [Hb Hh]
  · isplitl [Hb]; · iexact Hb
    iexact Hh
  iintro ⟨Hb, Hh⟩
  iapply (hnext (StableHlo.after ops V) (hIJ V hV))
  isplitl [HX]; · iexact HX
  isplitl [Hb]; · iexact Hb
  iexact Hh

/-- A region that writes no argument array keeps the arguments. -/
theorem keeps_region {d : Dev nD} {outs : Finset (DevRef τ sig)} (houts : ∀ b ∈ argRefs, b ∉ outs) (V V' : Valuation τ sig (Elt F))
    (hV : Keeps m d V) (h : offOuts outs V V') : Keeps m d V' := fun b hb => (h b (houts b hb)).trans (hV b hb)

/-- A kernel region, before call `n` of the SparseCores: the TensorCore's debt to them
    passes through the region untouched. -/
theorem regionSeg [FloatOps F] {p : Fin 3} {Rel : Valuation τ sig (Elt F) → Valuation τ sig (Elt F) → Prop} (hr : RegionStep (F := F) p Rel)
    (I J : Valuation τ sig (Elt F) → Prop) (hIJ : ∀ V V', I V → Rel V V' → J V')
    (κ : GSem nD τ sig → ℕ) (d : Dev nD) (n : ℕ)
    (rest : Prog (TpuEff nD τ sig (Elt F) (SparseCore.Sig (ΛP (F := F)) 1) .tc) PUnit) (GS : sProp 𝕄) (Φ : PUnit → sProp 𝕄)
    (hnext : ∀ V, J V → iprop(iprop((K (F := F)).ctx EH (PV m) κ ∗ (K (F := F)).tcSt EH d n ∗ GS) ∗ boundary (T d) ∗ held (T d) Sall V)
      ⊢ wp frame (wpE (DK (F := F)) 𝒱 (T d) none) Set.univ rest Φ)
    (V : Valuation τ sig (Elt F)) (hV : I V) :
    iprop(iprop((K (F := F)).ctx EH (PV m) κ ∗ (K (F := F)).tcSt EH d n ∗ Gq p d ∗ GS) ∗ boundary (T d) ∗ held (T d) Sall V)
      ⊢ wp frame (wpE (DK (F := F)) 𝒱 (T d) none) Set.univ (callP (F := F) p >>= fun _ => rest) Φ := by
  rw [wp_bind]
  have hst : ((K (F := F)).tcSt (EH (F := F)) d n : sProp 𝕄) = iprop((∃ W, ⌜(K (F := F)).WBelow (T d) W (8 * n)⌝ ∗ owes (T d) ((K (F := F)).Otc d n) W)
      ∗ iprop(atPos (EH (F := F)) ((K (F := F)).doneCell d) n ∅ 0 ∗ reached (EH (F := F)) ((K (F := F)).doneCell d) n
        ∗ (bigSep Finset.univ fun c : Fin τ.nSC => reached (EH (F := F)) ((K (F := F)).startCell d c) ((K (F := F)).sRank c n))
        ∗ bigSep (SparseCore.Cfg.callsFrom n) fun q => bigSep Finset.univ fun c : Fin ((K (F := F)).nCore q) =>
            iprop(dutyTok (EH (F := F)) ((K (F := F)).startCell d ((K (F := F)).core q c)) ((K (F := F)).sRank ((K (F := F)).core q c) q.val) 0
              ∗ cred (tallyAt ((K (F := F)).doneCell d) (some q) 1)))) := rfl
  rw [hst]
  iintro ⟨⟨#Hctx, ⟨⟨%W, %hW, HO⟩, Hst⟩, HGp, HG⟩, Hb, Hh⟩
  ihave Hlev := (SparseCore.Cfg.ctx_levAts κ) $$ Hctx
  iapply (region_lift hr d ((K (F := F)).Otc d n) W (Otc_none d n) V _)
  isplitr [Hb Hh HO Hlev HGp]
  · iintro %V' %W' ⟨%hV', %hW', Hb, Hh, HO⟩
    iapply (hnext V' (hIJ V V' hV hV'))
    rw [hst]
    isplitl [HO Hst HG]
    · isplitr; · iexact Hctx
      isplitl [HO Hst]
      · isplitl [HO]
        · iexists W'; isplitr
          · ipureintro; exact wbelow_keep hW hW'
          · iexact HO
        · iexact Hst
      iexact HG
    isplitl [Hb]; · iexact Hb
    iexact Hh
  · isplitl [Hb]; · iexact Hb
    isplitl [Hh]; · iexact Hh
    isplitl [HO]; · iexact HO
    isplitl [Hlev]; · iexact Hlev
    iexact HGp

/-! ## The SparseCore call -/

/-- The queue and the call's result, as buffers of a device. -/
abbrev q' : DevRef τ sig := Proc.devRef .tc (main_arg18 : Ref sig .tc)
abbrev o' : DevRef τ sig := Proc.devRef .tc (main_v7 : Ref sig .tc)
abbrev qo : Finset (DevRef τ sig) := {q', o'}

theorem qo_sub : qo ⊆ Sall := by
  intro b hb
  rcases Finset.mem_insert.mp hb with rfl | hb
  · exact Finset.mem_filter.mpr ⟨StableHlo.devRef_mem_tcRefs _, by decide⟩
  · rw [Finset.mem_singleton.mp hb]; exact Finset.mem_filter.mpr ⟨StableHlo.devRef_mem_tcRefs _, by decide⟩

omit m in
theorem held_qo (d : Dev nD) (V : Valuation τ sig (Elt F)) :
    (held (T d) qo V : sProp 𝕄) = iprop((qLoc d ↦{fullShare} V q') ∗ oLoc d ↦{fullShare} V o') := by
  unfold StableHlo.held qo
  rw [SparseCore.bigSep_insert' (by decide), bigSep_singleton]

/-- The SparseCore call's result is no argument array: rewriting it keeps the arguments. -/
theorem keeps_update {d : Dev nD} (V : Valuation τ sig (Elt F)) (g : Buf (Elt F) (oLoc d)) (hV : Keeps m d V) :
    Keeps m d (Function.update V o' g) := fun b hb =>
  (Function.update_of_ne (fun e => absurd (e ▸ hb) (by decide)) _ _).trans (hV b hb)

/-- The SparseCore call: the queue and its copy go to the vector subcores as strips and come back whole, the queue
    unchanged; every other buffer is untouched. -/
theorem scSeg [FloatOps F] [∀ e, Nonempty (Elt F e)] (κ : GSem nD τ sig → ℕ) (d : Dev nD)
    (rest : Prog (TpuEff nD τ sig (Elt F) (SparseCore.Sig (ΛP (F := F)) 1) .tc) PUnit) (GS : sProp 𝕄) (Φ : PUnit → sProp 𝕄)
    (I J : Valuation τ sig (Elt F) → Prop) (hIq : ∀ V, I V → V q' = m (qLoc d))
    (hIJ : ∀ V (g : Buf (Elt F) (oLoc d)), I V → (∀ idx : S768x65536.Idx, 4096 ≤ (idx 1).val → g idx = m (qLoc d) idx) → J (Function.update V o' g))
    (hnext : ∀ V, J V → iprop(iprop((K (F := F)).ctx EH (PV m) κ ∗ (K (F := F)).tcSt EH d 1 ∗ GS) ∗ boundary (T d) ∗ held (T d) Sall V)
      ⊢ wp frame (wpE (DK (F := F)) 𝒱 (T d) none) Set.univ rest Φ)
    (V : Valuation τ sig (Elt F)) (hV : I V) :
    iprop(iprop((K (F := F)).ctx EH (PV m) κ ∗ (K (F := F)).tcSt EH d 0 ∗ GS) ∗ boundary (T d) ∗ held (T d) Sall V)
      ⊢ wp frame (wpE (DK (F := F)) 𝒱 (T d) none) Set.univ (sc.run d 0 >>= fun _ => rest) Φ := by
  have hq : V q' = m (qLoc d) := hIq V hV
  rw [wp_bind, StableHlo.held_sub_split (T d) qo_sub V, held_qo, hq]
  iintro ⟨⟨#Hctx, Hst, HG⟩, Hb, ⟨Hq, Ho⟩, Hrest⟩
  iapply ((K (F := F)).wp_run (D (F := F)) 𝒱 (EH := EH) (P := PV m) κ d 0) $$ [Hst Hq Ho Hb Hrest HG]
  isplitr; · iexact Hctx
  isplitl [Hst]; · iexact Hst
  isplitl [Hq Ho]
  · iapply (sc_take m d (V o'))
    isplitl [Hq]; · iexact Hq
    iexact Ho
  iintro ⟨Hst, Hdn⟩
  ihave Hdn' := (sc_give m d) $$ Hdn
  icases Hdn' with ⟨Hq, %g, Ho, %hg⟩
  iapply (hnext (Function.update V o' g) (hIJ V g hV hg))
  isplitl [Hst HG]
  · isplitr; · iexact Hctx
    isplitl [Hst]; · iexact Hst
    iexact HG
  isplitl [Hb]; · iexact Hb
  rw [StableHlo.held_sub_split (T d) qo_sub (Function.update V o' g), held_qo,
    Function.update_of_ne (show q' ≠ o' by decide), Function.update_self, hq,
    StableHlo.held_congr (T d) (S := Sall \ qo) (V := Function.update V o' g) (V' := V)
      (fun b hb => Function.update_of_ne (fun e => (Finset.mem_sdiff.mp hb).2 (by rw [e]; exact Finset.mem_insert_of_mem (Finset.mem_singleton_self _))) _ _)]
  isplitl [Hq Ho]
  · isplitl [Hq]; · iexact Hq
    iexact Ho
  iexact Hrest

/-! ## The end of @main, and @main whole -/

/-- At the return: the TensorCore's handshake state after the one call, and the buffers held with the arguments kept. -/
theorem finish [FloatOps F] (I : Valuation τ sig (Elt F) → Prop) (κ : GSem nD τ sig → ℕ) (d : Dev nD) (V : Valuation τ sig (Elt F)) (hV : I V) :
    iprop(iprop((K (F := F)).ctx EH (PV m) κ ∗ (K (F := F)).tcSt EH d 1 ∗ emp) ∗ boundary (T d) ∗ held (T d) Sall V)
      ⊢ wp frame (wpE (DK (F := F)) 𝒱 (T d) none) Set.univ (pure PUnit.unit : Prog (TpuEff nD τ sig (Elt F) (SparseCore.Sig (ΛP (F := F)) 1) .tc) PUnit)
          fun _ => iprop((K (F := F)).tcSt EH d 1 ∗ FINI I d) := by
  rw [wp_pure]
  iintro ⟨⟨-, Hst, -⟩, -, Hh⟩
  imodintro
  isplitl [Hst]; · iexact Hst
  unfold FINI
  iexists V; isplitr
  · ipureintro; exact hV
  · iexact Hh

/-! ## The final state, and the run -/

theorem args_sub : argRefs ⊆ Sall := by
  intro b hb
  refine Finset.mem_filter.mpr ⟨?_, ?_⟩
  · revert b; decide
  · revert b; decide

omit m in
/-- A buffer held whole reads, against a final state, as that state's contents of it. -/
theorem held_read (d : Dev nD) (V : Valuation τ sig (Elt F)) (s' : Phys nD τ sig (Elt F)) (b : DevRef τ sig) (hb : b ∈ Sall) :
    iprop(held (T d) Sall V ∗ SI s') ⊢ (⌜s'.mem.mem (d, b) = V b⌝ : sProp 𝕄) := by
  rw [StableHlo.held_sub_split (T d) (Finset.singleton_subset_iff.mpr hb) V]
  unfold StableHlo.held
  rw [bigSep_singleton]
  iintro ⟨⟨Hb, -⟩, HSI⟩
  ihave H := (SI_pointsTo_agree (st := s') (ℓ := (d, b)) (I := Finset.univ) (q := fullShare) (f := V b)) $$ [HSI Hb]
  · isplitl [HSI] <;> iassumption
  icases H with %h
  ipureintro; exact funext fun i => h i (Finset.mem_univ i)

/-- What the claim reads of a final state on device `d`: every argument array at its launch contents. -/
def fq (d : Dev nD) (s' : Phys nD τ sig (Elt F)) : Prop := ∀ b ∈ argRefs, s'.mem.mem (d, b) = m (d, b)

/-- Read against a final state, the buffers held at a valuation of which `I` holds: the state's contents of every
    unscoped buffer are some such valuation's. -/
def fqI (I : Valuation τ sig (Elt F) → Prop) (d : Dev nD) (s' : Phys nD τ sig (Elt F)) : Prop :=
  ∃ V : Valuation τ sig (Elt F), I V ∧ ∀ b ∈ Sall, s'.mem.mem (d, b) = V b

omit m in
theorem hfinI (I : Valuation τ sig (Elt F) → Prop) (d : Dev nD) (s' : Phys nD τ sig (Elt F)) :
    iprop(FINI I d ∗ SI s') ⊢ (⌜fqI I d s'⌝ : sProp 𝕄) := by
  unfold FINI
  iintro ⟨⟨%V, %hV, Hh⟩, HSI⟩
  have key : iprop(held (T d) Sall V ∗ SI s') ⊢ (⌜fqI I d s'⌝ : sProp 𝕄) :=
    fun a ha => ⟨V, hV, fun b hb => held_read d V s' b hb a ha⟩
  iapply key
  isplitl [Hh]; · iexact Hh
  iexact HSI

theorem fq_of_fqI (d : Dev nD) (s' : Phys nD τ sig (Elt F)) (h : fqI (Keeps m d) d s') : fq m d s' := by
  obtain ⟨V, hV, hr⟩ := h
  exact fun b hb => (hr b (args_sub hb)).trans (hV b hb)

/-- The run's postcondition: on every device every argument array ends at its launch contents. -/
def QC : PUnit × MemSt nD τ sig (Elt F) → Prop := fun r => ∀ c : Dev nD, ∀ b ∈ argRefs, r.2.mem (c, b) = m (c, b)

end Cert.Kernel.Hand

end
-- ==== Proof.Bits.MainRun2.lean ====
/-
  @main whole, and the run of the device's threads. @main's eight suffixes — from each segment to the return — are
  named, so that each segment's lemma is applied to a named continuation.
-/
import proofs.«211565_g20684562498226_cont_8to1_684_24_alg».proof.Proof.Bits.MainRun

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ
/-- Programs of the TensorCore thread in the SparseCore program's signature. -/
abbrev ProgT (F : FTy → Type) : Type 1 := Prog (TpuEff nD τ sig (Elt F) (SparseCore.Sig (ΛP (F := F)) 1) Proc.tc) PUnit

variable (m : (ℓ : Loc nD τ sig) → Buf (Elt F) ℓ) (ρ : Dev nD → PrngReg)

/-! ## @main's suffixes -/

def r7 [FloatOps F] : ProgT F := StableHlo.seq (ops3 (F := F))
def r6 [FloatOps F] : ProgT F := callP (F := F) 2 >>= fun _ => r7
def r5 [FloatOps F] : ProgT F := StableHlo.seq (ops2 (F := F)) >>= fun _ => r6
def r4 [FloatOps F] : ProgT F := callP (F := F) 1 >>= fun _ => r5
def r3 [FloatOps F] : ProgT F := StableHlo.seq (ops1 (F := F)) >>= fun _ => r4
def r2 [FloatOps F] (d : Dev nD) : ProgT F := sc.run d 0 >>= fun _ => r3
def r1 [FloatOps F] (d : Dev nD) : ProgT F := callP (F := F) 0 >>= fun _ => r2 d
def r0 [FloatOps F] (d : Dev nD) : ProgT F := StableHlo.seq (ops0 (F := F)) >>= fun _ => r1 d

/-- @main is its first suffix (both unfold to the same sequence of statements). -/
theorem main_r0 [FloatOps F] (d : Dev nD) : main (F := F) d = r0 d := by
  rw [main_eq]
  rfl

/-- The nine facts of the buffers' valuation along @main — at launch, after each of the four lines of host
    operations, after each of the three regions and after the SparseCore call — and the steps between them. -/
structure Stages [FloatOps F] (d : Dev nD) where
  I : Fin 9 → Valuation τ sig (Elt F) → Prop
  Rel0 : Valuation τ sig (Elt F) → Valuation τ sig (Elt F) → Prop
  Rel1 : Valuation τ sig (Elt F) → Valuation τ sig (Elt F) → Prop
  Rel2 : Valuation τ sig (Elt F) → Valuation τ sig (Elt F) → Prop
  h0 : I 0 (StableHlo.launchContents m d)
  t0 : ∀ V, I 0 V → I 1 (StableHlo.after (ops0 (F := F)) V)
  t1 : ∀ V V', I 1 V → Rel0 V V' → I 2 V'
  tq : ∀ V, I 2 V → V q' = m (qLoc d)
  t2 : ∀ V (g : Buf (Elt F) (oLoc d)), I 2 V → (∀ idx : S768x65536.Idx, 4096 ≤ (idx 1).val → g idx = m (qLoc d) idx) → I 3 (Function.update V o' g)
  t3 : ∀ V, I 3 V → I 4 (StableHlo.after (ops1 (F := F)) V)
  t4 : ∀ V V', I 4 V → Rel1 V V' → I 5 V'
  t5 : ∀ V, I 5 V → I 6 (StableHlo.after (ops2 (F := F)) V)
  t6 : ∀ V V', I 6 V → Rel2 V V' → I 7 V'
  t7 : ∀ V, I 7 V → I 8 (StableHlo.after (ops3 (F := F)) V)

/-- What @main ends in. -/
def PhiEnd (d : Dev nD) (I : Valuation τ sig (Elt F) → Prop) : PUnit → sProp 𝕄 := fun _ => iprop((K (F := F)).tcSt EH d 1 ∗ FINI I d)

/-- The state between segments: the handshakes' context, the TensorCore's handshake state before call `n`, the ghost
    state of the regions still to come. -/
abbrev St (κ : GSem nD τ sig → ℕ) (d : Dev nD) (n : ℕ) (GS : sProp 𝕄) : sProp 𝕄 :=
  iprop((K (F := F)).ctx EH (PV m) κ ∗ (K (F := F)).tcSt EH d n ∗ GS)

section Segments

variable [FloatOps F] [∀ e, Nonempty (Elt F e)] (κ : GSem nD τ sig → ℕ) (d : Dev nD) (Sg : Stages m d)
  (hr0 : RegionStep (F := F) 0 Sg.Rel0) (hr1 : RegionStep (F := F) 1 Sg.Rel1) (hr2 : RegionStep (F := F) 2 Sg.Rel2)

/-- The last line of host operations, then the return. -/
theorem seg7 : ∀ V, Sg.I 7 V → iprop(St m κ d 1 iprop(emp) ∗ boundary (T d) ∗ held (T d) Sall V)
    ⊢ wp frame (wpE (DK (F := F)) 𝒱 (T d) none) Set.univ (r7 (F := F)) (PhiEnd d (Sg.I 8)) := by
  have e3 : (r7 (F := F)) = (StableHlo.seq (ops3 (F := F)) >>= fun _ => pure PUnit.unit) := (bind_pure _).symm
  rw [e3]
  exact stretch d (ops3 (F := F)) ops3_sub ops3_fresh (Sg.I 7) (Sg.I 8) Sg.t7 (pure PUnit.unit) (St m κ d 1 iprop(emp)) (PhiEnd d (Sg.I 8)) (finish m (Sg.I 8) κ d)

include hr2 in
/-- The third region. -/
theorem seg6 : ∀ V, Sg.I 6 V → iprop(St m κ d 1 iprop(Gq 2 d ∗ emp) ∗ boundary (T d) ∗ held (T d) Sall V)
    ⊢ wp frame (wpE (DK (F := F)) 𝒱 (T d) none) Set.univ (r6 (F := F)) (PhiEnd d (Sg.I 8)) :=
  regionSeg m hr2 (Sg.I 6) (Sg.I 7) Sg.t6 κ d 1 (r7 (F := F)) iprop(emp) (PhiEnd d (Sg.I 8)) (seg7 m κ d Sg)

include hr2 in
theorem seg5 : ∀ V, Sg.I 5 V → iprop(St m κ d 1 iprop(Gq 2 d ∗ emp) ∗ boundary (T d) ∗ held (T d) Sall V)
    ⊢ wp frame (wpE (DK (F := F)) 𝒱 (T d) none) Set.univ (r5 (F := F)) (PhiEnd d (Sg.I 8)) :=
  stretch d (ops2 (F := F)) ops2_sub ops2_fresh (Sg.I 5) (Sg.I 6) Sg.t5 (r6 (F := F)) (St m κ d 1 iprop(Gq 2 d ∗ emp)) (PhiEnd d (Sg.I 8)) (seg6 m κ d Sg hr2)

include hr1 hr2 in
/-- The second region. -/
theorem seg4 : ∀ V, Sg.I 4 V → iprop(St m κ d 1 iprop(Gq 1 d ∗ Gq 2 d ∗ emp) ∗ boundary (T d) ∗ held (T d) Sall V)
    ⊢ wp frame (wpE (DK (F := F)) 𝒱 (T d) none) Set.univ (r4 (F := F)) (PhiEnd d (Sg.I 8)) :=
  regionSeg m hr1 (Sg.I 4) (Sg.I 5) Sg.t4 κ d 1 (r5 (F := F)) iprop(Gq 2 d ∗ emp) (PhiEnd d (Sg.I 8)) (seg5 m κ d Sg hr2)

include hr1 hr2 in
theorem seg3 : ∀ V, Sg.I 3 V → iprop(St m κ d 1 iprop(Gq 1 d ∗ Gq 2 d ∗ emp) ∗ boundary (T d) ∗ held (T d) Sall V)
    ⊢ wp frame (wpE (DK (F := F)) 𝒱 (T d) none) Set.univ (r3 (F := F)) (PhiEnd d (Sg.I 8)) :=
  stretch d (ops1 (F := F)) ops1_sub ops1_fresh (Sg.I 3) (Sg.I 4) Sg.t3 (r4 (F := F)) (St m κ d 1 iprop(Gq 1 d ∗ Gq 2 d ∗ emp)) (PhiEnd d (Sg.I 8)) (seg4 m κ d Sg hr1 hr2)

include hr1 hr2 in
/-- The SparseCore call. -/
theorem seg2 : ∀ V, Sg.I 2 V → iprop(St m κ d 0 iprop(Gq 1 d ∗ Gq 2 d ∗ emp) ∗ boundary (T d) ∗ held (T d) Sall V)
    ⊢ wp frame (wpE (DK (F := F)) 𝒱 (T d) none) Set.univ (r2 (F := F) d) (PhiEnd d (Sg.I 8)) :=
  scSeg m κ d (r3 (F := F)) iprop(Gq 1 d ∗ Gq 2 d ∗ emp) (PhiEnd d (Sg.I 8)) (Sg.I 2) (Sg.I 3) Sg.tq Sg.t2 (seg3 m κ d Sg hr1 hr2)

include hr0 hr1 hr2 in
/-- The first region. -/
theorem seg1 : ∀ V, Sg.I 1 V → iprop(St m κ d 0 iprop(Gq 0 d ∗ Gq 1 d ∗ Gq 2 d ∗ emp) ∗ boundary (T d) ∗ held (T d) Sall V)
    ⊢ wp frame (wpE (DK (F := F)) 𝒱 (T d) none) Set.univ (r1 (F := F) d) (PhiEnd d (Sg.I 8)) :=
  regionSeg m hr0 (Sg.I 1) (Sg.I 2) Sg.t1 κ d 0 (r2 (F := F) d) iprop(Gq 1 d ∗ Gq 2 d ∗ emp) (PhiEnd d (Sg.I 8)) (seg2 m κ d Sg hr1 hr2)

include hr0 hr1 hr2 in
theorem seg0 : ∀ V, Sg.I 0 V → iprop(St m κ d 0 iprop(Gq 0 d ∗ Gq 1 d ∗ Gq 2 d ∗ emp) ∗ boundary (T d) ∗ held (T d) Sall V)
    ⊢ wp frame (wpE (DK (F := F)) 𝒱 (T d) none) Set.univ (r0 (F := F) d) (PhiEnd d (Sg.I 8)) :=
  stretch d (ops0 (F := F)) ops0_sub ops0_fresh (Sg.I 0) (Sg.I 1) Sg.t0 (r1 (F := F) d) (St m κ d 0 iprop(Gq 0 d ∗ Gq 1 d ∗ Gq 2 d ∗ emp)) (PhiEnd d (Sg.I 8)) (seg1 m κ d Sg hr0 hr1 hr2)

omit [∀ e, Nonempty (Elt F e)] in
set_option maxHeartbeats 1600000 in
/-- The launch's unscoped buffers are the set @main holds, at the launch contents. -/
theorem unscoped_held0 : (unscopedBufs d (fun b => m ((SparseCore.T d).loc b)) : sProp 𝕄) = held (SparseCore.T d) Sall (StableHlo.launchContents m d) :=
  Pipeline.unscopedBufs_held (Ix := HIx 1) (Name := ℕ) (U := UU) (Lvl := ℕ) d (StableHlo.launchContents m d)

/-- What the launch deals the TensorCore, sorted for @main's first segment. -/
theorem glue0 : iprop((K (F := F)).ctx EH (PV m) κ ∗ (K (F := F)).tcSt EH d 0 ∗ (K (F := F)).tcRes m ρ d ∗ Gp d)
    ⊢ iprop(St m κ d 0 iprop(Gq 0 d ∗ Gq 1 d ∗ Gq 2 d ∗ emp) ∗ boundary (T d) ∗ held (T d) Sall (StableHlo.launchContents m d)) := by
  unfold SparseCore.Cfg.tcRes Gp
  rw [unscoped_held0 m d,
    show (bigSep Finset.univ fun p : Fin 3 => Gq (F := F) p d) = iprop(Gq (F := F) 0 d ∗ Gq (F := F) 1 d ∗ Gq (F := F) 2 d)
      from bigSep_univ_eq_bigSepL [(0 : Fin 3), 1, 2] (by decide) (by decide) _]
  iintro ⟨Hctx, Hst, ⟨Hb, Hh, -, -⟩, H0, H1, H2⟩
  isplitl [Hctx Hst H0 H1 H2]
  · isplitl [Hctx]; · iexact Hctx
    isplitl [Hst]; · iexact Hst
    isplitl [H0]; · iexact H0
    isplitl [H1]; · iexact H1
    isplitl [H2]; · iexact H2
    iempintro
  isplitl [Hb]; · iexact Hb
  iexact Hh

include hr0 hr1 hr2 in
/-- @main on device `d`'s TensorCore, from the three regions' steps and the stages' facts: it ends with the buffers held at
    a valuation of which the last fact holds. -/
theorem hmainG :
    iprop((K (F := F)).ctx EH (PV m) κ ∗ (K (F := F)).tcSt EH d 0 ∗ (K (F := F)).tcRes m ρ d ∗ Gp d)
      ⊢ wp frame (wpE (DK (F := F)) 𝒱 (T d) none) Set.univ (main d) fun _ => iprop((K (F := F)).tcSt EH d 1 ∗ FINI (Sg.I 8) d) := by
  rw [main_r0]
  exact BI.Entails.trans (glue0 m ρ κ d) (seg0 m κ d Sg hr0 hr1 hr2 (StableHlo.launchContents m d) Sg.h0)

end Segments

/-- The run's postcondition: on every device the unscoped buffers end at a valuation of which the last fact holds. -/
def QCI (I : Dev nD → Valuation τ sig (Elt F) → Prop) : PUnit × MemSt nD τ sig (Elt F) → Prop :=
  fun r => ∀ c : Dev nD, ∃ V : Valuation τ sig (Elt F), I c V ∧ ∀ b ∈ Sall, r.2.mem (c, b) = V b

/-- THE RUN, from the vector subcores' task, the three regions' steps and the stages' facts: every weakly fair
    execution of the device's threads — the TensorCore's @main, the sequencers, the vector subcores — terminates,
    nothing faulting, and the buffers end at a valuation of which the last fact holds. -/
theorem run_mainG [FloatOps F] [∀ e, Nonempty (Elt F e)] (Sg : (d : Dev nD) → Stages m d)
    (htile : (K (F := F)).TileObl (D (F := F)) 𝒱 (PV m) v₀ 0)
    (hr0 : ∀ d, RegionStep (F := F) 0 (Sg d).Rel0) (hr1 : ∀ d, RegionStep (F := F) 1 (Sg d).Rel1) (hr2 : ∀ d, RegionStep (F := F) 2 (Sg d).Rel2) :
    θ_run (Cert.Kernel.defs (F := F)) (Cert.Kernel.threads (F := F)) ⟨m, fun _ => 0, ρ⟩ (QCI fun d => (Sg d).I 8) :=
  SparseCore.Cfg.θ_run_sc (K := K (F := F)) (D := D (F := F)) (𝒱 := 𝒱) (EH := EH) (P := PV m) facts v₀
    (fun q hq => match q with | 0 => nomatch hq)
    (fun q _ => match q with | 0 => htile)
    (fun q _ => match q with | 0 => SparseCore.Cfg.VecSplit.of_plain (vecSplitV m))
    m ρ main (Gp (F := F)) (fun d => FINI ((Sg d).I 8) d) (u₀ (F := F)) (sep_elim_left.trans (hu₀ m))
    (fun κ d => hmainG m ρ κ d (Sg d) (hr0 d) (hr1 d) (hr2 d)) (fun d => fqI ((Sg d).I 8) d) (fun d => hfinI ((Sg d).I 8) d)
    (QCI fun d => (Sg d).I 8) (fun _ h => h)

/-! ## The frame's instance: every stage's fact is that the arguments are kept -/

/-- The stages of the frame: at every stage the twenty argument arrays have their launch contents. -/
def frameStages [FloatOps F] (outs0 outs1 outs2 : Finset (DevRef τ sig))
    (h0 : ∀ b ∈ argRefs, b ∉ outs0) (h1 : ∀ b ∈ argRefs, b ∉ outs1) (h2 : ∀ b ∈ argRefs, b ∉ outs2) (d : Dev nD) : Stages m d where
  I := fun _ => Keeps m d
  Rel0 := offOuts outs0
  Rel1 := offOuts outs1
  Rel2 := offOuts outs2
  h0 := fun _ _ => rfl
  t0 := keeps_after m ops0_keep
  t1 := fun V V' hV h => keeps_region m h0 V V' hV h
  tq := fun V hV => hV q' (by decide)
  t2 := fun V g hV _ => keeps_update m V g hV
  t3 := keeps_after m ops1_keep
  t4 := fun V V' hV h => keeps_region m h1 V V' hV h
  t5 := keeps_after m ops2_keep
  t6 := fun V V' hV h => keeps_region m h2 V V' hV h
  t7 := keeps_after m ops3_keep

/-- The run, frame strength: the argument arrays end unchanged. -/
theorem run_main [FloatOps F] [∀ e, Nonempty (Elt F e)] {outs0 outs1 outs2 : Finset (DevRef τ sig)}
    (htile : (K (F := F)).TileObl (D (F := F)) 𝒱 (PV m) v₀ 0)
    (hr0 : RegionStep (F := F) 0 (offOuts outs0)) (hr1 : RegionStep (F := F) 1 (offOuts outs1)) (hr2 : RegionStep (F := F) 2 (offOuts outs2))
    (h0 : ∀ b ∈ argRefs, b ∉ outs0) (h1 : ∀ b ∈ argRefs, b ∉ outs1) (h2 : ∀ b ∈ argRefs, b ∉ outs2) :
    θ_run (Cert.Kernel.defs (F := F)) (Cert.Kernel.threads (F := F)) ⟨m, fun _ => 0, ρ⟩ (QC m) :=
  (θ_run _ _ _).mono (fun r h c b hb => by
      obtain ⟨V, hV, hr⟩ := h c
      exact (hr b (args_sub hb)).trans (hV b hb))
    (run_mainG m ρ (frameStages m outs0 outs1 outs2 h0 h1 h2) htile (fun _ => hr0) (fun _ => hr1) (fun _ => hr2))

end Cert.Kernel.Hand

end
-- ==== Proof.Bits.RegionsData.lean ====
/-
  The proof data of the three TensorCore pallas_calls, run at frame strength inside the SparseCore launch, and what
  their regions share: how the thread's tally enters and leaves a pipeline, and how the unscoped buffers are sorted
  into a pipeline's arrays and the rest at entry and put together again at exit.
-/
import proofs.«211565_g20684562498226_cont_8to1_684_24_alg».proof.Proof.Bits.Setup
import proofs.«211565_g20684562498226_cont_8to1_684_24_alg».proof.Proof.Gen.Kernel.Points
import Idealize.ShloMosaic.Lib.Pipeline.Frame

noncomputable section

namespace Cert.Kernel.Hand

open Cert.Kernel Cert.Kernel.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The proof data of the three TensorCore regions

Every region is run at frame strength: of what a body leaves in a staging buffer nothing is said (the relation that
holds of any two contents), so an output array ends at contents not named, and an input array — never written back —
ends as it was entered. The thread owes a constant tally throughout, all of it at indices other than the pipelines' own
(`none`); the pairs its waits have recorded stay within a given set and the pairs at index `none`. -/

/-- The bound on the recorded pairs: those of a given set, and every pair at the pipelines' own index. -/
def recB (WW : Waits sig (HIx 1)) : Set (SemLoc sig × HIx 1) := {x | x ∈ WW ∨ x.2 = none}

/-- The proof data of one pipeline on core `c`, entered with the unscoped buffers at the valuation `Vc`: each window's
    array at what `Vc` says; nothing said of what the body leaves; the invariant is the scoped buffers no window
    stages; full shares; the constant tally `OO` owed. -/
def rdatG (cfg : Pipeline.Cfg sig Λ₀) (c : Dev nD) (Vc : Valuation τ sig (Elt F)) (WW : Waits sig (HIx 1))
    (OO : CellTallies nD τ sig (HIx 1)) : Pipeline.RDat τ (Elt F) (HIx 1) ℕ UU ℕ cfg c where
  A w := Vc (Pipeline.arrRef cfg.spec w)
  after _ _ _ _ := True
  Φ _ := Pipeline.scopedRest cfg.spec c
  q _ := fullShare
  owed _ := OO
  recorded _ := recB WW

variable (VV : Dev nD → Valuation τ sig (Elt F)) (WW : Waits sig (HIx 1)) (OO : CellTallies nD τ sig (HIx 1))

/-- The three pipelines' proof data at once. -/
def rdats : (p : Fin 3) → (c : Dev nD) → Pipeline.RDat τ (Elt F) (HIx 1) ℕ UU ℕ (Pipeline.pin (pcfgs (F := F)) adm p) c
  | 0 => fun c => rdatG cfg0 c (VV c) WW OO
  | 1 => fun c => rdatG cfg2 c (VV c) WW OO
  | 2 => fun c => rdatG cfg3 c (VV c) WW OO

/-- Every array is held at the full share. -/
theorem rdatG_share (cfg : Pipeline.Cfg sig Λ₀) (c : Dev nD) (Vc : Valuation τ sig (Elt F)) (w : Fin cfg.W) :
    (rdatG cfg c Vc WW OO).share w = fullShare := by
  unfold Pipeline.RDat.share; split <;> rfl

/-- A conjunction over no index. -/
theorem bigSep_Fin0 {M : Type} [URA M] (Φ : Fin 0 → sProp M) : bigSep Finset.univ Φ = (BI.emp : sProp M) :=
  bigSep_univ_eq_bigSepL [] (by decide) (by decide) Φ

/-! ## The thread's tally, in and out of a pipeline's own form -/

/-- What the thread owes between segments: the tally `OO`, its recorded pairs within `recB WW`. -/
def owesT (c : Dev nD) : sProp 𝕄 := iprop(∃ W' : Waits sig (HIx 1), ⌜∀ x ∈ W', x ∈ WW ∨ x.2 = none⌝ ∗ owes (SparseCore.T c) OO W')

theorem owesAt_intro {cfg : Pipeline.Cfg sig Λ₀} (c : Dev nD) (Vc : Valuation τ sig (Elt F)) (t : Fin (cfg.N + 1)) :
    owesT WW OO c ⊢ ((rdatG cfg c Vc WW OO).owesAt none t : sProp 𝕄) := by
  unfold owesT Pipeline.RDat.owesAt Pipeline.owesWithin
  iintro ⟨%W', %h, HO⟩
  iexists W'; isplitr
  · ipureintro; exact fun x hx => Or.inl (h x (Finset.mem_coe.mp hx))
  iexact HO

theorem owesAt_elim {cfg : Pipeline.Cfg sig Λ₀} (c : Dev nD) (Vc : Valuation τ sig (Elt F)) (t : Fin (cfg.N + 1)) :
    ((rdatG cfg c Vc WW OO).owesAt none t : sProp 𝕄) ⊢ owesT WW OO c := by
  unfold owesT Pipeline.RDat.owesAt Pipeline.owesWithin
  iintro ⟨%W', %h, HO⟩
  iexists W'; isplitr
  · ipureintro
    intro x hx
    rcases h (Finset.mem_coe.mpr hx) with h' | ⟨w, s, rfl⟩
    · exact h'
    · exact Or.inr rfl
  iexact HO

/-! ## Exit: the unscoped buffers put together again -/

variable [FloatOps F]

/-- The arrays of a pipeline's output windows, as device buffers. -/
def outs (cfg : Pipeline.Cfg sig Λ₀) : Finset (DevRef τ sig) :=
  (Finset.univ.filter fun w : Fin cfg.W => (cfg.win w).isOut = true).image fun w => Proc.devRef (τ := τ) .tc (Pipeline.arrRef cfg.spec w)

/-- An unscoped buffer at some contents, those it was entered at if it is no output window's array. -/
abbrev someAt (cfg : Pipeline.Cfg sig Λ₀) (c : Dev nD) (Vc : Valuation τ sig (Elt F)) (b : DevRef τ sig) (f : b.ty.Contents (Elt F)) : sProp 𝕄 :=
  iprop(⌜b ∉ outs cfg → f = Vc b⌝ ∗ ((c, b) : Loc nD τ sig) ↦{fullShare} f)

/-- A window's array after the write-backs is at some contents, those it was entered at if the window is an input:
    an input's array is never written back (`RDat.ArrAt_in`). -/
theorem exit_arr {cfg : Pipeline.Cfg sig Λ₀} (c : Dev nD) (Vc : Valuation τ sig (Elt F)) (harr : ∀ w, (cfg.spec w).arr.IsWhole) (n : ℕ) (w : Fin cfg.W) :
    (iprop(∃ Fw, ⌜(rdatG cfg c Vc WW OO).ArrAt w n Fw⌝
        ∗ (cfg.win w).arr.view.loc (c.tc : Thread nD τ) ↦[(cfg.win w).arr.view.set]{(rdatG cfg c Vc WW OO).share w} Fw) : sProp 𝕄)
      ⊢ iprop(∃ f, someAt cfg c Vc (Proc.devRef (τ := τ) .tc (Pipeline.arrRef cfg.spec w)) f) := by
  rw [(harr w).set_eq_univ, rdatG_share]
  unfold someAt
  iintro ⟨%Fw, %hFw, H⟩
  iexists Fw; isplitr
  · ipureintro; intro hno
    have hin : (cfg.win w).isOut = false := by
      cases h : (cfg.win w).isOut
      · rfl
      · exact absurd (Finset.mem_image.mpr ⟨w, Finset.mem_filter.mpr ⟨Finset.mem_univ _, h⟩, rfl⟩) hno
    rw [(rdatG cfg c Vc WW OO).ArrAt_in w hin n] at hFw
    exact hFw
  iexact H

/-- An unscoped buffer that is no window's array stays as it was. -/
theorem exit_rest {cfg : Pipeline.Cfg sig Λ₀} (c : Dev nD) (Vc : Valuation τ sig (Elt F)) (b : Ref sig .tc) :
    ((((c.tc : Thread nD τ).loc b) ↦{fullShare} Vc b) : sProp 𝕄) ⊢ iprop(∃ f, someAt cfg c Vc (Proc.devRef (τ := τ) .tc b) f) := by
  unfold someAt
  iintro H; iexists Vc b; isplitr
  · ipureintro; exact fun _ => rfl
  iexact H

/-- The TensorCore's unscoped buffers, as references and as device buffers. -/
theorem ucRefs_bigSep (Φ : DevRef τ sig → sProp 𝕄) :
    bigSep (Pipeline.ucRefs τ sig) Φ = bigSep (Finset.univ.filter fun b : Ref sig .tc => ¬ b.isScoped) fun b => Φ (Proc.devRef (τ := τ) .tc b) := by
  unfold Pipeline.ucRefs StableHlo.tcRefs
  rw [Finset.filter_map, bigSep_map]
  rfl

/-- The pipeline's arrays after the write-backs and the rest of the unscoped buffers: every unscoped buffer at some contents. -/
theorem exit_step {cfg : Pipeline.Cfg sig Λ₀} (c : Dev nD) (Vc : Valuation τ sig (Elt F))
    (hw : Pipeline.WinFacts cfg.spec) (harr : ∀ w, (cfg.spec w).arr.IsWhole) (n : ℕ) :
    iprop((rdatG cfg c Vc WW OO).arraysAt n ∗ Pipeline.unscopedRest cfg.spec c (fun b => Vc b))
      ⊢ (bigSep (Pipeline.ucRefs τ sig) fun b => iprop(∃ f, someAt cfg c Vc b f) : sProp 𝕄) := by
  classical
  have hA : Finset.univ.map ⟨Pipeline.arrRef cfg.spec, hw.arr_inj⟩ ⊆ Finset.univ.filter fun b : Ref sig .tc => ¬ b.isScoped := fun b hb => by
    obtain ⟨w, -, rfl⟩ := Finset.mem_map.mp hb
    exact Finset.mem_filter.mpr ⟨Finset.mem_univ _, by simp [hw.arr_unscoped w]⟩
  rw [ucRefs_bigSep, bigSep_sdiff_split hA, bigSep_map, Finset.map_eq_image]
  unfold Pipeline.RDat.arraysAt Pipeline.unscopedRest
  exact BIClass.sep_mono (bigSep_mono fun w _ => exit_arr WW OO c Vc harr n w) (bigSep_mono fun b _ => exit_rest c Vc b)

/-- After the write-backs below any point, the pipeline's arrays and the unscoped buffers that are no window's array
    are all the unscoped buffers at SOME valuation, which agrees with the one the region was entered at on every
    buffer that is no output window's array. -/
theorem exit_held {cfg : Pipeline.Cfg sig Λ₀} (c : Dev nD) (Vc : Valuation τ sig (Elt F))
    (hw : Pipeline.WinFacts cfg.spec) (harr : ∀ w, (cfg.spec w).arr.IsWhole) (n : ℕ) :
    iprop((rdatG cfg c Vc WW OO).arraysAt n ∗ Pipeline.unscopedRest cfg.spec c (fun b => Vc b))
      ⊢ (iprop(∃ V' : Valuation τ sig (Elt F), ⌜∀ b, b ∉ outs cfg → V' b = Vc b⌝
            ∗ StableHlo.held (SparseCore.T c) (Pipeline.ucRefs τ sig) V') : sProp 𝕄) := by
  classical
  refine (exit_step WW OO c Vc hw harr n).trans ?_
  refine (bigSep_exists_pi (Pipeline.ucRefs τ sig) (fun (b : DevRef τ sig) (f : b.ty.Contents (Elt F)) => someAt cfg c Vc b f)).trans ?_
  unfold someAt
  iintro ⟨%V', H⟩
  ihave H2 := (bigSep_pure_sep (Pipeline.ucRefs τ sig) (fun b => b ∉ outs cfg → V' b = Vc b)
    (fun b => ((((c, b) : Loc nD τ sig) ↦{fullShare} V' b) : sProp 𝕄))) $$ H
  icases H2 with ⟨%h, H⟩
  iexists (fun b => if b ∈ Pipeline.ucRefs τ sig then V' b else Vc b)
  isplitr
  · ipureintro; intro b hb
    by_cases hm : b ∈ Pipeline.ucRefs τ sig
    · show (if b ∈ Pipeline.ucRefs τ sig then V' b else Vc b) = Vc b
      rw [if_pos hm]; exact h b hm hb
    · show (if b ∈ Pipeline.ucRefs τ sig then V' b else Vc b) = Vc b
      rw [if_neg hm]
  unfold StableHlo.held
  iapply (Entails.of_eq (bigSep_congr (fun b hb => by rw [if_pos hb]) :
    (bigSep (Pipeline.ucRefs τ sig) fun b => ((((c, b) : Loc nD τ sig) ↦{fullShare} V' b) : sProp 𝕄))
      = bigSep (Pipeline.ucRefs τ sig) fun b => ((((c, b) : Loc nD τ sig) ↦{fullShare} (if b ∈ Pipeline.ucRefs τ sig then V' b else Vc b)) : sProp 𝕄)))
  iexact H

end Cert.Kernel.Hand

end
-- ==== Proof.Bits.Region0.lean ====
/-
  The first TensorCore pallas_call (no grid: one point; nine input windows, six output windows, each a whole array), as
  one region of the TensorCore thread: its body on any staging memrefs, the body obligation, and the region's step at
  frame strength.
-/
import proofs.«211565_g20684562498226_cont_8to1_684_24_alg».proof.Proof.Bits.Setup
import proofs.«211565_g20684562498226_cont_8to1_684_24_alg».proof.Proof.Gen.Kernel.Points
import Idealize.ShloMosaic.Lib.Pipeline.Frame
import proofs.«211565_g20684562498226_cont_8to1_684_24_alg».proof.Proof.Bits.RegionsData

noncomputable section

namespace Cert.Kernel.Hand

open Cert.Kernel Cert.Kernel.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

set_option maxHeartbeats 8000000 in
/-- The body reads its nine input blocks and stores into its six output blocks: from the fifteen staging buffers at any
    contents it returns holding all of them, at contents not named. -/
theorem run0 (c : Dev nD) (arg0 : Memref sig .tc .vmem S768x768 .f32) (harg0 : arg0.IsWhole) (arg1 : Memref sig .tc .vmem S1x768 .f32) (harg1 : arg1.IsWhole) (arg2 : Memref sig .tc .vmem S768x768 .f32) (harg2 : arg2.IsWhole) (arg3 : Memref sig .tc .vmem S1x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x1536 .f32) (harg8 : arg8.IsWhole) (arg9 : Memref sig .tc .vmem S768x768 .bf16) (harg9 : arg9.IsWhole) (arg10 : Memref sig .tc .vmem S768x768 .bf16) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole)
    (x0 : Vec F S768x768 .f32) (x1 : Vec F S1x768 .f32) (x2 : Vec F S768x768 .f32) (x3 : Vec F S1x768 .f32) (x4 : Vec F S768x768 .f32) (x5 : Vec F S1x768 .f32) (x6 : Vec F S768x768 .f32) (x7 : Vec F S1x768 .f32) (x8 : Vec F S768x1536 .f32) (x9 : Vec F S768x768 .bf16) (x10 : Vec F S768x768 .bf16) (x11 : Vec F S1x768 .f32) (x12 : Vec F S1x768 .f32) (x13 : Vec F S768x768 .bf16) (x14 : Vec F S768x768 .bf16) (E : Set ℕ) (Q : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ (iprop((∃ y, owns (c : Thread nD τ) arg0 fullShare y)
            ∗ (∃ y, owns (c : Thread nD τ) arg1 fullShare y)
            ∗ (∃ y, owns (c : Thread nD τ) arg2 fullShare y)
            ∗ (∃ y, owns (c : Thread nD τ) arg3 fullShare y)
            ∗ (∃ y, owns (c : Thread nD τ) arg4 fullShare y)
            ∗ (∃ y, owns (c : Thread nD τ) arg5 fullShare y)
            ∗ (∃ y, owns (c : Thread nD τ) arg6 fullShare y)
            ∗ (∃ y, owns (c : Thread nD τ) arg7 fullShare y)
            ∗ (∃ y, owns (c : Thread nD τ) arg8 fullShare y)
            ∗ (∃ y, owns (c : Thread nD τ) arg9 fullShare y)
            ∗ (∃ y, owns (c : Thread nD τ) arg10 fullShare y)
            ∗ (∃ y, owns (c : Thread nD τ) arg11 fullShare y)
            ∗ (∃ y, owns (c : Thread nD τ) arg12 fullShare y)
            ∗ (∃ y, owns (c : Thread nD τ) arg13 fullShare y)
            ∗ (∃ y, owns (c : Thread nD τ) arg14 fullShare y)) -∗ Q ⟨⟩))
      ⊢ wp frame (wpE (defs₀ (F := F)) Variants.none c none) E (cc0__prep_body arg0 harg0 arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0__prep_body_eq_skeleton]; unfold cc0__prep_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  sl_exec
  sl_step
  iapply Hk
  isplitl [H0]
  · iexists _; iexists _; isplitr
    swap
    · iexact H0
    ipureintro; rfl
  isplitl [H1]
  · iexists _; iexists _; isplitr
    swap
    · iexact H1
    ipureintro; rfl
  isplitl [H2]
  · iexists _; iexists _; isplitr
    swap
    · iexact H2
    ipureintro; rfl
  isplitl [H3]
  · iexists _; iexists _; isplitr
    swap
    · iexact H3
    ipureintro; rfl
  isplitl [H4]
  · iexists _; iexists _; isplitr
    swap
    · iexact H4
    ipureintro; rfl
  isplitl [H5]
  · iexists _; iexists _; isplitr
    swap
    · iexact H5
    ipureintro; rfl
  isplitl [H6]
  · iexists _; iexists _; isplitr
    swap
    · iexact H6
    ipureintro; rfl
  isplitl [H7]
  · iexists _; iexists _; isplitr
    swap
    · iexact H7
    ipureintro; rfl
  isplitl [H8]
  · iexists _; iexists _; isplitr
    swap
    · iexact H8
    ipureintro; rfl
  isplitl [H9]
  · iexists _; iexists _; isplitr
    swap
    · iexact H9
    ipureintro; rfl
  isplitl [H10]
  · iexists _; iexists _; isplitr
    swap
    · iexact H10
    ipureintro; rfl
  isplitl [H11]
  · iexists _; iexists _; isplitr
    swap
    · iexact H11
    ipureintro; rfl
  isplitl [H12]
  · iexists _; iexists _; isplitr
    swap
    · iexact H12
    ipureintro; rfl
  isplitl [H13]
  · iexists _; iexists _; isplitr
    swap
    · iexact H13
    ipureintro; rfl
  iexists _; iexists _; isplitr
  swap
  · iexact H14
  ipureintro; rfl

variable (VV : Dev nD → Valuation τ sig (Elt F)) (WW : Waits sig (HIx 1)) (OO : CellTallies nD τ sig (HIx 1))

set_option maxHeartbeats 2000000 in
/-- The body obligation of the first pallas_call, at every point. -/
theorem body0 (c : Dev nD) : (rdats VV WW OO 0 c).BodyObligation defs₀ 𝒱₀ (none : HIx 1) Set.univ := fun t Y _ => by
  rw [Gen.bigSep_W0, Gen.bigSep_W0]
  show iprop(Pipeline.scopedRest spec0 c ∗ (rdatG cfg0 c (VV c) WW OO).owesAt none t.castSucc
        ∗ owns (c : Thread nD τ) (Gen.st0_0 t) fullShare (Y 0)
        ∗ owns (c : Thread nD τ) (Gen.st0_1 t) fullShare (Y 1)
        ∗ owns (c : Thread nD τ) (Gen.st0_2 t) fullShare (Y 2)
        ∗ owns (c : Thread nD τ) (Gen.st0_3 t) fullShare (Y 3)
        ∗ owns (c : Thread nD τ) (Gen.st0_4 t) fullShare (Y 4)
        ∗ owns (c : Thread nD τ) (Gen.st0_5 t) fullShare (Y 5)
        ∗ owns (c : Thread nD τ) (Gen.st0_6 t) fullShare (Y 6)
        ∗ owns (c : Thread nD τ) (Gen.st0_7 t) fullShare (Y 7)
        ∗ owns (c : Thread nD τ) (Gen.st0_8 t) fullShare (Y 8)
        ∗ owns (c : Thread nD τ) (Gen.st0_9 t) fullShare (Y 9)
        ∗ owns (c : Thread nD τ) (Gen.st0_10 t) fullShare (Y 10)
        ∗ owns (c : Thread nD τ) (Gen.st0_11 t) fullShare (Y 11)
        ∗ owns (c : Thread nD τ) (Gen.st0_12 t) fullShare (Y 12)
        ∗ owns (c : Thread nD τ) (Gen.st0_13 t) fullShare (Y 13)
        ∗ owns (c : Thread nD τ) (Gen.st0_14 t) fullShare (Y 14))
      ⊢ wp frame (wpE (defs₀ (F := F)) Variants.none c none) Set.univ (Gen.bodyAt0 t) (fun _ =>
          iprop(Pipeline.scopedRest spec0 c ∗ (rdatG cfg0 c (VV c) WW OO).owesAt none t.succ
            ∗ (∃ X, ⌜True⌝ ∗ owns (c : Thread nD τ) (Gen.st0_0 t) fullShare X)
            ∗ (∃ X, ⌜True⌝ ∗ owns (c : Thread nD τ) (Gen.st0_1 t) fullShare X)
            ∗ (∃ X, ⌜True⌝ ∗ owns (c : Thread nD τ) (Gen.st0_2 t) fullShare X)
            ∗ (∃ X, ⌜True⌝ ∗ owns (c : Thread nD τ) (Gen.st0_3 t) fullShare X)
            ∗ (∃ X, ⌜True⌝ ∗ owns (c : Thread nD τ) (Gen.st0_4 t) fullShare X)
            ∗ (∃ X, ⌜True⌝ ∗ owns (c : Thread nD τ) (Gen.st0_5 t) fullShare X)
            ∗ (∃ X, ⌜True⌝ ∗ owns (c : Thread nD τ) (Gen.st0_6 t) fullShare X)
            ∗ (∃ X, ⌜True⌝ ∗ owns (c : Thread nD τ) (Gen.st0_7 t) fullShare X)
            ∗ (∃ X, ⌜True⌝ ∗ owns (c : Thread nD τ) (Gen.st0_8 t) fullShare X)
            ∗ (∃ X, ⌜True⌝ ∗ owns (c : Thread nD τ) (Gen.st0_9 t) fullShare X)
            ∗ (∃ X, ⌜True⌝ ∗ owns (c : Thread nD τ) (Gen.st0_10 t) fullShare X)
            ∗ (∃ X, ⌜True⌝ ∗ owns (c : Thread nD τ) (Gen.st0_11 t) fullShare X)
            ∗ (∃ X, ⌜True⌝ ∗ owns (c : Thread nD τ) (Gen.st0_12 t) fullShare X)
            ∗ (∃ X, ⌜True⌝ ∗ owns (c : Thread nD τ) (Gen.st0_13 t) fullShare X)
            ∗ (∃ X, ⌜True⌝ ∗ owns (c : Thread nD τ) (Gen.st0_14 t) fullShare X)))
  iintro ⟨HΦ, HO, H0, H1, H2, H3, H4, H5, H6, H7, H8, H9, H10, H11, H12, H13, H14⟩
  iapply (run0 c _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩, ⟨%y10, H10⟩, ⟨%y11, H11⟩, ⟨%y12, H12⟩, ⟨%y13, H13⟩, ⟨%y14, H14⟩⟩
  isplitl [HΦ]; · iexact HΦ
  isplitl [HO]; · iexact HO
  isplitl [H0]
  · iexists y0; isplitr
    · ipureintro; trivial
    iexact H0
  isplitl [H1]
  · iexists y1; isplitr
    · ipureintro; trivial
    iexact H1
  isplitl [H2]
  · iexists y2; isplitr
    · ipureintro; trivial
    iexact H2
  isplitl [H3]
  · iexists y3; isplitr
    · ipureintro; trivial
    iexact H3
  isplitl [H4]
  · iexists y4; isplitr
    · ipureintro; trivial
    iexact H4
  isplitl [H5]
  · iexists y5; isplitr
    · ipureintro; trivial
    iexact H5
  isplitl [H6]
  · iexists y6; isplitr
    · ipureintro; trivial
    iexact H6
  isplitl [H7]
  · iexists y7; isplitr
    · ipureintro; trivial
    iexact H7
  isplitl [H8]
  · iexists y8; isplitr
    · ipureintro; trivial
    iexact H8
  isplitl [H9]
  · iexists y9; isplitr
    · ipureintro; trivial
    iexact H9
  isplitl [H10]
  · iexists y10; isplitr
    · ipureintro; trivial
    iexact H10
  isplitl [H11]
  · iexists y11; isplitr
    · ipureintro; trivial
    iexact H11
  isplitl [H12]
  · iexists y12; isplitr
    · ipureintro; trivial
    iexact H12
  isplitl [H13]
  · iexists y13; isplitr
    · ipureintro; trivial
    iexact H13
  iexists y14; isplitr
  · ipureintro; trivial
  iexact H14

/-- No pipeline has a prefetched table. -/
theorem prefHeld0 (c : Dev nD) (q) (pf) : (Pipeline.prefHeld (Ix := HIx 1) (Name := ℕ) (U := UU) (Lvl := ℕ) (Val := Elt F) (pcfgs (F := F) 0).pre c q pf : sProp 𝕄) = BI.emp :=
  bigSep_Fin0 _

/-- ENTRY, the arrays' part: the unscoped buffers held at a valuation are the pipeline's arrays at the proof data's
    entry contents and the rest. -/
theorem entry0 (c : Dev nD) :
    (StableHlo.held (SparseCore.T c) (Pipeline.ucRefs τ sig) (VV c) : sProp 𝕄)
      ⊢ iprop((rdats VV WW OO 0 c).arrays (rdats VV WW OO 0 c).A ∗ Pipeline.unscopedRest spec0 c (fun b => VV c b)) := by
  have h1 := Pipeline.RDat.arrays_of_unscopedBufs (pcfgs (F := F)) adm (rdats VV WW OO) (p := 0) Gen.winFacts0 Gen.arr_whole0 c
    (fun w => rdatG_share WW OO cfg0 c (VV c) w) (fun b => VV c b) (fun _ => rfl)
  rw [Pipeline.unscopedBufs_held (Ix := HIx 1) (Name := ℕ) (U := UU) (Lvl := ℕ) c (VV c)] at h1
  exact h1

/-- THE FIRST REGION (pipeline 0): entered from the unscoped buffers at a valuation and the thread's tally, it leaves the
    unscoped buffers at some valuation that differs only on the six output windows' arrays, and the same tally. -/
def reg0 (hO : ∀ g, OO g none = 0) :
    Pipeline.RDat.RegionSeg (pcfgs (F := F)) adm (rdats VV WW OO) (none : HIx 1) defs₀ 𝒱₀ (K (F := F)).L (K (F := F)).lev 0 where
  win := Gen.winFacts0.to₀
  block_pos := Gen.block_pos0
  stage_whole := Gen.stage_whole0
  K := PEmpty
  osem k := k.elim
  ho := Pipeline.OwnSemFacts.none _
  hbody c := body0 VV WW OO c
  hwaits c := Pipeline.RDat.cellsWaits_intro (Pipeline.pin (pcfgs (F := F)) adm) (rdats VV WW OO) none 0 c
    fun w s t => (K (F := F)).mayWait_none _ hO
  pre c := iprop(StableHlo.held (SparseCore.T c) (Pipeline.ucRefs τ sig) (VV c) ∗ owesT WW OO c)
  post c := iprop((∃ V' : Valuation τ sig (Elt F), ⌜∀ b, b ∉ outs cfg0 → V' b = VV c b⌝
      ∗ StableHlo.held (SparseCore.T c) (Pipeline.ucRefs τ sig) V') ∗ owesT WW OO c)
  X _ := iprop(emp)
  Y _ := iprop(emp)
  Z c := Pipeline.unscopedRest spec0 c (fun b => VV c b)
  hentry c := by
    rw [Pipeline.ownSems0_none, prefHeld0]
    iintro ⟨⟨Hh, HO⟩, -, -⟩
    imodintro
    ihave Ha := (entry0 VV WW OO c) $$ Hh
    icases Ha with ⟨Ha, Hr⟩
    isplitl [Ha]; · iexact Ha
    isplitr; · iempintro
    isplitl [HO]; · iapply (owesAt_intro WW OO c (VV c) 0); iexact HO
    isplitr; · iempintro
    iexact Hr
  hin c := by
    rw [show (rdats VV WW OO 0 c).Φ 0 = Pipeline.scopedRest spec0 c from rfl]
    iintro ⟨-, -, H⟩; iexact H
  hout c := by
    rw [show (rdats VV WW OO 0 c).Φ (Fin.last _) = Pipeline.scopedRest spec0 c from rfl, Pipeline.ownSems0_none]
    iintro H
    isplitr; · iempintro
    isplitr; · iempintro
    iexact H
  hexit c := by
    iintro ⟨Ha, HO, -, HZ⟩
    imodintro
    isplitl [Ha HZ]
    · iapply (exit_held WW OO c (VV c) Gen.winFacts0 Gen.arr_whole0 _)
      isplitl [Ha]; · iexact Ha
      iexact HZ
    iapply (owesAt_elim WW OO c (VV c) _); iexact HO

/-- The region's step on core `d`, as the TensorCore thread of the launch takes it. -/
theorem region0_wp (hO : ∀ g, OO g none = 0) (d : Dev nD) {α : Type}
    (k : PUnit → Prog (TpuEff nD τ sig (Elt F) (ΛP (F := F)) .tc) α) (Q : α → sProp 𝕄) :
    iprop((iprop(boundary (SparseCore.T d) ∗ (reg0 VV WW OO hO).post d) -∗ wp frame (wpE D 𝒱 (SparseCore.T d) none) Set.univ (k ⟨⟩) Q)
        ∗ boundary (SparseCore.T d) ∗ (reg0 VV WW OO hO).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE D 𝒱 (SparseCore.T d) none) Set.univ (.op (.customCall (Pipeline.entry 0) ()) k) Q :=
  (reg0 VV WW OO hO).wp (pcfgs (F := F)) adm (rdats VV WW OO) none pcell_inj EP defs₀ 𝒱₀ (K (F := F)).L (K (F := F)).lev d none
    (fun u hu => nomatch hu) k Q

end Cert.Kernel.Hand

end
-- ==== Proof.Bits.Region1.lean ====
/-
  The second TensorCore pallas_call (a grid of eight points; fifteen input windows, two of them moving with the point,
  and two output windows), as one region of the TensorCore thread: its body on any staging memrefs at any point, the
  body obligation, and the region's step at frame strength.
-/
import proofs.«211565_g20684562498226_cont_8to1_684_24_alg».proof.Proof.Bits.Setup
import proofs.«211565_g20684562498226_cont_8to1_684_24_alg».proof.Proof.Gen.Kernel.Points
import Idealize.ShloMosaic.Lib.Pipeline.Frame
import proofs.«211565_g20684562498226_cont_8to1_684_24_alg».proof.Proof.Bits.RegionsData

noncomputable section

namespace Cert.Kernel.Hand

open Cert.Kernel Cert.Kernel.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

set_option maxHeartbeats 8000000 in
/-- The body reads its fifteen input blocks and stores into its two output blocks: from the seventeen staging buffers at
    any contents it returns holding all of them, at contents not named. -/
theorem run1 (c : Dev nD) (i : grid2.Coords) (arg1 : Memref sig .tc .vmem S512x768 .bf16) (harg1 : arg1.IsWhole) (arg2 : Memref sig .tc .vmem S512x768 .bf16) (harg2 : arg2.IsWhole) (arg3 : Memref sig .tc .vmem S768x768 .bf16) (harg3 : arg3.IsWhole) (arg4 : Memref sig .tc .vmem S768x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S512x768 .f32) (harg16 : arg16.IsWhole) (arg17 : Memref sig .tc .vmem S768x512 .f32) (harg17 : arg17.IsWhole)
    (x1 : Vec F S512x768 .bf16) (x2 : Vec F S512x768 .bf16) (x3 : Vec F S768x768 .bf16) (x4 : Vec F S768x768 .bf16) (x5 : Vec F S1x768 .f32) (x6 : Vec F S1x768 .f32) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S1x768 .f32) (x15 : Vec F S1x768 .f32) (x16 : Vec F S512x768 .f32) (x17 : Vec F S768x512 .f32) (E : Set ℕ) (Q : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ (iprop((∃ y, owns (c : Thread nD τ) arg1 fullShare y)
            ∗ (∃ y, owns (c : Thread nD τ) arg2 fullShare y)
            ∗ (∃ y, owns (c : Thread nD τ) arg3 fullShare y)
            ∗ (∃ y, owns (c : Thread nD τ) arg4 fullShare y)
            ∗ (∃ y, owns (c : Thread nD τ) arg5 fullShare y)
            ∗ (∃ y, owns (c : Thread nD τ) arg6 fullShare y)
            ∗ (∃ y, owns (c : Thread nD τ) arg7 fullShare y)
            ∗ (∃ y, owns (c : Thread nD τ) arg8 fullShare y)
            ∗ (∃ y, owns (c : Thread nD τ) arg9 fullShare y)
            ∗ (∃ y, owns (c : Thread nD τ) arg10 fullShare y)
            ∗ (∃ y, owns (c : Thread nD τ) arg11 fullShare y)
            ∗ (∃ y, owns (c : Thread nD τ) arg12 fullShare y)
            ∗ (∃ y, owns (c : Thread nD τ) arg13 fullShare y)
            ∗ (∃ y, owns (c : Thread nD τ) arg14 fullShare y)
            ∗ (∃ y, owns (c : Thread nD τ) arg15 fullShare y)
            ∗ (∃ y, owns (c : Thread nD τ) arg16 fullShare y)
            ∗ (∃ y, owns (c : Thread nD τ) arg17 fullShare y)) -∗ Q ⟨⟩))
      ⊢ wp frame (wpE (defs₀ (F := F)) Variants.none c none) E (cc2__dense_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  simp only [cc2__dense_body_eq_skeleton]; unfold cc2__dense_body_skel
  simp only [k2_part1_eq_skeleton, k2_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  sl_exec
  sl_step
  iapply Hk
  isplitl [H1]
  · iexists _; iexists _; isplitr
    swap
    · iexact H1
    ipureintro; rfl
  isplitl [H2]
  · iexists _; iexists _; isplitr
    swap
    · iexact H2
    ipureintro; rfl
  isplitl [H3]
  · iexists _; iexists _; isplitr
    swap
    · iexact H3
    ipureintro; rfl
  isplitl [H4]
  · iexists _; iexists _; isplitr
    swap
    · iexact H4
    ipureintro; rfl
  isplitl [H5]
  · iexists _; iexists _; isplitr
    swap
    · iexact H5
    ipureintro; rfl
  isplitl [H6]
  · iexists _; iexists _; isplitr
    swap
    · iexact H6
    ipureintro; rfl
  isplitl [H7]
  · iexists _; iexists _; isplitr
    swap
    · iexact H7
    ipureintro; rfl
  isplitl [H8]
  · iexists _; iexists _; isplitr
    swap
    · iexact H8
    ipureintro; rfl
  isplitl [H9]
  · iexists _; iexists _; isplitr
    swap
    · iexact H9
    ipureintro; rfl
  isplitl [H10]
  · iexists _; iexists _; isplitr
    swap
    · iexact H10
    ipureintro; rfl
  isplitl [H11]
  · iexists _; iexists _; isplitr
    swap
    · iexact H11
    ipureintro; rfl
  isplitl [H12]
  · iexists _; iexists _; isplitr
    swap
    · iexact H12
    ipureintro; rfl
  isplitl [H13]
  · iexists _; iexists _; isplitr
    swap
    · iexact H13
    ipureintro; rfl
  isplitl [H14]
  · iexists _; iexists _; isplitr
    swap
    · iexact H14
    ipureintro; rfl
  isplitl [H15]
  · iexists _; iexists _; isplitr
    swap
    · iexact H15
    ipureintro; rfl
  isplitl [H16]
  · iexists _; iexists _; isplitr
    swap
    · iexact H16
    ipureintro; rfl
  iexists _; iexists _; isplitr
  swap
  · iexact H17
  ipureintro; rfl

variable (VV : Dev nD → Valuation τ sig (Elt F)) (WW : Waits sig (HIx 1)) (OO : CellTallies nD τ sig (HIx 1))

set_option maxHeartbeats 2000000 in
/-- The body obligation of the second pallas_call, at every point. -/
theorem body1 (c : Dev nD) : (rdats VV WW OO 1 c).BodyObligation defs₀ 𝒱₀ (none : HIx 1) Set.univ := fun t Y _ => by
  rw [Gen.bigSep_W2, Gen.bigSep_W2]
  show iprop(Pipeline.scopedRest spec2 c ∗ (rdatG cfg2 c (VV c) WW OO).owesAt none t.castSucc
        ∗ owns (c : Thread nD τ) (Gen.st2_0 t) fullShare (Y 0)
        ∗ owns (c : Thread nD τ) (Gen.st2_1 t) fullShare (Y 1)
        ∗ owns (c : Thread nD τ) (Gen.st2_2 t) fullShare (Y 2)
        ∗ owns (c : Thread nD τ) (Gen.st2_3 t) fullShare (Y 3)
        ∗ owns (c : Thread nD τ) (Gen.st2_4 t) fullShare (Y 4)
        ∗ owns (c : Thread nD τ) (Gen.st2_5 t) fullShare (Y 5)
        ∗ owns (c : Thread nD τ) (Gen.st2_6 t) fullShare (Y 6)
        ∗ owns (c : Thread nD τ) (Gen.st2_7 t) fullShare (Y 7)
        ∗ owns (c : Thread nD τ) (Gen.st2_8 t) fullShare (Y 8)
        ∗ owns (c : Thread nD τ) (Gen.st2_9 t) fullShare (Y 9)
        ∗ owns (c : Thread nD τ) (Gen.st2_10 t) fullShare (Y 10)
        ∗ owns (c : Thread nD τ) (Gen.st2_11 t) fullShare (Y 11)
        ∗ owns (c : Thread nD τ) (Gen.st2_12 t) fullShare (Y 12)
        ∗ owns (c : Thread nD τ) (Gen.st2_13 t) fullShare (Y 13)
        ∗ owns (c : Thread nD τ) (Gen.st2_14 t) fullShare (Y 14)
        ∗ owns (c : Thread nD τ) (Gen.st2_15 t) fullShare (Y 15)
        ∗ owns (c : Thread nD τ) (Gen.st2_16 t) fullShare (Y 16))
      ⊢ wp frame (wpE (defs₀ (F := F)) Variants.none c none) Set.univ (Gen.bodyAt2 t) (fun _ =>
          iprop(Pipeline.scopedRest spec2 c ∗ (rdatG cfg2 c (VV c) WW OO).owesAt none t.succ
            ∗ (∃ X, ⌜True⌝ ∗ owns (c : Thread nD τ) (Gen.st2_0 t) fullShare X)
            ∗ (∃ X, ⌜True⌝ ∗ owns (c : Thread nD τ) (Gen.st2_1 t) fullShare X)
            ∗ (∃ X, ⌜True⌝ ∗ owns (c : Thread nD τ) (Gen.st2_2 t) fullShare X)
            ∗ (∃ X, ⌜True⌝ ∗ owns (c : Thread nD τ) (Gen.st2_3 t) fullShare X)
            ∗ (∃ X, ⌜True⌝ ∗ owns (c : Thread nD τ) (Gen.st2_4 t) fullShare X)
            ∗ (∃ X, ⌜True⌝ ∗ owns (c : Thread nD τ) (Gen.st2_5 t) fullShare X)
            ∗ (∃ X, ⌜True⌝ ∗ owns (c : Thread nD τ) (Gen.st2_6 t) fullShare X)
            ∗ (∃ X, ⌜True⌝ ∗ owns (c : Thread nD τ) (Gen.st2_7 t) fullShare X)
            ∗ (∃ X, ⌜True⌝ ∗ owns (c : Thread nD τ) (Gen.st2_8 t) fullShare X)
            ∗ (∃ X, ⌜True⌝ ∗ owns (c : Thread nD τ) (Gen.st2_9 t) fullShare X)
            ∗ (∃ X, ⌜True⌝ ∗ owns (c : Thread nD τ) (Gen.st2_10 t) fullShare X)
            ∗ (∃ X, ⌜True⌝ ∗ owns (c : Thread nD τ) (Gen.st2_11 t) fullShare X)
            ∗ (∃ X, ⌜True⌝ ∗ owns (c : Thread nD τ) (Gen.st2_12 t) fullShare X)
            ∗ (∃ X, ⌜True⌝ ∗ owns (c : Thread nD τ) (Gen.st2_13 t) fullShare X)
            ∗ (∃ X, ⌜True⌝ ∗ owns (c : Thread nD τ) (Gen.st2_14 t) fullShare X)
            ∗ (∃ X, ⌜True⌝ ∗ owns (c : Thread nD τ) (Gen.st2_15 t) fullShare X)
            ∗ (∃ X, ⌜True⌝ ∗ owns (c : Thread nD τ) (Gen.st2_16 t) fullShare X)))
  iintro ⟨HΦ, HO, H0, H1, H2, H3, H4, H5, H6, H7, H8, H9, H10, H11, H12, H13, H14, H15, H16⟩
  iapply (run1 c _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 15) (Y 16) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩, ⟨%y10, H10⟩, ⟨%y11, H11⟩, ⟨%y12, H12⟩, ⟨%y13, H13⟩, ⟨%y14, H14⟩, ⟨%y15, H15⟩, ⟨%y16, H16⟩⟩
  isplitl [HΦ]; · iexact HΦ
  isplitl [HO]; · iexact HO
  isplitl [H0]
  · iexists y0; isplitr
    · ipureintro; trivial
    iexact H0
  isplitl [H1]
  · iexists y1; isplitr
    · ipureintro; trivial
    iexact H1
  isplitl [H2]
  · iexists y2; isplitr
    · ipureintro; trivial
    iexact H2
  isplitl [H3]
  · iexists y3; isplitr
    · ipureintro; trivial
    iexact H3
  isplitl [H4]
  · iexists y4; isplitr
    · ipureintro; trivial
    iexact H4
  isplitl [H5]
  · iexists y5; isplitr
    · ipureintro; trivial
    iexact H5
  isplitl [H6]
  · iexists y6; isplitr
    · ipureintro; trivial
    iexact H6
  isplitl [H7]
  · iexists y7; isplitr
    · ipureintro; trivial
    iexact H7
  isplitl [H8]
  · iexists y8; isplitr
    · ipureintro; trivial
    iexact H8
  isplitl [H9]
  · iexists y9; isplitr
    · ipureintro; trivial
    iexact H9
  isplitl [H10]
  · iexists y10; isplitr
    · ipureintro; trivial
    iexact H10
  isplitl [H11]
  · iexists y11; isplitr
    · ipureintro; trivial
    iexact H11
  isplitl [H12]
  · iexists y12; isplitr
    · ipureintro; trivial
    iexact H12
  isplitl [H13]
  · iexists y13; isplitr
    · ipureintro; trivial
    iexact H13
  isplitl [H14]
  · iexists y14; isplitr
    · ipureintro; trivial
    iexact H14
  isplitl [H15]
  · iexists y15; isplitr
    · ipureintro; trivial
    iexact H15
  iexists y16; isplitr
  · ipureintro; trivial
  iexact H16

/-- No pipeline has a prefetched table. -/
theorem prefHeld1 (c : Dev nD) (q) (pf) : (Pipeline.prefHeld (Ix := HIx 1) (Name := ℕ) (U := UU) (Lvl := ℕ) (Val := Elt F) (pcfgs (F := F) 1).pre c q pf : sProp 𝕄) = BI.emp :=
  bigSep_Fin0 _

/-- ENTRY, the arrays' part: the unscoped buffers held at a valuation are the pipeline's arrays at the proof data's
    entry contents and the rest. -/
theorem entry1 (c : Dev nD) :
    (StableHlo.held (SparseCore.T c) (Pipeline.ucRefs τ sig) (VV c) : sProp 𝕄)
      ⊢ iprop((rdats VV WW OO 1 c).arrays (rdats VV WW OO 1 c).A ∗ Pipeline.unscopedRest spec2 c (fun b => VV c b)) := by
  have h1 := Pipeline.RDat.arrays_of_unscopedBufs (pcfgs (F := F)) adm (rdats VV WW OO) (p := 1) Gen.winFacts2 Gen.arr_whole2 c
    (fun w => rdatG_share WW OO cfg2 c (VV c) w) (fun b => VV c b) (fun _ => rfl)
  rw [Pipeline.unscopedBufs_held (Ix := HIx 1) (Name := ℕ) (U := UU) (Lvl := ℕ) c (VV c)] at h1
  exact h1

/-- THE SECOND REGION (pipeline 1, a grid of eight points): entered from the unscoped buffers at a valuation and the
    thread's tally, it leaves the unscoped buffers at some valuation that differs only on the two output windows' arrays,
    and the same tally. -/
def reg1 (hO : ∀ g, OO g none = 0) :
    Pipeline.RDat.RegionSeg (pcfgs (F := F)) adm (rdats VV WW OO) (none : HIx 1) defs₀ 𝒱₀ (K (F := F)).L (K (F := F)).lev 1 where
  win := Gen.winFacts2.to₀
  block_pos := Gen.block_pos2
  stage_whole := Gen.stage_whole2
  K := PEmpty
  osem k := k.elim
  ho := Pipeline.OwnSemFacts.none _
  hbody c := body1 VV WW OO c
  hwaits c := Pipeline.RDat.cellsWaits_intro (Pipeline.pin (pcfgs (F := F)) adm) (rdats VV WW OO) none 1 c
    fun w s t => (K (F := F)).mayWait_none _ hO
  pre c := iprop(StableHlo.held (SparseCore.T c) (Pipeline.ucRefs τ sig) (VV c) ∗ owesT WW OO c)
  post c := iprop((∃ V' : Valuation τ sig (Elt F), ⌜∀ b, b ∉ outs cfg2 → V' b = VV c b⌝
      ∗ StableHlo.held (SparseCore.T c) (Pipeline.ucRefs τ sig) V') ∗ owesT WW OO c)
  X _ := iprop(emp)
  Y _ := iprop(emp)
  Z c := Pipeline.unscopedRest spec2 c (fun b => VV c b)
  hentry c := by
    rw [Pipeline.ownSems0_none, prefHeld1]
    iintro ⟨⟨Hh, HO⟩, -, -⟩
    imodintro
    ihave Ha := (entry1 VV WW OO c) $$ Hh
    icases Ha with ⟨Ha, Hr⟩
    isplitl [Ha]; · iexact Ha
    isplitr; · iempintro
    isplitl [HO]; · iapply (owesAt_intro WW OO c (VV c) 0); iexact HO
    isplitr; · iempintro
    iexact Hr
  hin c := by
    rw [show (rdats VV WW OO 1 c).Φ 0 = Pipeline.scopedRest spec2 c from rfl]
    iintro ⟨-, -, H⟩; iexact H
  hout c := by
    rw [show (rdats VV WW OO 1 c).Φ (Fin.last _) = Pipeline.scopedRest spec2 c from rfl, Pipeline.ownSems0_none]
    iintro H
    isplitr; · iempintro
    isplitr; · iempintro
    iexact H
  hexit c := by
    iintro ⟨Ha, HO, -, HZ⟩
    imodintro
    isplitl [Ha HZ]
    · iapply (exit_held WW OO c (VV c) Gen.winFacts2 Gen.arr_whole2 _)
      isplitl [Ha]; · iexact Ha
      iexact HZ
    iapply (owesAt_elim WW OO c (VV c) _); iexact HO

/-- The region's step on core `d`, as the TensorCore thread of the launch takes it. -/
theorem region1_wp (hO : ∀ g, OO g none = 0) (d : Dev nD) {α : Type}
    (k : PUnit → Prog (TpuEff nD τ sig (Elt F) (ΛP (F := F)) .tc) α) (Q : α → sProp 𝕄) :
    iprop((iprop(boundary (SparseCore.T d) ∗ (reg1 VV WW OO hO).post d) -∗ wp frame (wpE D 𝒱 (SparseCore.T d) none) Set.univ (k ⟨⟩) Q)
        ∗ boundary (SparseCore.T d) ∗ (reg1 VV WW OO hO).pre d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE D 𝒱 (SparseCore.T d) none) Set.univ (.op (.customCall (Pipeline.entry 1) ()) k) Q :=
  (reg1 VV WW OO hO).wp (pcfgs (F := F)) adm (rdats VV WW OO) none pcell_inj EP defs₀ 𝒱₀ (K (F := F)).L (K (F := F)).lev d none
    (fun u hu => nomatch hu) k Q

end Cert.Kernel.Hand

end
-- ==== Proof.Bits.Region2.lean ====
/-
  The last TensorCore pallas_call (two windows over a grid of two points: it copies the blocks of its input's array
  over blocks of its output's array through the staging buffers), as one region of the TensorCore thread: its body on
  any staging memrefs, the body obligation, and the region's step at frame strength.
-/
import proofs.«211565_g20684562498226_cont_8to1_684_24_alg».proof.Proof.Bits.Setup
import proofs.«211565_g20684562498226_cont_8to1_684_24_alg».proof.Proof.Gen.Kernel.Points
import Idealize.ShloMosaic.Lib.Pipeline.Frame
import proofs.«211565_g20684562498226_cont_8to1_684_24_alg».proof.Proof.Bits.RegionsData

noncomputable section

namespace Cert.Kernel.Hand

open Cert.Kernel Cert.Kernel.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The body of the last pallas_call on any staging memrefs -/

set_option maxHeartbeats 1000000 in
/-- The body loads its input block and its output block and stores the input block (reshaped to itself) over the
    output block: from the two staging buffers at any contents it returns holding both, at contents not named. The
    HBM operand is never touched. -/
theorem run3 (c : Dev nD) (i : grid3.Coords) (arg1 : Memref sig .tc .hbm S768x65536 .f32) (harg1 : arg1.IsWhole)
    (arg2 : Memref sig .tc .vmem S768x2048 .f32) (harg2 : arg2.IsWhole) (arg3 : Memref sig .tc .vmem S768x2048 .f32) (harg3 : arg3.IsWhole)
    (x2 x3 : Vec F S768x2048 .f32) (E : Set ℕ) (Q : PUnit → sProp 𝕄) :
    iprop(owns (c : Thread nD τ) arg2 fullShare x2 ∗ owns (c : Thread nD τ) arg3 fullShare x3
        ∗ (iprop((∃ y, owns (c : Thread nD τ) arg2 fullShare y) ∗ (∃ y, owns (c : Thread nD τ) arg3 fullShare y)) -∗ Q ⟨⟩))
      ⊢ wp frame (wpE (defs₀ (F := F)) Variants.none c none) E (cc3__enqueue_body i arg1 harg1 arg2 harg2 arg3 harg3) Q := by
  simp only [cc3__enqueue_body_eq_skeleton]; unfold cc3__enqueue_body_skel
  unfold owns
  iintro ⟨⟨%f2, %hf2, H2⟩, ⟨%f3, %hf3, H3⟩, Hk⟩
  sl_exec
  sl_step
  iapply Hk
  isplitl [H2]
  · iexists _; iexists _; isplitr
    swap
    · iexact H2
    ipureintro; rfl
  iexists _; iexists _; isplitr
  swap
  · iexact H3
  ipureintro; rfl

variable (VV : Dev nD → Valuation τ sig (Elt F)) (WW : Waits sig (HIx 1)) (OO : CellTallies nD τ sig (HIx 1))

/-- The body obligation of the last pallas_call, at every point. -/
theorem body3 (c : Dev nD) : (rdats VV WW OO 2 c).BodyObligation defs₀ 𝒱₀ (none : HIx 1) Set.univ := fun t Y _ => by
  rw [Gen.bigSep_W3, Gen.bigSep_W3]
  show iprop(Pipeline.scopedRest spec3 c ∗ (rdatG cfg3 c (VV c) WW OO).owesAt none t.castSucc
        ∗ owns (c : Thread nD τ) (Gen.st3_0 t) fullShare (Y 0) ∗ owns (c : Thread nD τ) (Gen.st3_1 t) fullShare (Y 1))
      ⊢ wp frame (wpE (defs₀ (F := F)) Variants.none c none) Set.univ (Gen.bodyAt3 t) (fun _ =>
          iprop(Pipeline.scopedRest spec3 c ∗ (rdatG cfg3 c (VV c) WW OO).owesAt none t.succ
            ∗ (∃ X, ⌜True⌝ ∗ owns (c : Thread nD τ) (Gen.st3_0 t) fullShare X) ∗ (∃ X, ⌜True⌝ ∗ owns (c : Thread nD τ) (Gen.st3_1 t) fullShare X)))
  iintro ⟨HΦ, HO, H0, H1⟩
  iapply (run3 c _ _ _ _ _ _ _ (Y 0) (Y 1) Set.univ _)
  isplitl [H0]; · iexact H0
  isplitl [H1]; · iexact H1
  iintro ⟨⟨%y0, H0⟩, ⟨%y1, H1⟩⟩
  isplitl [HΦ]; · iexact HΦ
  isplitl [HO]; · iexact HO
  isplitl [H0]
  · iexists y0; isplitr
    · ipureintro; trivial
    iexact H0
  iexists y1; isplitr
  · ipureintro; trivial
  iexact H1

/-- No pipeline has a prefetched table. -/
theorem prefHeld2 (c : Dev nD) (q) (pf) : (Pipeline.prefHeld (Ix := HIx 1) (Name := ℕ) (U := UU) (Lvl := ℕ) (Val := Elt F) (pcfgs (F := F) 2).pre c q pf : sProp 𝕄) = BI.emp :=
  bigSep_Fin0 _

/-- ENTRY, the arrays' part: the unscoped buffers held at a valuation are the last pipeline's arrays at the proof
    data's entry contents and the rest. -/
theorem entry2 (c : Dev nD) :
    (StableHlo.held (SparseCore.T c) (Pipeline.ucRefs τ sig) (VV c) : sProp 𝕄)
      ⊢ iprop((rdats VV WW OO 2 c).arrays (rdats VV WW OO 2 c).A ∗ Pipeline.unscopedRest spec3 c (fun b => VV c b)) := by
  have h1 := Pipeline.RDat.arrays_of_unscopedBufs (pcfgs (F := F)) adm (rdats VV WW OO) (p := 2) Gen.winFacts3 Gen.arr_whole3 c
    (fun w => rdatG_share WW OO cfg3 c (VV c) w) (fun b => VV c b) (fun _ => rfl)
  rw [Pipeline.unscopedBufs_held (Ix := HIx 1) (Name := ℕ) (U := UU) (Lvl := ℕ) c (VV c)] at h1
  exact h1

/-- THE LAST REGION (pipeline 2): entered from the unscoped buffers at a valuation and the thread's tally, it leaves the
    unscoped buffers at some valuation that differs only on the output window's array, and the same tally. -/
def reg2 (hO : ∀ g, OO g none = 0) :
    Pipeline.RDat.RegionSeg (pcfgs (F := F)) adm (rdats VV WW OO) (none : HIx 1) defs₀ 𝒱₀ (K (F := F)).L (K (F := F)).lev 2 where
  win := Gen.winFacts3.to₀
  block_pos := Gen.block_pos3
  stage_whole := Gen.stage_whole3
  K := PEmpty
  osem k := k.elim
  ho := Pipeline.OwnSemFacts.none _
  hbody c := body3 VV WW OO c
  hwaits c := Pipeline.RDat.cellsWaits_intro (Pipeline.pin (pcfgs (F := F)) adm) (rdats VV WW OO) none 2 c
    fun w s t => (K (F := F)).mayWait_none _ hO
  pre c := iprop(StableHlo.held (SparseCore.T c) (Pipeline.ucRefs τ sig) (VV c) ∗ owesT WW OO c)
  post c := iprop((∃ V' : Valuation τ sig (Elt F), ⌜∀ b, b ∉ outs cfg3 → V' b = VV c b⌝
      ∗ StableHlo.held (SparseCore.T c) (Pipeline.ucRefs τ sig) V') ∗ owesT WW OO c)
  X _ := iprop(emp)
  Y _ := iprop(emp)
  Z c := Pipeline.unscopedRest spec3 c (fun b => VV c b)
  hentry c := by
    rw [Pipeline.ownSems0_none, prefHeld2]
    iintro ⟨⟨Hh, HO⟩, -, -⟩
    imodintro
    ihave Ha := (entry2 VV WW OO c) $$ Hh
    icases Ha with ⟨Ha, Hr⟩
    isplitl [Ha]; · iexact Ha
    isplitr; · iempintro
    isplitl [HO]; · iapply (owesAt_intro WW OO c (VV c) 0); iexact HO
    isplitr; · iempintro
    iexact Hr
  hin c := by
    rw [show (rdats VV WW OO 2 c).Φ 0 = Pipeline.scopedRest spec3 c from rfl]
    iintro ⟨-, -, H⟩; iexact H
  hout c := by
    rw [show (rdats VV WW OO 2 c).Φ (Fin.last _) = Pipeline.scopedRest spec3 c from rfl, Pipeline.ownSems0_none]
    iintro H
    isplitr; · iempintro
    isplitr; · iempintro
    iexact H
  hexit c := by
    iintro ⟨Ha, HO, -, HZ⟩
    imodintro
    isplitl [Ha HZ]
    · iapply (exit_held WW OO c (VV c) Gen.winFacts3 Gen.arr_whole3 _)
      isplitl [Ha]; · iexact Ha
      iexact HZ
    iapply (owesAt_elim WW OO c (VV c) _); iexact HO

/-- The last region's step on core `d`, as the TensorCore thread of the launch takes it. -/
theorem region2_wp (hO : ∀ g, OO g none = 0) (d : Dev nD) {α : Type}
    (k : PUnit → Prog (TpuEff nD τ sig (Elt F) (ΛP (F := F)) .tc) α) (Q : α → sProp 𝕄) :
    iprop((iprop(boundary (SparseCore.T d) ∗ (reg2 VV WW OO hO).post d) -∗ wp frame (wpE D 𝒱 (SparseCore.T d) none) Set.univ (k ⟨⟩) Q)
        ∗ boundary (SparseCore.T d) ∗ (reg2 VV WW OO hO).pre d ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE D 𝒱 (SparseCore.T d) none) Set.univ (.op (.customCall (Pipeline.entry 2) ()) k) Q :=
  (reg2 VV WW OO hO).wp (pcfgs (F := F)) adm (rdats VV WW OO) none pcell_inj EP defs₀ 𝒱₀ (K (F := F)).L (K (F := F)).lev d none
    (fun u hu => nomatch hu) k Q

end Cert.Kernel.Hand

end
-- ==== Proof.Bits.Regions.lean ====
/-
  The three TensorCore pallas_calls as steps of the TensorCore thread, stated over one pair of thread states: before a
  region the unscoped buffers at a valuation and the thread's tally; after it the unscoped buffers at a valuation that
  differs only on the region's output arrays, and the same tally.
-/
import proofs.«211565_g20684562498226_cont_8to1_684_24_alg».proof.Proof.Bits.Setup
import proofs.«211565_g20684562498226_cont_8to1_684_24_alg».proof.Proof.Gen.Kernel.Points
import Idealize.ShloMosaic.Lib.Pipeline.Frame
import proofs.«211565_g20684562498226_cont_8to1_684_24_alg».proof.Proof.Bits.Region0
import proofs.«211565_g20684562498226_cont_8to1_684_24_alg».proof.Proof.Bits.Region1
import proofs.«211565_g20684562498226_cont_8to1_684_24_alg».proof.Proof.Bits.Region2

noncomputable section

namespace Cert.Kernel.Hand

open Cert.Kernel Cert.Kernel.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (VV : Dev nD → Valuation τ sig (Elt F)) (WW : Waits sig (HIx 1)) (OO : CellTallies nD τ sig (HIx 1))

/-! ## The output windows' arrays of each pipeline -/

theorem outs0_eq : outs cfg0 = ({Proc.devRef (τ := τ) .tc main_v6_0, Proc.devRef (τ := τ) .tc main_v6_1, Proc.devRef (τ := τ) .tc main_v6_2,
    Proc.devRef (τ := τ) .tc main_v6_3, Proc.devRef (τ := τ) .tc main_v6_4, Proc.devRef (τ := τ) .tc main_v6_5} : Finset (DevRef τ sig)) := by decide
theorem outs2_eq : outs cfg2 = ({Proc.devRef (τ := τ) .tc main_v17_0, Proc.devRef (τ := τ) .tc main_v17_1} : Finset (DevRef τ sig)) := by decide
theorem outs3_eq : outs cfg3 = ({Proc.devRef (τ := τ) .tc main_v18} : Finset (DevRef τ sig)) := by decide

/-! ## The thread states around a region -/

/-- Before a region: the TensorCore's unscoped buffers at the valuation `VV d`, and the thread's tally. -/
def preR (d : Dev nD) : sProp 𝕄 :=
  iprop(StableHlo.held (SparseCore.T d) (Pipeline.ucRefs τ sig) (VV d) ∗ owesT WW OO d)

/-- After the region of the pipeline `cfg`: the unscoped buffers at some valuation that agrees with `VV d` on every
    buffer that is no output window's array of the pipeline, and the same tally. -/
def postR (cfg : Pipeline.Cfg sig Λ₀) (d : Dev nD) : sProp 𝕄 :=
  iprop((∃ V' : Valuation τ sig (Elt F), ⌜∀ b, b ∉ outs cfg → V' b = VV d b⌝
      ∗ StableHlo.held (SparseCore.T d) (Pipeline.ucRefs τ sig) V') ∗ owesT WW OO d)

theorem reg0_pre (hO : ∀ g, OO g none = 0) (d : Dev nD) : (reg0 VV WW OO hO).pre d = preR VV WW OO d := rfl
theorem reg0_post (hO : ∀ g, OO g none = 0) (d : Dev nD) : (reg0 VV WW OO hO).post d = postR VV WW OO cfg0 d := rfl
theorem reg1_pre (hO : ∀ g, OO g none = 0) (d : Dev nD) : (reg1 VV WW OO hO).pre d = preR VV WW OO d := rfl
theorem reg1_post (hO : ∀ g, OO g none = 0) (d : Dev nD) : (reg1 VV WW OO hO).post d = postR VV WW OO cfg2 d := rfl
theorem reg2_pre (hO : ∀ g, OO g none = 0) (d : Dev nD) : (reg2 VV WW OO hO).pre d = preR VV WW OO d := rfl
theorem reg2_post (hO : ∀ g, OO g none = 0) (d : Dev nD) : (reg2 VV WW OO hO).post d = postR VV WW OO cfg3 d := rfl

/-! ## The three regions' steps, over the named thread states -/

/-- The first pallas_call's custom call, on core `d`. -/
theorem region0 (hO : ∀ g, OO g none = 0) (d : Dev nD) {α : Type}
    (k : PUnit → Prog (TpuEff nD τ sig (Elt F) (ΛP (F := F)) .tc) α) (Q : α → sProp 𝕄) :
    iprop((iprop(boundary (SparseCore.T d) ∗ postR VV WW OO cfg0 d) -∗ wp frame (wpE D 𝒱 (SparseCore.T d) none) Set.univ (k ⟨⟩) Q)
        ∗ boundary (SparseCore.T d) ∗ preR VV WW OO d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE D 𝒱 (SparseCore.T d) none) Set.univ (.op (.customCall (Pipeline.entry 0) ()) k) Q :=
  region0_wp VV WW OO hO d k Q

/-- The second pallas_call's custom call, on core `d`. -/
theorem region1 (hO : ∀ g, OO g none = 0) (d : Dev nD) {α : Type}
    (k : PUnit → Prog (TpuEff nD τ sig (Elt F) (ΛP (F := F)) .tc) α) (Q : α → sProp 𝕄) :
    iprop((iprop(boundary (SparseCore.T d) ∗ postR VV WW OO cfg2 d) -∗ wp frame (wpE D 𝒱 (SparseCore.T d) none) Set.univ (k ⟨⟩) Q)
        ∗ boundary (SparseCore.T d) ∗ preR VV WW OO d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE D 𝒱 (SparseCore.T d) none) Set.univ (.op (.customCall (Pipeline.entry 1) ()) k) Q :=
  region1_wp VV WW OO hO d k Q

/-- The third pallas_call's custom call, on core `d`. -/
theorem region2 (hO : ∀ g, OO g none = 0) (d : Dev nD) {α : Type}
    (k : PUnit → Prog (TpuEff nD τ sig (Elt F) (ΛP (F := F)) .tc) α) (Q : α → sProp 𝕄) :
    iprop((iprop(boundary (SparseCore.T d) ∗ postR VV WW OO cfg3 d) -∗ wp frame (wpE D 𝒱 (SparseCore.T d) none) Set.univ (k ⟨⟩) Q)
        ∗ boundary (SparseCore.T d) ∗ preR VV WW OO d ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE D 𝒱 (SparseCore.T d) none) Set.univ (.op (.customCall (Pipeline.entry 2) ()) k) Q :=
  region2_wp VV WW OO hO d k Q

end Cert.Kernel.Hand

end
-- ==== Proof.Bits.RegionAdapt.lean ====
/-
  The three TensorCore kernel regions as steps of @main: each region's proof, stated over its own entry valuation and
  the TensorCore's debt, in the form @main's run takes — the buffers held before at any valuation, after at one that
  differs on the region's output arrays at most; no region's output array is an argument array.
-/
import proofs.«211565_g20684562498226_cont_8to1_684_24_alg».proof.Proof.Bits.MainRun
import proofs.«211565_g20684562498226_cont_8to1_684_24_alg».proof.Proof.Bits.Regions

noncomputable section

namespace Cert.Kernel.Hand

open Cert.Kernel Cert.Kernel.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

/-- A region's proof over named thread states is a region step. -/
theorem regionStep_of [FloatOps F] {p : Fin 3} (cfg : Pipeline.Cfg sig Λ₀)
    (h : ∀ (VV : Dev nD → Valuation τ sig (Elt F)) (WW : Waits sig (HIx 1)) (OO : CellTallies nD τ sig (HIx 1)), (∀ g, OO g none = 0) →
      ∀ (d : Dev nD) {α : Type} (k : PUnit → Prog (TpuEff nD τ sig (Elt F) (ΛP (F := F)) .tc) α) (Q : α → sProp 𝕄),
      iprop((iprop(boundary (SparseCore.T d) ∗ postR VV WW OO cfg d) -∗ wp frame (wpE (D (F := F)) 𝒱 (SparseCore.T d) none) Set.univ (k ⟨⟩) Q)
          ∗ boundary (SparseCore.T d) ∗ preR VV WW OO d ∗ levAts (K (F := F)).L (K (F := F)).lev
          ∗ Pipeline.cellsGhost (Pipeline.pin (pcfgs (F := F)) adm) EP p d ∗ Pipeline.toksInit (Pipeline.pin (pcfgs (F := F)) adm) EP p d)
        ⊢ wp frame (wpE (D (F := F)) 𝒱 (SparseCore.T d) none) Set.univ (.op (.customCall (Pipeline.entry p) ()) k) Q) :
    RegionStep (F := F) p (offOuts (outs cfg)) := by
  intro d O W hO V α k Q
  have h0 : iprop((∀ (V' : Valuation τ sig (Elt F)) (W' : Waits sig (HIx 1)),
            iprop(⌜offOuts (outs cfg) V V'⌝ ∗ ⌜∀ x ∈ W', x ∈ W ∨ x.2 = none⌝ ∗ boundary (SparseCore.T d) ∗ held (SparseCore.T d) Sall V' ∗ owes (SparseCore.T d) O W')
              -∗ wp frame (wpE (D (F := F)) 𝒱 (SparseCore.T d) none) Set.univ (k ⟨⟩) Q)
        ∗ boundary (SparseCore.T d) ∗ held (SparseCore.T d) Sall V ∗ owes (SparseCore.T d) O W ∗ levAts (K (F := F)).L (K (F := F)).lev ∗ Gq p d)
      ⊢ iprop((iprop(boundary (SparseCore.T d) ∗ postR (fun _ => V) W O cfg d) -∗ wp frame (wpE (D (F := F)) 𝒱 (SparseCore.T d) none) Set.univ (k ⟨⟩) Q)
          ∗ boundary (SparseCore.T d) ∗ preR (fun _ => V) W O d ∗ levAts (K (F := F)).L (K (F := F)).lev
          ∗ Pipeline.cellsGhost (Pipeline.pin (pcfgs (F := F)) adm) EP p d ∗ Pipeline.toksInit (Pipeline.pin (pcfgs (F := F)) adm) EP p d) := by
    unfold preR postR owesT
    iintro ⟨Hk, Hb, Hh, HO, Hlev, HG⟩
    isplitl [Hk]
    · iintro ⟨Hb, ⟨%V', %hV', Hh⟩, ⟨%W', %hW', HO⟩⟩
      ispecialize Hk $$ %V'
      ispecialize Hk $$ %W'
      iapply Hk
      isplitr; · ipureintro; exact hV'
      isplitr; · ipureintro; exact hW'
      isplitl [Hb]; · iexact Hb
      isplitl [Hh]; · iexact Hh
      iexact HO
    · isplitl [Hb]; · iexact Hb
      isplitl [Hh HO]
      · isplitl [Hh]; · iexact Hh
        iexists W; isplitr
        · ipureintro; exact fun x hx => .inl hx
        · iexact HO
      isplitl [Hlev]; · iexact Hlev
      iexact HG
  exact BI.Entails.trans h0 (h (fun _ => V) W O hO d k Q)

theorem regionStep0 [FloatOps F] : RegionStep (F := F) 0 (offOuts (outs cfg0)) := regionStep_of cfg0 fun VV WW OO hO d _ k Q => region0 VV WW OO hO d k Q
theorem regionStep1 [FloatOps F] : RegionStep (F := F) 1 (offOuts (outs cfg2)) := regionStep_of cfg2 fun VV WW OO hO d _ k Q => region1 VV WW OO hO d k Q
theorem regionStep2 [FloatOps F] : RegionStep (F := F) 2 (offOuts (outs cfg3)) := regionStep_of cfg3 fun VV WW OO hO d _ k Q => region2 VV WW OO hO d k Q

/-- No region's output array is an argument array. -/
theorem args_not_outs0 : ∀ b ∈ argRefs, b ∉ outs cfg0 := by rw [outs0_eq]; decide
theorem args_not_outs1 : ∀ b ∈ argRefs, b ∉ outs cfg2 := by rw [outs2_eq]; decide
theorem args_not_outs2 : ∀ b ∈ argRefs, b ∉ outs cfg3 := by rw [outs3_eq]; decide

end Cert.Kernel.Hand

end
-- ==== Proof.Bits.ScTileA.lean ====
/-
  The geometry of one vector subcore's task in the SparseCore copy kernel. The subcore at grid coordinates `L` owns strip
  `16 · L 0 + L 1` of the queue and of its copy: 24 rows, all 65536 columns. Its program copies the strip's columns
  4096 … 65535 in 48 blocks of 30720 words — block `n` is row `n / 2` of the strip, columns `4096 + (n % 2) · 30720`
  onwards — and never touches the first 4096 columns. This module states the blocks as sets of positions of the
  array, proves that the strip is the disjoint union of its head and its 48 blocks, identifies every offset function
  the printed kernel computes (at every subcore and every trip of its loop) with the block it names and every guard
  with a comparison of the trip number, converts between a block held through the program's sliced memref and the same
  positions of the TensorCore's array, and opens the subcore's scoped storage into its four scratch buffers and eight
  DMA semaphores.
-/
import proofs.«211565_g20684562498226_cont_8to1_684_24_alg».proof.Proof.Bits.Setup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

abbrev qV : Memref sig .scVector .hbm S768x65536 .f32 := Memref.whole main_arg18_scv
abbrev oV : Memref sig .scVector .hbm S768x65536 .f32 := Memref.whole main_v7_scv
abbrev b0 : Memref sig .scVector .vmem S30720 .f32 := Memref.whole cc1_scratch0
abbrev b1 : Memref sig .scVector .vmem S30720 .f32 := Memref.whole cc1_scratch1
abbrev b2 : Memref sig .scVector .vmem S30720 .f32 := Memref.whole cc1_scratch2
abbrev b3 : Memref sig .scVector .vmem S30720 .f32 := Memref.whole cc1_scratch3

def coordsV (c : Fin (grid1.bound 0)) (s : Fin (grid1.bound 1)) : grid1.Coords :=
  fun | 0 => c | 1 => s | ⟨_ + 2, h⟩ => absurd h (Nat.not_lt.2 (Nat.le_add_left _ _))

abbrev cV (L : grid1.Coords) : Fin τ.nSC := (L 0).castLE hcore1
abbrev jV (L : grid1.Coords) : Fin τ.nSub := (L 1).castLE hsub1
abbrev thrV (d : Dev nD) (L : grid1.Coords) : Thread nD τ := V d (cV L) (jV L)
theorem bound_zero : grid1.bound 0 = 2 := rfl
theorem bound_one : grid1.bound 1 = 16 := rfl
/-- The strip of the vector subcore at coordinates `L`. -/
def tIx (L : grid1.Coords) : Fin 32 := tileIx (Fin.cast bound_zero (L 0)) (Fin.cast bound_one (L 1))

/-- A block of the queue / of the copy as the program slices it: the row-and-half the offsets name, squeezed. -/
abbrev blkOf (M : Memref sig .scVector .hbm S768x65536 .f32) (off : Fin 2 → Nat) (h : ∀ a, off a + S1x30720.size a ≤ S768x65536.size a) :
    Memref sig .scVector .hbm S30720 .f32 :=
  (M.slice (Rect.unit (s := S768x65536) off S1x30720.size h) (fun _ => rfl)).squeeze S30720 squeezes_S1x30720_S30720

/-! ## Peeling members off a big separating conjunction -/

/-- `Φ a₁ ∗ … ∗ Φ aₙ ∗ R`. -/
def sepL {α : Type} (Φ : α → sProp 𝕄) : List α → sProp 𝕄 → sProp 𝕄
  | [], R => R
  | a :: l, R => iprop(Φ a ∗ sepL Φ l R)

/-- Distinct members of `s`, in any order, come out of the conjunction over `s` one by one. -/
theorem bigSep_peel {α : Type} [DecidableEq α] (Φ : α → sProp 𝕄) :
    ∀ (l : List α) (s : Finset α), l.Nodup → (∀ a ∈ l, a ∈ s) → bigSep s Φ = sepL Φ l (bigSep (l.foldl Finset.erase s) Φ)
  | [], _, _, _ => rfl
  | a :: l, s, hnd, hmem => by
    have hnd' := List.nodup_cons.mp hnd
    rw [SparseCore.bigSep_erase' (hmem a (List.mem_cons_self)) (Φ := Φ),
      bigSep_peel Φ l (s.erase a) hnd'.2 (fun b hb => Finset.mem_erase.mpr ⟨fun e => hnd'.1 (e ▸ hb), hmem b (List.mem_cons_of_mem _ hb)⟩)]
    rfl

/-! ## The blocks of a strip

Strip `t` is rows `24 t … 24 t + 23`. The kernel moves its columns `4096 … 65535` in 48 blocks of 30720 words:
block `n` is row `24 t + n / 2`, columns `4096 + (n % 2) · 30720` onwards. The first 4096 columns of the strip's rows
(its head) are never touched. -/

/-- Where block `n` of strip `t` starts. -/
def blkOff (t n : ℕ) : Fin 2 → ℕ := ![24 * t + n / 2, 4096 + (n % 2) * 30720]

/-- Block `n` of strip `t`, as a set of positions. -/
def blkSet (t n : ℕ) : Finset S768x65536.Idx :=
  Finset.univ.filter fun i => (i 0).val = 24 * t + n / 2 ∧ 4096 + (n % 2) * 30720 ≤ (i 1).val ∧ (i 1).val < 4096 + (n % 2) * 30720 + 30720

/-- The first 4096 columns of strip `t`'s rows. -/
def headSet (t : ℕ) : Finset S768x65536.Idx :=
  Finset.univ.filter fun i => 24 * t ≤ (i 0).val ∧ (i 0).val < 24 * t + 24 ∧ (i 1).val < 4096

theorem mem_blkSet {t n : ℕ} {i : S768x65536.Idx} :
    i ∈ blkSet t n ↔ (i 0).val = 24 * t + n / 2 ∧ 4096 + (n % 2) * 30720 ≤ (i 1).val ∧ (i 1).val < 4096 + (n % 2) * 30720 + 30720 := by
  simp [blkSet]
theorem mem_headSet {t : ℕ} {i : S768x65536.Idx} : i ∈ headSet t ↔ 24 * t ≤ (i 0).val ∧ (i 0).val < 24 * t + 24 ∧ (i 1).val < 4096 := by
  simp [headSet]
theorem mem_stripSet {t : Fin 32} {i : S768x65536.Idx} : i ∈ stripSet t ↔ 24 * t.val ≤ (i 0).val ∧ (i 0).val < 24 * t.val + 24 := by
  have h1 : (i 1).val < 65536 := (i 1).isLt
  unfold stripSet strip Rect.part Rect.block
  rw [Rect.mem_set_unit, Fin.forall_fin_two]
  simp only [Shape.partIx, Shape.partSize]
  simp
  omega

/-- A block the program slices — one row, 30720 columns from its offsets — is the block its offsets name. -/
theorem set_unit_blk {off : Fin 2 → ℕ} (h : ∀ a, off a + S1x30720.size a ≤ S768x65536.size a) {t n : ℕ} (e : off = blkOff t n) :
    (Rect.unit (s := S768x65536) off S1x30720.size h).set = blkSet t n := by
  subst e
  ext i
  rw [Rect.mem_set_unit, Fin.forall_fin_two, mem_blkSet]
  simp [blkOff]
  omega

theorem blk_disjoint (t : ℕ) {n n' : ℕ} (h : n ≠ n') : Disjoint (blkSet t n) (blkSet t n') :=
  Finset.disjoint_left.mpr fun i h1 h2 => by
    rw [mem_blkSet] at h1 h2; omega
theorem head_disjoint (t n : ℕ) : Disjoint (headSet t) (blkSet t n) :=
  Finset.disjoint_left.mpr fun i h1 h2 => by
    rw [mem_headSet] at h1; rw [mem_blkSet] at h2; omega

/-- The strip is its head and its 48 blocks. -/
theorem strip_cover (t : Fin 32) : stripSet t = headSet t.val ∪ (Finset.range 48).biUnion (blkSet t.val) := by
  ext i
  have h1 : (i 1).val < 65536 := (i 1).isLt
  rw [mem_stripSet, Finset.mem_union, mem_headSet, Finset.mem_biUnion]
  constructor
  · rintro ⟨ha, hb⟩
    by_cases hc : (i 1).val < 4096
    · exact .inl ⟨ha, hb, hc⟩
    · refine .inr ⟨2 * ((i 0).val - 24 * t.val) + ((i 1).val - 4096) / 30720, Finset.mem_range.mpr (by omega), mem_blkSet.mpr ?_⟩
      omega
  · rintro (⟨ha, hb, -⟩ | ⟨n, hn, hi⟩)
    · exact ⟨ha, hb⟩
    · rw [Finset.mem_range] at hn; rw [mem_blkSet] at hi; omega

/-! ## The printed offsets and conditions, in closed form

Every offset function of the kernel, at the vector subcore `L` and trip `k`, names a block of `L`'s strip; the
conditions compare the trip with the ends of the loop. Decided over the 32 subcores and 12 trips. -/

theorem trips_eq : k1_t1_loop.trips = 12 := by decide +kernel

theorem off1_0 : ∀ L : grid1.Coords, k1_off1 L 0#32 = blkOff (tIx L).val 0 := by decide +kernel
theorem off1_1 : ∀ L : grid1.Coords, k1_off1 L 1#32 = blkOff (tIx L).val 2 := by decide +kernel
theorem off1_22 : ∀ L : grid1.Coords, k1_off1 L 22#32 = blkOff (tIx L).val 44 := by decide +kernel
theorem off1_23 : ∀ L : grid1.Coords, k1_off1 L 23#32 = blkOff (tIx L).val 46 := by decide +kernel
theorem off2_0 : ∀ L : grid1.Coords, k1_off2 L 0#32 = blkOff (tIx L).val 1 := by decide +kernel
theorem off2_22 : ∀ L : grid1.Coords, k1_off2 L 22#32 = blkOff (tIx L).val 45 := by decide +kernel
theorem off2_23 : ∀ L : grid1.Coords, k1_off2 L 23#32 = blkOff (tIx L).val 47 := by decide +kernel
theorem off3_0 : ∀ (L : grid1.Coords) (k : Fin k1_t1_loop.trips), k1_off3 L k 0#32 = blkOff (tIx L).val (4 * k.val) := by decide +kernel
theorem off3_1 : ∀ (L : grid1.Coords) (k : Fin k1_t1_loop.trips), k1_off3 L k 1#32 = blkOff (tIx L).val (4 * k.val + 1) := by decide +kernel
theorem off3_2 : ∀ (L : grid1.Coords) (k : Fin k1_t1_loop.trips), k1_off3 L k 2#32 = blkOff (tIx L).val (4 * k.val + 2) := by decide +kernel
theorem off3_3 : ∀ (L : grid1.Coords) (k : Fin k1_t1_loop.trips), k1_off3 L k 3#32 = blkOff (tIx L).val (4 * k.val + 3) := by decide +kernel
theorem off5_eq : ∀ (L : grid1.Coords) (k : Fin k1_t1_loop.trips), k1_off5 L k = blkOff (tIx L).val (4 * k.val + 3) := by decide +kernel
theorem off7_eq : ∀ (L : grid1.Coords) (k : Fin k1_t1_loop.trips), k1_off7 L k = blkOff (tIx L).val (4 * k.val + 4) := by decide +kernel
theorem off9_eq : ∀ (L : grid1.Coords) (k : Fin k1_t1_loop.trips), k1_off9 L k = blkOff (tIx L).val (4 * k.val + 5) := by decide +kernel
theorem off11_eq : ∀ (L : grid1.Coords) (k : Fin k1_t1_loop.trips), k1_off11 L k = blkOff (tIx L).val (4 * k.val + 6) := by decide +kernel

theorem cond1_true : ∀ k : Fin k1_t1_loop.trips, k1_cond1 k = 1#1 := by decide +kernel
theorem cond2_iff : ∀ k : Fin k1_t1_loop.trips, k1_cond2 k = 1#1 ↔ 0 < k.val := by decide +kernel
theorem cond3_iff : ∀ k : Fin k1_t1_loop.trips, k1_cond3 k = 1#1 ↔ k.val < 11 := by decide +kernel
theorem cond4_iff : ∀ k : Fin k1_t1_loop.trips, k1_cond4 k = 1#1 ↔ k.val < 11 := by decide +kernel
theorem cond5_iff : ∀ k : Fin k1_t1_loop.trips, k1_cond5 k = 1#1 ↔ k.val < 11 := by decide +kernel

/-! ## A block as the program's memref and as a set of the array's positions -/

section Tile

variable (d : Dev nD) (L : grid1.Coords)

/-- A block memref's positions are the block its offsets name. -/
theorem set_blkOf_q {off : Fin 2 → ℕ} (h : ∀ a, off a + S1x30720.size a ≤ S768x65536.size a) {n : ℕ} (e : off = blkOff (tIx L).val n) :
    (blkOf qV off h).view.set = blkSet (tIx L).val n := by
  show (((qV : Memref sig .scVector .hbm S768x65536 .f32).view.slice (Rect.unit (s := S768x65536) off S1x30720.size h)).reshape S30720
    squeezes_S1x30720_S30720.numel_eq).set = _
  rw [View.set_reshape]
  exact (View.set_slice_whole _ _).trans (set_unit_blk h e)
theorem set_blkOf_o {off : Fin 2 → ℕ} (h : ∀ a, off a + S1x30720.size a ≤ S768x65536.size a) {n : ℕ} (e : off = blkOff (tIx L).val n) :
    (blkOf oV off h).view.set = blkSet (tIx L).val n := by
  show (((oV : Memref sig .scVector .hbm S768x65536 .f32).view.slice (Rect.unit (s := S768x65536) off S1x30720.size h)).reshape S30720
    squeezes_S1x30720_S30720.numel_eq).set = _
  rw [View.set_reshape]
  exact (View.set_slice_whole _ _).trans (set_unit_blk h e)

/-- The queue's block `n`, held through the program's memref, is the TensorCore's array held on the block's positions. -/
theorem pts_q {off : Fin 2 → ℕ} (h : ∀ a, off a + S1x30720.size a ≤ S768x65536.size a) {n : ℕ} (e : off = blkOff (tIx L).val n)
    (f : Buf (Elt F) (qLoc d)) :
    ((blkOf qV off h).view.loc (thrV d L) ↦[(blkOf qV off h).view.set]{fullShare} f : sProp 𝕄) = qLoc d ↦[blkSet (tIx L).val n]{fullShare} f := by
  rw [set_blkOf_q L h e]
theorem pts_o {off : Fin 2 → ℕ} (h : ∀ a, off a + S1x30720.size a ≤ S768x65536.size a) {n : ℕ} (e : off = blkOff (tIx L).val n)
    (f : Buf (Elt F) (oLoc d)) :
    ((blkOf oV off h).view.loc (thrV d L) ↦[(blkOf oV off h).view.set]{fullShare} f : sProp 𝕄) = oLoc d ↦[blkSet (tIx L).val n]{fullShare} f := by
  rw [set_blkOf_o L h e]

/-- A scratch buffer held by its own elements is held whole. -/
theorem pts_buf_set (r : Ref sig .scVector) (f : Buf (Elt F) ((Memref.whole r : Memref sig .scVector _ _ _).view.loc (thrV d L))) :
    ((Memref.whole r : Memref sig .scVector _ _ _).view.loc (thrV d L) ↦[(Memref.whole r : Memref sig .scVector _ _ _).view.set]{fullShare} f : sProp 𝕄)
      = ((Memref.whole r : Memref sig .scVector _ _ _).view.loc (thrV d L) ↦{fullShare} f) := by
  simp only [Memref.view_whole, View.set_whole]
/-- and nothing of it is left over. -/
theorem pts_buf_rest (r : Ref sig .scVector) (f : Buf (Elt F) ((Memref.whole r : Memref sig .scVector _ _ _).view.loc (thrV d L))) :
    ((Memref.whole r : Memref sig .scVector _ _ _).view.loc (thrV d L) ↦[Finset.univ \ (Memref.whole r : Memref sig .scVector _ _ _).view.set]{fullShare} f : sProp 𝕄) = iprop(emp) := by
  simp only [Memref.view_whole, View.set_whole, Finset.sdiff_self]
  exact pointsTo_empty

/-! ## The subcore's scoped storage: four scratch buffers, eight DMA semaphores -/

def semsL : List (SemLoc sig) :=
  [.dma cc1_scratch4.sem, .dma cc1_scratch5.sem, .dma cc1_scratch6.sem, .dma cc1_scratch7.sem,
   .dma cc1_scratch8.sem, .dma cc1_scratch9.sem, .dma cc1_scratch10.sem, .dma cc1_scratch11.sem]
theorem semsL_nodup : semsL.Nodup := by decide
theorem semsL_scoped : ∀ a ∈ semsL, a.isScoped .scVector = true := by decide
def refsL : List (Ref sig .scVector) := [cc1_scratch0, cc1_scratch1, cc1_scratch2, cc1_scratch3]
theorem refsL_nodup : refsL.Nodup := by decide

/-- The subcore's other scoped semaphores, and its other buffers. -/
def restCells : Finset (GSem nD τ sig) := (semsL.map fun a => ((thrV d L, a) : GSem nD τ sig)).foldl Finset.erase (ownCells (thrV d L))
def restRefs : Finset (DevRef τ sig) := (refsL.map fun r => (Proc.scVector (cV L) (jV L)).devRef r).foldl Finset.erase (ownRefs (τ := τ) (.scVector (cV L) (jV L)))

theorem ownSems0_V :
    (ownSems0 (thrV d L) : sProp 𝕄)
      = iprop(semVal (thrV d L, SemLoc.dma cc1_scratch4.sem) 0 ∗ semVal (thrV d L, SemLoc.dma cc1_scratch5.sem) 0
          ∗ semVal (thrV d L, SemLoc.dma cc1_scratch6.sem) 0 ∗ semVal (thrV d L, SemLoc.dma cc1_scratch7.sem) 0
          ∗ semVal (thrV d L, SemLoc.dma cc1_scratch8.sem) 0 ∗ semVal (thrV d L, SemLoc.dma cc1_scratch9.sem) 0
          ∗ semVal (thrV d L, SemLoc.dma cc1_scratch10.sem) 0 ∗ semVal (thrV d L, SemLoc.dma cc1_scratch11.sem) 0
          ∗ bigSep (restCells d L) fun g => semVal g 0) := by
  unfold SparseCore.Cfg.ownSems0
  rw [bigSep_peel (F := F) (fun g => semVal g 0) (semsL.map fun a => ((thrV d L, a) : GSem nD τ sig)) _
    (List.Nodup.map (fun _ _ e => (Prod.mk.inj e).2) semsL_nodup)
    (fun g hg => by
      obtain ⟨a, ha, rfl⟩ := List.mem_map.mp hg
      exact mem_ownCells.mpr ⟨rfl, semsL_scoped a ha⟩)]
  rfl

theorem ownBufs_V :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ bigSep (restRefs L) fun b => iprop(∃ f, ((d, b) : Loc nD τ sig) ↦{fullShare} f)) := by
  unfold SparseCore.Cfg.ownBufs
  rw [bigSep_peel (F := F) (fun b => iprop(∃ f, ((d, b) : Loc nD τ sig) ↦{fullShare} f))
    (refsL.map fun r => (Proc.scVector (cV L) (jV L)).devRef r) _
    (List.Nodup.map (Proc.devRef_injective _) refsL_nodup)
    (fun b hb => by
      obtain ⟨r, hr, rfl⟩ := List.mem_map.mp hb
      simp only [refsL, List.mem_cons, List.not_mem_nil, or_false] at hr
      rcases hr with rfl | rfl | rfl | rfl <;> exact SparseCore.Cfg.mem_ownRefs_of_owner rfl)]
  rfl

/-! ## A strip as its head and its 48 blocks -/

theorem blocks_disjoint (t : ℕ) : ∀ a ∈ Finset.range 48, ∀ b ∈ Finset.range 48, a ≠ b → Disjoint (blkSet t a) (blkSet t b) :=
  fun _ _ _ _ h => blk_disjoint t h
theorem head_disjoint_blocks (t : ℕ) : Disjoint (headSet t) ((Finset.range 48).biUnion (blkSet t)) :=
  (Finset.disjoint_biUnion_right _ _ _).mpr fun n _ => head_disjoint t n

theorem q_split (t : Fin 32) (f : Buf (Elt F) (qLoc d)) :
    (qLoc d ↦[stripSet t]{fullShare} f : sProp 𝕄)
      = iprop((qLoc d ↦[headSet t.val]{fullShare} f) ∗ bigSep (Finset.range 48) fun n => qLoc d ↦[blkSet t.val n]{fullShare} f) := by
  rw [strip_cover, ← pointsTo_biUnion (Finset.range 48) (ℓ := qLoc d) (blkSet t.val) (blocks_disjoint t.val)]
  exact BI.equiv_iff.mp ⟨(pointsTo_union (head_disjoint_blocks t.val)).1, (pointsTo_union (head_disjoint_blocks t.val)).2⟩
theorem o_split (t : Fin 32) (f : Buf (Elt F) (oLoc d)) :
    (oLoc d ↦[stripSet t]{fullShare} f : sProp 𝕄)
      = iprop((oLoc d ↦[headSet t.val]{fullShare} f) ∗ bigSep (Finset.range 48) fun n => oLoc d ↦[blkSet t.val n]{fullShare} f) := by
  rw [strip_cover, ← pointsTo_biUnion (Finset.range 48) (ℓ := oLoc d) (blkSet t.val) (blocks_disjoint t.val)]
  exact BI.equiv_iff.mp ⟨(pointsTo_union (head_disjoint_blocks t.val)).1, (pointsTo_union (head_disjoint_blocks t.val)).2⟩

variable [FloatOps F] in
/-- The copy's strip back from its head and its blocks, each at some contents. -/
theorem o_join (t : Fin 32) :
    iprop((∃ f, oLoc d ↦[headSet t.val]{fullShare} f) ∗ bigSep (Finset.range 48) fun n => iprop(∃ f, oLoc d ↦[blkSet t.val n]{fullShare} f))
      ⊢ (iprop(∃ f, oLoc d ↦[stripSet t]{fullShare} f) : sProp 𝕄) := by
  rw [strip_cover]
  iintro ⟨⟨%fh, Hh⟩, Hb⟩
  ihave Hb' := (bigSep_exists_pi (Finset.range 48) (fun n (f : Buf (Elt F) (oLoc d)) => oLoc d ↦[blkSet t.val n]{fullShare} f)) $$ Hb
  icases Hb' with ⟨%fs, H⟩
  ihave H' := (pointsTo_biUnion_join (Finset.range 48) (blkSet t.val) fs (fs 0) (blocks_disjoint t.val)) $$ H
  icases H' with ⟨%g, -, Hg⟩
  iexists _
  iapply (pointsTo_join (ℓ := oLoc d) (head_disjoint_blocks t.val))
  isplitl [Hh]; · iexact Hh
  iexact Hg

/-! ## Moving the ends of a run of blocks -/

theorem bigSep_range_push (Φ : ℕ → sProp 𝕄) (n : ℕ) :
    bigSep (Finset.range (n + 1)) Φ = iprop(Φ n ∗ bigSep (Finset.range n) Φ) := by
  rw [Finset.range_add_one, SparseCore.bigSep_insert' Finset.notMem_range_self]
theorem bigSep_Ico_pop (Φ : ℕ → sProp 𝕄) {a b : ℕ} (h : a < b) :
    bigSep (Finset.Ico a b) Φ = iprop(Φ a ∗ bigSep (Finset.Ico (a + 1) b) Φ) := by
  have e : Finset.Ico a b = insert a (Finset.Ico (a + 1) b) := by
    ext x; simp only [Finset.mem_Ico, Finset.mem_insert]; omega
  rw [e, SparseCore.bigSep_insert' (by simp)]
theorem bigSep_Ico_self (Φ : ℕ → sProp 𝕄) {a b : ℕ} (h : b ≤ a) : bigSep (Finset.Ico a b) Φ = (iprop(emp) : sProp 𝕄) := by
  rw [Finset.Ico_eq_empty (by omega)]; rfl
theorem bigSep_range_zero (Φ : ℕ → sProp 𝕄) : bigSep (Finset.range 0) Φ = (iprop(emp) : sProp 𝕄) := rfl
theorem bigSep_Ico_zero (Φ : ℕ → sProp 𝕄) (b : ℕ) : bigSep (Finset.Ico 0 b) Φ = bigSep (Finset.range b) Φ := by
  rw [Finset.range_eq_Ico]

/-- Four blocks off the front of a run. -/
theorem bigSep_Ico_pop4 (Φ : ℕ → sProp 𝕄) (a a1 a2 a3 a4 : ℕ) (h1 : a1 = a + 1) (h2 : a2 = a + 2) (h3 : a3 = a + 3) (h4 : a4 = a + 4) (h : a + 3 < 48) :
    bigSep (Finset.Ico a 48) Φ = iprop(Φ a ∗ Φ a1 ∗ Φ a2 ∗ Φ a3 ∗ bigSep (Finset.Ico a4 48) Φ) := by
  subst h1 h2 h3 h4
  rw [bigSep_Ico_pop Φ (by omega : a < 48), bigSep_Ico_pop Φ (by omega : a + 1 < 48), bigSep_Ico_pop Φ (by omega : a + 1 + 1 < 48),
    bigSep_Ico_pop Φ (by omega : a + 1 + 1 + 1 < 48)]
/-- Blocks onto the end of a run. -/
theorem bigSep_range_push4 (Φ : ℕ → sProp 𝕄) (a a1 a2 a3 a4 : ℕ) (h1 : a1 = a + 1) (h2 : a2 = a + 2) (h3 : a3 = a + 3) (h4 : a4 = a + 4) :
    bigSep (Finset.range a4) Φ = iprop(Φ a3 ∗ Φ a2 ∗ Φ a1 ∗ Φ a ∗ bigSep (Finset.range a) Φ) := by
  subst h1 h2 h3 h4
  rw [bigSep_range_push Φ (a + 3), bigSep_range_push Φ (a + 2), bigSep_range_push Φ (a + 1), bigSep_range_push Φ a]
theorem bigSep_range_push3 (Φ : ℕ → sProp 𝕄) (a a1 a2 a3 : ℕ) (h1 : a1 = a + 1) (h2 : a2 = a + 2) (h3 : a3 = a + 3) :
    bigSep (Finset.range a3) Φ = iprop(Φ a2 ∗ Φ a1 ∗ Φ a ∗ bigSep (Finset.range a) Φ) := by
  subst h1 h2 h3
  rw [bigSep_range_push Φ (a + 2), bigSep_range_push Φ (a + 1), bigSep_range_push Φ a]

theorem bigSep_Ico_pop3 (Φ : ℕ → sProp 𝕄) (a a1 a2 a3 : ℕ) (h1 : a1 = a + 1) (h2 : a2 = a + 2) (h3 : a3 = a + 3) (h : a + 2 < 48) :
    bigSep (Finset.Ico a 48) Φ = iprop(Φ a ∗ Φ a1 ∗ Φ a2 ∗ bigSep (Finset.Ico a3 48) Φ) := by
  subst h1 h2 h3
  rw [bigSep_Ico_pop Φ (by omega : a < 48), bigSep_Ico_pop Φ (by omega : a + 1 < 48), bigSep_Ico_pop Φ (by omega : a + 1 + 1 < 48)]

/-- A scratch buffer as the subcore's memref addresses it is the subcore's buffer. -/
theorem pts_b (r : Ref sig .scVector) (f : Buf (Elt F) ((thrV d L).loc r)) :
    ((Memref.whole r : Memref sig .scVector _ _ _).view.loc (thrV d L) ↦{fullShare} f : sProp 𝕄) = ((thrV d L).loc r ↦{fullShare} f) := rfl

/-- The copy's blocks at one valuation are its blocks each at some contents. -/
theorem o_blocks_ex (fo : Buf (Elt F) (oLoc d)) :
    (bigSep (Finset.range 48) (fun n => oLoc d ↦[blkSet (tIx L).val n]{fullShare} fo) : sProp 𝕄)
      ⊢ bigSep (Finset.Ico 0 48) fun n => iprop(∃ f, oLoc d ↦[blkSet (tIx L).val n]{fullShare} f) := by
  rw [bigSep_Ico_zero]
  refine bigSep_mono fun n _ => ?_
  show (oLoc d ↦[blkSet (tIx L).val n]{fullShare} fo : sProp 𝕄) ⊢ iprop(∃ f, oLoc d ↦[blkSet (tIx L).val n]{fullShare} f)
  iintro H; iexists fo; iexact H

end Tile

end Cert.Kernel.Hand

end
-- ==== Proof.Bits.ScTileB.lean ====
/-
  The loop of one vector subcore's task in the SparseCore copy kernel, trip by trip. The task moves the 48 blocks of its
  strip through a ring of four scratch buffers, each with one semaphore for its copy in and one for its copy out, so
  that at most one copy is outstanding per semaphore and no buffer is touched between a copy's start and its wait.
  Between trips `k` and `k + 1` of the loop the ring holds the copies in of blocks `4k + 4, 4k + 5, 4k + 6` (buffers
  0, 1, 2) and the copy out of block `4k + 3` (buffer 3); before the first trip only the copies in of blocks 0, 1, 2;
  after the last only the copies out of blocks 44 … 47. This module states that invariant — the outstanding copies, the
  semaphores at rest, and the blocks of the queue and of its copy the subcore holds meanwhile, as runs of consecutive
  block numbers — and proves that each trip of the loop carries it to the next: the first trip, a trip in the middle,
  and the last trip, which differ in which guards of the program hold.
-/
import proofs.«211565_g20684562498226_cont_8to1_684_24_alg».proof.Proof.Bits.Setup
import proofs.«211565_g20684562498226_cont_8to1_684_24_alg».proof.Proof.Bits.ScTileA

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The loop's invariant

Between trips the ring holds: the copies IN of the next three blocks into buffers 0, 1, 2 and (after the first trip) the
copy OUT of the previous block from buffer 3; at the loop's exit, the copies OUT of the last four blocks and no copy in.
The blocks of the queue whose copy in has been waited for (or not yet started), and the blocks of the copy whose copy out
has been waited for (or not yet started), are held by the subcore, as runs of consecutive block numbers. -/

section Body

variable (d : Dev nD) (L : grid1.Coords) (O : CellTallies nD τ sig (HIx 1)) (W : Waits sig (HIx 1))

/-- Block `n` of the subcore's strip of the queue, at the launch contents; of the copy, at some contents. -/
abbrev qB (n : ℕ) : sProp 𝕄 := qLoc d ↦[blkSet (tIx L).val n]{fullShare} m (qLoc d)
abbrev oB (n : ℕ) : sProp 𝕄 := iprop(∃ f, oLoc d ↦[blkSet (tIx L).val n]{fullShare} f)
abbrev sem0 (sm : DmaSems sig S_) : sProp 𝕄 := semVal (thrV d L, SemLoc.dma sm.sem) 0

/-- The copy IN of the queue's block `n` into the scratch buffer `r`, outstanding on semaphore `sm`: its wait hands back
    the buffer and the block. -/
abbrev FlIn (sm : DmaSems sig S_) (r : Ref sig .scVector) (n : ℕ) : sProp 𝕄 :=
  iprop(∃ g, Transfers.Flight countersEmb (thrV d L) (SemLoc.dma sm.sem) default 983040
    iprop(((Memref.whole r : Memref sig .scVector _ _ _).view.loc (thrV d L) ↦{fullShare} g) ∗ qB m d L n))
/-- The copy OUT of the scratch buffer `r` onto the copy's block `n`, outstanding on semaphore `sm`. -/
abbrev FlOut (sm : DmaSems sig S_) (r : Ref sig .scVector) (n : ℕ) : sProp 𝕄 :=
  iprop(∃ g fo, Transfers.Flight countersEmb (thrV d L) (SemLoc.dma sm.sem) default 983040
    iprop((oLoc d ↦[blkSet (tIx L).val n]{fullShare} fo) ∗ ((Memref.whole r : Memref sig .scVector _ _ _).view.loc (thrV d L) ↦{fullShare} g)))

theorem FlIn_intro (sm : DmaSems sig S_) (r : Ref sig .scVector) {off : Fin 2 → ℕ} (h : ∀ a, off a + S1x30720.size a ≤ S768x65536.size a) {n : ℕ}
    (e : off = blkOff (tIx L).val n) (g : Buf (Elt F) ((Memref.whole r : Memref sig .scVector _ _ _).view.loc (thrV d L))) :
    (Transfers.Flight countersEmb (thrV d L) (SemLoc.dma sm.sem) default 983040
      iprop(((Memref.whole r : Memref sig .scVector _ _ _).view.loc (thrV d L) ↦{fullShare} g)
        ∗ ((blkOf qV off h).view.loc (thrV d L) ↦[(blkOf qV off h).view.set]{fullShare} m (qLoc d))) : sProp 𝕄) ⊢ FlIn m d L sm r n := by
  rw [pts_q d L h e]
  iintro H; iexists g; iexact H

theorem FlOut_intro (sm : DmaSems sig S_) (r : Ref sig .scVector) {off : Fin 2 → ℕ} (h : ∀ a, off a + S1x30720.size a ≤ S768x65536.size a) {n : ℕ}
    (e : off = blkOff (tIx L).val n) (g : Buf (Elt F) ((Memref.whole r : Memref sig .scVector _ _ _).view.loc (thrV d L))) (fo : Buf (Elt F) (oLoc d)) :
    (Transfers.Flight countersEmb (thrV d L) (SemLoc.dma sm.sem) default 983040
      iprop(((blkOf oV off h).view.loc (thrV d L) ↦[(blkOf oV off h).view.set]{fullShare} fo)
        ∗ ((Memref.whole r : Memref sig .scVector _ _ _).view.loc (thrV d L) ↦[(Memref.whole r : Memref sig .scVector _ _ _).view.set]{fullShare} g)) : sProp 𝕄)
      ⊢ FlOut d L sm r n := by
  rw [pts_o d L h e, pts_buf_set d L r g]
  iintro H; iexists g, fo; iexact H

abbrev Inv0 : sProp 𝕄 :=
  iprop(FlIn m d L cc1_scratch4 cc1_scratch0 0 ∗ FlIn m d L cc1_scratch5 cc1_scratch1 1 ∗ FlIn m d L cc1_scratch6 cc1_scratch2 2
    ∗ (∃ g, (b3).view.loc (thrV d L) ↦{fullShare} g) ∗ sem0 d L cc1_scratch11
    ∗ sem0 d L cc1_scratch7 ∗ sem0 d L cc1_scratch8 ∗ sem0 d L cc1_scratch9 ∗ sem0 d L cc1_scratch10
    ∗ bigSep (Finset.range 0) (qB m d L) ∗ bigSep (Finset.Ico 3 48) (qB m d L) ∗ bigSep (Finset.range 0) (oB d L) ∗ bigSep (Finset.Ico 0 48) (oB d L))

abbrev InvMid (j : ℕ) : sProp 𝕄 :=
  iprop(FlIn m d L cc1_scratch4 cc1_scratch0 (4 * j + 4) ∗ FlIn m d L cc1_scratch5 cc1_scratch1 (4 * j + 5) ∗ FlIn m d L cc1_scratch6 cc1_scratch2 (4 * j + 6)
    ∗ FlOut d L cc1_scratch11 cc1_scratch3 (4 * j + 3)
    ∗ sem0 d L cc1_scratch7 ∗ sem0 d L cc1_scratch8 ∗ sem0 d L cc1_scratch9 ∗ sem0 d L cc1_scratch10
    ∗ bigSep (Finset.range (4 * j + 4)) (qB m d L) ∗ bigSep (Finset.Ico (4 * j + 7) 48) (qB m d L)
    ∗ bigSep (Finset.range (4 * j + 3)) (oB d L) ∗ bigSep (Finset.Ico (4 * j + 4) 48) (oB d L))

abbrev InvEnd : sProp 𝕄 :=
  iprop(FlOut d L cc1_scratch8 cc1_scratch0 44 ∗ FlOut d L cc1_scratch9 cc1_scratch1 45 ∗ FlOut d L cc1_scratch10 cc1_scratch2 46 ∗ FlOut d L cc1_scratch11 cc1_scratch3 47
    ∗ sem0 d L cc1_scratch4 ∗ sem0 d L cc1_scratch5 ∗ sem0 d L cc1_scratch6 ∗ sem0 d L cc1_scratch7
    ∗ bigSep (Finset.range 48) (qB m d L) ∗ bigSep (Finset.range 44) (oB d L))

/-- What the subcore may wait for, and what it owes: unchanged but for the waits recorded. -/
abbrev Owing : sProp 𝕄 :=
  iprop(Transfers.MayWaits (thrV d L) (none : HIx 1) O ∗ ∃ W', ⌜∀ p ∈ W', p ∈ W ∨ p.2 = none⌝ ∗ owes (thrV d L) O W')

def Inv (n : ℕ) (_ : Unit) : sProp 𝕄 :=
  iprop(Owing d L O W ∗ (match n with | 0 => Inv0 m d L | j + 1 => if j < 11 then InvMid m d L j else InvEnd m d L))

theorem Inv_zero (u : Unit) : Inv m d L O W 0 u = iprop(Owing d L O W ∗ Inv0 m d L) := rfl
theorem Inv_mid (j : ℕ) (h : j < 11) (u : Unit) : Inv m d L O W (j + 1) u = iprop(Owing d L O W ∗ InvMid m d L j) := by
  show iprop(_ ∗ (if j < 11 then _ else _)) = _
  rw [if_pos h]
theorem Inv_end (u : Unit) : Inv m d L O W 12 u = iprop(Owing d L O W ∗ InvEnd m d L) := by
  show iprop(_ ∗ (if 11 < 11 then _ else _)) = _
  rw [if_neg (by omega)]

theorem Inv_mid_fun (j : ℕ) (h : j < 11) : Inv m d L O W (j + 1) = fun _ => iprop(Owing d L O W ∗ InvMid m d L j) :=
  funext fun u => Inv_mid m d L O W j h u
theorem Inv_end_fun : Inv m d L O W 12 = fun _ => iprop(Owing d L O W ∗ InvEnd m d L) :=
  funext fun u => Inv_end m d L O W u

omit m in
theorem bigSep_range_push1 (Φ : ℕ → sProp 𝕄) (a a1 : ℕ) (h : a1 = a + 1) : bigSep (Finset.range a1) Φ = iprop(Φ a ∗ bigSep (Finset.range a) Φ) := by
  subst h; exact bigSep_range_push Φ a

omit m in
theorem mem_ins {W' : Waits sig (HIx 1)} (hW' : ∀ p ∈ W', p ∈ W ∨ p.2 = none) (a : SemLoc sig) :
    ∀ p ∈ insert (a, (default : HIx 1)) W', p ∈ W ∨ p.2 = none := by
  intro p hp
  rcases Finset.mem_insert.mp hp with rfl | hp
  · exact .inr rfl
  · exact hW' p hp

omit m in
theorem owes_wrap {W1 : Waits sig (HIx 1)} (h : ∀ p ∈ W1, p ∈ W ∨ p.2 = none) :
    (owes (thrV d L) O W1 : sProp 𝕄) ⊢ iprop(∃ W', ⌜∀ p ∈ W', p ∈ W ∨ p.2 = none⌝ ∗ owes (thrV d L) O W') := by
  iintro H; iexists W1; isplitr
  · ipureintro; exact h
  · iexact H

variable [FloatOps F]

/-- A trip in the middle of the loop (`1 ≤ k ≤ 10`): every guard holds. -/
theorem trip_mid (v2 : BitVec 32) (k : Fin k1_t1_loop.trips) (j : ℕ) (hj : k.val = j + 1) (hk : j < 10) :
    Inv m d L O W (j + 1) () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (Inv m d L O W (j + 1 + 1)) := by
  have h1 : k1_cond1 k = 1#1 := cond1_true k
  have h2 : k1_cond2 k = 1#1 := (cond2_iff k).mpr (by omega)
  have h3 : k1_cond3 k = 1#1 := (cond3_iff k).mpr (by omega)
  have h4 : k1_cond4 k = 1#1 := (cond4_iff k).mpr (by omega)
  have h5 : k1_cond5 k = 1#1 := (cond5_iff k).mpr (by omega)
  have e30 : k1_off3 L k 0#32 = blkOff (tIx L).val (4 * j + 4) := (off3_0 L k).trans (congrArg _ (by omega))
  have e31 : k1_off3 L k 1#32 = blkOff (tIx L).val (4 * j + 5) := (off3_1 L k).trans (congrArg _ (by omega))
  have e32 : k1_off3 L k 2#32 = blkOff (tIx L).val (4 * j + 6) := (off3_2 L k).trans (congrArg _ (by omega))
  have e33 : k1_off3 L k 3#32 = blkOff (tIx L).val (4 * (j + 1) + 3) := (off3_3 L k).trans (congrArg _ (by omega))
  have e33' : k1_off3 L k 3#32 = blkOff (tIx L).val (4 * j + 7) := (off3_3 L k).trans (congrArg _ (by omega))
  have e5 : k1_off5 L k = blkOff (tIx L).val (4 * j + 7) := (off5_eq L k).trans (congrArg _ (by omega))
  have e7 : k1_off7 L k = blkOff (tIx L).val (4 * (j + 1) + 4) := (off7_eq L k).trans (congrArg _ (by omega))
  have e7' : k1_off7 L k = blkOff (tIx L).val (4 * j + 8) := (off7_eq L k).trans (congrArg _ (by omega))
  have e9 : k1_off9 L k = blkOff (tIx L).val (4 * (j + 1) + 5) := (off9_eq L k).trans (congrArg _ (by omega))
  have e9' : k1_off9 L k = blkOff (tIx L).val (4 * j + 9) := (off9_eq L k).trans (congrArg _ (by omega))
  have e11 : k1_off11 L k = blkOff (tIx L).val (4 * (j + 1) + 6) := (off11_eq L k).trans (congrArg _ (by omega))
  have e11' : k1_off11 L k = blkOff (tIx L).val (4 * j + 10) := (off11_eq L k).trans (congrArg _ (by omega))
  rw [Inv_mid m d L O W j (by omega), Inv_mid_fun m d L O W (j + 1) (by omega)]
  iintro ⟨⟨#Hmw, %W', %hW', HO⟩, ⟨%g0, Hs0⟩, ⟨%g1, Hs1⟩, ⟨%g2, Hs2⟩, ⟨%g3, %fo, Ht3⟩, Hs3, Ht0, Ht1, Ht2, HQd, HQt, HOd, HOt⟩
  ihave HQt' := (Entails.of_eq (bigSep_Ico_pop4 (qB m d L) (4 * j + 7) (4 * j + 8) (4 * j + 9) (4 * j + 10) (4 * (j + 1) + 7)
    (by omega) (by omega) (by omega) (by omega) (by omega))) $$ HQt
  icases HQt' with ⟨Hq5, Hq7, Hq9, Hq11, HQt⟩
  ihave HOt' := (Entails.of_eq (bigSep_Ico_pop4 (oB d L) (4 * j + 4) (4 * j + 5) (4 * j + 6) (4 * j + 7) (4 * (j + 1) + 4)
    (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hq7 := (Entails.of_eq (pts_q d L (k1_off7_inb L k h3) e7' (m (qLoc d))).symm) $$ Hq7
  ihave Hq9 := (Entails.of_eq (pts_q d L (k1_off9_inb L k h4) e9' (m (qLoc d))).symm) $$ Hq9
  ihave Hq11 := (Entails.of_eq (pts_q d L (k1_off11_inb L k h5) e11' (m (qLoc d))).symm) $$ Hq11
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33' fd).symm) $$ Hod
  sl_unfold [k1_t1_body]
  sl_exec
  sl_step
  ihave He := (Entails.of_eq (pts_buf_rest d L cc1_scratch3 _)) $$ Ht3_src
  iclear He
  isplitl [HO]
  · isplitr; · iexact Hmw
    iapply (owes_wrap d L O W ?hW) $$ HO
    case hW => repeat (first | exact hW' | refine mem_ins W ?_ _)
  isplitl [Hs0]; · iapply (FlIn_intro m d L cc1_scratch4 cc1_scratch0 (k1_off7_inb L k h3) e7 _); iexact Hs0
  isplitl [Hs1]; · iapply (FlIn_intro m d L cc1_scratch5 cc1_scratch1 (k1_off9_inb L k h4) e9 _); iexact Hs1
  isplitl [Hs2]; · iapply (FlIn_intro m d L cc1_scratch6 cc1_scratch2 (k1_off11_inb L k h5) e11 _); iexact Hs2
  isplitl [Ht3]; · iapply (FlOut_intro d L cc1_scratch11 cc1_scratch3 (k1_off3_inb L k 3) e33 _ _); iexact Ht3
  isplitl [Hs3]; · iexact Hs3
  isplitl [Ht0]; · iexact Ht0
  isplitl [Ht1]; · iexact Ht1
  isplitl [Ht2]; · iexact Ht2
  isplitl [HQd Hs0_src Hs1_src Hs2_src Hq5]
  · iapply (Entails.of_eq (bigSep_range_push4 (qB m d L) (4 * j + 4) (4 * j + 5) (4 * j + 6) (4 * j + 7) (4 * (j + 1) + 4)
      (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  isplitl [HQt]; · iexact HQt
  isplitl [HOd Ht3_dst Hoa Hob Hoc]
  · iapply (Entails.of_eq (bigSep_range_push4 (oB d L) (4 * j + 3) (4 * j + 4) (4 * j + 5) (4 * j + 6) (4 * (j + 1) + 3)
      (by omega) (by omega) (by omega) (by omega)).symm)
    isplitl [Hoc]; · iexists _; iapply (Entails.of_eq (pts_o d L (k1_off3_inb L k 2) e32 _)); iexact Hoc
    isplitl [Hob]; · iexists _; iapply (Entails.of_eq (pts_o d L (k1_off3_inb L k 1) e31 _)); iexact Hob
    isplitl [Hoa]; · iexists _; iapply (Entails.of_eq (pts_o d L (k1_off3_inb L k 0) e30 _)); iexact Hoa
    isplitl [Ht3_dst]; · iexists _; iexact Ht3_dst
    iexact HOd
  iexact HOt

/-- The first trip: nothing to wait for on buffer 3 yet. -/
theorem trip_zero (v2 : BitVec 32) (k : Fin k1_t1_loop.trips) (hk : k.val = 0) :
    Inv m d L O W 0 () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (Inv m d L O W (0 + 1)) := by
  have h1 : k1_cond1 k = 1#1 := cond1_true k
  have h2 : ¬ k1_cond2 k = 1#1 := fun h => by have := (cond2_iff k).mp h; omega
  have h3 : k1_cond3 k = 1#1 := (cond3_iff k).mpr (by omega)
  have h4 : k1_cond4 k = 1#1 := (cond4_iff k).mpr (by omega)
  have h5 : k1_cond5 k = 1#1 := (cond5_iff k).mpr (by omega)
  have e30 : k1_off3 L k 0#32 = blkOff (tIx L).val 0 := (off3_0 L k).trans (congrArg _ (by omega))
  have e31 : k1_off3 L k 1#32 = blkOff (tIx L).val 1 := (off3_1 L k).trans (congrArg _ (by omega))
  have e32 : k1_off3 L k 2#32 = blkOff (tIx L).val 2 := (off3_2 L k).trans (congrArg _ (by omega))
  have e33 : k1_off3 L k 3#32 = blkOff (tIx L).val (4 * 0 + 3) := (off3_3 L k).trans (congrArg _ (by omega))
  have e33' : k1_off3 L k 3#32 = blkOff (tIx L).val 3 := (off3_3 L k).trans (congrArg _ (by omega))
  have e5 : k1_off5 L k = blkOff (tIx L).val 3 := (off5_eq L k).trans (congrArg _ (by omega))
  have e7 : k1_off7 L k = blkOff (tIx L).val (4 * 0 + 4) := (off7_eq L k).trans (congrArg _ (by omega))
  have e7' : k1_off7 L k = blkOff (tIx L).val 4 := (off7_eq L k).trans (congrArg _ (by omega))
  have e9 : k1_off9 L k = blkOff (tIx L).val (4 * 0 + 5) := (off9_eq L k).trans (congrArg _ (by omega))
  have e9' : k1_off9 L k = blkOff (tIx L).val 5 := (off9_eq L k).trans (congrArg _ (by omega))
  have e11 : k1_off11 L k = blkOff (tIx L).val (4 * 0 + 6) := (off11_eq L k).trans (congrArg _ (by omega))
  have e11' : k1_off11 L k = blkOff (tIx L).val 6 := (off11_eq L k).trans (congrArg _ (by omega))
  rw [Inv_zero m d L O W, Inv_mid_fun m d L O W 0 (by omega)]
  iintro ⟨⟨#Hmw, %W', %hW', HO⟩, ⟨%g0, Hs0⟩, ⟨%g1, Hs1⟩, ⟨%g2, Hs2⟩, ⟨%g3, Hb3⟩, Ht3, Hs3, Ht0, Ht1, Ht2, HQd, HQt, HOd, HOt⟩
  ihave HQt' := (Entails.of_eq (bigSep_Ico_pop4 (qB m d L) 3 4 5 6 (4 * 0 + 7) (by omega) (by omega) (by omega) (by omega) (by omega))) $$ HQt
  icases HQt' with ⟨Hq5, Hq7, Hq9, Hq11, HQt⟩
  ihave HOt' := (Entails.of_eq (bigSep_Ico_pop4 (oB d L) 0 1 2 3 (4 * 0 + 4) (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hq7 := (Entails.of_eq (pts_q d L (k1_off7_inb L k h3) e7' (m (qLoc d))).symm) $$ Hq7
  ihave Hq9 := (Entails.of_eq (pts_q d L (k1_off9_inb L k h4) e9' (m (qLoc d))).symm) $$ Hq9
  ihave Hq11 := (Entails.of_eq (pts_q d L (k1_off11_inb L k h5) e11' (m (qLoc d))).symm) $$ Hq11
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33' fd).symm) $$ Hod
  sl_unfold [k1_t1_body]
  sl_exec
  sl_step
  ihave He := (Entails.of_eq (pts_buf_rest d L cc1_scratch3 _)) $$ Hb3
  iclear He
  isplitl [HO]
  · isplitr; · iexact Hmw
    iapply (owes_wrap d L O W ?hW) $$ HO
    case hW => repeat (first | exact hW' | refine mem_ins W ?_ _)
  isplitl [Hs0]; · iapply (FlIn_intro m d L cc1_scratch4 cc1_scratch0 (k1_off7_inb L k h3) e7 _); iexact Hs0
  isplitl [Hs1]; · iapply (FlIn_intro m d L cc1_scratch5 cc1_scratch1 (k1_off9_inb L k h4) e9 _); iexact Hs1
  isplitl [Hs2]; · iapply (FlIn_intro m d L cc1_scratch6 cc1_scratch2 (k1_off11_inb L k h5) e11 _); iexact Hs2
  isplitl [Ht3]; · iapply (FlOut_intro d L cc1_scratch11 cc1_scratch3 (k1_off3_inb L k 3) e33 _ _); iexact Ht3
  isplitl [Hs3]; · iexact Hs3
  isplitl [Ht0]; · iexact Ht0
  isplitl [Ht1]; · iexact Ht1
  isplitl [Ht2]; · iexact Ht2
  isplitl [HQd Hs0_src Hs1_src Hs2_src Hq5]
  · iapply (Entails.of_eq (bigSep_range_push4 (qB m d L) 0 1 2 3 (4 * 0 + 4) (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  isplitl [HQt]; · iexact HQt
  isplitl [HOd Hoa Hob Hoc]
  · iapply (Entails.of_eq (bigSep_range_push3 (oB d L) 0 1 2 (4 * 0 + 3) (by omega) (by omega) (by omega)).symm)
    isplitl [Hoc]; · iexists _; iapply (Entails.of_eq (pts_o d L (k1_off3_inb L k 2) e32 _)); iexact Hoc
    isplitl [Hob]; · iexists _; iapply (Entails.of_eq (pts_o d L (k1_off3_inb L k 1) e31 _)); iexact Hob
    isplitl [Hoa]; · iexists _; iapply (Entails.of_eq (pts_o d L (k1_off3_inb L k 0) e30 _)); iexact Hoa
    iexact HOd
  iexact HOt

/-- The last trip: no block is left to copy in, and the last three copies out are left outstanding. -/
theorem trip_last (v2 : BitVec 32) (k : Fin k1_t1_loop.trips) (hk : k.val = 11) :
    Inv m d L O W (10 + 1) () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (Inv m d L O W 12) := by
  have h1 : k1_cond1 k = 1#1 := cond1_true k
  have h2 : k1_cond2 k = 1#1 := (cond2_iff k).mpr (by omega)
  have h3 : ¬ k1_cond3 k = 1#1 := fun h => by have := (cond3_iff k).mp h; omega
  have h4 : ¬ k1_cond4 k = 1#1 := fun h => by have := (cond4_iff k).mp h; omega
  have h5 : ¬ k1_cond5 k = 1#1 := fun h => by have := (cond5_iff k).mp h; omega
  have e30 : k1_off3 L k 0#32 = blkOff (tIx L).val 44 := (off3_0 L k).trans (congrArg _ (by omega))
  have e31 : k1_off3 L k 1#32 = blkOff (tIx L).val 45 := (off3_1 L k).trans (congrArg _ (by omega))
  have e32 : k1_off3 L k 2#32 = blkOff (tIx L).val 46 := (off3_2 L k).trans (congrArg _ (by omega))
  have e33 : k1_off3 L k 3#32 = blkOff (tIx L).val 47 := (off3_3 L k).trans (congrArg _ (by omega))
  have e5 : k1_off5 L k = blkOff (tIx L).val 47 := (off5_eq L k).trans (congrArg _ (by omega))
  rw [Inv_mid m d L O W 10 (by omega), Inv_end_fun m d L O W]
  iintro ⟨⟨#Hmw, %W', %hW', HO⟩, ⟨%g0, Hs0⟩, ⟨%g1, Hs1⟩, ⟨%g2, Hs2⟩, ⟨%g3, %fo, Ht3⟩, Hs3, Ht0, Ht1, Ht2, HQd, HQt, HOd, HOt⟩
  ihave HQt' := (Entails.of_eq (bigSep_Ico_pop (qB m d L) (by omega : 4 * 10 + 7 < 48))) $$ HQt
  icases HQt' with ⟨Hq5, HQt⟩
  ihave HOt' := (Entails.of_eq (bigSep_Ico_pop4 (oB d L) 44 45 46 47 48 (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33 fd).symm) $$ Hod
  sl_unfold [k1_t1_body]
  sl_exec
  sl_step
  ihave He := (Entails.of_eq (pts_buf_rest d L cc1_scratch3 _)) $$ Ht3_src
  iclear He
  ihave He := (Entails.of_eq (pts_buf_rest d L cc1_scratch0 _)) $$ Hs0_dst
  iclear He
  ihave He := (Entails.of_eq (pts_buf_rest d L cc1_scratch1 _)) $$ Hs1_dst
  iclear He
  ihave He := (Entails.of_eq (pts_buf_rest d L cc1_scratch2 _)) $$ Hs2_dst
  iclear He
  ihave He := (Entails.of_eq (bigSep_Ico_self (qB m d L) (by omega : 48 ≤ 4 * 10 + 7 + 1))) $$ HQt
  iclear He
  ihave He := (Entails.of_eq (bigSep_Ico_self (oB d L) (by omega : 48 ≤ 48))) $$ HOt
  iclear He
  isplitl [HO]
  · isplitr; · iexact Hmw
    iapply (owes_wrap d L O W ?hW) $$ HO
    case hW => repeat (first | exact hW' | refine mem_ins W ?_ _)
  isplitl [Ht0]; · iapply (FlOut_intro d L cc1_scratch8 cc1_scratch0 (k1_off3_inb L k 0) e30 _ _); iexact Ht0
  isplitl [Ht1]; · iapply (FlOut_intro d L cc1_scratch9 cc1_scratch1 (k1_off3_inb L k 1) e31 _ _); iexact Ht1
  isplitl [Ht2]; · iapply (FlOut_intro d L cc1_scratch10 cc1_scratch2 (k1_off3_inb L k 2) e32 _ _); iexact Ht2
  isplitl [Ht3]; · iapply (FlOut_intro d L cc1_scratch11 cc1_scratch3 (k1_off3_inb L k 3) e33 _ _); iexact Ht3
  isplitl [Hs0]; · iexact Hs0
  isplitl [Hs1]; · iexact Hs1
  isplitl [Hs2]; · iexact Hs2
  isplitl [Hs3]; · iexact Hs3
  isplitl [HQd Hs0_src Hs1_src Hs2_src Hq5]
  · iapply (Entails.of_eq (bigSep_range_push4 (qB m d L) (4 * 10 + 4) (4 * 10 + 5) (4 * 10 + 6) 47 48 (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  iapply (Entails.of_eq (bigSep_range_push1 (oB d L) (4 * 10 + 3) 44 (by omega)).symm)
  isplitl [Ht3_dst]; · iexists _; iexact Ht3_dst
  iexact HOd

end Body

end Cert.Kernel.Hand

end
-- ==== Proof.Bits.ScTileVA.lean ====
/-
  What the copies of one vector subcore's task carry. A copy in lands the queue's block in a scratch buffer whatever
  the buffer held; a copy out of a buffer that holds the queue's block `n` leaves the copy's block `n` — the same row,
  the same columns — holding the queue's words. This module states those two facts about contents read and written
  through the program's views, restates the loop's invariant with them — an outstanding copy in lands the block it
  names, an outstanding copy out lands the queue's words, every finished block of the copy holds the queue's words —
  and proves again that the first trip, a trip in the middle and the last trip of the loop each carry the invariant to
  the next.
-/
import proofs.«211565_g20684562498226_cont_8to1_684_24_alg».proof.Proof.Bits.Setup
import proofs.«211565_g20684562498226_cont_8to1_684_24_alg».proof.Proof.Bits.ScTileB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## What the copies carry -/

section Val

variable (d : Dev nD) (L : grid1.Coords)

set_option maxRecDepth 65536 in
/-- The scratch buffer `B`, at contents `g`, holds the queue's block `n`: read through `B`, the contents are the
    launch contents of the queue read through the block. -/
def HoldsQ (B : Memref sig .scVector .vmem S30720 .f32) (g : Buf (Elt F) (B.view.loc (thrV d L))) (n : ℕ) : Prop :=
  ∃ (off : Fin 2 → ℕ) (h : ∀ a, off a + S1x30720.size a ≤ S768x65536.size a), off = blkOff (tIx L).val n
    ∧ B.view.read (Elt F) g = (blkOf qV off h).view.read (Elt F) (m (qLoc d))

set_option maxRecDepth 65536 in
/-- A copy in lands the block: whatever the buffer held, it now holds the block. -/
theorem holdsQ_of_write (B : Memref sig .scVector .vmem S30720 .f32) (g₀ : Buf (Elt F) (B.view.loc (thrV d L)))
    {off : Fin 2 → ℕ} (h : ∀ a, off a + S1x30720.size a ≤ S768x65536.size a) {n : ℕ} (e : off = blkOff (tIx L).val n)
    (P : S30720.Idx → Elt F .f32) (hP : P = (blkOf qV off h).view.read (Elt F) (m (qLoc d))) :
    HoldsQ m d L B (View.write (Elt F) B.view g₀ P Finset.univ) n :=
  ⟨off, h, e, (View.read_write_univ (v := B.view) g₀ P).trans hP⟩

set_option maxRecDepth 65536 in
/-- A block of the copy, after a buffer holding the queue's block of the same place has been copied onto it, holds the
    queue's words there. -/
theorem out_lands {off off' : Fin 2 → ℕ} (h : ∀ a, off a + S1x30720.size a ≤ S768x65536.size a)
    (h' : ∀ a, off' a + S1x30720.size a ≤ S768x65536.size a) (e : off' = off) (fa : Buf (Elt F) (oLoc d))
    (P : S30720.Idx → Elt F .f32) (hP : P = (blkOf qV off' h').view.read (Elt F) (m (qLoc d))) :
    ∀ idx ∈ (blkOf oV off h).view.set,
      ((blkOf oV off h).view.writes (Elt F) fa [⟨Rect.whole S30720, P⟩]) idx = m (qLoc d) idx := by
  subst e hP
  intro idx hidx
  obtain ⟨y, -, rfl⟩ := Finset.mem_map.mp hidx
  have hw := View.read_writes_cons_emb (v := (blkOf oV off' h).view) (f := fa) (Rect.whole S30720)
    ((blkOf qV off' h').view.read (Elt F) (m (qLoc d))) [] y
  rw [Rect.emb_whole_apply] at hw
  calc ((blkOf oV off' h).view.writes (Elt F) fa [⟨Rect.whole S30720, (blkOf qV off' h').view.read (Elt F) (m (qLoc d))⟩]) ((blkOf oV off' h).view.emb y)
      = (blkOf oV off' h).view.read (Elt F) ((blkOf oV off' h).view.writes (Elt F) fa [⟨Rect.whole S30720, (blkOf qV off' h').view.read (Elt F) (m (qLoc d))⟩]) y :=
        ((View.read_apply _ _).trans (cast_eq _ _)).symm
    _ = (blkOf qV off' h').view.read (Elt F) (m (qLoc d)) y := hw
    _ = m (qLoc d) ((blkOf qV off' h').view.emb y) := (View.read_apply _ _).trans (cast_eq _ _)
    _ = m (qLoc d) ((blkOf oV off' h).view.emb y) := rfl

end Val

section BodyV

variable (d : Dev nD) (L : grid1.Coords) (O : CellTallies nD τ sig (HIx 1)) (W : Waits sig (HIx 1))

/-- Block `n` of the copy, finished: it holds the queue's words. -/
abbrev oBV (n : ℕ) : sProp 𝕄 :=
  iprop(∃ f, ⌜∀ idx ∈ blkSet (tIx L).val n, f idx = m (qLoc d) idx⌝ ∗ oLoc d ↦[blkSet (tIx L).val n]{fullShare} f)

/-- The copy IN of the queue's block `n` into the scratch buffer `B`, outstanding on `sm`: what lands is the block. -/
abbrev FlInV (sm : DmaSems sig S_) (B : Memref sig .scVector .vmem S30720 .f32) (n : ℕ) : sProp 𝕄 :=
  iprop(∃ g, ⌜HoldsQ m d L B g n⌝ ∗ Transfers.Flight countersEmb (thrV d L) (SemLoc.dma sm.sem) default 983040
    iprop((B.view.loc (thrV d L) ↦{fullShare} g) ∗ qB m d L n))
/-- The copy OUT of the scratch buffer `B`, which holds the queue's block `n`, onto the copy's block `n`. -/
abbrev FlOutV (sm : DmaSems sig S_) (B : Memref sig .scVector .vmem S30720 .f32) (n : ℕ) : sProp 𝕄 :=
  iprop(∃ g fo, ⌜∀ idx ∈ blkSet (tIx L).val n, fo idx = m (qLoc d) idx⌝ ∗ Transfers.Flight countersEmb (thrV d L) (SemLoc.dma sm.sem) default 983040
    iprop((oLoc d ↦[blkSet (tIx L).val n]{fullShare} fo) ∗ (B.view.loc (thrV d L) ↦{fullShare} g)))

set_option maxRecDepth 65536 in
theorem FlInV_intro (sm : DmaSems sig S_) (B : Memref sig .scVector .vmem S30720 .f32) {off : Fin 2 → ℕ} (h : ∀ a, off a + S1x30720.size a ≤ S768x65536.size a) {n : ℕ}
    (e : off = blkOff (tIx L).val n) (g₀ : Buf (Elt F) (B.view.loc (thrV d L))) (P : S30720.Idx → Elt F .f32)
    (hP : P = (blkOf qV off h).view.read (Elt F) (m (qLoc d))) :
    (Transfers.Flight countersEmb (thrV d L) (SemLoc.dma sm.sem) default 983040
      iprop((B.view.loc (thrV d L) ↦{fullShare} View.write (Elt F) B.view g₀ P Finset.univ)
        ∗ ((blkOf qV off h).view.loc (thrV d L) ↦[(blkOf qV off h).view.set]{fullShare} m (qLoc d))) : sProp 𝕄) ⊢ FlInV m d L sm B n := by
  rw [pts_q d L h e]
  iintro H; iexists _; isplitr
  · ipureintro; exact holdsQ_of_write m d L B g₀ h e P hP
  · iexact H

set_option maxRecDepth 65536 in
theorem FlOutV_intro (sm : DmaSems sig S_) (B : Memref sig .scVector .vmem S30720 .f32) (hB : B.view.set = Finset.univ)
    {off : Fin 2 → ℕ} (h : ∀ a, off a + S1x30720.size a ≤ S768x65536.size a) {n : ℕ}
    (e : off = blkOff (tIx L).val n) (g : Buf (Elt F) (B.view.loc (thrV d L))) (hg : HoldsQ m d L B g n) (fa : Buf (Elt F) (oLoc d))
    (P : S30720.Idx → Elt F .f32) (hP : P = B.view.read (Elt F) g) :
    (Transfers.Flight countersEmb (thrV d L) (SemLoc.dma sm.sem) default 983040
      iprop(((blkOf oV off h).view.loc (thrV d L) ↦[(blkOf oV off h).view.set]{fullShare} (blkOf oV off h).view.writes (Elt F) fa [⟨Rect.whole S30720, P⟩])
        ∗ (B.view.loc (thrV d L) ↦[B.view.set]{fullShare} g)) : sProp 𝕄)
      ⊢ FlOutV m d L sm B n := by
  obtain ⟨off', h', e', hr⟩ := hg
  have key := out_lands m d h h' (e'.trans e.symm) fa P (hP.trans hr)
  rw [set_blkOf_o L h e] at key
  rw [pts_o d L h e, hB]
  iintro H; iexists g, _; isplitr
  · ipureintro; exact key
  · iexact H

set_option maxRecDepth 65536 in
/-- A block of the copy handed back by the wait for its copy out, finished. -/
theorem oBV_of_blk (B : Memref sig .scVector .vmem S30720 .f32) {off : Fin 2 → ℕ} (h : ∀ a, off a + S1x30720.size a ≤ S768x65536.size a) {n : ℕ}
    (e : off = blkOff (tIx L).val n) (g : Buf (Elt F) (B.view.loc (thrV d L))) (hg : HoldsQ m d L B g n) (fa : Buf (Elt F) (oLoc d))
    (P : S30720.Idx → Elt F .f32) (hP : P = B.view.read (Elt F) g) :
    ((blkOf oV off h).view.loc (thrV d L) ↦[(blkOf oV off h).view.set]{fullShare} (blkOf oV off h).view.writes (Elt F) fa [⟨Rect.whole S30720, P⟩] : sProp 𝕄)
      ⊢ oBV m d L n := by
  obtain ⟨off', h', e', hr⟩ := hg
  have key := out_lands m d h h' (e'.trans e.symm) fa P (hP.trans hr)
  rw [set_blkOf_o L h e] at key
  rw [pts_o d L h e]
  iintro H; iexists _; isplitr
  · ipureintro; exact key
  · iexact H

abbrev Inv0V : sProp 𝕄 :=
  iprop(FlInV m d L cc1_scratch4 b0 0 ∗ FlInV m d L cc1_scratch5 b1 1 ∗ FlInV m d L cc1_scratch6 b2 2
    ∗ (∃ g, (b3).view.loc (thrV d L) ↦{fullShare} g) ∗ sem0 d L cc1_scratch11
    ∗ sem0 d L cc1_scratch7 ∗ sem0 d L cc1_scratch8 ∗ sem0 d L cc1_scratch9 ∗ sem0 d L cc1_scratch10
    ∗ bigSep (Finset.range 0) (qB m d L) ∗ bigSep (Finset.Ico 3 48) (qB m d L) ∗ bigSep (Finset.range 0) (oBV m d L) ∗ bigSep (Finset.Ico 0 48) (oB d L))

abbrev InvMidV (j : ℕ) : sProp 𝕄 :=
  iprop(FlInV m d L cc1_scratch4 b0 (4 * j + 4) ∗ FlInV m d L cc1_scratch5 b1 (4 * j + 5) ∗ FlInV m d L cc1_scratch6 b2 (4 * j + 6)
    ∗ FlOutV m d L cc1_scratch11 b3 (4 * j + 3)
    ∗ sem0 d L cc1_scratch7 ∗ sem0 d L cc1_scratch8 ∗ sem0 d L cc1_scratch9 ∗ sem0 d L cc1_scratch10
    ∗ bigSep (Finset.range (4 * j + 4)) (qB m d L) ∗ bigSep (Finset.Ico (4 * j + 7) 48) (qB m d L)
    ∗ bigSep (Finset.range (4 * j + 3)) (oBV m d L) ∗ bigSep (Finset.Ico (4 * j + 4) 48) (oB d L))

abbrev InvEndV : sProp 𝕄 :=
  iprop(FlOutV m d L cc1_scratch8 b0 (4 * 10 + 4) ∗ FlOutV m d L cc1_scratch9 b1 (4 * 10 + 5) ∗ FlOutV m d L cc1_scratch10 b2 (4 * 10 + 6) ∗ FlOutV m d L cc1_scratch11 b3 47
    ∗ sem0 d L cc1_scratch4 ∗ sem0 d L cc1_scratch5 ∗ sem0 d L cc1_scratch6 ∗ sem0 d L cc1_scratch7
    ∗ bigSep (Finset.range 48) (qB m d L) ∗ bigSep (Finset.range 44) (oBV m d L))

def InvV (n : ℕ) (_ : Unit) : sProp 𝕄 :=
  iprop(Owing d L O W ∗ (match n with | 0 => Inv0V m d L | j + 1 => if j < 11 then InvMidV m d L j else InvEndV m d L))

theorem InvV_zero (u : Unit) : InvV m d L O W 0 u = iprop(Owing d L O W ∗ Inv0V m d L) := rfl
theorem InvV_mid (j : ℕ) (h : j < 11) (u : Unit) : InvV m d L O W (j + 1) u = iprop(Owing d L O W ∗ InvMidV m d L j) := by
  show iprop(_ ∗ (if j < 11 then _ else _)) = _
  rw [if_pos h]
theorem InvV_end (u : Unit) : InvV m d L O W 12 u = iprop(Owing d L O W ∗ InvEndV m d L) := by
  show iprop(_ ∗ (if 11 < 11 then _ else _)) = _
  rw [if_neg (by omega)]
theorem InvV_mid_fun (j : ℕ) (h : j < 11) : InvV m d L O W (j + 1) = fun _ => iprop(Owing d L O W ∗ InvMidV m d L j) :=
  funext fun u => InvV_mid m d L O W j h u
theorem InvV_end_fun : InvV m d L O W 12 = fun _ => iprop(Owing d L O W ∗ InvEndV m d L) :=
  funext fun u => InvV_end m d L O W u

variable [FloatOps F]

/-- A trip in the middle of the loop (`1 ≤ k ≤ 10`): every guard holds. -/
theorem trip_midV (v2 : BitVec 32) (k : Fin k1_t1_loop.trips) (j : ℕ) (hj : k.val = j + 1) (hk : j < 10) :
    InvV m d L O W (j + 1) () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (InvV m d L O W (j + 1 + 1)) := by
  have h1 : k1_cond1 k = 1#1 := cond1_true k
  have h2 : k1_cond2 k = 1#1 := (cond2_iff k).mpr (by omega)
  have h3 : k1_cond3 k = 1#1 := (cond3_iff k).mpr (by omega)
  have h4 : k1_cond4 k = 1#1 := (cond4_iff k).mpr (by omega)
  have h5 : k1_cond5 k = 1#1 := (cond5_iff k).mpr (by omega)
  have e30 : k1_off3 L k 0#32 = blkOff (tIx L).val (4 * j + 4) := (off3_0 L k).trans (congrArg _ (by omega))
  have e31 : k1_off3 L k 1#32 = blkOff (tIx L).val (4 * j + 5) := (off3_1 L k).trans (congrArg _ (by omega))
  have e32 : k1_off3 L k 2#32 = blkOff (tIx L).val (4 * j + 6) := (off3_2 L k).trans (congrArg _ (by omega))
  have e33 : k1_off3 L k 3#32 = blkOff (tIx L).val (4 * (j + 1) + 3) := (off3_3 L k).trans (congrArg _ (by omega))
  have e33' : k1_off3 L k 3#32 = blkOff (tIx L).val (4 * j + 7) := (off3_3 L k).trans (congrArg _ (by omega))
  have e5n : k1_off5 L k = blkOff (tIx L).val (4 * (j + 1) + 3) := (off5_eq L k).trans (congrArg _ (by omega))
  have e5 : k1_off5 L k = blkOff (tIx L).val (4 * j + 7) := (off5_eq L k).trans (congrArg _ (by omega))
  have e7 : k1_off7 L k = blkOff (tIx L).val (4 * (j + 1) + 4) := (off7_eq L k).trans (congrArg _ (by omega))
  have e7' : k1_off7 L k = blkOff (tIx L).val (4 * j + 8) := (off7_eq L k).trans (congrArg _ (by omega))
  have e9 : k1_off9 L k = blkOff (tIx L).val (4 * (j + 1) + 5) := (off9_eq L k).trans (congrArg _ (by omega))
  have e9' : k1_off9 L k = blkOff (tIx L).val (4 * j + 9) := (off9_eq L k).trans (congrArg _ (by omega))
  have e11 : k1_off11 L k = blkOff (tIx L).val (4 * (j + 1) + 6) := (off11_eq L k).trans (congrArg _ (by omega))
  have e11' : k1_off11 L k = blkOff (tIx L).val (4 * j + 10) := (off11_eq L k).trans (congrArg _ (by omega))
  rw [InvV_mid m d L O W j (by omega), InvV_mid_fun m d L O W (j + 1) (by omega)]
  iintro ⟨⟨#Hmw, %W', %hW', HO⟩, ⟨%g0, %hg0, Hs0⟩, ⟨%g1, %hg1, Hs1⟩, ⟨%g2, %hg2, Hs2⟩, ⟨%g3, %fo, %hfo, Ht3⟩, Hs3, Ht0, Ht1, Ht2, HQd, HQt, HOd, HOt⟩
  ihave HQt' := (Entails.of_eq (bigSep_Ico_pop4 (qB m d L) (4 * j + 7) (4 * j + 8) (4 * j + 9) (4 * j + 10) (4 * (j + 1) + 7)
    (by omega) (by omega) (by omega) (by omega) (by omega))) $$ HQt
  icases HQt' with ⟨Hq5, Hq7, Hq9, Hq11, HQt⟩
  ihave HOt' := (Entails.of_eq (bigSep_Ico_pop4 (oB d L) (4 * j + 4) (4 * j + 5) (4 * j + 6) (4 * j + 7) (4 * (j + 1) + 4)
    (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hq7 := (Entails.of_eq (pts_q d L (k1_off7_inb L k h3) e7' (m (qLoc d))).symm) $$ Hq7
  ihave Hq9 := (Entails.of_eq (pts_q d L (k1_off9_inb L k h4) e9' (m (qLoc d))).symm) $$ Hq9
  ihave Hq11 := (Entails.of_eq (pts_q d L (k1_off11_inb L k h5) e11' (m (qLoc d))).symm) $$ Hq11
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33' fd).symm) $$ Hod
  sl_unfold [k1_t1_body]
  sl_exec
  sl_step
  ihave He := (Entails.of_eq (pts_buf_rest d L cc1_scratch3 _)) $$ Ht3_src
  iclear He
  isplitl [HO]
  · isplitr; · iexact Hmw
    iapply (owes_wrap d L O W ?hW) $$ HO
    case hW => repeat (first | exact hW' | refine mem_ins W ?_ _)
  isplitl [Hs0]; · iapply (FlInV_intro m d L cc1_scratch4 b0 (k1_off7_inb L k h3) e7 _ _ rfl); iexact Hs0
  isplitl [Hs1]; · iapply (FlInV_intro m d L cc1_scratch5 b1 (k1_off9_inb L k h4) e9 _ _ rfl); iexact Hs1
  isplitl [Hs2]; · iapply (FlInV_intro m d L cc1_scratch6 b2 (k1_off11_inb L k h5) e11 _ _ rfl); iexact Hs2
  isplitl [Ht3]; · iapply (FlOutV_intro m d L cc1_scratch11 b3 (View.set_whole _) (k1_off3_inb L k 3) e33 _ (holdsQ_of_write m d L b3 _ (k1_off5_inb L k h1) e5n _ rfl) _ _ rfl); iexact Ht3
  isplitl [Hs3]; · iexact Hs3
  isplitl [Ht0]; · iexact Ht0
  isplitl [Ht1]; · iexact Ht1
  isplitl [Ht2]; · iexact Ht2
  isplitl [HQd Hs0_src Hs1_src Hs2_src Hq5]
  · iapply (Entails.of_eq (bigSep_range_push4 (qB m d L) (4 * j + 4) (4 * j + 5) (4 * j + 6) (4 * j + 7) (4 * (j + 1) + 4)
      (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  isplitl [HQt]; · iexact HQt
  isplitl [HOd Ht3_dst Hoa Hob Hoc]
  · iapply (Entails.of_eq (bigSep_range_push4 (oBV m d L) (4 * j + 3) (4 * j + 4) (4 * j + 5) (4 * j + 6) (4 * (j + 1) + 3)
      (by omega) (by omega) (by omega) (by omega)).symm)
    isplitl [Hoc]; · iapply (oBV_of_blk m d L b2 (k1_off3_inb L k 2) e32 g2 hg2 _ _ rfl); iexact Hoc
    isplitl [Hob]; · iapply (oBV_of_blk m d L b1 (k1_off3_inb L k 1) e31 g1 hg1 _ _ rfl); iexact Hob
    isplitl [Hoa]; · iapply (oBV_of_blk m d L b0 (k1_off3_inb L k 0) e30 g0 hg0 _ _ rfl); iexact Hoa
    isplitl [Ht3_dst]
    · iexists fo; isplitr
      · ipureintro; exact hfo
      · iexact Ht3_dst
    iexact HOd
  iexact HOt

/-- The first trip: nothing to wait for on buffer 3 yet. -/
theorem trip_zeroV (v2 : BitVec 32) (k : Fin k1_t1_loop.trips) (hk : k.val = 0) :
    InvV m d L O W 0 () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (InvV m d L O W (0 + 1)) := by
  have h1 : k1_cond1 k = 1#1 := cond1_true k
  have h2 : ¬ k1_cond2 k = 1#1 := fun h => by have := (cond2_iff k).mp h; omega
  have h3 : k1_cond3 k = 1#1 := (cond3_iff k).mpr (by omega)
  have h4 : k1_cond4 k = 1#1 := (cond4_iff k).mpr (by omega)
  have h5 : k1_cond5 k = 1#1 := (cond5_iff k).mpr (by omega)
  have e30 : k1_off3 L k 0#32 = blkOff (tIx L).val 0 := (off3_0 L k).trans (congrArg _ (by omega))
  have e31 : k1_off3 L k 1#32 = blkOff (tIx L).val 1 := (off3_1 L k).trans (congrArg _ (by omega))
  have e32 : k1_off3 L k 2#32 = blkOff (tIx L).val 2 := (off3_2 L k).trans (congrArg _ (by omega))
  have e33 : k1_off3 L k 3#32 = blkOff (tIx L).val (4 * 0 + 3) := (off3_3 L k).trans (congrArg _ (by omega))
  have e33' : k1_off3 L k 3#32 = blkOff (tIx L).val 3 := (off3_3 L k).trans (congrArg _ (by omega))
  have e5n : k1_off5 L k = blkOff (tIx L).val (4 * 0 + 3) := (off5_eq L k).trans (congrArg _ (by omega))
  have e5 : k1_off5 L k = blkOff (tIx L).val 3 := (off5_eq L k).trans (congrArg _ (by omega))
  have e7 : k1_off7 L k = blkOff (tIx L).val (4 * 0 + 4) := (off7_eq L k).trans (congrArg _ (by omega))
  have e7' : k1_off7 L k = blkOff (tIx L).val 4 := (off7_eq L k).trans (congrArg _ (by omega))
  have e9 : k1_off9 L k = blkOff (tIx L).val (4 * 0 + 5) := (off9_eq L k).trans (congrArg _ (by omega))
  have e9' : k1_off9 L k = blkOff (tIx L).val 5 := (off9_eq L k).trans (congrArg _ (by omega))
  have e11 : k1_off11 L k = blkOff (tIx L).val (4 * 0 + 6) := (off11_eq L k).trans (congrArg _ (by omega))
  have e11' : k1_off11 L k = blkOff (tIx L).val 6 := (off11_eq L k).trans (congrArg _ (by omega))
  rw [InvV_zero m d L O W, InvV_mid_fun m d L O W 0 (by omega)]
  iintro ⟨⟨#Hmw, %W', %hW', HO⟩, ⟨%g0, %hg0, Hs0⟩, ⟨%g1, %hg1, Hs1⟩, ⟨%g2, %hg2, Hs2⟩, ⟨%g3, Hb3⟩, Ht3, Hs3, Ht0, Ht1, Ht2, HQd, HQt, HOd, HOt⟩
  ihave HQt' := (Entails.of_eq (bigSep_Ico_pop4 (qB m d L) 3 4 5 6 (4 * 0 + 7) (by omega) (by omega) (by omega) (by omega) (by omega))) $$ HQt
  icases HQt' with ⟨Hq5, Hq7, Hq9, Hq11, HQt⟩
  ihave HOt' := (Entails.of_eq (bigSep_Ico_pop4 (oB d L) 0 1 2 3 (4 * 0 + 4) (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hq7 := (Entails.of_eq (pts_q d L (k1_off7_inb L k h3) e7' (m (qLoc d))).symm) $$ Hq7
  ihave Hq9 := (Entails.of_eq (pts_q d L (k1_off9_inb L k h4) e9' (m (qLoc d))).symm) $$ Hq9
  ihave Hq11 := (Entails.of_eq (pts_q d L (k1_off11_inb L k h5) e11' (m (qLoc d))).symm) $$ Hq11
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33' fd).symm) $$ Hod
  sl_unfold [k1_t1_body]
  sl_exec
  sl_step
  ihave He := (Entails.of_eq (pts_buf_rest d L cc1_scratch3 _)) $$ Hb3
  iclear He
  isplitl [HO]
  · isplitr; · iexact Hmw
    iapply (owes_wrap d L O W ?hW) $$ HO
    case hW => repeat (first | exact hW' | refine mem_ins W ?_ _)
  isplitl [Hs0]; · iapply (FlInV_intro m d L cc1_scratch4 b0 (k1_off7_inb L k h3) e7 _ _ rfl); iexact Hs0
  isplitl [Hs1]; · iapply (FlInV_intro m d L cc1_scratch5 b1 (k1_off9_inb L k h4) e9 _ _ rfl); iexact Hs1
  isplitl [Hs2]; · iapply (FlInV_intro m d L cc1_scratch6 b2 (k1_off11_inb L k h5) e11 _ _ rfl); iexact Hs2
  isplitl [Ht3]; · iapply (FlOutV_intro m d L cc1_scratch11 b3 (View.set_whole _) (k1_off3_inb L k 3) e33 _ (holdsQ_of_write m d L b3 _ (k1_off5_inb L k h1) e5n _ rfl) _ _ rfl); iexact Ht3
  isplitl [Hs3]; · iexact Hs3
  isplitl [Ht0]; · iexact Ht0
  isplitl [Ht1]; · iexact Ht1
  isplitl [Ht2]; · iexact Ht2
  isplitl [HQd Hs0_src Hs1_src Hs2_src Hq5]
  · iapply (Entails.of_eq (bigSep_range_push4 (qB m d L) 0 1 2 3 (4 * 0 + 4) (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  isplitl [HQt]; · iexact HQt
  isplitl [HOd Hoa Hob Hoc]
  · iapply (Entails.of_eq (bigSep_range_push3 (oBV m d L) 0 1 2 (4 * 0 + 3) (by omega) (by omega) (by omega)).symm)
    isplitl [Hoc]; · iapply (oBV_of_blk m d L b2 (k1_off3_inb L k 2) e32 g2 hg2 _ _ rfl); iexact Hoc
    isplitl [Hob]; · iapply (oBV_of_blk m d L b1 (k1_off3_inb L k 1) e31 g1 hg1 _ _ rfl); iexact Hob
    isplitl [Hoa]; · iapply (oBV_of_blk m d L b0 (k1_off3_inb L k 0) e30 g0 hg0 _ _ rfl); iexact Hoa
    iexact HOd
  iexact HOt

/-- The last trip: no block is left to copy in, and the last three copies out are left outstanding. -/
theorem trip_lastV (v2 : BitVec 32) (k : Fin k1_t1_loop.trips) (hk : k.val = 11) :
    InvV m d L O W (10 + 1) () ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k ()) (InvV m d L O W 12) := by
  have h1 : k1_cond1 k = 1#1 := cond1_true k
  have h2 : k1_cond2 k = 1#1 := (cond2_iff k).mpr (by omega)
  have h3 : ¬ k1_cond3 k = 1#1 := fun h => by have := (cond3_iff k).mp h; omega
  have h4 : ¬ k1_cond4 k = 1#1 := fun h => by have := (cond4_iff k).mp h; omega
  have h5 : ¬ k1_cond5 k = 1#1 := fun h => by have := (cond5_iff k).mp h; omega
  have e30 : k1_off3 L k 0#32 = blkOff (tIx L).val (4 * 10 + 4) := (off3_0 L k).trans (congrArg _ (by omega))
  have e31 : k1_off3 L k 1#32 = blkOff (tIx L).val (4 * 10 + 5) := (off3_1 L k).trans (congrArg _ (by omega))
  have e32 : k1_off3 L k 2#32 = blkOff (tIx L).val (4 * 10 + 6) := (off3_2 L k).trans (congrArg _ (by omega))
  have e33 : k1_off3 L k 3#32 = blkOff (tIx L).val 47 := (off3_3 L k).trans (congrArg _ (by omega))
  have e5 : k1_off5 L k = blkOff (tIx L).val 47 := (off5_eq L k).trans (congrArg _ (by omega))
  rw [InvV_mid m d L O W 10 (by omega), InvV_end_fun m d L O W]
  iintro ⟨⟨#Hmw, %W', %hW', HO⟩, ⟨%g0, %hg0, Hs0⟩, ⟨%g1, %hg1, Hs1⟩, ⟨%g2, %hg2, Hs2⟩, ⟨%g3, %fo, %hfo, Ht3⟩, Hs3, Ht0, Ht1, Ht2, HQd, HQt, HOd, HOt⟩
  ihave HQt' := (Entails.of_eq (bigSep_Ico_pop (qB m d L) (by omega : 4 * 10 + 7 < 48))) $$ HQt
  icases HQt' with ⟨Hq5, HQt⟩
  ihave HOt' := (Entails.of_eq (bigSep_Ico_pop4 (oB d L) 44 45 46 47 48 (by omega) (by omega) (by omega) (by omega) (by omega))) $$ HOt
  icases HOt' with ⟨⟨%fa, Hoa⟩, ⟨%fb, Hob⟩, ⟨%fc, Hoc⟩, ⟨%fd, Hod⟩, HOt⟩
  ihave Hq5 := (Entails.of_eq (pts_q d L (k1_off5_inb L k h1) e5 (m (qLoc d))).symm) $$ Hq5
  ihave Hoa := (Entails.of_eq (pts_o d L (k1_off3_inb L k 0) e30 fa).symm) $$ Hoa
  ihave Hob := (Entails.of_eq (pts_o d L (k1_off3_inb L k 1) e31 fb).symm) $$ Hob
  ihave Hoc := (Entails.of_eq (pts_o d L (k1_off3_inb L k 2) e32 fc).symm) $$ Hoc
  ihave Hod := (Entails.of_eq (pts_o d L (k1_off3_inb L k 3) e33 fd).symm) $$ Hod
  sl_unfold [k1_t1_body]
  sl_exec
  sl_step
  ihave He := (Entails.of_eq (pts_buf_rest d L cc1_scratch3 _)) $$ Ht3_src
  iclear He
  ihave He := (Entails.of_eq (pts_buf_rest d L cc1_scratch0 _)) $$ Hs0_dst
  iclear He
  ihave He := (Entails.of_eq (pts_buf_rest d L cc1_scratch1 _)) $$ Hs1_dst
  iclear He
  ihave He := (Entails.of_eq (pts_buf_rest d L cc1_scratch2 _)) $$ Hs2_dst
  iclear He
  ihave He := (Entails.of_eq (bigSep_Ico_self (qB m d L) (by omega : 48 ≤ 4 * 10 + 7 + 1))) $$ HQt
  iclear He
  ihave He := (Entails.of_eq (bigSep_Ico_self (oB d L) (by omega : 48 ≤ 48))) $$ HOt
  iclear He
  isplitl [HO]
  · isplitr; · iexact Hmw
    iapply (owes_wrap d L O W ?hW) $$ HO
    case hW => repeat (first | exact hW' | refine mem_ins W ?_ _)
  isplitl [Ht0]; · iapply (FlOutV_intro m d L cc1_scratch8 b0 (View.set_whole _) (k1_off3_inb L k 0) e30 g0 hg0 _ _ rfl); iexact Ht0
  isplitl [Ht1]; · iapply (FlOutV_intro m d L cc1_scratch9 b1 (View.set_whole _) (k1_off3_inb L k 1) e31 g1 hg1 _ _ rfl); iexact Ht1
  isplitl [Ht2]; · iapply (FlOutV_intro m d L cc1_scratch10 b2 (View.set_whole _) (k1_off3_inb L k 2) e32 g2 hg2 _ _ rfl); iexact Ht2
  isplitl [Ht3]; · iapply (FlOutV_intro m d L cc1_scratch11 b3 (View.set_whole _) (k1_off3_inb L k 3) e33 _ (holdsQ_of_write m d L b3 _ (k1_off5_inb L k h1) e5 _ rfl) _ _ rfl); iexact Ht3
  isplitl [Hs0]; · iexact Hs0
  isplitl [Hs1]; · iexact Hs1
  isplitl [Hs2]; · iexact Hs2
  isplitl [Hs3]; · iexact Hs3
  isplitl [HQd Hs0_src Hs1_src Hs2_src Hq5]
  · iapply (Entails.of_eq (bigSep_range_push4 (qB m d L) (4 * 10 + 4) (4 * 10 + 5) (4 * 10 + 6) 47 48 (by omega) (by omega) (by omega) (by omega)).symm)
    isplitl [Hq5]; · iapply (Entails.of_eq (pts_q d L (k1_off5_inb L k h1) e5 (m (qLoc d)))); iexact Hq5
    isplitl [Hs2_src]; · iexact Hs2_src
    isplitl [Hs1_src]; · iexact Hs1_src
    isplitl [Hs0_src]; · iexact Hs0_src
    iexact HQd
  iapply (Entails.of_eq (bigSep_range_push1 (oBV m d L) (4 * 10 + 3) 44 (by omega)).symm)
  isplitl [Ht3_dst]
  · iexists fo; isplitr
    · ipureintro; exact hfo
    · iexact Ht3_dst
  iexact HOd

end BodyV

end Cert.Kernel.Hand

end
-- ==== Proof.Bits.ScTile.lean ====
/-
  The body obligation of the SparseCore copy kernel: the task of one vector subcore, once, at symbolic grid coordinates.
  The task is handed its strip (24 rows) of the queue at the launch contents and of the copy at some contents, its four
  scratch buffers and its eight DMA semaphores at rest. It starts the copies in of blocks 0, 1, 2, runs the twelve trips of
  its loop — each trip waits for four copies in, starts the four copies out of what they brought and, where blocks are
  left, waits for the previous copies out and starts the next copies in —, and waits for the last four copies out. At
  most one copy is outstanding on a semaphore at any time and no buffer is touched between a copy's start and its wait,
  so every wait is answered. At the end the subcore holds its strip of the queue unchanged, its strip of the copy at
  some contents (the first 4096 columns untouched), its scratch buffers, and every semaphore at rest again; what it
  owed before it owes still, having recorded only waits of its own.
-/
import proofs.«211565_g20684562498226_cont_8to1_684_24_alg».proof.Proof.Bits.Setup
import proofs.«211565_g20684562498226_cont_8to1_684_24_alg».proof.Proof.Bits.ScTileB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Body

variable (d : Dev nD) (L : grid1.Coords) (O : CellTallies nD τ sig (HIx 1)) (W : Waits sig (HIx 1))

variable [FloatOps F]

theorem Inv_exit (u : Unit) :
    Inv m d L O W (Scf.trips k1_t1_loop.lb k1_t1_loop.ub k1_t1_loop.st) u = iprop(Owing d L O W ∗ InvEnd m d L) := by
  rw [show Scf.trips k1_t1_loop.lb k1_t1_loop.ub k1_t1_loop.st = 12 from trips_eq]
  exact Inv_end m d L O W u

/-! The three cases of a trip, in the shape the loop rule asks for. -/

theorem region_zero (v2 : BitVec 32) (k : Fin (Scf.trips k1_t1_loop.lb k1_t1_loop.ub k1_t1_loop.st)) (acc : PUnit.{1}) (h0 : k.val = 0) :
    Inv m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (Inv m d L O W (↑k + 1)) := by
  rw [h0]; exact trip_zero m d L O W v2 k h0

theorem region_mid (v2 : BitVec 32) (k : Fin (Scf.trips k1_t1_loop.lb k1_t1_loop.ub k1_t1_loop.st)) (acc : PUnit.{1}) (j : ℕ) (hj : k.val = j + 1) (hk : j < 10) :
    Inv m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (Inv m d L O W (↑k + 1)) := by
  rw [hj]; exact trip_mid m d L O W v2 k j hj hk

theorem region_last (v2 : BitVec 32) (k : Fin (Scf.trips k1_t1_loop.lb k1_t1_loop.ub k1_t1_loop.st)) (acc : PUnit.{1}) (h11 : k.val = 11) :
    Inv m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (Inv m d L O W (↑k + 1)) := by
  rw [show (k : ℕ) = 10 + 1 from h11, show (10 + 1 + 1 : ℕ) = 12 from rfl]
  exact trip_last m d L O W v2 k h11

theorem region_all (v2 : BitVec 32) (k : Fin (Scf.trips k1_t1_loop.lb k1_t1_loop.ub k1_t1_loop.st)) (acc : PUnit.{1}) :
    Inv m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (Inv m d L O W (↑k + 1)) := by
  have hk12 : k.val < 12 := trips_eq ▸ k.isLt
  rcases Nat.eq_zero_or_pos k.val with h0 | hpos
  · exact region_zero m d L O W v2 k acc h0
  · rcases Nat.lt_or_ge k.val 11 with hlt | hge
    · obtain ⟨j, hj⟩ : ∃ j, k.val = j + 1 := ⟨k.val - 1, by omega⟩
      exact region_mid m d L O W v2 k acc j hj (by omega)
    · exact region_last m d L O W v2 k acc (by omega)

set_option maxHeartbeats 1600000 in
/-- The task of the vector subcore at grid coordinates `L` of device `d`: three copies in started, the loop, the last
    four waits. From its strips of the queue and of the copy, its scoped storage and what it owes, to the strips — the
    queue's unchanged —, the storage as it was, and the same debt with its own waits recorded. -/
theorem tile_body (hF : (K (F := F)).Facts) (hO : ∀ g, O g none = 0) :
    (iprop(levAts (K (F := F)).L (K (F := F)).lev ∗ emp ∗ ((qLoc d ↦[stripSet (tIx L)]{fullShare} m (qLoc d)) ∗ ∃ f, oLoc d ↦[stripSet (tIx L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc1_sc_kernel L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11)
          fun _ => iprop(((qLoc d ↦[stripSet (tIx L)]{fullShare} m (qLoc d)) ∗ ∃ f, oLoc d ↦[stripSet (tIx L)]{fullShare} f) ∗ scopedBufs (thrV d L) ∗ scopedSems0 (thrV d L)
            ∗ ∃ W', ⌜∀ p ∈ W', p ∈ W ∨ p.2 = none⌝ ∗ owes (thrV d L) O W') := by
  simp only [cc1_sc_kernel_eq_skeleton]; unfold cc1_sc_kernel_skel
  simp only [k1_part11_eq_skeleton]; unfold k1_part11_skel
  rw [(K (F := F)).scopedBufs_V hF d (cV L) (jV L), SparseCore.Cfg.scopedSems0_V (Val := Elt F) d (cV L) (jV L), ownSems0_V d L, ownBufs_V d L,
    q_split d (tIx L) (m (qLoc d))]
  iintro ⟨#Hlv, -, ⟨⟨Hqh, HQ⟩, %fo, Ho⟩, ⟨⟨%f0, Hb0⟩, ⟨%f1, Hb1⟩, ⟨%f2, Hb2⟩, ⟨%f3, Hb3⟩, Hbufs⟩, ⟨Hs0, Hs1, Hs2, Hs3, Ht0, Ht1, Ht2, Ht3, Hsems⟩, HO⟩
  ihave Ho' := (Entails.of_eq (o_split d (tIx L) fo)) $$ Ho
  icases Ho' with ⟨Hoh, HOb⟩
  ihave HOt := (o_blocks_ex d L fo) $$ HOb
  ihave HQ := (Entails.of_eq (bigSep_Ico_zero (qB m d L) 48).symm) $$ HQ
  ihave HQ := (Entails.of_eq (bigSep_Ico_pop3 (qB m d L) 0 1 2 3 (by omega) (by omega) (by omega) (by omega))) $$ HQ
  icases HQ with ⟨Hq0, Hq1, Hq2, HQ⟩
  ihave Hq0 := (Entails.of_eq (pts_q d L (k1_off1_inb L 0) (off1_0 L) (m (qLoc d))).symm) $$ Hq0
  ihave Hq1 := (Entails.of_eq (pts_q d L (k1_off2_inb L 0) (off2_0 L) (m (qLoc d))).symm) $$ Hq1
  ihave Hq2 := (Entails.of_eq (pts_q d L (k1_off1_inb L 1) (off1_1 L) (m (qLoc d))).symm) $$ Hq2
  ihave Hb0 := (Entails.of_eq (pts_b d L cc1_scratch0 f0).symm) $$ Hb0
  ihave Hb1 := (Entails.of_eq (pts_b d L cc1_scratch1 f1).symm) $$ Hb1
  ihave Hb2 := (Entails.of_eq (pts_b d L cc1_scratch2 f2).symm) $$ Hb2
  ihave Hb3 := (Entails.of_eq (pts_b d L cc1_scratch3 f3).symm) $$ Hb3
  ihave Hmw := ((K (F := F)).mayWaits_none (thr := thrV d L) hO) $$ Hlv
  icases Hmw with #Hmw
  sl_exec
  sl_rw [Prog.bind_assoc]
  sl_for (Inv m d L O W) $$ [Hs0 Hs1 Hs2 Hb3 Ht3 Hs3 Ht0 Ht1 Ht2 HQ HOt HO]
  case region =>
    intro k acc
    sl_respell []
    generalize tile_body.sl.v2 L = v2
    exact region_all m d L O W v2 k acc
  · rw [Inv_zero m d L O W]
    isplitl [HO]
    · isplitr; · iexact Hmw
      iapply (owes_wrap d L O W ?hW) $$ HO
      case hW => exact fun p hp => .inl hp
    isplitl [Hs0]; · iapply (FlIn_intro m d L cc1_scratch4 cc1_scratch0 (k1_off1_inb L 0) (off1_0 L) _); iexact Hs0
    isplitl [Hs1]; · iapply (FlIn_intro m d L cc1_scratch5 cc1_scratch1 (k1_off2_inb L 0) (off2_0 L) _); iexact Hs1
    isplitl [Hs2]; · iapply (FlIn_intro m d L cc1_scratch6 cc1_scratch2 (k1_off1_inb L 1) (off1_1 L) _); iexact Hs2
    isplitl [Hb3]; · iexists _; iexact Hb3
    isplitl [Ht3]; · iexact Ht3
    isplitl [Hs3]; · iexact Hs3
    isplitl [Ht0]; · iexact Ht0
    isplitl [Ht1]; · iexact Ht1
    isplitl [Ht2]; · iexact Ht2
    isplitr; · iapply (Entails.of_eq (bigSep_range_zero (qB m d L)).symm); iempintro
    isplitl [HQ]; · iexact HQ
    isplitr; · iapply (Entails.of_eq (bigSep_range_zero (oB d L)).symm); iempintro
    iexact HOt
  iintro %acc HI
  ihave HI := (Entails.of_eq (Inv_exit m d L O W acc)) $$ HI
  icases HI with ⟨⟨-, %W', %hW', HO⟩, ⟨%g0, %fo0, Ht0⟩, ⟨%g1, %fo1, Ht1⟩, ⟨%g2, %fo2, Ht2⟩, ⟨%g3, %fo3, Ht3⟩, Hs0, Hs1, Hs2, Hs3, HQd, HOd⟩
  sl_exec
  sl_step
  isplitl [Hqh HQd Hoh HOd Ht0_dst Ht1_dst Ht2_dst Ht3_dst]
  · isplitl [Hqh HQd]
    · isplitl [Hqh]; · iexact Hqh
      iexact HQd
    iapply (o_join d (tIx L))
    isplitl [Hoh]; · iexists fo; iexact Hoh
    iapply (Entails.of_eq (bigSep_range_push4 (oB d L) 44 45 46 47 48 (by omega) (by omega) (by omega) (by omega)).symm)
    isplitl [Ht3_dst]; · iexists _; iexact Ht3_dst
    isplitl [Ht2_dst]; · iexists _; iexact Ht2_dst
    isplitl [Ht1_dst]; · iexists _; iexact Ht1_dst
    isplitl [Ht0_dst]; · iexists _; iexact Ht0_dst
    iexact HOd
  isplitl [Ht0_src Ht1_src Ht2_src Ht3_src Hbufs]
  · isplitl [Ht0_src]; · iexists _; iapply (Entails.of_eq (pts_b d L cc1_scratch0 _)); iexact Ht0_src
    isplitl [Ht1_src]; · iexists _; iapply (Entails.of_eq (pts_b d L cc1_scratch1 _)); iexact Ht1_src
    isplitl [Ht2_src]; · iexists _; iapply (Entails.of_eq (pts_b d L cc1_scratch2 _)); iexact Ht2_src
    isplitl [Ht3_src]; · iexists _; iapply (Entails.of_eq (pts_b d L cc1_scratch3 _)); iexact Ht3_src
    iexact Hbufs
  isplitl [Hs0 Hs1 Hs2 Hs3 Ht0 Ht1 Ht2 Ht3 Hsems]
  · isplitl [Hs0]; · iexact Hs0
    isplitl [Hs1]; · iexact Hs1
    isplitl [Hs2]; · iexact Hs2
    isplitl [Hs3]; · iexact Hs3
    isplitl [Ht0]; · iexact Ht0
    isplitl [Ht1]; · iexact Ht1
    isplitl [Ht2]; · iexact Ht2
    isplitl [Ht3]; · iexact Ht3
    iexact Hsems
  iapply (owes_wrap d L O W ?hW) $$ HO
  case hW => repeat (first | exact hW' | refine mem_ins W ?_ _)

end Body

/-! ## The launch theorem's obligation -/

variable [FloatOps F]

theorem defs₀_vector (c : Fin τ.nSC) (s : Fin τ.nSub) :
    defs₀ (F := F) (.scVector c s) 1 ⟨⟩
      = SparseCore.onTile hcore1 hsub1 (fun c s => cc1_sc_kernel (coordsV c s) qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the SparseCore kernel, at every vector subcore of its grid: the task of `tile_body`. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have ht : tIx (coordsV ⟨_, hc.1⟩ ⟨_, hc.2⟩) = tileIx (Fin.cast nCore_zero c) (Fin.cast nSub_zero i) := rfl
  show iprop(_ ∗ _ ∗ forTile m d (tileIx (Fin.cast nCore_zero c) (Fin.cast nSub_zero i)) ∗ _) ⊢ wp _ _ _ _ (fun _ => iprop(forTile m d (tileIx (Fin.cast nCore_zero c) (Fin.cast nSub_zero i)) ∗ _))
  rw [← ht]
  exact (tile_body m d (coordsV ⟨_, hc.1⟩ ⟨_, hc.2⟩) O W hF hO).trans (wp_mono frame _ _ fun _ => obl_post)

end Cert.Kernel.Hand

end
-- ==== Proof.Bits.ScTileV.lean ====
/-
  The body obligation of the SparseCore copy kernel with its value: the task of one vector subcore, at symbolic grid
  coordinates, ends with its strip of the copy holding the queue's words in every column from 4096 on, the first 4096
  columns being what they were. The 48 finished blocks, each agreeing with the queue on its own positions, are held at
  the queue's contents themselves and joined with the untouched head of the strip; the strip of the queue is handed
  back unchanged, the scratch buffers and semaphores as they were found.
-/
import proofs.«211565_g20684562498226_cont_8to1_684_24_alg».proof.Proof.Bits.Setup
import proofs.«211565_g20684562498226_cont_8to1_684_24_alg».proof.Proof.Bits.SetupV
import proofs.«211565_g20684562498226_cont_8to1_684_24_alg».proof.Proof.Bits.ScTileVA
import proofs.«211565_g20684562498226_cont_8to1_684_24_alg».proof.Proof.Bits.ScTile

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section JoinV

variable (d : Dev nD) (L : grid1.Coords)

/-- A finished block is held at the queue's contents themselves. -/
theorem oBV_to (n : ℕ) :
    oBV m d L n ⊢ (oLoc d ↦[blkSet (tIx L).val n]{fullShare} (fun idx => m (qLoc d) idx : Buf (Elt F) (oLoc d)) : sProp 𝕄) := by
  iintro ⟨%f, %hf, H⟩
  iapply (Entails.of_eq (pointsTo_congr (ℓ := oLoc d) hf))
  iexact H

/-- The copy's strip back from its untouched head and its 48 finished blocks: from column 4096 on it holds the queue's words. -/
theorem o_joinV (fh : Buf (Elt F) (oLoc d)) :
    iprop((oLoc d ↦[headSet (tIx L).val]{fullShare} fh) ∗ bigSep (Finset.range 48) (oBV m d L))
      ⊢ (iprop(∃ f, (oLoc d ↦[stripSet (tIx L)]{fullShare} f) ∗ ⌜∀ idx ∈ stripSet (tIx L), 4096 ≤ (idx 1).val → f idx = m (qLoc d) idx⌝) : sProp 𝕄) := by
  rw [strip_cover]
  iintro ⟨Hh, Hb⟩
  ihave Hb := (SparseCore.ent (bigSep_mono (s := Finset.range 48) fun n _ => oBV_to m d L n)) $$ Hb
  ihave Hb := (Entails.of_eq (pointsTo_biUnion (Finset.range 48) (ℓ := oLoc d) (blkSet (tIx L).val) (blocks_disjoint (tIx L).val)).symm) $$ Hb
  iexists ((Finset.range 48).biUnion (blkSet (tIx L).val)).piecewise (fun idx => m (qLoc d) idx : Buf (Elt F) (oLoc d)) fh
  isplitl [Hh Hb]
  · iapply (pointsTo_join (ℓ := oLoc d) (head_disjoint_blocks (tIx L).val))
    isplitl [Hh]; · iexact Hh
    iexact Hb
  · ipureintro
    intro idx hidx h4096
    have hmem : idx ∈ (Finset.range 48).biUnion (blkSet (tIx L).val) := by
      rcases Finset.mem_union.mp hidx with hh | hb
      · exact absurd (mem_headSet.mp hh).2.2 (by omega)
      · exact hb
    exact Finset.piecewise_eq_of_mem _ _ _ hmem

end JoinV

section BodyV2

variable (d : Dev nD) (L : grid1.Coords) (O : CellTallies nD τ sig (HIx 1)) (W : Waits sig (HIx 1))

variable [FloatOps F]

theorem InvV_exit (u : Unit) :
    InvV m d L O W (Scf.trips k1_t1_loop.lb k1_t1_loop.ub k1_t1_loop.st) u = iprop(Owing d L O W ∗ InvEndV m d L) := by
  rw [show Scf.trips k1_t1_loop.lb k1_t1_loop.ub k1_t1_loop.st = 12 from trips_eq]
  exact InvV_end m d L O W u

/-! The three cases of a trip, in the shape the loop rule asks for. -/

theorem region_zeroV (v2 : BitVec 32) (k : Fin (Scf.trips k1_t1_loop.lb k1_t1_loop.ub k1_t1_loop.st)) (acc : PUnit.{1}) (h0 : k.val = 0) :
    InvV m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (InvV m d L O W (↑k + 1)) := by
  rw [h0]; exact trip_zeroV m d L O W v2 k h0

theorem region_midV (v2 : BitVec 32) (k : Fin (Scf.trips k1_t1_loop.lb k1_t1_loop.ub k1_t1_loop.st)) (acc : PUnit.{1}) (j : ℕ) (hj : k.val = j + 1) (hk : j < 10) :
    InvV m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (InvV m d L O W (↑k + 1)) := by
  rw [hj]; exact trip_midV m d L O W v2 k j hj hk

theorem region_lastV (v2 : BitVec 32) (k : Fin (Scf.trips k1_t1_loop.lb k1_t1_loop.ub k1_t1_loop.st)) (acc : PUnit.{1}) (h11 : k.val = 11) :
    InvV m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (InvV m d L O W (↑k + 1)) := by
  rw [show (k : ℕ) = 10 + 1 from h11, show (10 + 1 + 1 : ℕ) = 12 from rfl]
  exact trip_lastV m d L O W v2 k h11

theorem region_allV (v2 : BitVec 32) (k : Fin (Scf.trips k1_t1_loop.lb k1_t1_loop.ub k1_t1_loop.st)) (acc : PUnit.{1}) :
    InvV m d L O W (↑k) acc ⊢ wp frame (wpE (defs₀ (F := F)) 𝒱₀ (thrV d L) none) Set.univ
      (k1_t1_body L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11 v2 k acc) (InvV m d L O W (↑k + 1)) := by
  have hk12 : k.val < 12 := trips_eq ▸ k.isLt
  rcases Nat.eq_zero_or_pos k.val with h0 | hpos
  · exact region_zeroV m d L O W v2 k acc h0
  · rcases Nat.lt_or_ge k.val 11 with hlt | hge
    · obtain ⟨j, hj⟩ : ∃ j, k.val = j + 1 := ⟨k.val - 1, by omega⟩
      exact region_midV m d L O W v2 k acc j hj (by omega)
    · exact region_lastV m d L O W v2 k acc (by omega)

set_option maxHeartbeats 1600000 in
/-- The task of the vector subcore at grid coordinates `L` of device `d`: three copies in started, the loop, the last
    four waits. From its strips of the queue and of the copy, its scoped storage and what it owes, to the strips — the
    queue's unchanged —, the storage as it was, and the same debt with its own waits recorded. -/
theorem tile_bodyV (hF : (K (F := F)).Facts) (hO : ∀ g, O g none = 0) :
    (iprop(levAts (K (F := F)).L (K (F := F)).lev ∗ emp ∗ ((qLoc d ↦[stripSet (tIx L)]{fullShare} m (qLoc d)) ∗ ∃ f, oLoc d ↦[stripSet (tIx L)]{fullShare} f)
        ∗ scopedBufs (thrV d L) ∗ scopedSems0 (thrV d L) ∗ owes (thrV d L) O W) : sProp 𝕄)
      ⊢ wp frame (wpE (defs₀ (F := F)) 𝒱₀ (thrV d L) none) Set.univ
          (cc1_sc_kernel L qV (Memref.isWhole_whole _) oV (Memref.isWhole_whole _)
            b0 (Memref.isWhole_whole _) b1 (Memref.isWhole_whole _) b2 (Memref.isWhole_whole _) b3 (Memref.isWhole_whole _)
            cc1_scratch4 cc1_scratch5 cc1_scratch6 cc1_scratch7 cc1_scratch8 cc1_scratch9 cc1_scratch10 cc1_scratch11)
          fun _ => iprop(((qLoc d ↦[stripSet (tIx L)]{fullShare} m (qLoc d)) ∗ ∃ f, (oLoc d ↦[stripSet (tIx L)]{fullShare} f) ∗ ⌜∀ idx ∈ stripSet (tIx L), 4096 ≤ (idx 1).val → f idx = m (qLoc d) idx⌝) ∗ scopedBufs (thrV d L) ∗ scopedSems0 (thrV d L)
            ∗ ∃ W', ⌜∀ p ∈ W', p ∈ W ∨ p.2 = none⌝ ∗ owes (thrV d L) O W') := by
  simp only [cc1_sc_kernel_eq_skeleton]; unfold cc1_sc_kernel_skel
  simp only [k1_part11_eq_skeleton]; unfold k1_part11_skel
  rw [(K (F := F)).scopedBufs_V hF d (cV L) (jV L), SparseCore.Cfg.scopedSems0_V (Val := Elt F) d (cV L) (jV L), ownSems0_V d L, ownBufs_V d L,
    q_split d (tIx L) (m (qLoc d))]
  iintro ⟨#Hlv, -, ⟨⟨Hqh, HQ⟩, %fo, Ho⟩, ⟨⟨%f0, Hb0⟩, ⟨%f1, Hb1⟩, ⟨%f2, Hb2⟩, ⟨%f3, Hb3⟩, Hbufs⟩, ⟨Hs0, Hs1, Hs2, Hs3, Ht0, Ht1, Ht2, Ht3, Hsems⟩, HO⟩
  ihave Ho' := (Entails.of_eq (o_split d (tIx L) fo)) $$ Ho
  icases Ho' with ⟨Hoh, HOb⟩
  ihave HOt := (o_blocks_ex d L fo) $$ HOb
  ihave HQ := (Entails.of_eq (bigSep_Ico_zero (qB m d L) 48).symm) $$ HQ
  ihave HQ := (Entails.of_eq (bigSep_Ico_pop3 (qB m d L) 0 1 2 3 (by omega) (by omega) (by omega) (by omega))) $$ HQ
  icases HQ with ⟨Hq0, Hq1, Hq2, HQ⟩
  ihave Hq0 := (Entails.of_eq (pts_q d L (k1_off1_inb L 0) (off1_0 L) (m (qLoc d))).symm) $$ Hq0
  ihave Hq1 := (Entails.of_eq (pts_q d L (k1_off2_inb L 0) (off2_0 L) (m (qLoc d))).symm) $$ Hq1
  ihave Hq2 := (Entails.of_eq (pts_q d L (k1_off1_inb L 1) (off1_1 L) (m (qLoc d))).symm) $$ Hq2
  ihave Hb0 := (Entails.of_eq (pts_b d L cc1_scratch0 f0).symm) $$ Hb0
  ihave Hb1 := (Entails.of_eq (pts_b d L cc1_scratch1 f1).symm) $$ Hb1
  ihave Hb2 := (Entails.of_eq (pts_b d L cc1_scratch2 f2).symm) $$ Hb2
  ihave Hb3 := (Entails.of_eq (pts_b d L cc1_scratch3 f3).symm) $$ Hb3
  ihave Hmw := ((K (F := F)).mayWaits_none (thr := thrV d L) hO) $$ Hlv
  icases Hmw with #Hmw
  sl_exec
  sl_rw [Prog.bind_assoc]
  sl_for (InvV m d L O W) $$ [Hs0 Hs1 Hs2 Hb3 Ht3 Hs3 Ht0 Ht1 Ht2 HQ HOt HO]
  case region =>
    intro k acc
    sl_respell []
    generalize tile_bodyV.sl.v2 L = v2
    exact region_allV m d L O W v2 k acc
  · rw [InvV_zero m d L O W]
    isplitl [HO]
    · isplitr; · iexact Hmw
      iapply (owes_wrap d L O W ?hW) $$ HO
      case hW => exact fun p hp => .inl hp
    isplitl [Hs0]; · iapply (FlInV_intro m d L cc1_scratch4 b0 (k1_off1_inb L 0) (off1_0 L) _ _ rfl); iexact Hs0
    isplitl [Hs1]; · iapply (FlInV_intro m d L cc1_scratch5 b1 (k1_off2_inb L 0) (off2_0 L) _ _ rfl); iexact Hs1
    isplitl [Hs2]; · iapply (FlInV_intro m d L cc1_scratch6 b2 (k1_off1_inb L 1) (off1_1 L) _ _ rfl); iexact Hs2
    isplitl [Hb3]; · iexists _; iexact Hb3
    isplitl [Ht3]; · iexact Ht3
    isplitl [Hs3]; · iexact Hs3
    isplitl [Ht0]; · iexact Ht0
    isplitl [Ht1]; · iexact Ht1
    isplitl [Ht2]; · iexact Ht2
    isplitr; · iapply (Entails.of_eq (bigSep_range_zero (qB m d L)).symm); iempintro
    isplitl [HQ]; · iexact HQ
    isplitr; · iapply (Entails.of_eq (bigSep_range_zero (oBV m d L)).symm); iempintro
    iexact HOt
  iintro %acc HI
  ihave HI := (Entails.of_eq (InvV_exit m d L O W acc)) $$ HI
  icases HI with ⟨⟨-, %W', %hW', HO⟩, ⟨%g0, %fo0, %hf0, Ht0⟩, ⟨%g1, %fo1, %hf1, Ht1⟩, ⟨%g2, %fo2, %hf2, Ht2⟩, ⟨%g3, %fo3, %hf3, Ht3⟩, Hs0, Hs1, Hs2, Hs3, HQd, HOd⟩
  sl_exec
  sl_step
  isplitl [Hqh HQd Hoh HOd Ht0_dst Ht1_dst Ht2_dst Ht3_dst]
  · isplitl [Hqh HQd]
    · isplitl [Hqh]; · iexact Hqh
      iexact HQd
    iapply (o_joinV m d L fo)
    isplitl [Hoh]; · iexact Hoh
    iapply (Entails.of_eq (bigSep_range_push4 (oBV m d L) 44 45 46 47 48 (by omega) (by omega) (by omega) (by omega)).symm)
    isplitl [Ht3_dst]
    · iexists fo3; isplitr
      · ipureintro; exact hf3
      · iexact Ht3_dst
    isplitl [Ht2_dst]
    · iexists fo2; isplitr
      · ipureintro; exact hf2
      · iexact Ht2_dst
    isplitl [Ht1_dst]
    · iexists fo1; isplitr
      · ipureintro; exact hf1
      · iexact Ht1_dst
    isplitl [Ht0_dst]
    · iexists fo0; isplitr
      · ipureintro; exact hf0
      · iexact Ht0_dst
    iexact HOd
  isplitl [Ht0_src Ht1_src Ht2_src Ht3_src Hbufs]
  · isplitl [Ht0_src]; · iexists _; iapply (Entails.of_eq (pts_b d L cc1_scratch0 _)); iexact Ht0_src
    isplitl [Ht1_src]; · iexists _; iapply (Entails.of_eq (pts_b d L cc1_scratch1 _)); iexact Ht1_src
    isplitl [Ht2_src]; · iexists _; iapply (Entails.of_eq (pts_b d L cc1_scratch2 _)); iexact Ht2_src
    isplitl [Ht3_src]; · iexists _; iapply (Entails.of_eq (pts_b d L cc1_scratch3 _)); iexact Ht3_src
    iexact Hbufs
  isplitl [Hs0 Hs1 Hs2 Hs3 Ht0 Ht1 Ht2 Ht3 Hsems]
  · isplitl [Hs0]; · iexact Hs0
    isplitl [Hs1]; · iexact Hs1
    isplitl [Hs2]; · iexact Hs2
    isplitl [Hs3]; · iexact Hs3
    isplitl [Ht0]; · iexact Ht0
    isplitl [Ht1]; · iexact Ht1
    isplitl [Ht2]; · iexact Ht2
    isplitl [Ht3]; · iexact Ht3
    iexact Hsems
  iapply (owes_wrap d L O W ?hW) $$ HO
  case hW => repeat (first | exact hW' | refine mem_ins W ?_ _)

end BodyV2

/-! ## The obligation with the value -/

variable [FloatOps F]

/-- The body obligation of the SparseCore kernel with the value: each vector subcore's strip of the copy ends holding the
    queue's words from column 4096 on. -/
theorem tileOblV (hF : (K (F := F)).Facts) : (K (F := F)).TileObl (D (F := F)) 𝒱 (PV m) v₀ 0 := by
  intro d c i O W hO _ _
  simp only [show (PV m).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have ht : tIx (coordsV ⟨_, hc.1⟩ ⟨_, hc.2⟩) = tileIx (Fin.cast nCore_zero c) (Fin.cast nSub_zero i) := rfl
  show iprop(_ ∗ _ ∗ forTile m d (tileIx (Fin.cast nCore_zero c) (Fin.cast nSub_zero i)) ∗ _) ⊢ wp _ _ _ _ (fun _ => iprop(forTileV m d (tileIx (Fin.cast nCore_zero c) (Fin.cast nSub_zero i)) ∗ _))
  rw [← ht]
  exact (tile_bodyV m d (coordsV ⟨_, hc.1⟩ ⟨_, hc.2⟩) O W hF hO).trans (wp_mono frame _ _ fun _ => obl_post)

end Cert.Kernel.Hand

end
-- ==== Proof.Bits.Frames.lean ====
/-
  The frame of the whole program: every weakly fair execution of the device's threads terminates, nothing faulting,
  and the twenty argument arrays end unchanged — from the vector subcores' task (the ring of four buffers copying 24
  rows of the queue), the three TensorCore regions and @main's run.
-/
import proofs.«211565_g20684562498226_cont_8to1_684_24_alg».proof.Proof.Bits.MainRun2
import proofs.«211565_g20684562498226_cont_8to1_684_24_alg».proof.Proof.Bits.RegionAdapt
import proofs.«211565_g20684562498226_cont_8to1_684_24_alg».proof.Proof.Bits.ScTileV

noncomputable section

namespace Cert.Kernel.Hand

open Cert.Kernel Cert.Kernel.Gen
open Idealize.ShloMosaic Idealize.SL.Sem

variable {F : FTy → Type}

/-- The run, frame strength, at any float instance. -/
theorem frame_run [FloatOps F] [∀ e, Nonempty (Elt F e)] (m : (ℓ : Loc nD τ sig) → Buf (Elt F) ℓ) (ρ : Dev nD → PrngReg) :
    θ_run (Cert.Kernel.defs (F := F)) (Cert.Kernel.threads (F := F)) ⟨m, fun _ => 0, ρ⟩ (QC m) :=
  run_main m ρ (tileOblV m facts) regionStep0 regionStep1 regionStep2 args_not_outs0 args_not_outs1 args_not_outs2

end Cert.Kernel.Hand

end
-- ==== Proof.RefOps.lean ====
/- The reference program's @main as a list of its 316 host operations, the bodies of the functions it calls
   written out at each call over that call's buffers, cut into 57 consecutive stretches that each end at a value of
   interest (or at a value read more than once); the program equals the list run in order; hence its run: every weakly
   fair execution ends with each buffer at the fold of the operations over the launch contents, and no operation writes
   an argument. -/
import proofs.«211565_g20684562498226_cont_8to1_684_24_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the stretch's list of written buffers: the operation's `writes` is the singleton
    of its result buffer, and membership in the literal list is decided. -/
local macro "wr1" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-- The fold of two lists run one after the other is the second's fold of the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Contents moved to a typed reference's buffer type and back are the contents. -/
theorem ofBuf_toBuf {sig : RefSig} {Val : EltTy → Type} {T : BufTy} (x : TRef sig T) (v : T.Contents Val) :
    x.ofBuf (x.toBuf v) = v := by
  cases x with
  | mk r h a b => cases h; rfl

/-- Operations 0–4, ending at `main_v4` (`txt_up`). -/
abbrev w0 : List (HloOp τ sig (Elt F)) :=
  [ StableHlo.unary main_arg2 main_v0 ((transpose S768x768 [1, 0] · transposes_S768x768_S768x768_1_0) : (⟨S768x768, .f32⟩ : BufTy).Contents (Elt F) → (⟨S768x768, .f32⟩ : BufTy).Contents (Elt F)),
    StableHlo.binary main_arg0 main_v0 main_v1 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    StableHlo.unary main_arg3 main_v2 (broadcastInDim S1x768 ![1] bcast_S768_S1x768_1 : (⟨S768, .f32⟩ : BufTy).Contents (Elt F) → (⟨S1x768, .f32⟩ : BufTy).Contents (Elt F)),
    StableHlo.unary main_v2 main_v3 (broadcastInDim S4096x768 ![0, 1] bcast_S1x768_S4096x768_0_1 : (⟨S1x768, .f32⟩ : BufTy).Contents (Elt F) → (⟨S4096x768, .f32⟩ : BufTy).Contents (Elt F)),
    StableHlo.binary main_v1 main_v3 main_v4 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w0_W : List (Ref sig .tc) := [main_v0, main_v1, main_v2, main_v3, main_v4]
theorem w0_sub : (w0 : List (HloOp τ sig (Elt F))).Forall fun op => op.bufs ⊆ tcRefs τ sig :=
  ⟨unary_bufs_sub .., binary_bufs_sub .., unary_bufs_sub .., unary_bufs_sub .., binary_bufs_sub ..⟩
theorem w0_fresh : (w0 : List (HloOp τ sig (Elt F))).Forall fun op => op.fresh = ∅ :=
  ⟨rfl, rfl, rfl, rfl, rfl⟩
theorem w0_writes : (w0 : List (HloOp τ sig (Elt F))).Forall fun op => op.writes ⊆ (w0_W.map (Proc.devRef (τ := τ) .tc)).toFinset := by
  simp only [List.Forall]; exact ⟨by wr1, by wr1, by wr1, by wr1, by wr1⟩

/-- Operations 5–9, ending at `main_v9` (`gph_up`). -/
abbrev w1 : List (HloOp τ sig (Elt F)) :=
  [ StableHlo.unary main_arg4 main_v5 ((transpose S768x768 [1, 0] · transposes_S768x768_S768x768_1_0) : (⟨S768x768, .f32⟩ : BufTy).Contents (Elt F) → (⟨S768x768, .f32⟩ : BufTy).Contents (Elt F)),
    StableHlo.binary main_arg1 main_v5 main_v6 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    StableHlo.unary main_arg5 main_v7 (broadcastInDim S1x768 ![1] bcast_S768_S1x768_1 : (⟨S768, .f32⟩ : BufTy).Contents (Elt F) → (⟨S1x768, .f32⟩ : BufTy).Contents (Elt F)),
    StableHlo.unary main_v7 main_v8 (broadcastInDim S4096x768 ![0, 1] bcast_S1x768_S4096x768_0_1 : (⟨S1x768, .f32⟩ : BufTy).Contents (Elt F) → (⟨S4096x768, .f32⟩ : BufTy).Contents (Elt F)),
    StableHlo.binary main_v6 main_v8 main_v9 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w1_W : List (Ref sig .tc) := [main_v5, main_v6, main_v7, main_v8, main_v9]
theorem w1_sub : (w1 : List (HloOp τ sig (Elt F))).Forall fun op => op.bufs ⊆ tcRefs τ sig :=
  ⟨unary_bufs_sub .., binary_bufs_sub .., unary_bufs_sub .., unary_bufs_sub .., binary_bufs_sub ..⟩
theorem w1_fresh : (w1 : List (HloOp τ sig (Elt F))).Forall fun op => op.fresh = ∅ :=
  ⟨rfl, rfl, rfl, rfl, rfl⟩
theorem w1_writes : (w1 : List (HloOp τ sig (Elt F))).Forall fun op => op.writes ⊆ (w1_W.map (Proc.devRef (τ := τ) .tc)).toFinset := by
  simp only [List.Forall]; exact ⟨by wr1, by wr1, by wr1, by wr1, by wr1⟩

/-- Operations 10–20, ending at `main_v20` (`q1`). -/
abbrev w2 : List (HloOp τ sig (Elt F)) :=
  [ StableHlo.unary main_arg6 main_v10 ((extractStridedSlice S768x768 ![0, 0] · slices_S2304x768_S768x768_0_0) : (⟨S2304x768, .f32⟩ : BufTy).Contents (Elt F) → (⟨S768x768, .f32⟩ : BufTy).Contents (Elt F)),
    StableHlo.unary main_arg6 main_v11 ((extractStridedSlice S768x768 ![768, 0] · slices_S2304x768_S768x768_768_0) : (⟨S2304x768, .f32⟩ : BufTy).Contents (Elt F) → (⟨S768x768, .f32⟩ : BufTy).Contents (Elt F)),
    StableHlo.unary main_arg6 main_v12 ((extractStridedSlice S768x768 ![1536, 0] · slices_S2304x768_S768x768_1536_0) : (⟨S2304x768, .f32⟩ : BufTy).Contents (Elt F) → (⟨S768x768, .f32⟩ : BufTy).Contents (Elt F)),
    StableHlo.unary main_arg7 main_v13 ((extractStridedSlice S768 ![0] · slices_S2304_S768_0) : (⟨S2304, .f32⟩ : BufTy).Contents (Elt F) → (⟨S768, .f32⟩ : BufTy).Contents (Elt F)),
    StableHlo.unary main_arg7 main_v14 ((extractStridedSlice S768 ![768] · slices_S2304_S768_768) : (⟨S2304, .f32⟩ : BufTy).Contents (Elt F) → (⟨S768, .f32⟩ : BufTy).Contents (Elt F)),
    StableHlo.unary main_arg7 main_v15 ((extractStridedSlice S768 ![1536] · slices_S2304_S768_1536) : (⟨S2304, .f32⟩ : BufTy).Contents (Elt F) → (⟨S768, .f32⟩ : BufTy).Contents (Elt F)),
    StableHlo.unary main_v10 main_v16 ((transpose S768x768 [1, 0] · transposes_S768x768_S768x768_1_0) : (⟨S768x768, .f32⟩ : BufTy).Contents (Elt F) → (⟨S768x768, .f32⟩ : BufTy).Contents (Elt F)),
    StableHlo.binary main_v4 main_v16 main_v17 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    StableHlo.unary main_v13 main_v18 (broadcastInDim S1x768 ![1] bcast_S768_S1x768_1 : (⟨S768, .f32⟩ : BufTy).Contents (Elt F) → (⟨S1x768, .f32⟩ : BufTy).Contents (Elt F)),
    StableHlo.unary main_v18 main_v19 (broadcastInDim S4096x768 ![0, 1] bcast_S1x768_S4096x768_0_1 : (⟨S1x768, .f32⟩ : BufTy).Contents (Elt F) → (⟨S4096x768, .f32⟩ : BufTy).Contents (Elt F)),
    StableHlo.binary main_v17 main_v19 main_v20 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w2_W : List (Ref sig .tc) := [main_v10, main_v11, main_v12, main_v13, main_v14, main_v15, main_v16, main_v17, main_v18, main_v19, main_v20]
theorem w2_sub : (w2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., binary_bufs_sub .., unary_bufs_sub .., unary_bufs_sub .., binary_bufs_sub ..⟩
theorem w2_fresh : (w2 : List (HloOp τ sig (Elt F))).Forall fun op => op.fresh = ∅ :=
  ⟨rfl, rfl, rfl, rfl, rfl, rfl, rfl, rfl, rfl, rfl, rfl⟩
theorem w2_writes : (w2 : List (HloOp τ sig (Elt F))).Forall fun op => op.writes ⊆ (w2_W.map (Proc.devRef (τ := τ) .tc)).toFinset := by
  simp only [List.Forall]; exact ⟨by wr1, by wr1, by wr1, by wr1, by wr1, by wr1, by wr1, by wr1, by wr1, by wr1, by wr1⟩

/-- Operations 21–25, ending at `main_v25` (`k1`). -/
abbrev w3 : List (HloOp τ sig (Elt F)) :=
  [ StableHlo.unary main_v11 main_v21 ((transpose S768x768 [1, 0] · transposes_S768x768_S768x768_1_0) : (⟨S768x768, .f32⟩ : BufTy).Contents (Elt F) → (⟨S768x768, .f32⟩ : BufTy).Contents (Elt F)),
    StableHlo.binary main_v9 main_v21 main_v22 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    StableHlo.unary main_v14 main_v23 (broadcastInDim S1x768 ![1] bcast_S768_S1x768_1 : (⟨S768, .f32⟩ : BufTy).Contents (Elt F) → (⟨S1x768, .f32⟩ : BufTy).Contents (Elt F)),
    StableHlo.unary main_v23 main_v24 (broadcastInDim S4096x768 ![0, 1] bcast_S1x768_S4096x768_0_1 : (⟨S1x768, .f32⟩ : BufTy).Contents (Elt F) → (⟨S4096x768, .f32⟩ : BufTy).Contents (Elt F)),
    StableHlo.binary main_v22 main_v24 main_v25 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w3_W : List (Ref sig .tc) := [main_v21, main_v22, main_v23, main_v24, main_v25]
theorem w3_sub : (w3 : List (HloOp τ sig (Elt F))).Forall fun op => op.bufs ⊆ tcRefs τ sig :=
  ⟨unary_bufs_sub .., binary_bufs_sub .., unary_bufs_sub .., unary_bufs_sub .., binary_bufs_sub ..⟩
theorem w3_fresh : (w3 : List (HloOp τ sig (Elt F))).Forall fun op => op.fresh = ∅ :=
  ⟨rfl, rfl, rfl, rfl, rfl⟩
theorem w3_writes : (w3 : List (HloOp τ sig (Elt F))).Forall fun op => op.writes ⊆ (w3_W.map (Proc.devRef (τ := τ) .tc)).toFinset := by
  simp only [List.Forall]; exact ⟨by wr1, by wr1, by wr1, by wr1, by wr1⟩

/-- Operations 26–30, ending at `main_v30` (`vv1`). -/
abbrev w4 : List (HloOp τ sig (Elt F)) :=
  [ StableHlo.unary main_v12 main_v26 ((transpose S768x768 [1, 0] · transposes_S768x768_S768x768_1_0) : (⟨S768x768, .f32⟩ : BufTy).Contents (Elt F) → (⟨S768x768, .f32⟩ : BufTy).Contents (Elt F)),
    StableHlo.binary main_v9 main_v26 main_v27 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    StableHlo.unary main_v15 main_v28 (broadcastInDim S1x768 ![1] bcast_S768_S1x768_1 : (⟨S768, .f32⟩ : BufTy).Contents (Elt F) → (⟨S1x768, .f32⟩ : BufTy).Contents (Elt F)),
    StableHlo.unary main_v28 main_v29 (broadcastInDim S4096x768 ![0, 1] bcast_S1x768_S4096x768_0_1 : (⟨S1x768, .f32⟩ : BufTy).Contents (Elt F) → (⟨S4096x768, .f32⟩ : BufTy).Contents (Elt F)),
    StableHlo.binary main_v27 main_v29 main_v30 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w4_W : List (Ref sig .tc) := [main_v26, main_v27, main_v28, main_v29, main_v30]
theorem w4_sub : (w4 : List (HloOp τ sig (Elt F))).Forall fun op => op.bufs ⊆ tcRefs τ sig :=
  ⟨unary_bufs_sub .., binary_bufs_sub .., unary_bufs_sub .., unary_bufs_sub .., binary_bufs_sub ..⟩
theorem w4_fresh : (w4 : List (HloOp τ sig (Elt F))).Forall fun op => op.fresh = ∅ :=
  ⟨rfl, rfl, rfl, rfl, rfl⟩
theorem w4_writes : (w4 : List (HloOp τ sig (Elt F))).Forall fun op => op.writes ⊆ (w4_W.map (Proc.devRef (τ := τ) .tc)).toFinset := by
  simp only [List.Forall]; exact ⟨by wr1, by wr1, by wr1, by wr1, by wr1⟩

/-- Operations 31–36, ending at `main_v35` (`dots1`). -/
abbrev w5 : List (HloOp τ sig (Elt F)) :=
  [ StableHlo.reshape main_v20 main_v31 rfl shapeCasts_S4096x768_S4096x8x96,
    StableHlo.reshape main_v25 main_v32 rfl shapeCasts_S4096x768_S4096x8x96,
    StableHlo.reshape main_v30 main_v33 rfl shapeCasts_S4096x768_S4096x8x96,
    StableHlo.binary main_v31 main_v32 main_v34 (mulf : (⟨S4096x8x96, .f32⟩ : BufTy).Contents (Elt F) → (⟨S4096x8x96, .f32⟩ : BufTy).Contents (Elt F) → (⟨S4096x8x96, .f32⟩ : BufTy).Contents (Elt F)),
    StableHlo.nullary main_cst (constant S_ .f32 0x00000000#32),
    StableHlo.binary main_v34 main_cst main_v35 ((fun x v => Host.reduceAdd x v reducesTo_S4096x8x96_S4096x8_d2 h_S_) : (⟨S4096x8x96, .f32⟩ : BufTy).Contents (Elt F) → (⟨S_, .f32⟩ : BufTy).Contents (Elt F) → (⟨S4096x8, .f32⟩ : BufTy).Contents (Elt F)) ]
/-- The buffers those operations write. -/
abbrev w5_W : List (Ref sig .tc) := [main_v31, main_v32, main_v33, main_v34, main_cst, main_v35]
theorem w5_sub : (w5 : List (HloOp τ sig (Elt F))).Forall fun op => op.bufs ⊆ tcRefs τ sig :=
  ⟨reshape_bufs_sub .., reshape_bufs_sub .., reshape_bufs_sub .., binary_bufs_sub .., nullary_bufs_sub .., binary_bufs_sub ..⟩
theorem w5_fresh : (w5 : List (HloOp τ sig (Elt F))).Forall fun op => op.fresh = ∅ :=
  ⟨rfl, rfl, rfl, rfl, rfl, rfl⟩
theorem w5_writes : (w5 : List (HloOp τ sig (Elt F))).Forall fun op => op.writes ⊆ (w5_W.map (Proc.devRef (τ := τ) .tc)).toFinset := by
  simp only [List.Forall]; exact ⟨by wr1, by wr1, by wr1, by wr1, by wr1, by wr1⟩

/-- Operations 37–40, ending at `main_v38` (`sc1`). -/
abbrev w6 : List (HloOp τ sig (Elt F)) :=
  [ StableHlo.unary main_v35 main_v36 (broadcastInDim S4096x8x1 ![0, 1] bcast_S4096x8_S4096x8x1_0_1 : (⟨S4096x8, .f32⟩ : BufTy).Contents (Elt F) → (⟨S4096x8x1, .f32⟩ : BufTy).Contents (Elt F)),
    StableHlo.nullary main_cst_0 (constant S_ .f32 0x411CC471#32),
    StableHlo.unary main_cst_0 main_v37 (broadcastInDim S4096x8x1 ![] bcast_S_S4096x8x1 : (⟨S_, .f32⟩ : BufTy).Contents (Elt F) → (⟨S4096x8x1, .f32⟩ : BufTy).Contents (Elt F)),
    StableHlo.binary main_v36 main_v37 main_v38 (Host.divf : (⟨S4096x8x1, .f32⟩ : BufTy).Contents (Elt F) → (⟨S4096x8x1, .f32⟩ : BufTy).Contents (Elt F) → (⟨S4096x8x1, .f32⟩ : BufTy).Contents (Elt F)) ]
/-- The buffers those operations write. -/
abbrev w6_W : List (Ref sig .tc) := [main_v36, main_cst_0, main_v37, main_v38]
theorem w6_sub : (w6 : List (HloOp τ sig (Elt F))).Forall fun op => op.bufs ⊆ tcRefs τ sig :=
  ⟨unary_bufs_sub .., nullary_bufs_sub .., unary_bufs_sub .., binary_bufs_sub ..⟩
theorem w6_fresh : (w6 : List (HloOp τ sig (Elt F))).Forall fun op => op.fresh = ∅ :=
  ⟨rfl, rfl, rfl, rfl⟩
theorem w6_writes : (w6 : List (HloOp τ sig (Elt F))).Forall fun op => op.writes ⊆ (w6_W.map (Proc.devRef (τ := τ) .tc)).toFinset := by
  simp only [List.Forall]; exact ⟨by wr1, by wr1, by wr1, by wr1⟩

/-- Operations 41–48, ending at `main_v44` (`ex1`). -/
abbrev w7 : List (HloOp τ sig (Elt F)) :=
  [ StableHlo.nullary main_cst_1 (constant S_ .f32 0xFF800000#32),
    StableHlo.binary main_v38 main_cst_1 main_v39 ((fun x v => Host.reduce FloatOps.maximumf x v reducesTo_S4096x8x1_S4096x8_d2 h_S_) : (⟨S4096x8x1, .f32⟩ : BufTy).Contents (Elt F) → (⟨S_, .f32⟩ : BufTy).Contents (Elt F) → (⟨S4096x8, .f32⟩ : BufTy).Contents (Elt F)),
    StableHlo.nullary main_cst_2 (constant S_ .f32 0xFF800000#32),
    StableHlo.unary main_cst_2 main_v40 (broadcastInDim S4096x8 ![] bcast_S_S4096x8 : (⟨S_, .f32⟩ : BufTy).Contents (Elt F) → (⟨S4096x8, .f32⟩ : BufTy).Contents (Elt F)),
    StableHlo.binary main_v40 main_v39 main_v41 (maximumf : (⟨S4096x8, .f32⟩ : BufTy).Contents (Elt F) → (⟨S4096x8, .f32⟩ : BufTy).Contents (Elt F) → (⟨S4096x8, .f32⟩ : BufTy).Contents (Elt F)),
    StableHlo.unary main_v41 main_v42 (broadcastInDim S4096x8x1 ![0, 1] bcast_S4096x8_S4096x8x1_0_1 : (⟨S4096x8, .f32⟩ : BufTy).Contents (Elt F) → (⟨S4096x8x1, .f32⟩ : BufTy).Contents (Elt F)),
    StableHlo.binary main_v38 main_v42 main_v43 (subf : (⟨S4096x8x1, .f32⟩ : BufTy).Contents (Elt F) → (⟨S4096x8x1, .f32⟩ : BufTy).Contents (Elt F) → (⟨S4096x8x1, .f32⟩ : BufTy).Contents (Elt F)),
    StableHlo.unary main_v43 main_v44 (Host.exp : (⟨S4096x8x1, .f32⟩ : BufTy).Contents (Elt F) → (⟨S4096x8x1, .f32⟩ : BufTy).Contents (Elt F)) ]
/-- The buffers those operations write. -/
abbrev w7_W : List (Ref sig .tc) := [main_cst_1, main_v39, main_cst_2, main_v40, main_v41, main_v42, main_v43, main_v44]
theorem w7_sub : (w7 : List (HloOp τ sig (Elt F))).Forall fun op => op.bufs ⊆ tcRefs τ sig :=
  ⟨nullary_bufs_sub .., binary_bufs_sub .., nullary_bufs_sub .., unary_bufs_sub .., binary_bufs_sub .., unary_bufs_sub .., binary_bufs_sub .., unary_bufs_sub ..⟩
theorem w7_fresh : (w7 : List (HloOp τ sig (Elt F))).Forall fun op => op.fresh = ∅ :=
  ⟨rfl, rfl, rfl, rfl, rfl, rfl, rfl, rfl⟩
theorem w7_writes : (w7 : List (HloOp τ sig (Elt F))).Forall fun op => op.writes ⊆ (w7_W.map (Proc.devRef (τ := τ) .tc)).toFinset := by
  simp only [List.Forall]; exact ⟨by wr1, by wr1, by wr1, by wr1, by wr1, by wr1, by wr1, by wr1⟩

/-- Operations 49–52, ending at `main_v47` (`p1`). -/
abbrev w8 : List (HloOp τ sig (Elt F)) :=
  [ StableHlo.nullary main_cst_3 (constant S_ .f32 0x00000000#32),
    StableHlo.binary main_v44 main_cst_3 main_v45 ((fun x v => Host.reduceAdd x v reducesTo_S4096x8x1_S4096x8_d2 h_S_) : (⟨S4096x8x1, .f32⟩ : BufTy).Contents (Elt F) → (⟨S_, .f32⟩ : BufTy).Contents (Elt F) → (⟨S4096x8, .f32⟩ : BufTy).Contents (Elt F)),
    StableHlo.unary main_v45 main_v46 (broadcastInDim S4096x8x1 ![0, 1] bcast_S4096x8_S4096x8x1_0_1 : (⟨S4096x8, .f32⟩ : BufTy).Contents (Elt F) → (⟨S4096x8x1, .f32⟩ : BufTy).Contents (Elt F)),
    StableHlo.binary main_v44 main_v46 main_v47 (Host.divf : (⟨S4096x8x1, .f32⟩ : BufTy).Contents (Elt F) → (⟨S4096x8x1, .f32⟩ : BufTy).Contents (Elt F) → (⟨S4096x8x1, .f32⟩ : BufTy).Contents (Elt F)) ]
/-- The buffers those operations write. -/
abbrev w8_W : List (Ref sig .tc) := [main_cst_3, main_v45, main_v46, main_v47]
theorem w8_sub : (w8 : List (HloOp τ sig (Elt F))).Forall fun op => op.bufs ⊆ tcRefs τ sig :=
  ⟨nullary_bufs_sub .., binary_bufs_sub .., unary_bufs_sub .., binary_bufs_sub ..⟩
theorem w8_fresh : (w8 : List (HloOp τ sig (Elt F))).Forall fun op => op.fresh = ∅ :=
  ⟨rfl, rfl, rfl, rfl⟩
theorem w8_writes : (w8 : List (HloOp τ sig (Elt F))).Forall fun op => op.writes ⊆ (w8_W.map (Proc.devRef (τ := τ) .tc)).toFinset := by
  simp only [List.Forall]; exact ⟨by wr1, by wr1, by wr1, by wr1⟩

/-- Operations 53–55, ending at `main_v50` (`attn1`). -/
abbrev w9 : List (HloOp τ sig (Elt F)) :=
  [ StableHlo.unary main_v47 main_v48 (broadcastInDim S4096x8x96 ![0, 1, 2] bcast_S4096x8x1_S4096x8x96_0_1_2 : (⟨S4096x8x1, .f32⟩ : BufTy).Contents (Elt F) → (⟨S4096x8x96, .f32⟩ : BufTy).Contents (Elt F)),
    StableHlo.binary main_v48 main_v33 main_v49 (mulf : (⟨S4096x8x96, .f32⟩ : BufTy).Contents (Elt F) → (⟨S4096x8x96, .f32⟩ : BufTy).Contents (Elt F) → (⟨S4096x8x96, .f32⟩ : BufTy).Contents (Elt F)),
    StableHlo.reshape main_v49 main_v50 rfl shapeCasts_S4096x8x96_S4096x768 ]
/-- The buffers those operations write. -/
abbrev w9_W : List (Ref sig .tc) := [main_v48, main_v49, main_v50]
theorem w9_sub : (w9 : List (HloOp τ sig (Elt F))).Forall fun op => op.bufs ⊆ tcRefs τ sig :=
  ⟨unary_bufs_sub .., binary_bufs_sub .., reshape_bufs_sub ..⟩
theorem w9_fresh : (w9 : List (HloOp τ sig (Elt F))).Forall fun op => op.fresh = ∅ :=
  ⟨rfl, rfl, rfl⟩
theorem w9_writes : (w9 : List (HloOp τ sig (Elt F))).Forall fun op => op.writes ⊆ (w9_W.map (Proc.devRef (τ := τ) .tc)).toFinset := by
  simp only [List.Forall]; exact ⟨by wr1, by wr1, by wr1⟩

/-- Operations 56–59, ending at `main_v54` (`t_v54`). -/
abbrev w10 : List (HloOp τ sig (Elt F)) :=
  [ StableHlo.unary main_arg8 main_v51 ((transpose S768x768 [1, 0] · transposes_S768x768_S768x768_1_0) : (⟨S768x768, .f32⟩ : BufTy).Contents (Elt F) → (⟨S768x768, .f32⟩ : BufTy).Contents (Elt F)),
    StableHlo.binary main_v50 main_v51 main_v52 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    StableHlo.unary main_arg9 main_v53 (broadcastInDim S1x768 ![1] bcast_S768_S1x768_1 : (⟨S768, .f32⟩ : BufTy).Contents (Elt F) → (⟨S1x768, .f32⟩ : BufTy).Contents (Elt F)),
    StableHlo.unary main_v53 main_v54 (broadcastInDim S4096x768 ![0, 1] bcast_S1x768_S4096x768_0_1 : (⟨S1x768, .f32⟩ : BufTy).Contents (Elt F) → (⟨S4096x768, .f32⟩ : BufTy).Contents (Elt F)) ]
/-- The buffers those operations write. -/
abbrev w10_W : List (Ref sig .tc) := [main_v51, main_v52, main_v53, main_v54]
theorem w10_sub : (w10 : List (HloOp τ sig (Elt F))).Forall fun op => op.bufs ⊆ tcRefs τ sig :=
  ⟨unary_bufs_sub .., binary_bufs_sub .., unary_bufs_sub .., unary_bufs_sub ..⟩
theorem w10_fresh : (w10 : List (HloOp τ sig (Elt F))).Forall fun op => op.fresh = ∅ :=
  ⟨rfl, rfl, rfl, rfl⟩
theorem w10_writes : (w10 : List (HloOp τ sig (Elt F))).Forall fun op => op.writes ⊆ (w10_W.map (Proc.devRef (τ := τ) .tc)).toFinset := by
  simp only [List.Forall]; exact ⟨by wr1, by wr1, by wr1, by wr1⟩

/-- Operations 60–60, ending at `main_v55` (`o1`). -/
abbrev w11 : List (HloOp τ sig (Elt F)) :=
  [ StableHlo.binary main_v52 main_v54 main_v55 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w11_W : List (Ref sig .tc) := [main_v55]
theorem w11_sub : (w11 : List (HloOp τ sig (Elt F))).Forall fun op => op.bufs ⊆ tcRefs τ sig :=
  binary_bufs_sub ..
theorem w11_fresh : (w11 : List (HloOp τ sig (Elt F))).Forall fun op => op.fresh = ∅ :=
  rfl
theorem w11_writes : (w11 : List (HloOp τ sig (Elt F))).Forall fun op => op.writes ⊆ (w11_W.map (Proc.devRef (τ := τ) .tc)).toFinset := by
  simp only [List.Forall]; exact (by wr1)

/-- Operations 61–66, ending at `main_v59` (`mu1`). -/
abbrev w12 : List (HloOp τ sig (Elt F)) :=
  [ StableHlo.nullary main_cst_4 (constant S_ .f32 0x00000000#32),
    StableHlo.binary main_v55 main_cst_4 main_v56 ((fun x v => Host.reduceAdd x v reducesTo_S4096x768_S4096_d1 h_S_) : (⟨S4096x768, .f32⟩ : BufTy).Contents (Elt F) → (⟨S_, .f32⟩ : BufTy).Contents (Elt F) → (⟨S4096, .f32⟩ : BufTy).Contents (Elt F)),
    StableHlo.unary main_v56 main_v57 (broadcastInDim S4096x1 ![0] bcast_S4096_S4096x1_0 : (⟨S4096, .f32⟩ : BufTy).Contents (Elt F) → (⟨S4096x1, .f32⟩ : BufTy).Contents (Elt F)),
    StableHlo.nullary main_cst_5 (constant S_ .f32 0x44400000#32),
    StableHlo.unary main_cst_5 main_v58 (broadcastInDim S4096x1 ![] bcast_S_S4096x1 : (⟨S_, .f32⟩ : BufTy).Contents (Elt F) → (⟨S4096x1, .f32⟩ : BufTy).Contents (Elt F)),
    StableHlo.binary main_v57 main_v58 main_v59 (Host.divf : (⟨S4096x1, .f32⟩ : BufTy).Contents (Elt F) → (⟨S4096x1, .f32⟩ : BufTy).Contents (Elt F) → (⟨S4096x1, .f32⟩ : BufTy).Contents (Elt F)) ]
/-- The buffers those operations write. -/
abbrev w12_W : List (Ref sig .tc) := [main_cst_4, main_v56, main_v57, main_cst_5, main_v58, main_v59]
theorem w12_sub : (w12 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem w12_fresh : (w12 : List (HloOp τ sig (Elt F))).Forall fun op => op.fresh = ∅ :=
  ⟨rfl, rfl, rfl, rfl, rfl, rfl⟩
theorem w12_writes : (w12 : List (HloOp τ sig (Elt F))).Forall fun op => op.writes ⊆ (w12_W.map (Proc.devRef (τ := τ) .tc)).toFinset := by
  simp only [List.Forall]; exact ⟨by wr1, by wr1, by wr1, by wr1, by wr1, by wr1⟩

/-- Operations 67–75, ending at `main_call0_v5` (`t_call0_v5`). -/
abbrev w13 : List (HloOp τ sig (Elt F)) :=
  [ StableHlo.nullary main_c (constantI S_ 32 0#32),
    StableHlo.TRef.nullary main_call0.cst (constant S_ .f32 0x00000000#32),
    StableHlo.TRef.binary (.of main_v55 : StableHlo.TRef sig ⟨S4096x768, .f32⟩) main_call0.cst main_call0.v0 (fun x v => Host.reduceAdd x v reducesTo_S4096x768_S4096_d1 h_S_),
    StableHlo.TRef.unary main_call0.v0 main_call0.v1 (broadcastInDim S4096x1 ![0] bcast_S4096_S4096x1_0),
    StableHlo.TRef.nullary main_call0.cst_0 (constant S_ .f32 0x44400000#32),
    StableHlo.TRef.unary main_call0.cst_0 main_call0.v2 (broadcastInDim S4096x1 ![] bcast_S_S4096x1),
    StableHlo.TRef.binary main_call0.v1 main_call0.v2 main_call0.v3 Host.divf,
    StableHlo.TRef.unary main_call0.v3 main_call0.v4 (broadcastInDim S4096x768 ![0, 1] bcast_S4096x1_S4096x768_0_1),
    StableHlo.TRef.binary (.of main_v55 : StableHlo.TRef sig ⟨S4096x768, .f32⟩) main_call0.v4 main_call0.v5 subf ]
/-- The buffers those operations write. -/
abbrev w13_W : List (Ref sig .tc) := [main_c, main_call0_cst, main_call0_v0, main_call0_v1, main_call0_cst_0, main_call0_v2, main_call0_v3, main_call0_v4, main_call0_v5]
theorem w13_sub : (w13 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub ..⟩
theorem w13_fresh : (w13 : List (HloOp τ sig (Elt F))).Forall fun op => op.fresh = ∅ :=
  ⟨rfl, rfl, rfl, rfl, rfl, rfl, rfl, rfl, rfl⟩
theorem w13_writes : (w13 : List (HloOp τ sig (Elt F))).Forall fun op => op.writes ⊆ (w13_W.map (Proc.devRef (τ := τ) .tc)).toFinset := by
  simp only [List.Forall]; exact ⟨by wr1, by wr1, by wr1, by wr1, by wr1, by wr1, by wr1, by wr1, by wr1⟩

/-- Operations 76–79, ending at `main_call0_v8` (`t_call0_v8`). -/
abbrev w14 : List (HloOp τ sig (Elt F)) :=
  [ StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x44400000#32),
    StableHlo.TRef.binary main_call0.cst_1 main_call0.v7 main_call0.v8 subf ]
/-- The buffers those operations write. -/
abbrev w14_W : List (Ref sig .tc) := [main_call0_v6, main_call0_v7, main_call0_cst_1, main_call0_v8]
theorem w14_sub : (w14 : List (HloOp τ sig (Elt F))).Forall fun op => op.bufs ⊆ tcRefs τ sig :=
  ⟨binary_bufs_sub .., unary_bufs_sub .., nullary_bufs_sub .., binary_bufs_sub ..⟩
theorem w14_fresh : (w14 : List (HloOp τ sig (Elt F))).Forall fun op => op.fresh = ∅ :=
  ⟨rfl, rfl, rfl, rfl⟩
theorem w14_writes : (w14 : List (HloOp τ sig (Elt F))).Forall fun op => op.writes ⊆ (w14_W.map (Proc.devRef (τ := τ) .tc)).toFinset := by
  simp only [List.Forall]; exact ⟨by wr1, by wr1, by wr1, by wr1⟩

/-- Operations 80–90, ending at `main_v60` (`var1`). -/
abbrev w15 : List (HloOp τ sig (Elt F)) :=
  [ StableHlo.TRef.nullary main_call0.cst_2 (constant S_ .f32 0x00000000#32),
    StableHlo.TRef.binary main_call0.v6 main_call0.cst_2 main_call0.v9 (fun x v => Host.reduceAdd x v reducesTo_S4096x768_S4096_d1 h_S_),
    StableHlo.TRef.unary main_call0.v9 main_call0.v10 (broadcastInDim S4096x1 ![0] bcast_S4096_S4096x1_0),
    StableHlo.TRef.unary main_call0.v8 main_call0.v11 (broadcastInDim S4096x1 ![] bcast_S_S4096x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4096x1 ![] bcast_S_S4096x1),
    StableHlo.TRef.ternary main_call0.v13 main_call0.v12 main_call0.call0.v1 main_call0.call0.v2 (fun p a b => select (broadcastInDim S4096x1 ![] bcast_S_S4096x1 p) a b) ]
/-- The buffers those operations write. -/
abbrev w15_W : List (Ref sig .tc) := [main_call0_cst_2, main_call0_v9, main_call0_v10, main_call0_v11, main_call0_v12, main_call0_cst_3, main_call0_v13, main_call0_cst_4, main_call0_call0_v0, main_call0_call0_v1, main_v60]
theorem w15_sub : (w15 : List (HloOp τ sig (Elt F))).Forall fun op => op.bufs ⊆ tcRefs τ sig :=
  ⟨nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w15_fresh : (w15 : List (HloOp τ sig (Elt F))).Forall fun op => op.fresh = ∅ :=
  ⟨rfl, rfl, rfl, rfl, rfl, rfl, rfl, rfl, rfl, rfl, rfl⟩
theorem w15_writes : (w15 : List (HloOp τ sig (Elt F))).Forall fun op => op.writes ⊆ (w15_W.map (Proc.devRef (τ := τ) .tc)).toFinset := by
  simp only [List.Forall]; exact ⟨by wr1, by wr1, by wr1, by wr1, by wr1, by wr1, by wr1, by wr1, by wr1, by wr1, by wr1⟩

/-- Operations 91–98, ending at `main_v67` (`o1c`). -/
abbrev w16 : List (HloOp τ sig (Elt F)) :=
  [ StableHlo.unary main_v59 main_v61 (broadcastInDim S4096x768 ![0, 1] bcast_S4096x1_S4096x768_0_1 : (⟨S4096x1, .f32⟩ : BufTy).Contents (Elt F) → (⟨S4096x768, .f32⟩ : BufTy).Contents (Elt F)),
    StableHlo.binary main_v55 main_v61 main_v62 (subf : (⟨S4096x768, .f32⟩ : BufTy).Contents (Elt F) → (⟨S4096x768, .f32⟩ : BufTy).Contents (Elt F) → (⟨S4096x768, .f32⟩ : BufTy).Contents (Elt F)),
    StableHlo.nullary main_cst_6 (constant S_ .f32 0x3727C5AC#32),
    StableHlo.unary main_cst_6 main_v63 (broadcastInDim S4096x1 ![] bcast_S_S4096x1 : (⟨S_, .f32⟩ : BufTy).Contents (Elt F) → (⟨S4096x1, .f32⟩ : BufTy).Contents (Elt F)),
    StableHlo.binary main_v60 main_v63 main_v64 (addf : (⟨S4096x1, .f32⟩ : BufTy).Contents (Elt F) → (⟨S4096x1, .f32⟩ : BufTy).Contents (Elt F) → (⟨S4096x1, .f32⟩ : BufTy).Contents (Elt F)),
    StableHlo.unary main_v64 main_v65 (Host.sqrt : (⟨S4096x1, .f32⟩ : BufTy).Contents (Elt F) → (⟨S4096x1, .f32⟩ : BufTy).Contents (Elt F)),
    StableHlo.unary main_v65 main_v66 (broadcastInDim S4096x768 ![0, 1] bcast_S4096x1_S4096x768_0_1 : (⟨S4096x1, .f32⟩ : BufTy).Contents (Elt F) → (⟨S4096x768, .f32⟩ : BufTy).Contents (Elt F)),
    StableHlo.binary main_v62 main_v66 main_v67 (Host.divf : (⟨S4096x768, .f32⟩ : BufTy).Contents (Elt F) → (⟨S4096x768, .f32⟩ : BufTy).Contents (Elt F) → (⟨S4096x768, .f32⟩ : BufTy).Contents (Elt F)) ]
/-- The buffers those operations write. -/
abbrev w16_W : List (Ref sig .tc) := [main_v61, main_v62, main_cst_6, main_v63, main_v64, main_v65, main_v66, main_v67]
theorem w16_sub : (w16 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩
theorem w16_fresh : (w16 : List (HloOp τ sig (Elt F))).Forall fun op => op.fresh = ∅ :=
  ⟨rfl, rfl, rfl, rfl, rfl, rfl, rfl, rfl⟩
theorem w16_writes : (w16 : List (HloOp τ sig (Elt F))).Forall fun op => op.writes ⊆ (w16_W.map (Proc.devRef (τ := τ) .tc)).toFinset := by
  simp only [List.Forall]; exact ⟨by wr1, by wr1, by wr1, by wr1, by wr1, by wr1, by wr1, by wr1⟩

/-- Operations 99–104, ending at `main_v73` (`o1n`). -/
abbrev w17 : List (HloOp τ sig (Elt F)) :=
  [ StableHlo.unary main_arg12 main_v68 (broadcastInDim S1x768 ![1] bcast_S768_S1x768_1 : (⟨S768, .f32⟩ : BufTy).Contents (Elt F) → (⟨S1x768, .f32⟩ : BufTy).Contents (Elt F)),
    StableHlo.unary main_v68 main_v69 (broadcastInDim S4096x768 ![0, 1] bcast_S1x768_S4096x768_0_1 : (⟨S1x768, .f32⟩ : BufTy).Contents (Elt F) → (⟨S4096x768, .f32⟩ : BufTy).Contents (Elt F)),
    StableHlo.binary main_v67 main_v69 main_v70 (mulf : (⟨S4096x768, .f32⟩ : BufTy).Contents (Elt F) → (⟨S4096x768, .f32⟩ : BufTy).Contents (Elt F) → (⟨S4096x768, .f32⟩ : BufTy).Contents (Elt F)),
    StableHlo.unary main_arg13 main_v71 (broadcastInDim S1x768 ![1] bcast_S768_S1x768_1 : (⟨S768, .f32⟩ : BufTy).Contents (Elt F) → (⟨S1x768, .f32⟩ : BufTy).Contents (Elt F)),
    StableHlo.unary main_v71 main_v72 (broadcastInDim S4096x768 ![0, 1] bcast_S1x768_S4096x768_0_1 : (⟨S1x768, .f32⟩ : BufTy).Contents (Elt F) → (⟨S4096x768, .f32⟩ : BufTy).Contents (Elt F)),
    StableHlo.binary main_v70 main_v72 main_v73 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w17_W : List (Ref sig .tc) := [main_v68, main_v69, main_v70, main_v71, main_v72, main_v73]
theorem w17_sub : (w17 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem w17_fresh : (w17 : List (HloOp τ sig (Elt F))).Forall fun op => op.fresh = ∅ :=
  ⟨rfl, rfl, rfl, rfl, rfl, rfl⟩
theorem w17_writes : (w17 : List (HloOp τ sig (Elt F))).Forall fun op => op.writes ⊆ (w17_W.map (Proc.devRef (τ := τ) .tc)).toFinset := by
  simp only [List.Forall]; exact ⟨by wr1, by wr1, by wr1, by wr1, by wr1, by wr1⟩

/-- Operations 105–115, ending at `main_v84` (`q2`). -/
abbrev w18 : List (HloOp τ sig (Elt F)) :=
  [ StableHlo.unary main_arg6 main_v74 ((extractStridedSlice S768x768 ![0, 0] · slices_S2304x768_S768x768_0_0) : (⟨S2304x768, .f32⟩ : BufTy).Contents (Elt F) → (⟨S768x768, .f32⟩ : BufTy).Contents (Elt F)),
    StableHlo.unary main_arg6 main_v75 ((extractStridedSlice S768x768 ![768, 0] · slices_S2304x768_S768x768_768_0) : (⟨S2304x768, .f32⟩ : BufTy).Contents (Elt F) → (⟨S768x768, .f32⟩ : BufTy).Contents (Elt F)),
    StableHlo.unary main_arg6 main_v76 ((extractStridedSlice S768x768 ![1536, 0] · slices_S2304x768_S768x768_1536_0) : (⟨S2304x768, .f32⟩ : BufTy).Contents (Elt F) → (⟨S768x768, .f32⟩ : BufTy).Contents (Elt F)),
    StableHlo.unary main_arg7 main_v77 ((extractStridedSlice S768 ![0] · slices_S2304_S768_0) : (⟨S2304, .f32⟩ : BufTy).Contents (Elt F) → (⟨S768, .f32⟩ : BufTy).Contents (Elt F)),
    StableHlo.unary main_arg7 main_v78 ((extractStridedSlice S768 ![768] · slices_S2304_S768_768) : (⟨S2304, .f32⟩ : BufTy).Contents (Elt F) → (⟨S768, .f32⟩ : BufTy).Contents (Elt F)),
    StableHlo.unary main_arg7 main_v79 ((extractStridedSlice S768 ![1536] · slices_S2304_S768_1536) : (⟨S2304, .f32⟩ : BufTy).Contents (Elt F) → (⟨S768, .f32⟩ : BufTy).Contents (Elt F)),
    StableHlo.unary main_v74 main_v80 ((transpose S768x768 [1, 0] · transposes_S768x768_S768x768_1_0) : (⟨S768x768, .f32⟩ : BufTy).Contents (Elt F) → (⟨S768x768, .f32⟩ : BufTy).Contents (Elt F)),
    StableHlo.binary main_v9 main_v80 main_v81 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    StableHlo.unary main_v77 main_v82 (broadcastInDim S1x768 ![1] bcast_S768_S1x768_1 : (⟨S768, .f32⟩ : BufTy).Contents (Elt F) → (⟨S1x768, .f32⟩ : BufTy).Contents (Elt F)),
    StableHlo.unary main_v82 main_v83 (broadcastInDim S4096x768 ![0, 1] bcast_S1x768_S4096x768_0_1 : (⟨S1x768, .f32⟩ : BufTy).Contents (Elt F) → (⟨S4096x768, .f32⟩ : BufTy).Contents (Elt F)),
    StableHlo.binary main_v81 main_v83 main_v84 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w18_W : List (Ref sig .tc) := [main_v74, main_v75, main_v76, main_v77, main_v78, main_v79, main_v80, main_v81, main_v82, main_v83, main_v84]
theorem w18_sub : (w18 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., binary_bufs_sub .., unary_bufs_sub .., unary_bufs_sub .., binary_bufs_sub ..⟩
theorem w18_fresh : (w18 : List (HloOp τ sig (Elt F))).Forall fun op => op.fresh = ∅ :=
  ⟨rfl, rfl, rfl, rfl, rfl, rfl, rfl, rfl, rfl, rfl, rfl⟩
theorem w18_writes : (w18 : List (HloOp τ sig (Elt F))).Forall fun op => op.writes ⊆ (w18_W.map (Proc.devRef (τ := τ) .tc)).toFinset := by
  simp only [List.Forall]; exact ⟨by wr1, by wr1, by wr1, by wr1, by wr1, by wr1, by wr1, by wr1, by wr1, by wr1, by wr1⟩

/-- Operations 116–120, ending at `main_v89` (`k2`). -/
abbrev w19 : List (HloOp τ sig (Elt F)) :=
  [ StableHlo.unary main_v75 main_v85 ((transpose S768x768 [1, 0] · transposes_S768x768_S768x768_1_0) : (⟨S768x768, .f32⟩ : BufTy).Contents (Elt F) → (⟨S768x768, .f32⟩ : BufTy).Contents (Elt F)),
    StableHlo.binary main_v4 main_v85 main_v86 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    StableHlo.unary main_v78 main_v87 (broadcastInDim S1x768 ![1] bcast_S768_S1x768_1 : (⟨S768, .f32⟩ : BufTy).Contents (Elt F) → (⟨S1x768, .f32⟩ : BufTy).Contents (Elt F)),
    StableHlo.unary main_v87 main_v88 (broadcastInDim S4096x768 ![0, 1] bcast_S1x768_S4096x768_0_1 : (⟨S1x768, .f32⟩ : BufTy).Contents (Elt F) → (⟨S4096x768, .f32⟩ : BufTy).Contents (Elt F)),
    StableHlo.binary main_v86 main_v88 main_v89 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w19_W : List (Ref sig .tc) := [main_v85, main_v86, main_v87, main_v88, main_v89]
theorem w19_sub : (w19 : List (HloOp τ sig (Elt F))).Forall fun op => op.bufs ⊆ tcRefs τ sig :=
  ⟨unary_bufs_sub .., binary_bufs_sub .., unary_bufs_sub .., unary_bufs_sub .., binary_bufs_sub ..⟩
theorem w19_fresh : (w19 : List (HloOp τ sig (Elt F))).Forall fun op => op.fresh = ∅ :=
  ⟨rfl, rfl, rfl, rfl, rfl⟩
theorem w19_writes : (w19 : List (HloOp τ sig (Elt F))).Forall fun op => op.writes ⊆ (w19_W.map (Proc.devRef (τ := τ) .tc)).toFinset := by
  simp only [List.Forall]; exact ⟨by wr1, by wr1, by wr1, by wr1, by wr1⟩

/-- Operations 121–125, ending at `main_v94` (`vv2`). -/
abbrev w20 : List (HloOp τ sig (Elt F)) :=
  [ StableHlo.unary main_v76 main_v90 ((transpose S768x768 [1, 0] · transposes_S768x768_S768x768_1_0) : (⟨S768x768, .f32⟩ : BufTy).Contents (Elt F) → (⟨S768x768, .f32⟩ : BufTy).Contents (Elt F)),
    StableHlo.binary main_v4 main_v90 main_v91 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    StableHlo.unary main_v79 main_v92 (broadcastInDim S1x768 ![1] bcast_S768_S1x768_1 : (⟨S768, .f32⟩ : BufTy).Contents (Elt F) → (⟨S1x768, .f32⟩ : BufTy).Contents (Elt F)),
    StableHlo.unary main_v92 main_v93 (broadcastInDim S4096x768 ![0, 1] bcast_S1x768_S4096x768_0_1 : (⟨S1x768, .f32⟩ : BufTy).Contents (Elt F) → (⟨S4096x768, .f32⟩ : BufTy).Contents (Elt F)),
    StableHlo.binary main_v91 main_v93 main_v94 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w20_W : List (Ref sig .tc) := [main_v90, main_v91, main_v92, main_v93, main_v94]
theorem w20_sub : (w20 : List (HloOp τ sig (Elt F))).Forall fun op => op.bufs ⊆ tcRefs τ sig :=
  ⟨unary_bufs_sub .., binary_bufs_sub .., unary_bufs_sub .., unary_bufs_sub .., binary_bufs_sub ..⟩
theorem w20_fresh : (w20 : List (HloOp τ sig (Elt F))).Forall fun op => op.fresh = ∅ :=
  ⟨rfl, rfl, rfl, rfl, rfl⟩
theorem w20_writes : (w20 : List (HloOp τ sig (Elt F))).Forall fun op => op.writes ⊆ (w20_W.map (Proc.devRef (τ := τ) .tc)).toFinset := by
  simp only [List.Forall]; exact ⟨by wr1, by wr1, by wr1, by wr1, by wr1⟩

/-- Operations 126–131, ending at `main_v99` (`dots2`). -/
abbrev w21 : List (HloOp τ sig (Elt F)) :=
  [ StableHlo.reshape main_v84 main_v95 rfl shapeCasts_S4096x768_S4096x8x96,
    StableHlo.reshape main_v89 main_v96 rfl shapeCasts_S4096x768_S4096x8x96,
    StableHlo.reshape main_v94 main_v97 rfl shapeCasts_S4096x768_S4096x8x96,
    StableHlo.binary main_v95 main_v96 main_v98 (mulf : (⟨S4096x8x96, .f32⟩ : BufTy).Contents (Elt F) → (⟨S4096x8x96, .f32⟩ : BufTy).Contents (Elt F) → (⟨S4096x8x96, .f32⟩ : BufTy).Contents (Elt F)),
    StableHlo.nullary main_cst_7 (constant S_ .f32 0x00000000#32),
    StableHlo.binary main_v98 main_cst_7 main_v99 ((fun x v => Host.reduceAdd x v reducesTo_S4096x8x96_S4096x8_d2 h_S_) : (⟨S4096x8x96, .f32⟩ : BufTy).Contents (Elt F) → (⟨S_, .f32⟩ : BufTy).Contents (Elt F) → (⟨S4096x8, .f32⟩ : BufTy).Contents (Elt F)) ]
/-- The buffers those operations write. -/
abbrev w21_W : List (Ref sig .tc) := [main_v95, main_v96, main_v97, main_v98, main_cst_7, main_v99]
theorem w21_sub : (w21 : List (HloOp τ sig (Elt F))).Forall fun op => op.bufs ⊆ tcRefs τ sig :=
  ⟨reshape_bufs_sub .., reshape_bufs_sub .., reshape_bufs_sub .., binary_bufs_sub .., nullary_bufs_sub .., binary_bufs_sub ..⟩
theorem w21_fresh : (w21 : List (HloOp τ sig (Elt F))).Forall fun op => op.fresh = ∅ :=
  ⟨rfl, rfl, rfl, rfl, rfl, rfl⟩
theorem w21_writes : (w21 : List (HloOp τ sig (Elt F))).Forall fun op => op.writes ⊆ (w21_W.map (Proc.devRef (τ := τ) .tc)).toFinset := by
  simp only [List.Forall]; exact ⟨by wr1, by wr1, by wr1, by wr1, by wr1, by wr1⟩

/-- Operations 132–135, ending at `main_v102` (`sc2`). -/
abbrev w22 : List (HloOp τ sig (Elt F)) :=
  [ StableHlo.unary main_v99 main_v100 (broadcastInDim S4096x8x1 ![0, 1] bcast_S4096x8_S4096x8x1_0_1 : (⟨S4096x8, .f32⟩ : BufTy).Contents (Elt F) → (⟨S4096x8x1, .f32⟩ : BufTy).Contents (Elt F)),
    StableHlo.nullary main_cst_8 (constant S_ .f32 0x411CC471#32),
    StableHlo.unary main_cst_8 main_v101 (broadcastInDim S4096x8x1 ![] bcast_S_S4096x8x1 : (⟨S_, .f32⟩ : BufTy).Contents (Elt F) → (⟨S4096x8x1, .f32⟩ : BufTy).Contents (Elt F)),
    StableHlo.binary main_v100 main_v101 main_v102 (Host.divf : (⟨S4096x8x1, .f32⟩ : BufTy).Contents (Elt F) → (⟨S4096x8x1, .f32⟩ : BufTy).Contents (Elt F) → (⟨S4096x8x1, .f32⟩ : BufTy).Contents (Elt F)) ]
/-- The buffers those operations write. -/
abbrev w22_W : List (Ref sig .tc) := [main_v100, main_cst_8, main_v101, main_v102]
theorem w22_sub : (w22 : List (HloOp τ sig (Elt F))).Forall fun op => op.bufs ⊆ tcRefs τ sig :=
  ⟨unary_bufs_sub .., nullary_bufs_sub .., unary_bufs_sub .., binary_bufs_sub ..⟩
theorem w22_fresh : (w22 : List (HloOp τ sig (Elt F))).Forall fun op => op.fresh = ∅ :=
  ⟨rfl, rfl, rfl, rfl⟩
theorem w22_writes : (w22 : List (HloOp τ sig (Elt F))).Forall fun op => op.writes ⊆ (w22_W.map (Proc.devRef (τ := τ) .tc)).toFinset := by
  simp only [List.Forall]; exact ⟨by wr1, by wr1, by wr1, by wr1⟩

/-- Operations 136–141, ending at `main_v106` (`t_v106`). -/
abbrev w23 : List (HloOp τ sig (Elt F)) :=
  [ StableHlo.nullary main_cst_9 (constant S_ .f32 0xFF800000#32),
    StableHlo.binary main_v102 main_cst_9 main_v103 ((fun x v => Host.reduce FloatOps.maximumf x v reducesTo_S4096x8x1_S4096x8_d2 h_S_) : (⟨S4096x8x1, .f32⟩ : BufTy).Contents (Elt F) → (⟨S_, .f32⟩ : BufTy).Contents (Elt F) → (⟨S4096x8, .f32⟩ : BufTy).Contents (Elt F)),
    StableHlo.nullary main_cst_10 (constant S_ .f32 0xFF800000#32),
    StableHlo.unary main_cst_10 main_v104 (broadcastInDim S4096x8 ![] bcast_S_S4096x8 : (⟨S_, .f32⟩ : BufTy).Contents (Elt F) → (⟨S4096x8, .f32⟩ : BufTy).Contents (Elt F)),
    StableHlo.binary main_v104 main_v103 main_v105 (maximumf : (⟨S4096x8, .f32⟩ : BufTy).Contents (Elt F) → (⟨S4096x8, .f32⟩ : BufTy).Contents (Elt F) → (⟨S4096x8, .f32⟩ : BufTy).Contents (Elt F)),
    StableHlo.unary main_v105 main_v106 (broadcastInDim S4096x8x1 ![0, 1] bcast_S4096x8_S4096x8x1_0_1 : (⟨S4096x8, .f32⟩ : BufTy).Contents (Elt F) → (⟨S4096x8x1, .f32⟩ : BufTy).Contents (Elt F)) ]
/-- The buffers those operations write. -/
abbrev w23_W : List (Ref sig .tc) := [main_cst_9, main_v103, main_cst_10, main_v104, main_v105, main_v106]
theorem w23_sub : (w23 : List (HloOp τ sig (Elt F))).Forall fun op => op.bufs ⊆ tcRefs τ sig :=
  ⟨nullary_bufs_sub .., binary_bufs_sub .., nullary_bufs_sub .., unary_bufs_sub .., binary_bufs_sub .., unary_bufs_sub ..⟩
theorem w23_fresh : (w23 : List (HloOp τ sig (Elt F))).Forall fun op => op.fresh = ∅ :=
  ⟨rfl, rfl, rfl, rfl, rfl, rfl⟩
theorem w23_writes : (w23 : List (HloOp τ sig (Elt F))).Forall fun op => op.writes ⊆ (w23_W.map (Proc.devRef (τ := τ) .tc)).toFinset := by
  simp only [List.Forall]; exact ⟨by wr1, by wr1, by wr1, by wr1, by wr1, by wr1⟩

/-- Operations 142–143, ending at `main_v108` (`ex2`). -/
abbrev w24 : List (HloOp τ sig (Elt F)) :=
  [ StableHlo.binary main_v102 main_v106 main_v107 (subf : (⟨S4096x8x1, .f32⟩ : BufTy).Contents (Elt F) → (⟨S4096x8x1, .f32⟩ : BufTy).Contents (Elt F) → (⟨S4096x8x1, .f32⟩ : BufTy).Contents (Elt F)),
    StableHlo.unary main_v107 main_v108 (Host.exp : (⟨S4096x8x1, .f32⟩ : BufTy).Contents (Elt F) → (⟨S4096x8x1, .f32⟩ : BufTy).Contents (Elt F)) ]
/-- The buffers those operations write. -/
abbrev w24_W : List (Ref sig .tc) := [main_v107, main_v108]
theorem w24_sub : (w24 : List (HloOp τ sig (Elt F))).Forall fun op => op.bufs ⊆ tcRefs τ sig :=
  ⟨binary_bufs_sub .., unary_bufs_sub ..⟩
theorem w24_fresh : (w24 : List (HloOp τ sig (Elt F))).Forall fun op => op.fresh = ∅ :=
  ⟨rfl, rfl⟩
theorem w24_writes : (w24 : List (HloOp τ sig (Elt F))).Forall fun op => op.writes ⊆ (w24_W.map (Proc.devRef (τ := τ) .tc)).toFinset := by
  simp only [List.Forall]; exact ⟨by wr1, by wr1⟩

/-- Operations 144–147, ending at `main_v111` (`p2`). -/
abbrev w25 : List (HloOp τ sig (Elt F)) :=
  [ StableHlo.nullary main_cst_11 (constant S_ .f32 0x00000000#32),
    StableHlo.binary main_v108 main_cst_11 main_v109 ((fun x v => Host.reduceAdd x v reducesTo_S4096x8x1_S4096x8_d2 h_S_) : (⟨S4096x8x1, .f32⟩ : BufTy).Contents (Elt F) → (⟨S_, .f32⟩ : BufTy).Contents (Elt F) → (⟨S4096x8, .f32⟩ : BufTy).Contents (Elt F)),
    StableHlo.unary main_v109 main_v110 (broadcastInDim S4096x8x1 ![0, 1] bcast_S4096x8_S4096x8x1_0_1 : (⟨S4096x8, .f32⟩ : BufTy).Contents (Elt F) → (⟨S4096x8x1, .f32⟩ : BufTy).Contents (Elt F)),
    StableHlo.binary main_v108 main_v110 main_v111 (Host.divf : (⟨S4096x8x1, .f32⟩ : BufTy).Contents (Elt F) → (⟨S4096x8x1, .f32⟩ : BufTy).Contents (Elt F) → (⟨S4096x8x1, .f32⟩ : BufTy).Contents (Elt F)) ]
/-- The buffers those operations write. -/
abbrev w25_W : List (Ref sig .tc) := [main_cst_11, main_v109, main_v110, main_v111]
theorem w25_sub : (w25 : List (HloOp τ sig (Elt F))).Forall fun op => op.bufs ⊆ tcRefs τ sig :=
  ⟨nullary_bufs_sub .., binary_bufs_sub .., unary_bufs_sub .., binary_bufs_sub ..⟩
theorem w25_fresh : (w25 : List (HloOp τ sig (Elt F))).Forall fun op => op.fresh = ∅ :=
  ⟨rfl, rfl, rfl, rfl⟩
theorem w25_writes : (w25 : List (HloOp τ sig (Elt F))).Forall fun op => op.writes ⊆ (w25_W.map (Proc.devRef (τ := τ) .tc)).toFinset := by
  simp only [List.Forall]; exact ⟨by wr1, by wr1, by wr1, by wr1⟩

/-- Operations 148–150, ending at `main_v114` (`attn2`). -/
abbrev w26 : List (HloOp τ sig (Elt F)) :=
  [ StableHlo.unary main_v111 main_v112 (broadcastInDim S4096x8x96 ![0, 1, 2] bcast_S4096x8x1_S4096x8x96_0_1_2 : (⟨S4096x8x1, .f32⟩ : BufTy).Contents (Elt F) → (⟨S4096x8x96, .f32⟩ : BufTy).Contents (Elt F)),
    StableHlo.binary main_v112 main_v97 main_v113 (mulf : (⟨S4096x8x96, .f32⟩ : BufTy).Contents (Elt F) → (⟨S4096x8x96, .f32⟩ : BufTy).Contents (Elt F) → (⟨S4096x8x96, .f32⟩ : BufTy).Contents (Elt F)),
    StableHlo.reshape main_v113 main_v114 rfl shapeCasts_S4096x8x96_S4096x768 ]
/-- The buffers those operations write. -/
abbrev w26_W : List (Ref sig .tc) := [main_v112, main_v113, main_v114]
theorem w26_sub : (w26 : List (HloOp τ sig (Elt F))).Forall fun op => op.bufs ⊆ tcRefs τ sig :=
  ⟨unary_bufs_sub .., binary_bufs_sub .., reshape_bufs_sub ..⟩
theorem w26_fresh : (w26 : List (HloOp τ sig (Elt F))).Forall fun op => op.fresh = ∅ :=
  ⟨rfl, rfl, rfl⟩
theorem w26_writes : (w26 : List (HloOp τ sig (Elt F))).Forall fun op => op.writes ⊆ (w26_W.map (Proc.devRef (τ := τ) .tc)).toFinset := by
  simp only [List.Forall]; exact ⟨by wr1, by wr1, by wr1⟩

/-- Operations 151–155, ending at `main_v119` (`o2`). -/
abbrev w27 : List (HloOp τ sig (Elt F)) :=
  [ StableHlo.unary main_arg8 main_v115 ((transpose S768x768 [1, 0] · transposes_S768x768_S768x768_1_0) : (⟨S768x768, .f32⟩ : BufTy).Contents (Elt F) → (⟨S768x768, .f32⟩ : BufTy).Contents (Elt F)),
    StableHlo.binary main_v114 main_v115 main_v116 ((fun l r => Host.dotGeneral dot_S4096x768_S768x768_S4096x768_1_0_0_1_n_n none l r) : (⟨S4096x768, .f32⟩ : BufTy).Contents (Elt F) → (⟨S768x768, .f32⟩ : BufTy).Contents (Elt F) → (⟨S4096x768, .f32⟩ : BufTy).Contents (Elt F)),
    StableHlo.unary main_arg9 main_v117 (broadcastInDim S1x768 ![1] bcast_S768_S1x768_1 : (⟨S768, .f32⟩ : BufTy).Contents (Elt F) → (⟨S1x768, .f32⟩ : BufTy).Contents (Elt F)),
    StableHlo.unary main_v117 main_v118 (broadcastInDim S4096x768 ![0, 1] bcast_S1x768_S4096x768_0_1 : (⟨S1x768, .f32⟩ : BufTy).Contents (Elt F) → (⟨S4096x768, .f32⟩ : BufTy).Contents (Elt F)),
    StableHlo.binary main_v116 main_v118 main_v119 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w27_W : List (Ref sig .tc) := [main_v115, main_v116, main_v117, main_v118, main_v119]
theorem w27_sub : (w27 : List (HloOp τ sig (Elt F))).Forall fun op => op.bufs ⊆ tcRefs τ sig :=
  ⟨unary_bufs_sub .., binary_bufs_sub .., unary_bufs_sub .., unary_bufs_sub .., binary_bufs_sub ..⟩
theorem w27_fresh : (w27 : List (HloOp τ sig (Elt F))).Forall fun op => op.fresh = ∅ :=
  ⟨rfl, rfl, rfl, rfl, rfl⟩
theorem w27_writes : (w27 : List (HloOp τ sig (Elt F))).Forall fun op => op.writes ⊆ (w27_W.map (Proc.devRef (τ := τ) .tc)).toFinset := by
  simp only [List.Forall]; exact ⟨by wr1, by wr1, by wr1, by wr1, by wr1⟩

/-- Operations 156–161, ending at `main_v123` (`mu2`). -/
abbrev w28 : List (HloOp τ sig (Elt F)) :=
  [ StableHlo.nullary main_cst_12 (constant S_ .f32 0x00000000#32),
    StableHlo.binary main_v119 main_cst_12 main_v120 ((fun x v => Host.reduceAdd x v reducesTo_S4096x768_S4096_d1 h_S_) : (⟨S4096x768, .f32⟩ : BufTy).Contents (Elt F) → (⟨S_, .f32⟩ : BufTy).Contents (Elt F) → (⟨S4096, .f32⟩ : BufTy).Contents (Elt F)),
    StableHlo.unary main_v120 main_v121 (broadcastInDim S4096x1 ![0] bcast_S4096_S4096x1_0 : (⟨S4096, .f32⟩ : BufTy).Contents (Elt F) → (⟨S4096x1, .f32⟩ : BufTy).Contents (Elt F)),
    StableHlo.nullary main_cst_13 (constant S_ .f32 0x44400000#32),
    StableHlo.unary main_cst_13 main_v122 (broadcastInDim S4096x1 ![] bcast_S_S4096x1 : (⟨S_, .f32⟩ : BufTy).Contents (Elt F) → (⟨S4096x1, .f32⟩ : BufTy).Contents (Elt F)),
    StableHlo.binary main_v121 main_v122 main_v123 (Host.divf : (⟨S4096x1, .f32⟩ : BufTy).Contents (Elt F) → (⟨S4096x1, .f32⟩ : BufTy).Contents (Elt F) → (⟨S4096x1, .f32⟩ : BufTy).Contents (Elt F)) ]
/-- The buffers those operations write. -/
abbrev w28_W : List (Ref sig .tc) := [main_cst_12, main_v120, main_v121, main_cst_13, main_v122, main_v123]
theorem w28_sub : (w28 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem w28_fresh : (w28 : List (HloOp τ sig (Elt F))).Forall fun op => op.fresh = ∅ :=
  ⟨rfl, rfl, rfl, rfl, rfl, rfl⟩
theorem w28_writes : (w28 : List (HloOp τ sig (Elt F))).Forall fun op => op.writes ⊆ (w28_W.map (Proc.devRef (τ := τ) .tc)).toFinset := by
  simp only [List.Forall]; exact ⟨by wr1, by wr1, by wr1, by wr1, by wr1, by wr1⟩

/-- Operations 162–170, ending at `main_call1_v5` (`t_call1_v5`). -/
abbrev w29 : List (HloOp τ sig (Elt F)) :=
  [ StableHlo.nullary main_c_14 (constantI S_ 32 0#32),
    StableHlo.TRef.nullary main_call1.cst (constant S_ .f32 0x00000000#32),
    StableHlo.TRef.binary (.of main_v119 : StableHlo.TRef sig ⟨S4096x768, .f32⟩) main_call1.cst main_call1.v0 (fun x v => Host.reduceAdd x v reducesTo_S4096x768_S4096_d1 h_S_),
    StableHlo.TRef.unary main_call1.v0 main_call1.v1 (broadcastInDim S4096x1 ![0] bcast_S4096_S4096x1_0),
    StableHlo.TRef.nullary main_call1.cst_0 (constant S_ .f32 0x44400000#32),
    StableHlo.TRef.unary main_call1.cst_0 main_call1.v2 (broadcastInDim S4096x1 ![] bcast_S_S4096x1),
    StableHlo.TRef.binary main_call1.v1 main_call1.v2 main_call1.v3 Host.divf,
    StableHlo.TRef.unary main_call1.v3 main_call1.v4 (broadcastInDim S4096x768 ![0, 1] bcast_S4096x1_S4096x768_0_1),
    StableHlo.TRef.binary (.of main_v119 : StableHlo.TRef sig ⟨S4096x768, .f32⟩) main_call1.v4 main_call1.v5 subf ]
/-- The buffers those operations write. -/
abbrev w29_W : List (Ref sig .tc) := [main_c_14, main_call1_cst, main_call1_v0, main_call1_v1, main_call1_cst_0, main_call1_v2, main_call1_v3, main_call1_v4, main_call1_v5]
theorem w29_sub : (w29 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub ..⟩
theorem w29_fresh : (w29 : List (HloOp τ sig (Elt F))).Forall fun op => op.fresh = ∅ :=
  ⟨rfl, rfl, rfl, rfl, rfl, rfl, rfl, rfl, rfl⟩
theorem w29_writes : (w29 : List (HloOp τ sig (Elt F))).Forall fun op => op.writes ⊆ (w29_W.map (Proc.devRef (τ := τ) .tc)).toFinset := by
  simp only [List.Forall]; exact ⟨by wr1, by wr1, by wr1, by wr1, by wr1, by wr1, by wr1, by wr1, by wr1⟩

/-- Operations 171–174, ending at `main_call1_v8` (`t_call1_v8`). -/
abbrev w30 : List (HloOp τ sig (Elt F)) :=
  [ StableHlo.TRef.binary main_call1.v5 main_call1.v5 main_call1.v6 mulf,
    StableHlo.TRef.unary (.of main_c_14 : StableHlo.TRef sig ⟨S_, .i32⟩) main_call1.v7 (sitofp .f32),
    StableHlo.TRef.nullary main_call1.cst_1 (constant S_ .f32 0x44400000#32),
    StableHlo.TRef.binary main_call1.cst_1 main_call1.v7 main_call1.v8 subf ]
/-- The buffers those operations write. -/
abbrev w30_W : List (Ref sig .tc) := [main_call1_v6, main_call1_v7, main_call1_cst_1, main_call1_v8]
theorem w30_sub : (w30 : List (HloOp τ sig (Elt F))).Forall fun op => op.bufs ⊆ tcRefs τ sig :=
  ⟨binary_bufs_sub .., unary_bufs_sub .., nullary_bufs_sub .., binary_bufs_sub ..⟩
theorem w30_fresh : (w30 : List (HloOp τ sig (Elt F))).Forall fun op => op.fresh = ∅ :=
  ⟨rfl, rfl, rfl, rfl⟩
theorem w30_writes : (w30 : List (HloOp τ sig (Elt F))).Forall fun op => op.writes ⊆ (w30_W.map (Proc.devRef (τ := τ) .tc)).toFinset := by
  simp only [List.Forall]; exact ⟨by wr1, by wr1, by wr1, by wr1⟩

/-- Operations 175–185, ending at `main_v124` (`var2`). -/
abbrev w31 : List (HloOp τ sig (Elt F)) :=
  [ StableHlo.TRef.nullary main_call1.cst_2 (constant S_ .f32 0x00000000#32),
    StableHlo.TRef.binary main_call1.v6 main_call1.cst_2 main_call1.v9 (fun x v => Host.reduceAdd x v reducesTo_S4096x768_S4096_d1 h_S_),
    StableHlo.TRef.unary main_call1.v9 main_call1.v10 (broadcastInDim S4096x1 ![0] bcast_S4096_S4096x1_0),
    StableHlo.TRef.unary main_call1.v8 main_call1.v11 (broadcastInDim S4096x1 ![] bcast_S_S4096x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S4096x1 ![] bcast_S_S4096x1),
    StableHlo.TRef.ternary main_call1.v13 main_call1.v12 main_call1.call0.v1 main_call1.call0.v2 (fun p a b => select (broadcastInDim S4096x1 ![] bcast_S_S4096x1 p) a b) ]
/-- The buffers those operations write. -/
abbrev w31_W : List (Ref sig .tc) := [main_call1_cst_2, main_call1_v9, main_call1_v10, main_call1_v11, main_call1_v12, main_call1_cst_3, main_call1_v13, main_call1_cst_4, main_call1_call0_v0, main_call1_call0_v1, main_v124]
theorem w31_sub : (w31 : List (HloOp τ sig (Elt F))).Forall fun op => op.bufs ⊆ tcRefs τ sig :=
  ⟨nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w31_fresh : (w31 : List (HloOp τ sig (Elt F))).Forall fun op => op.fresh = ∅ :=
  ⟨rfl, rfl, rfl, rfl, rfl, rfl, rfl, rfl, rfl, rfl, rfl⟩
theorem w31_writes : (w31 : List (HloOp τ sig (Elt F))).Forall fun op => op.writes ⊆ (w31_W.map (Proc.devRef (τ := τ) .tc)).toFinset := by
  simp only [List.Forall]; exact ⟨by wr1, by wr1, by wr1, by wr1, by wr1, by wr1, by wr1, by wr1, by wr1, by wr1, by wr1⟩

/-- Operations 186–193, ending at `main_v131` (`o2c`). -/
abbrev w32 : List (HloOp τ sig (Elt F)) :=
  [ StableHlo.unary main_v123 main_v125 (broadcastInDim S4096x768 ![0, 1] bcast_S4096x1_S4096x768_0_1 : (⟨S4096x1, .f32⟩ : BufTy).Contents (Elt F) → (⟨S4096x768, .f32⟩ : BufTy).Contents (Elt F)),
    StableHlo.binary main_v119 main_v125 main_v126 (subf : (⟨S4096x768, .f32⟩ : BufTy).Contents (Elt F) → (⟨S4096x768, .f32⟩ : BufTy).Contents (Elt F) → (⟨S4096x768, .f32⟩ : BufTy).Contents (Elt F)),
    StableHlo.nullary main_cst_15 (constant S_ .f32 0x3727C5AC#32),
    StableHlo.unary main_cst_15 main_v127 (broadcastInDim S4096x1 ![] bcast_S_S4096x1 : (⟨S_, .f32⟩ : BufTy).Contents (Elt F) → (⟨S4096x1, .f32⟩ : BufTy).Contents (Elt F)),
    StableHlo.binary main_v124 main_v127 main_v128 (addf : (⟨S4096x1, .f32⟩ : BufTy).Contents (Elt F) → (⟨S4096x1, .f32⟩ : BufTy).Contents (Elt F) → (⟨S4096x1, .f32⟩ : BufTy).Contents (Elt F)),
    StableHlo.unary main_v128 main_v129 (Host.sqrt : (⟨S4096x1, .f32⟩ : BufTy).Contents (Elt F) → (⟨S4096x1, .f32⟩ : BufTy).Contents (Elt F)),
    StableHlo.unary main_v129 main_v130 (broadcastInDim S4096x768 ![0, 1] bcast_S4096x1_S4096x768_0_1 : (⟨S4096x1, .f32⟩ : BufTy).Contents (Elt F) → (⟨S4096x768, .f32⟩ : BufTy).Contents (Elt F)),
    StableHlo.binary main_v126 main_v130 main_v131 (Host.divf : (⟨S4096x768, .f32⟩ : BufTy).Contents (Elt F) → (⟨S4096x768, .f32⟩ : BufTy).Contents (Elt F) → (⟨S4096x768, .f32⟩ : BufTy).Contents (Elt F)) ]
/-- The buffers those operations write. -/
abbrev w32_W : List (Ref sig .tc) := [main_v125, main_v126, main_cst_15, main_v127, main_v128, main_v129, main_v130, main_v131]
theorem w32_sub : (w32 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩
theorem w32_fresh : (w32 : List (HloOp τ sig (Elt F))).Forall fun op => op.fresh = ∅ :=
  ⟨rfl, rfl, rfl, rfl, rfl, rfl, rfl, rfl⟩
theorem w32_writes : (w32 : List (HloOp τ sig (Elt F))).Forall fun op => op.writes ⊆ (w32_W.map (Proc.devRef (τ := τ) .tc)).toFinset := by
  simp only [List.Forall]; exact ⟨by wr1, by wr1, by wr1, by wr1, by wr1, by wr1, by wr1, by wr1⟩

/-- Operations 194–199, ending at `main_v137` (`o2n`). -/
abbrev w33 : List (HloOp τ sig (Elt F)) :=
  [ StableHlo.unary main_arg14 main_v132 (broadcastInDim S1x768 ![1] bcast_S768_S1x768_1 : (⟨S768, .f32⟩ : BufTy).Contents (Elt F) → (⟨S1x768, .f32⟩ : BufTy).Contents (Elt F)),
    StableHlo.unary main_v132 main_v133 (broadcastInDim S4096x768 ![0, 1] bcast_S1x768_S4096x768_0_1 : (⟨S1x768, .f32⟩ : BufTy).Contents (Elt F) → (⟨S4096x768, .f32⟩ : BufTy).Contents (Elt F)),
    StableHlo.binary main_v131 main_v133 main_v134 (mulf : (⟨S4096x768, .f32⟩ : BufTy).Contents (Elt F) → (⟨S4096x768, .f32⟩ : BufTy).Contents (Elt F) → (⟨S4096x768, .f32⟩ : BufTy).Contents (Elt F)),
    StableHlo.unary main_arg15 main_v135 (broadcastInDim S1x768 ![1] bcast_S768_S1x768_1 : (⟨S768, .f32⟩ : BufTy).Contents (Elt F) → (⟨S1x768, .f32⟩ : BufTy).Contents (Elt F)),
    StableHlo.unary main_v135 main_v136 (broadcastInDim S4096x768 ![0, 1] bcast_S1x768_S4096x768_0_1 : (⟨S1x768, .f32⟩ : BufTy).Contents (Elt F) → (⟨S4096x768, .f32⟩ : BufTy).Contents (Elt F)),
    StableHlo.binary main_v134 main_v136 main_v137 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w33_W : List (Ref sig .tc) := [main_v132, main_v133, main_v134, main_v135, main_v136, main_v137]
theorem w33_sub : (w33 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem w33_fresh : (w33 : List (HloOp τ sig (Elt F))).Forall fun op => op.fresh = ∅ :=
  ⟨rfl, rfl, rfl, rfl, rfl, rfl⟩
theorem w33_writes : (w33 : List (HloOp τ sig (Elt F))).Forall fun op => op.writes ⊆ (w33_W.map (Proc.devRef (τ := τ) .tc)).toFinset := by
  simp only [List.Forall]; exact ⟨by wr1, by wr1, by wr1, by wr1, by wr1, by wr1⟩

/-- Operations 200–205, ending at `main_v143` (`fused`). -/
abbrev w34 : List (HloOp τ sig (Elt F)) :=
  [ StableHlo.binary main_v73 main_v137 main_v138 ((fun a b => concatenate S4096x1536 1 [⟨S4096x768, a⟩, ⟨S4096x768, b⟩] concatenates_S4096x768_S4096x768_S4096x1536_d1) : (⟨S4096x768, .f32⟩ : BufTy).Contents (Elt F) → (⟨S4096x768, .f32⟩ : BufTy).Contents (Elt F) → (⟨S4096x1536, .f32⟩ : BufTy).Contents (Elt F)),
    StableHlo.unary main_arg10 main_v139 ((transpose S1536x768 [1, 0] · transposes_S768x1536_S1536x768_1_0) : (⟨S768x1536, .f32⟩ : BufTy).Contents (Elt F) → (⟨S1536x768, .f32⟩ : BufTy).Contents (Elt F)),
    StableHlo.binary main_v138 main_v139 main_v140 ((fun l r => Host.dotGeneral dot_S4096x1536_S1536x768_S4096x768_1_0_0_1_n_n none l r) : (⟨S4096x1536, .f32⟩ : BufTy).Contents (Elt F) → (⟨S1536x768, .f32⟩ : BufTy).Contents (Elt F) → (⟨S4096x768, .f32⟩ : BufTy).Contents (Elt F)),
    StableHlo.unary main_arg11 main_v141 (broadcastInDim S1x768 ![1] bcast_S768_S1x768_1 : (⟨S768, .f32⟩ : BufTy).Contents (Elt F) → (⟨S1x768, .f32⟩ : BufTy).Contents (Elt F)),
    StableHlo.unary main_v141 main_v142 (broadcastInDim S4096x768 ![0, 1] bcast_S1x768_S4096x768_0_1 : (⟨S1x768, .f32⟩ : BufTy).Contents (Elt F) → (⟨S4096x768, .f32⟩ : BufTy).Contents (Elt F)),
    StableHlo.binary main_v140 main_v142 main_v143 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w34_W : List (Ref sig .tc) := [main_v138, main_v139, main_v140, main_v141, main_v142, main_v143]
theorem w34_sub : (w34 : List (HloOp τ sig (Elt F))).Forall fun op => op.bufs ⊆ tcRefs τ sig :=
  ⟨binary_bufs_sub .., unary_bufs_sub .., binary_bufs_sub .., unary_bufs_sub .., unary_bufs_sub .., binary_bufs_sub ..⟩
theorem w34_fresh : (w34 : List (HloOp τ sig (Elt F))).Forall fun op => op.fresh = ∅ :=
  ⟨rfl, rfl, rfl, rfl, rfl, rfl⟩
theorem w34_writes : (w34 : List (HloOp τ sig (Elt F))).Forall fun op => op.writes ⊆ (w34_W.map (Proc.devRef (τ := τ) .tc)).toFinset := by
  simp only [List.Forall]; exact ⟨by wr1, by wr1, by wr1, by wr1, by wr1, by wr1⟩

/-- Operations 206–211, ending at `main_v147` (`mu3`). -/
abbrev w35 : List (HloOp τ sig (Elt F)) :=
  [ StableHlo.nullary main_cst_16 (constant S_ .f32 0x00000000#32),
    StableHlo.binary main_v143 main_cst_16 main_v144 ((fun x v => Host.reduceAdd x v reducesTo_S4096x768_S4096_d1 h_S_) : (⟨S4096x768, .f32⟩ : BufTy).Contents (Elt F) → (⟨S_, .f32⟩ : BufTy).Contents (Elt F) → (⟨S4096, .f32⟩ : BufTy).Contents (Elt F)),
    StableHlo.unary main_v144 main_v145 (broadcastInDim S4096x1 ![0] bcast_S4096_S4096x1_0 : (⟨S4096, .f32⟩ : BufTy).Contents (Elt F) → (⟨S4096x1, .f32⟩ : BufTy).Contents (Elt F)),
    StableHlo.nullary main_cst_17 (constant S_ .f32 0x44400000#32),
    StableHlo.unary main_cst_17 main_v146 (broadcastInDim S4096x1 ![] bcast_S_S4096x1 : (⟨S_, .f32⟩ : BufTy).Contents (Elt F) → (⟨S4096x1, .f32⟩ : BufTy).Contents (Elt F)),
    StableHlo.binary main_v145 main_v146 main_v147 (Host.divf : (⟨S4096x1, .f32⟩ : BufTy).Contents (Elt F) → (⟨S4096x1, .f32⟩ : BufTy).Contents (Elt F) → (⟨S4096x1, .f32⟩ : BufTy).Contents (Elt F)) ]
/-- The buffers those operations write. -/
abbrev w35_W : List (Ref sig .tc) := [main_cst_16, main_v144, main_v145, main_cst_17, main_v146, main_v147]
theorem w35_sub : (w35 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem w35_fresh : (w35 : List (HloOp τ sig (Elt F))).Forall fun op => op.fresh = ∅ :=
  ⟨rfl, rfl, rfl, rfl, rfl, rfl⟩
theorem w35_writes : (w35 : List (HloOp τ sig (Elt F))).Forall fun op => op.writes ⊆ (w35_W.map (Proc.devRef (τ := τ) .tc)).toFinset := by
  simp only [List.Forall]; exact ⟨by wr1, by wr1, by wr1, by wr1, by wr1, by wr1⟩

/-- Operations 212–220, ending at `main_call2_v5` (`t_call2_v5`). -/
abbrev w36 : List (HloOp τ sig (Elt F)) :=
  [ StableHlo.nullary main_c_18 (constantI S_ 32 0#32),
    StableHlo.TRef.nullary main_call2.cst (constant S_ .f32 0x00000000#32),
    StableHlo.TRef.binary (.of main_v143 : StableHlo.TRef sig ⟨S4096x768, .f32⟩) main_call2.cst main_call2.v0 (fun x v => Host.reduceAdd x v reducesTo_S4096x768_S4096_d1 h_S_),
    StableHlo.TRef.unary main_call2.v0 main_call2.v1 (broadcastInDim S4096x1 ![0] bcast_S4096_S4096x1_0),
    StableHlo.TRef.nullary main_call2.cst_0 (constant S_ .f32 0x44400000#32),
    StableHlo.TRef.unary main_call2.cst_0 main_call2.v2 (broadcastInDim S4096x1 ![] bcast_S_S4096x1),
    StableHlo.TRef.binary main_call2.v1 main_call2.v2 main_call2.v3 Host.divf,
    StableHlo.TRef.unary main_call2.v3 main_call2.v4 (broadcastInDim S4096x768 ![0, 1] bcast_S4096x1_S4096x768_0_1),
    StableHlo.TRef.binary (.of main_v143 : StableHlo.TRef sig ⟨S4096x768, .f32⟩) main_call2.v4 main_call2.v5 subf ]
/-- The buffers those operations write. -/
abbrev w36_W : List (Ref sig .tc) := [main_c_18, main_call2_cst, main_call2_v0, main_call2_v1, main_call2_cst_0, main_call2_v2, main_call2_v3, main_call2_v4, main_call2_v5]
theorem w36_sub : (w36 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub ..⟩
theorem w36_fresh : (w36 : List (HloOp τ sig (Elt F))).Forall fun op => op.fresh = ∅ :=
  ⟨rfl, rfl, rfl, rfl, rfl, rfl, rfl, rfl, rfl⟩
theorem w36_writes : (w36 : List (HloOp τ sig (Elt F))).Forall fun op => op.writes ⊆ (w36_W.map (Proc.devRef (τ := τ) .tc)).toFinset := by
  simp only [List.Forall]; exact ⟨by wr1, by wr1, by wr1, by wr1, by wr1, by wr1, by wr1, by wr1, by wr1⟩

/-- Operations 221–224, ending at `main_call2_v8` (`t_call2_v8`). -/
abbrev w37 : List (HloOp τ sig (Elt F)) :=
  [ StableHlo.TRef.binary main_call2.v5 main_call2.v5 main_call2.v6 mulf,
    StableHlo.TRef.unary (.of main_c_18 : StableHlo.TRef sig ⟨S_, .i32⟩) main_call2.v7 (sitofp .f32),
    StableHlo.TRef.nullary main_call2.cst_1 (constant S_ .f32 0x44400000#32),
    StableHlo.TRef.binary main_call2.cst_1 main_call2.v7 main_call2.v8 subf ]
/-- The buffers those operations write. -/
abbrev w37_W : List (Ref sig .tc) := [main_call2_v6, main_call2_v7, main_call2_cst_1, main_call2_v8]
theorem w37_sub : (w37 : List (HloOp τ sig (Elt F))).Forall fun op => op.bufs ⊆ tcRefs τ sig :=
  ⟨binary_bufs_sub .., unary_bufs_sub .., nullary_bufs_sub .., binary_bufs_sub ..⟩
theorem w37_fresh : (w37 : List (HloOp τ sig (Elt F))).Forall fun op => op.fresh = ∅ :=
  ⟨rfl, rfl, rfl, rfl⟩
theorem w37_writes : (w37 : List (HloOp τ sig (Elt F))).Forall fun op => op.writes ⊆ (w37_W.map (Proc.devRef (τ := τ) .tc)).toFinset := by
  simp only [List.Forall]; exact ⟨by wr1, by wr1, by wr1, by wr1⟩

/-- Operations 225–235, ending at `main_v148` (`var3`). -/
abbrev w38 : List (HloOp τ sig (Elt F)) :=
  [ StableHlo.TRef.nullary main_call2.cst_2 (constant S_ .f32 0x00000000#32),
    StableHlo.TRef.binary main_call2.v6 main_call2.cst_2 main_call2.v9 (fun x v => Host.reduceAdd x v reducesTo_S4096x768_S4096_d1 h_S_),
    StableHlo.TRef.unary main_call2.v9 main_call2.v10 (broadcastInDim S4096x1 ![0] bcast_S4096_S4096x1_0),
    StableHlo.TRef.unary main_call2.v8 main_call2.v11 (broadcastInDim S4096x1 ![] bcast_S_S4096x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4096x1 ![] bcast_S_S4096x1),
    StableHlo.TRef.ternary main_call2.v13 main_call2.v12 main_call2.call0.v1 main_call2.call0.v2 (fun p a b => select (broadcastInDim S4096x1 ![] bcast_S_S4096x1 p) a b) ]
/-- The buffers those operations write. -/
abbrev w38_W : List (Ref sig .tc) := [main_call2_cst_2, main_call2_v9, main_call2_v10, main_call2_v11, main_call2_v12, main_call2_cst_3, main_call2_v13, main_call2_cst_4, main_call2_call0_v0, main_call2_call0_v1, main_v148]
theorem w38_sub : (w38 : List (HloOp τ sig (Elt F))).Forall fun op => op.bufs ⊆ tcRefs τ sig :=
  ⟨nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w38_fresh : (w38 : List (HloOp τ sig (Elt F))).Forall fun op => op.fresh = ∅ :=
  ⟨rfl, rfl, rfl, rfl, rfl, rfl, rfl, rfl, rfl, rfl, rfl⟩
theorem w38_writes : (w38 : List (HloOp τ sig (Elt F))).Forall fun op => op.writes ⊆ (w38_W.map (Proc.devRef (τ := τ) .tc)).toFinset := by
  simp only [List.Forall]; exact ⟨by wr1, by wr1, by wr1, by wr1, by wr1, by wr1, by wr1, by wr1, by wr1, by wr1, by wr1⟩

/-- Operations 236–243, ending at `main_v155` (`outc`). -/
abbrev w39 : List (HloOp τ sig (Elt F)) :=
  [ StableHlo.unary main_v147 main_v149 (broadcastInDim S4096x768 ![0, 1] bcast_S4096x1_S4096x768_0_1 : (⟨S4096x1, .f32⟩ : BufTy).Contents (Elt F) → (⟨S4096x768, .f32⟩ : BufTy).Contents (Elt F)),
    StableHlo.binary main_v143 main_v149 main_v150 (subf : (⟨S4096x768, .f32⟩ : BufTy).Contents (Elt F) → (⟨S4096x768, .f32⟩ : BufTy).Contents (Elt F) → (⟨S4096x768, .f32⟩ : BufTy).Contents (Elt F)),
    StableHlo.nullary main_cst_19 (constant S_ .f32 0x3727C5AC#32),
    StableHlo.unary main_cst_19 main_v151 (broadcastInDim S4096x1 ![] bcast_S_S4096x1 : (⟨S_, .f32⟩ : BufTy).Contents (Elt F) → (⟨S4096x1, .f32⟩ : BufTy).Contents (Elt F)),
    StableHlo.binary main_v148 main_v151 main_v152 (addf : (⟨S4096x1, .f32⟩ : BufTy).Contents (Elt F) → (⟨S4096x1, .f32⟩ : BufTy).Contents (Elt F) → (⟨S4096x1, .f32⟩ : BufTy).Contents (Elt F)),
    StableHlo.unary main_v152 main_v153 (Host.sqrt : (⟨S4096x1, .f32⟩ : BufTy).Contents (Elt F) → (⟨S4096x1, .f32⟩ : BufTy).Contents (Elt F)),
    StableHlo.unary main_v153 main_v154 (broadcastInDim S4096x768 ![0, 1] bcast_S4096x1_S4096x768_0_1 : (⟨S4096x1, .f32⟩ : BufTy).Contents (Elt F) → (⟨S4096x768, .f32⟩ : BufTy).Contents (Elt F)),
    StableHlo.binary main_v150 main_v154 main_v155 (Host.divf : (⟨S4096x768, .f32⟩ : BufTy).Contents (Elt F) → (⟨S4096x768, .f32⟩ : BufTy).Contents (Elt F) → (⟨S4096x768, .f32⟩ : BufTy).Contents (Elt F)) ]
/-- The buffers those operations write. -/
abbrev w39_W : List (Ref sig .tc) := [main_v149, main_v150, main_cst_19, main_v151, main_v152, main_v153, main_v154, main_v155]
theorem w39_sub : (w39 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub ..⟩
theorem w39_fresh : (w39 : List (HloOp τ sig (Elt F))).Forall fun op => op.fresh = ∅ :=
  ⟨rfl, rfl, rfl, rfl, rfl, rfl, rfl, rfl⟩
theorem w39_writes : (w39 : List (HloOp τ sig (Elt F))).Forall fun op => op.writes ⊆ (w39_W.map (Proc.devRef (τ := τ) .tc)).toFinset := by
  simp only [List.Forall]; exact ⟨by wr1, by wr1, by wr1, by wr1, by wr1, by wr1, by wr1, by wr1⟩

/-- Operations 244–245, ending at `main_v157` (`t_v157`). -/
abbrev w40 : List (HloOp τ sig (Elt F)) :=
  [ StableHlo.unary main_arg16 main_v156 (broadcastInDim S1x768 ![1] bcast_S768_S1x768_1 : (⟨S768, .f32⟩ : BufTy).Contents (Elt F) → (⟨S1x768, .f32⟩ : BufTy).Contents (Elt F)),
    StableHlo.unary main_v156 main_v157 (broadcastInDim S4096x768 ![0, 1] bcast_S1x768_S4096x768_0_1 : (⟨S1x768, .f32⟩ : BufTy).Contents (Elt F) → (⟨S4096x768, .f32⟩ : BufTy).Contents (Elt F)) ]
/-- The buffers those operations write. -/
abbrev w40_W : List (Ref sig .tc) := [main_v156, main_v157]
theorem w40_sub : (w40 : List (HloOp τ sig (Elt F))).Forall fun op => op.bufs ⊆ tcRefs τ sig :=
  ⟨unary_bufs_sub .., unary_bufs_sub ..⟩
theorem w40_fresh : (w40 : List (HloOp τ sig (Elt F))).Forall fun op => op.fresh = ∅ :=
  ⟨rfl, rfl⟩
theorem w40_writes : (w40 : List (HloOp τ sig (Elt F))).Forall fun op => op.writes ⊆ (w40_W.map (Proc.devRef (τ := τ) .tc)).toFinset := by
  simp only [List.Forall]; exact ⟨by wr1, by wr1⟩

/-- Operations 246–249, ending at `main_v161` (`out`). -/
abbrev w41 : List (HloOp τ sig (Elt F)) :=
  [ StableHlo.binary main_v155 main_v157 main_v158 (mulf : (⟨S4096x768, .f32⟩ : BufTy).Contents (Elt F) → (⟨S4096x768, .f32⟩ : BufTy).Contents (Elt F) → (⟨S4096x768, .f32⟩ : BufTy).Contents (Elt F)),
    StableHlo.unary main_arg17 main_v159 (broadcastInDim S1x768 ![1] bcast_S768_S1x768_1 : (⟨S768, .f32⟩ : BufTy).Contents (Elt F) → (⟨S1x768, .f32⟩ : BufTy).Contents (Elt F)),
    StableHlo.unary main_v159 main_v160 (broadcastInDim S4096x768 ![0, 1] bcast_S1x768_S4096x768_0_1 : (⟨S1x768, .f32⟩ : BufTy).Contents (Elt F) → (⟨S4096x768, .f32⟩ : BufTy).Contents (Elt F)),
    StableHlo.binary main_v158 main_v160 main_v161 (addf : (⟨S4096x768, .f32⟩ : BufTy).Contents (Elt F) → (⟨S4096x768, .f32⟩ : BufTy).Contents (Elt F) → (⟨S4096x768, .f32⟩ : BufTy).Contents (Elt F)) ]
/-- The buffers those operations write. -/
abbrev w41_W : List (Ref sig .tc) := [main_v158, main_v159, main_v160, main_v161]
theorem w41_sub : (w41 : List (HloOp τ sig (Elt F))).Forall fun op => op.bufs ⊆ tcRefs τ sig :=
  ⟨binary_bufs_sub .., unary_bufs_sub .., unary_bufs_sub .., binary_bufs_sub ..⟩
theorem w41_fresh : (w41 : List (HloOp τ sig (Elt F))).Forall fun op => op.fresh = ∅ :=
  ⟨rfl, rfl, rfl, rfl⟩
theorem w41_writes : (w41 : List (HloOp τ sig (Elt F))).Forall fun op => op.writes ⊆ (w41_W.map (Proc.devRef (τ := τ) .tc)).toFinset := by
  simp only [List.Forall]; exact ⟨by wr1, by wr1, by wr1, by wr1⟩

/-- Operations 250–254, ending at `main_v162` (`nrm`). -/
abbrev w42 : List (HloOp τ sig (Elt F)) :=
  [ StableHlo.TRef.binary (.of main_v161 : StableHlo.TRef sig ⟨S4096x768, .f32⟩) (.of main_v161 : StableHlo.TRef sig ⟨S4096x768, .f32⟩) main_call3.v0 mulf,
    StableHlo.TRef.nullary main_call3.cst (constant S_ .f32 0x00000000#32),
    StableHlo.TRef.binary main_call3.v0 main_call3.cst main_call3.v1 (fun x v => Host.reduceAdd x v reducesTo_S4096x768_S4096_d1 h_S_),
    StableHlo.TRef.unary main_call3.v1 main_call3.v2 (broadcastInDim S4096x1 ![0] bcast_S4096_S4096x1_0),
    StableHlo.TRef.unary main_call3.v2 main_call3.v3 Host.sqrt ]
/-- The buffers those operations write. -/
abbrev w42_W : List (Ref sig .tc) := [main_call3_v0, main_call3_cst, main_call3_v1, main_call3_v2, main_v162]
theorem w42_sub : (w42 : List (HloOp τ sig (Elt F))).Forall fun op => op.bufs ⊆ tcRefs τ sig :=
  ⟨binary_bufs_sub .., nullary_bufs_sub .., binary_bufs_sub .., unary_bufs_sub .., unary_bufs_sub ..⟩
theorem w42_fresh : (w42 : List (HloOp τ sig (Elt F))).Forall fun op => op.fresh = ∅ :=
  ⟨rfl, rfl, rfl, rfl, rfl⟩
theorem w42_writes : (w42 : List (HloOp τ sig (Elt F))).Forall fun op => op.writes ⊆ (w42_W.map (Proc.devRef (τ := τ) .tc)).toFinset := by
  simp only [List.Forall]; exact ⟨by wr1, by wr1, by wr1, by wr1, by wr1⟩

/-- Operations 255–259, ending at `main_v166` (`keys`). -/
abbrev w43 : List (HloOp τ sig (Elt F)) :=
  [ StableHlo.nullary main_cst_20 (constant S_ .f32 0x2B8CBCCC#32),
    StableHlo.unary main_cst_20 main_v163 (broadcastInDim S4096x1 ![] bcast_S_S4096x1 : (⟨S_, .f32⟩ : BufTy).Contents (Elt F) → (⟨S4096x1, .f32⟩ : BufTy).Contents (Elt F)),
    StableHlo.binary main_v162 main_v163 main_v164 (addf : (⟨S4096x1, .f32⟩ : BufTy).Contents (Elt F) → (⟨S4096x1, .f32⟩ : BufTy).Contents (Elt F) → (⟨S4096x1, .f32⟩ : BufTy).Contents (Elt F)),
    StableHlo.unary main_v164 main_v165 (broadcastInDim S4096x768 ![0, 1] bcast_S4096x1_S4096x768_0_1 : (⟨S4096x1, .f32⟩ : BufTy).Contents (Elt F) → (⟨S4096x768, .f32⟩ : BufTy).Contents (Elt F)),
    StableHlo.binary main_v161 main_v165 main_v166 (Host.divf : (⟨S4096x768, .f32⟩ : BufTy).Contents (Elt F) → (⟨S4096x768, .f32⟩ : BufTy).Contents (Elt F) → (⟨S4096x768, .f32⟩ : BufTy).Contents (Elt F)) ]
/-- The buffers those operations write. -/
abbrev w43_W : List (Ref sig .tc) := [main_cst_20, main_v163, main_v164, main_v165, main_v166]
theorem w43_sub : (w43 : List (HloOp τ sig (Elt F))).Forall fun op => op.bufs ⊆ tcRefs τ sig :=
  ⟨nullary_bufs_sub .., unary_bufs_sub .., binary_bufs_sub .., unary_bufs_sub .., binary_bufs_sub ..⟩
theorem w43_fresh : (w43 : List (HloOp τ sig (Elt F))).Forall fun op => op.fresh = ∅ :=
  ⟨rfl, rfl, rfl, rfl, rfl⟩
theorem w43_writes : (w43 : List (HloOp τ sig (Elt F))).Forall fun op => op.writes ⊆ (w43_W.map (Proc.devRef (τ := τ) .tc)).toFinset := by
  simp only [List.Forall]; exact ⟨by wr1, by wr1, by wr1, by wr1, by wr1⟩

/-- Operations 260–260, ending at `main_v167` (`t_v167`). -/
abbrev w44 : List (HloOp τ sig (Elt F)) :=
  [ StableHlo.reshape main_arg19 main_v167 rfl shapeCasts_S1_S_ ]
/-- The buffers those operations write. -/
abbrev w44_W : List (Ref sig .tc) := [main_v167]
theorem w44_sub : (w44 : List (HloOp τ sig (Elt F))).Forall fun op => op.bufs ⊆ tcRefs τ sig :=
  reshape_bufs_sub ..
theorem w44_fresh : (w44 : List (HloOp τ sig (Elt F))).Forall fun op => op.fresh = ∅ :=
  rfl
theorem w44_writes : (w44 : List (HloOp τ sig (Elt F))).Forall fun op => op.writes ⊆ (w44_W.map (Proc.devRef (τ := τ) .tc)).toFinset := by
  simp only [List.Forall]; exact (by wr1)

/-- Operations 261–263, ending at `main_v170` (`pos`). -/
abbrev w45 : List (HloOp τ sig (Elt F)) :=
  [ StableHlo.nullary main_v168 (iotaInDim S4096 32 0),
    StableHlo.unary main_v167 main_v169 (broadcastInDim S4096 ![] bcast_S_S4096 : (⟨S_, .i32⟩ : BufTy).Contents (Elt F) → (⟨S4096, .i32⟩ : BufTy).Contents (Elt F)),
    StableHlo.binary main_v169 main_v168 main_v170 (addi : (⟨S4096, .i32⟩ : BufTy).Contents (Elt F) → (⟨S4096, .i32⟩ : BufTy).Contents (Elt F) → (⟨S4096, .i32⟩ : BufTy).Contents (Elt F)) ]
/-- The buffers those operations write. -/
abbrev w45_W : List (Ref sig .tc) := [main_v168, main_v169, main_v170]
theorem w45_sub : (w45 : List (HloOp τ sig (Elt F))).Forall fun op => op.bufs ⊆ tcRefs τ sig :=
  ⟨nullary_bufs_sub .., unary_bufs_sub .., binary_bufs_sub ..⟩
theorem w45_fresh : (w45 : List (HloOp τ sig (Elt F))).Forall fun op => op.fresh = ∅ :=
  ⟨rfl, rfl, rfl⟩
theorem w45_writes : (w45 : List (HloOp τ sig (Elt F))).Forall fun op => op.writes ⊆ (w45_W.map (Proc.devRef (τ := τ) .tc)).toFinset := by
  simp only [List.Forall]; exact ⟨by wr1, by wr1, by wr1⟩

/-- Operations 264–265, ending at `main_call4_v0` (`t_call4_v0`). -/
abbrev w46 : List (HloOp τ sig (Elt F)) :=
  [ StableHlo.nullary main_c_21 (constantI S_ 32 65536#32),
    StableHlo.TRef.unary (.of main_c_21 : StableHlo.TRef sig ⟨S_, .i32⟩) main_call4.v0 id ]
/-- The buffers those operations write. -/
abbrev w46_W : List (Ref sig .tc) := [main_c_21, main_call4_v0]
theorem w46_sub : (w46 : List (HloOp τ sig (Elt F))).Forall fun op => op.bufs ⊆ tcRefs τ sig :=
  ⟨nullary_bufs_sub .., unary_bufs_sub ..⟩
theorem w46_fresh : (w46 : List (HloOp τ sig (Elt F))).Forall fun op => op.fresh = ∅ :=
  ⟨rfl, rfl⟩
theorem w46_writes : (w46 : List (HloOp τ sig (Elt F))).Forall fun op => op.writes ⊆ (w46_W.map (Proc.devRef (τ := τ) .tc)).toFinset := by
  simp only [List.Forall]; exact ⟨by wr1, by wr1⟩

/-- Operations 266–269, ending at `main_call4_v2` (`t_call4_v2`). -/
abbrev w47 : List (HloOp τ sig (Elt F)) :=
  [ StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select ]
/-- The buffers those operations write. -/
abbrev w47_W : List (Ref sig .tc) := [main_call4_c, main_call4_v1, main_call4_c_0, main_call4_v2]
theorem w47_sub : (w47 : List (HloOp τ sig (Elt F))).Forall fun op => op.bufs ⊆ tcRefs τ sig :=
  ⟨nullary_bufs_sub .., binary_bufs_sub .., nullary_bufs_sub .., ternary_bufs_sub ..⟩
theorem w47_fresh : (w47 : List (HloOp τ sig (Elt F))).Forall fun op => op.fresh = ∅ :=
  ⟨rfl, rfl, rfl, rfl⟩
theorem w47_writes : (w47 : List (HloOp τ sig (Elt F))).Forall fun op => op.writes ⊆ (w47_W.map (Proc.devRef (τ := τ) .tc)).toFinset := by
  simp only [List.Forall]; exact ⟨by wr1, by wr1, by wr1, by wr1⟩

/-- Operations 270–271, ending at `main_call4_v4` (`t_call4_v4`). -/
abbrev w48 : List (HloOp τ sig (Elt F)) :=
  [ StableHlo.TRef.unary main_call4.call0.v0 main_call4.v3 (broadcastInDim S4096 ![] bcast_S_S4096),
    StableHlo.TRef.binary (.of main_v170 : StableHlo.TRef sig ⟨S4096, .i32⟩) main_call4.v3 main_call4.v4 Host.remsi ]
/-- The buffers those operations write. -/
abbrev w48_W : List (Ref sig .tc) := [main_call4_v3, main_call4_v4]
theorem w48_sub : (w48 : List (HloOp τ sig (Elt F))).Forall fun op => op.bufs ⊆ tcRefs τ sig :=
  ⟨unary_bufs_sub .., binary_bufs_sub ..⟩
theorem w48_fresh : (w48 : List (HloOp τ sig (Elt F))).Forall fun op => op.fresh = ∅ :=
  ⟨rfl, rfl⟩
theorem w48_writes : (w48 : List (HloOp τ sig (Elt F))).Forall fun op => op.writes ⊆ (w48_W.map (Proc.devRef (τ := τ) .tc)).toFinset := by
  simp only [List.Forall]; exact ⟨by wr1, by wr1⟩

/-- Operations 272–285, ending at `main_v171` (`posm`). -/
abbrev w49 : List (HloOp τ sig (Elt F)) :=
  [ StableHlo.TRef.nullary main_call4.c_1 (constantI S_ 32 0#32),
    StableHlo.TRef.unary main_call4.c_1 main_call4.v5 (broadcastInDim S4096 ![] bcast_S_S4096),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4096 ![] bcast_S_S4096),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4096 ![] bcast_S_S4096),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4096 ![] bcast_S_S4096),
    StableHlo.TRef.binary main_call4.v4 main_call4.v13 main_call4.v14 addi,
    StableHlo.TRef.ternary main_call4.v12 main_call4.v14 main_call4.v4 main_call4.v15 select ]
/-- The buffers those operations write. -/
abbrev w49_W : List (Ref sig .tc) := [main_call4_c_1, main_call4_v5, main_call4_v6, main_call4_c_2, main_call4_v7, main_call4_v8, main_call4_c_3, main_call4_v9, main_call4_v10, main_call4_v11, main_call4_v12, main_call4_v13, main_call4_v14, main_v171]
theorem w49_sub : (w49 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem w49_fresh : (w49 : List (HloOp τ sig (Elt F))).Forall fun op => op.fresh = ∅ :=
  ⟨rfl, rfl, rfl, rfl, rfl, rfl, rfl, rfl, rfl, rfl, rfl, rfl, rfl, rfl⟩
theorem w49_writes : (w49 : List (HloOp τ sig (Elt F))).Forall fun op => op.writes ⊆ (w49_W.map (Proc.devRef (τ := τ) .tc)).toFinset := by
  simp only [List.Forall]; exact ⟨by wr1, by wr1, by wr1, by wr1, by wr1, by wr1, by wr1, by wr1, by wr1, by wr1, by wr1, by wr1, by wr1, by wr1⟩

/-- Operations 286–293, ending at `main_v177` (`cols`). -/
abbrev w50 : List (HloOp τ sig (Elt F)) :=
  [ StableHlo.unary main_v166 main_v172 ((transpose S768x4096 [1, 0] · transposes_S4096x768_S768x4096_1_0) : (⟨S4096x768, .f32⟩ : BufTy).Contents (Elt F) → (⟨S768x4096, .f32⟩ : BufTy).Contents (Elt F)),
    StableHlo.nullary main_c_22 (constantI S_ 32 0#32),
    StableHlo.unary main_c_22 main_v173 (broadcastInDim S4096 ![] bcast_S_S4096 : (⟨S_, .i32⟩ : BufTy).Contents (Elt F) → (⟨S4096, .i32⟩ : BufTy).Contents (Elt F)),
    StableHlo.binary main_v171 main_v173 main_v174 (cmpi .slt : (⟨S4096, .i32⟩ : BufTy).Contents (Elt F) → (⟨S4096, .i32⟩ : BufTy).Contents (Elt F) → (⟨S4096, .i1⟩ : BufTy).Contents (Elt F)),
    StableHlo.nullary main_c_23 (constantI S_ 32 65536#32),
    StableHlo.unary main_c_23 main_v175 (broadcastInDim S4096 ![] bcast_S_S4096 : (⟨S_, .i32⟩ : BufTy).Contents (Elt F) → (⟨S4096, .i32⟩ : BufTy).Contents (Elt F)),
    StableHlo.binary main_v171 main_v175 main_v176 (addi : (⟨S4096, .i32⟩ : BufTy).Contents (Elt F) → (⟨S4096, .i32⟩ : BufTy).Contents (Elt F) → (⟨S4096, .i32⟩ : BufTy).Contents (Elt F)),
    StableHlo.ternary main_v174 main_v176 main_v171 main_v177 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]
/-- The buffers those operations write. -/
abbrev w50_W : List (Ref sig .tc) := [main_v172, main_c_22, main_v173, main_v174, main_c_23, main_v175, main_v176, main_v177]
theorem w50_sub : (w50 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub ..⟩
theorem w50_fresh : (w50 : List (HloOp τ sig (Elt F))).Forall fun op => op.fresh = ∅ :=
  ⟨rfl, rfl, rfl, rfl, rfl, rfl, rfl, rfl⟩
theorem w50_writes : (w50 : List (HloOp τ sig (Elt F))).Forall fun op => op.writes ⊆ (w50_W.map (Proc.devRef (τ := τ) .tc)).toFinset := by
  simp only [List.Forall]; exact ⟨by wr1, by wr1, by wr1, by wr1, by wr1, by wr1, by wr1, by wr1⟩

/-- Operations 294–295, ending at `main_v179` (`queue`). -/
abbrev w51 : List (HloOp τ sig (Elt F)) :=
  [ StableHlo.unary main_v177 main_v178 (broadcastInDim S4096x1 ![0] bcast_S4096_S4096x1_0 : (⟨S4096, .i32⟩ : BufTy).Contents (Elt F) → (⟨S4096x1, .i32⟩ : BufTy).Contents (Elt F)),
    StableHlo.ternary main_arg18 main_v178 main_v172 main_v179 ((fun x i u => Host.scatter scatter_S768x65536_S4096x1_S768x4096_0_1_1_1 (fun _ b => b) x i u) : (⟨S768x65536, .f32⟩ : BufTy).Contents (Elt F) → (⟨S4096x1, .i32⟩ : BufTy).Contents (Elt F) → (⟨S768x4096, .f32⟩ : BufTy).Contents (Elt F) → (⟨S768x65536, .f32⟩ : BufTy).Contents (Elt F)) ]
/-- The buffers those operations write. -/
abbrev w51_W : List (Ref sig .tc) := [main_v178, main_v179]
theorem w51_sub : (w51 : List (HloOp τ sig (Elt F))).Forall fun op => op.bufs ⊆ tcRefs τ sig :=
  ⟨unary_bufs_sub .., ternary_bufs_sub ..⟩
theorem w51_fresh : (w51 : List (HloOp τ sig (Elt F))).Forall fun op => op.fresh = ∅ :=
  ⟨rfl, rfl⟩
theorem w51_writes : (w51 : List (HloOp τ sig (Elt F))).Forall fun op => op.writes ⊆ (w51_W.map (Proc.devRef (τ := τ) .tc)).toFinset := by
  simp only [List.Forall]; exact ⟨by wr1, by wr1⟩

/-- Operations 296–299, ending at `main_call5_v0` (`t_call5_v0`). -/
abbrev w52 : List (HloOp τ sig (Elt F)) :=
  [ StableHlo.nullary main_c_24 (constantI S_ 32 4096#32),
    StableHlo.binary main_v167 main_c_24 main_v180 (addi : (⟨S_, .i32⟩ : BufTy).Contents (Elt F) → (⟨S_, .i32⟩ : BufTy).Contents (Elt F) → (⟨S_, .i32⟩ : BufTy).Contents (Elt F)),
    StableHlo.nullary main_c_25 (constantI S_ 32 65536#32),
    StableHlo.TRef.unary (.of main_c_25 : StableHlo.TRef sig ⟨S_, .i32⟩) main_call5.v0 id ]
/-- The buffers those operations write. -/
abbrev w52_W : List (Ref sig .tc) := [main_c_24, main_v180, main_c_25, main_call5_v0]
theorem w52_sub : (w52 : List (HloOp τ sig (Elt F))).Forall fun op => op.bufs ⊆ tcRefs τ sig :=
  ⟨nullary_bufs_sub .., binary_bufs_sub .., nullary_bufs_sub .., unary_bufs_sub ..⟩
theorem w52_fresh : (w52 : List (HloOp τ sig (Elt F))).Forall fun op => op.fresh = ∅ :=
  ⟨rfl, rfl, rfl, rfl⟩
theorem w52_writes : (w52 : List (HloOp τ sig (Elt F))).Forall fun op => op.writes ⊆ (w52_W.map (Proc.devRef (τ := τ) .tc)).toFinset := by
  simp only [List.Forall]; exact ⟨by wr1, by wr1, by wr1, by wr1⟩

/-- Operations 300–303, ending at `main_call5_v2` (`t_call5_v2`). -/
abbrev w53 : List (HloOp τ sig (Elt F)) :=
  [ StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select ]
/-- The buffers those operations write. -/
abbrev w53_W : List (Ref sig .tc) := [main_call5_c, main_call5_v1, main_call5_c_0, main_call5_v2]
theorem w53_sub : (w53 : List (HloOp τ sig (Elt F))).Forall fun op => op.bufs ⊆ tcRefs τ sig :=
  ⟨nullary_bufs_sub .., binary_bufs_sub .., nullary_bufs_sub .., ternary_bufs_sub ..⟩
theorem w53_fresh : (w53 : List (HloOp τ sig (Elt F))).Forall fun op => op.fresh = ∅ :=
  ⟨rfl, rfl, rfl, rfl⟩
theorem w53_writes : (w53 : List (HloOp τ sig (Elt F))).Forall fun op => op.writes ⊆ (w53_W.map (Proc.devRef (τ := τ) .tc)).toFinset := by
  simp only [List.Forall]; exact ⟨by wr1, by wr1, by wr1, by wr1⟩

/-- Operations 304–304, ending at `main_call5_v3` (`t_call5_v3`). -/
abbrev w54 : List (HloOp τ sig (Elt F)) :=
  [ StableHlo.TRef.binary (.of main_v180 : StableHlo.TRef sig ⟨S_, .i32⟩) main_call5.call0.v0 main_call5.v3 Host.remsi ]
/-- The buffers those operations write. -/
abbrev w54_W : List (Ref sig .tc) := [main_call5_v3]
theorem w54_sub : (w54 : List (HloOp τ sig (Elt F))).Forall fun op => op.bufs ⊆ tcRefs τ sig :=
  binary_bufs_sub ..
theorem w54_fresh : (w54 : List (HloOp τ sig (Elt F))).Forall fun op => op.fresh = ∅ :=
  rfl
theorem w54_writes : (w54 : List (HloOp τ sig (Elt F))).Forall fun op => op.writes ⊆ (w54_W.map (Proc.devRef (τ := τ) .tc)).toFinset := by
  simp only [List.Forall]; exact (by wr1)

/-- Operations 305–314, ending at `main_v181` (`ptrm`). -/
abbrev w55 : List (HloOp τ sig (Elt F)) :=
  [ StableHlo.TRef.nullary main_call5.c_1 (constantI S_ 32 0#32),
    StableHlo.TRef.binary main_call5.v3 main_call5.c_1 main_call5.v4 (cmpi .ne),
    StableHlo.TRef.nullary main_call5.c_2 (constantI S_ 32 0#32),
    StableHlo.TRef.binary main_call5.v3 main_call5.c_2 main_call5.v5 (cmpi .slt),
    StableHlo.TRef.nullary main_call5.c_3 (constantI S_ 32 0#32),
    StableHlo.TRef.binary main_call5.call0.v0 main_call5.c_3 main_call5.v6 (cmpi .slt),
    StableHlo.TRef.binary main_call5.v5 main_call5.v6 main_call5.v7 (cmpi .ne),
    StableHlo.TRef.binary main_call5.v7 main_call5.v4 main_call5.v8 andi,
    StableHlo.TRef.binary main_call5.v3 main_call5.call0.v0 main_call5.v9 addi,
    StableHlo.TRef.ternary main_call5.v8 main_call5.v9 main_call5.v3 main_call5.v10 select ]
/-- The buffers those operations write. -/
abbrev w55_W : List (Ref sig .tc) := [main_call5_c_1, main_call5_v4, main_call5_c_2, main_call5_v5, main_call5_c_3, main_call5_v6, main_call5_v7, main_call5_v8, main_call5_v9, main_v181]
theorem w55_sub : (w55 : List (HloOp τ sig (Elt F))).Forall fun op => op.bufs ⊆ tcRefs τ sig :=
  ⟨nullary_bufs_sub .., binary_bufs_sub .., nullary_bufs_sub .., binary_bufs_sub .., nullary_bufs_sub .., binary_bufs_sub .., binary_bufs_sub .., binary_bufs_sub .., binary_bufs_sub .., ternary_bufs_sub ..⟩
theorem w55_fresh : (w55 : List (HloOp τ sig (Elt F))).Forall fun op => op.fresh = ∅ :=
  ⟨rfl, rfl, rfl, rfl, rfl, rfl, rfl, rfl, rfl, rfl⟩
theorem w55_writes : (w55 : List (HloOp τ sig (Elt F))).Forall fun op => op.writes ⊆ (w55_W.map (Proc.devRef (τ := τ) .tc)).toFinset := by
  simp only [List.Forall]; exact ⟨by wr1, by wr1, by wr1, by wr1, by wr1, by wr1, by wr1, by wr1, by wr1, by wr1⟩

/-- Operations 315–315, ending at `main_v182` (`newptr`). -/
abbrev w56 : List (HloOp τ sig (Elt F)) :=
  [ StableHlo.reshape main_v181 main_v182 rfl shapeCasts_S_S1 ]
/-- The buffers those operations write. -/
abbrev w56_W : List (Ref sig .tc) := [main_v182]
theorem w56_sub : (w56 : List (HloOp τ sig (Elt F))).Forall fun op => op.bufs ⊆ tcRefs τ sig :=
  reshape_bufs_sub ..
theorem w56_fresh : (w56 : List (HloOp τ sig (Elt F))).Forall fun op => op.fresh = ∅ :=
  rfl
theorem w56_writes : (w56 : List (HloOp τ sig (Elt F))).Forall fun op => op.writes ⊆ (w56_W.map (Proc.devRef (τ := τ) .tc)).toFinset := by
  simp only [List.Forall]; exact (by wr1)

/-- The operations of @main's printed window 0. -/
abbrev ops0 : List (HloOp τ sig (Elt F)) :=
  w0 ++ (w1 ++ (w2 ++ (w3 ++ (w4 ++ (w5 ++ (w6 ++ (w7 ++ (w8 ++ (w9 ++ (w10))))))))))

/-- The operations of @main's printed window 1. -/
abbrev ops1 : List (HloOp τ sig (Elt F)) :=
  w11 ++ (w12 ++ (w13 ++ (w14 ++ (w15 ++ (w16 ++ (w17 ++ (w18 ++ (w19 ++ (w20 ++ (w21 ++ (w22 ++ (w23))))))))))))

/-- The operations of @main's printed window 2. -/
abbrev ops2 : List (HloOp τ sig (Elt F)) :=
  w24 ++ (w25 ++ (w26 ++ (w27 ++ (w28 ++ (w29 ++ (w30 ++ (w31 ++ (w32 ++ (w33 ++ (w34 ++ (w35 ++ (w36 ++ (w37 ++ (w38 ++ (w39 ++ (w40))))))))))))))))

/-- The operations of @main's printed window 3. -/
abbrev ops3 : List (HloOp τ sig (Elt F)) :=
  w41 ++ (w42 ++ (w43 ++ (w44 ++ (w45 ++ (w46 ++ (w47 ++ (w48 ++ (w49 ++ (w50 ++ (w51 ++ (w52 ++ (w53 ++ (w54 ++ (w55 ++ (w56)))))))))))))))

/-- @main's 316 operations, in order. -/
abbrev ops : List (HloOp τ sig (Elt F)) :=
  ops0 ++ (ops1 ++ (ops2 ++ ops3))

/-- Printed window 0 is its operations run in order. -/
theorem main_part0_eq (c : Dev nD) : main_part0 (F := F) c = seq ops0 := by
  rfl

/-- Printed window 1 is its operations run in order: the called functions' bodies unfolded at their calls, sequencing reassociated. -/
theorem main_part1_eq (c : Dev nD) : main_part1 (F := F) c = seq ops1 := by
  simp only [main_part1, fn_var.body, fn_where.body, bind_assoc, pure_bind]
  rfl

/-- Printed window 2 is its operations run in order: the called functions' bodies unfolded at their calls, sequencing reassociated. -/
theorem main_part2_eq (c : Dev nD) : main_part2 (F := F) c = seq ops2 := by
  simp only [main_part2, fn_var.body, fn_where.body, bind_assoc, pure_bind]
  rfl

/-- Printed window 3 is its operations run in order: the called functions' bodies unfolded at their calls, sequencing reassociated. -/
theorem main_part3_eq (c : Dev nD) : main_part3 (F := F) c = seq ops3 := by
  simp only [main_part3, fn_norm.body, fn_remainder.body, fn_remainder_1.body, fn_where_0.body, bind_assoc, pure_bind]
  rfl

/-- @main is the four windows in order, hence the whole list run in order. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the list is in one of the stretches. -/
theorem mem_ops {op : HloOp τ sig (Elt F)} (h : op ∈ (ops : List (HloOp τ sig (Elt F)))) :
    op ∈ (w0 : List (HloOp τ sig (Elt F))) ∨ op ∈ (w1 : List (HloOp τ sig (Elt F))) ∨ op ∈ (w2 : List (HloOp τ sig (Elt F))) ∨ op ∈ (w3 : List (HloOp τ sig (Elt F))) ∨ op ∈ (w4 : List (HloOp τ sig (Elt F))) ∨ op ∈ (w5 : List (HloOp τ sig (Elt F))) ∨ op ∈ (w6 : List (HloOp τ sig (Elt F))) ∨ op ∈ (w7 : List (HloOp τ sig (Elt F))) ∨ op ∈ (w8 : List (HloOp τ sig (Elt F))) ∨ op ∈ (w9 : List (HloOp τ sig (Elt F))) ∨ op ∈ (w10 : List (HloOp τ sig (Elt F))) ∨ op ∈ (w11 : List (HloOp τ sig (Elt F))) ∨ op ∈ (w12 : List (HloOp τ sig (Elt F))) ∨ op ∈ (w13 : List (HloOp τ sig (Elt F))) ∨ op ∈ (w14 : List (HloOp τ sig (Elt F))) ∨ op ∈ (w15 : List (HloOp τ sig (Elt F))) ∨ op ∈ (w16 : List (HloOp τ sig (Elt F))) ∨ op ∈ (w17 : List (HloOp τ sig (Elt F))) ∨ op ∈ (w18 : List (HloOp τ sig (Elt F))) ∨ op ∈ (w19 : List (HloOp τ sig (Elt F))) ∨ op ∈ (w20 : List (HloOp τ sig (Elt F))) ∨ op ∈ (w21 : List (HloOp τ sig (Elt F))) ∨ op ∈ (w22 : List (HloOp τ sig (Elt F))) ∨ op ∈ (w23 : List (HloOp τ sig (Elt F))) ∨ op ∈ (w24 : List (HloOp τ sig (Elt F))) ∨ op ∈ (w25 : List (HloOp τ sig (Elt F))) ∨ op ∈ (w26 : List (HloOp τ sig (Elt F))) ∨ op ∈ (w27 : List (HloOp τ sig (Elt F))) ∨ op ∈ (w28 : List (HloOp τ sig (Elt F))) ∨ op ∈ (w29 : List (HloOp τ sig (Elt F))) ∨ op ∈ (w30 : List (HloOp τ sig (Elt F))) ∨ op ∈ (w31 : List (HloOp τ sig (Elt F))) ∨ op ∈ (w32 : List (HloOp τ sig (Elt F))) ∨ op ∈ (w33 : List (HloOp τ sig (Elt F))) ∨ op ∈ (w34 : List (HloOp τ sig (Elt F))) ∨ op ∈ (w35 : List (HloOp τ sig (Elt F))) ∨ op ∈ (w36 : List (HloOp τ sig (Elt F))) ∨ op ∈ (w37 : List (HloOp τ sig (Elt F))) ∨ op ∈ (w38 : List (HloOp τ sig (Elt F))) ∨ op ∈ (w39 : List (HloOp τ sig (Elt F))) ∨ op ∈ (w40 : List (HloOp τ sig (Elt F))) ∨ op ∈ (w41 : List (HloOp τ sig (Elt F))) ∨ op ∈ (w42 : List (HloOp τ sig (Elt F))) ∨ op ∈ (w43 : List (HloOp τ sig (Elt F))) ∨ op ∈ (w44 : List (HloOp τ sig (Elt F))) ∨ op ∈ (w45 : List (HloOp τ sig (Elt F))) ∨ op ∈ (w46 : List (HloOp τ sig (Elt F))) ∨ op ∈ (w47 : List (HloOp τ sig (Elt F))) ∨ op ∈ (w48 : List (HloOp τ sig (Elt F))) ∨ op ∈ (w49 : List (HloOp τ sig (Elt F))) ∨ op ∈ (w50 : List (HloOp τ sig (Elt F))) ∨ op ∈ (w51 : List (HloOp τ sig (Elt F))) ∨ op ∈ (w52 : List (HloOp τ sig (Elt F))) ∨ op ∈ (w53 : List (HloOp τ sig (Elt F))) ∨ op ∈ (w54 : List (HloOp τ sig (Elt F))) ∨ op ∈ (w55 : List (HloOp τ sig (Elt F))) ∨ op ∈ (w56 : List (HloOp τ sig (Elt F))) := by
  simpa only [ops, ops0, ops1, ops2, ops3, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h | h | h | h | h | h | h | h | h | h | h | h | h | h | h | h | h | h | h | h | h | h | h | h | h | h | h | h | h | h | h | h | h | h | h | h | h | h | h | h | h | h | h | h | h | h | h | h | h
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h, List.forall_iff_forall_mem.mp w13_sub op h, List.forall_iff_forall_mem.mp w14_sub op h, List.forall_iff_forall_mem.mp w15_sub op h, List.forall_iff_forall_mem.mp w16_sub op h, List.forall_iff_forall_mem.mp w17_sub op h, List.forall_iff_forall_mem.mp w18_sub op h, List.forall_iff_forall_mem.mp w19_sub op h, List.forall_iff_forall_mem.mp w20_sub op h, List.forall_iff_forall_mem.mp w21_sub op h, List.forall_iff_forall_mem.mp w22_sub op h, List.forall_iff_forall_mem.mp w23_sub op h, List.forall_iff_forall_mem.mp w24_sub op h, List.forall_iff_forall_mem.mp w25_sub op h, List.forall_iff_forall_mem.mp w26_sub op h, List.forall_iff_forall_mem.mp w27_sub op h, List.forall_iff_forall_mem.mp w28_sub op h, List.forall_iff_forall_mem.mp w29_sub op h, List.forall_iff_forall_mem.mp w30_sub op h, List.forall_iff_forall_mem.mp w31_sub op h, List.forall_iff_forall_mem.mp w32_sub op h, List.forall_iff_forall_mem.mp w33_sub op h, List.forall_iff_forall_mem.mp w34_sub op h, List.forall_iff_forall_mem.mp w35_sub op h, List.forall_iff_forall_mem.mp w36_sub op h, List.forall_iff_forall_mem.mp w37_sub op h, List.forall_iff_forall_mem.mp w38_sub op h, List.forall_iff_forall_mem.mp w39_sub op h, List.forall_iff_forall_mem.mp w40_sub op h, List.forall_iff_forall_mem.mp w41_sub op h, List.forall_iff_forall_mem.mp w42_sub op h, List.forall_iff_forall_mem.mp w43_sub op h, List.forall_iff_forall_mem.mp w44_sub op h, List.forall_iff_forall_mem.mp w45_sub op h, List.forall_iff_forall_mem.mp w46_sub op h, List.forall_iff_forall_mem.mp w47_sub op h, List.forall_iff_forall_mem.mp w48_sub op h, List.forall_iff_forall_mem.mp w49_sub op h, List.forall_iff_forall_mem.mp w50_sub op h, List.forall_iff_forall_mem.mp w51_sub op h, List.forall_iff_forall_mem.mp w52_sub op h, List.forall_iff_forall_mem.mp w53_sub op h, List.forall_iff_forall_mem.mp w54_sub op h, List.forall_iff_forall_mem.mp w55_sub op h, List.forall_iff_forall_mem.mp w56_sub op h]

theorem ops_fresh : ∀ op ∈ (ops : List (HloOp τ sig (Elt F))), op.fresh = ∅ := fun op h => by
    rcases mem_ops h with h | h | h | h | h | h | h | h | h | h | h | h | h | h | h | h | h | h | h | h | h | h | h | h | h | h | h | h | h | h | h | h | h | h | h | h | h | h | h | h | h | h | h | h | h | h | h | h | h | h | h | h | h | h | h | h | h
    exacts [List.forall_iff_forall_mem.mp w0_fresh op h, List.forall_iff_forall_mem.mp w1_fresh op h, List.forall_iff_forall_mem.mp w2_fresh op h, List.forall_iff_forall_mem.mp w3_fresh op h, List.forall_iff_forall_mem.mp w4_fresh op h, List.forall_iff_forall_mem.mp w5_fresh op h, List.forall_iff_forall_mem.mp w6_fresh op h, List.forall_iff_forall_mem.mp w7_fresh op h, List.forall_iff_forall_mem.mp w8_fresh op h, List.forall_iff_forall_mem.mp w9_fresh op h, List.forall_iff_forall_mem.mp w10_fresh op h, List.forall_iff_forall_mem.mp w11_fresh op h, List.forall_iff_forall_mem.mp w12_fresh op h, List.forall_iff_forall_mem.mp w13_fresh op h, List.forall_iff_forall_mem.mp w14_fresh op h, List.forall_iff_forall_mem.mp w15_fresh op h, List.forall_iff_forall_mem.mp w16_fresh op h, List.forall_iff_forall_mem.mp w17_fresh op h, List.forall_iff_forall_mem.mp w18_fresh op h, List.forall_iff_forall_mem.mp w19_fresh op h, List.forall_iff_forall_mem.mp w20_fresh op h, List.forall_iff_forall_mem.mp w21_fresh op h, List.forall_iff_forall_mem.mp w22_fresh op h, List.forall_iff_forall_mem.mp w23_fresh op h, List.forall_iff_forall_mem.mp w24_fresh op h, List.forall_iff_forall_mem.mp w25_fresh op h, List.forall_iff_forall_mem.mp w26_fresh op h, List.forall_iff_forall_mem.mp w27_fresh op h, List.forall_iff_forall_mem.mp w28_fresh op h, List.forall_iff_forall_mem.mp w29_fresh op h, List.forall_iff_forall_mem.mp w30_fresh op h, List.forall_iff_forall_mem.mp w31_fresh op h, List.forall_iff_forall_mem.mp w32_fresh op h, List.forall_iff_forall_mem.mp w33_fresh op h, List.forall_iff_forall_mem.mp w34_fresh op h, List.forall_iff_forall_mem.mp w35_fresh op h, List.forall_iff_forall_mem.mp w36_fresh op h, List.forall_iff_forall_mem.mp w37_fresh op h, List.forall_iff_forall_mem.mp w38_fresh op h, List.forall_iff_forall_mem.mp w39_fresh op h, List.forall_iff_forall_mem.mp w40_fresh op h, List.forall_iff_forall_mem.mp w41_fresh op h, List.forall_iff_forall_mem.mp w42_fresh op h, List.forall_iff_forall_mem.mp w43_fresh op h, List.forall_iff_forall_mem.mp w44_fresh op h, List.forall_iff_forall_mem.mp w45_fresh op h, List.forall_iff_forall_mem.mp w46_fresh op h, List.forall_iff_forall_mem.mp w47_fresh op h, List.forall_iff_forall_mem.mp w48_fresh op h, List.forall_iff_forall_mem.mp w49_fresh op h, List.forall_iff_forall_mem.mp w50_fresh op h, List.forall_iff_forall_mem.mp w51_fresh op h, List.forall_iff_forall_mem.mp w52_fresh op h, List.forall_iff_forall_mem.mp w53_fresh op h, List.forall_iff_forall_mem.mp w54_fresh op h, List.forall_iff_forall_mem.mp w55_fresh op h, List.forall_iff_forall_mem.mp w56_fresh op h]

/-- On every device, for any float values, from any memory with zero counters: every weakly fair execution of @main
    terminates, and every final state has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The contents stretch by stretch -/

/-- The buffer contents before the first stretch. -/
def val0 (V0 : Valuation τ sig (Elt F)) : Valuation τ sig (Elt F) := V0

/-- The buffer contents after the first 1 stretch. -/
def val1 (V0 : Valuation τ sig (Elt F)) : Valuation τ sig (Elt F) := after w0 (val0 V0)
/-- A buffer that stretch 0 does not write keeps its contents through it. -/
theorem val1_keep (V0 : Valuation τ sig (Elt F)) (r : Ref sig .tc) (h : r ∉ w0_W) :
    val1 V0 (Proc.devRef .tc r) = val0 V0 (Proc.devRef .tc r) :=
  after_of_writes_sub w0 _ w0_writes h

/-- The buffer contents after the first 2 stretches. -/
def val2 (V0 : Valuation τ sig (Elt F)) : Valuation τ sig (Elt F) := after w1 (val1 V0)
/-- A buffer that stretch 1 does not write keeps its contents through it. -/
theorem val2_keep (V0 : Valuation τ sig (Elt F)) (r : Ref sig .tc) (h : r ∉ w1_W) :
    val2 V0 (Proc.devRef .tc r) = val1 V0 (Proc.devRef .tc r) :=
  after_of_writes_sub w1 _ w1_writes h

/-- The buffer contents after the first 3 stretches. -/
def val3 (V0 : Valuation τ sig (Elt F)) : Valuation τ sig (Elt F) := after w2 (val2 V0)
/-- A buffer that stretch 2 does not write keeps its contents through it. -/
theorem val3_keep (V0 : Valuation τ sig (Elt F)) (r : Ref sig .tc) (h : r ∉ w2_W) :
    val3 V0 (Proc.devRef .tc r) = val2 V0 (Proc.devRef .tc r) :=
  after_of_writes_sub w2 _ w2_writes h

/-- The buffer contents after the first 4 stretches. -/
def val4 (V0 : Valuation τ sig (Elt F)) : Valuation τ sig (Elt F) := after w3 (val3 V0)
/-- A buffer that stretch 3 does not write keeps its contents through it. -/
theorem val4_keep (V0 : Valuation τ sig (Elt F)) (r : Ref sig .tc) (h : r ∉ w3_W) :
    val4 V0 (Proc.devRef .tc r) = val3 V0 (Proc.devRef .tc r) :=
  after_of_writes_sub w3 _ w3_writes h

/-- The buffer contents after the first 5 stretches. -/
def val5 (V0 : Valuation τ sig (Elt F)) : Valuation τ sig (Elt F) := after w4 (val4 V0)
/-- A buffer that stretch 4 does not write keeps its contents through it. -/
theorem val5_keep (V0 : Valuation τ sig (Elt F)) (r : Ref sig .tc) (h : r ∉ w4_W) :
    val5 V0 (Proc.devRef .tc r) = val4 V0 (Proc.devRef .tc r) :=
  after_of_writes_sub w4 _ w4_writes h

/-- The buffer contents after the first 6 stretches. -/
def val6 (V0 : Valuation τ sig (Elt F)) : Valuation τ sig (Elt F) := after w5 (val5 V0)
/-- A buffer that stretch 5 does not write keeps its contents through it. -/
theorem val6_keep (V0 : Valuation τ sig (Elt F)) (r : Ref sig .tc) (h : r ∉ w5_W) :
    val6 V0 (Proc.devRef .tc r) = val5 V0 (Proc.devRef .tc r) :=
  after_of_writes_sub w5 _ w5_writes h

/-- The buffer contents after the first 7 stretches. -/
def val7 (V0 : Valuation τ sig (Elt F)) : Valuation τ sig (Elt F) := after w6 (val6 V0)
/-- A buffer that stretch 6 does not write keeps its contents through it. -/
theorem val7_keep (V0 : Valuation τ sig (Elt F)) (r : Ref sig .tc) (h : r ∉ w6_W) :
    val7 V0 (Proc.devRef .tc r) = val6 V0 (Proc.devRef .tc r) :=
  after_of_writes_sub w6 _ w6_writes h

/-- The buffer contents after the first 8 stretches. -/
def val8 (V0 : Valuation τ sig (Elt F)) : Valuation τ sig (Elt F) := after w7 (val7 V0)
/-- A buffer that stretch 7 does not write keeps its contents through it. -/
theorem val8_keep (V0 : Valuation τ sig (Elt F)) (r : Ref sig .tc) (h : r ∉ w7_W) :
    val8 V0 (Proc.devRef .tc r) = val7 V0 (Proc.devRef .tc r) :=
  after_of_writes_sub w7 _ w7_writes h

/-- The buffer contents after the first 9 stretches. -/
def val9 (V0 : Valuation τ sig (Elt F)) : Valuation τ sig (Elt F) := after w8 (val8 V0)
/-- A buffer that stretch 8 does not write keeps its contents through it. -/
theorem val9_keep (V0 : Valuation τ sig (Elt F)) (r : Ref sig .tc) (h : r ∉ w8_W) :
    val9 V0 (Proc.devRef .tc r) = val8 V0 (Proc.devRef .tc r) :=
  after_of_writes_sub w8 _ w8_writes h

/-- The buffer contents after the first 10 stretches. -/
def val10 (V0 : Valuation τ sig (Elt F)) : Valuation τ sig (Elt F) := after w9 (val9 V0)
/-- A buffer that stretch 9 does not write keeps its contents through it. -/
theorem val10_keep (V0 : Valuation τ sig (Elt F)) (r : Ref sig .tc) (h : r ∉ w9_W) :
    val10 V0 (Proc.devRef .tc r) = val9 V0 (Proc.devRef .tc r) :=
  after_of_writes_sub w9 _ w9_writes h

/-- The buffer contents after the first 11 stretches. -/
def val11 (V0 : Valuation τ sig (Elt F)) : Valuation τ sig (Elt F) := after w10 (val10 V0)
/-- A buffer that stretch 10 does not write keeps its contents through it. -/
theorem val11_keep (V0 : Valuation τ sig (Elt F)) (r : Ref sig .tc) (h : r ∉ w10_W) :
    val11 V0 (Proc.devRef .tc r) = val10 V0 (Proc.devRef .tc r) :=
  after_of_writes_sub w10 _ w10_writes h

/-- The buffer contents after the first 12 stretches. -/
def val12 (V0 : Valuation τ sig (Elt F)) : Valuation τ sig (Elt F) := after w11 (val11 V0)
/-- A buffer that stretch 11 does not write keeps its contents through it. -/
theorem val12_keep (V0 : Valuation τ sig (Elt F)) (r : Ref sig .tc) (h : r ∉ w11_W) :
    val12 V0 (Proc.devRef .tc r) = val11 V0 (Proc.devRef .tc r) :=
  after_of_writes_sub w11 _ w11_writes h

/-- The buffer contents after the first 13 stretches. -/
def val13 (V0 : Valuation τ sig (Elt F)) : Valuation τ sig (Elt F) := after w12 (val12 V0)
/-- A buffer that stretch 12 does not write keeps its contents through it. -/
theorem val13_keep (V0 : Valuation τ sig (Elt F)) (r : Ref sig .tc) (h : r ∉ w12_W) :
    val13 V0 (Proc.devRef .tc r) = val12 V0 (Proc.devRef .tc r) :=
  after_of_writes_sub w12 _ w12_writes h

/-- The buffer contents after the first 14 stretches. -/
def val14 (V0 : Valuation τ sig (Elt F)) : Valuation τ sig (Elt F) := after w13 (val13 V0)
/-- A buffer that stretch 13 does not write keeps its contents through it. -/
theorem val14_keep (V0 : Valuation τ sig (Elt F)) (r : Ref sig .tc) (h : r ∉ w13_W) :
    val14 V0 (Proc.devRef .tc r) = val13 V0 (Proc.devRef .tc r) :=
  after_of_writes_sub w13 _ w13_writes h

/-- The buffer contents after the first 15 stretches. -/
def val15 (V0 : Valuation τ sig (Elt F)) : Valuation τ sig (Elt F) := after w14 (val14 V0)
/-- A buffer that stretch 14 does not write keeps its contents through it. -/
theorem val15_keep (V0 : Valuation τ sig (Elt F)) (r : Ref sig .tc) (h : r ∉ w14_W) :
    val15 V0 (Proc.devRef .tc r) = val14 V0 (Proc.devRef .tc r) :=
  after_of_writes_sub w14 _ w14_writes h

/-- The buffer contents after the first 16 stretches. -/
def val16 (V0 : Valuation τ sig (Elt F)) : Valuation τ sig (Elt F) := after w15 (val15 V0)
/-- A buffer that stretch 15 does not write keeps its contents through it. -/
theorem val16_keep (V0 : Valuation τ sig (Elt F)) (r : Ref sig .tc) (h : r ∉ w15_W) :
    val16 V0 (Proc.devRef .tc r) = val15 V0 (Proc.devRef .tc r) :=
  after_of_writes_sub w15 _ w15_writes h

/-- The buffer contents after the first 17 stretches. -/
def val17 (V0 : Valuation τ sig (Elt F)) : Valuation τ sig (Elt F) := after w16 (val16 V0)
/-- A buffer that stretch 16 does not write keeps its contents through it. -/
theorem val17_keep (V0 : Valuation τ sig (Elt F)) (r : Ref sig .tc) (h : r ∉ w16_W) :
    val17 V0 (Proc.devRef .tc r) = val16 V0 (Proc.devRef .tc r) :=
  after_of_writes_sub w16 _ w16_writes h

/-- The buffer contents after the first 18 stretches. -/
def val18 (V0 : Valuation τ sig (Elt F)) : Valuation τ sig (Elt F) := after w17 (val17 V0)
/-- A buffer that stretch 17 does not write keeps its contents through it. -/
theorem val18_keep (V0 : Valuation τ sig (Elt F)) (r : Ref sig .tc) (h : r ∉ w17_W) :
    val18 V0 (Proc.devRef .tc r) = val17 V0 (Proc.devRef .tc r) :=
  after_of_writes_sub w17 _ w17_writes h

/-- The buffer contents after the first 19 stretches. -/
def val19 (V0 : Valuation τ sig (Elt F)) : Valuation τ sig (Elt F) := after w18 (val18 V0)
/-- A buffer that stretch 18 does not write keeps its contents through it. -/
theorem val19_keep (V0 : Valuation τ sig (Elt F)) (r : Ref sig .tc) (h : r ∉ w18_W) :
    val19 V0 (Proc.devRef .tc r) = val18 V0 (Proc.devRef .tc r) :=
  after_of_writes_sub w18 _ w18_writes h

/-- The buffer contents after the first 20 stretches. -/
def val20 (V0 : Valuation τ sig (Elt F)) : Valuation τ sig (Elt F) := after w19 (val19 V0)
/-- A buffer that stretch 19 does not write keeps its contents through it. -/
theorem val20_keep (V0 : Valuation τ sig (Elt F)) (r : Ref sig .tc) (h : r ∉ w19_W) :
    val20 V0 (Proc.devRef .tc r) = val19 V0 (Proc.devRef .tc r) :=
  after_of_writes_sub w19 _ w19_writes h

/-- The buffer contents after the first 21 stretches. -/
def val21 (V0 : Valuation τ sig (Elt F)) : Valuation τ sig (Elt F) := after w20 (val20 V0)
/-- A buffer that stretch 20 does not write keeps its contents through it. -/
theorem val21_keep (V0 : Valuation τ sig (Elt F)) (r : Ref sig .tc) (h : r ∉ w20_W) :
    val21 V0 (Proc.devRef .tc r) = val20 V0 (Proc.devRef .tc r) :=
  after_of_writes_sub w20 _ w20_writes h

/-- The buffer contents after the first 22 stretches. -/
def val22 (V0 : Valuation τ sig (Elt F)) : Valuation τ sig (Elt F) := after w21 (val21 V0)
/-- A buffer that stretch 21 does not write keeps its contents through it. -/
theorem val22_keep (V0 : Valuation τ sig (Elt F)) (r : Ref sig .tc) (h : r ∉ w21_W) :
    val22 V0 (Proc.devRef .tc r) = val21 V0 (Proc.devRef .tc r) :=
  after_of_writes_sub w21 _ w21_writes h

/-- The buffer contents after the first 23 stretches. -/
def val23 (V0 : Valuation τ sig (Elt F)) : Valuation τ sig (Elt F) := after w22 (val22 V0)
/-- A buffer that stretch 22 does not write keeps its contents through it. -/
theorem val23_keep (V0 : Valuation τ sig (Elt F)) (r : Ref sig .tc) (h : r ∉ w22_W) :
    val23 V0 (Proc.devRef .tc r) = val22 V0 (Proc.devRef .tc r) :=
  after_of_writes_sub w22 _ w22_writes h

/-- The buffer contents after the first 24 stretches. -/
def val24 (V0 : Valuation τ sig (Elt F)) : Valuation τ sig (Elt F) := after w23 (val23 V0)
/-- A buffer that stretch 23 does not write keeps its contents through it. -/
theorem val24_keep (V0 : Valuation τ sig (Elt F)) (r : Ref sig .tc) (h : r ∉ w23_W) :
    val24 V0 (Proc.devRef .tc r) = val23 V0 (Proc.devRef .tc r) :=
  after_of_writes_sub w23 _ w23_writes h

/-- The buffer contents after the first 25 stretches. -/
def val25 (V0 : Valuation τ sig (Elt F)) : Valuation τ sig (Elt F) := after w24 (val24 V0)
/-- A buffer that stretch 24 does not write keeps its contents through it. -/
theorem val25_keep (V0 : Valuation τ sig (Elt F)) (r : Ref sig .tc) (h : r ∉ w24_W) :
    val25 V0 (Proc.devRef .tc r) = val24 V0 (Proc.devRef .tc r) :=
  after_of_writes_sub w24 _ w24_writes h

/-- The buffer contents after the first 26 stretches. -/
def val26 (V0 : Valuation τ sig (Elt F)) : Valuation τ sig (Elt F) := after w25 (val25 V0)
/-- A buffer that stretch 25 does not write keeps its contents through it. -/
theorem val26_keep (V0 : Valuation τ sig (Elt F)) (r : Ref sig .tc) (h : r ∉ w25_W) :
    val26 V0 (Proc.devRef .tc r) = val25 V0 (Proc.devRef .tc r) :=
  after_of_writes_sub w25 _ w25_writes h

/-- The buffer contents after the first 27 stretches. -/
def val27 (V0 : Valuation τ sig (Elt F)) : Valuation τ sig (Elt F) := after w26 (val26 V0)
/-- A buffer that stretch 26 does not write keeps its contents through it. -/
theorem val27_keep (V0 : Valuation τ sig (Elt F)) (r : Ref sig .tc) (h : r ∉ w26_W) :
    val27 V0 (Proc.devRef .tc r) = val26 V0 (Proc.devRef .tc r) :=
  after_of_writes_sub w26 _ w26_writes h

/-- The buffer contents after the first 28 stretches. -/
def val28 (V0 : Valuation τ sig (Elt F)) : Valuation τ sig (Elt F) := after w27 (val27 V0)
/-- A buffer that stretch 27 does not write keeps its contents through it. -/
theorem val28_keep (V0 : Valuation τ sig (Elt F)) (r : Ref sig .tc) (h : r ∉ w27_W) :
    val28 V0 (Proc.devRef .tc r) = val27 V0 (Proc.devRef .tc r) :=
  after_of_writes_sub w27 _ w27_writes h

/-- The buffer contents after the first 29 stretches. -/
def val29 (V0 : Valuation τ sig (Elt F)) : Valuation τ sig (Elt F) := after w28 (val28 V0)
/-- A buffer that stretch 28 does not write keeps its contents through it. -/
theorem val29_keep (V0 : Valuation τ sig (Elt F)) (r : Ref sig .tc) (h : r ∉ w28_W) :
    val29 V0 (Proc.devRef .tc r) = val28 V0 (Proc.devRef .tc r) :=
  after_of_writes_sub w28 _ w28_writes h

/-- The buffer contents after the first 30 stretches. -/
def val30 (V0 : Valuation τ sig (Elt F)) : Valuation τ sig (Elt F) := after w29 (val29 V0)
/-- A buffer that stretch 29 does not write keeps its contents through it. -/
theorem val30_keep (V0 : Valuation τ sig (Elt F)) (r : Ref sig .tc) (h : r ∉ w29_W) :
    val30 V0 (Proc.devRef .tc r) = val29 V0 (Proc.devRef .tc r) :=
  after_of_writes_sub w29 _ w29_writes h

/-- The buffer contents after the first 31 stretches. -/
def val31 (V0 : Valuation τ sig (Elt F)) : Valuation τ sig (Elt F) := after w30 (val30 V0)
/-- A buffer that stretch 30 does not write keeps its contents through it. -/
theorem val31_keep (V0 : Valuation τ sig (Elt F)) (r : Ref sig .tc) (h : r ∉ w30_W) :
    val31 V0 (Proc.devRef .tc r) = val30 V0 (Proc.devRef .tc r) :=
  after_of_writes_sub w30 _ w30_writes h

/-- The buffer contents after the first 32 stretches. -/
def val32 (V0 : Valuation τ sig (Elt F)) : Valuation τ sig (Elt F) := after w31 (val31 V0)
/-- A buffer that stretch 31 does not write keeps its contents through it. -/
theorem val32_keep (V0 : Valuation τ sig (Elt F)) (r : Ref sig .tc) (h : r ∉ w31_W) :
    val32 V0 (Proc.devRef .tc r) = val31 V0 (Proc.devRef .tc r) :=
  after_of_writes_sub w31 _ w31_writes h

/-- The buffer contents after the first 33 stretches. -/
def val33 (V0 : Valuation τ sig (Elt F)) : Valuation τ sig (Elt F) := after w32 (val32 V0)
/-- A buffer that stretch 32 does not write keeps its contents through it. -/
theorem val33_keep (V0 : Valuation τ sig (Elt F)) (r : Ref sig .tc) (h : r ∉ w32_W) :
    val33 V0 (Proc.devRef .tc r) = val32 V0 (Proc.devRef .tc r) :=
  after_of_writes_sub w32 _ w32_writes h

/-- The buffer contents after the first 34 stretches. -/
def val34 (V0 : Valuation τ sig (Elt F)) : Valuation τ sig (Elt F) := after w33 (val33 V0)
/-- A buffer that stretch 33 does not write keeps its contents through it. -/
theorem val34_keep (V0 : Valuation τ sig (Elt F)) (r : Ref sig .tc) (h : r ∉ w33_W) :
    val34 V0 (Proc.devRef .tc r) = val33 V0 (Proc.devRef .tc r) :=
  after_of_writes_sub w33 _ w33_writes h

/-- The buffer contents after the first 35 stretches. -/
def val35 (V0 : Valuation τ sig (Elt F)) : Valuation τ sig (Elt F) := after w34 (val34 V0)
/-- A buffer that stretch 34 does not write keeps its contents through it. -/
theorem val35_keep (V0 : Valuation τ sig (Elt F)) (r : Ref sig .tc) (h : r ∉ w34_W) :
    val35 V0 (Proc.devRef .tc r) = val34 V0 (Proc.devRef .tc r) :=
  after_of_writes_sub w34 _ w34_writes h

/-- The buffer contents after the first 36 stretches. -/
def val36 (V0 : Valuation τ sig (Elt F)) : Valuation τ sig (Elt F) := after w35 (val35 V0)
/-- A buffer that stretch 35 does not write keeps its contents through it. -/
theorem val36_keep (V0 : Valuation τ sig (Elt F)) (r : Ref sig .tc) (h : r ∉ w35_W) :
    val36 V0 (Proc.devRef .tc r) = val35 V0 (Proc.devRef .tc r) :=
  after_of_writes_sub w35 _ w35_writes h

/-- The buffer contents after the first 37 stretches. -/
def val37 (V0 : Valuation τ sig (Elt F)) : Valuation τ sig (Elt F) := after w36 (val36 V0)
/-- A buffer that stretch 36 does not write keeps its contents through it. -/
theorem val37_keep (V0 : Valuation τ sig (Elt F)) (r : Ref sig .tc) (h : r ∉ w36_W) :
    val37 V0 (Proc.devRef .tc r) = val36 V0 (Proc.devRef .tc r) :=
  after_of_writes_sub w36 _ w36_writes h

/-- The buffer contents after the first 38 stretches. -/
def val38 (V0 : Valuation τ sig (Elt F)) : Valuation τ sig (Elt F) := after w37 (val37 V0)
/-- A buffer that stretch 37 does not write keeps its contents through it. -/
theorem val38_keep (V0 : Valuation τ sig (Elt F)) (r : Ref sig .tc) (h : r ∉ w37_W) :
    val38 V0 (Proc.devRef .tc r) = val37 V0 (Proc.devRef .tc r) :=
  after_of_writes_sub w37 _ w37_writes h

/-- The buffer contents after the first 39 stretches. -/
def val39 (V0 : Valuation τ sig (Elt F)) : Valuation τ sig (Elt F) := after w38 (val38 V0)
/-- A buffer that stretch 38 does not write keeps its contents through it. -/
theorem val39_keep (V0 : Valuation τ sig (Elt F)) (r : Ref sig .tc) (h : r ∉ w38_W) :
    val39 V0 (Proc.devRef .tc r) = val38 V0 (Proc.devRef .tc r) :=
  after_of_writes_sub w38 _ w38_writes h

/-- The buffer contents after the first 40 stretches. -/
def val40 (V0 : Valuation τ sig (Elt F)) : Valuation τ sig (Elt F) := after w39 (val39 V0)
/-- A buffer that stretch 39 does not write keeps its contents through it. -/
theorem val40_keep (V0 : Valuation τ sig (Elt F)) (r : Ref sig .tc) (h : r ∉ w39_W) :
    val40 V0 (Proc.devRef .tc r) = val39 V0 (Proc.devRef .tc r) :=
  after_of_writes_sub w39 _ w39_writes h

/-- The buffer contents after the first 41 stretches. -/
def val41 (V0 : Valuation τ sig (Elt F)) : Valuation τ sig (Elt F) := after w40 (val40 V0)
/-- A buffer that stretch 40 does not write keeps its contents through it. -/
theorem val41_keep (V0 : Valuation τ sig (Elt F)) (r : Ref sig .tc) (h : r ∉ w40_W) :
    val41 V0 (Proc.devRef .tc r) = val40 V0 (Proc.devRef .tc r) :=
  after_of_writes_sub w40 _ w40_writes h

/-- The buffer contents after the first 42 stretches. -/
def val42 (V0 : Valuation τ sig (Elt F)) : Valuation τ sig (Elt F) := after w41 (val41 V0)
/-- A buffer that stretch 41 does not write keeps its contents through it. -/
theorem val42_keep (V0 : Valuation τ sig (Elt F)) (r : Ref sig .tc) (h : r ∉ w41_W) :
    val42 V0 (Proc.devRef .tc r) = val41 V0 (Proc.devRef .tc r) :=
  after_of_writes_sub w41 _ w41_writes h

/-- The buffer contents after the first 43 stretches. -/
def val43 (V0 : Valuation τ sig (Elt F)) : Valuation τ sig (Elt F) := after w42 (val42 V0)
/-- A buffer that stretch 42 does not write keeps its contents through it. -/
theorem val43_keep (V0 : Valuation τ sig (Elt F)) (r : Ref sig .tc) (h : r ∉ w42_W) :
    val43 V0 (Proc.devRef .tc r) = val42 V0 (Proc.devRef .tc r) :=
  after_of_writes_sub w42 _ w42_writes h

/-- The buffer contents after the first 44 stretches. -/
def val44 (V0 : Valuation τ sig (Elt F)) : Valuation τ sig (Elt F) := after w43 (val43 V0)
/-- A buffer that stretch 43 does not write keeps its contents through it. -/
theorem val44_keep (V0 : Valuation τ sig (Elt F)) (r : Ref sig .tc) (h : r ∉ w43_W) :
    val44 V0 (Proc.devRef .tc r) = val43 V0 (Proc.devRef .tc r) :=
  after_of_writes_sub w43 _ w43_writes h

/-- The buffer contents after the first 45 stretches. -/
def val45 (V0 : Valuation τ sig (Elt F)) : Valuation τ sig (Elt F) := after w44 (val44 V0)
/-- A buffer that stretch 44 does not write keeps its contents through it. -/
theorem val45_keep (V0 : Valuation τ sig (Elt F)) (r : Ref sig .tc) (h : r ∉ w44_W) :
    val45 V0 (Proc.devRef .tc r) = val44 V0 (Proc.devRef .tc r) :=
  after_of_writes_sub w44 _ w44_writes h

/-- The buffer contents after the first 46 stretches. -/
def val46 (V0 : Valuation τ sig (Elt F)) : Valuation τ sig (Elt F) := after w45 (val45 V0)
/-- A buffer that stretch 45 does not write keeps its contents through it. -/
theorem val46_keep (V0 : Valuation τ sig (Elt F)) (r : Ref sig .tc) (h : r ∉ w45_W) :
    val46 V0 (Proc.devRef .tc r) = val45 V0 (Proc.devRef .tc r) :=
  after_of_writes_sub w45 _ w45_writes h

/-- The buffer contents after the first 47 stretches. -/
def val47 (V0 : Valuation τ sig (Elt F)) : Valuation τ sig (Elt F) := after w46 (val46 V0)
/-- A buffer that stretch 46 does not write keeps its contents through it. -/
theorem val47_keep (V0 : Valuation τ sig (Elt F)) (r : Ref sig .tc) (h : r ∉ w46_W) :
    val47 V0 (Proc.devRef .tc r) = val46 V0 (Proc.devRef .tc r) :=
  after_of_writes_sub w46 _ w46_writes h

/-- The buffer contents after the first 48 stretches. -/
def val48 (V0 : Valuation τ sig (Elt F)) : Valuation τ sig (Elt F) := after w47 (val47 V0)
/-- A buffer that stretch 47 does not write keeps its contents through it. -/
theorem val48_keep (V0 : Valuation τ sig (Elt F)) (r : Ref sig .tc) (h : r ∉ w47_W) :
    val48 V0 (Proc.devRef .tc r) = val47 V0 (Proc.devRef .tc r) :=
  after_of_writes_sub w47 _ w47_writes h

/-- The buffer contents after the first 49 stretches. -/
def val49 (V0 : Valuation τ sig (Elt F)) : Valuation τ sig (Elt F) := after w48 (val48 V0)
/-- A buffer that stretch 48 does not write keeps its contents through it. -/
theorem val49_keep (V0 : Valuation τ sig (Elt F)) (r : Ref sig .tc) (h : r ∉ w48_W) :
    val49 V0 (Proc.devRef .tc r) = val48 V0 (Proc.devRef .tc r) :=
  after_of_writes_sub w48 _ w48_writes h

/-- The buffer contents after the first 50 stretches. -/
def val50 (V0 : Valuation τ sig (Elt F)) : Valuation τ sig (Elt F) := after w49 (val49 V0)
/-- A buffer that stretch 49 does not write keeps its contents through it. -/
theorem val50_keep (V0 : Valuation τ sig (Elt F)) (r : Ref sig .tc) (h : r ∉ w49_W) :
    val50 V0 (Proc.devRef .tc r) = val49 V0 (Proc.devRef .tc r) :=
  after_of_writes_sub w49 _ w49_writes h

/-- The buffer contents after the first 51 stretches. -/
def val51 (V0 : Valuation τ sig (Elt F)) : Valuation τ sig (Elt F) := after w50 (val50 V0)
/-- A buffer that stretch 50 does not write keeps its contents through it. -/
theorem val51_keep (V0 : Valuation τ sig (Elt F)) (r : Ref sig .tc) (h : r ∉ w50_W) :
    val51 V0 (Proc.devRef .tc r) = val50 V0 (Proc.devRef .tc r) :=
  after_of_writes_sub w50 _ w50_writes h

/-- The buffer contents after the first 52 stretches. -/
def val52 (V0 : Valuation τ sig (Elt F)) : Valuation τ sig (Elt F) := after w51 (val51 V0)
/-- A buffer that stretch 51 does not write keeps its contents through it. -/
theorem val52_keep (V0 : Valuation τ sig (Elt F)) (r : Ref sig .tc) (h : r ∉ w51_W) :
    val52 V0 (Proc.devRef .tc r) = val51 V0 (Proc.devRef .tc r) :=
  after_of_writes_sub w51 _ w51_writes h

/-- The buffer contents after the first 53 stretches. -/
def val53 (V0 : Valuation τ sig (Elt F)) : Valuation τ sig (Elt F) := after w52 (val52 V0)
/-- A buffer that stretch 52 does not write keeps its contents through it. -/
theorem val53_keep (V0 : Valuation τ sig (Elt F)) (r : Ref sig .tc) (h : r ∉ w52_W) :
    val53 V0 (Proc.devRef .tc r) = val52 V0 (Proc.devRef .tc r) :=
  after_of_writes_sub w52 _ w52_writes h

/-- The buffer contents after the first 54 stretches. -/
def val54 (V0 : Valuation τ sig (Elt F)) : Valuation τ sig (Elt F) := after w53 (val53 V0)
/-- A buffer that stretch 53 does not write keeps its contents through it. -/
theorem val54_keep (V0 : Valuation τ sig (Elt F)) (r : Ref sig .tc) (h : r ∉ w53_W) :
    val54 V0 (Proc.devRef .tc r) = val53 V0 (Proc.devRef .tc r) :=
  after_of_writes_sub w53 _ w53_writes h

/-- The buffer contents after the first 55 stretches. -/
def val55 (V0 : Valuation τ sig (Elt F)) : Valuation τ sig (Elt F) := after w54 (val54 V0)
/-- A buffer that stretch 54 does not write keeps its contents through it. -/
theorem val55_keep (V0 : Valuation τ sig (Elt F)) (r : Ref sig .tc) (h : r ∉ w54_W) :
    val55 V0 (Proc.devRef .tc r) = val54 V0 (Proc.devRef .tc r) :=
  after_of_writes_sub w54 _ w54_writes h

/-- The buffer contents after the first 56 stretches. -/
def val56 (V0 : Valuation τ sig (Elt F)) : Valuation τ sig (Elt F) := after w55 (val55 V0)
/-- A buffer that stretch 55 does not write keeps its contents through it. -/
theorem val56_keep (V0 : Valuation τ sig (Elt F)) (r : Ref sig .tc) (h : r ∉ w55_W) :
    val56 V0 (Proc.devRef .tc r) = val55 V0 (Proc.devRef .tc r) :=
  after_of_writes_sub w55 _ w55_writes h

/-- The buffer contents after the first 57 stretches. -/
def val57 (V0 : Valuation τ sig (Elt F)) : Valuation τ sig (Elt F) := after w56 (val56 V0)
/-- A buffer that stretch 56 does not write keeps its contents through it. -/
theorem val57_keep (V0 : Valuation τ sig (Elt F)) (r : Ref sig .tc) (h : r ∉ w56_W) :
    val57 V0 (Proc.devRef .tc r) = val56 V0 (Proc.devRef .tc r) :=
  after_of_writes_sub w56 _ w56_writes h

/-- The whole list's fold is the contents after the last stretch. -/
theorem after_ops (V0 : Valuation τ sig (Elt F)) : after ops V0 = val57 V0 := by
  simp only [ops, ops0, ops1, ops2, ops3, after_app]
  rfl

/-- Every buffer the program writes. -/
abbrev allW : List (Ref sig .tc) :=
  w0_W ++ (w1_W ++ (w2_W ++ (w3_W ++ (w4_W ++ (w5_W ++ (w6_W ++ (w7_W ++ (w8_W ++ (w9_W ++ (w10_W ++ (w11_W ++ (w12_W ++ (w13_W ++ (w14_W ++ (w15_W ++ (w16_W ++ (w17_W ++ (w18_W ++ (w19_W ++ (w20_W ++ (w21_W ++ (w22_W ++ (w23_W ++ (w24_W ++ (w25_W ++ (w26_W ++ (w27_W ++ (w28_W ++ (w29_W ++ (w30_W ++ (w31_W ++ (w32_W ++ (w33_W ++ (w34_W ++ (w35_W ++ (w36_W ++ (w37_W ++ (w38_W ++ (w39_W ++ (w40_W ++ (w41_W ++ (w42_W ++ (w43_W ++ (w44_W ++ (w45_W ++ (w46_W ++ (w47_W ++ (w48_W ++ (w49_W ++ (w50_W ++ (w51_W ++ (w52_W ++ (w53_W ++ (w54_W ++ (w55_W ++ (w56_W))))))))))))))))))))))))))))))))))))))))))))))))))))))))

/-- A buffer the program never writes holds its launch contents after any number of stretches. -/
theorem val0_arg (V0 : Valuation τ sig (Elt F)) (r : Ref sig .tc) (h : r ∉ allW) : val0 V0 (Proc.devRef .tc r) = V0 (Proc.devRef .tc r) := rfl
theorem val1_arg (V0 : Valuation τ sig (Elt F)) (r : Ref sig .tc) (h : r ∉ allW) : val1 V0 (Proc.devRef .tc r) = V0 (Proc.devRef .tc r) :=
  (val1_keep V0 r fun hm => h (List.mem_append_left _ hm)).trans (val0_arg V0 r h)
theorem val2_arg (V0 : Valuation τ sig (Elt F)) (r : Ref sig .tc) (h : r ∉ allW) : val2 V0 (Proc.devRef .tc r) = V0 (Proc.devRef .tc r) :=
  (val2_keep V0 r fun hm => h (List.mem_append_right _ (List.mem_append_left _ hm))).trans (val1_arg V0 r h)
theorem val3_arg (V0 : Valuation τ sig (Elt F)) (r : Ref sig .tc) (h : r ∉ allW) : val3 V0 (Proc.devRef .tc r) = V0 (Proc.devRef .tc r) :=
  (val3_keep V0 r fun hm => h (List.mem_append_right _ (List.mem_append_right _ (List.mem_append_left _ hm)))).trans (val2_arg V0 r h)
theorem val4_arg (V0 : Valuation τ sig (Elt F)) (r : Ref sig .tc) (h : r ∉ allW) : val4 V0 (Proc.devRef .tc r) = V0 (Proc.devRef .tc r) :=
  (val4_keep V0 r fun hm => h (List.mem_append_right _ (List.mem_append_right _ (List.mem_append_right _ (List.mem_append_left _ hm))))).trans (val3_arg V0 r h)
theorem val5_arg (V0 : Valuation τ sig (Elt F)) (r : Ref sig .tc) (h : r ∉ allW) : val5 V0 (Proc.devRef .tc r) = V0 (Proc.devRef .tc r) :=
  (val5_keep V0 r fun hm => h (List.mem_append_right _ (List.mem_append_right _ (List.mem_append_right _ (List.mem_append_right _ (List.mem_append_left _ hm)))))).trans (val4_arg V0 r h)
theorem val6_arg (V0 : Valuation τ sig (Elt F)) (r : Ref sig .tc) (h : r ∉ allW) : val6 V0 (Proc.devRef .tc r) = V0 (Proc.devRef .tc r) :=
  (val6_keep V0 r fun hm => h (List.mem_append_right _ (List.mem_append_right _ (List.mem_append_right _ (List.mem_append_right _ (List.mem_append_right _ (List.mem_append_left _ hm))))))).trans (val5_arg V0 r h)
theorem val7_arg (V0 : Valuation τ sig (Elt F)) (r : Ref sig .tc) (h : r ∉ allW) : val7 V0 (Proc.devRef .tc r) = V0 (Proc.devRef .tc r) :=
  (val7_keep V0 r fun hm => h (List.mem_append_right _ (List.mem_append_right _ (List.mem_append_right _ (List.mem_append_right _ (List.mem_append_right _ (List.mem_append_right _ (List.mem_append_left _ hm)))))))).trans (val6_arg V0 r h)
theorem val8_arg (V0 : Valuation τ sig (Elt F)) (r : Ref sig .tc) (h : r ∉ allW) : val8 V0 (Proc.devRef .tc r) = V0 (Proc.devRef .tc r) :=
  (val8_keep V0 r fun hm => h (List.mem_append_right _ (List.mem_append_right _ (List.mem_append_right _ (List.mem_append_right _ (List.mem_append_right _ (List.mem_append_right _ (List.mem_append_right _ (List.mem_append_left _ hm))))))))).trans (val7_arg V0 r h)
theorem val9_arg (V0 : Valuation τ sig (Elt F)) (r : Ref sig .tc) (h : r ∉ allW) : val9 V0 (Proc.devRef .tc r) = V0 (Proc.devRef .tc r) :=
  (val9_keep V0 r fun hm => h (List.mem_append_right _ (List.mem_append_right _ (List.mem_append_right _ (List.mem_append_right _ (List.mem_append_right _ (List.mem_append_right _ (List.mem_append_right _ (List.mem_append_right _ (List.mem_append_left _ hm)))))))))).trans (val8_arg V0 r h)
theorem val10_arg (V0 : Valuation τ sig (Elt F)) (r : Ref sig .tc) (h : r ∉ allW) : val10 V0 (Proc.devRef .tc r) = V0 (Proc.devRef .tc r) :=
  (val10_keep V0 r fun hm => h (List.mem_append_right _ (List.mem_append_right _ (List.mem_append_right _ (List.mem_append_right _ (List.mem_append_right _ (List.mem_append_right _ (List.mem_append_right _ (List.mem_append_right _ (List.mem_append_right _ (List.mem_append_left _ hm))))))))))).trans (val9_arg V0 r h)
theorem val11_arg (V0 : Valuation τ sig (Elt F)) (r : Ref sig .tc) (h : r ∉ allW) : val11 V0 (Proc.devRef .tc r) = V0 (Proc.devRef .tc r) :=
  (val11_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))).trans (val10_arg V0 r h)
theorem val12_arg (V0 : Valuation τ sig (Elt F)) (r : Ref sig .tc) (h : r ∉ allW) : val12 V0 (Proc.devRef .tc r) = V0 (Proc.devRef .tc r) :=
  (val12_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))).trans (val11_arg V0 r h)
theorem val13_arg (V0 : Valuation τ sig (Elt F)) (r : Ref sig .tc) (h : r ∉ allW) : val13 V0 (Proc.devRef .tc r) = V0 (Proc.devRef .tc r) :=
  (val13_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))).trans (val12_arg V0 r h)
theorem val14_arg (V0 : Valuation τ sig (Elt F)) (r : Ref sig .tc) (h : r ∉ allW) : val14 V0 (Proc.devRef .tc r) = V0 (Proc.devRef .tc r) :=
  (val14_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))).trans (val13_arg V0 r h)
theorem val15_arg (V0 : Valuation τ sig (Elt F)) (r : Ref sig .tc) (h : r ∉ allW) : val15 V0 (Proc.devRef .tc r) = V0 (Proc.devRef .tc r) :=
  (val15_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))).trans (val14_arg V0 r h)
theorem val16_arg (V0 : Valuation τ sig (Elt F)) (r : Ref sig .tc) (h : r ∉ allW) : val16 V0 (Proc.devRef .tc r) = V0 (Proc.devRef .tc r) :=
  (val16_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))).trans (val15_arg V0 r h)
theorem val17_arg (V0 : Valuation τ sig (Elt F)) (r : Ref sig .tc) (h : r ∉ allW) : val17 V0 (Proc.devRef .tc r) = V0 (Proc.devRef .tc r) :=
  (val17_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))).trans (val16_arg V0 r h)
theorem val18_arg (V0 : Valuation τ sig (Elt F)) (r : Ref sig .tc) (h : r ∉ allW) : val18 V0 (Proc.devRef .tc r) = V0 (Proc.devRef .tc r) :=
  (val18_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))).trans (val17_arg V0 r h)
theorem val19_arg (V0 : Valuation τ sig (Elt F)) (r : Ref sig .tc) (h : r ∉ allW) : val19 V0 (Proc.devRef .tc r) = V0 (Proc.devRef .tc r) :=
  (val19_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))).trans (val18_arg V0 r h)
theorem val20_arg (V0 : Valuation τ sig (Elt F)) (r : Ref sig .tc) (h : r ∉ allW) : val20 V0 (Proc.devRef .tc r) = V0 (Proc.devRef .tc r) :=
  (val20_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))).trans (val19_arg V0 r h)
theorem val21_arg (V0 : Valuation τ sig (Elt F)) (r : Ref sig .tc) (h : r ∉ allW) : val21 V0 (Proc.devRef .tc r) = V0 (Proc.devRef .tc r) :=
  (val21_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))).trans (val20_arg V0 r h)
theorem val22_arg (V0 : Valuation τ sig (Elt F)) (r : Ref sig .tc) (h : r ∉ allW) : val22 V0 (Proc.devRef .tc r) = V0 (Proc.devRef .tc r) :=
  (val22_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))).trans (val21_arg V0 r h)
theorem val23_arg (V0 : Valuation τ sig (Elt F)) (r : Ref sig .tc) (h : r ∉ allW) : val23 V0 (Proc.devRef .tc r) = V0 (Proc.devRef .tc r) :=
  (val23_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))).trans (val22_arg V0 r h)
theorem val24_arg (V0 : Valuation τ sig (Elt F)) (r : Ref sig .tc) (h : r ∉ allW) : val24 V0 (Proc.devRef .tc r) = V0 (Proc.devRef .tc r) :=
  (val24_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))).trans (val23_arg V0 r h)
theorem val25_arg (V0 : Valuation τ sig (Elt F)) (r : Ref sig .tc) (h : r ∉ allW) : val25 V0 (Proc.devRef .tc r) = V0 (Proc.devRef .tc r) :=
  (val25_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))).trans (val24_arg V0 r h)
theorem val26_arg (V0 : Valuation τ sig (Elt F)) (r : Ref sig .tc) (h : r ∉ allW) : val26 V0 (Proc.devRef .tc r) = V0 (Proc.devRef .tc r) :=
  (val26_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))).trans (val25_arg V0 r h)
theorem val27_arg (V0 : Valuation τ sig (Elt F)) (r : Ref sig .tc) (h : r ∉ allW) : val27 V0 (Proc.devRef .tc r) = V0 (Proc.devRef .tc r) :=
  (val27_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))).trans (val26_arg V0 r h)
theorem val28_arg (V0 : Valuation τ sig (Elt F)) (r : Ref sig .tc) (h : r ∉ allW) : val28 V0 (Proc.devRef .tc r) = V0 (Proc.devRef .tc r) :=
  (val28_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))).trans (val27_arg V0 r h)
theorem val29_arg (V0 : Valuation τ sig (Elt F)) (r : Ref sig .tc) (h : r ∉ allW) : val29 V0 (Proc.devRef .tc r) = V0 (Proc.devRef .tc r) :=
  (val29_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))).trans (val28_arg V0 r h)
theorem val30_arg (V0 : Valuation τ sig (Elt F)) (r : Ref sig .tc) (h : r ∉ allW) : val30 V0 (Proc.devRef .tc r) = V0 (Proc.devRef .tc r) :=
  (val30_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))).trans (val29_arg V0 r h)
theorem val31_arg (V0 : Valuation τ sig (Elt F)) (r : Ref sig .tc) (h : r ∉ allW) : val31 V0 (Proc.devRef .tc r) = V0 (Proc.devRef .tc r) :=
  (val31_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))).trans (val30_arg V0 r h)
theorem val32_arg (V0 : Valuation τ sig (Elt F)) (r : Ref sig .tc) (h : r ∉ allW) : val32 V0 (Proc.devRef .tc r) = V0 (Proc.devRef .tc r) :=
  (val32_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))).trans (val31_arg V0 r h)
theorem val33_arg (V0 : Valuation τ sig (Elt F)) (r : Ref sig .tc) (h : r ∉ allW) : val33 V0 (Proc.devRef .tc r) = V0 (Proc.devRef .tc r) :=
  (val33_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))).trans (val32_arg V0 r h)
theorem val34_arg (V0 : Valuation τ sig (Elt F)) (r : Ref sig .tc) (h : r ∉ allW) : val34 V0 (Proc.devRef .tc r) = V0 (Proc.devRef .tc r) :=
  (val34_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))).trans (val33_arg V0 r h)
theorem val35_arg (V0 : Valuation τ sig (Elt F)) (r : Ref sig .tc) (h : r ∉ allW) : val35 V0 (Proc.devRef .tc r) = V0 (Proc.devRef .tc r) :=
  (val35_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))).trans (val34_arg V0 r h)
theorem val36_arg (V0 : Valuation τ sig (Elt F)) (r : Ref sig .tc) (h : r ∉ allW) : val36 V0 (Proc.devRef .tc r) = V0 (Proc.devRef .tc r) :=
  (val36_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))).trans (val35_arg V0 r h)
theorem val37_arg (V0 : Valuation τ sig (Elt F)) (r : Ref sig .tc) (h : r ∉ allW) : val37 V0 (Proc.devRef .tc r) = V0 (Proc.devRef .tc r) :=
  (val37_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))))).trans (val36_arg V0 r h)
theorem val38_arg (V0 : Valuation τ sig (Elt F)) (r : Ref sig .tc) (h : r ∉ allW) : val38 V0 (Proc.devRef .tc r) = V0 (Proc.devRef .tc r) :=
  (val38_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))))).trans (val37_arg V0 r h)
theorem val39_arg (V0 : Valuation τ sig (Elt F)) (r : Ref sig .tc) (h : r ∉ allW) : val39 V0 (Proc.devRef .tc r) = V0 (Proc.devRef .tc r) :=
  (val39_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))))))).trans (val38_arg V0 r h)
theorem val40_arg (V0 : Valuation τ sig (Elt F)) (r : Ref sig .tc) (h : r ∉ allW) : val40 V0 (Proc.devRef .tc r) = V0 (Proc.devRef .tc r) :=
  (val40_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))))))).trans (val39_arg V0 r h)
theorem val41_arg (V0 : Valuation τ sig (Elt F)) (r : Ref sig .tc) (h : r ∉ allW) : val41 V0 (Proc.devRef .tc r) = V0 (Proc.devRef .tc r) :=
  (val41_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))))))))).trans (val40_arg V0 r h)
theorem val42_arg (V0 : Valuation τ sig (Elt F)) (r : Ref sig .tc) (h : r ∉ allW) : val42 V0 (Proc.devRef .tc r) = V0 (Proc.devRef .tc r) :=
  (val42_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))))))))).trans (val41_arg V0 r h)
theorem val43_arg (V0 : Valuation τ sig (Elt F)) (r : Ref sig .tc) (h : r ∉ allW) : val43 V0 (Proc.devRef .tc r) = V0 (Proc.devRef .tc r) :=
  (val43_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))))))))))).trans (val42_arg V0 r h)
theorem val44_arg (V0 : Valuation τ sig (Elt F)) (r : Ref sig .tc) (h : r ∉ allW) : val44 V0 (Proc.devRef .tc r) = V0 (Proc.devRef .tc r) :=
  (val44_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))))))))))).trans (val43_arg V0 r h)
theorem val45_arg (V0 : Valuation τ sig (Elt F)) (r : Ref sig .tc) (h : r ∉ allW) : val45 V0 (Proc.devRef .tc r) = V0 (Proc.devRef .tc r) :=
  (val45_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))))))))))))).trans (val44_arg V0 r h)
theorem val46_arg (V0 : Valuation τ sig (Elt F)) (r : Ref sig .tc) (h : r ∉ allW) : val46 V0 (Proc.devRef .tc r) = V0 (Proc.devRef .tc r) :=
  (val46_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))))))))))))).trans (val45_arg V0 r h)
theorem val47_arg (V0 : Valuation τ sig (Elt F)) (r : Ref sig .tc) (h : r ∉ allW) : val47 V0 (Proc.devRef .tc r) = V0 (Proc.devRef .tc r) :=
  (val47_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))))))))))))))).trans (val46_arg V0 r h)
theorem val48_arg (V0 : Valuation τ sig (Elt F)) (r : Ref sig .tc) (h : r ∉ allW) : val48 V0 (Proc.devRef .tc r) = V0 (Proc.devRef .tc r) :=
  (val48_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))))))))))))))).trans (val47_arg V0 r h)
theorem val49_arg (V0 : Valuation τ sig (Elt F)) (r : Ref sig .tc) (h : r ∉ allW) : val49 V0 (Proc.devRef .tc r) = V0 (Proc.devRef .tc r) :=
  (val49_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))))))))))))))))).trans (val48_arg V0 r h)
theorem val50_arg (V0 : Valuation τ sig (Elt F)) (r : Ref sig .tc) (h : r ∉ allW) : val50 V0 (Proc.devRef .tc r) = V0 (Proc.devRef .tc r) :=
  (val50_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))))))))))))))))).trans (val49_arg V0 r h)
theorem val51_arg (V0 : Valuation τ sig (Elt F)) (r : Ref sig .tc) (h : r ∉ allW) : val51 V0 (Proc.devRef .tc r) = V0 (Proc.devRef .tc r) :=
  (val51_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))))))))))))))))))).trans (val50_arg V0 r h)
theorem val52_arg (V0 : Valuation τ sig (Elt F)) (r : Ref sig .tc) (h : r ∉ allW) : val52 V0 (Proc.devRef .tc r) = V0 (Proc.devRef .tc r) :=
  (val52_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))))))))))))))))))).trans (val51_arg V0 r h)
theorem val53_arg (V0 : Valuation τ sig (Elt F)) (r : Ref sig .tc) (h : r ∉ allW) : val53 V0 (Proc.devRef .tc r) = V0 (Proc.devRef .tc r) :=
  (val53_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))))))))))))))))))))).trans (val52_arg V0 r h)
theorem val54_arg (V0 : Valuation τ sig (Elt F)) (r : Ref sig .tc) (h : r ∉ allW) : val54 V0 (Proc.devRef .tc r) = V0 (Proc.devRef .tc r) :=
  (val54_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))))))))))))))))))))).trans (val53_arg V0 r h)
theorem val55_arg (V0 : Valuation τ sig (Elt F)) (r : Ref sig .tc) (h : r ∉ allW) : val55 V0 (Proc.devRef .tc r) = V0 (Proc.devRef .tc r) :=
  (val55_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))))))))))))))))))))))))))))))))).trans (val54_arg V0 r h)
theorem val56_arg (V0 : Valuation τ sig (Elt F)) (r : Ref sig .tc) (h : r ∉ allW) : val56 V0 (Proc.devRef .tc r) = V0 (Proc.devRef .tc r) :=
  (val56_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))))))))))))))))))))))))))))))))).trans (val55_arg V0 r h)
theorem val57_arg (V0 : Valuation τ sig (Elt F)) (r : Ref sig .tc) (h : r ∉ allW) : val57 V0 (Proc.devRef .tc r) = V0 (Proc.devRef .tc r) :=
  (val57_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (hm)))))))))))))))))))))))))))))))))))))))))))))))))))))))))).trans (val56_arg V0 r h)

/-- No argument is among the written buffers. -/
theorem notin_arg0 : main_arg0 ∉ allW := by decide
theorem notin_arg1 : main_arg1 ∉ allW := by decide
theorem notin_arg2 : main_arg2 ∉ allW := by decide
theorem notin_arg3 : main_arg3 ∉ allW := by decide
theorem notin_arg4 : main_arg4 ∉ allW := by decide
theorem notin_arg5 : main_arg5 ∉ allW := by decide
theorem notin_arg6 : main_arg6 ∉ allW := by decide
theorem notin_arg7 : main_arg7 ∉ allW := by decide
theorem notin_arg8 : main_arg8 ∉ allW := by decide
theorem notin_arg9 : main_arg9 ∉ allW := by decide
theorem notin_arg10 : main_arg10 ∉ allW := by decide
theorem notin_arg11 : main_arg11 ∉ allW := by decide
theorem notin_arg12 : main_arg12 ∉ allW := by decide
theorem notin_arg13 : main_arg13 ∉ allW := by decide
theorem notin_arg14 : main_arg14 ∉ allW := by decide
theorem notin_arg15 : main_arg15 ∉ allW := by decide
theorem notin_arg16 : main_arg16 ∉ allW := by decide
theorem notin_arg17 : main_arg17 ∉ allW := by decide
theorem notin_arg18 : main_arg18 ∉ allW := by decide
theorem notin_arg19 : main_arg19 ∉ allW := by decide

/-- The frame: every weakly fair execution of @main terminates with the twenty arguments unchanged. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_arg0).trans (by rw [after_ops]; exact val57_arg _ main_arg0 notin_arg0),
      (h c main_arg1).trans (by rw [after_ops]; exact val57_arg _ main_arg1 notin_arg1),
      (h c main_arg2).trans (by rw [after_ops]; exact val57_arg _ main_arg2 notin_arg2),
      (h c main_arg3).trans (by rw [after_ops]; exact val57_arg _ main_arg3 notin_arg3),
      (h c main_arg4).trans (by rw [after_ops]; exact val57_arg _ main_arg4 notin_arg4),
      (h c main_arg5).trans (by rw [after_ops]; exact val57_arg _ main_arg5 notin_arg5),
      (h c main_arg6).trans (by rw [after_ops]; exact val57_arg _ main_arg6 notin_arg6),
      (h c main_arg7).trans (by rw [after_ops]; exact val57_arg _ main_arg7 notin_arg7),
      (h c main_arg8).trans (by rw [after_ops]; exact val57_arg _ main_arg8 notin_arg8),
      (h c main_arg9).trans (by rw [after_ops]; exact val57_arg _ main_arg9 notin_arg9),
      (h c main_arg10).trans (by rw [after_ops]; exact val57_arg _ main_arg10 notin_arg10),
      (h c main_arg11).trans (by rw [after_ops]; exact val57_arg _ main_arg11 notin_arg11),
      (h c main_arg12).trans (by rw [after_ops]; exact val57_arg _ main_arg12 notin_arg12),
      (h c main_arg13).trans (by rw [after_ops]; exact val57_arg _ main_arg13 notin_arg13),
      (h c main_arg14).trans (by rw [after_ops]; exact val57_arg _ main_arg14 notin_arg14),
      (h c main_arg15).trans (by rw [after_ops]; exact val57_arg _ main_arg15 notin_arg15),
      (h c main_arg16).trans (by rw [after_ops]; exact val57_arg _ main_arg16 notin_arg16),
      (h c main_arg17).trans (by rw [after_ops]; exact val57_arg _ main_arg17 notin_arg17),
      (h c main_arg18).trans (by rw [after_ops]; exact val57_arg _ main_arg18 notin_arg18),
      (h c main_arg19).trans (by rw [after_ops]; exact val57_arg _ main_arg19 notin_arg19)⟩)
    (run_all m ρ)

end Cert.ReferenceIdeal.RefRun

end
-- ==== Proof.RefFrame.lean ====
/- The reference program's frame: under any precondition, every weakly fair execution of its @main terminates without a
   fault and leaves the twenty argument arrays as they were — the run of the operation list read at the arguments, which
   no operation writes. -/
import proofs.«211565_g20684562498226_cont_8to1_684_24_alg».proof.Defs
import proofs.«211565_g20684562498226_cont_8to1_684_24_alg».proof.Proof.RefOps
import proofs.«211565_g20684562498226_cont_8to1_684_24_alg».proof.Proof.Gen.Pre_input_domain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `frame_ReferenceIdeal`: the run at the exact-real instance, the precondition unused. -/
theorem frame_ri : @Cert.frame_ReferenceIdeal Cert.ReferenceIdeal.Gen.facts Cert.Pre_input_domain.Gen.facts :=
  fun m ρ _ => run_frame (F := Ideal) m ρ

end Cert.ReferenceIdeal.RefRun

end
-- ==== Proof.RefStages.lean ====
/- The values the reference program computes, as pure terms of its twenty argument arrays: one definition per value of
   interest (and per value read more than once), each the printed operations applied to earlier definitions and to the
   arguments, so that a proof about a result opens them one at a time. `out_keys`, `out_queue`, `out_ptr` are the three
   results over all twenty arguments in order. -/
import proofs.«211565_g20684562498226_cont_8to1_684_24_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The text projection: `txt · tWᵀ + tb`. -/
def txt_up (a0 : (⟨S4096x768, .f32⟩ : BufTy).Contents (Elt F)) (a2 : (⟨S768x768, .f32⟩ : BufTy).Contents (Elt F)) (a3 : (⟨S768, .f32⟩ : BufTy).Contents (Elt F)) :
    (⟨S4096x768, .f32⟩ : BufTy).Contents (Elt F) :=
  addf (Host.dotGeneral dot_S4096x768_S768x768_S4096x768_1_0_0_1_n_n none a0 (transpose S768x768 [1, 0] a2 transposes_S768x768_S768x768_1_0)) (broadcastInDim S4096x768 ![0, 1] bcast_S1x768_S4096x768_0_1 (broadcastInDim S1x768 ![1] bcast_S768_S1x768_1 a3))

/-- The graph projection: `gph · gWᵀ + gb`. -/
def gph_up (a1 : (⟨S4096x768, .f32⟩ : BufTy).Contents (Elt F)) (a4 : (⟨S768x768, .f32⟩ : BufTy).Contents (Elt F)) (a5 : (⟨S768, .f32⟩ : BufTy).Contents (Elt F)) :
    (⟨S4096x768, .f32⟩ : BufTy).Contents (Elt F) :=
  addf (Host.dotGeneral dot_S4096x768_S768x768_S4096x768_1_0_0_1_n_n none a1 (transpose S768x768 [1, 0] a4 transposes_S768x768_S768x768_1_0)) (broadcastInDim S4096x768 ![0, 1] bcast_S1x768_S4096x768_0_1 (broadcastInDim S1x768 ![1] bcast_S768_S1x768_1 a5))

/-- The value of `main_v11`, read by later operations. -/
def t_v11 (a6 : (⟨S2304x768, .f32⟩ : BufTy).Contents (Elt F)) :
    (⟨S768x768, .f32⟩ : BufTy).Contents (Elt F) :=
  extractStridedSlice S768x768 ![768, 0] a6 slices_S2304x768_S768x768_768_0

/-- The value of `main_v12`, read by later operations. -/
def t_v12 (a6 : (⟨S2304x768, .f32⟩ : BufTy).Contents (Elt F)) :
    (⟨S768x768, .f32⟩ : BufTy).Contents (Elt F) :=
  extractStridedSlice S768x768 ![1536, 0] a6 slices_S2304x768_S768x768_1536_0

/-- The value of `main_v14`, read by later operations. -/
def t_v14 (a7 : (⟨S2304, .f32⟩ : BufTy).Contents (Elt F)) :
    (⟨S768, .f32⟩ : BufTy).Contents (Elt F) :=
  extractStridedSlice S768 ![768] a7 slices_S2304_S768_768

/-- The value of `main_v15`, read by later operations. -/
def t_v15 (a7 : (⟨S2304, .f32⟩ : BufTy).Contents (Elt F)) :
    (⟨S768, .f32⟩ : BufTy).Contents (Elt F) :=
  extractStridedSlice S768 ![1536] a7 slices_S2304_S768_1536

/-- First attention, queries: the text projection through the first third of the input projection. -/
def q1 (a0 : (⟨S4096x768, .f32⟩ : BufTy).Contents (Elt F)) (a2 : (⟨S768x768, .f32⟩ : BufTy).Contents (Elt F)) (a3 : (⟨S768, .f32⟩ : BufTy).Contents (Elt F)) (a6 : (⟨S2304x768, .f32⟩ : BufTy).Contents (Elt F)) (a7 : (⟨S2304, .f32⟩ : BufTy).Contents (Elt F)) :
    (⟨S4096x768, .f32⟩ : BufTy).Contents (Elt F) :=
  addf (Host.dotGeneral dot_S4096x768_S768x768_S4096x768_1_0_0_1_n_n none (txt_up (F := F) a0 a2 a3) (transpose S768x768 [1, 0] (extractStridedSlice S768x768 ![0, 0] a6 slices_S2304x768_S768x768_0_0) transposes_S768x768_S768x768_1_0)) (broadcastInDim S4096x768 ![0, 1] bcast_S1x768_S4096x768_0_1 (broadcastInDim S1x768 ![1] bcast_S768_S1x768_1 (extractStridedSlice S768 ![0] a7 slices_S2304_S768_0)))

/-- First attention, keys: the graph projection through the second third of the input projection. -/
def k1 (a1 : (⟨S4096x768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x768, .f32⟩ : BufTy).Contents (Elt F) :=
  addf (Host.dotGeneral dot_S4096x768_S768x768_S4096x768_1_0_0_1_n_n none (gph_up (F := F) a1 a4 a5) (transpose S768x768 [1, 0] (t_v11 (F := F) a6) transposes_S768x768_S768x768_1_0)) (broadcastInDim S4096x768 ![0, 1] bcast_S1x768_S4096x768_0_1 (broadcastInDim S1x768 ![1] bcast_S768_S1x768_1 (t_v14 (F := F) a7)))

/-- First attention, values: the graph projection through the last third of the input projection. -/
def vv1 (a1 : (⟨S4096x768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x768, .f32⟩ : BufTy).Contents (Elt F) :=
  addf (Host.dotGeneral dot_S4096x768_S768x768_S4096x768_1_0_0_1_n_n none (gph_up (F := F) a1 a4 a5) (transpose S768x768 [1, 0] (t_v12 (F := F) a6) transposes_S768x768_S768x768_1_0)) (broadcastInDim S4096x768 ![0, 1] bcast_S1x768_S4096x768_0_1 (broadcastInDim S1x768 ![1] bcast_S768_S1x768_1 (t_v15 (F := F) a7)))

/-- The value of `main_v33`, read by later operations. -/
def t_v33 (a1 : (⟨S4096x768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x8x96, .f32⟩ : BufTy).Contents (Elt F) :=
  shapeCast S4096x8x96 (vv1 (F := F) a1 a4 a5 a6 a7) shapeCasts_S4096x768_S4096x8x96

/-- First attention: per row and head, the sum over the head's 96 lanes of query times key. -/
def dots1 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x8, .f32⟩ : BufTy).Contents (Elt F) :=
  Host.reduceAdd (mulf (shapeCast S4096x8x96 (q1 (F := F) a0 a2 a3 a6 a7) shapeCasts_S4096x768_S4096x8x96) (shapeCast S4096x8x96 (k1 (F := F) a1 a4 a5 a6 a7) shapeCasts_S4096x768_S4096x8x96)) (constant S_ .f32 0x00000000#32) reducesTo_S4096x8x96_S4096x8_d2 h_S_

/-- First attention: the scores, the dot products over `√96` (the printed f32 literal), as a column of length one per row and head. -/
def sc1 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x8x1, .f32⟩ : BufTy).Contents (Elt F) :=
  Host.divf (broadcastInDim S4096x8x1 ![0, 1] bcast_S4096x8_S4096x8x1_0_1 (dots1 (F := F) a0 a1 a2 a3 a4 a5 a6 a7)) (broadcastInDim S4096x8x1 ![] bcast_S_S4096x8x1 (constant S_ .f32 0x411CC471#32))

/-- First attention: the exponential of each score less the maximum over its (single) column entry. -/
def ex1 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x8x1, .f32⟩ : BufTy).Contents (Elt F) :=
  Host.exp (subf (sc1 (F := F) a0 a1 a2 a3 a4 a5 a6 a7) (broadcastInDim S4096x8x1 ![0, 1] bcast_S4096x8_S4096x8x1_0_1 (maximumf (broadcastInDim S4096x8 ![] bcast_S_S4096x8 (constant S_ .f32 0xFF800000#32)) (Host.reduce FloatOps.maximumf (sc1 (F := F) a0 a1 a2 a3 a4 a5 a6 a7) (constant S_ .f32 0xFF800000#32) reducesTo_S4096x8x1_S4096x8_d2 h_S_))))

/-- First attention: the softmax weights, each exponential over the sum along the length-one axis. -/
def p1 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x8x1, .f32⟩ : BufTy).Contents (Elt F) :=
  Host.divf (ex1 (F := F) a0 a1 a2 a3 a4 a5 a6 a7) (broadcastInDim S4096x8x1 ![0, 1] bcast_S4096x8_S4096x8x1_0_1 (Host.reduceAdd (ex1 (F := F) a0 a1 a2 a3 a4 a5 a6 a7) (constant S_ .f32 0x00000000#32) reducesTo_S4096x8x1_S4096x8_d2 h_S_))

/-- First attention: the weights times the values, heads merged back to 768 lanes. -/
def attn1 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x768, .f32⟩ : BufTy).Contents (Elt F) :=
  shapeCast S4096x768 (mulf (broadcastInDim S4096x8x96 ![0, 1, 2] bcast_S4096x8x1_S4096x8x96_0_1_2 (p1 (F := F) a0 a1 a2 a3 a4 a5 a6 a7)) (t_v33 (F := F) a1 a4 a5 a6 a7)) shapeCasts_S4096x8x96_S4096x768

/-- The value of `main_v52`, read by later operations. -/
def t_v52 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) :
    (⟨S4096x768, .f32⟩ : BufTy).Contents (Elt F) :=
  Host.dotGeneral dot_S4096x768_S768x768_S4096x768_1_0_0_1_n_n none (attn1 (F := F) a0 a1 a2 a3 a4 a5 a6 a7) (transpose S768x768 [1, 0] a8 transposes_S768x768_S768x768_1_0)

/-- The value of `main_v54`, read by later operations. -/
def t_v54 (a9 : (⟨S768, .f32⟩ : BufTy).Contents (Elt F)) :
    (⟨S4096x768, .f32⟩ : BufTy).Contents (Elt F) :=
  broadcastInDim S4096x768 ![0, 1] bcast_S1x768_S4096x768_0_1 (broadcastInDim S1x768 ![1] bcast_S768_S1x768_1 a9)

/-- First attention's output projection: `attn1 · out_wᵀ + out_b`. -/
def o1 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x768, .f32⟩ : BufTy).Contents (Elt F) :=
  addf (t_v52 (F := F) a0 a1 a2 a3 a4 a5 a6 a7 a8) (t_v54 (F := F) a9)

/-- The row means of `o1`. -/
def mu1 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x1, .f32⟩ : BufTy).Contents (Elt F) :=
  Host.divf (broadcastInDim S4096x1 ![0] bcast_S4096_S4096x1_0 (Host.reduceAdd (o1 (F := F) a0 a1 a2 a3 a4 a5 a6 a7 a8 a9) (constant S_ .f32 0x00000000#32) reducesTo_S4096x768_S4096_d1 h_S_)) (broadcastInDim S4096x1 ![] bcast_S_S4096x1 (constant S_ .f32 0x44400000#32))

/-- The value of `main_c`, which later operations read. -/
def t_c  :
    (⟨S_, .i32⟩ : BufTy).Contents (Elt F) :=
  constantI S_ 32 0#32

/-- The value of `main_call0_v5`, read by later operations. -/
def t_call0_v5 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x768, .f32⟩ : BufTy).Contents (Elt F) :=
  subf (o1 (F := F) a0 a1 a2 a3 a4 a5 a6 a7 a8 a9) (broadcastInDim S4096x768 ![0, 1] bcast_S4096x1_S4096x768_0_1 (Host.divf (broadcastInDim S4096x1 ![0] bcast_S4096_S4096x1_0 (Host.reduceAdd (o1 (F := F) a0 a1 a2 a3 a4 a5 a6 a7 a8 a9) (constant S_ .f32 0x00000000#32) reducesTo_S4096x768_S4096_d1 h_S_)) (broadcastInDim S4096x1 ![] bcast_S_S4096x1 (constant S_ .f32 0x44400000#32))))

/-- The value of `main_call0_v6`, which later operations read. -/
def t_call0_v6 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x768, .f32⟩ : BufTy).Contents (Elt F) :=
  mulf (t_call0_v5 (F := F) a0 a1 a2 a3 a4 a5 a6 a7 a8 a9) (t_call0_v5 (F := F) a0 a1 a2 a3 a4 a5 a6 a7 a8 a9)

/-- The value of `main_call0_v8`, read by later operations. -/
def t_call0_v8  :
    (⟨S_, .f32⟩ : BufTy).Contents (Elt F) :=
  subf (constant S_ .f32 0x44400000#32) (sitofp .f32 (t_c (F := F)))

/-- The row variances of `o1` (the mean of the squared deviations; the divisor `768 - 0` compared with zero as printed). -/
def var1 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x1, .f32⟩ : BufTy).Contents (Elt F) :=
  select (broadcastInDim S4096x1 ![] bcast_S_S4096x1 (cmpf .ogt (t_call0_v8 (F := F)) (constant S_ .f32 0x00000000#32))) (Host.divf (broadcastInDim S4096x1 ![0] bcast_S4096_S4096x1_0 (Host.reduceAdd (t_call0_v6 (F := F) a0 a1 a2 a3 a4 a5 a6 a7 a8 a9) (constant S_ .f32 0x00000000#32) reducesTo_S4096x768_S4096_d1 h_S_)) (broadcastInDim S4096x1 ![] bcast_S_S4096x1 (t_call0_v8 (F := F)))) (broadcastInDim S4096x1 ![] bcast_S_S4096x1 ((constant S_ .f32 0x7FC00000#32)))

/-- `o1` centred and divided by `√(var1 + ε)`. -/
def o1c (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x768, .f32⟩ : BufTy).Contents (Elt F) :=
  Host.divf (subf (o1 (F := F) a0 a1 a2 a3 a4 a5 a6 a7 a8 a9) (broadcastInDim S4096x768 ![0, 1] bcast_S4096x1_S4096x768_0_1 (mu1 (F := F) a0 a1 a2 a3 a4 a5 a6 a7 a8 a9))) (broadcastInDim S4096x768 ![0, 1] bcast_S4096x1_S4096x768_0_1 (Host.sqrt (addf (var1 (F := F) a0 a1 a2 a3 a4 a5 a6 a7 a8 a9) (broadcastInDim S4096x1 ![] bcast_S_S4096x1 (constant S_ .f32 0x3727C5AC#32)))))

/-- The first layer norm: `o1c · ln1_g + ln1_b`. -/
def o1n (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a12 : (⟨S768, .f32⟩ : BufTy).Contents (Elt F)) (a13 : (⟨S768, .f32⟩ : BufTy).Contents (Elt F)) :
    (⟨S4096x768, .f32⟩ : BufTy).Contents (Elt F) :=
  addf (mulf (o1c (F := F) a0 a1 a2 a3 a4 a5 a6 a7 a8 a9) (broadcastInDim S4096x768 ![0, 1] bcast_S1x768_S4096x768_0_1 (broadcastInDim S1x768 ![1] bcast_S768_S1x768_1 a12))) (broadcastInDim S4096x768 ![0, 1] bcast_S1x768_S4096x768_0_1 (broadcastInDim S1x768 ![1] bcast_S768_S1x768_1 a13))

/-- The value of `main_v75`, read by later operations. -/
def t_v75 (a6 : (⟨S2304x768, .f32⟩ : BufTy).Contents (Elt F)) :
    (⟨S768x768, .f32⟩ : BufTy).Contents (Elt F) :=
  extractStridedSlice S768x768 ![768, 0] a6 slices_S2304x768_S768x768_768_0

/-- The value of `main_v76`, read by later operations. -/
def t_v76 (a6 : (⟨S2304x768, .f32⟩ : BufTy).Contents (Elt F)) :
    (⟨S768x768, .f32⟩ : BufTy).Contents (Elt F) :=
  extractStridedSlice S768x768 ![1536, 0] a6 slices_S2304x768_S768x768_1536_0

/-- The value of `main_v78`, read by later operations. -/
def t_v78 (a7 : (⟨S2304, .f32⟩ : BufTy).Contents (Elt F)) :
    (⟨S768, .f32⟩ : BufTy).Contents (Elt F) :=
  extractStridedSlice S768 ![768] a7 slices_S2304_S768_768

/-- The value of `main_v79`, read by later operations. -/
def t_v79 (a7 : (⟨S2304, .f32⟩ : BufTy).Contents (Elt F)) :
    (⟨S768, .f32⟩ : BufTy).Contents (Elt F) :=
  extractStridedSlice S768 ![1536] a7 slices_S2304_S768_1536

/-- Second attention, queries: the graph projection through the first third of the input projection. -/
def q2 (a1 : (⟨S4096x768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x768, .f32⟩ : BufTy).Contents (Elt F) :=
  addf (Host.dotGeneral dot_S4096x768_S768x768_S4096x768_1_0_0_1_n_n none (gph_up (F := F) a1 a4 a5) (transpose S768x768 [1, 0] (extractStridedSlice S768x768 ![0, 0] a6 slices_S2304x768_S768x768_0_0) transposes_S768x768_S768x768_1_0)) (broadcastInDim S4096x768 ![0, 1] bcast_S1x768_S4096x768_0_1 (broadcastInDim S1x768 ![1] bcast_S768_S1x768_1 (extractStridedSlice S768 ![0] a7 slices_S2304_S768_0)))

/-- Second attention, keys: the text projection through the second third. -/
def k2 (a0 : (⟨S4096x768, .f32⟩ : BufTy).Contents (Elt F)) (a2 : (⟨S768x768, .f32⟩ : BufTy).Contents (Elt F)) (a3 : (⟨S768, .f32⟩ : BufTy).Contents (Elt F)) (a6 : (⟨S2304x768, .f32⟩ : BufTy).Contents (Elt F)) (a7 : (⟨S2304, .f32⟩ : BufTy).Contents (Elt F)) :
    (⟨S4096x768, .f32⟩ : BufTy).Contents (Elt F) :=
  addf (Host.dotGeneral dot_S4096x768_S768x768_S4096x768_1_0_0_1_n_n none (txt_up (F := F) a0 a2 a3) (transpose S768x768 [1, 0] (t_v75 (F := F) a6) transposes_S768x768_S768x768_1_0)) (broadcastInDim S4096x768 ![0, 1] bcast_S1x768_S4096x768_0_1 (broadcastInDim S1x768 ![1] bcast_S768_S1x768_1 (t_v78 (F := F) a7)))

/-- Second attention, values: the text projection through the last third. -/
def vv2 (a0 : (⟨S4096x768, .f32⟩ : BufTy).Contents (Elt F)) (a2 : (⟨S768x768, .f32⟩ : BufTy).Contents (Elt F)) (a3 : (⟨S768, .f32⟩ : BufTy).Contents (Elt F)) (a6 : (⟨S2304x768, .f32⟩ : BufTy).Contents (Elt F)) (a7 : (⟨S2304, .f32⟩ : BufTy).Contents (Elt F)) :
    (⟨S4096x768, .f32⟩ : BufTy).Contents (Elt F) :=
  addf (Host.dotGeneral dot_S4096x768_S768x768_S4096x768_1_0_0_1_n_n none (txt_up (F := F) a0 a2 a3) (transpose S768x768 [1, 0] (t_v76 (F := F) a6) transposes_S768x768_S768x768_1_0)) (broadcastInDim S4096x768 ![0, 1] bcast_S1x768_S4096x768_0_1 (broadcastInDim S1x768 ![1] bcast_S768_S1x768_1 (t_v79 (F := F) a7)))

/-- The value of `main_v97`, read by later operations. -/
def t_v97 (a0 : (⟨S4096x768, .f32⟩ : BufTy).Contents (Elt F)) (a2 : (⟨S768x768, .f32⟩ : BufTy).Contents (Elt F)) (a3 : (⟨S768, .f32⟩ : BufTy).Contents (Elt F)) (a6 : (⟨S2304x768, .f32⟩ : BufTy).Contents (Elt F)) (a7 : (⟨S2304, .f32⟩ : BufTy).Contents (Elt F)) :
    (⟨S4096x8x96, .f32⟩ : BufTy).Contents (Elt F) :=
  shapeCast S4096x8x96 (vv2 (F := F) a0 a2 a3 a6 a7) shapeCasts_S4096x768_S4096x8x96

/-- Second attention: the per-head dot products. -/
def dots2 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x8, .f32⟩ : BufTy).Contents (Elt F) :=
  Host.reduceAdd (mulf (shapeCast S4096x8x96 (q2 (F := F) a1 a4 a5 a6 a7) shapeCasts_S4096x768_S4096x8x96) (shapeCast S4096x8x96 (k2 (F := F) a0 a2 a3 a6 a7) shapeCasts_S4096x768_S4096x8x96)) (constant S_ .f32 0x00000000#32) reducesTo_S4096x8x96_S4096x8_d2 h_S_

/-- Second attention: the scores. -/
def sc2 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x8x1, .f32⟩ : BufTy).Contents (Elt F) :=
  Host.divf (broadcastInDim S4096x8x1 ![0, 1] bcast_S4096x8_S4096x8x1_0_1 (dots2 (F := F) a0 a1 a2 a3 a4 a5 a6 a7)) (broadcastInDim S4096x8x1 ![] bcast_S_S4096x8x1 (constant S_ .f32 0x411CC471#32))

/-- The value of `main_v106`, read by later operations. -/
def t_v106 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x8x1, .f32⟩ : BufTy).Contents (Elt F) :=
  broadcastInDim S4096x8x1 ![0, 1] bcast_S4096x8_S4096x8x1_0_1 (maximumf (broadcastInDim S4096x8 ![] bcast_S_S4096x8 (constant S_ .f32 0xFF800000#32)) (Host.reduce FloatOps.maximumf (sc2 (F := F) a0 a1 a2 a3 a4 a5 a6 a7) (constant S_ .f32 0xFF800000#32) reducesTo_S4096x8x1_S4096x8_d2 h_S_))

/-- Second attention: the exponentials. -/
def ex2 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x8x1, .f32⟩ : BufTy).Contents (Elt F) :=
  Host.exp (subf (sc2 (F := F) a0 a1 a2 a3 a4 a5 a6 a7) (t_v106 (F := F) a0 a1 a2 a3 a4 a5 a6 a7))

/-- Second attention: the softmax weights. -/
def p2 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x8x1, .f32⟩ : BufTy).Contents (Elt F) :=
  Host.divf (ex2 (F := F) a0 a1 a2 a3 a4 a5 a6 a7) (broadcastInDim S4096x8x1 ![0, 1] bcast_S4096x8_S4096x8x1_0_1 (Host.reduceAdd (ex2 (F := F) a0 a1 a2 a3 a4 a5 a6 a7) (constant S_ .f32 0x00000000#32) reducesTo_S4096x8x1_S4096x8_d2 h_S_))

/-- Second attention: weights times values, heads merged. -/
def attn2 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) :
    (⟨S4096x768, .f32⟩ : BufTy).Contents (Elt F) :=
  shapeCast S4096x768 (mulf (broadcastInDim S4096x8x96 ![0, 1, 2] bcast_S4096x8x1_S4096x8x96_0_1_2 (p2 (F := F) a0 a1 a2 a3 a4 a5 a6 a7)) (t_v97 (F := F) a0 a2 a3 a6 a7)) shapeCasts_S4096x8x96_S4096x768

/-- Second attention's output projection. -/
def o2 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x768, .f32⟩ : BufTy).Contents (Elt F) :=
  addf (Host.dotGeneral dot_S4096x768_S768x768_S4096x768_1_0_0_1_n_n none (attn2 (F := F) a0 a1 a2 a3 a4 a5 a6 a7) (transpose S768x768 [1, 0] a8 transposes_S768x768_S768x768_1_0)) (broadcastInDim S4096x768 ![0, 1] bcast_S1x768_S4096x768_0_1 (broadcastInDim S1x768 ![1] bcast_S768_S1x768_1 a9))

/-- The row means of `o2`. -/
def mu2 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x1, .f32⟩ : BufTy).Contents (Elt F) :=
  Host.divf (broadcastInDim S4096x1 ![0] bcast_S4096_S4096x1_0 (Host.reduceAdd (o2 (F := F) a0 a1 a2 a3 a4 a5 a6 a7 a8 a9) (constant S_ .f32 0x00000000#32) reducesTo_S4096x768_S4096_d1 h_S_)) (broadcastInDim S4096x1 ![] bcast_S_S4096x1 (constant S_ .f32 0x44400000#32))

/-- The value of `main_c_14`, which later operations read. -/
def t_c_14  :
    (⟨S_, .i32⟩ : BufTy).Contents (Elt F) :=
  constantI S_ 32 0#32

/-- The value of `main_call1_v5`, read by later operations. -/
def t_call1_v5 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x768, .f32⟩ : BufTy).Contents (Elt F) :=
  subf (o2 (F := F) a0 a1 a2 a3 a4 a5 a6 a7 a8 a9) (broadcastInDim S4096x768 ![0, 1] bcast_S4096x1_S4096x768_0_1 (Host.divf (broadcastInDim S4096x1 ![0] bcast_S4096_S4096x1_0 (Host.reduceAdd (o2 (F := F) a0 a1 a2 a3 a4 a5 a6 a7 a8 a9) (constant S_ .f32 0x00000000#32) reducesTo_S4096x768_S4096_d1 h_S_)) (broadcastInDim S4096x1 ![] bcast_S_S4096x1 (constant S_ .f32 0x44400000#32))))

/-- The value of `main_call1_v6`, which later operations read. -/
def t_call1_v6 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x768, .f32⟩ : BufTy).Contents (Elt F) :=
  mulf (t_call1_v5 (F := F) a0 a1 a2 a3 a4 a5 a6 a7 a8 a9) (t_call1_v5 (F := F) a0 a1 a2 a3 a4 a5 a6 a7 a8 a9)

/-- The value of `main_call1_v8`, read by later operations. -/
def t_call1_v8  :
    (⟨S_, .f32⟩ : BufTy).Contents (Elt F) :=
  subf (constant S_ .f32 0x44400000#32) (sitofp .f32 (t_c_14 (F := F)))

/-- The row variances of `o2`. -/
def var2 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x1, .f32⟩ : BufTy).Contents (Elt F) :=
  select (broadcastInDim S4096x1 ![] bcast_S_S4096x1 (cmpf .ogt (t_call1_v8 (F := F)) (constant S_ .f32 0x00000000#32))) (Host.divf (broadcastInDim S4096x1 ![0] bcast_S4096_S4096x1_0 (Host.reduceAdd (t_call1_v6 (F := F) a0 a1 a2 a3 a4 a5 a6 a7 a8 a9) (constant S_ .f32 0x00000000#32) reducesTo_S4096x768_S4096_d1 h_S_)) (broadcastInDim S4096x1 ![] bcast_S_S4096x1 (t_call1_v8 (F := F)))) (broadcastInDim S4096x1 ![] bcast_S_S4096x1 ((constant S_ .f32 0x7FC00000#32)))

/-- `o2` centred and scaled. -/
def o2c (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) :
    (⟨S4096x768, .f32⟩ : BufTy).Contents (Elt F) :=
  Host.divf (subf (o2 (F := F) a0 a1 a2 a3 a4 a5 a6 a7 a8 a9) (broadcastInDim S4096x768 ![0, 1] bcast_S4096x1_S4096x768_0_1 (mu2 (F := F) a0 a1 a2 a3 a4 a5 a6 a7 a8 a9))) (broadcastInDim S4096x768 ![0, 1] bcast_S4096x1_S4096x768_0_1 (Host.sqrt (addf (var2 (F := F) a0 a1 a2 a3 a4 a5 a6 a7 a8 a9) (broadcastInDim S4096x1 ![] bcast_S_S4096x1 (constant S_ .f32 0x3727C5AC#32)))))

/-- The second layer norm: `o2c · ln2_g + ln2_b`. -/
def o2n (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a14 : (⟨S768, .f32⟩ : BufTy).Contents (Elt F)) (a15 : (⟨S768, .f32⟩ : BufTy).Contents (Elt F)) :
    (⟨S4096x768, .f32⟩ : BufTy).Contents (Elt F) :=
  addf (mulf (o2c (F := F) a0 a1 a2 a3 a4 a5 a6 a7 a8 a9) (broadcastInDim S4096x768 ![0, 1] bcast_S1x768_S4096x768_0_1 (broadcastInDim S1x768 ![1] bcast_S768_S1x768_1 a14))) (broadcastInDim S4096x768 ![0, 1] bcast_S1x768_S4096x768_0_1 (broadcastInDim S1x768 ![1] bcast_S768_S1x768_1 a15))

/-- The fusion: `[o1n, o2n] · pWᵀ + pb`. -/
def fused (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) :
    (⟨S4096x768, .f32⟩ : BufTy).Contents (Elt F) :=
  addf (Host.dotGeneral dot_S4096x1536_S1536x768_S4096x768_1_0_0_1_n_n none (concatenate S4096x1536 1 [⟨S4096x768, (o1n (F := F) a0 a1 a2 a3 a4 a5 a6 a7 a8 a9 a12 a13)⟩, ⟨S4096x768, (o2n (F := F) a0 a1 a2 a3 a4 a5 a6 a7 a8 a9 a14 a15)⟩] concatenates_S4096x768_S4096x768_S4096x1536_d1) (transpose S1536x768 [1, 0] a10 transposes_S768x1536_S1536x768_1_0)) (broadcastInDim S4096x768 ![0, 1] bcast_S1x768_S4096x768_0_1 (broadcastInDim S1x768 ![1] bcast_S768_S1x768_1 a11))

/-- The row means of `fused`. -/
def mu3 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) :
    (⟨S4096x1, .f32⟩ : BufTy).Contents (Elt F) :=
  Host.divf (broadcastInDim S4096x1 ![0] bcast_S4096_S4096x1_0 (Host.reduceAdd (fused (F := F) a0 a1 a2 a3 a4 a5 a6 a7 a8 a9 a10 a11 a12 a13 a14 a15) (constant S_ .f32 0x00000000#32) reducesTo_S4096x768_S4096_d1 h_S_)) (broadcastInDim S4096x1 ![] bcast_S_S4096x1 (constant S_ .f32 0x44400000#32))

/-- The value of `main_c_18`, which later operations read. -/
def t_c_18  :
    (⟨S_, .i32⟩ : BufTy).Contents (Elt F) :=
  constantI S_ 32 0#32

/-- The value of `main_call2_v5`, read by later operations. -/
def t_call2_v5 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) :
    (⟨S4096x768, .f32⟩ : BufTy).Contents (Elt F) :=
  subf (fused (F := F) a0 a1 a2 a3 a4 a5 a6 a7 a8 a9 a10 a11 a12 a13 a14 a15) (broadcastInDim S4096x768 ![0, 1] bcast_S4096x1_S4096x768_0_1 (Host.divf (broadcastInDim S4096x1 ![0] bcast_S4096_S4096x1_0 (Host.reduceAdd (fused (F := F) a0 a1 a2 a3 a4 a5 a6 a7 a8 a9 a10 a11 a12 a13 a14 a15) (constant S_ .f32 0x00000000#32) reducesTo_S4096x768_S4096_d1 h_S_)) (broadcastInDim S4096x1 ![] bcast_S_S4096x1 (constant S_ .f32 0x44400000#32))))

/-- The value of `main_call2_v6`, which later operations read. -/
def t_call2_v6 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) :
    (⟨S4096x768, .f32⟩ : BufTy).Contents (Elt F) :=
  mulf (t_call2_v5 (F := F) a0 a1 a2 a3 a4 a5 a6 a7 a8 a9 a10 a11 a12 a13 a14 a15) (t_call2_v5 (F := F) a0 a1 a2 a3 a4 a5 a6 a7 a8 a9 a10 a11 a12 a13 a14 a15)

/-- The value of `main_call2_v8`, read by later operations. -/
def t_call2_v8  :
    (⟨S_, .f32⟩ : BufTy).Contents (Elt F) :=
  subf (constant S_ .f32 0x44400000#32) (sitofp .f32 (t_c_18 (F := F)))

/-- The row variances of `fused`. -/
def var3 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) :
    (⟨S4096x1, .f32⟩ : BufTy).Contents (Elt F) :=
  select (broadcastInDim S4096x1 ![] bcast_S_S4096x1 (cmpf .ogt (t_call2_v8 (F := F)) (constant S_ .f32 0x00000000#32))) (Host.divf (broadcastInDim S4096x1 ![0] bcast_S4096_S4096x1_0 (Host.reduceAdd (t_call2_v6 (F := F) a0 a1 a2 a3 a4 a5 a6 a7 a8 a9 a10 a11 a12 a13 a14 a15) (constant S_ .f32 0x00000000#32) reducesTo_S4096x768_S4096_d1 h_S_)) (broadcastInDim S4096x1 ![] bcast_S_S4096x1 (t_call2_v8 (F := F)))) (broadcastInDim S4096x1 ![] bcast_S_S4096x1 ((constant S_ .f32 0x7FC00000#32)))

/-- `fused` centred and scaled. -/
def outc (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) :
    (⟨S4096x768, .f32⟩ : BufTy).Contents (Elt F) :=
  Host.divf (subf (fused (F := F) a0 a1 a2 a3 a4 a5 a6 a7 a8 a9 a10 a11 a12 a13 a14 a15) (broadcastInDim S4096x768 ![0, 1] bcast_S4096x1_S4096x768_0_1 (mu3 (F := F) a0 a1 a2 a3 a4 a5 a6 a7 a8 a9 a10 a11 a12 a13 a14 a15))) (broadcastInDim S4096x768 ![0, 1] bcast_S4096x1_S4096x768_0_1 (Host.sqrt (addf (var3 (F := F) a0 a1 a2 a3 a4 a5 a6 a7 a8 a9 a10 a11 a12 a13 a14 a15) (broadcastInDim S4096x1 ![] bcast_S_S4096x1 (constant S_ .f32 0x3727C5AC#32)))))

/-- The value of `main_v157`, read by later operations. -/
def t_v157 (a16 : (⟨S768, .f32⟩ : BufTy).Contents (Elt F)) :
    (⟨S4096x768, .f32⟩ : BufTy).Contents (Elt F) :=
  broadcastInDim S4096x768 ![0, 1] bcast_S1x768_S4096x768_0_1 (broadcastInDim S1x768 ![1] bcast_S768_S1x768_1 a16)

/-- The final layer norm: `outc · lnf_g + lnf_b`. -/
def out (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) (a16 : (⟨S768, .f32⟩ : BufTy).Contents (Elt F)) (a17 : (⟨S768, .f32⟩ : BufTy).Contents (Elt F)) :
    (⟨S4096x768, .f32⟩ : BufTy).Contents (Elt F) :=
  addf (mulf (outc (F := F) a0 a1 a2 a3 a4 a5 a6 a7 a8 a9 a10 a11 a12 a13 a14 a15) (t_v157 (F := F) a16)) (broadcastInDim S4096x768 ![0, 1] bcast_S1x768_S4096x768_0_1 (broadcastInDim S1x768 ![1] bcast_S768_S1x768_1 a17))

/-- The row Euclidean norms of `out`. -/
def nrm (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) (a16 : (⟨S768, .f32⟩ : BufTy).Contents (Elt F)) (a17 : (⟨S768, .f32⟩ : BufTy).Contents (Elt F)) :
    (⟨S4096x1, .f32⟩ : BufTy).Contents (Elt F) :=
  Host.sqrt (broadcastInDim S4096x1 ![0] bcast_S4096_S4096x1_0 (Host.reduceAdd (mulf (out (F := F) a0 a1 a2 a3 a4 a5 a6 a7 a8 a9 a10 a11 a12 a13 a14 a15 a16 a17) (out (F := F) a0 a1 a2 a3 a4 a5 a6 a7 a8 a9 a10 a11 a12 a13 a14 a15 a16 a17)) (constant S_ .f32 0x00000000#32) reducesTo_S4096x768_S4096_d1 h_S_))

/-- The first result: each row of `out` over its norm plus `1e-12` (the printed f32 literal). -/
def keys (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) (a16 : (⟨S768, .f32⟩ : BufTy).Contents (Elt F)) (a17 : (⟨S768, .f32⟩ : BufTy).Contents (Elt F)) :
    (⟨S4096x768, .f32⟩ : BufTy).Contents (Elt F) :=
  Host.divf (out (F := F) a0 a1 a2 a3 a4 a5 a6 a7 a8 a9 a10 a11 a12 a13 a14 a15 a16 a17) (broadcastInDim S4096x768 ![0, 1] bcast_S4096x1_S4096x768_0_1 (addf (nrm (F := F) a0 a1 a2 a3 a4 a5 a6 a7 a8 a9 a10 a11 a12 a13 a14 a15 a16 a17) (broadcastInDim S4096x1 ![] bcast_S_S4096x1 (constant S_ .f32 0x2B8CBCCC#32))))

/-- The value of `main_v167`, read by later operations. -/
def t_v167 (a19 : (⟨S1, .i32⟩ : BufTy).Contents (Elt F)) :
    (⟨S_, .i32⟩ : BufTy).Contents (Elt F) :=
  shapeCast S_ a19 shapeCasts_S1_S_

/-- The write positions before wrapping: the queue pointer plus `0 … 4095`. -/
def pos (a19 : (⟨S1, .i32⟩ : BufTy).Contents (Elt F)) :
    (⟨S4096, .i32⟩ : BufTy).Contents (Elt F) :=
  addi (broadcastInDim S4096 ![] bcast_S_S4096 (t_v167 (F := F) a19)) (iotaInDim S4096 32 0)

/-- The value of `main_call4_v0`, read by later operations. -/
def t_call4_v0  :
    (⟨S_, .i32⟩ : BufTy).Contents (Elt F) :=
  (constantI S_ 32 65536#32)

/-- The value of `main_call4_v2`, read by later operations. -/
def t_call4_v2  :
    (⟨S_, .i32⟩ : BufTy).Contents (Elt F) :=
  select (cmpi .eq (t_call4_v0 (F := F)) (constantI S_ 32 0#32)) (constantI S_ 32 1#32) (t_call4_v0 (F := F))

/-- The value of `main_call4_v4`, read by later operations. -/
def t_call4_v4 (a19 : (⟨S1, .i32⟩ : BufTy).Contents (Elt F)) :
    (⟨S4096, .i32⟩ : BufTy).Contents (Elt F) :=
  Host.remsi (pos (F := F) a19) (broadcastInDim S4096 ![] bcast_S_S4096 (t_call4_v2 (F := F)))

/-- The positions modulo 65536, with the sign correction of a floored remainder. -/
def posm (a19 : (⟨S1, .i32⟩ : BufTy).Contents (Elt F)) :
    (⟨S4096, .i32⟩ : BufTy).Contents (Elt F) :=
  select (andi (cmpi .ne (cmpi .slt (t_call4_v4 (F := F) a19) (broadcastInDim S4096 ![] bcast_S_S4096 (constantI S_ 32 0#32))) (broadcastInDim S4096 ![] bcast_S_S4096 (cmpi .slt (t_call4_v2 (F := F)) (constantI S_ 32 0#32)))) (cmpi .ne (t_call4_v4 (F := F) a19) (broadcastInDim S4096 ![] bcast_S_S4096 (constantI S_ 32 0#32)))) (addi (t_call4_v4 (F := F) a19) (broadcastInDim S4096 ![] bcast_S_S4096 (t_call4_v2 (F := F)))) (t_call4_v4 (F := F) a19)

/-- The value of `main_v172`, read by later operations. -/
def t_v172 (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) (a16 : (⟨S768, .f32⟩ : BufTy).Contents (Elt F)) (a17 : (⟨S768, .f32⟩ : BufTy).Contents (Elt F)) :
    (⟨S768x4096, .f32⟩ : BufTy).Contents (Elt F) :=
  transpose S768x4096 [1, 0] (keys (F := F) a0 a1 a2 a3 a4 a5 a6 a7 a8 a9 a10 a11 a12 a13 a14 a15 a16 a17) transposes_S4096x768_S768x4096_1_0

/-- The columns written: a negative remainder moved up by 65536. -/
def cols (a19 : (⟨S1, .i32⟩ : BufTy).Contents (Elt F)) :
    (⟨S4096, .i32⟩ : BufTy).Contents (Elt F) :=
  select (cmpi .slt (posm (F := F) a19) (broadcastInDim S4096 ![] bcast_S_S4096 (constantI S_ 32 0#32))) (addi (posm (F := F) a19) (broadcastInDim S4096 ![] bcast_S_S4096 (constantI S_ 32 65536#32))) (posm (F := F) a19)

/-- The second result: the queue with column `cols j` replaced by row `j` of `keys`, for each `j`. -/
def queue (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) (a16 : (⟨S768, .f32⟩ : BufTy).Contents (Elt F)) (a17 : (⟨S768, .f32⟩ : BufTy).Contents (Elt F)) (a18 : (⟨S768x65536, .f32⟩ : BufTy).Contents (Elt F)) (a19 : (⟨S1, .i32⟩ : BufTy).Contents (Elt F)) :
    (⟨S768x65536, .f32⟩ : BufTy).Contents (Elt F) :=
  Host.scatter scatter_S768x65536_S4096x1_S768x4096_0_1_1_1 (fun _ b => b) a18 (broadcastInDim S4096x1 ![0] bcast_S4096_S4096x1_0 (cols (F := F) a19)) (t_v172 (F := F) a0 a1 a2 a3 a4 a5 a6 a7 a8 a9 a10 a11 a12 a13 a14 a15 a16 a17)

/-- The value of `main_v180`, which later operations read. -/
def t_v180 (a19 : (⟨S1, .i32⟩ : BufTy).Contents (Elt F)) :
    (⟨S_, .i32⟩ : BufTy).Contents (Elt F) :=
  addi (t_v167 (F := F) a19) (constantI S_ 32 4096#32)

/-- The value of `main_call5_v0`, read by later operations. -/
def t_call5_v0  :
    (⟨S_, .i32⟩ : BufTy).Contents (Elt F) :=
  (constantI S_ 32 65536#32)

/-- The value of `main_call5_v2`, read by later operations. -/
def t_call5_v2  :
    (⟨S_, .i32⟩ : BufTy).Contents (Elt F) :=
  select (cmpi .eq (t_call5_v0 (F := F)) (constantI S_ 32 0#32)) (constantI S_ 32 1#32) (t_call5_v0 (F := F))

/-- The value of `main_call5_v3`, read by later operations. -/
def t_call5_v3 (a19 : (⟨S1, .i32⟩ : BufTy).Contents (Elt F)) :
    (⟨S_, .i32⟩ : BufTy).Contents (Elt F) :=
  Host.remsi (t_v180 (F := F) a19) (t_call5_v2 (F := F))

/-- The advanced pointer `ptr + 4096` modulo 65536, floored. -/
def ptrm (a19 : (⟨S1, .i32⟩ : BufTy).Contents (Elt F)) :
    (⟨S_, .i32⟩ : BufTy).Contents (Elt F) :=
  select (andi (cmpi .ne (cmpi .slt (t_call5_v3 (F := F) a19) (constantI S_ 32 0#32)) (cmpi .slt (t_call5_v2 (F := F)) (constantI S_ 32 0#32))) (cmpi .ne (t_call5_v3 (F := F) a19) (constantI S_ 32 0#32))) (addi (t_call5_v3 (F := F) a19) (t_call5_v2 (F := F))) (t_call5_v3 (F := F) a19)

/-- The third result: the advanced pointer as a vector of length one. -/
def newptr (a19 : (⟨S1, .i32⟩ : BufTy).Contents (Elt F)) :
    (⟨S1, .i32⟩ : BufTy).Contents (Elt F) :=
  shapeCast S1 (ptrm (F := F) a19) shapeCasts_S_S1

/-- The first result, `main_v166 : f32[4096, 768]`, of the twenty arguments. -/
def out_keys (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) (a16 : (⟨S768, .f32⟩ : BufTy).Contents (Elt F)) (a17 : (⟨S768, .f32⟩ : BufTy).Contents (Elt F)) (a18 : (⟨S768x65536, .f32⟩ : BufTy).Contents (Elt F)) (a19 : (⟨S1, .i32⟩ : BufTy).Contents (Elt F)) :
    (⟨S4096x768, .f32⟩ : BufTy).Contents (Elt F) :=
  keys (F := F) a0 a1 a2 a3 a4 a5 a6 a7 a8 a9 a10 a11 a12 a13 a14 a15 a16 a17

/-- The second result, `main_v179 : f32[768, 65536]`, of the twenty arguments. -/
def out_queue (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) (a16 : (⟨S768, .f32⟩ : BufTy).Contents (Elt F)) (a17 : (⟨S768, .f32⟩ : BufTy).Contents (Elt F)) (a18 : (⟨S768x65536, .f32⟩ : BufTy).Contents (Elt F)) (a19 : (⟨S1, .i32⟩ : BufTy).Contents (Elt F)) :
    (⟨S768x65536, .f32⟩ : BufTy).Contents (Elt F) :=
  queue (F := F) a0 a1 a2 a3 a4 a5 a6 a7 a8 a9 a10 a11 a12 a13 a14 a15 a16 a17 a18 a19

/-- The third result, `main_v182 : i32[1]`, of the twenty arguments. -/
def out_ptr (a0 : (⟨S4096x768, .f32⟩ : BufTy).Contents (Elt F)) (a1 : (⟨S4096x768, .f32⟩ : BufTy).Contents (Elt F)) (a2 : (⟨S768x768, .f32⟩ : BufTy).Contents (Elt F)) (a3 : (⟨S768, .f32⟩ : BufTy).Contents (Elt F)) (a4 : (⟨S768x768, .f32⟩ : BufTy).Contents (Elt F)) (a5 : (⟨S768, .f32⟩ : BufTy).Contents (Elt F)) (a6 : (⟨S2304x768, .f32⟩ : BufTy).Contents (Elt F)) (a7 : (⟨S2304, .f32⟩ : BufTy).Contents (Elt F)) (a8 : (⟨S768x768, .f32⟩ : BufTy).Contents (Elt F)) (a9 : (⟨S768, .f32⟩ : BufTy).Contents (Elt F)) (a10 : (⟨S768x1536, .f32⟩ : BufTy).Contents (Elt F)) (a11 : (⟨S768, .f32⟩ : BufTy).Contents (Elt F)) (a12 : (⟨S768, .f32⟩ : BufTy).Contents (Elt F)) (a13 : (⟨S768, .f32⟩ : BufTy).Contents (Elt F)) (a14 : (⟨S768, .f32⟩ : BufTy).Contents (Elt F)) (a15 : (⟨S768, .f32⟩ : BufTy).Contents (Elt F)) (a16 : (⟨S768, .f32⟩ : BufTy).Contents (Elt F)) (a17 : (⟨S768, .f32⟩ : BufTy).Contents (Elt F)) (a18 : (⟨S768x65536, .f32⟩ : BufTy).Contents (Elt F)) (a19 : (⟨S1, .i32⟩ : BufTy).Contents (Elt F)) :
    (⟨S1, .i32⟩ : BufTy).Contents (Elt F) :=
  newptr (F := F) a19

end Cert.ReferenceIdeal.RefRun

end
-- ==== Proof.RefValsA.lean ====
/- The values of interest read off the contents after stretches 0–18: a stretch's operations folded over the
   contents before it (each operation's result composed, any other buffer keeping what it held), the values it reads
   replaced by their terms from the stretches before, and the two sides then the same term once the definitions are
   opened. A value still read later is carried through each stretch that does not write it. -/
import proofs.«211565_g20684562498226_cont_8to1_684_24_alg».proof.Proof.RefOps
import proofs.«211565_g20684562498226_cont_8to1_684_24_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### The arguments where a stretch reads them -/
theorem val0_main_arg0 (V0 : Valuation τ sig (Elt F)) :
    val0 V0 (no_index (Proc.devRef .tc main_arg0)) = V0 (Proc.devRef .tc main_arg0) := val0_arg V0 main_arg0 notin_arg0
theorem val0_main_arg2 (V0 : Valuation τ sig (Elt F)) :
    val0 V0 (no_index (Proc.devRef .tc main_arg2)) = V0 (Proc.devRef .tc main_arg2) := val0_arg V0 main_arg2 notin_arg2
theorem val0_main_arg3 (V0 : Valuation τ sig (Elt F)) :
    val0 V0 (no_index (Proc.devRef .tc main_arg3)) = V0 (Proc.devRef .tc main_arg3) := val0_arg V0 main_arg3 notin_arg3
theorem val1_main_arg1 (V0 : Valuation τ sig (Elt F)) :
    val1 V0 (no_index (Proc.devRef .tc main_arg1)) = V0 (Proc.devRef .tc main_arg1) := val1_arg V0 main_arg1 notin_arg1
theorem val1_main_arg4 (V0 : Valuation τ sig (Elt F)) :
    val1 V0 (no_index (Proc.devRef .tc main_arg4)) = V0 (Proc.devRef .tc main_arg4) := val1_arg V0 main_arg4 notin_arg4
theorem val1_main_arg5 (V0 : Valuation τ sig (Elt F)) :
    val1 V0 (no_index (Proc.devRef .tc main_arg5)) = V0 (Proc.devRef .tc main_arg5) := val1_arg V0 main_arg5 notin_arg5
theorem val2_main_arg6 (V0 : Valuation τ sig (Elt F)) :
    val2 V0 (no_index (Proc.devRef .tc main_arg6)) = V0 (Proc.devRef .tc main_arg6) := val2_arg V0 main_arg6 notin_arg6
theorem val2_main_arg7 (V0 : Valuation τ sig (Elt F)) :
    val2 V0 (no_index (Proc.devRef .tc main_arg7)) = V0 (Proc.devRef .tc main_arg7) := val2_arg V0 main_arg7 notin_arg7
theorem val10_main_arg8 (V0 : Valuation τ sig (Elt F)) :
    val10 V0 (no_index (Proc.devRef .tc main_arg8)) = V0 (Proc.devRef .tc main_arg8) := val10_arg V0 main_arg8 notin_arg8
theorem val10_main_arg9 (V0 : Valuation τ sig (Elt F)) :
    val10 V0 (no_index (Proc.devRef .tc main_arg9)) = V0 (Proc.devRef .tc main_arg9) := val10_arg V0 main_arg9 notin_arg9
theorem val17_main_arg12 (V0 : Valuation τ sig (Elt F)) :
    val17 V0 (no_index (Proc.devRef .tc main_arg12)) = V0 (Proc.devRef .tc main_arg12) := val17_arg V0 main_arg12 notin_arg12
theorem val17_main_arg13 (V0 : Valuation τ sig (Elt F)) :
    val17 V0 (no_index (Proc.devRef .tc main_arg13)) = V0 (Proc.devRef .tc main_arg13) := val17_arg V0 main_arg13 notin_arg13
theorem val18_main_arg6 (V0 : Valuation τ sig (Elt F)) :
    val18 V0 (no_index (Proc.devRef .tc main_arg6)) = V0 (Proc.devRef .tc main_arg6) := val18_arg V0 main_arg6 notin_arg6
theorem val18_main_arg7 (V0 : Valuation τ sig (Elt F)) :
    val18 V0 (no_index (Proc.devRef .tc main_arg7)) = V0 (Proc.devRef .tc main_arg7) := val18_arg V0 main_arg7 notin_arg7

/-! ### After stretch 0 (`txt_up`) -/
theorem val1_main_v4 (V0 : Valuation τ sig (Elt F)) :
    val1 V0 (no_index (Proc.devRef .tc main_v4)) = txt_up (F := F) (V0 (Proc.devRef .tc main_arg0)) (V0 (Proc.devRef .tc main_arg2)) (V0 (Proc.devRef .tc main_arg3)) := by
  unfold val1
  simp only [w0]
  after_results_simp
  simp only [val0_main_arg3, val0_main_arg2, val0_main_arg0] <;> rfl

/-! ### After stretch 1 (`gph_up`) -/
theorem val2_main_v4 (V0 : Valuation τ sig (Elt F)) :
    val2 V0 (no_index (Proc.devRef .tc main_v4)) = txt_up (F := F) (V0 (Proc.devRef .tc main_arg0)) (V0 (Proc.devRef .tc main_arg2)) (V0 (Proc.devRef .tc main_arg3)) :=
  (val2_keep V0 main_v4 (by decide)).trans (val1_main_v4 V0)
theorem val2_main_v9 (V0 : Valuation τ sig (Elt F)) :
    val2 V0 (no_index (Proc.devRef .tc main_v9)) = gph_up (F := F) (V0 (Proc.devRef .tc main_arg1)) (V0 (Proc.devRef .tc main_arg4)) (V0 (Proc.devRef .tc main_arg5)) := by
  unfold val2
  simp only [w1]
  after_results_simp
  simp only [val1_main_arg5, val1_main_arg4, val1_main_arg1] <;> rfl

/-! ### After stretch 2 (`q1`) -/
theorem val3_main_v4 (V0 : Valuation τ sig (Elt F)) :
    val3 V0 (no_index (Proc.devRef .tc main_v4)) = txt_up (F := F) (V0 (Proc.devRef .tc main_arg0)) (V0 (Proc.devRef .tc main_arg2)) (V0 (Proc.devRef .tc main_arg3)) :=
  (val3_keep V0 main_v4 (by decide)).trans (val2_main_v4 V0)
theorem val3_main_v9 (V0 : Valuation τ sig (Elt F)) :
    val3 V0 (no_index (Proc.devRef .tc main_v9)) = gph_up (F := F) (V0 (Proc.devRef .tc main_arg1)) (V0 (Proc.devRef .tc main_arg4)) (V0 (Proc.devRef .tc main_arg5)) :=
  (val3_keep V0 main_v9 (by decide)).trans (val2_main_v9 V0)
set_option maxHeartbeats 2000000 in
theorem val3_main_v11 (V0 : Valuation τ sig (Elt F)) :
    val3 V0 (no_index (Proc.devRef .tc main_v11)) = t_v11 (F := F) (V0 (Proc.devRef .tc main_arg6)) := by
  unfold val3
  simp only [w2]
  after_results_simp
  simp only [val2_main_arg6] <;> rfl
set_option maxHeartbeats 2000000 in
theorem val3_main_v12 (V0 : Valuation τ sig (Elt F)) :
    val3 V0 (no_index (Proc.devRef .tc main_v12)) = t_v12 (F := F) (V0 (Proc.devRef .tc main_arg6)) := by
  unfold val3
  simp only [w2]
  after_results_simp
  simp only [val2_main_arg6] <;> rfl
set_option maxHeartbeats 2000000 in
theorem val3_main_v14 (V0 : Valuation τ sig (Elt F)) :
    val3 V0 (no_index (Proc.devRef .tc main_v14)) = t_v14 (F := F) (V0 (Proc.devRef .tc main_arg7)) := by
  unfold val3
  simp only [w2]
  after_results_simp
  simp only [val2_main_arg7] <;> rfl
set_option maxHeartbeats 2000000 in
theorem val3_main_v15 (V0 : Valuation τ sig (Elt F)) :
    val3 V0 (no_index (Proc.devRef .tc main_v15)) = t_v15 (F := F) (V0 (Proc.devRef .tc main_arg7)) := by
  unfold val3
  simp only [w2]
  after_results_simp
  simp only [val2_main_arg7] <;> rfl
set_option maxHeartbeats 2000000 in
theorem val3_main_v20 (V0 : Valuation τ sig (Elt F)) :
    val3 V0 (no_index (Proc.devRef .tc main_v20)) = q1 (F := F) (V0 (Proc.devRef .tc main_arg0)) (V0 (Proc.devRef .tc main_arg2)) (V0 (Proc.devRef .tc main_arg3)) (V0 (Proc.devRef .tc main_arg6)) (V0 (Proc.devRef .tc main_arg7)) := by
  unfold val3
  simp only [w2]
  after_results_simp
  simp only [val2_main_arg7, val2_main_arg6, val2_main_v4] <;> rfl

/-! ### After stretch 3 (`k1`) -/
theorem val4_main_v4 (V0 : Valuation τ sig (Elt F)) :
    val4 V0 (no_index (Proc.devRef .tc main_v4)) = txt_up (F := F) (V0 (Proc.devRef .tc main_arg0)) (V0 (Proc.devRef .tc main_arg2)) (V0 (Proc.devRef .tc main_arg3)) :=
  (val4_keep V0 main_v4 (by decide)).trans (val3_main_v4 V0)
theorem val4_main_v9 (V0 : Valuation τ sig (Elt F)) :
    val4 V0 (no_index (Proc.devRef .tc main_v9)) = gph_up (F := F) (V0 (Proc.devRef .tc main_arg1)) (V0 (Proc.devRef .tc main_arg4)) (V0 (Proc.devRef .tc main_arg5)) :=
  (val4_keep V0 main_v9 (by decide)).trans (val3_main_v9 V0)
theorem val4_main_v12 (V0 : Valuation τ sig (Elt F)) :
    val4 V0 (no_index (Proc.devRef .tc main_v12)) = t_v12 (F := F) (V0 (Proc.devRef .tc main_arg6)) :=
  (val4_keep V0 main_v12 (by decide)).trans (val3_main_v12 V0)
theorem val4_main_v15 (V0 : Valuation τ sig (Elt F)) :
    val4 V0 (no_index (Proc.devRef .tc main_v15)) = t_v15 (F := F) (V0 (Proc.devRef .tc main_arg7)) :=
  (val4_keep V0 main_v15 (by decide)).trans (val3_main_v15 V0)
theorem val4_main_v20 (V0 : Valuation τ sig (Elt F)) :
    val4 V0 (no_index (Proc.devRef .tc main_v20)) = q1 (F := F) (V0 (Proc.devRef .tc main_arg0)) (V0 (Proc.devRef .tc main_arg2)) (V0 (Proc.devRef .tc main_arg3)) (V0 (Proc.devRef .tc main_arg6)) (V0 (Proc.devRef .tc main_arg7)) :=
  (val4_keep V0 main_v20 (by decide)).trans (val3_main_v20 V0)
theorem val4_main_v25 (V0 : Valuation τ sig (Elt F)) :
    val4 V0 (no_index (Proc.devRef .tc main_v25)) = k1 (F := F) (V0 (Proc.devRef .tc main_arg1)) (V0 (Proc.devRef .tc main_arg4)) (V0 (Proc.devRef .tc main_arg5)) (V0 (Proc.devRef .tc main_arg6)) (V0 (Proc.devRef .tc main_arg7)) := by
  unfold val4
  simp only [w3]
  after_results_simp
  simp only [val3_main_v14, val3_main_v11, val3_main_v9] <;> rfl

/-! ### After stretch 4 (`vv1`) -/
theorem val5_main_v4 (V0 : Valuation τ sig (Elt F)) :
    val5 V0 (no_index (Proc.devRef .tc main_v4)) = txt_up (F := F) (V0 (Proc.devRef .tc main_arg0)) (V0 (Proc.devRef .tc main_arg2)) (V0 (Proc.devRef .tc main_arg3)) :=
  (val5_keep V0 main_v4 (by decide)).trans (val4_main_v4 V0)
theorem val5_main_v9 (V0 : Valuation τ sig (Elt F)) :
    val5 V0 (no_index (Proc.devRef .tc main_v9)) = gph_up (F := F) (V0 (Proc.devRef .tc main_arg1)) (V0 (Proc.devRef .tc main_arg4)) (V0 (Proc.devRef .tc main_arg5)) :=
  (val5_keep V0 main_v9 (by decide)).trans (val4_main_v9 V0)
theorem val5_main_v20 (V0 : Valuation τ sig (Elt F)) :
    val5 V0 (no_index (Proc.devRef .tc main_v20)) = q1 (F := F) (V0 (Proc.devRef .tc main_arg0)) (V0 (Proc.devRef .tc main_arg2)) (V0 (Proc.devRef .tc main_arg3)) (V0 (Proc.devRef .tc main_arg6)) (V0 (Proc.devRef .tc main_arg7)) :=
  (val5_keep V0 main_v20 (by decide)).trans (val4_main_v20 V0)
theorem val5_main_v25 (V0 : Valuation τ sig (Elt F)) :
    val5 V0 (no_index (Proc.devRef .tc main_v25)) = k1 (F := F) (V0 (Proc.devRef .tc main_arg1)) (V0 (Proc.devRef .tc main_arg4)) (V0 (Proc.devRef .tc main_arg5)) (V0 (Proc.devRef .tc main_arg6)) (V0 (Proc.devRef .tc main_arg7)) :=
  (val5_keep V0 main_v25 (by decide)).trans (val4_main_v25 V0)
theorem val5_main_v30 (V0 : Valuation τ sig (Elt F)) :
    val5 V0 (no_index (Proc.devRef .tc main_v30)) = vv1 (F := F) (V0 (Proc.devRef .tc main_arg1)) (V0 (Proc.devRef .tc main_arg4)) (V0 (Proc.devRef .tc main_arg5)) (V0 (Proc.devRef .tc main_arg6)) (V0 (Proc.devRef .tc main_arg7)) := by
  unfold val5
  simp only [w4]
  after_results_simp
  simp only [val4_main_v15, val4_main_v12, val4_main_v9] <;> rfl

/-! ### After stretch 5 (`dots1`) -/
theorem val6_main_v4 (V0 : Valuation τ sig (Elt F)) :
    val6 V0 (no_index (Proc.devRef .tc main_v4)) = txt_up (F := F) (V0 (Proc.devRef .tc main_arg0)) (V0 (Proc.devRef .tc main_arg2)) (V0 (Proc.devRef .tc main_arg3)) :=
  (val6_keep V0 main_v4 (by decide)).trans (val5_main_v4 V0)
theorem val6_main_v9 (V0 : Valuation τ sig (Elt F)) :
    val6 V0 (no_index (Proc.devRef .tc main_v9)) = gph_up (F := F) (V0 (Proc.devRef .tc main_arg1)) (V0 (Proc.devRef .tc main_arg4)) (V0 (Proc.devRef .tc main_arg5)) :=
  (val6_keep V0 main_v9 (by decide)).trans (val5_main_v9 V0)
theorem val6_main_v33 (V0 : Valuation τ sig (Elt F)) :
    val6 V0 (no_index (Proc.devRef .tc main_v33)) = t_v33 (F := F) (V0 (Proc.devRef .tc main_arg1)) (V0 (Proc.devRef .tc main_arg4)) (V0 (Proc.devRef .tc main_arg5)) (V0 (Proc.devRef .tc main_arg6)) (V0 (Proc.devRef .tc main_arg7)) := by
  unfold val6
  simp only [w5]
  after_results_simp
  simp only [val5_main_v30] <;> rfl
theorem val6_main_v35 (V0 : Valuation τ sig (Elt F)) :
    val6 V0 (no_index (Proc.devRef .tc main_v35)) = dots1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val6
  simp only [w5]
  after_results_simp
  simp only [val5_main_v25, val5_main_v20] <;> rfl

/-! ### After stretch 6 (`sc1`) -/
theorem val7_main_v4 (V0 : Valuation τ sig (Elt F)) :
    val7 V0 (no_index (Proc.devRef .tc main_v4)) = txt_up (F := F) (V0 (Proc.devRef .tc main_arg0)) (V0 (Proc.devRef .tc main_arg2)) (V0 (Proc.devRef .tc main_arg3)) :=
  (val7_keep V0 main_v4 (by decide)).trans (val6_main_v4 V0)
theorem val7_main_v9 (V0 : Valuation τ sig (Elt F)) :
    val7 V0 (no_index (Proc.devRef .tc main_v9)) = gph_up (F := F) (V0 (Proc.devRef .tc main_arg1)) (V0 (Proc.devRef .tc main_arg4)) (V0 (Proc.devRef .tc main_arg5)) :=
  (val7_keep V0 main_v9 (by decide)).trans (val6_main_v9 V0)
theorem val7_main_v33 (V0 : Valuation τ sig (Elt F)) :
    val7 V0 (no_index (Proc.devRef .tc main_v33)) = t_v33 (F := F) (V0 (Proc.devRef .tc main_arg1)) (V0 (Proc.devRef .tc main_arg4)) (V0 (Proc.devRef .tc main_arg5)) (V0 (Proc.devRef .tc main_arg6)) (V0 (Proc.devRef .tc main_arg7)) :=
  (val7_keep V0 main_v33 (by decide)).trans (val6_main_v33 V0)
theorem val7_main_v38 (V0 : Valuation τ sig (Elt F)) :
    val7 V0 (no_index (Proc.devRef .tc main_v38)) = sc1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val7
  simp only [w6]
  after_results_simp
  simp only [val6_main_v35] <;> rfl

/-! ### After stretch 7 (`ex1`) -/
theorem val8_main_v4 (V0 : Valuation τ sig (Elt F)) :
    val8 V0 (no_index (Proc.devRef .tc main_v4)) = txt_up (F := F) (V0 (Proc.devRef .tc main_arg0)) (V0 (Proc.devRef .tc main_arg2)) (V0 (Proc.devRef .tc main_arg3)) :=
  (val8_keep V0 main_v4 (by decide)).trans (val7_main_v4 V0)
theorem val8_main_v9 (V0 : Valuation τ sig (Elt F)) :
    val8 V0 (no_index (Proc.devRef .tc main_v9)) = gph_up (F := F) (V0 (Proc.devRef .tc main_arg1)) (V0 (Proc.devRef .tc main_arg4)) (V0 (Proc.devRef .tc main_arg5)) :=
  (val8_keep V0 main_v9 (by decide)).trans (val7_main_v9 V0)
theorem val8_main_v33 (V0 : Valuation τ sig (Elt F)) :
    val8 V0 (no_index (Proc.devRef .tc main_v33)) = t_v33 (F := F) (V0 (Proc.devRef .tc main_arg1)) (V0 (Proc.devRef .tc main_arg4)) (V0 (Proc.devRef .tc main_arg5)) (V0 (Proc.devRef .tc main_arg6)) (V0 (Proc.devRef .tc main_arg7)) :=
  (val8_keep V0 main_v33 (by decide)).trans (val7_main_v33 V0)
theorem val8_main_v44 (V0 : Valuation τ sig (Elt F)) :
    val8 V0 (no_index (Proc.devRef .tc main_v44)) = ex1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val8
  simp only [w7]
  after_results_simp
  simp only [val7_main_v38] <;> rfl

/-! ### After stretch 8 (`p1`) -/
theorem val9_main_v4 (V0 : Valuation τ sig (Elt F)) :
    val9 V0 (no_index (Proc.devRef .tc main_v4)) = txt_up (F := F) (V0 (Proc.devRef .tc main_arg0)) (V0 (Proc.devRef .tc main_arg2)) (V0 (Proc.devRef .tc main_arg3)) :=
  (val9_keep V0 main_v4 (by decide)).trans (val8_main_v4 V0)
theorem val9_main_v9 (V0 : Valuation τ sig (Elt F)) :
    val9 V0 (no_index (Proc.devRef .tc main_v9)) = gph_up (F := F) (V0 (Proc.devRef .tc main_arg1)) (V0 (Proc.devRef .tc main_arg4)) (V0 (Proc.devRef .tc main_arg5)) :=
  (val9_keep V0 main_v9 (by decide)).trans (val8_main_v9 V0)
theorem val9_main_v33 (V0 : Valuation τ sig (Elt F)) :
    val9 V0 (no_index (Proc.devRef .tc main_v33)) = t_v33 (F := F) (V0 (Proc.devRef .tc main_arg1)) (V0 (Proc.devRef .tc main_arg4)) (V0 (Proc.devRef .tc main_arg5)) (V0 (Proc.devRef .tc main_arg6)) (V0 (Proc.devRef .tc main_arg7)) :=
  (val9_keep V0 main_v33 (by decide)).trans (val8_main_v33 V0)
theorem val9_main_v47 (V0 : Valuation τ sig (Elt F)) :
    val9 V0 (no_index (Proc.devRef .tc main_v47)) = p1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val9
  simp only [w8]
  after_results_simp
  simp only [val8_main_v44] <;> rfl

/-! ### After stretch 9 (`attn1`) -/
theorem val10_main_v4 (V0 : Valuation τ sig (Elt F)) :
    val10 V0 (no_index (Proc.devRef .tc main_v4)) = txt_up (F := F) (V0 (Proc.devRef .tc main_arg0)) (V0 (Proc.devRef .tc main_arg2)) (V0 (Proc.devRef .tc main_arg3)) :=
  (val10_keep V0 main_v4 (by decide)).trans (val9_main_v4 V0)
theorem val10_main_v9 (V0 : Valuation τ sig (Elt F)) :
    val10 V0 (no_index (Proc.devRef .tc main_v9)) = gph_up (F := F) (V0 (Proc.devRef .tc main_arg1)) (V0 (Proc.devRef .tc main_arg4)) (V0 (Proc.devRef .tc main_arg5)) :=
  (val10_keep V0 main_v9 (by decide)).trans (val9_main_v9 V0)
theorem val10_main_v50 (V0 : Valuation τ sig (Elt F)) :
    val10 V0 (no_index (Proc.devRef .tc main_v50)) = attn1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val10
  simp only [w9]
  after_results_simp
  simp only [val9_main_v33, val9_main_v47] <;> rfl

/-! ### After stretch 10 (`t_v54`) -/
theorem val11_main_v4 (V0 : Valuation τ sig (Elt F)) :
    val11 V0 (no_index (Proc.devRef .tc main_v4)) = txt_up (F := F) (V0 (Proc.devRef .tc main_arg0)) (V0 (Proc.devRef .tc main_arg2)) (V0 (Proc.devRef .tc main_arg3)) :=
  (val11_keep V0 main_v4 (by decide)).trans (val10_main_v4 V0)
theorem val11_main_v9 (V0 : Valuation τ sig (Elt F)) :
    val11 V0 (no_index (Proc.devRef .tc main_v9)) = gph_up (F := F) (V0 (Proc.devRef .tc main_arg1)) (V0 (Proc.devRef .tc main_arg4)) (V0 (Proc.devRef .tc main_arg5)) :=
  (val11_keep V0 main_v9 (by decide)).trans (val10_main_v9 V0)
theorem val11_main_v52 (V0 : Valuation τ sig (Elt F)) :
    val11 V0 (no_index (Proc.devRef .tc main_v52)) = t_v52 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val11
  simp only [w10]
  after_results_simp
  simp only [val10_main_arg8, val10_main_v50] <;> rfl
theorem val11_main_v54 (V0 : Valuation τ sig (Elt F)) :
    val11 V0 (no_index (Proc.devRef .tc main_v54)) = t_v54 (F := F) (V0 (Proc.devRef .tc main_arg9)) := by
  unfold val11
  simp only [w10]
  after_results_simp
  simp only [val10_main_arg9] <;> rfl

/-! ### After stretch 11 (`o1`) -/
theorem val12_main_v4 (V0 : Valuation τ sig (Elt F)) :
    val12 V0 (no_index (Proc.devRef .tc main_v4)) = txt_up (F := F) (V0 (Proc.devRef .tc main_arg0)) (V0 (Proc.devRef .tc main_arg2)) (V0 (Proc.devRef .tc main_arg3)) :=
  (val12_keep V0 main_v4 (by decide)).trans (val11_main_v4 V0)
theorem val12_main_v9 (V0 : Valuation τ sig (Elt F)) :
    val12 V0 (no_index (Proc.devRef .tc main_v9)) = gph_up (F := F) (V0 (Proc.devRef .tc main_arg1)) (V0 (Proc.devRef .tc main_arg4)) (V0 (Proc.devRef .tc main_arg5)) :=
  (val12_keep V0 main_v9 (by decide)).trans (val11_main_v9 V0)
theorem val12_main_v55 (V0 : Valuation τ sig (Elt F)) :
    val12 V0 (no_index (Proc.devRef .tc main_v55)) = o1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val12
  simp only [w11]
  after_results_simp
  simp only [val11_main_v54, val11_main_v52] <;> rfl

/-! ### After stretch 12 (`mu1`) -/
theorem val13_main_v4 (V0 : Valuation τ sig (Elt F)) :
    val13 V0 (no_index (Proc.devRef .tc main_v4)) = txt_up (F := F) (V0 (Proc.devRef .tc main_arg0)) (V0 (Proc.devRef .tc main_arg2)) (V0 (Proc.devRef .tc main_arg3)) :=
  (val13_keep V0 main_v4 (by decide)).trans (val12_main_v4 V0)
theorem val13_main_v9 (V0 : Valuation τ sig (Elt F)) :
    val13 V0 (no_index (Proc.devRef .tc main_v9)) = gph_up (F := F) (V0 (Proc.devRef .tc main_arg1)) (V0 (Proc.devRef .tc main_arg4)) (V0 (Proc.devRef .tc main_arg5)) :=
  (val13_keep V0 main_v9 (by decide)).trans (val12_main_v9 V0)
theorem val13_main_v55 (V0 : Valuation τ sig (Elt F)) :
    val13 V0 (no_index (Proc.devRef .tc main_v55)) = o1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val13_keep V0 main_v55 (by decide)).trans (val12_main_v55 V0)
theorem val13_main_v59 (V0 : Valuation τ sig (Elt F)) :
    val13 V0 (no_index (Proc.devRef .tc main_v59)) = mu1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val13
  simp only [w12]
  after_results_simp
  simp only [val12_main_v55] <;> rfl

/-! ### After stretch 13 (`t_call0_v5`) -/
theorem val14_main_v4 (V0 : Valuation τ sig (Elt F)) :
    val14 V0 (no_index (Proc.devRef .tc main_v4)) = txt_up (F := F) (V0 (Proc.devRef .tc main_arg0)) (V0 (Proc.devRef .tc main_arg2)) (V0 (Proc.devRef .tc main_arg3)) :=
  (val14_keep V0 main_v4 (by decide)).trans (val13_main_v4 V0)
theorem val14_main_v9 (V0 : Valuation τ sig (Elt F)) :
    val14 V0 (no_index (Proc.devRef .tc main_v9)) = gph_up (F := F) (V0 (Proc.devRef .tc main_arg1)) (V0 (Proc.devRef .tc main_arg4)) (V0 (Proc.devRef .tc main_arg5)) :=
  (val14_keep V0 main_v9 (by decide)).trans (val13_main_v9 V0)
theorem val14_main_v55 (V0 : Valuation τ sig (Elt F)) :
    val14 V0 (no_index (Proc.devRef .tc main_v55)) = o1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val14_keep V0 main_v55 (by decide)).trans (val13_main_v55 V0)
theorem val14_main_v59 (V0 : Valuation τ sig (Elt F)) :
    val14 V0 (no_index (Proc.devRef .tc main_v59)) = mu1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val14_keep V0 main_v59 (by decide)).trans (val13_main_v59 V0)
set_option maxHeartbeats 2000000 in
theorem val14_main_c (V0 : Valuation τ sig (Elt F)) :
    val14 V0 (no_index (Proc.devRef .tc main_c)) = t_c (F := F) := by
  unfold val14
  simp only [w13]
  after_results_simp
  simp only [ofBuf_toBuf, t_c] <;> rfl
set_option maxHeartbeats 2000000 in
theorem val14_main_call0_v5 (V0 : Valuation τ sig (Elt F)) :
    val14 V0 (no_index (Proc.devRef .tc main_call0_v5)) = t_call0_v5 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val14
  simp only [w13]
  after_results_simp
  simp only [val13_main_v55, ofBuf_toBuf, t_call0_v5] <;> rfl

/-! ### After stretch 14 (`t_call0_v8`) -/
theorem val15_main_v4 (V0 : Valuation τ sig (Elt F)) :
    val15 V0 (no_index (Proc.devRef .tc main_v4)) = txt_up (F := F) (V0 (Proc.devRef .tc main_arg0)) (V0 (Proc.devRef .tc main_arg2)) (V0 (Proc.devRef .tc main_arg3)) :=
  (val15_keep V0 main_v4 (by decide)).trans (val14_main_v4 V0)
theorem val15_main_v9 (V0 : Valuation τ sig (Elt F)) :
    val15 V0 (no_index (Proc.devRef .tc main_v9)) = gph_up (F := F) (V0 (Proc.devRef .tc main_arg1)) (V0 (Proc.devRef .tc main_arg4)) (V0 (Proc.devRef .tc main_arg5)) :=
  (val15_keep V0 main_v9 (by decide)).trans (val14_main_v9 V0)
theorem val15_main_v55 (V0 : Valuation τ sig (Elt F)) :
    val15 V0 (no_index (Proc.devRef .tc main_v55)) = o1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val15_keep V0 main_v55 (by decide)).trans (val14_main_v55 V0)
theorem val15_main_v59 (V0 : Valuation τ sig (Elt F)) :
    val15 V0 (no_index (Proc.devRef .tc main_v59)) = mu1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val15_keep V0 main_v59 (by decide)).trans (val14_main_v59 V0)
theorem val15_main_call0_v6 (V0 : Valuation τ sig (Elt F)) :
    val15 V0 (no_index (Proc.devRef .tc main_call0_v6)) = t_call0_v6 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val15
  simp only [w14]
  after_results_simp
  simp only [val14_main_call0_v5, ofBuf_toBuf, t_call0_v6] <;> rfl
theorem val15_main_call0_v8 (V0 : Valuation τ sig (Elt F)) :
    val15 V0 (no_index (Proc.devRef .tc main_call0_v8)) = t_call0_v8 (F := F) := by
  unfold val15
  simp only [w14]
  after_results_simp
  simp only [val14_main_c, ofBuf_toBuf, t_call0_v8] <;> rfl

/-! ### After stretch 15 (`var1`) -/
theorem val16_main_v4 (V0 : Valuation τ sig (Elt F)) :
    val16 V0 (no_index (Proc.devRef .tc main_v4)) = txt_up (F := F) (V0 (Proc.devRef .tc main_arg0)) (V0 (Proc.devRef .tc main_arg2)) (V0 (Proc.devRef .tc main_arg3)) :=
  (val16_keep V0 main_v4 (by decide)).trans (val15_main_v4 V0)
theorem val16_main_v9 (V0 : Valuation τ sig (Elt F)) :
    val16 V0 (no_index (Proc.devRef .tc main_v9)) = gph_up (F := F) (V0 (Proc.devRef .tc main_arg1)) (V0 (Proc.devRef .tc main_arg4)) (V0 (Proc.devRef .tc main_arg5)) :=
  (val16_keep V0 main_v9 (by decide)).trans (val15_main_v9 V0)
theorem val16_main_v55 (V0 : Valuation τ sig (Elt F)) :
    val16 V0 (no_index (Proc.devRef .tc main_v55)) = o1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val16_keep V0 main_v55 (by decide)).trans (val15_main_v55 V0)
theorem val16_main_v59 (V0 : Valuation τ sig (Elt F)) :
    val16 V0 (no_index (Proc.devRef .tc main_v59)) = mu1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val16_keep V0 main_v59 (by decide)).trans (val15_main_v59 V0)
set_option maxHeartbeats 2000000 in
theorem val16_main_v60 (V0 : Valuation τ sig (Elt F)) :
    val16 V0 (no_index (Proc.devRef .tc main_v60)) = var1 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val16
  simp only [w15]
  after_results_simp
  simp only [val15_main_call0_v8, val15_main_call0_v6, ofBuf_toBuf, var1] <;> rfl

/-! ### After stretch 16 (`o1c`) -/
theorem val17_main_v4 (V0 : Valuation τ sig (Elt F)) :
    val17 V0 (no_index (Proc.devRef .tc main_v4)) = txt_up (F := F) (V0 (Proc.devRef .tc main_arg0)) (V0 (Proc.devRef .tc main_arg2)) (V0 (Proc.devRef .tc main_arg3)) :=
  (val17_keep V0 main_v4 (by decide)).trans (val16_main_v4 V0)
theorem val17_main_v9 (V0 : Valuation τ sig (Elt F)) :
    val17 V0 (no_index (Proc.devRef .tc main_v9)) = gph_up (F := F) (V0 (Proc.devRef .tc main_arg1)) (V0 (Proc.devRef .tc main_arg4)) (V0 (Proc.devRef .tc main_arg5)) :=
  (val17_keep V0 main_v9 (by decide)).trans (val16_main_v9 V0)
theorem val17_main_v67 (V0 : Valuation τ sig (Elt F)) :
    val17 V0 (no_index (Proc.devRef .tc main_v67)) = o1c (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val17
  simp only [w16]
  after_results_simp
  simp only [val16_main_v60, val16_main_v59, val16_main_v55] <;> rfl

/-! ### After stretch 17 (`o1n`) -/
theorem val18_main_v4 (V0 : Valuation τ sig (Elt F)) :
    val18 V0 (no_index (Proc.devRef .tc main_v4)) = txt_up (F := F) (V0 (Proc.devRef .tc main_arg0)) (V0 (Proc.devRef .tc main_arg2)) (V0 (Proc.devRef .tc main_arg3)) :=
  (val18_keep V0 main_v4 (by decide)).trans (val17_main_v4 V0)
theorem val18_main_v9 (V0 : Valuation τ sig (Elt F)) :
    val18 V0 (no_index (Proc.devRef .tc main_v9)) = gph_up (F := F) (V0 (Proc.devRef .tc main_arg1)) (V0 (Proc.devRef .tc main_arg4)) (V0 (Proc.devRef .tc main_arg5)) :=
  (val18_keep V0 main_v9 (by decide)).trans (val17_main_v9 V0)
theorem val18_main_v73 (V0 : Valuation τ sig (Elt F)) :
    val18 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) := by
  unfold val18
  simp only [w17]
  after_results_simp
  simp only [val17_main_arg13, val17_main_arg12, val17_main_v67] <;> rfl

/-! ### After stretch 18 (`q2`) -/
theorem val19_main_v4 (V0 : Valuation τ sig (Elt F)) :
    val19 V0 (no_index (Proc.devRef .tc main_v4)) = txt_up (F := F) (V0 (Proc.devRef .tc main_arg0)) (V0 (Proc.devRef .tc main_arg2)) (V0 (Proc.devRef .tc main_arg3)) :=
  (val19_keep V0 main_v4 (by decide)).trans (val18_main_v4 V0)
theorem val19_main_v73 (V0 : Valuation τ sig (Elt F)) :
    val19 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val19_keep V0 main_v73 (by decide)).trans (val18_main_v73 V0)
set_option maxHeartbeats 2000000 in
theorem val19_main_v75 (V0 : Valuation τ sig (Elt F)) :
    val19 V0 (no_index (Proc.devRef .tc main_v75)) = t_v75 (F := F) (V0 (Proc.devRef .tc main_arg6)) := by
  unfold val19
  simp only [w18]
  after_results_simp
  simp only [val18_main_arg6] <;> rfl
set_option maxHeartbeats 2000000 in
theorem val19_main_v76 (V0 : Valuation τ sig (Elt F)) :
    val19 V0 (no_index (Proc.devRef .tc main_v76)) = t_v76 (F := F) (V0 (Proc.devRef .tc main_arg6)) := by
  unfold val19
  simp only [w18]
  after_results_simp
  simp only [val18_main_arg6] <;> rfl
set_option maxHeartbeats 2000000 in
theorem val19_main_v78 (V0 : Valuation τ sig (Elt F)) :
    val19 V0 (no_index (Proc.devRef .tc main_v78)) = t_v78 (F := F) (V0 (Proc.devRef .tc main_arg7)) := by
  unfold val19
  simp only [w18]
  after_results_simp
  simp only [val18_main_arg7] <;> rfl
set_option maxHeartbeats 2000000 in
theorem val19_main_v79 (V0 : Valuation τ sig (Elt F)) :
    val19 V0 (no_index (Proc.devRef .tc main_v79)) = t_v79 (F := F) (V0 (Proc.devRef .tc main_arg7)) := by
  unfold val19
  simp only [w18]
  after_results_simp
  simp only [val18_main_arg7] <;> rfl
set_option maxHeartbeats 2000000 in
theorem val19_main_v84 (V0 : Valuation τ sig (Elt F)) :
    val19 V0 (no_index (Proc.devRef .tc main_v84)) = q2 (F := F) (V0 (Proc.devRef .tc main_arg1)) (V0 (Proc.devRef .tc main_arg4)) (V0 (Proc.devRef .tc main_arg5)) (V0 (Proc.devRef .tc main_arg6)) (V0 (Proc.devRef .tc main_arg7)) := by
  unfold val19
  simp only [w18]
  after_results_simp
  simp only [val18_main_arg7, val18_main_arg6, val18_main_v9] <;> rfl

end Cert.ReferenceIdeal.RefRun

end
-- ==== Proof.RefValsB.lean ====
/- The values of interest read off the contents after stretches 19–37: a stretch's operations folded over the
   contents before it (each operation's result composed, any other buffer keeping what it held), the values it reads
   replaced by their terms from the stretches before, and the two sides then the same term once the definitions are
   opened. A value still read later is carried through each stretch that does not write it. -/
import proofs.«211565_g20684562498226_cont_8to1_684_24_alg».proof.Proof.RefValsA

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### The arguments where a stretch reads them -/
theorem val27_main_arg8 (V0 : Valuation τ sig (Elt F)) :
    val27 V0 (no_index (Proc.devRef .tc main_arg8)) = V0 (Proc.devRef .tc main_arg8) := val27_arg V0 main_arg8 notin_arg8
theorem val27_main_arg9 (V0 : Valuation τ sig (Elt F)) :
    val27 V0 (no_index (Proc.devRef .tc main_arg9)) = V0 (Proc.devRef .tc main_arg9) := val27_arg V0 main_arg9 notin_arg9
theorem val33_main_arg14 (V0 : Valuation τ sig (Elt F)) :
    val33 V0 (no_index (Proc.devRef .tc main_arg14)) = V0 (Proc.devRef .tc main_arg14) := val33_arg V0 main_arg14 notin_arg14
theorem val33_main_arg15 (V0 : Valuation τ sig (Elt F)) :
    val33 V0 (no_index (Proc.devRef .tc main_arg15)) = V0 (Proc.devRef .tc main_arg15) := val33_arg V0 main_arg15 notin_arg15
theorem val34_main_arg10 (V0 : Valuation τ sig (Elt F)) :
    val34 V0 (no_index (Proc.devRef .tc main_arg10)) = V0 (Proc.devRef .tc main_arg10) := val34_arg V0 main_arg10 notin_arg10
theorem val34_main_arg11 (V0 : Valuation τ sig (Elt F)) :
    val34 V0 (no_index (Proc.devRef .tc main_arg11)) = V0 (Proc.devRef .tc main_arg11) := val34_arg V0 main_arg11 notin_arg11

/-! ### After stretch 19 (`k2`) -/
theorem val20_main_v4 (V0 : Valuation τ sig (Elt F)) :
    val20 V0 (no_index (Proc.devRef .tc main_v4)) = txt_up (F := F) (V0 (Proc.devRef .tc main_arg0)) (V0 (Proc.devRef .tc main_arg2)) (V0 (Proc.devRef .tc main_arg3)) :=
  (val20_keep V0 main_v4 (by decide)).trans (val19_main_v4 V0)
theorem val20_main_v73 (V0 : Valuation τ sig (Elt F)) :
    val20 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val20_keep V0 main_v73 (by decide)).trans (val19_main_v73 V0)
theorem val20_main_v76 (V0 : Valuation τ sig (Elt F)) :
    val20 V0 (no_index (Proc.devRef .tc main_v76)) = t_v76 (F := F) (V0 (Proc.devRef .tc main_arg6)) :=
  (val20_keep V0 main_v76 (by decide)).trans (val19_main_v76 V0)
theorem val20_main_v79 (V0 : Valuation τ sig (Elt F)) :
    val20 V0 (no_index (Proc.devRef .tc main_v79)) = t_v79 (F := F) (V0 (Proc.devRef .tc main_arg7)) :=
  (val20_keep V0 main_v79 (by decide)).trans (val19_main_v79 V0)
theorem val20_main_v84 (V0 : Valuation τ sig (Elt F)) :
    val20 V0 (no_index (Proc.devRef .tc main_v84)) = q2 (F := F) (V0 (Proc.devRef .tc main_arg1)) (V0 (Proc.devRef .tc main_arg4)) (V0 (Proc.devRef .tc main_arg5)) (V0 (Proc.devRef .tc main_arg6)) (V0 (Proc.devRef .tc main_arg7)) :=
  (val20_keep V0 main_v84 (by decide)).trans (val19_main_v84 V0)
theorem val20_main_v89 (V0 : Valuation τ sig (Elt F)) :
    val20 V0 (no_index (Proc.devRef .tc main_v89)) = k2 (F := F) (V0 (Proc.devRef .tc main_arg0)) (V0 (Proc.devRef .tc main_arg2)) (V0 (Proc.devRef .tc main_arg3)) (V0 (Proc.devRef .tc main_arg6)) (V0 (Proc.devRef .tc main_arg7)) := by
  unfold val20
  simp only [w19]
  after_results_simp
  simp only [val19_main_v78, val19_main_v75, val19_main_v4] <;> rfl

/-! ### After stretch 20 (`vv2`) -/
theorem val21_main_v73 (V0 : Valuation τ sig (Elt F)) :
    val21 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val21_keep V0 main_v73 (by decide)).trans (val20_main_v73 V0)
theorem val21_main_v84 (V0 : Valuation τ sig (Elt F)) :
    val21 V0 (no_index (Proc.devRef .tc main_v84)) = q2 (F := F) (V0 (Proc.devRef .tc main_arg1)) (V0 (Proc.devRef .tc main_arg4)) (V0 (Proc.devRef .tc main_arg5)) (V0 (Proc.devRef .tc main_arg6)) (V0 (Proc.devRef .tc main_arg7)) :=
  (val21_keep V0 main_v84 (by decide)).trans (val20_main_v84 V0)
theorem val21_main_v89 (V0 : Valuation τ sig (Elt F)) :
    val21 V0 (no_index (Proc.devRef .tc main_v89)) = k2 (F := F) (V0 (Proc.devRef .tc main_arg0)) (V0 (Proc.devRef .tc main_arg2)) (V0 (Proc.devRef .tc main_arg3)) (V0 (Proc.devRef .tc main_arg6)) (V0 (Proc.devRef .tc main_arg7)) :=
  (val21_keep V0 main_v89 (by decide)).trans (val20_main_v89 V0)
theorem val21_main_v94 (V0 : Valuation τ sig (Elt F)) :
    val21 V0 (no_index (Proc.devRef .tc main_v94)) = vv2 (F := F) (V0 (Proc.devRef .tc main_arg0)) (V0 (Proc.devRef .tc main_arg2)) (V0 (Proc.devRef .tc main_arg3)) (V0 (Proc.devRef .tc main_arg6)) (V0 (Proc.devRef .tc main_arg7)) := by
  unfold val21
  simp only [w20]
  after_results_simp
  simp only [val20_main_v79, val20_main_v76, val20_main_v4] <;> rfl

/-! ### After stretch 21 (`dots2`) -/
theorem val22_main_v73 (V0 : Valuation τ sig (Elt F)) :
    val22 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val22_keep V0 main_v73 (by decide)).trans (val21_main_v73 V0)
theorem val22_main_v97 (V0 : Valuation τ sig (Elt F)) :
    val22 V0 (no_index (Proc.devRef .tc main_v97)) = t_v97 (F := F) (V0 (Proc.devRef .tc main_arg0)) (V0 (Proc.devRef .tc main_arg2)) (V0 (Proc.devRef .tc main_arg3)) (V0 (Proc.devRef .tc main_arg6)) (V0 (Proc.devRef .tc main_arg7)) := by
  unfold val22
  simp only [w21]
  after_results_simp
  simp only [val21_main_v94] <;> rfl
theorem val22_main_v99 (V0 : Valuation τ sig (Elt F)) :
    val22 V0 (no_index (Proc.devRef .tc main_v99)) = dots2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val22
  simp only [w21]
  after_results_simp
  simp only [val21_main_v89, val21_main_v84] <;> rfl

/-! ### After stretch 22 (`sc2`) -/
theorem val23_main_v73 (V0 : Valuation τ sig (Elt F)) :
    val23 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val23_keep V0 main_v73 (by decide)).trans (val22_main_v73 V0)
theorem val23_main_v97 (V0 : Valuation τ sig (Elt F)) :
    val23 V0 (no_index (Proc.devRef .tc main_v97)) = t_v97 (F := F) (V0 (Proc.devRef .tc main_arg0)) (V0 (Proc.devRef .tc main_arg2)) (V0 (Proc.devRef .tc main_arg3)) (V0 (Proc.devRef .tc main_arg6)) (V0 (Proc.devRef .tc main_arg7)) :=
  (val23_keep V0 main_v97 (by decide)).trans (val22_main_v97 V0)
theorem val23_main_v102 (V0 : Valuation τ sig (Elt F)) :
    val23 V0 (no_index (Proc.devRef .tc main_v102)) = sc2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val23
  simp only [w22]
  after_results_simp
  simp only [val22_main_v99] <;> rfl

/-! ### After stretch 23 (`t_v106`) -/
theorem val24_main_v73 (V0 : Valuation τ sig (Elt F)) :
    val24 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val24_keep V0 main_v73 (by decide)).trans (val23_main_v73 V0)
theorem val24_main_v97 (V0 : Valuation τ sig (Elt F)) :
    val24 V0 (no_index (Proc.devRef .tc main_v97)) = t_v97 (F := F) (V0 (Proc.devRef .tc main_arg0)) (V0 (Proc.devRef .tc main_arg2)) (V0 (Proc.devRef .tc main_arg3)) (V0 (Proc.devRef .tc main_arg6)) (V0 (Proc.devRef .tc main_arg7)) :=
  (val24_keep V0 main_v97 (by decide)).trans (val23_main_v97 V0)
theorem val24_main_v102 (V0 : Valuation τ sig (Elt F)) :
    val24 V0 (no_index (Proc.devRef .tc main_v102)) = sc2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val24_keep V0 main_v102 (by decide)).trans (val23_main_v102 V0)
theorem val24_main_v106 (V0 : Valuation τ sig (Elt F)) :
    val24 V0 (no_index (Proc.devRef .tc main_v106)) = t_v106 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val24
  simp only [w23]
  after_results_simp
  simp only [val23_main_v102] <;> rfl

/-! ### After stretch 24 (`ex2`) -/
theorem val25_main_v73 (V0 : Valuation τ sig (Elt F)) :
    val25 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val25_keep V0 main_v73 (by decide)).trans (val24_main_v73 V0)
theorem val25_main_v97 (V0 : Valuation τ sig (Elt F)) :
    val25 V0 (no_index (Proc.devRef .tc main_v97)) = t_v97 (F := F) (V0 (Proc.devRef .tc main_arg0)) (V0 (Proc.devRef .tc main_arg2)) (V0 (Proc.devRef .tc main_arg3)) (V0 (Proc.devRef .tc main_arg6)) (V0 (Proc.devRef .tc main_arg7)) :=
  (val25_keep V0 main_v97 (by decide)).trans (val24_main_v97 V0)
theorem val25_main_v108 (V0 : Valuation τ sig (Elt F)) :
    val25 V0 (no_index (Proc.devRef .tc main_v108)) = ex2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val25
  simp only [w24]
  after_results_simp
  simp only [val24_main_v106, val24_main_v102] <;> rfl

/-! ### After stretch 25 (`p2`) -/
theorem val26_main_v73 (V0 : Valuation τ sig (Elt F)) :
    val26 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val26_keep V0 main_v73 (by decide)).trans (val25_main_v73 V0)
theorem val26_main_v97 (V0 : Valuation τ sig (Elt F)) :
    val26 V0 (no_index (Proc.devRef .tc main_v97)) = t_v97 (F := F) (V0 (Proc.devRef .tc main_arg0)) (V0 (Proc.devRef .tc main_arg2)) (V0 (Proc.devRef .tc main_arg3)) (V0 (Proc.devRef .tc main_arg6)) (V0 (Proc.devRef .tc main_arg7)) :=
  (val26_keep V0 main_v97 (by decide)).trans (val25_main_v97 V0)
theorem val26_main_v111 (V0 : Valuation τ sig (Elt F)) :
    val26 V0 (no_index (Proc.devRef .tc main_v111)) = p2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val26
  simp only [w25]
  after_results_simp
  simp only [val25_main_v108] <;> rfl

/-! ### After stretch 26 (`attn2`) -/
theorem val27_main_v73 (V0 : Valuation τ sig (Elt F)) :
    val27 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val27_keep V0 main_v73 (by decide)).trans (val26_main_v73 V0)
theorem val27_main_v114 (V0 : Valuation τ sig (Elt F)) :
    val27 V0 (no_index (Proc.devRef .tc main_v114)) = attn2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val27
  simp only [w26]
  after_results_simp
  simp only [val26_main_v97, val26_main_v111] <;> rfl

/-! ### After stretch 27 (`o2`) -/
theorem val28_main_v73 (V0 : Valuation τ sig (Elt F)) :
    val28 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val28_keep V0 main_v73 (by decide)).trans (val27_main_v73 V0)
theorem val28_main_v119 (V0 : Valuation τ sig (Elt F)) :
    val28 V0 (no_index (Proc.devRef .tc main_v119)) = o2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val28
  simp only [w27]
  after_results_simp
  simp only [val27_main_arg9, val27_main_arg8, val27_main_v114] <;> rfl

/-! ### After stretch 28 (`mu2`) -/
theorem val29_main_v73 (V0 : Valuation τ sig (Elt F)) :
    val29 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val29_keep V0 main_v73 (by decide)).trans (val28_main_v73 V0)
theorem val29_main_v119 (V0 : Valuation τ sig (Elt F)) :
    val29 V0 (no_index (Proc.devRef .tc main_v119)) = o2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val29_keep V0 main_v119 (by decide)).trans (val28_main_v119 V0)
theorem val29_main_v123 (V0 : Valuation τ sig (Elt F)) :
    val29 V0 (no_index (Proc.devRef .tc main_v123)) = mu2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val29
  simp only [w28]
  after_results_simp
  simp only [val28_main_v119] <;> rfl

/-! ### After stretch 29 (`t_call1_v5`) -/
theorem val30_main_v73 (V0 : Valuation τ sig (Elt F)) :
    val30 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val30_keep V0 main_v73 (by decide)).trans (val29_main_v73 V0)
theorem val30_main_v119 (V0 : Valuation τ sig (Elt F)) :
    val30 V0 (no_index (Proc.devRef .tc main_v119)) = o2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val30_keep V0 main_v119 (by decide)).trans (val29_main_v119 V0)
theorem val30_main_v123 (V0 : Valuation τ sig (Elt F)) :
    val30 V0 (no_index (Proc.devRef .tc main_v123)) = mu2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val30_keep V0 main_v123 (by decide)).trans (val29_main_v123 V0)
set_option maxHeartbeats 2000000 in
theorem val30_main_c_14 (V0 : Valuation τ sig (Elt F)) :
    val30 V0 (no_index (Proc.devRef .tc main_c_14)) = t_c_14 (F := F) := by
  unfold val30
  simp only [w29]
  after_results_simp
  simp only [ofBuf_toBuf, t_c_14] <;> rfl
set_option maxHeartbeats 2000000 in
theorem val30_main_call1_v5 (V0 : Valuation τ sig (Elt F)) :
    val30 V0 (no_index (Proc.devRef .tc main_call1_v5)) = t_call1_v5 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val30
  simp only [w29]
  after_results_simp
  simp only [val29_main_v119, ofBuf_toBuf, t_call1_v5] <;> rfl

/-! ### After stretch 30 (`t_call1_v8`) -/
theorem val31_main_v73 (V0 : Valuation τ sig (Elt F)) :
    val31 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val31_keep V0 main_v73 (by decide)).trans (val30_main_v73 V0)
theorem val31_main_v119 (V0 : Valuation τ sig (Elt F)) :
    val31 V0 (no_index (Proc.devRef .tc main_v119)) = o2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val31_keep V0 main_v119 (by decide)).trans (val30_main_v119 V0)
theorem val31_main_v123 (V0 : Valuation τ sig (Elt F)) :
    val31 V0 (no_index (Proc.devRef .tc main_v123)) = mu2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val31_keep V0 main_v123 (by decide)).trans (val30_main_v123 V0)
theorem val31_main_call1_v6 (V0 : Valuation τ sig (Elt F)) :
    val31 V0 (no_index (Proc.devRef .tc main_call1_v6)) = t_call1_v6 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val31
  simp only [w30]
  after_results_simp
  simp only [val30_main_call1_v5, ofBuf_toBuf, t_call1_v6] <;> rfl
theorem val31_main_call1_v8 (V0 : Valuation τ sig (Elt F)) :
    val31 V0 (no_index (Proc.devRef .tc main_call1_v8)) = t_call1_v8 (F := F) := by
  unfold val31
  simp only [w30]
  after_results_simp
  simp only [val30_main_c_14, ofBuf_toBuf, t_call1_v8] <;> rfl

/-! ### After stretch 31 (`var2`) -/
theorem val32_main_v73 (V0 : Valuation τ sig (Elt F)) :
    val32 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val32_keep V0 main_v73 (by decide)).trans (val31_main_v73 V0)
theorem val32_main_v119 (V0 : Valuation τ sig (Elt F)) :
    val32 V0 (no_index (Proc.devRef .tc main_v119)) = o2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val32_keep V0 main_v119 (by decide)).trans (val31_main_v119 V0)
theorem val32_main_v123 (V0 : Valuation τ sig (Elt F)) :
    val32 V0 (no_index (Proc.devRef .tc main_v123)) = mu2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) :=
  (val32_keep V0 main_v123 (by decide)).trans (val31_main_v123 V0)
set_option maxHeartbeats 2000000 in
theorem val32_main_v124 (V0 : Valuation τ sig (Elt F)) :
    val32 V0 (no_index (Proc.devRef .tc main_v124)) = var2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val32
  simp only [w31]
  after_results_simp
  simp only [val31_main_call1_v8, val31_main_call1_v6, ofBuf_toBuf, var2] <;> rfl

/-! ### After stretch 32 (`o2c`) -/
theorem val33_main_v73 (V0 : Valuation τ sig (Elt F)) :
    val33 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val33_keep V0 main_v73 (by decide)).trans (val32_main_v73 V0)
theorem val33_main_v131 (V0 : Valuation τ sig (Elt F)) :
    val33 V0 (no_index (Proc.devRef .tc main_v131)) = o2c (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val33
  simp only [w32]
  after_results_simp
  simp only [val32_main_v124, val32_main_v123, val32_main_v119] <;> rfl

/-! ### After stretch 33 (`o2n`) -/
theorem val34_main_v73 (V0 : Valuation τ sig (Elt F)) :
    val34 V0 (no_index (Proc.devRef .tc main_v73)) = o1n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg12)) (V0 (Proc.devRef .tc main_arg13)) :=
  (val34_keep V0 main_v73 (by decide)).trans (val33_main_v73 V0)
theorem val34_main_v137 (V0 : Valuation τ sig (Elt F)) :
    val34 V0 (no_index (Proc.devRef .tc main_v137)) = o2n (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg14)) (V0 (Proc.devRef .tc main_arg15)) := by
  unfold val34
  simp only [w33]
  after_results_simp
  simp only [val33_main_arg15, val33_main_arg14, val33_main_v131] <;> rfl

/-! ### After stretch 34 (`fused`) -/
theorem val35_main_v143 (V0 : Valuation τ sig (Elt F)) :
    val35 V0 (no_index (Proc.devRef .tc main_v143)) = fused (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val35
  simp only [w34]
  after_results_simp
  simp only [val34_main_arg11, val34_main_arg10, val34_main_v137, val34_main_v73]
  rw [val34_main_v73 V0, val34_main_v137 V0]
  rfl

/-! ### After stretch 35 (`mu3`) -/
theorem val36_main_v143 (V0 : Valuation τ sig (Elt F)) :
    val36 V0 (no_index (Proc.devRef .tc main_v143)) = fused (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val36_keep V0 main_v143 (by decide)).trans (val35_main_v143 V0)
theorem val36_main_v147 (V0 : Valuation τ sig (Elt F)) :
    val36 V0 (no_index (Proc.devRef .tc main_v147)) = mu3 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val36
  simp only [w35]
  after_results_simp
  simp only [val35_main_v143] <;> rfl

/-! ### After stretch 36 (`t_call2_v5`) -/
theorem val37_main_v143 (V0 : Valuation τ sig (Elt F)) :
    val37 V0 (no_index (Proc.devRef .tc main_v143)) = fused (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val37_keep V0 main_v143 (by decide)).trans (val36_main_v143 V0)
theorem val37_main_v147 (V0 : Valuation τ sig (Elt F)) :
    val37 V0 (no_index (Proc.devRef .tc main_v147)) = mu3 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val37_keep V0 main_v147 (by decide)).trans (val36_main_v147 V0)
set_option maxHeartbeats 2000000 in
theorem val37_main_c_18 (V0 : Valuation τ sig (Elt F)) :
    val37 V0 (no_index (Proc.devRef .tc main_c_18)) = t_c_18 (F := F) := by
  unfold val37
  simp only [w36]
  after_results_simp
  simp only [ofBuf_toBuf, t_c_18] <;> rfl
set_option maxHeartbeats 2000000 in
theorem val37_main_call2_v5 (V0 : Valuation τ sig (Elt F)) :
    val37 V0 (no_index (Proc.devRef .tc main_call2_v5)) = t_call2_v5 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val37
  simp only [w36]
  after_results_simp
  simp only [val36_main_v143, ofBuf_toBuf, t_call2_v5] <;> rfl

/-! ### After stretch 37 (`t_call2_v8`) -/
theorem val38_main_v143 (V0 : Valuation τ sig (Elt F)) :
    val38 V0 (no_index (Proc.devRef .tc main_v143)) = fused (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val38_keep V0 main_v143 (by decide)).trans (val37_main_v143 V0)
theorem val38_main_v147 (V0 : Valuation τ sig (Elt F)) :
    val38 V0 (no_index (Proc.devRef .tc main_v147)) = mu3 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val38_keep V0 main_v147 (by decide)).trans (val37_main_v147 V0)
theorem val38_main_call2_v6 (V0 : Valuation τ sig (Elt F)) :
    val38 V0 (no_index (Proc.devRef .tc main_call2_v6)) = t_call2_v6 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val38
  simp only [w37]
  after_results_simp
  simp only [val37_main_call2_v5, ofBuf_toBuf, t_call2_v6] <;> rfl
theorem val38_main_call2_v8 (V0 : Valuation τ sig (Elt F)) :
    val38 V0 (no_index (Proc.devRef .tc main_call2_v8)) = t_call2_v8 (F := F) := by
  unfold val38
  simp only [w37]
  after_results_simp
  simp only [val37_main_c_18, ofBuf_toBuf, t_call2_v8] <;> rfl

end Cert.ReferenceIdeal.RefRun

end
-- ==== Proof.RefValsC.lean ====
/- The values of interest read off the contents after stretches 38–56: a stretch's operations folded over the
   contents before it (each operation's result composed, any other buffer keeping what it held), the values it reads
   replaced by their terms from the stretches before, and the two sides then the same term once the definitions are
   opened. A value still read later is carried through each stretch that does not write it. -/
import proofs.«211565_g20684562498226_cont_8to1_684_24_alg».proof.Proof.RefValsB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### The arguments where a stretch reads them -/
theorem val40_main_arg16 (V0 : Valuation τ sig (Elt F)) :
    val40 V0 (no_index (Proc.devRef .tc main_arg16)) = V0 (Proc.devRef .tc main_arg16) := val40_arg V0 main_arg16 notin_arg16
theorem val41_main_arg17 (V0 : Valuation τ sig (Elt F)) :
    val41 V0 (no_index (Proc.devRef .tc main_arg17)) = V0 (Proc.devRef .tc main_arg17) := val41_arg V0 main_arg17 notin_arg17
theorem val44_main_arg19 (V0 : Valuation τ sig (Elt F)) :
    val44 V0 (no_index (Proc.devRef .tc main_arg19)) = V0 (Proc.devRef .tc main_arg19) := val44_arg V0 main_arg19 notin_arg19
theorem val51_main_arg18 (V0 : Valuation τ sig (Elt F)) :
    val51 V0 (no_index (Proc.devRef .tc main_arg18)) = V0 (Proc.devRef .tc main_arg18) := val51_arg V0 main_arg18 notin_arg18

/-! ### After stretch 38 (`var3`) -/
theorem val39_main_v143 (V0 : Valuation τ sig (Elt F)) :
    val39 V0 (no_index (Proc.devRef .tc main_v143)) = fused (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val39_keep V0 main_v143 (by decide)).trans (val38_main_v143 V0)
theorem val39_main_v147 (V0 : Valuation τ sig (Elt F)) :
    val39 V0 (no_index (Proc.devRef .tc main_v147)) = mu3 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val39_keep V0 main_v147 (by decide)).trans (val38_main_v147 V0)
set_option maxHeartbeats 2000000 in
theorem val39_main_v148 (V0 : Valuation τ sig (Elt F)) :
    val39 V0 (no_index (Proc.devRef .tc main_v148)) = var3 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val39
  simp only [w38]
  after_results_simp
  simp only [val38_main_call2_v8, val38_main_call2_v6, ofBuf_toBuf, var3] <;> rfl

/-! ### After stretch 39 (`outc`) -/
theorem val40_main_v155 (V0 : Valuation τ sig (Elt F)) :
    val40 V0 (no_index (Proc.devRef .tc main_v155)) = outc (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val40
  simp only [w39]
  after_results_simp
  simp only [val39_main_v148, val39_main_v147, val39_main_v143] <;> rfl

/-! ### After stretch 40 (`t_v157`) -/
theorem val41_main_v155 (V0 : Valuation τ sig (Elt F)) :
    val41 V0 (no_index (Proc.devRef .tc main_v155)) = outc (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  (val41_keep V0 main_v155 (by decide)).trans (val40_main_v155 V0)
theorem val41_main_v157 (V0 : Valuation τ sig (Elt F)) :
    val41 V0 (no_index (Proc.devRef .tc main_v157)) = t_v157 (F := F) (V0 (Proc.devRef .tc main_arg16)) := by
  unfold val41
  simp only [w40]
  after_results_simp
  simp only [val40_main_arg16] <;> rfl

/-! ### After stretch 41 (`out`) -/
theorem val42_main_v161 (V0 : Valuation τ sig (Elt F)) :
    val42 V0 (no_index (Proc.devRef .tc main_v161)) = out (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold val42
  simp only [w41]
  after_results_simp
  simp only [val41_main_arg17, val41_main_v157, val41_main_v155] <;> rfl

/-! ### After stretch 42 (`nrm`) -/
theorem val43_main_v161 (V0 : Valuation τ sig (Elt F)) :
    val43 V0 (no_index (Proc.devRef .tc main_v161)) = out (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val43_keep V0 main_v161 (by decide)).trans (val42_main_v161 V0)
theorem val43_main_v162 (V0 : Valuation τ sig (Elt F)) :
    val43 V0 (no_index (Proc.devRef .tc main_v162)) = nrm (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold val43
  simp only [w42]
  after_results_simp
  simp only [val42_main_v161, ofBuf_toBuf, nrm] <;> rfl

/-! ### After stretch 43 (`keys`) -/
theorem val44_main_v166 (V0 : Valuation τ sig (Elt F)) :
    val44 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold val44
  simp only [w43]
  after_results_simp
  simp only [val43_main_v162, val43_main_v161] <;> rfl

/-! ### After stretch 44 (`t_v167`) -/
theorem val45_main_v166 (V0 : Valuation τ sig (Elt F)) :
    val45 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val45_keep V0 main_v166 (by decide)).trans (val44_main_v166 V0)
theorem val45_main_v167 (V0 : Valuation τ sig (Elt F)) :
    val45 V0 (no_index (Proc.devRef .tc main_v167)) = t_v167 (F := F) (V0 (Proc.devRef .tc main_arg19)) := by
  unfold val45
  simp only [w44]
  after_results_simp
  simp only [val44_main_arg19] <;> rfl

/-! ### After stretch 45 (`pos`) -/
theorem val46_main_v166 (V0 : Valuation τ sig (Elt F)) :
    val46 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val46_keep V0 main_v166 (by decide)).trans (val45_main_v166 V0)
theorem val46_main_v167 (V0 : Valuation τ sig (Elt F)) :
    val46 V0 (no_index (Proc.devRef .tc main_v167)) = t_v167 (F := F) (V0 (Proc.devRef .tc main_arg19)) :=
  (val46_keep V0 main_v167 (by decide)).trans (val45_main_v167 V0)
theorem val46_main_v170 (V0 : Valuation τ sig (Elt F)) :
    val46 V0 (no_index (Proc.devRef .tc main_v170)) = pos (F := F) (V0 (Proc.devRef .tc main_arg19)) := by
  unfold val46
  simp only [w45]
  after_results_simp
  simp only [val45_main_v167] <;> rfl

/-! ### After stretch 46 (`t_call4_v0`) -/
theorem val47_main_v166 (V0 : Valuation τ sig (Elt F)) :
    val47 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val47_keep V0 main_v166 (by decide)).trans (val46_main_v166 V0)
theorem val47_main_v167 (V0 : Valuation τ sig (Elt F)) :
    val47 V0 (no_index (Proc.devRef .tc main_v167)) = t_v167 (F := F) (V0 (Proc.devRef .tc main_arg19)) :=
  (val47_keep V0 main_v167 (by decide)).trans (val46_main_v167 V0)
theorem val47_main_v170 (V0 : Valuation τ sig (Elt F)) :
    val47 V0 (no_index (Proc.devRef .tc main_v170)) = pos (F := F) (V0 (Proc.devRef .tc main_arg19)) :=
  (val47_keep V0 main_v170 (by decide)).trans (val46_main_v170 V0)
theorem val47_main_call4_v0 (V0 : Valuation τ sig (Elt F)) :
    val47 V0 (no_index (Proc.devRef .tc main_call4_v0)) = t_call4_v0 (F := F) := by
  unfold val47
  simp only [w46]
  after_results_simp
  simp only [ofBuf_toBuf, t_call4_v0] <;> rfl

/-! ### After stretch 47 (`t_call4_v2`) -/
theorem val48_main_v166 (V0 : Valuation τ sig (Elt F)) :
    val48 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val48_keep V0 main_v166 (by decide)).trans (val47_main_v166 V0)
theorem val48_main_v167 (V0 : Valuation τ sig (Elt F)) :
    val48 V0 (no_index (Proc.devRef .tc main_v167)) = t_v167 (F := F) (V0 (Proc.devRef .tc main_arg19)) :=
  (val48_keep V0 main_v167 (by decide)).trans (val47_main_v167 V0)
theorem val48_main_v170 (V0 : Valuation τ sig (Elt F)) :
    val48 V0 (no_index (Proc.devRef .tc main_v170)) = pos (F := F) (V0 (Proc.devRef .tc main_arg19)) :=
  (val48_keep V0 main_v170 (by decide)).trans (val47_main_v170 V0)
theorem val48_main_call4_v2 (V0 : Valuation τ sig (Elt F)) :
    val48 V0 (no_index (Proc.devRef .tc main_call4_v2)) = t_call4_v2 (F := F) := by
  unfold val48
  simp only [w47]
  after_results_simp
  simp only [val47_main_call4_v0, ofBuf_toBuf, t_call4_v2] <;> rfl

/-! ### After stretch 48 (`t_call4_v4`) -/
theorem val49_main_v166 (V0 : Valuation τ sig (Elt F)) :
    val49 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val49_keep V0 main_v166 (by decide)).trans (val48_main_v166 V0)
theorem val49_main_v167 (V0 : Valuation τ sig (Elt F)) :
    val49 V0 (no_index (Proc.devRef .tc main_v167)) = t_v167 (F := F) (V0 (Proc.devRef .tc main_arg19)) :=
  (val49_keep V0 main_v167 (by decide)).trans (val48_main_v167 V0)
theorem val49_main_call4_v2 (V0 : Valuation τ sig (Elt F)) :
    val49 V0 (no_index (Proc.devRef .tc main_call4_v2)) = t_call4_v2 (F := F) :=
  (val49_keep V0 main_call4_v2 (by decide)).trans (val48_main_call4_v2 V0)
theorem val49_main_call4_v4 (V0 : Valuation τ sig (Elt F)) :
    val49 V0 (no_index (Proc.devRef .tc main_call4_v4)) = t_call4_v4 (F := F) (V0 (Proc.devRef .tc main_arg19)) := by
  unfold val49
  simp only [w48]
  after_results_simp
  simp only [val48_main_call4_v2, val48_main_v170, ofBuf_toBuf, t_call4_v4] <;> rfl

/-! ### After stretch 49 (`posm`) -/
theorem val50_main_v166 (V0 : Valuation τ sig (Elt F)) :
    val50 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val50_keep V0 main_v166 (by decide)).trans (val49_main_v166 V0)
theorem val50_main_v167 (V0 : Valuation τ sig (Elt F)) :
    val50 V0 (no_index (Proc.devRef .tc main_v167)) = t_v167 (F := F) (V0 (Proc.devRef .tc main_arg19)) :=
  (val50_keep V0 main_v167 (by decide)).trans (val49_main_v167 V0)
set_option maxHeartbeats 2000000 in
theorem val50_main_v171 (V0 : Valuation τ sig (Elt F)) :
    val50 V0 (no_index (Proc.devRef .tc main_v171)) = posm (F := F) (V0 (Proc.devRef .tc main_arg19)) := by
  unfold val50
  simp only [w49]
  after_results_simp
  simp only [val49_main_call4_v4, val49_main_call4_v2, ofBuf_toBuf, posm] <;> rfl

/-! ### After stretch 50 (`cols`) -/
theorem val51_main_v166 (V0 : Valuation τ sig (Elt F)) :
    val51 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val51_keep V0 main_v166 (by decide)).trans (val50_main_v166 V0)
theorem val51_main_v167 (V0 : Valuation τ sig (Elt F)) :
    val51 V0 (no_index (Proc.devRef .tc main_v167)) = t_v167 (F := F) (V0 (Proc.devRef .tc main_arg19)) :=
  (val51_keep V0 main_v167 (by decide)).trans (val50_main_v167 V0)
theorem val51_main_v172 (V0 : Valuation τ sig (Elt F)) :
    val51 V0 (no_index (Proc.devRef .tc main_v172)) = t_v172 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold val51
  simp only [w50]
  after_results_simp
  simp only [val50_main_v166] <;> rfl
theorem val51_main_v177 (V0 : Valuation τ sig (Elt F)) :
    val51 V0 (no_index (Proc.devRef .tc main_v177)) = cols (F := F) (V0 (Proc.devRef .tc main_arg19)) := by
  unfold val51
  simp only [w50]
  after_results_simp
  simp only [val50_main_v171] <;> rfl

/-! ### After stretch 51 (`queue`) -/
theorem val52_main_v166 (V0 : Valuation τ sig (Elt F)) :
    val52 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val52_keep V0 main_v166 (by decide)).trans (val51_main_v166 V0)
theorem val52_main_v167 (V0 : Valuation τ sig (Elt F)) :
    val52 V0 (no_index (Proc.devRef .tc main_v167)) = t_v167 (F := F) (V0 (Proc.devRef .tc main_arg19)) :=
  (val52_keep V0 main_v167 (by decide)).trans (val51_main_v167 V0)
theorem val52_main_v179 (V0 : Valuation τ sig (Elt F)) :
    val52 V0 (no_index (Proc.devRef .tc main_v179)) = queue (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) := by
  unfold val52
  simp only [w51]
  after_results_simp
  simp only [val51_main_v172, val51_main_v177, val51_main_arg18] <;> rfl

/-! ### After stretch 52 (`t_call5_v0`) -/
theorem val53_main_v166 (V0 : Valuation τ sig (Elt F)) :
    val53 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val53_keep V0 main_v166 (by decide)).trans (val52_main_v166 V0)
theorem val53_main_v179 (V0 : Valuation τ sig (Elt F)) :
    val53 V0 (no_index (Proc.devRef .tc main_v179)) = queue (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) :=
  (val53_keep V0 main_v179 (by decide)).trans (val52_main_v179 V0)
theorem val53_main_v180 (V0 : Valuation τ sig (Elt F)) :
    val53 V0 (no_index (Proc.devRef .tc main_v180)) = t_v180 (F := F) (V0 (Proc.devRef .tc main_arg19)) := by
  unfold val53
  simp only [w52]
  after_results_simp
  simp only [val52_main_v167, ofBuf_toBuf, t_v180] <;> rfl
theorem val53_main_call5_v0 (V0 : Valuation τ sig (Elt F)) :
    val53 V0 (no_index (Proc.devRef .tc main_call5_v0)) = t_call5_v0 (F := F) := by
  unfold val53
  simp only [w52]
  after_results_simp
  simp only [ofBuf_toBuf, t_call5_v0] <;> rfl

/-! ### After stretch 53 (`t_call5_v2`) -/
theorem val54_main_v166 (V0 : Valuation τ sig (Elt F)) :
    val54 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val54_keep V0 main_v166 (by decide)).trans (val53_main_v166 V0)
theorem val54_main_v179 (V0 : Valuation τ sig (Elt F)) :
    val54 V0 (no_index (Proc.devRef .tc main_v179)) = queue (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) :=
  (val54_keep V0 main_v179 (by decide)).trans (val53_main_v179 V0)
theorem val54_main_v180 (V0 : Valuation τ sig (Elt F)) :
    val54 V0 (no_index (Proc.devRef .tc main_v180)) = t_v180 (F := F) (V0 (Proc.devRef .tc main_arg19)) :=
  (val54_keep V0 main_v180 (by decide)).trans (val53_main_v180 V0)
theorem val54_main_call5_v2 (V0 : Valuation τ sig (Elt F)) :
    val54 V0 (no_index (Proc.devRef .tc main_call5_v2)) = t_call5_v2 (F := F) := by
  unfold val54
  simp only [w53]
  after_results_simp
  simp only [val53_main_call5_v0, ofBuf_toBuf, t_call5_v2] <;> rfl

/-! ### After stretch 54 (`t_call5_v3`) -/
theorem val55_main_v166 (V0 : Valuation τ sig (Elt F)) :
    val55 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val55_keep V0 main_v166 (by decide)).trans (val54_main_v166 V0)
theorem val55_main_v179 (V0 : Valuation τ sig (Elt F)) :
    val55 V0 (no_index (Proc.devRef .tc main_v179)) = queue (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) :=
  (val55_keep V0 main_v179 (by decide)).trans (val54_main_v179 V0)
theorem val55_main_call5_v2 (V0 : Valuation τ sig (Elt F)) :
    val55 V0 (no_index (Proc.devRef .tc main_call5_v2)) = t_call5_v2 (F := F) :=
  (val55_keep V0 main_call5_v2 (by decide)).trans (val54_main_call5_v2 V0)
theorem val55_main_call5_v3 (V0 : Valuation τ sig (Elt F)) :
    val55 V0 (no_index (Proc.devRef .tc main_call5_v3)) = t_call5_v3 (F := F) (V0 (Proc.devRef .tc main_arg19)) := by
  unfold val55
  simp only [w54]
  after_results_simp
  simp only [val54_main_call5_v2, val54_main_v180, ofBuf_toBuf, t_call5_v3] <;> rfl

/-! ### After stretch 55 (`ptrm`) -/
theorem val56_main_v166 (V0 : Valuation τ sig (Elt F)) :
    val56 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val56_keep V0 main_v166 (by decide)).trans (val55_main_v166 V0)
theorem val56_main_v179 (V0 : Valuation τ sig (Elt F)) :
    val56 V0 (no_index (Proc.devRef .tc main_v179)) = queue (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) :=
  (val56_keep V0 main_v179 (by decide)).trans (val55_main_v179 V0)
set_option maxHeartbeats 2000000 in
theorem val56_main_v181 (V0 : Valuation τ sig (Elt F)) :
    val56 V0 (no_index (Proc.devRef .tc main_v181)) = ptrm (F := F) (V0 (Proc.devRef .tc main_arg19)) := by
  unfold val56
  simp only [w55]
  after_results_simp
  simp only [val55_main_call5_v3, val55_main_call5_v2, ofBuf_toBuf, ptrm] <;> rfl

/-! ### After stretch 56 (`newptr`) -/
theorem val57_main_v166 (V0 : Valuation τ sig (Elt F)) :
    val57 V0 (no_index (Proc.devRef .tc main_v166)) = keys (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (val57_keep V0 main_v166 (by decide)).trans (val56_main_v166 V0)
theorem val57_main_v179 (V0 : Valuation τ sig (Elt F)) :
    val57 V0 (no_index (Proc.devRef .tc main_v179)) = queue (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) :=
  (val57_keep V0 main_v179 (by decide)).trans (val56_main_v179 V0)
theorem val57_main_v182 (V0 : Valuation τ sig (Elt F)) :
    val57 V0 (no_index (Proc.devRef .tc main_v182)) = newptr (F := F) (V0 (Proc.devRef .tc main_arg19)) := by
  unfold val57
  simp only [w56]
  after_results_simp
  simp only [val56_main_v181] <;> rfl

end Cert.ReferenceIdeal.RefRun

end
-- ==== Proof.RefRun.lean ====
/- The reference program's run with its three results named: every weakly fair execution of @main terminates with the
   result buffers at `out_keys`, `out_queue`, `out_ptr` of the twenty arguments' launch contents, and the arguments unchanged. -/
import proofs.«211565_g20684562498226_cont_8to1_684_24_alg».proof.Defs
import proofs.«211565_g20684562498226_cont_8to1_684_24_alg».proof.Proof.RefValsC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of @main
    terminates; the three result buffers hold the three named terms of the arguments' contents at launch, and the
    twenty arguments hold what they held. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v166) = out_keys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v179) = out_queue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v182) = out_ptr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨
      (h c main_v166).trans (by rw [after_ops]; exact (val57_main_v166 (launchContents m c)).trans rfl),
      (h c main_v179).trans (by rw [after_ops]; exact (val57_main_v179 (launchContents m c)).trans rfl),
      (h c main_v182).trans (by rw [after_ops]; exact (val57_main_v182 (launchContents m c)).trans rfl),
      (h c main_arg0).trans (by rw [after_ops]; exact val57_arg _ main_arg0 notin_arg0),
      (h c main_arg1).trans (by rw [after_ops]; exact val57_arg _ main_arg1 notin_arg1),
      (h c main_arg2).trans (by rw [after_ops]; exact val57_arg _ main_arg2 notin_arg2),
      (h c main_arg3).trans (by rw [after_ops]; exact val57_arg _ main_arg3 notin_arg3),
      (h c main_arg4).trans (by rw [after_ops]; exact val57_arg _ main_arg4 notin_arg4),
      (h c main_arg5).trans (by rw [after_ops]; exact val57_arg _ main_arg5 notin_arg5),
      (h c main_arg6).trans (by rw [after_ops]; exact val57_arg _ main_arg6 notin_arg6),
      (h c main_arg7).trans (by rw [after_ops]; exact val57_arg _ main_arg7 notin_arg7),
      (h c main_arg8).trans (by rw [after_ops]; exact val57_arg _ main_arg8 notin_arg8),
      (h c main_arg9).trans (by rw [after_ops]; exact val57_arg _ main_arg9 notin_arg9),
      (h c main_arg10).trans (by rw [after_ops]; exact val57_arg _ main_arg10 notin_arg10),
      (h c main_arg11).trans (by rw [after_ops]; exact val57_arg _ main_arg11 notin_arg11),
      (h c main_arg12).trans (by rw [after_ops]; exact val57_arg _ main_arg12 notin_arg12),
      (h c main_arg13).trans (by rw [after_ops]; exact val57_arg _ main_arg13 notin_arg13),
      (h c main_arg14).trans (by rw [after_ops]; exact val57_arg _ main_arg14 notin_arg14),
      (h c main_arg15).trans (by rw [after_ops]; exact val57_arg _ main_arg15 notin_arg15),
      (h c main_arg16).trans (by rw [after_ops]; exact val57_arg _ main_arg16 notin_arg16),
      (h c main_arg17).trans (by rw [after_ops]; exact val57_arg _ main_arg17 notin_arg17),
      (h c main_arg18).trans (by rw [after_ops]; exact val57_arg _ main_arg18 notin_arg18),
      (h c main_arg19).trans (by rw [after_ops]; exact val57_arg _ main_arg19 notin_arg19)⟩)
    (run_all m ρ)

end Cert.ReferenceIdeal.RefRun

end
-- ==== Proof.Spec.lean ====
/- The three results as mathematics over real arrays: no program is imported. The inputs are real-valued functions on
   literal finite index types; every sum is a plain finite sum in ℝ. The attention weights do not appear: a softmax
   over an axis of length one is 1 on finite scores, so each attention returns its value projection. -/
import Idealize.ShloMosaic.PureOps.Ideal
import Idealize.ShloMosaic.Lib.ValueIdx

noncomputable section

namespace Cert.Spec

open scoped BigOperators
open Idealize.ShloMosaic

/-- The layer norms' ε: the real value of the f32 literal the programs spell `1e-5` with (kept as the literal's word). -/
def eps : ℝ := (Ideal.ofBits .f32 0x3727C5AC#32).toReal

/-- The normalisation's δ: the real value of the f32 literal the programs spell `1e-12` with (kept as the literal's word). -/
def delta : ℝ := (Ideal.ofBits .f32 0x2B8CBCCC#32).toReal

/-- Row `1536 + k` of the input projection: the value third. -/
def vrow (k : Fin 768) : Fin 2304 := ⟨1536 + k.val, by omega⟩

/-- The text projection: `tu r k = ∑ i, txt r i * tW k i + tb k`. -/
def tu (txt : Fin 4096 → Fin 768 → ℝ) (tW : Fin 768 → Fin 768 → ℝ) (tb : Fin 768 → ℝ) (r : Fin 4096) (k : Fin 768) : ℝ :=
  (∑ i : Fin 768, txt r i * tW k i) + tb k

/-- The graph projection: `gu r k = ∑ i, gph r i * gW k i + gb k`. -/
def gu (gph : Fin 4096 → Fin 768 → ℝ) (gW : Fin 768 → Fin 768 → ℝ) (gb : Fin 768 → ℝ) (r : Fin 4096) (k : Fin 768) : ℝ :=
  (∑ i : Fin 768, gph r i * gW k i) + gb k

/-- The value projection of an array `x`: `∑ i, x r i * ipw (1536 + k) i + ipb (1536 + k)`. -/
def vproj (x : Fin 4096 → Fin 768 → ℝ) (ipw : Fin 2304 → Fin 768 → ℝ) (ipb : Fin 2304 → ℝ) (r : Fin 4096) (k : Fin 768) : ℝ :=
  (∑ i : Fin 768, x r i * ipw (vrow k) i) + ipb (vrow k)

/-- The output projection of an array `v`: `∑ i, v r i * ow k i + ob k`. -/
def oproj (v : Fin 4096 → Fin 768 → ℝ) (ow : Fin 768 → Fin 768 → ℝ) (ob : Fin 768 → ℝ) (r : Fin 4096) (k : Fin 768) : ℝ :=
  (∑ i : Fin 768, v r i * ow k i) + ob k

/-- The first attention's values: the value projection of the graph projection. -/
def vA (gph : Fin 4096 → Fin 768 → ℝ) (gW : Fin 768 → Fin 768 → ℝ) (gb : Fin 768 → ℝ) (ipw : Fin 2304 → Fin 768 → ℝ) (ipb : Fin 2304 → ℝ) : Fin 4096 → Fin 768 → ℝ := vproj (gu gph gW gb) ipw ipb

/-- The first attention's output. -/
def oA (gph : Fin 4096 → Fin 768 → ℝ) (gW : Fin 768 → Fin 768 → ℝ) (gb : Fin 768 → ℝ) (ipw : Fin 2304 → Fin 768 → ℝ) (ipb : Fin 2304 → ℝ) (ow : Fin 768 → Fin 768 → ℝ) (ob : Fin 768 → ℝ) : Fin 4096 → Fin 768 → ℝ := oproj (vA gph gW gb ipw ipb) ow ob

/-- The second attention's values: the value projection of the text projection. -/
def vB (txt : Fin 4096 → Fin 768 → ℝ) (tW : Fin 768 → Fin 768 → ℝ) (tb : Fin 768 → ℝ) (ipw : Fin 2304 → Fin 768 → ℝ) (ipb : Fin 2304 → ℝ) : Fin 4096 → Fin 768 → ℝ := vproj (tu txt tW tb) ipw ipb

/-- The second attention's output. -/
def oB (txt : Fin 4096 → Fin 768 → ℝ) (tW : Fin 768 → Fin 768 → ℝ) (tb : Fin 768 → ℝ) (ipw : Fin 2304 → Fin 768 → ℝ) (ipb : Fin 2304 → ℝ) (ow : Fin 768 → Fin 768 → ℝ) (ob : Fin 768 → ℝ) : Fin 4096 → Fin 768 → ℝ := oproj (vB txt tW tb ipw ipb) ow ob

/-- A row's mean over its 768 entries. -/
def mean (x : Fin 4096 → Fin 768 → ℝ) (r : Fin 4096) : ℝ := (∑ k : Fin 768, x r k) / 768

/-- A row's variance: the mean of the squared deviations from the row's mean. -/
def var (x : Fin 4096 → Fin 768 → ℝ) (r : Fin 4096) : ℝ := (∑ k : Fin 768, (x r k - mean x r) ^ 2) / 768

/-- Layer norm: `(x r k − μ r) / √(var r + ε) · g k + b k`. -/
def LN (x : Fin 4096 → Fin 768 → ℝ) (g b : Fin 768 → ℝ) (r : Fin 4096) (k : Fin 768) : ℝ :=
  (x r k - mean x r) / Real.sqrt (var x r + eps) * g k + b k

/-- The two normed attention outputs side by side: columns `0 … 767` the first, `768 … 1535` the second. -/
def fused (txt : Fin 4096 → Fin 768 → ℝ) (gph : Fin 4096 → Fin 768 → ℝ) (tW : Fin 768 → Fin 768 → ℝ) (tb : Fin 768 → ℝ) (gW : Fin 768 → Fin 768 → ℝ) (gb : Fin 768 → ℝ) (ipw : Fin 2304 → Fin 768 → ℝ) (ipb : Fin 2304 → ℝ) (ow : Fin 768 → Fin 768 → ℝ) (ob : Fin 768 → ℝ) (l1g : Fin 768 → ℝ) (l1b : Fin 768 → ℝ) (l2g : Fin 768 → ℝ) (l2b : Fin 768 → ℝ) (r : Fin 4096) (i : Fin 1536) : ℝ :=
  if h : i.val < 768 then LN (oA gph gW gb ipw ipb ow ob) l1g l1b r ⟨i.val, h⟩
  else LN (oB txt tW tb ipw ipb ow ob) l2g l2b r ⟨i.val - 768, by omega⟩

/-- The fusion layer: `out r k = ∑ i < 1536, fused r i * pW k i + pb k`. -/
def out (txt : Fin 4096 → Fin 768 → ℝ) (gph : Fin 4096 → Fin 768 → ℝ) (tW : Fin 768 → Fin 768 → ℝ) (tb : Fin 768 → ℝ) (gW : Fin 768 → Fin 768 → ℝ) (gb : Fin 768 → ℝ) (ipw : Fin 2304 → Fin 768 → ℝ) (ipb : Fin 2304 → ℝ) (ow : Fin 768 → Fin 768 → ℝ) (ob : Fin 768 → ℝ) (pW : Fin 768 → Fin 1536 → ℝ) (pb : Fin 768 → ℝ) (l1g : Fin 768 → ℝ) (l1b : Fin 768 → ℝ) (l2g : Fin 768 → ℝ) (l2b : Fin 768 → ℝ) (r : Fin 4096) (k : Fin 768) : ℝ :=
  (∑ i : Fin 1536, fused txt gph tW tb gW gb ipw ipb ow ob l1g l1b l2g l2b r i * pW k i) + pb k

/-- The final layer norm. -/
def outn (txt : Fin 4096 → Fin 768 → ℝ) (gph : Fin 4096 → Fin 768 → ℝ) (tW : Fin 768 → Fin 768 → ℝ) (tb : Fin 768 → ℝ) (gW : Fin 768 → Fin 768 → ℝ) (gb : Fin 768 → ℝ) (ipw : Fin 2304 → Fin 768 → ℝ) (ipb : Fin 2304 → ℝ) (ow : Fin 768 → Fin 768 → ℝ) (ob : Fin 768 → ℝ) (pW : Fin 768 → Fin 1536 → ℝ) (pb : Fin 768 → ℝ) (l1g : Fin 768 → ℝ) (l1b : Fin 768 → ℝ) (l2g : Fin 768 → ℝ) (l2b : Fin 768 → ℝ) (lfg : Fin 768 → ℝ) (lfb : Fin 768 → ℝ) : Fin 4096 → Fin 768 → ℝ := LN (out txt gph tW tb gW gb ipw ipb ow ob pW pb l1g l1b l2g l2b) lfg lfb

/-- The first result: each row of `outn` over its Euclidean norm plus δ. -/
def keys (txt : Fin 4096 → Fin 768 → ℝ) (gph : Fin 4096 → Fin 768 → ℝ) (tW : Fin 768 → Fin 768 → ℝ) (tb : Fin 768 → ℝ) (gW : Fin 768 → Fin 768 → ℝ) (gb : Fin 768 → ℝ) (ipw : Fin 2304 → Fin 768 → ℝ) (ipb : Fin 2304 → ℝ) (ow : Fin 768 → Fin 768 → ℝ) (ob : Fin 768 → ℝ) (pW : Fin 768 → Fin 1536 → ℝ) (pb : Fin 768 → ℝ) (l1g : Fin 768 → ℝ) (l1b : Fin 768 → ℝ) (l2g : Fin 768 → ℝ) (l2b : Fin 768 → ℝ) (lfg : Fin 768 → ℝ) (lfb : Fin 768 → ℝ) (r : Fin 4096) (k : Fin 768) : ℝ :=
  outn txt gph tW tb gW gb ipw ipb ow ob pW pb l1g l1b l2g l2b lfg lfb r k / (Real.sqrt (∑ j : Fin 768, outn txt gph tW tb gW gb ipw ipb ow ob pW pb l1g l1b l2g l2b lfg lfb r j ^ 2) + delta)

/-- The second result: the queue with column `c < 4096` replaced by row `c` of `keys`. -/
def newQueue (txt : Fin 4096 → Fin 768 → ℝ) (gph : Fin 4096 → Fin 768 → ℝ) (tW : Fin 768 → Fin 768 → ℝ) (tb : Fin 768 → ℝ) (gW : Fin 768 → Fin 768 → ℝ) (gb : Fin 768 → ℝ) (ipw : Fin 2304 → Fin 768 → ℝ) (ipb : Fin 2304 → ℝ) (ow : Fin 768 → Fin 768 → ℝ) (ob : Fin 768 → ℝ) (pW : Fin 768 → Fin 1536 → ℝ) (pb : Fin 768 → ℝ) (l1g : Fin 768 → ℝ) (l1b : Fin 768 → ℝ) (l2g : Fin 768 → ℝ) (l2b : Fin 768 → ℝ) (lfg : Fin 768 → ℝ) (lfb : Fin 768 → ℝ) (queue : Fin 768 → Fin 65536 → ℝ) (row : Fin 768) (col : Fin 65536) : ℝ :=
  if h : col.val < 4096 then keys txt gph tW tb gW gb ipw ipb ow ob pW pb l1g l1b l2g l2b lfg lfb ⟨col.val, h⟩ row else queue row col

/-- The third result: the pointer advanced from 0 by 4096. -/
def newPtr : BitVec 32 := 4096#32

end Cert.Spec

end
-- ==== Proof.RefRead.lean ====
/- Reading the reference's operations at an index, at the exact-real instance: a product is a finite sum of products,
   a bias row repeated down the rows reads its entry, a slice reads the shifted entry, and the coercion of a finite
   real sum is the sum of the coercions. -/
import proofs.«211565_g20684562498226_cont_8to1_684_24_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value
import proofs.«211565_g20684562498226_cont_8to1_684_24_alg».proof.Proof.Spec

noncomputable section

namespace Cert.ReferenceIdeal.RefSpec

open Cert.ReferenceIdeal Cert.ReferenceIdeal.Gen Idealize.ShloMosaic Idealize.ShloMosaic.ValueIdx
open scoped BigOperators

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem lhs768_0 (i : S4096x768.Idx) (q : dot_S4096x768_S768x768_S4096x768_1_0_0_1_n_n.contr.Idx) : (dot_S4096x768_S768x768_S4096x768_1_0_0_1_n_n.lhsIdx i q 0).val = (i 0).val := by
  unfold DotDims.lhsIdx
  rw [dif_neg (show ¬(0 : Fin S4096x768.rank) ∈ dot_S4096x768_S768x768_S4096x768_1_0_0_1_n_n.lhsBatch by decide), dif_pos (show (0 : Fin S4096x768.rank) ∈ dot_S4096x768_S768x768_S4096x768_1_0_0_1_n_n.lhsNonContracting by decide)]
  rfl
theorem lhs768_1 (i : S4096x768.Idx) (q : dot_S4096x768_S768x768_S4096x768_1_0_0_1_n_n.contr.Idx) : (dot_S4096x768_S768x768_S4096x768_1_0_0_1_n_n.lhsIdx i q 1).val = (q ⟨0, by decide⟩).val :=
  dot_S4096x768_S768x768_S4096x768_1_0_0_1_n_n.lhsIdx_val_of_single rfl i q
theorem rhs768_0 (i : S4096x768.Idx) (q : dot_S4096x768_S768x768_S4096x768_1_0_0_1_n_n.contr.Idx) : (dot_S4096x768_S768x768_S4096x768_1_0_0_1_n_n.rhsIdx i q 0).val = (q ⟨0, by decide⟩).val :=
  dot_S4096x768_S768x768_S4096x768_1_0_0_1_n_n.rhsIdx_val_of_single rfl i q
theorem rhs768_1 (i : S4096x768.Idx) (q : dot_S4096x768_S768x768_S4096x768_1_0_0_1_n_n.contr.Idx) : (dot_S4096x768_S768x768_S4096x768_1_0_0_1_n_n.rhsIdx i q 1).val = (i 1).val := by
  unfold DotDims.rhsIdx
  rw [dif_neg (show ¬(1 : Fin S768x768.rank) ∈ dot_S4096x768_S768x768_S4096x768_1_0_0_1_n_n.rhsBatch by decide), dif_pos (show (1 : Fin S768x768.rank) ∈ dot_S4096x768_S768x768_S4096x768_1_0_0_1_n_n.rhsNonContracting by decide)]
  rfl

/-- The host's product over 768 contracted columns, at row `r` and column `c`: the sum of the products. -/
theorem dot768_apply (l : S4096x768.Idx → EReal) (w : S768x768.Idx → EReal) (r : Fin 4096) (c : Fin 768) :
    Host.dotGeneral (F := Ideal) (φ₁ := .f32) (φ₂ := .f32) dot_S4096x768_S768x768_S4096x768_1_0_0_1_n_n none l w (ix2 r c) = ∑ k : Fin 768, l (ix2 r k) * w (ix2 k c) := by
  simp only [Host.dotGeneral]
  rw [Ideal.dotGeneral_apply, ← Equiv.sum_comp (ValueIdx.contrEquiv1 dot_S4096x768_S768x768_S4096x768_1_0_0_1_n_n 768 rfl rfl).symm]
  refine Finset.sum_congr rfl fun k _ => ?_
  have hk := ValueIdx.contrEquiv1_symm_val dot_S4096x768_S768x768_S4096x768_1_0_0_1_n_n 768 rfl rfl k
  have el : dot_S4096x768_S768x768_S4096x768_1_0_0_1_n_n.lhsIdx (ix2 r c) ((ValueIdx.contrEquiv1 dot_S4096x768_S768x768_S4096x768_1_0_0_1_n_n 768 rfl rfl).symm k) = ix2 r k := funext fun a => Fin.ext (by
    match a with
    | ⟨0, _⟩ => exact lhs768_0 _ _
    | ⟨1, _⟩ => exact (lhs768_1 _ _).trans hk)
  have er : dot_S4096x768_S768x768_S4096x768_1_0_0_1_n_n.rhsIdx (ix2 r c) ((ValueIdx.contrEquiv1 dot_S4096x768_S768x768_S4096x768_1_0_0_1_n_n 768 rfl rfl).symm k) = ix2 k c := funext fun a => Fin.ext (by
    match a with
    | ⟨0, _⟩ => exact (rhs768_0 _ _).trans hk
    | ⟨1, _⟩ => exact rhs768_1 _ _)
  rw [el, er]

theorem lhs1536_0 (i : S4096x768.Idx) (q : dot_S4096x1536_S1536x768_S4096x768_1_0_0_1_n_n.contr.Idx) : (dot_S4096x1536_S1536x768_S4096x768_1_0_0_1_n_n.lhsIdx i q 0).val = (i 0).val := by
  unfold DotDims.lhsIdx
  rw [dif_neg (show ¬(0 : Fin S4096x1536.rank) ∈ dot_S4096x1536_S1536x768_S4096x768_1_0_0_1_n_n.lhsBatch by decide), dif_pos (show (0 : Fin S4096x1536.rank) ∈ dot_S4096x1536_S1536x768_S4096x768_1_0_0_1_n_n.lhsNonContracting by decide)]
  rfl
theorem lhs1536_1 (i : S4096x768.Idx) (q : dot_S4096x1536_S1536x768_S4096x768_1_0_0_1_n_n.contr.Idx) : (dot_S4096x1536_S1536x768_S4096x768_1_0_0_1_n_n.lhsIdx i q 1).val = (q ⟨0, by decide⟩).val :=
  dot_S4096x1536_S1536x768_S4096x768_1_0_0_1_n_n.lhsIdx_val_of_single rfl i q
theorem rhs1536_0 (i : S4096x768.Idx) (q : dot_S4096x1536_S1536x768_S4096x768_1_0_0_1_n_n.contr.Idx) : (dot_S4096x1536_S1536x768_S4096x768_1_0_0_1_n_n.rhsIdx i q 0).val = (q ⟨0, by decide⟩).val :=
  dot_S4096x1536_S1536x768_S4096x768_1_0_0_1_n_n.rhsIdx_val_of_single rfl i q
theorem rhs1536_1 (i : S4096x768.Idx) (q : dot_S4096x1536_S1536x768_S4096x768_1_0_0_1_n_n.contr.Idx) : (dot_S4096x1536_S1536x768_S4096x768_1_0_0_1_n_n.rhsIdx i q 1).val = (i 1).val := by
  unfold DotDims.rhsIdx
  rw [dif_neg (show ¬(1 : Fin S1536x768.rank) ∈ dot_S4096x1536_S1536x768_S4096x768_1_0_0_1_n_n.rhsBatch by decide), dif_pos (show (1 : Fin S1536x768.rank) ∈ dot_S4096x1536_S1536x768_S4096x768_1_0_0_1_n_n.rhsNonContracting by decide)]
  rfl

/-- The host's product over 1536 contracted columns, at row `r` and column `c`: the sum of the products. -/
theorem dot1536_apply (l : S4096x1536.Idx → EReal) (w : S1536x768.Idx → EReal) (r : Fin 4096) (c : Fin 768) :
    Host.dotGeneral (F := Ideal) (φ₁ := .f32) (φ₂ := .f32) dot_S4096x1536_S1536x768_S4096x768_1_0_0_1_n_n none l w (ix2 r c) = ∑ k : Fin 1536, l (ix2 r k) * w (ix2 k c) := by
  simp only [Host.dotGeneral]
  rw [Ideal.dotGeneral_apply, ← Equiv.sum_comp (ValueIdx.contrEquiv1 dot_S4096x1536_S1536x768_S4096x768_1_0_0_1_n_n 1536 rfl rfl).symm]
  refine Finset.sum_congr rfl fun k _ => ?_
  have hk := ValueIdx.contrEquiv1_symm_val dot_S4096x1536_S1536x768_S4096x768_1_0_0_1_n_n 1536 rfl rfl k
  have el : dot_S4096x1536_S1536x768_S4096x768_1_0_0_1_n_n.lhsIdx (ix2 r c) ((ValueIdx.contrEquiv1 dot_S4096x1536_S1536x768_S4096x768_1_0_0_1_n_n 1536 rfl rfl).symm k) = ix2 r k := funext fun a => Fin.ext (by
    match a with
    | ⟨0, _⟩ => exact lhs1536_0 _ _
    | ⟨1, _⟩ => exact (lhs1536_1 _ _).trans hk)
  have er : dot_S4096x1536_S1536x768_S4096x768_1_0_0_1_n_n.rhsIdx (ix2 r c) ((ValueIdx.contrEquiv1 dot_S4096x1536_S1536x768_S4096x768_1_0_0_1_n_n 1536 rfl rfl).symm k) = ix2 k c := funext fun a => Fin.ext (by
    match a with
    | ⟨0, _⟩ => exact (rhs1536_0 _ _).trans hk
    | ⟨1, _⟩ => exact rhs1536_1 _ _)
  rw [el, er]

/-- A bias row repeated down the 4096 rows reads, at `(r, k)`, entry `k`. -/
theorem bias_apply (b : S768.Idx → EReal) (r : Fin 4096) (k : Fin 768) :
    broadcastInDim S4096x768 ![0, 1] bcast_S1x768_S4096x768_0_1 (broadcastInDim S1x768 ![1] bcast_S768_S1x768_1 b) (ix2 r k) = b (ix1 k) := by
  refine (broadcastInDim_apply _ _ _ (ix2 r k) (ix2 (0 : Fin 1) k) fun a => ?_).trans ?_
  · match a with
    | ⟨0, _⟩ => rfl
    | ⟨1, _⟩ => rfl
  · exact broadcastInDim_apply _ _ _ (ix2 (0 : Fin 1) k) (ix1 k) fun a => by
      match a with
      | ⟨0, _⟩ => rfl

/-! ## Real arrays as arrays of extended reals -/

/-- A real matrix as an array of extended reals. -/
def C2 {m n : ℕ} (f : Fin m → Fin n → ℝ) : FVec Ideal (⟨2, ![m, n]⟩ : Shape) .f32 := fun i => ((f (i 0) (i 1) : ℝ) : EReal)
/-- A real vector as an array of extended reals. -/
def C1 {n : ℕ} (f : Fin n → ℝ) : FVec Ideal (⟨1, ![n]⟩ : Shape) .f32 := fun i => ((f (i 0) : ℝ) : EReal)

theorem C2_ix2 {m n : ℕ} (f : Fin m → Fin n → ℝ) (a : Fin m) (b : Fin n) : C2 f (ix2 a b) = ((f a b : ℝ) : EReal) := rfl
theorem C1_ix1 {n : ℕ} (f : Fin n → ℝ) (a : Fin n) : C1 f (ix1 a) = ((f a : ℝ) : EReal) := rfl

/-! ## The literals -/

theorem lit768 : Ideal.ofBits .f32 0x44400000#32 = ((768 : ℝ) : EReal) := by
  simp [Ideal.ofBits, Ideal.ieee]
  rw [← EReal.coe_mul]
  exact congrArg _ (by norm_num)
theorem litNegInf : Ideal.ofBits .f32 0xFF800000#32 = (⊥ : EReal) := by
  simp [Ideal.ofBits, Ideal.ieee]
/-- The attention scale (the f32 nearest `√96`) is a positive real. -/
theorem litScale : ∃ c : ℝ, 0 < c ∧ Ideal.ofBits .f32 0x411CC471#32 = ((c : ℝ) : EReal) := by
  refine ⟨_, ?_, by simp [Ideal.ofBits, Ideal.ieee]; rfl⟩
  positivity
/-- ε is a positive real. -/
theorem litEps : ∃ c : ℝ, 0 < c ∧ Ideal.ofBits .f32 0x3727C5AC#32 = ((c : ℝ) : EReal) := by
  refine ⟨_, ?_, by simp [Ideal.ofBits, Ideal.ieee]; rfl⟩
  positivity
/-- δ is a positive real. -/
theorem litDelta : ∃ c : ℝ, 0 < c ∧ Ideal.ofBits .f32 0x2B8CBCCC#32 = ((c : ℝ) : EReal) := by
  refine ⟨_, ?_, by simp [Ideal.ofBits, Ideal.ieee]; rfl⟩
  positivity

/-! ## A linear layer -/

/-- `x · Wᵀ + b` on real arrays is the real array `∑ i, x r i * W k i + b k`. -/
theorem lin768 (xr : Fin 4096 → Fin 768 → ℝ) (wr : Fin 768 → Fin 768 → ℝ) (br : Fin 768 → ℝ) :
    addf (F := Ideal) (Host.dotGeneral (F := Ideal) dot_S4096x768_S768x768_S4096x768_1_0_0_1_n_n none (C2 xr) (transpose S768x768 [1, 0] (C2 wr) transposes_S768x768_S768x768_1_0)) (broadcastInDim S4096x768 ![0, 1] bcast_S1x768_S4096x768_0_1 (broadcastInDim S1x768 ![1] bcast_S768_S1x768_1 (C1 br)))
      = C2 fun r k => (∑ i : Fin 768, xr r i * wr k i) + br k := by
  funext j
  obtain ⟨r, k, rfl⟩ : ∃ (r : Fin 4096) (k : Fin 768), j = ix2 r k := ⟨j 0, j 1, eq_ix2 j⟩
  rw [addf_apply, dot768_apply, bias_apply, C2_ix2, C1_ix1, EReal.coe_add, coe_sum]
  refine congrArg (· + _) (Finset.sum_congr rfl fun i _ => ?_)
  rw [transpose_ix2_apply, C2_ix2, C2_ix2, EReal.coe_mul]

/-- The product alone, without the bias. -/
theorem mat768 (xr : Fin 4096 → Fin 768 → ℝ) (wr : Fin 768 → Fin 768 → ℝ) :
    Host.dotGeneral (F := Ideal) dot_S4096x768_S768x768_S4096x768_1_0_0_1_n_n none (C2 xr) (transpose S768x768 [1, 0] (C2 wr) transposes_S768x768_S768x768_1_0)
      = C2 fun r k => ∑ i : Fin 768, xr r i * wr k i := by
  funext j
  obtain ⟨r, k, rfl⟩ : ∃ (r : Fin 4096) (k : Fin 768), j = ix2 r k := ⟨j 0, j 1, eq_ix2 j⟩
  rw [dot768_apply, C2_ix2, coe_sum]
  refine Finset.sum_congr rfl fun i _ => ?_
  rw [transpose_ix2_apply, C2_ix2, C2_ix2, EReal.coe_mul]

/-- A bias row repeated down the rows, as a real array. -/
theorem bias_C1 (br : Fin 768 → ℝ) : (broadcastInDim S4096x768 ![0, 1] bcast_S1x768_S4096x768_0_1 (broadcastInDim S1x768 ![1] bcast_S768_S1x768_1 (C1 br))) = C2 fun (_ : Fin 4096) k => br k := by
  funext j
  obtain ⟨r, k, rfl⟩ : ∃ (r : Fin 4096) (k : Fin 768), j = ix2 r k := ⟨j 0, j 1, eq_ix2 j⟩
  rw [bias_apply, C1_ix1, C2_ix2]

/-- The sum of two real arrays. -/
theorem addf_C2 {m n : ℕ} (f g : Fin m → Fin n → ℝ) : addf (F := Ideal) (C2 f) (C2 g) = C2 fun r k => f r k + g r k := by
  funext j; exact (EReal.coe_add _ _).symm
theorem subf_C2 {m n : ℕ} (f g : Fin m → Fin n → ℝ) : subf (F := Ideal) (C2 f) (C2 g) = C2 fun r k => f r k - g r k := by
  funext j; exact (EReal.coe_sub _ _).symm
theorem mulf_C2 {m n : ℕ} (f g : Fin m → Fin n → ℝ) : mulf (F := Ideal) (C2 f) (C2 g) = C2 fun r k => f r k * g r k := by
  funext j; exact (EReal.coe_mul _ _).symm

/-! ## Slices of the input projection -/

/-- Rows `o … o + 767` of a real `2304 × 768` array. -/
theorem slice_rows (o : ℕ) (ho : o + 768 ≤ 2304) (w : Fin 2304 → Fin 768 → ℝ) (h : S2304x768.Slices ![o, 0] S768x768) :
    extractStridedSlice S768x768 ![o, 0] (C2 w) h = C2 fun k i => w ⟨o + k.val, by omega⟩ i := by
  funext j
  obtain ⟨k, i, rfl⟩ : ∃ (k : Fin 768) (i : Fin 768), j = ix2 k i := ⟨j 0, j 1, eq_ix2 j⟩
  refine (extractStridedSlice_apply _ _ h (ix2 k i) (ix2 ⟨o + k.val, by omega⟩ i) fun a => ?_).trans rfl
  match a with
  | ⟨0, _⟩ => rfl
  | ⟨1, _⟩ => exact (Nat.zero_add _).symm

/-- Entries `o … o + 767` of a real vector of length 2304. -/
theorem slice_vec (o : ℕ) (ho : o + 768 ≤ 2304) (b : Fin 2304 → ℝ) (h : S2304.Slices ![o] S768) :
    extractStridedSlice S768 ![o] (C1 b) h = C1 fun k => b ⟨o + k.val, by omega⟩ := by
  funext j
  obtain ⟨k, rfl⟩ : ∃ k : Fin 768, j = ix1 k := ⟨j 0, eq_ix1 j⟩
  refine (extractStridedSlice_apply _ _ h (ix1 k) (ix1 ⟨o + k.val, by omega⟩) fun a => ?_).trans rfl
  match a with
  | ⟨0, _⟩ => rfl

/-! ## Row statistics -/

/-- The sum along each row of a real array, kept as a column. -/
theorem rowsum_col (f : Fin 4096 → Fin 768 → ℝ) :
    (broadcastInDim S4096x1 ![0] bcast_S4096_S4096x1_0 (Host.reduceAdd (F := Ideal) (C2 f) (constant (F := Ideal) S_ .f32 0x00000000#32) reducesTo_S4096x768_S4096_d1 h_S_))
      = C2 fun r (_ : Fin 1) => ∑ k : Fin 768, f r k := by
  funext j
  obtain ⟨r, c, rfl⟩ : ∃ (r : Fin 4096) (c : Fin 1), j = ix2 r c := ⟨j 0, j 1, eq_ix2 j⟩
  refine (broadcastInDim_apply _ _ _ (ix2 r c) (ix1 r) fun a => by
    match a with
    | ⟨0, _⟩ => rfl).trans ?_
  show Ideal.hostReduceAdd reducesTo_S4096x768_S4096_d1 (C2 f) (Ideal.ofBits .f32 0x00000000#32) (ix1 r) = _
  rw [Ideal.hostReduceAdd_single reducesTo_S4096x768_S4096_d1 (by decide), Ideal.ofBits_zero_f32, zero_add, C2_ix2, coe_sum]
  refine Finset.sum_congr rfl fun k _ => ?_
  exact congrArg (C2 f) (funext fun a => Fin.ext (by
    match a with
    | ⟨0, _⟩ => rfl
    | ⟨1, _⟩ => rfl))

/-- A scalar literal repeated down a column. -/
theorem scal_col (w : BitVec 32) : (broadcastInDim S4096x1 ![] bcast_S_S4096x1 (constant (F := Ideal) S_ .f32 w)) = fun _ => Ideal.ofBits .f32 w := rfl

/-- The mean along each row of a real array: the row sum over 768. -/
theorem rowmean_col (f : Fin 4096 → Fin 768 → ℝ) :
    Host.divf (F := Ideal) (broadcastInDim S4096x1 ![0] bcast_S4096_S4096x1_0 (Host.reduceAdd (F := Ideal) (C2 f) (constant (F := Ideal) S_ .f32 0x00000000#32) reducesTo_S4096x768_S4096_d1 h_S_)) (broadcastInDim S4096x1 ![] bcast_S_S4096x1 (constant (F := Ideal) S_ .f32 0x44400000#32))
      = C2 fun r (_ : Fin 1) => (∑ k : Fin 768, f r k) / 768 := by
  rw [rowsum_col, scal_col]
  funext j
  show Ideal.div ((_ : ℝ) : EReal) (Ideal.ofBits .f32 0x44400000#32) = ((_ : ℝ) : EReal)
  rw [lit768, Ideal.div_coe (by norm_num), ← EReal.coe_mul]
  congr 1
  ring

/-- A column repeated across the 768 columns. -/
theorem col_bcast (g : Fin 4096 → ℝ) :
    broadcastInDim S4096x768 ![0, 1] bcast_S4096x1_S4096x768_0_1 (C2 fun r (_ : Fin 1) => g r) = C2 fun r (_ : Fin 768) => g r := by
  funext j
  obtain ⟨r, k, rfl⟩ : ∃ (r : Fin 4096) (k : Fin 768), j = ix2 r k := ⟨j 0, j 1, eq_ix2 j⟩
  exact broadcastInDim_apply _ _ _ (ix2 r k) (ix2 r (0 : Fin 1)) fun a => by
    match a with
    | ⟨0, _⟩ => rfl
    | ⟨1, _⟩ => rfl

/-- The variance's divisor, `768 - 0` with the `0` an integer converted, is 768. -/
theorem divisor768 : (subf (F := Ideal) (constant (F := Ideal) S_ .f32 0x44400000#32) (sitofp (F := Ideal) .f32 (constantI S_ 32 0#32))) = fun _ => ((768 : ℝ) : EReal) := by
  funext i
  show Ideal.ofBits .f32 0x44400000#32 - (((0#32 : BitVec 32).toInt : ℝ) : EReal) = _
  rw [lit768]
  simp

/-- The mean of each row of a real array of squared deviations, chosen by the (true) test `768 - 0 > 0`. -/
theorem var_sel (g : Fin 4096 → Fin 768 → ℝ) :
    select (broadcastInDim S4096x1 ![] bcast_S_S4096x1 (cmpf (F := Ideal) .ogt (subf (F := Ideal) (constant (F := Ideal) S_ .f32 0x44400000#32) (sitofp (F := Ideal) .f32 (constantI S_ 32 0#32))) (constant (F := Ideal) S_ .f32 0x00000000#32)))
        (Host.divf (F := Ideal) (broadcastInDim S4096x1 ![0] bcast_S4096_S4096x1_0 (Host.reduceAdd (F := Ideal) (C2 g) (constant (F := Ideal) S_ .f32 0x00000000#32) reducesTo_S4096x768_S4096_d1 h_S_)) (broadcastInDim S4096x1 ![] bcast_S_S4096x1 (subf (F := Ideal) (constant (F := Ideal) S_ .f32 0x44400000#32) (sitofp (F := Ideal) .f32 (constantI S_ 32 0#32)))))
        (broadcastInDim S4096x1 ![] bcast_S_S4096x1 ((constant (F := Ideal) S_ .f32 0x7FC00000#32)))
      = C2 fun r (_ : Fin 1) => (∑ k : Fin 768, g r k) / 768 := by
  rw [rowsum_col, divisor768]
  funext j
  have hc : Ideal.cmp .ogt ((768 : ℝ) : EReal) (Ideal.ofBits .f32 0x00000000#32) = 1#1 := by
    rw [Ideal.ofBits_zero_f32]
    show BitVec.ofBool (decide ((0 : EReal) < ((768 : ℝ) : EReal))) = 1#1
    rw [decide_eq_true (by exact_mod_cast (by norm_num : (0 : ℝ) < 768))]
    rfl
  show Scalar.select (Ideal.cmp .ogt ((768 : ℝ) : EReal) (Ideal.ofBits .f32 0x00000000#32))
      (Ideal.div ((_ : ℝ) : EReal) ((768 : ℝ) : EReal)) _ = ((_ : ℝ) : EReal)
  rw [hc, select_one, Ideal.div_coe (by norm_num), ← EReal.coe_mul]
  congr 1
  ring

/-- A real array centred by a column and divided by `√(v + ε)` for a non-negative column `v`. -/
theorem cen_read (f : Fin 4096 → Fin 768 → ℝ) (m v : Fin 4096 → ℝ) (hv : ∀ r, 0 ≤ v r) :
    Host.divf (F := Ideal) (subf (F := Ideal) (C2 f) (broadcastInDim S4096x768 ![0, 1] bcast_S4096x1_S4096x768_0_1 (C2 fun r (_ : Fin 1) => m r)))
        (broadcastInDim S4096x768 ![0, 1] bcast_S4096x1_S4096x768_0_1 (Host.sqrt (F := Ideal) (addf (F := Ideal) (C2 fun r (_ : Fin 1) => v r) (broadcastInDim S4096x1 ![] bcast_S_S4096x1 (constant (F := Ideal) S_ .f32 0x3727C5AC#32)))))
      = C2 fun r k => (f r k - m r) / Real.sqrt (v r + Cert.Spec.eps) := by
  obtain ⟨e, he, hlit⟩ := litEps
  have hE : Cert.Spec.eps = e := by unfold Cert.Spec.eps; rw [hlit]; rfl
  have hs : Host.sqrt (F := Ideal) (addf (F := Ideal) (C2 fun r (_ : Fin 1) => v r) (broadcastInDim S4096x1 ![] bcast_S_S4096x1 (constant (F := Ideal) S_ .f32 0x3727C5AC#32)))
      = C2 fun r (_ : Fin 1) => Real.sqrt (v r + e) := by
    rw [scal_col]
    funext j
    show Ideal.sqrt (((v (j 0) : ℝ) : EReal) + Ideal.ofBits .f32 0x3727C5AC#32) = _
    rw [hlit, ← EReal.coe_add, Ideal.sqrt_coe, if_neg (not_lt.mpr (by have := hv (j 0); linarith))]
    rfl
  rw [hs, col_bcast, col_bcast, subf_C2, hE]
  funext j
  have hpos : Real.sqrt (v (j 0) + e) ≠ 0 := by
    have : 0 < v (j 0) + e := by have := hv (j 0); linarith
    exact (Real.sqrt_pos.mpr this).ne'
  show Ideal.div ((_ : ℝ) : EReal) ((Real.sqrt (v (j 0) + e) : ℝ) : EReal) = ((_ : ℝ) : EReal)
  rw [Ideal.div_coe hpos, ← EReal.coe_mul]
  congr 1
  ring

/-- The affine step: a real array times a scale row plus a bias row. -/
theorem aff_read (c : Fin 4096 → Fin 768 → ℝ) (g b : Fin 768 → ℝ) :
    addf (F := Ideal) (mulf (F := Ideal) (C2 c) (broadcastInDim S4096x768 ![0, 1] bcast_S1x768_S4096x768_0_1 (broadcastInDim S1x768 ![1] bcast_S768_S1x768_1 (C1 g)))) (broadcastInDim S4096x768 ![0, 1] bcast_S1x768_S4096x768_0_1 (broadcastInDim S1x768 ![1] bcast_S768_S1x768_1 (C1 b)))
      = C2 fun r k => c r k * g k + b k := by
  rw [bias_C1, bias_C1, mulf_C2, addf_C2]

/-! ## Real-valued arrays -/

/-- An array of extended reals every entry of which is a real. -/
def IsReal {s : Shape} (x : s.Idx → EReal) : Prop := ∃ f : s.Idx → ℝ, x = fun i => ((f i : ℝ) : EReal)

theorem IsReal.C2 {m n : ℕ} (f : Fin m → Fin n → ℝ) : IsReal (C2 f) := ⟨fun i => f (i 0) (i 1), rfl⟩

theorem IsReal.shapeCast {s t : Shape} {x : s.Idx → EReal} (hx : IsReal x) (h : s.ShapeCasts t) : IsReal (shapeCast t x h) := by
  obtain ⟨f, rfl⟩ := hx
  unfold Idealize.ShloMosaic.shapeCast
  exact ⟨_, rfl⟩

theorem IsReal.bcast {s t : Shape} {x : s.Idx → EReal} (hx : IsReal x) (dims : Fin s.rank → Fin t.rank) (h : s.BroadcastsInDim t dims) :
    IsReal (broadcastInDim t dims h x) := by
  obtain ⟨f, rfl⟩ := hx
  unfold Idealize.ShloMosaic.broadcastInDim
  exact ⟨_, rfl⟩

theorem IsReal.mulf {s : Shape} {x y : FVec Ideal s .f32} (hx : IsReal x) (hy : IsReal y) : IsReal (mulf (F := Ideal) x y) := by
  obtain ⟨f, rfl⟩ := hx
  obtain ⟨g, rfl⟩ := hy
  exact ⟨fun i => f i * g i, funext fun i => (EReal.coe_mul _ _).symm⟩

theorem IsReal.reduceAdd {s t : Shape} {axes : List (Fin s.rank)} {x : FVec Ideal s .f32} (hx : IsReal x) (h : s.ReducesTo axes t) :
    IsReal (Host.reduceAdd (F := Ideal) x (constant (F := Ideal) S_ .f32 0x00000000#32) h h_S_) := by
  obtain ⟨f, rfl⟩ := hx
  refine ⟨fun j => ∑ i ∈ Finset.univ.filter (fun i => h.drop i = j), f i, funext fun j => ?_⟩
  show Ideal.hostReduceAdd h _ (Ideal.ofBits .f32 0x00000000#32) j = _
  unfold Ideal.hostReduceAdd
  rw [Ideal.ofBits_zero_f32, zero_add, coe_sum]

/-- A real-valued array over a literal that is a nonzero real is real-valued. -/
theorem IsReal.div_lit {s : Shape} {x : FVec Ideal s .f32} (hx : IsReal x) (h : S_.BroadcastsInDim s (![] : Fin 0 → Fin s.rank)) (w : BitVec 32)
    (c : ℝ) (hc : c ≠ 0) (hw : Ideal.ofBits .f32 w = ((c : ℝ) : EReal)) :
    IsReal (Host.divf (F := Ideal) x (broadcastInDim s ![] h (constant (F := Ideal) S_ .f32 w))) := by
  obtain ⟨f, rfl⟩ := hx
  refine ⟨fun i => f i * (1 / c), funext fun i => ?_⟩
  show Ideal.div ((f i : ℝ) : EReal) (Ideal.ofBits .f32 w) = _
  rw [hw, Ideal.div_coe hc, EReal.coe_mul]

/-! ## Attention over one key -/

/-- The scores are real-valued when queries and keys are. -/
theorem scores_real {Q K : FVec Ideal S4096x768 .f32} (hQ : IsReal Q) (hK : IsReal K) :
    IsReal (Host.divf (F := Ideal) (broadcastInDim S4096x8x1 ![0, 1] bcast_S4096x8_S4096x8x1_0_1 (Host.reduceAdd (F := Ideal) (mulf (F := Ideal) (shapeCast S4096x8x96 Q shapeCasts_S4096x768_S4096x8x96) (shapeCast S4096x8x96 K shapeCasts_S4096x768_S4096x8x96)) (constant (F := Ideal) S_ .f32 0x00000000#32) reducesTo_S4096x8x96_S4096x8_d2 h_S_))
      (broadcastInDim S4096x8x1 ![] bcast_S_S4096x8x1 (constant (F := Ideal) S_ .f32 0x411CC471#32))) := by
  obtain ⟨c, hc, hlit⟩ := litScale
  exact ((((hQ.shapeCast _).mulf (hK.shapeCast _)).reduceAdd _).bcast _ _).div_lit _ _ c hc.ne' hlit

/-- A fold of `max` over an index type with one element. -/
theorem fold_max_unit {n : ℕ} (hn : n = 1) (b : EReal) (g : Fin n → EReal) :
    (Finset.univ : Finset (Fin n)).fold max b g = max (g ⟨0, by omega⟩) b := by
  subst hn
  rw [Finset.univ_unique, Finset.fold_singleton]
  rfl

/-- The maximum over the one key, repeated back, is the score itself. -/
theorem max_unit (S : FVec Ideal S4096x8x1 .f32) : (broadcastInDim S4096x8x1 ![0, 1] bcast_S4096x8_S4096x8x1_0_1 (maximumf (F := Ideal) (broadcastInDim S4096x8 ![] bcast_S_S4096x8 (constant (F := Ideal) S_ .f32 0xFF800000#32)) (Host.reduce FloatOps.maximumf S (constant (F := Ideal) S_ .f32 0xFF800000#32) reducesTo_S4096x8x1_S4096x8_d2 h_S_))) = S := by
  funext i
  refine (broadcastInDim_apply _ _ _ i (ix2 (n0 := 4096) (n1 := 8) (i 0) (i 1)) fun a => by
    match a with
    | ⟨0, _⟩ => rfl
    | ⟨1, _⟩ => rfl).trans ?_
  show max (Ideal.ofBits .f32 0xFF800000#32) (Host.reduce FloatOps.maximumf S _ reducesTo_S4096x8x1_S4096x8_d2 h_S_ _) = _
  rw [litNegInf, max_eq_right bot_le, Host.reduce_eq_fold_single FloatOps.maximumf S _ reducesTo_S4096x8x1_S4096x8_d2 (by decide) h_S_]
  refine (fold_max_unit rfl _ _).trans ?_
  refine (max_eq_left (by rw [show (constant (F := Ideal) S_ .f32 0xFF800000#32) (Shape.Idx.first h_S_) = Ideal.ofBits .f32 0xFF800000#32 from rfl, litNegInf]; exact bot_le)).trans ?_
  refine congrArg S (funext fun a => Fin.ext ?_)
  match a with
  | ⟨0, _⟩ => rfl
  | ⟨1, _⟩ => rfl
  | ⟨2, _⟩ => exact (Nat.lt_one_iff.mp (i 2).isLt).symm

/-- The exponentials of the scores less their maximum are all 1 when the scores are real. -/
theorem exp_unit {S : FVec Ideal S4096x8x1 .f32} (hS : IsReal S) :
    Host.exp (F := Ideal) (subf (F := Ideal) S (broadcastInDim S4096x8x1 ![0, 1] bcast_S4096x8_S4096x8x1_0_1 (maximumf (F := Ideal) (broadcastInDim S4096x8 ![] bcast_S_S4096x8 (constant (F := Ideal) S_ .f32 0xFF800000#32)) (Host.reduce FloatOps.maximumf S (constant (F := Ideal) S_ .f32 0xFF800000#32) reducesTo_S4096x8x1_S4096x8_d2 h_S_)))) = fun _ => (1 : EReal) := by
  rw [max_unit]
  obtain ⟨s, rfl⟩ := hS
  funext i
  show Ideal.exp (((s i : ℝ) : EReal) - ((s i : ℝ) : EReal)) = 1
  rw [← EReal.coe_sub, sub_self, Ideal.exp_coe, Real.exp_zero]
  rfl

/-- The weights: each exponential over the sum along the one key is 1. -/
theorem weights_unit :
    Host.divf (F := Ideal) (fun _ => (1 : EReal) : FVec Ideal S4096x8x1 .f32)
        (broadcastInDim S4096x8x1 ![0, 1] bcast_S4096x8_S4096x8x1_0_1 (Host.reduceAdd (F := Ideal) (fun _ => (1 : EReal) : FVec Ideal S4096x8x1 .f32) (constant (F := Ideal) S_ .f32 0x00000000#32) reducesTo_S4096x8x1_S4096x8_d2 h_S_))
      = fun _ => (1 : EReal) := by
  have hsum : Host.reduceAdd (F := Ideal) (fun _ => (1 : EReal) : FVec Ideal S4096x8x1 .f32) (constant (F := Ideal) S_ .f32 0x00000000#32) reducesTo_S4096x8x1_S4096x8_d2 h_S_
      = fun _ => (1 : EReal) := by
    funext j
    show Ideal.hostReduceAdd reducesTo_S4096x8x1_S4096x8_d2 _ (Ideal.ofBits .f32 0x00000000#32) j = _
    rw [Ideal.hostReduceAdd_single reducesTo_S4096x8x1_S4096x8_d2 (by decide), Ideal.ofBits_zero_f32, zero_add]
    show ∑ _k : Fin 1, (1 : EReal) = 1
    simp
  rw [hsum]
  funext i
  show Ideal.div (1 : EReal) (((1 : ℝ) : EReal)) = 1
  rw [Ideal.div_coe one_ne_zero]
  simp

/-- Weights all 1 return the values: the two reshapes cancel. -/
theorem attn_unit (V : FVec Ideal S4096x768 .f32) :
    shapeCast S4096x768 (mulf (F := Ideal) (broadcastInDim S4096x8x96 ![0, 1, 2] bcast_S4096x8x1_S4096x8x96_0_1_2 (fun _ => (1 : EReal) : FVec Ideal S4096x8x1 .f32))
        (shapeCast S4096x8x96 V shapeCasts_S4096x768_S4096x8x96)) shapeCasts_S4096x8x96_S4096x768 = V := by
  have h1 : mulf (F := Ideal) (broadcastInDim S4096x8x96 ![0, 1, 2] bcast_S4096x8x1_S4096x8x96_0_1_2 (fun _ => (1 : EReal) : FVec Ideal S4096x8x1 .f32))
      (shapeCast S4096x8x96 V shapeCasts_S4096x768_S4096x8x96) = shapeCast S4096x8x96 V shapeCasts_S4096x768_S4096x8x96 := by
    funext i
    show (1 : EReal) * _ = _
    rw [one_mul]
  rw [h1, shapeCast_shapeCast]

/-! ## The fusion layer -/

/-- Two real arrays side by side, read at a column: the first below 768, the second from 768 on. -/
theorem cat_apply (a b : Fin 4096 → Fin 768 → ℝ) (r : Fin 4096) (i : Fin 1536) :
    concatenate S4096x1536 1 [⟨S4096x768, C2 a⟩, ⟨S4096x768, C2 b⟩] concatenates_S4096x768_S4096x768_S4096x1536_d1 (ix2 r i)
      = (((if h : i.val < 768 then a r ⟨i.val, h⟩ else b r ⟨i.val - 768, by omega⟩ : ℝ)) : EReal) := by
  by_cases h : i.val < 768
  · rw [dif_pos h]
    refine (concatenate_pair_apply_left (t := S4096x1536) (s₁ := S4096x768) (s₂ := S4096x768) 1 (C2 a) (C2 b)
      concatenates_S4096x768_S4096x768_S4096x1536_d1 (ix2 r i) rfl (ix2 (n0 := 4096) (n1 := 768) r ⟨i.val, h⟩) fun c => ?_).trans rfl
    match c with
    | ⟨0, _⟩ => rfl
    | ⟨1, _⟩ => rfl
  · rw [dif_neg h]
    refine (concatenate_pair_apply_right (t := S4096x1536) (s₁ := S4096x768) (s₂ := S4096x768) 1 (C2 a) (C2 b)
      concatenates_S4096x768_S4096x768_S4096x1536_d1 (ix2 r i) rfl rfl (ix2 (n0 := 4096) (n1 := 768) r ⟨i.val - 768, by omega⟩)
      (fun c hc => ?_) ?_).trans rfl
    · match c with
      | ⟨0, _⟩ => rfl
      | ⟨1, _⟩ => exact absurd rfl hc
    · exact Nat.sub_add_cancel (Nat.le_of_not_lt h)

/-- The two arrays side by side, as one real array of 1536 columns. -/
def catR (a b : Fin 4096 → Fin 768 → ℝ) (r : Fin 4096) (i : Fin 1536) : ℝ :=
  if h : i.val < 768 then a r ⟨i.val, h⟩ else b r ⟨i.val - 768, by omega⟩

set_option maxHeartbeats 1000000 in
/-- The product of the two arrays side by side with the fusion weights. -/
theorem cat_dot (a b : Fin 4096 → Fin 768 → ℝ) (w : Fin 768 → Fin 1536 → ℝ) :
    Host.dotGeneral (F := Ideal) (φ₁ := .f32) (φ₂ := .f32) dot_S4096x1536_S1536x768_S4096x768_1_0_0_1_n_n none
        (concatenate S4096x1536 1 [⟨S4096x768, C2 a⟩, ⟨S4096x768, C2 b⟩] concatenates_S4096x768_S4096x768_S4096x1536_d1)
        (transpose S1536x768 [1, 0] (C2 w) transposes_S768x1536_S1536x768_1_0)
      = C2 fun r k => ∑ i : Fin 1536, catR a b r i * w k i := by
  funext j
  obtain ⟨r, k, rfl⟩ : ∃ (r : Fin 4096) (k : Fin 768), j = ix2 r k := ⟨j 0, j 1, eq_ix2 j⟩
  refine (dot1536_apply _ _ r k).trans ?_
  refine Eq.trans ?_ (coe_sum _ _).symm
  refine Finset.sum_congr rfl fun i _ => ?_
  refine Eq.trans ?_ (EReal.coe_mul _ _).symm
  refine congrArg₂ (· * ·) (cat_apply a b r i) ?_
  exact transpose_ix2_apply (C2 w) transposes_S768x1536_S1536x768_1_0 i k

set_option maxHeartbeats 1000000 in
/-- The fusion layer on real arrays. -/
theorem fuse_read (a b : Fin 4096 → Fin 768 → ℝ) (w : Fin 768 → Fin 1536 → ℝ) (pb : Fin 768 → ℝ) :
    addf (F := Ideal) (Host.dotGeneral (F := Ideal) (φ₁ := .f32) (φ₂ := .f32) dot_S4096x1536_S1536x768_S4096x768_1_0_0_1_n_n none
        (concatenate S4096x1536 1 [⟨S4096x768, C2 a⟩, ⟨S4096x768, C2 b⟩] concatenates_S4096x768_S4096x768_S4096x1536_d1)
        (transpose S1536x768 [1, 0] (C2 w) transposes_S768x1536_S1536x768_1_0)) (broadcastInDim S4096x768 ![0, 1] bcast_S1x768_S4096x768_0_1 (broadcastInDim S1x768 ![1] bcast_S768_S1x768_1 (C1 pb)))
      = C2 fun r k => (∑ i : Fin 1536, catR a b r i * w k i) + pb k := by
  rw [cat_dot, bias_C1, addf_C2]

/-! ## The final normalisation -/

/-- Each row of a real array over its Euclidean norm plus δ. -/
theorem keys_read (o : Fin 4096 → Fin 768 → ℝ) :
    Host.divf (F := Ideal) (C2 o)
        (broadcastInDim S4096x768 ![0, 1] bcast_S4096x1_S4096x768_0_1 (addf (F := Ideal) (Host.sqrt (F := Ideal) (broadcastInDim S4096x1 ![0] bcast_S4096_S4096x1_0 (Host.reduceAdd (F := Ideal) (mulf (F := Ideal) (C2 o) (C2 o)) (constant (F := Ideal) S_ .f32 0x00000000#32) reducesTo_S4096x768_S4096_d1 h_S_))) (broadcastInDim S4096x1 ![] bcast_S_S4096x1 (constant (F := Ideal) S_ .f32 0x2B8CBCCC#32))))
      = C2 fun r k => o r k / (Real.sqrt (∑ j : Fin 768, o r j ^ 2) + Cert.Spec.delta) := by
  obtain ⟨d, hd, hlit⟩ := litDelta
  have hD : Cert.Spec.delta = d := by unfold Cert.Spec.delta; rw [hlit]; rfl
  have hsq : (fun (r : Fin 4096) (k : Fin 768) => o r k * o r k) = fun r k => o r k ^ 2 := by
    funext r k; ring
  have hn : ∀ r, 0 ≤ ∑ j : Fin 768, o r j ^ 2 := fun r => Finset.sum_nonneg fun j _ => sq_nonneg _
  have hs : addf (F := Ideal) (Host.sqrt (F := Ideal) (broadcastInDim S4096x1 ![0] bcast_S4096_S4096x1_0 (Host.reduceAdd (F := Ideal) (mulf (F := Ideal) (C2 o) (C2 o)) (constant (F := Ideal) S_ .f32 0x00000000#32) reducesTo_S4096x768_S4096_d1 h_S_))) (broadcastInDim S4096x1 ![] bcast_S_S4096x1 (constant (F := Ideal) S_ .f32 0x2B8CBCCC#32))
      = C2 fun r (_ : Fin 1) => Real.sqrt (∑ j : Fin 768, o r j ^ 2) + d := by
    rw [mulf_C2, hsq, rowsum_col, scal_col]
    funext j
    show Ideal.sqrt (((∑ k : Fin 768, o (j 0) k ^ 2 : ℝ)) : EReal) + Ideal.ofBits .f32 0x2B8CBCCC#32 = _
    rw [Ideal.sqrt_coe, if_neg (not_lt.mpr (hn (j 0))), hlit, ← EReal.coe_add]
    rfl
  rw [hs, col_bcast, hD]
  funext j
  have hpos : Real.sqrt (∑ k : Fin 768, o (j 0) k ^ 2) + d ≠ 0 := by
    have := Real.sqrt_nonneg (∑ k : Fin 768, o (j 0) k ^ 2); linarith
  show Ideal.div ((_ : ℝ) : EReal) ((Real.sqrt (∑ k : Fin 768, o (j 0) k ^ 2) + d : ℝ) : EReal) = ((_ : ℝ) : EReal)
  rw [Ideal.div_coe hpos, ← EReal.coe_mul]
  congr 1
  ring

end Cert.ReferenceIdeal.RefSpec

end
-- ==== Proof.RefSpec.lean ====
/- The reference's first result on real arguments is the specification's `keys`: each named value of the program, from
   the two projections up, is the coercion of the specification's real array of the same role — a product is a finite sum
   of products, a softmax over one key is 1 on real scores so each attention returns its values, the variance's where
   keeps the quotient because `768 - 0 > 0`, and `√(var + ε)` and the norm plus δ are positive. -/
import proofs.«211565_g20684562498226_cont_8to1_684_24_alg».proof.Proof.RefRead
import proofs.«211565_g20684562498226_cont_8to1_684_24_alg».proof.Proof.RefStages

noncomputable section

namespace Cert.ReferenceIdeal.RefSpec

open Cert.ReferenceIdeal Cert.ReferenceIdeal.Gen Cert.ReferenceIdeal.RefRun Idealize.ShloMosaic Idealize.ShloMosaic.ValueIdx Cert.Spec
open scoped BigOperators

variable (txt gph : Fin 4096 → Fin 768 → ℝ) (tW : Fin 768 → Fin 768 → ℝ) (tb : Fin 768 → ℝ) (gW : Fin 768 → Fin 768 → ℝ) (gb : Fin 768 → ℝ)
  (ipw : Fin 2304 → Fin 768 → ℝ) (ipb : Fin 2304 → ℝ) (ow : Fin 768 → Fin 768 → ℝ) (ob : Fin 768 → ℝ) (pW : Fin 768 → Fin 1536 → ℝ) (pb : Fin 768 → ℝ)
  (l1g l1b l2g l2b lfg lfb : Fin 768 → ℝ) (queue : Fin 768 → Fin 65536 → ℝ) (ptr : IVec S1 32)

theorem txt_up_eq : txt_up (F := Ideal) (C2 txt) (C2 tW) (C1 tb) = C2 (tu txt tW tb) := by
  unfold txt_up
  exact lin768 _ _ _

theorem gph_up_eq : gph_up (F := Ideal) (C2 gph) (C2 gW) (C1 gb) = C2 (gu gph gW gb) := by
  unfold gph_up
  exact lin768 _ _ _

theorem t_v11_eq : t_v11 (F := Ideal) (C2 ipw) = C2 fun k i => ipw ⟨768 + k.val, by omega⟩ i := by
  unfold t_v11
  exact slice_rows 768 (by omega) _ _

theorem t_v12_eq : t_v12 (F := Ideal) (C2 ipw) = C2 fun k i => ipw ⟨1536 + k.val, by omega⟩ i := by
  unfold t_v12
  exact slice_rows 1536 (by omega) _ _

theorem t_v14_eq : t_v14 (F := Ideal) (C1 ipb) = C1 fun k => ipb ⟨768 + k.val, by omega⟩ := by
  unfold t_v14
  exact slice_vec 768 (by omega) _ _

theorem t_v15_eq : t_v15 (F := Ideal) (C1 ipb) = C1 fun k => ipb ⟨1536 + k.val, by omega⟩ := by
  unfold t_v15
  exact slice_vec 1536 (by omega) _ _

theorem t_v75_eq : t_v75 (F := Ideal) (C2 ipw) = C2 fun k i => ipw ⟨768 + k.val, by omega⟩ i := by
  unfold t_v75
  exact slice_rows 768 (by omega) _ _

theorem t_v76_eq : t_v76 (F := Ideal) (C2 ipw) = C2 fun k i => ipw ⟨1536 + k.val, by omega⟩ i := by
  unfold t_v76
  exact slice_rows 1536 (by omega) _ _

theorem t_v78_eq : t_v78 (F := Ideal) (C1 ipb) = C1 fun k => ipb ⟨768 + k.val, by omega⟩ := by
  unfold t_v78
  exact slice_vec 768 (by omega) _ _

theorem t_v79_eq : t_v79 (F := Ideal) (C1 ipb) = C1 fun k => ipb ⟨1536 + k.val, by omega⟩ := by
  unfold t_v79
  exact slice_vec 1536 (by omega) _ _

theorem q1_eq : q1 (F := Ideal) (C2 txt) (C2 tW) (C1 tb) (C2 ipw) (C1 ipb) = C2 (fun r k => (∑ i : Fin 768, tu txt tW tb r i * ipw ⟨0 + k.val, by omega⟩ i) + ipb ⟨0 + k.val, by omega⟩) := by
  unfold q1
  rw [txt_up_eq, slice_rows 0 (by omega), slice_vec 0 (by omega)]
  exact lin768 _ _ _

theorem k1_eq : k1 (F := Ideal) (C2 gph) (C2 gW) (C1 gb) (C2 ipw) (C1 ipb) = C2 (fun r k => (∑ i : Fin 768, gu gph gW gb r i * ipw ⟨768 + k.val, by omega⟩ i) + ipb ⟨768 + k.val, by omega⟩) := by
  unfold k1
  rw [gph_up_eq, t_v11_eq, t_v14_eq]
  exact lin768 _ _ _

theorem vv1_eq : vv1 (F := Ideal) (C2 gph) (C2 gW) (C1 gb) (C2 ipw) (C1 ipb) = C2 (vA gph gW gb ipw ipb) := by
  unfold vv1
  rw [gph_up_eq, t_v12_eq, t_v15_eq]
  exact lin768 _ _ _

theorem q2_eq : q2 (F := Ideal) (C2 gph) (C2 gW) (C1 gb) (C2 ipw) (C1 ipb) = C2 (fun r k => (∑ i : Fin 768, gu gph gW gb r i * ipw ⟨0 + k.val, by omega⟩ i) + ipb ⟨0 + k.val, by omega⟩) := by
  unfold q2
  rw [gph_up_eq, slice_rows 0 (by omega), slice_vec 0 (by omega)]
  exact lin768 _ _ _

theorem k2_eq : k2 (F := Ideal) (C2 txt) (C2 tW) (C1 tb) (C2 ipw) (C1 ipb) = C2 (fun r k => (∑ i : Fin 768, tu txt tW tb r i * ipw ⟨768 + k.val, by omega⟩ i) + ipb ⟨768 + k.val, by omega⟩) := by
  unfold k2
  rw [txt_up_eq, t_v75_eq, t_v78_eq]
  exact lin768 _ _ _

theorem vv2_eq : vv2 (F := Ideal) (C2 txt) (C2 tW) (C1 tb) (C2 ipw) (C1 ipb) = C2 (vB txt tW tb ipw ipb) := by
  unfold vv2
  rw [txt_up_eq, t_v76_eq, t_v79_eq]
  exact lin768 _ _ _

theorem sc1_real : IsReal (sc1 (F := Ideal) (C2 txt) (C2 gph) (C2 tW) (C1 tb) (C2 gW) (C1 gb) (C2 ipw) (C1 ipb)) := by
  unfold sc1 dots1
  rw [q1_eq, k1_eq]
  exact scores_real (IsReal.C2 _) (IsReal.C2 _)

theorem ex1_eq : ex1 (F := Ideal) (C2 txt) (C2 gph) (C2 tW) (C1 tb) (C2 gW) (C1 gb) (C2 ipw) (C1 ipb) = fun _ => (1 : EReal) := by
  unfold ex1
  exact exp_unit (sc1_real ..)

theorem p1_eq : p1 (F := Ideal) (C2 txt) (C2 gph) (C2 tW) (C1 tb) (C2 gW) (C1 gb) (C2 ipw) (C1 ipb) = fun _ => (1 : EReal) := by
  unfold p1
  rw [ex1_eq]
  exact weights_unit

theorem attn1_eq : attn1 (F := Ideal) (C2 txt) (C2 gph) (C2 tW) (C1 tb) (C2 gW) (C1 gb) (C2 ipw) (C1 ipb) = C2 (vA gph gW gb ipw ipb) := by
  unfold attn1 t_v33
  rw [p1_eq, vv1_eq]
  exact attn_unit _

theorem o1_eq : o1 (F := Ideal) (C2 txt) (C2 gph) (C2 tW) (C1 tb) (C2 gW) (C1 gb) (C2 ipw) (C1 ipb) (C2 ow) (C1 ob) = C2 (oA gph gW gb ipw ipb ow ob) := by
  unfold o1 t_v52 t_v54
  rw [attn1_eq]
  exact lin768 _ _ _

theorem sc2_real : IsReal (sc2 (F := Ideal) (C2 txt) (C2 gph) (C2 tW) (C1 tb) (C2 gW) (C1 gb) (C2 ipw) (C1 ipb)) := by
  unfold sc2 dots2
  rw [q2_eq, k2_eq]
  exact scores_real (IsReal.C2 _) (IsReal.C2 _)

theorem ex2_eq : ex2 (F := Ideal) (C2 txt) (C2 gph) (C2 tW) (C1 tb) (C2 gW) (C1 gb) (C2 ipw) (C1 ipb) = fun _ => (1 : EReal) := by
  unfold ex2 t_v106
  exact exp_unit (sc2_real ..)

theorem p2_eq : p2 (F := Ideal) (C2 txt) (C2 gph) (C2 tW) (C1 tb) (C2 gW) (C1 gb) (C2 ipw) (C1 ipb) = fun _ => (1 : EReal) := by
  unfold p2
  rw [ex2_eq]
  exact weights_unit

theorem attn2_eq : attn2 (F := Ideal) (C2 txt) (C2 gph) (C2 tW) (C1 tb) (C2 gW) (C1 gb) (C2 ipw) (C1 ipb) = C2 (vB txt tW tb ipw ipb) := by
  unfold attn2 t_v97
  rw [p2_eq, vv2_eq]
  exact attn_unit _

theorem o2_eq : o2 (F := Ideal) (C2 txt) (C2 gph) (C2 tW) (C1 tb) (C2 gW) (C1 gb) (C2 ipw) (C1 ipb) (C2 ow) (C1 ob) = C2 (oB txt tW tb ipw ipb ow ob) := by
  unfold o2
  rw [attn2_eq]
  exact lin768 _ _ _

theorem mu1_eq : mu1 (F := Ideal) (C2 txt) (C2 gph) (C2 tW) (C1 tb) (C2 gW) (C1 gb) (C2 ipw) (C1 ipb) (C2 ow) (C1 ob) = C2 fun r (_ : Fin 1) => mean (oA gph gW gb ipw ipb ow ob) r := by
  unfold mu1
  rw [o1_eq]
  exact rowmean_col _

theorem t_call0_v5_eq : t_call0_v5 (F := Ideal) (C2 txt) (C2 gph) (C2 tW) (C1 tb) (C2 gW) (C1 gb) (C2 ipw) (C1 ipb) (C2 ow) (C1 ob) = C2 fun r k => (oA gph gW gb ipw ipb ow ob) r k - mean (oA gph gW gb ipw ipb ow ob) r := by
  unfold t_call0_v5
  rw [o1_eq, rowmean_col, col_bcast, subf_C2]
  rfl

theorem t_call0_v6_eq : t_call0_v6 (F := Ideal) (C2 txt) (C2 gph) (C2 tW) (C1 tb) (C2 gW) (C1 gb) (C2 ipw) (C1 ipb) (C2 ow) (C1 ob) = C2 fun r k => ((oA gph gW gb ipw ipb ow ob) r k - mean (oA gph gW gb ipw ipb ow ob) r) * ((oA gph gW gb ipw ipb ow ob) r k - mean (oA gph gW gb ipw ipb ow ob) r) := by
  unfold t_call0_v6
  rw [t_call0_v5_eq, mulf_C2]

theorem var1_eq : var1 (F := Ideal) (C2 txt) (C2 gph) (C2 tW) (C1 tb) (C2 gW) (C1 gb) (C2 ipw) (C1 ipb) (C2 ow) (C1 ob) = C2 fun r (_ : Fin 1) => var (oA gph gW gb ipw ipb ow ob) r := by
  unfold var1 t_call0_v8 t_c
  rw [t_call0_v6_eq, var_sel]
  refine congrArg C2 (funext fun r => funext fun _ => ?_)
  unfold var
  exact congrArg (· / 768) (Finset.sum_congr rfl fun k _ => (pow_two _).symm)

theorem o1c_eq : o1c (F := Ideal) (C2 txt) (C2 gph) (C2 tW) (C1 tb) (C2 gW) (C1 gb) (C2 ipw) (C1 ipb) (C2 ow) (C1 ob) = C2 fun r k => ((oA gph gW gb ipw ipb ow ob) r k - mean (oA gph gW gb ipw ipb ow ob) r) / Real.sqrt (var (oA gph gW gb ipw ipb ow ob) r + eps) := by
  unfold o1c
  rw [o1_eq, mu1_eq, var1_eq]
  exact cen_read _ _ _ fun r => div_nonneg (Finset.sum_nonneg fun k _ => sq_nonneg _) (by norm_num)

theorem o1n_eq : o1n (F := Ideal) (C2 txt) (C2 gph) (C2 tW) (C1 tb) (C2 gW) (C1 gb) (C2 ipw) (C1 ipb) (C2 ow) (C1 ob) (C1 l1g) (C1 l1b) = C2 (LN (oA gph gW gb ipw ipb ow ob) l1g l1b) := by
  unfold o1n
  rw [o1c_eq]
  exact aff_read _ _ _

theorem mu2_eq : mu2 (F := Ideal) (C2 txt) (C2 gph) (C2 tW) (C1 tb) (C2 gW) (C1 gb) (C2 ipw) (C1 ipb) (C2 ow) (C1 ob) = C2 fun r (_ : Fin 1) => mean (oB txt tW tb ipw ipb ow ob) r := by
  unfold mu2
  rw [o2_eq]
  exact rowmean_col _

theorem t_call1_v5_eq : t_call1_v5 (F := Ideal) (C2 txt) (C2 gph) (C2 tW) (C1 tb) (C2 gW) (C1 gb) (C2 ipw) (C1 ipb) (C2 ow) (C1 ob) = C2 fun r k => (oB txt tW tb ipw ipb ow ob) r k - mean (oB txt tW tb ipw ipb ow ob) r := by
  unfold t_call1_v5
  rw [o2_eq, rowmean_col, col_bcast, subf_C2]
  rfl

theorem t_call1_v6_eq : t_call1_v6 (F := Ideal) (C2 txt) (C2 gph) (C2 tW) (C1 tb) (C2 gW) (C1 gb) (C2 ipw) (C1 ipb) (C2 ow) (C1 ob) = C2 fun r k => ((oB txt tW tb ipw ipb ow ob) r k - mean (oB txt tW tb ipw ipb ow ob) r) * ((oB txt tW tb ipw ipb ow ob) r k - mean (oB txt tW tb ipw ipb ow ob) r) := by
  unfold t_call1_v6
  rw [t_call1_v5_eq, mulf_C2]

theorem var2_eq : var2 (F := Ideal) (C2 txt) (C2 gph) (C2 tW) (C1 tb) (C2 gW) (C1 gb) (C2 ipw) (C1 ipb) (C2 ow) (C1 ob) = C2 fun r (_ : Fin 1) => var (oB txt tW tb ipw ipb ow ob) r := by
  unfold var2 t_call1_v8 t_c_14
  rw [t_call1_v6_eq, var_sel]
  refine congrArg C2 (funext fun r => funext fun _ => ?_)
  unfold var
  exact congrArg (· / 768) (Finset.sum_congr rfl fun k _ => (pow_two _).symm)

theorem o2c_eq : o2c (F := Ideal) (C2 txt) (C2 gph) (C2 tW) (C1 tb) (C2 gW) (C1 gb) (C2 ipw) (C1 ipb) (C2 ow) (C1 ob) = C2 fun r k => ((oB txt tW tb ipw ipb ow ob) r k - mean (oB txt tW tb ipw ipb ow ob) r) / Real.sqrt (var (oB txt tW tb ipw ipb ow ob) r + eps) := by
  unfold o2c
  rw [o2_eq, mu2_eq, var2_eq]
  exact cen_read _ _ _ fun r => div_nonneg (Finset.sum_nonneg fun k _ => sq_nonneg _) (by norm_num)

theorem o2n_eq : o2n (F := Ideal) (C2 txt) (C2 gph) (C2 tW) (C1 tb) (C2 gW) (C1 gb) (C2 ipw) (C1 ipb) (C2 ow) (C1 ob) (C1 l2g) (C1 l2b) = C2 (LN (oB txt tW tb ipw ipb ow ob) l2g l2b) := by
  unfold o2n
  rw [o2c_eq]
  exact aff_read _ _ _

theorem fused_eq : RefRun.fused (F := Ideal) (C2 txt) (C2 gph) (C2 tW) (C1 tb) (C2 gW) (C1 gb) (C2 ipw) (C1 ipb) (C2 ow) (C1 ob) (C2 pW) (C1 pb) (C1 l1g) (C1 l1b) (C1 l2g) (C1 l2b) = C2 (Cert.Spec.out txt gph tW tb gW gb ipw ipb ow ob pW pb l1g l1b l2g l2b) := by
  unfold RefRun.fused
  rw [o1n_eq, o2n_eq]
  exact fuse_read _ _ _ _

theorem mu3_eq : mu3 (F := Ideal) (C2 txt) (C2 gph) (C2 tW) (C1 tb) (C2 gW) (C1 gb) (C2 ipw) (C1 ipb) (C2 ow) (C1 ob) (C2 pW) (C1 pb) (C1 l1g) (C1 l1b) (C1 l2g) (C1 l2b) = C2 fun r (_ : Fin 1) => mean (Cert.Spec.out txt gph tW tb gW gb ipw ipb ow ob pW pb l1g l1b l2g l2b) r := by
  unfold mu3
  rw [fused_eq]
  exact rowmean_col _

theorem t_call2_v5_eq : t_call2_v5 (F := Ideal) (C2 txt) (C2 gph) (C2 tW) (C1 tb) (C2 gW) (C1 gb) (C2 ipw) (C1 ipb) (C2 ow) (C1 ob) (C2 pW) (C1 pb) (C1 l1g) (C1 l1b) (C1 l2g) (C1 l2b) = C2 fun r k => (Cert.Spec.out txt gph tW tb gW gb ipw ipb ow ob pW pb l1g l1b l2g l2b) r k - mean (Cert.Spec.out txt gph tW tb gW gb ipw ipb ow ob pW pb l1g l1b l2g l2b) r := by
  unfold t_call2_v5
  rw [fused_eq, rowmean_col, col_bcast, subf_C2]
  rfl

theorem t_call2_v6_eq : t_call2_v6 (F := Ideal) (C2 txt) (C2 gph) (C2 tW) (C1 tb) (C2 gW) (C1 gb) (C2 ipw) (C1 ipb) (C2 ow) (C1 ob) (C2 pW) (C1 pb) (C1 l1g) (C1 l1b) (C1 l2g) (C1 l2b) = C2 fun r k => ((Cert.Spec.out txt gph tW tb gW gb ipw ipb ow ob pW pb l1g l1b l2g l2b) r k - mean (Cert.Spec.out txt gph tW tb gW gb ipw ipb ow ob pW pb l1g l1b l2g l2b) r) * ((Cert.Spec.out txt gph tW tb gW gb ipw ipb ow ob pW pb l1g l1b l2g l2b) r k - mean (Cert.Spec.out txt gph tW tb gW gb ipw ipb ow ob pW pb l1g l1b l2g l2b) r) := by
  unfold t_call2_v6
  rw [t_call2_v5_eq, mulf_C2]

theorem var3_eq : var3 (F := Ideal) (C2 txt) (C2 gph) (C2 tW) (C1 tb) (C2 gW) (C1 gb) (C2 ipw) (C1 ipb) (C2 ow) (C1 ob) (C2 pW) (C1 pb) (C1 l1g) (C1 l1b) (C1 l2g) (C1 l2b) = C2 fun r (_ : Fin 1) => var (Cert.Spec.out txt gph tW tb gW gb ipw ipb ow ob pW pb l1g l1b l2g l2b) r := by
  unfold var3 t_call2_v8 t_c_18
  rw [t_call2_v6_eq, var_sel]
  refine congrArg C2 (funext fun r => funext fun _ => ?_)
  unfold var
  exact congrArg (· / 768) (Finset.sum_congr rfl fun k _ => (pow_two _).symm)

theorem outc_eq : outc (F := Ideal) (C2 txt) (C2 gph) (C2 tW) (C1 tb) (C2 gW) (C1 gb) (C2 ipw) (C1 ipb) (C2 ow) (C1 ob) (C2 pW) (C1 pb) (C1 l1g) (C1 l1b) (C1 l2g) (C1 l2b) = C2 fun r k => ((Cert.Spec.out txt gph tW tb gW gb ipw ipb ow ob pW pb l1g l1b l2g l2b) r k - mean (Cert.Spec.out txt gph tW tb gW gb ipw ipb ow ob pW pb l1g l1b l2g l2b) r) / Real.sqrt (var (Cert.Spec.out txt gph tW tb gW gb ipw ipb ow ob pW pb l1g l1b l2g l2b) r + eps) := by
  unfold outc
  rw [fused_eq, mu3_eq, var3_eq]
  exact cen_read _ _ _ fun r => div_nonneg (Finset.sum_nonneg fun k _ => sq_nonneg _) (by norm_num)

theorem out_eq : RefRun.out (F := Ideal) (C2 txt) (C2 gph) (C2 tW) (C1 tb) (C2 gW) (C1 gb) (C2 ipw) (C1 ipb) (C2 ow) (C1 ob) (C2 pW) (C1 pb) (C1 l1g) (C1 l1b) (C1 l2g) (C1 l2b) (C1 lfg) (C1 lfb) = C2 (LN (Cert.Spec.out txt gph tW tb gW gb ipw ipb ow ob pW pb l1g l1b l2g l2b) lfg lfb) := by
  unfold RefRun.out t_v157
  rw [outc_eq]
  exact aff_read _ _ _

theorem keys_eq : RefRun.keys (F := Ideal) (C2 txt) (C2 gph) (C2 tW) (C1 tb) (C2 gW) (C1 gb) (C2 ipw) (C1 ipb) (C2 ow) (C1 ob) (C2 pW) (C1 pb) (C1 l1g) (C1 l1b) (C1 l2g) (C1 l2b) (C1 lfg) (C1 lfb) = C2 (Cert.Spec.keys txt gph tW tb gW gb ipw ipb ow ob pW pb l1g l1b l2g l2b lfg lfb) := by
  unfold RefRun.keys nrm
  rw [out_eq]
  exact keys_read _

/-- The first result on real arguments is the specification's `keys`, entry by entry. -/
theorem out_keys_eq (r : Fin 4096) (k : Fin 768) :
    out_keys (F := Ideal) (C2 txt) (C2 gph) (C2 tW) (C1 tb) (C2 gW) (C1 gb) (C2 ipw) (C1 ipb) (C2 ow) (C1 ob) (C2 pW) (C1 pb) (C1 l1g) (C1 l1b) (C1 l2g) (C1 l2b) (C1 lfg) (C1 lfb) (C2 queue) ptr (ix2 r k) = ((Cert.Spec.keys txt gph tW tb gW gb ipw ipb ow ob pW pb l1g l1b l2g l2b lfg lfb r k : ℝ) : EReal) := by
  unfold out_keys
  rw [keys_eq]
  rfl

/-- From pointer 0 the advanced pointer is 4096: a closed 32-bit computation. -/
theorem newptr_zero : newptr (F := Ideal) (fun _ => 0#32) = fun _ => Cert.Spec.newPtr := by
  funext i
  unfold newptr ptrm t_call5_v3 t_call5_v2 t_call5_v0 t_v180 t_v167 Cert.Spec.newPtr
  simp [Idealize.ShloMosaic.shapeCast, select, cmpi, andi, addi, Host.remsi, constantI, IntOp.remsi]
  decide +revert

/-- The third result at pointer 0, whatever the float arguments. -/
theorem out_ptr_eq (a0 a1 : FVec Ideal S4096x768 .f32) (a2 : FVec Ideal S768x768 .f32) (a3 : FVec Ideal S768 .f32) (a4 : FVec Ideal S768x768 .f32)
    (a5 : FVec Ideal S768 .f32) (a6 : FVec Ideal S2304x768 .f32) (a7 : FVec Ideal S2304 .f32) (a8 : FVec Ideal S768x768 .f32) (a9 : FVec Ideal S768 .f32)
    (a10 : FVec Ideal S768x1536 .f32) (a11 a12 a13 a14 a15 a16 a17 : FVec Ideal S768 .f32) (a18 : FVec Ideal S768x65536 .f32) :
    out_ptr (F := Ideal) a0 a1 a2 a3 a4 a5 a6 a7 a8 a9 a10 a11 a12 a13 a14 a15 a16 a17 a18 (fun _ => 0#32) = fun _ => Cert.Spec.newPtr := by
  unfold out_ptr
  exact newptr_zero

end Cert.ReferenceIdeal.RefSpec

end
-- ==== Proof.RefScatter.lean ====
/- A scatter that sets (its body returns the update): when every update index lands inside the operand, at an operand
   index its own, each update's target holds that update and every other index keeps the operand. -/
import Idealize.ShloMosaic.PureOps.Ideal
import Idealize.ShloMosaic.Lib.ValueIdx

noncomputable section

namespace Cert.ReferenceIdeal.RefSpec

open Idealize.ShloMosaic

section Fold

variable {α : Type} {s si u : Shape} {w : ℕ}

/-- One update written at its target. -/
def setStep (T : u.Idx → s.Idx) (upd : u.Idx → α) (r : s.Idx → α) (j : u.Idx) : s.Idx → α :=
  fun i' => if i' = T j then upd j else r i'

/-- An index no update of the list targets keeps what it held. -/
theorem foldl_miss (T : u.Idx → s.Idx) (upd : u.Idx → α) :
    ∀ (l : List u.Idx) (r0 : s.Idx → α) (i : s.Idx), (∀ j ∈ l, T j ≠ i) → l.foldl (setStep T upd) r0 i = r0 i
  | [], _, _, _ => rfl
  | j :: l, r0, i, h => by
    rw [List.foldl_cons, foldl_miss T upd l _ i fun j' hj' => h j' (List.mem_cons_of_mem _ hj')]
    unfold setStep
    rw [if_neg fun e => h j List.mem_cons_self e.symm]

/-- With distinct targets, the target of an update of the list holds that update. -/
theorem foldl_hit (T : u.Idx → s.Idx) (hT : Function.Injective T) (upd : u.Idx → α) :
    ∀ (l : List u.Idx) (r0 : s.Idx → α) (j : u.Idx), l.Nodup → j ∈ l → l.foldl (setStep T upd) r0 (T j) = upd j
  | [], _, _, _, hj => nomatch hj
  | j' :: l, r0, j, hnd, hj => by
    rw [List.foldl_cons]
    rcases List.mem_cons.1 hj with rfl | hj
    · rw [foldl_miss T upd l _ (T j) fun j'' hj'' e => (List.nodup_cons.1 hnd).1 (hT e ▸ hj'')]
      unfold setStep
      rw [if_pos rfl]
    · exact foldl_hit T hT upd l _ j (List.nodup_cons.1 hnd).2 hj

/-- The scatter as that fold over the update indices in row-major order. -/
theorem scatter_set (d : ScatterDims s si u) (x : s.Idx → α) (idx : IVec si w) (upd : u.Idx → α) (T : u.Idx → s.Idx)
    (hR : ∀ j, d.resultIdx? j idx = some (T j)) :
    Host.scatter d (fun _ b => b) x idx upd = ((List.finRange u.numel).map u.rowMajor.symm).foldl (setStep T upd) x := by
  unfold Host.scatter
  rw [List.foldl_map]
  refine congrArg (fun f => List.foldl f x (List.finRange u.numel)) (funext fun r => funext fun n => ?_)
  simp only [hR]
  rfl

theorem scatter_hit (d : ScatterDims s si u) (x : s.Idx → α) (idx : IVec si w) (upd : u.Idx → α) (T : u.Idx → s.Idx)
    (hR : ∀ j, d.resultIdx? j idx = some (T j)) (hT : Function.Injective T) (j : u.Idx) :
    Host.scatter d (fun _ b => b) x idx upd (T j) = upd j := by
  rw [scatter_set d x idx upd T hR]
  refine foldl_hit T hT upd _ x j ((List.nodup_finRange _).map u.rowMajor.symm.injective) ?_
  exact List.mem_map.2 ⟨u.rowMajor j, List.mem_finRange _, Equiv.symm_apply_apply _ _⟩

theorem scatter_miss (d : ScatterDims s si u) (x : s.Idx → α) (idx : IVec si w) (upd : u.Idx → α) (T : u.Idx → s.Idx)
    (hR : ∀ j, d.resultIdx? j idx = some (T j)) (i : s.Idx) (h : ∀ j, T j ≠ i) :
    Host.scatter d (fun _ b => b) x idx upd i = x i := by
  rw [scatter_set d x idx upd T hR]
  exact foldl_miss T upd _ x i fun j _ => h j

end Fold

end Cert.ReferenceIdeal.RefSpec

end
-- ==== Proof.RefQueue.lean ====
/- The reference's second result on real arguments at pointer 0 is the specification's `newQueue`: the columns written are
   `0 … 4095`, update `(row, c)` lands at `(row, c)`, distinct updates land apart, so column `c < 4096` holds row `c` of
   `keys` and every other column keeps the queue. -/
import proofs.«211565_g20684562498226_cont_8to1_684_24_alg».proof.Proof.RefSpec
import proofs.«211565_g20684562498226_cont_8to1_684_24_alg».proof.Proof.RefScatter

noncomputable section

namespace Cert.ReferenceIdeal.RefSpec

open Cert.ReferenceIdeal Cert.ReferenceIdeal.Gen Cert.ReferenceIdeal.RefRun Idealize.ShloMosaic Idealize.ShloMosaic.ValueIdx Cert.Spec
open scoped BigOperators

variable (txt gph : Fin 4096 → Fin 768 → ℝ) (tW : Fin 768 → Fin 768 → ℝ) (tb : Fin 768 → ℝ) (gW : Fin 768 → Fin 768 → ℝ) (gb : Fin 768 → ℝ)
  (ipw : Fin 2304 → Fin 768 → ℝ) (ipb : Fin 2304 → ℝ) (ow : Fin 768 → Fin 768 → ℝ) (ob : Fin 768 → ℝ) (pW : Fin 768 → Fin 1536 → ℝ) (pb : Fin 768 → ℝ)
  (l1g l1b l2g l2b lfg lfb : Fin 768 → ℝ) (queue : Fin 768 → Fin 65536 → ℝ)

/-! ## The written columns -/

/-- From pointer 0 the columns written are `0 … 4095`: a 32-bit computation decided for each of the 4096 rows. -/
theorem cols_zero : cols (F := Ideal) (fun _ => 0#32) = fun i => BitVec.ofNat 32 (i 0).val := by
  funext i
  obtain ⟨j, rfl⟩ : ∃ j : Fin 4096, i = ix1 j := ⟨i 0, eq_ix1 i⟩
  unfold cols posm t_call4_v4 t_call4_v2 t_call4_v0 pos t_v167
  simp [Idealize.ShloMosaic.shapeCast, select, cmpi, andi, addi, Host.remsi, constantI, IntOp.remsi, iotaInDim, broadcastInDim]
  revert j
  decide +kernel

theorem toInt_small : ∀ c : Fin 4096, (BitVec.ofNat 32 c.val).toInt = (c.val : Int) := by decide +kernel

/-! ## Where an update lands -/

/-- The target of update `(row, c)`: row `row`, column `c`. -/
def tgt (j : S768x4096.Idx) : S768x65536.Idx :=
  ix2 (n0 := 768) (n1 := 65536) (j 0) ⟨(j 1).val, Nat.lt_of_lt_of_le (idx2_lt1 j) (by norm_num)⟩

theorem tgt_inj : Function.Injective tgt := fun j j' h => by
  have h0 : j 0 = j' 0 := congrFun h 0
  have h1 : (tgt j 1).val = (tgt j' 1).val := congrArg Fin.val (congrFun h 1)
  funext a
  match a with
  | ⟨0, _⟩ => exact h0
  | ⟨1, _⟩ => exact Fin.ext h1

theorem start0 (j : S768x4096.Idx) (idx : IVec S4096x1 32) : scatter_S768x65536_S4096x1_S768x4096_0_1_1_1.start j idx 0 = 0 := by
  unfold ScatterDims.start
  rw [dif_neg (by decide)]
theorem window0 (j : S768x4096.Idx) : scatter_S768x65536_S4096x1_S768x4096_0_1_1_1.window j 0 = (j 0).val := by
  unfold ScatterDims.window
  rw [dif_pos (by decide)]
  rfl
theorem window1 (j : S768x4096.Idx) : scatter_S768x65536_S4096x1_S768x4096_0_1_1_1.window j 1 = 0 := by
  unfold ScatterDims.window
  rw [dif_neg (by decide)]
theorem start1 (j : S768x4096.Idx) (idx : IVec S4096x1 32) :
    scatter_S768x65536_S4096x1_S768x4096_0_1_1_1.start j idx 1 = (idx (ix2 (n0 := 4096) (n1 := 1) (j 1) 0)).toInt := by
  unfold ScatterDims.start
  rw [dif_pos (by decide)]
  refine congrArg (fun k => (idx k).toInt) (funext fun b => Fin.ext ?_)
  match b with
  | ⟨0, _⟩ => rfl
  | ⟨1, _⟩ => rfl

/-- With index `c` at scatter index `c`, update `(row, c)` lands at `(row, c)`. -/
theorem result_tgt (idx : IVec S4096x1 32) (hidx : ∀ c : Fin 4096, idx (ix2 (n0 := 4096) (n1 := 1) c 0) = BitVec.ofNat 32 c.val)
    (j : S768x4096.Idx) : scatter_S768x65536_S4096x1_S768x4096_0_1_1_1.resultIdx? j idx = some (tgt j) := by
  have hs1 : scatter_S768x65536_S4096x1_S768x4096_0_1_1_1.start j idx 1 = ((j 1).val : Int) :=
    (start1 j idx).trans ((congrArg BitVec.toInt (hidx (j 1))).trans (toInt_small (j 1)))
  have h0lt : (j 0).val < 768 := idx2_lt0 j
  have h1lt : (j 1).val < 4096 := idx2_lt1 j
  have hcond : ∀ a, 0 ≤ scatter_S768x65536_S4096x1_S768x4096_0_1_1_1.start j idx a + scatter_S768x65536_S4096x1_S768x4096_0_1_1_1.window j a ∧ scatter_S768x65536_S4096x1_S768x4096_0_1_1_1.start j idx a + scatter_S768x65536_S4096x1_S768x4096_0_1_1_1.window j a < S768x65536.size a := by
    intro a
    match a with
    | ⟨0, _⟩ =>
      show 0 ≤ scatter_S768x65536_S4096x1_S768x4096_0_1_1_1.start j idx 0 + scatter_S768x65536_S4096x1_S768x4096_0_1_1_1.window j 0 ∧ scatter_S768x65536_S4096x1_S768x4096_0_1_1_1.start j idx 0 + (scatter_S768x65536_S4096x1_S768x4096_0_1_1_1.window j 0 : Int) < (768 : Nat)
      rw [start0, window0]; omega
    | ⟨1, _⟩ =>
      show 0 ≤ scatter_S768x65536_S4096x1_S768x4096_0_1_1_1.start j idx 1 + scatter_S768x65536_S4096x1_S768x4096_0_1_1_1.window j 1 ∧ scatter_S768x65536_S4096x1_S768x4096_0_1_1_1.start j idx 1 + (scatter_S768x65536_S4096x1_S768x4096_0_1_1_1.window j 1 : Int) < (65536 : Nat)
      rw [hs1, window1]; omega
  unfold ScatterDims.resultIdx?
  rw [dif_pos hcond]
  refine congrArg some (funext fun a => Fin.ext ?_)
  match a with
  | ⟨0, _⟩ =>
    show (scatter_S768x65536_S4096x1_S768x4096_0_1_1_1.start j idx 0 + (scatter_S768x65536_S4096x1_S768x4096_0_1_1_1.window j 0 : Int)).toNat = (j 0).val
    rw [start0, window0]; omega
  | ⟨1, _⟩ =>
    show (scatter_S768x65536_S4096x1_S768x4096_0_1_1_1.start j idx 1 + (scatter_S768x65536_S4096x1_S768x4096_0_1_1_1.window j 1 : Int)).toNat = (j 1).val
    rw [hs1, window1]; omega

/-! ## The second result -/

/-- The second result on real arguments at pointer 0 is the specification's `newQueue`, entry by entry. -/
theorem out_queue_eq (row : Fin 768) (col : Fin 65536) :
    out_queue (F := Ideal) (C2 txt) (C2 gph) (C2 tW) (C1 tb) (C2 gW) (C1 gb) (C2 ipw) (C1 ipb) (C2 ow) (C1 ob) (C2 pW) (C1 pb) (C1 l1g) (C1 l1b) (C1 l2g) (C1 l2b) (C1 lfg) (C1 lfb) (C2 queue) (fun _ => 0#32) (ix2 row col)
      = ((Cert.Spec.newQueue txt gph tW tb gW gb ipw ipb ow ob pW pb l1g l1b l2g l2b lfg lfb queue row col : ℝ) : EReal) := by
  unfold out_queue RefRun.queue
  rw [cols_zero]
  have hidx : ∀ c : Fin 4096, (broadcastInDim S4096x1 ![0] bcast_S4096_S4096x1_0 (fun i => BitVec.ofNat 32 (i 0).val : IVec S4096 32))
      (ix2 (n0 := 4096) (n1 := 1) c 0) = BitVec.ofNat 32 c.val := fun c =>
    broadcastInDim_apply _ _ _ (ix2 (n0 := 4096) (n1 := 1) c 0) (ix1 c) fun a => by
      match a with
      | ⟨0, _⟩ => rfl
  unfold Cert.Spec.newQueue
  by_cases h : col.val < 4096
  · rw [dif_pos h]
    have e : (ix2 row col : S768x65536.Idx) = tgt (ix2 (n0 := 768) (n1 := 4096) row ⟨col.val, h⟩) := rfl
    rw [e, scatter_hit _ _ _ _ tgt (result_tgt _ hidx) tgt_inj]
    unfold t_v172
    rw [keys_eq, transpose_ix2_apply, C2_ix2]
  · rw [dif_neg h]
    rw [scatter_miss _ _ _ _ tgt (result_tgt _ hidx) (ix2 row col) fun j e => h (by
      have := congrArg Fin.val (congrFun e 1)
      have h1 : (j 1).val < 4096 := idx2_lt1 j
      exact this ▸ h1)]
    rfl

end Cert.ReferenceIdeal.RefSpec

end
-- ==== Proof.RefFin.lean ====
/- From the precondition to real arrays: the printed test is the conjunction, over the nineteen float arguments, of
   "every entry's absolute value is below +∞", and of `0 ≤ ptr ≤ 0`; so every float argument is the coercion of a
   real array and the pointer is 0. -/
import proofs.«211565_g20684562498226_cont_8to1_684_24_alg».proof.Proof.RefRead
import proofs.«211565_g20684562498226_cont_8to1_684_24_alg».proof.Proof.Gen.Pre_input_domain
import Idealize.ShloMosaic.Lib.ReduceAll

noncomputable section

namespace Cert.ReferenceIdeal.RefSpec

open Idealize.ShloMosaic Idealize.ShloMosaic.ValueIdx
open scoped BigOperators

instance : Subsingleton Cert.Pre_input_domain.S_.Idx := ⟨fun a b => funext fun d => d.elim0⟩

/-- An extended real whose absolute value is below the pattern of +∞ is a real. -/
theorem real_of_abs_lt (x : EReal) (h : Ideal.cmp .olt (max x (-x)) (Ideal.ofBits .f32 0x7F800000#32) = 1#1) : ∃ r : ℝ, x = r := by
  have hinf : Ideal.ofBits .f32 0x7F800000#32 = (⊤ : EReal) := by simp [Ideal.ofBits, Ideal.ieee]
  rw [hinf] at h
  have hlt : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  induction x using EReal.rec with
  | bot => exact absurd hlt (by simp)
  | top => exact absurd hlt (by simp)
  | coe r => exact ⟨r, rfl⟩

/-- An array that passes the finiteness test at every index is real-valued. -/
theorem isReal_of_test {s : Shape} (a : FVec Ideal s .f32) (hb : Cert.Pre_input_domain.S_.BroadcastsInDim s (![] : Fin 0 → Fin s.rank))
    (h : ∀ i, cmpf (F := Ideal) .olt (Host.absf (F := Ideal) a) (broadcastInDim s ![] hb (constant (F := Ideal) Cert.Pre_input_domain.S_ .f32 0x7F800000#32)) i = 1#1) :
    IsReal a :=
  ⟨fun i => (a i).toReal, funext fun i => by
    obtain ⟨r, hr⟩ := real_of_abs_lt (a i) (h i)
    show a i = (((a i).toReal : ℝ) : EReal)
    rw [hr, EReal.toReal_coe]⟩

theorem C2_of_isReal {m n : ℕ} {a : FVec Ideal (⟨2, ![m, n]⟩ : Shape) .f32} (h : IsReal a) : ∃ f : Fin m → Fin n → ℝ, a = C2 f := by
  obtain ⟨g, rfl⟩ := h
  exact ⟨fun r k => g (ix2 r k), funext fun j => by rw [eq_ix2 j]; rfl⟩

theorem C1_of_isReal {n : ℕ} {a : FVec Ideal (⟨1, ![n]⟩ : Shape) .f32} (h : IsReal a) : ∃ f : Fin n → ℝ, a = C1 f := by
  obtain ⟨g, rfl⟩ := h
  exact ⟨fun k => g (ix1 k), funext fun j => by rw [eq_ix1 j]; rfl⟩

/-- A 32-bit word that is both `≥ 0` and `≤ 0` as a signed number is 0. -/
theorem zero_of_sge_sle (x : BitVec 32) (h : IntOp.andi (IntOp.cmpi .sge x 0#32) (IntOp.cmpi .sle x 0#32) = 1#1) : x = 0#32 := by
  obtain ⟨h1, h2⟩ := IntOp.andi_eq_one.1 h
  have e1 : (0#32 : BitVec 32).sle x = true := by
    by_contra hc
    have : IntOp.cmpi .sge x 0#32 = 0#1 := by
      show BitVec.ofBool ((0#32 : BitVec 32).sle x) = 0#1
      rw [Bool.eq_false_iff.mpr hc]; rfl
    rw [this] at h1; exact absurd h1 (by decide)
  have e2 : x.sle 0#32 = true := by
    by_contra hc
    have : IntOp.cmpi .sle x 0#32 = 0#1 := by
      show BitVec.ofBool (x.sle 0#32) = 0#1
      rw [Bool.eq_false_iff.mpr hc]; rfl
    rw [this] at h2; exact absurd h2 (by decide)
  rw [BitVec.sle_iff_toInt_le] at e1 e2
  apply BitVec.eq_of_toInt_eq
  have : (0#32 : BitVec 32).toInt = 0 := by decide
  omega

set_option maxHeartbeats 4000000 in
set_option maxRecDepth 8192 in
/-- The precondition read: nineteen real arrays and a zero pointer. -/
theorem reals_of_pre (a0 : FVec Ideal Cert.Pre_input_domain.S4096x768 .f32) (a1 : FVec Ideal Cert.Pre_input_domain.S4096x768 .f32) (a2 : FVec Ideal Cert.Pre_input_domain.S768x768 .f32) (a3 : FVec Ideal Cert.Pre_input_domain.S768 .f32) (a4 : FVec Ideal Cert.Pre_input_domain.S768x768 .f32) (a5 : FVec Ideal Cert.Pre_input_domain.S768 .f32) (a6 : FVec Ideal Cert.Pre_input_domain.S2304x768 .f32) (a7 : FVec Ideal Cert.Pre_input_domain.S2304 .f32) (a8 : FVec Ideal Cert.Pre_input_domain.S768x768 .f32) (a9 : FVec Ideal Cert.Pre_input_domain.S768 .f32) (a10 : FVec Ideal Cert.Pre_input_domain.S768x1536 .f32) (a11 : FVec Ideal Cert.Pre_input_domain.S768 .f32) (a12 : FVec Ideal Cert.Pre_input_domain.S768 .f32) (a13 : FVec Ideal Cert.Pre_input_domain.S768 .f32) (a14 : FVec Ideal Cert.Pre_input_domain.S768 .f32) (a15 : FVec Ideal Cert.Pre_input_domain.S768 .f32) (a16 : FVec Ideal Cert.Pre_input_domain.S768 .f32) (a17 : FVec Ideal Cert.Pre_input_domain.S768 .f32) (a18 : FVec Ideal Cert.Pre_input_domain.S768x65536 .f32) (a19 : IVec Cert.Pre_input_domain.S1 32)
    (h : Cert.Pre_input_domain.fn (F := Ideal) a0 a1 a2 a3 a4 a5 a6 a7 a8 a9 a10 a11 a12 a13 a14 a15 a16 a17 a18 a19 = fun _ => 1#1) :
    (∃ f : Fin 4096 → Fin 768 → ℝ, a0 = C2 f)
      ∧ (∃ f : Fin 4096 → Fin 768 → ℝ, a1 = C2 f)
      ∧ (∃ f : Fin 768 → Fin 768 → ℝ, a2 = C2 f)
      ∧ (∃ f : Fin 768 → ℝ, a3 = C1 f)
      ∧ (∃ f : Fin 768 → Fin 768 → ℝ, a4 = C2 f)
      ∧ (∃ f : Fin 768 → ℝ, a5 = C1 f)
      ∧ (∃ f : Fin 2304 → Fin 768 → ℝ, a6 = C2 f)
      ∧ (∃ f : Fin 2304 → ℝ, a7 = C1 f)
      ∧ (∃ f : Fin 768 → Fin 768 → ℝ, a8 = C2 f)
      ∧ (∃ f : Fin 768 → ℝ, a9 = C1 f)
      ∧ (∃ f : Fin 768 → Fin 1536 → ℝ, a10 = C2 f)
      ∧ (∃ f : Fin 768 → ℝ, a11 = C1 f)
      ∧ (∃ f : Fin 768 → ℝ, a12 = C1 f)
      ∧ (∃ f : Fin 768 → ℝ, a13 = C1 f)
      ∧ (∃ f : Fin 768 → ℝ, a14 = C1 f)
      ∧ (∃ f : Fin 768 → ℝ, a15 = C1 f)
      ∧ (∃ f : Fin 768 → ℝ, a16 = C1 f)
      ∧ (∃ f : Fin 768 → ℝ, a17 = C1 f)
      ∧ (∃ f : Fin 768 → Fin 65536 → ℝ, a18 = C2 f)
      ∧ a19 = fun _ => 0#32 := by
  have h0 := congrFun h ValueIdx.ix0
  unfold Cert.Pre_input_domain.fn Cert.Pre_input_domain.fn_part1 Cert.Pre_input_domain.fn_part2 Cert.Pre_input_domain.fn_part3
    Cert.Pre_input_domain.fn_part4 Cert.Pre_input_domain.fn_part5 at h0
  dsimp only at h0
  obtain ⟨h0, t19⟩ := IntOp.andi_eq_one.1 h0
  obtain ⟨h0, t18⟩ := IntOp.andi_eq_one.1 h0
  obtain ⟨h0, t17⟩ := IntOp.andi_eq_one.1 h0
  obtain ⟨h0, t16⟩ := IntOp.andi_eq_one.1 h0
  obtain ⟨h0, t15⟩ := IntOp.andi_eq_one.1 h0
  obtain ⟨h0, t14⟩ := IntOp.andi_eq_one.1 h0
  obtain ⟨h0, t13⟩ := IntOp.andi_eq_one.1 h0
  obtain ⟨h0, t12⟩ := IntOp.andi_eq_one.1 h0
  obtain ⟨h0, t11⟩ := IntOp.andi_eq_one.1 h0
  obtain ⟨h0, t10⟩ := IntOp.andi_eq_one.1 h0
  obtain ⟨h0, t9⟩ := IntOp.andi_eq_one.1 h0
  obtain ⟨h0, t8⟩ := IntOp.andi_eq_one.1 h0
  obtain ⟨h0, t7⟩ := IntOp.andi_eq_one.1 h0
  obtain ⟨h0, t6⟩ := IntOp.andi_eq_one.1 h0
  obtain ⟨h0, t5⟩ := IntOp.andi_eq_one.1 h0
  obtain ⟨h0, t4⟩ := IntOp.andi_eq_one.1 h0
  obtain ⟨h0, t3⟩ := IntOp.andi_eq_one.1 h0
  obtain ⟨h0, t2⟩ := IntOp.andi_eq_one.1 h0
  obtain ⟨h0, t1⟩ := IntOp.andi_eq_one.1 h0
  refine ⟨C2_of_isReal (isReal_of_test _ _ (Host.reduce_andi_all _ _ _ _ _ h0)),
    C2_of_isReal (isReal_of_test _ _ (Host.reduce_andi_all _ _ _ _ _ t1)),
    C2_of_isReal (isReal_of_test _ _ (Host.reduce_andi_all _ _ _ _ _ t2)),
    C1_of_isReal (isReal_of_test _ _ (Host.reduce_andi_all _ _ _ _ _ t3)),
    C2_of_isReal (isReal_of_test _ _ (Host.reduce_andi_all _ _ _ _ _ t4)),
    C1_of_isReal (isReal_of_test _ _ (Host.reduce_andi_all _ _ _ _ _ t5)),
    C2_of_isReal (isReal_of_test _ _ (Host.reduce_andi_all _ _ _ _ _ t6)),
    C1_of_isReal (isReal_of_test _ _ (Host.reduce_andi_all _ _ _ _ _ t7)),
    C2_of_isReal (isReal_of_test _ _ (Host.reduce_andi_all _ _ _ _ _ t8)),
    C1_of_isReal (isReal_of_test _ _ (Host.reduce_andi_all _ _ _ _ _ t9)),
    C2_of_isReal (isReal_of_test _ _ (Host.reduce_andi_all _ _ _ _ _ t10)),
    C1_of_isReal (isReal_of_test _ _ (Host.reduce_andi_all _ _ _ _ _ t11)),
    C1_of_isReal (isReal_of_test _ _ (Host.reduce_andi_all _ _ _ _ _ t12)),
    C1_of_isReal (isReal_of_test _ _ (Host.reduce_andi_all _ _ _ _ _ t13)),
    C1_of_isReal (isReal_of_test _ _ (Host.reduce_andi_all _ _ _ _ _ t14)),
    C1_of_isReal (isReal_of_test _ _ (Host.reduce_andi_all _ _ _ _ _ t15)),
    C1_of_isReal (isReal_of_test _ _ (Host.reduce_andi_all _ _ _ _ _ t16)),
    C1_of_isReal (isReal_of_test _ _ (Host.reduce_andi_all _ _ _ _ _ t17)),
    C2_of_isReal (isReal_of_test _ _ (Host.reduce_andi_all _ _ _ _ _ t18)),
    funext fun i => ?_⟩
  exact zero_of_sge_sle (a19 i) (Host.reduce_andi_all _ _ _ _ _ t19 i)

end Cert.ReferenceIdeal.RefSpec

end
-- ==== Proof.RefFinal.lean ====
/- The reference's results under the precondition, against the specification. -/
import proofs.«211565_g20684562498226_cont_8to1_684_24_alg».proof.Proof.RefQueue
import proofs.«211565_g20684562498226_cont_8to1_684_24_alg».proof.Proof.RefFin

noncomputable section

namespace Cert.ReferenceIdeal.RefSpec

open Cert.ReferenceIdeal Cert.ReferenceIdeal.RefRun Idealize.ShloMosaic Idealize.ShloMosaic.ValueIdx

/-- Under the precondition the reference's three results are the specification's, at real arrays that the arguments
    are the coercions of: `keys` and `newQueue` entry by entry, the pointer 4096. -/
theorem ref_results (a0 : FVec Ideal S4096x768 .f32) (a1 : FVec Ideal S4096x768 .f32) (a2 : FVec Ideal S768x768 .f32) (a3 : FVec Ideal S768 .f32) (a4 : FVec Ideal S768x768 .f32) (a5 : FVec Ideal S768 .f32) (a6 : FVec Ideal S2304x768 .f32) (a7 : FVec Ideal S2304 .f32) (a8 : FVec Ideal S768x768 .f32) (a9 : FVec Ideal S768 .f32) (a10 : FVec Ideal S768x1536 .f32) (a11 : FVec Ideal S768 .f32) (a12 : FVec Ideal S768 .f32) (a13 : FVec Ideal S768 .f32) (a14 : FVec Ideal S768 .f32) (a15 : FVec Ideal S768 .f32) (a16 : FVec Ideal S768 .f32) (a17 : FVec Ideal S768 .f32) (a18 : FVec Ideal S768x65536 .f32) (a19 : IVec S1 32)
    (h : Cert.Pre_input_domain.fn (F := Ideal) a0 a1 a2 a3 a4 a5 a6 a7 a8 a9 a10 a11 a12 a13 a14 a15 a16 a17 a18 a19 = fun _ => 1#1) :
    ∃ (txt gph : Fin 4096 → Fin 768 → ℝ) (tW : Fin 768 → Fin 768 → ℝ) (tb : Fin 768 → ℝ) (gW : Fin 768 → Fin 768 → ℝ) (gb : Fin 768 → ℝ)
      (ipw : Fin 2304 → Fin 768 → ℝ) (ipb : Fin 2304 → ℝ) (ow : Fin 768 → Fin 768 → ℝ) (ob : Fin 768 → ℝ) (pW : Fin 768 → Fin 1536 → ℝ) (pb : Fin 768 → ℝ)
      (l1g l1b l2g l2b lfg lfb : Fin 768 → ℝ) (queue : Fin 768 → Fin 65536 → ℝ),
      (a0 = C2 txt ∧ a1 = C2 gph ∧ a2 = C2 tW ∧ a3 = C1 tb ∧ a4 = C2 gW ∧ a5 = C1 gb ∧ a6 = C2 ipw ∧ a7 = C1 ipb ∧ a8 = C2 ow ∧ a9 = C1 ob ∧ a10 = C2 pW ∧ a11 = C1 pb ∧ a12 = C1 l1g ∧ a13 = C1 l1b ∧ a14 = C1 l2g ∧ a15 = C1 l2b ∧ a16 = C1 lfg ∧ a17 = C1 lfb ∧ a18 = C2 queue ∧ a19 = fun _ => 0#32)
      ∧ (∀ (r : Fin 4096) (k : Fin 768), out_keys (F := Ideal) a0 a1 a2 a3 a4 a5 a6 a7 a8 a9 a10 a11 a12 a13 a14 a15 a16 a17 a18 a19 (ix2 r k) = ((Cert.Spec.keys txt gph tW tb gW gb ipw ipb ow ob pW pb l1g l1b l2g l2b lfg lfb r k : ℝ) : EReal))
      ∧ (∀ (row : Fin 768) (col : Fin 65536), out_queue (F := Ideal) a0 a1 a2 a3 a4 a5 a6 a7 a8 a9 a10 a11 a12 a13 a14 a15 a16 a17 a18 a19 (ix2 row col) = ((Cert.Spec.newQueue txt gph tW tb gW gb ipw ipb ow ob pW pb l1g l1b l2g l2b lfg lfb queue row col : ℝ) : EReal))
      ∧ out_ptr (F := Ideal) a0 a1 a2 a3 a4 a5 a6 a7 a8 a9 a10 a11 a12 a13 a14 a15 a16 a17 a18 a19 = fun _ => Cert.Spec.newPtr := by
  obtain ⟨⟨txt, rfl⟩, ⟨gph, rfl⟩, ⟨tW, rfl⟩, ⟨tb, rfl⟩, ⟨gW, rfl⟩, ⟨gb, rfl⟩, ⟨ipw, rfl⟩, ⟨ipb, rfl⟩, ⟨ow, rfl⟩, ⟨ob, rfl⟩, ⟨pW, rfl⟩, ⟨pb, rfl⟩, ⟨l1g, rfl⟩, ⟨l1b, rfl⟩, ⟨l2g, rfl⟩, ⟨l2b, rfl⟩, ⟨lfg, rfl⟩, ⟨lfb, rfl⟩, ⟨queue, rfl⟩, rfl⟩ := reals_of_pre a0 a1 a2 a3 a4 a5 a6 a7 a8 a9 a10 a11 a12 a13 a14 a15 a16 a17 a18 a19 h
  exact ⟨txt, gph, tW, tb, gW, gb, ipw, ipb, ow, ob, pW, pb, l1g, l1b, l2g, l2b, lfg, lfb, queue, ⟨rfl, rfl, rfl, rfl, rfl, rfl, rfl, rfl, rfl, rfl, rfl, rfl, rfl, rfl, rfl, rfl, rfl, rfl, rfl, rfl⟩,
    fun r k => out_keys_eq txt gph tW tb gW gb ipw ipb ow ob pW pb l1g l1b l2g l2b lfg lfb queue _ r k,
    fun row col => out_queue_eq txt gph tW tb gW gb ipw ipb ow ob pW pb l1g l1b l2g l2b lfg lfb queue row col,
    out_ptr_eq ..⟩

end Cert.ReferenceIdeal.RefSpec

end
-- ==== Proof.RegionsValData.lean ====
/-
  What the three regions share when the output arrays' final contents are NAMED (exact proof data): how the thread's
  tally enters and leaves a pipeline, and how the pipeline's arrays at their final contents and the rest of the unscoped
  buffers are put together again at exit, as one valuation that holds at each window's array what the proof data names.
-/
import proofs.«211565_g20684562498226_cont_8to1_684_24_alg».proof.Proof.Setup
import proofs.«211565_g20684562498226_cont_8to1_684_24_alg».proof.Proof.Gen.KernelIdeal.Points
import Idealize.ShloMosaic.Lib.Pipeline.Frame
import proofs.«211565_g20684562498226_cont_8to1_684_24_alg».proof.Proof.Regions
import Idealize.ShloMosaic.Lib.Pipeline.Value
import Idealize.ShloMosaic.Lib.Pipeline.FrameBody
import Idealize.ShloMosaic.Lib.ValueIdx

noncomputable section

namespace Cert.KernelIdeal.Hand

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## Exact proof data: the thread's tally, in and out of a pipeline's own form -/

theorem owesAtV_intro {cfg : Pipeline.Cfg sig Λ₀} {c : Dev nD} (dat : Pipeline.Dat τ (Elt F) (HIx 1) ℕ UU ℕ cfg c)
    (WW : Waits sig (HIx 1)) (OO : CellTallies nD τ sig (HIx 1)) (t : Fin (cfg.N + 1))
    (howed : dat.owed t = OO) (hrec : dat.recorded t = recB WW) :
    owesT WW OO c ⊢ (dat.owesAt none t : sProp 𝕄) := by
  unfold owesT Pipeline.Dat.owesAt Pipeline.owesWithin Pipeline.Dat.bound
  rw [howed, hrec]
  iintro ⟨%W', %h, HO⟩
  iexists W'; isplitr
  · ipureintro; exact fun x hx => Or.inl (h x (Finset.mem_coe.mp hx))
  iexact HO

theorem owesAtV_elim {cfg : Pipeline.Cfg sig Λ₀} {c : Dev nD} (dat : Pipeline.Dat τ (Elt F) (HIx 1) ℕ UU ℕ cfg c)
    (WW : Waits sig (HIx 1)) (OO : CellTallies nD τ sig (HIx 1)) (t : Fin (cfg.N + 1))
    (howed : dat.owed t = OO) (hrec : dat.recorded t = recB WW) :
    (dat.owesAt none t : sProp 𝕄) ⊢ owesT WW OO c := by
  unfold owesT Pipeline.Dat.owesAt Pipeline.owesWithin Pipeline.Dat.bound
  rw [howed, hrec]
  iintro ⟨%W', %h, HO⟩
  iexists W'; isplitr
  · ipureintro
    intro x hx
    rcases h (Finset.mem_coe.mpr hx) with h' | ⟨w, s, rfl⟩
    · exact h'
    · exact Or.inr rfl
  iexact HO

/-! ## Exit with the arrays' final contents named -/

/-- An unscoped buffer at some contents: those it was entered at if it is no output window's array, and the final
    contents the proof data names if it is a window's array. -/
abbrev someAtV {cfg : Pipeline.Cfg sig Λ₀} {c : Dev nD} (dat : Pipeline.Dat τ (Elt F) (HIx 1) ℕ UU ℕ cfg c) (Vc : Valuation τ sig (Elt F)) (n : ℕ)
    (b : DevRef τ sig) (f : b.ty.Contents (Elt F)) : sProp 𝕄 :=
  iprop(⌜(b ∉ outs cfg → f = Vc b) ∧ ∀ w, b = Proc.devRef (τ := τ) .tc (Pipeline.arrRef cfg.spec w) → HEq f (dat.arrAt w n)⌝
    ∗ ((c, b) : Loc nD τ sig) ↦{fullShare} f)

theorem exit_arrV {cfg : Pipeline.Cfg sig Λ₀} {c : Dev nD} (dat : Pipeline.Dat τ (Elt F) (HIx 1) ℕ UU ℕ cfg c) (Vc : Valuation τ sig (Elt F))
    (hshare : ∀ w, dat.share w = fullShare) (hA : ∀ w, dat.A w = Vc (Pipeline.arrRef cfg.spec w))
    (hw : Pipeline.WinFacts cfg.spec) (harr : ∀ w, (cfg.spec w).arr.IsWhole) (n : ℕ) (w : Fin cfg.W) :
    ((cfg.win w).arr.view.loc (c.tc : Thread nD τ) ↦[(cfg.win w).arr.view.set]{dat.share w} dat.arrAt w n : sProp 𝕄)
      ⊢ iprop(∃ f, someAtV dat Vc n (Proc.devRef (τ := τ) .tc (Pipeline.arrRef cfg.spec w)) f) := by
  rw [(harr w).set_eq_univ, hshare]
  unfold someAtV
  iintro H
  iexists dat.arrAt w n; isplitr
  · ipureintro
    refine ⟨fun hno => ?_, fun w' hw' => ?_⟩
    · have hin : (cfg.win w).isOut = false := by
        cases h : (cfg.win w).isOut
        · rfl
        · exact absurd (Finset.mem_image.mpr ⟨w, Finset.mem_filter.mpr ⟨Finset.mem_univ _, h⟩, rfl⟩) hno
      rw [dat.arrAt_in w hin n]; exact hA w
    · obtain rfl : w = w' := hw.arr_inj (Proc.devRef_injective _ hw')
      exact HEq.rfl
  iexact H

theorem exit_restV {cfg : Pipeline.Cfg sig Λ₀} {c : Dev nD} (dat : Pipeline.Dat τ (Elt F) (HIx 1) ℕ UU ℕ cfg c) (Vc : Valuation τ sig (Elt F)) (n : ℕ)
    (b : Ref sig .tc) (hb : b ∉ Finset.univ.image (Pipeline.arrRef cfg.spec)) :
    ((((c.tc : Thread nD τ).loc b) ↦{fullShare} Vc b) : sProp 𝕄) ⊢ iprop(∃ f, someAtV dat Vc n (Proc.devRef (τ := τ) .tc b) f) := by
  unfold someAtV
  iintro H; iexists Vc b; isplitr
  · ipureintro
    refine ⟨fun _ => rfl, fun w' hw' => ?_⟩
    exact absurd (Finset.mem_image.mpr ⟨w', Finset.mem_univ _, (Proc.devRef_injective _ hw').symm⟩) hb
  iexact H

theorem exit_stepV {cfg : Pipeline.Cfg sig Λ₀} {c : Dev nD} (dat : Pipeline.Dat τ (Elt F) (HIx 1) ℕ UU ℕ cfg c) (Vc : Valuation τ sig (Elt F))
    (hshare : ∀ w, dat.share w = fullShare) (hA : ∀ w, dat.A w = Vc (Pipeline.arrRef cfg.spec w))
    (hw : Pipeline.WinFacts cfg.spec) (harr : ∀ w, (cfg.spec w).arr.IsWhole) (n : ℕ) :
    iprop(dat.arrays (dat.arrAt · n) ∗ Pipeline.unscopedRest cfg.spec c (fun b => Vc b))
      ⊢ (bigSep (Pipeline.ucRefs τ sig) fun b => iprop(∃ f, someAtV dat Vc n b f) : sProp 𝕄) := by
  classical
  have hsub : Finset.univ.map ⟨Pipeline.arrRef cfg.spec, hw.arr_inj⟩ ⊆ Finset.univ.filter fun b : Ref sig .tc => ¬ b.isScoped := fun b hb => by
    obtain ⟨w, -, rfl⟩ := Finset.mem_map.mp hb
    exact Finset.mem_filter.mpr ⟨Finset.mem_univ _, by simp [hw.arr_unscoped w]⟩
  rw [ucRefs_bigSep, bigSep_sdiff_split hsub, bigSep_map, Finset.map_eq_image]
  unfold Pipeline.Dat.arrays Pipeline.unscopedRest
  exact BIClass.sep_mono (bigSep_mono fun w _ => exit_arrV dat Vc hshare hA hw harr n w)
    (bigSep_mono fun b hb => exit_restV dat Vc n b (Finset.mem_sdiff.mp hb).2)

/-- After the write-backs, the pipeline's arrays at the contents the proof data names and the unscoped buffers that are
    no window's array are all the unscoped buffers at a valuation that agrees with the entry valuation off the output
    windows' arrays and holds, at each window's array, what the proof data names. -/
theorem exit_heldV {cfg : Pipeline.Cfg sig Λ₀} {c : Dev nD} (dat : Pipeline.Dat τ (Elt F) (HIx 1) ℕ UU ℕ cfg c) (Vc : Valuation τ sig (Elt F))
    (hshare : ∀ w, dat.share w = fullShare) (hA : ∀ w, dat.A w = Vc (Pipeline.arrRef cfg.spec w))
    (hw : Pipeline.WinFacts cfg.spec) (harr : ∀ w, (cfg.spec w).arr.IsWhole) (n : ℕ) :
    iprop(dat.arrays (dat.arrAt · n) ∗ Pipeline.unscopedRest cfg.spec c (fun b => Vc b))
      ⊢ (iprop(∃ V' : Valuation τ sig (Elt F), ⌜(∀ b, b ∉ outs cfg → V' b = Vc b)
            ∧ ∀ w, V' (Proc.devRef (τ := τ) .tc (Pipeline.arrRef cfg.spec w)) = dat.arrAt w n⌝
          ∗ StableHlo.held (SparseCore.T c) (Pipeline.ucRefs τ sig) V') : sProp 𝕄) := by
  classical
  refine (exit_stepV dat Vc hshare hA hw harr n).trans ?_
  refine (bigSep_exists_pi (Pipeline.ucRefs τ sig) (fun (b : DevRef τ sig) (f : b.ty.Contents (Elt F)) => someAtV dat Vc n b f)).trans ?_
  unfold someAtV
  iintro ⟨%V', H⟩
  ihave H2 := (bigSep_pure_sep (Pipeline.ucRefs τ sig)
    (fun b => (b ∉ outs cfg → V' b = Vc b) ∧ ∀ w, b = Proc.devRef (τ := τ) .tc (Pipeline.arrRef cfg.spec w) → HEq (V' b) (dat.arrAt w n))
    (fun b => ((((c, b) : Loc nD τ sig) ↦{fullShare} V' b) : sProp 𝕄))) $$ H
  icases H2 with ⟨%h, H⟩
  iexists (fun b => if b ∈ Pipeline.ucRefs τ sig then V' b else Vc b)
  isplitr
  · ipureintro
    refine ⟨fun b hb => ?_, fun w => ?_⟩
    · by_cases hm : b ∈ Pipeline.ucRefs τ sig
      · show (if b ∈ Pipeline.ucRefs τ sig then V' b else Vc b) = Vc b
        rw [if_pos hm]; exact (h b hm).1 hb
      · show (if b ∈ Pipeline.ucRefs τ sig then V' b else Vc b) = Vc b
        rw [if_neg hm]
    · have hm : Proc.devRef (τ := τ) .tc (Pipeline.arrRef cfg.spec w) ∈ Pipeline.ucRefs τ sig :=
        Finset.mem_filter.mpr ⟨StableHlo.devRef_mem_tcRefs _, by
          rw [Proc.isScoped_devRef, hw.arr_unscoped w]; exact Bool.false_ne_true⟩
      show (if Proc.devRef (τ := τ) .tc (Pipeline.arrRef cfg.spec w) ∈ Pipeline.ucRefs τ sig then V' _ else Vc _) = dat.arrAt w n
      rw [if_pos hm]; exact eq_of_heq ((h _ hm).2 w rfl)
  unfold StableHlo.held
  iapply (Entails.of_eq (bigSep_congr (fun b hb => by rw [if_pos hb]) :
    (bigSep (Pipeline.ucRefs τ sig) fun b => ((((c, b) : Loc nD τ sig) ↦{fullShare} V' b) : sProp 𝕄))
      = bigSep (Pipeline.ucRefs τ sig) fun b => ((((c, b) : Loc nD τ sig) ↦{fullShare} (if b ∈ Pipeline.ucRefs τ sig then V' b else Vc b)) : sProp 𝕄)))
  iexact H

/-- Proof data that names nothing: for the pipelines a region's family does not speak of. -/
def datTriv (cfg : Pipeline.Cfg sig Λ₀) (c : Dev nD) : Pipeline.Dat τ (Elt F) (HIx 1) ℕ UU ℕ cfg c where
  A _ := Classical.arbitrary _
  after w t := Pipeline.Dat.unnamed w t
  Φ _ := iprop(emp)
  q _ := fullShare
  owed _ := 0

theorem hz2 : (![0, 0] : Fin 2 → Nat) = fun _ => 0 := funext fun a => by fin_cases a <;> rfl

end Cert.KernelIdeal.Hand

end
-- ==== Proof.RegionsVal2.lean ====
/-
  The third TensorCore pallas_call with its output array's final contents named: the exact proof data (the input's
  staging buffer keeps its block, the output's ends at the body's payload of it), the body with what it leaves, the
  output array after the two write-backs in closed form — the narrow input array on the first 4096 columns, the wide
  array's own entry contents on the others —, and the region's step.
-/
import proofs.«211565_g20684562498226_cont_8to1_684_24_alg».proof.Proof.Setup
import proofs.«211565_g20684562498226_cont_8to1_684_24_alg».proof.Proof.Gen.KernelIdeal.Points
import Idealize.ShloMosaic.Lib.Pipeline.Frame
import proofs.«211565_g20684562498226_cont_8to1_684_24_alg».proof.Proof.RegionsValData

noncomputable section

namespace Cert.KernelIdeal.Hand

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The third pallas_call with its output array's final contents named -/

variable (VV : Dev nD → Valuation τ sig (Elt F)) (WW : Waits sig (HIx 1)) (OO : CellTallies nD τ sig (HIx 1))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (VV c (Pipeline.arrRef spec3 w))

/-- The exact proof data: the input's staging buffer keeps its block, the output's ends at the body's payload of it. -/
def datV3 (c : Dev nD) : Pipeline.Dat τ (Elt F) (HIx 1) ℕ UU ℕ cfg3 c where
  A w := VV c (Pipeline.arrRef spec3 w)
  after w t := match w with
    | ⟨0, _⟩ => iblk3 VV c 0 t
    | ⟨1, _⟩ => k3_pay1 (iblk3 VV c 0 t)
  Φ _ := Pipeline.scopedRest spec3 c
  q _ := fullShare
  owed _ := OO
  recorded _ := recB WW

/-- The family the region is stated over: the third pipeline's data, nothing said of the others. -/
def pdatsV2 : (p : Fin 3) → (c : Dev nD) → Pipeline.Dat τ (Elt F) (HIx 1) ℕ UU ℕ (Pipeline.pin (pcfgs (F := F)) adm p) c
  | 0 => fun c => datTriv cfg0 c
  | 1 => fun c => datTriv cfg2 c
  | 2 => fun c => datV3 VV WW OO c

theorem after3_0 (c : Dev nD) (t : Fin cfg3.N) : (datV3 VV WW OO c).after 0 t = iblk3 VV c 0 t := by dsimp only [datV3]
theorem after3_1 (c : Dev nD) (t : Fin cfg3.N) : (datV3 VV WW OO c).after 1 t = k3_pay1 (iblk3 VV c 0 t) := by dsimp only [datV3]

/-- The input's current staging buffer holds its block at every point. -/
theorem before3_0 (c : Dev nD) (t : Fin cfg3.N) (d) : (datV3 VV WW OO c).before 0 t d = iblk3 VV c 0 t :=
  ((datV3 VV WW OO c).before_in_eq_fetched 0 rfl (fun _ => rfl) (fun _ _ _ => rfl)
    (fun t => by rw [after3_0]; unfold Pipeline.Dat.blockOf iblk3; rfl) t d).trans
    (by unfold Pipeline.Dat.fetched Pipeline.Dat.blockOf iblk3; rfl)

set_option maxHeartbeats 1000000 in
/-- The body on any staging memrefs, with what it leaves: the input block as it was, the output block at the payload. -/
theorem run3v (c : Dev nD) (i : grid3.Coords) (arg1 : Memref sig .tc .hbm S768x65536 .f32) (harg1 : arg1.IsWhole)
    (arg2 : Memref sig .tc .vmem S768x2048 .f32) (harg2 : arg2.IsWhole) (arg3 : Memref sig .tc .vmem S768x2048 .f32) (harg3 : arg3.IsWhole)
    (x2 : Vec F S768x2048 .f32) (E : Set ℕ) (Q : PUnit → sProp 𝕄) :
    iprop(owns (c : Thread nD τ) arg2 fullShare x2 ∗ (∃ d, owns (c : Thread nD τ) arg3 fullShare d)
        ∗ (iprop(owns (c : Thread nD τ) arg2 fullShare x2 ∗ owns (c : Thread nD τ) arg3 fullShare (k3_pay1 x2)) -∗ Q ⟨⟩))
      ⊢ wp frame (wpE (defs₀ (F := F)) Variants.none c none) E (cc3__enqueue_body i arg1 harg1 arg2 harg2 arg3 harg3) Q := by
  simp only [cc3__enqueue_body_eq_skeleton]; unfold cc3__enqueue_body_skel
  unfold owns
  iintro ⟨⟨%f2, %hf2, H2⟩, ⟨%d3, %f3, -, H3⟩, Hk⟩
  obtain rfl := harg2.eq_unread hf2
  sl_exec
  sl_step
  iapply Hk
  isplitl [H2]
  · iexists _; isplitr
    · ipureintro; exact harg2.read_unread _
    iexact H2
  iexists _; isplitr
  swap
  · iexact H3
  ipureintro
  rw [View.read_writes_eq_canon _ _ _ (fun y => ⟨_, List.mem_singleton_self _, View.mem_set_unit_zero hz2 inb_S768x2048_S768x2048_0_0 y⟩), View.canon_unit_zero hz2,
    View.readAt_eq_ld, harg2.read_unread, View.ld_unit_zero hz2]

/-- The body at any point. -/
theorem sound_body3v (c : Dev nD) (t : Fin cfg3.N) :
    iprop((datV3 VV WW OO c).Φ t.castSucc ∗ (datV3 VV WW OO c).owesAt none t.castSucc
        ∗ (∃ d, owns (c : Thread nD τ) (Gen.st3_0 t) fullShare ((datV3 VV WW OO c).before 0 t d))
        ∗ (∃ d, owns (c : Thread nD τ) (Gen.st3_1 t) fullShare ((datV3 VV WW OO c).before 1 t d)))
      ⊢ wp frame (wpE (defs₀ (F := F)) Variants.none c none) Set.univ (Gen.bodyAt3 t) (fun _ =>
          iprop((datV3 VV WW OO c).Φ t.succ ∗ (datV3 VV WW OO c).owesAt none t.succ
            ∗ owns (c : Thread nD τ) (Gen.st3_0 t) fullShare ((datV3 VV WW OO c).after 0 t)
            ∗ owns (c : Thread nD τ) (Gen.st3_1 t) fullShare ((datV3 VV WW OO c).after 1 t))) := by
  simp only [before3_0]
  rw [show (datV3 VV WW OO c).Φ t.succ = (datV3 VV WW OO c).Φ t.castSucc from rfl,
    show (datV3 VV WW OO c).owesAt none t.succ = (datV3 VV WW OO c).owesAt none t.castSucc from rfl, after3_0, after3_1]
  iintro ⟨HΦ, HO, ⟨%d0, H0⟩, ⟨%d1, H1⟩⟩
  iapply (run3v c _ _ _ _ _ _ _ (iblk3 VV c 0 t) Set.univ _)
  isplitl [H0]; · iexact H0
  isplitl [H1]; · iexists _; iexact H1
  iintro ⟨H0, H1⟩
  isplitl [HΦ]; · iexact HΦ
  isplitl [HO]; · iexact HO
  isplitl [H0]; · iexact H0
  iexact H1

theorem body_obligation3v (c : Dev nD) : Pipeline.BodyObligation (datV3 VV WW OO c) (defs₀ (F := F)) 𝒱₀ (none : HIx 1) Set.univ := fun t => by
  rw [Gen.bigSep_W3, Gen.bigSep_W3]
  exact sound_body3v VV WW OO c t

/-! ## The output array after the region, in closed form -/

/-- The body's payload is a reshape to the same shape. -/
theorem k3_pay1_eq (x : Vec F S768x2048 .f32) : k3_pay1 x = x := by
  unfold k3_pay1; exact shapeCast_self _ _

/-- The input's (768 × 4096) and the output's (768 × 65536) arrays as the region finds them. -/
abbrev in3 (c : Dev nD) : S768x4096.Idx → Elt F .f32 := VV c (Proc.devRef (τ := τ) .tc main_v17_1)
abbrev out3 (c : Dev nD) : S768x65536.Idx → Elt F .f32 := VV c (Proc.devRef (τ := τ) .tc main_v18)

/-- An index of the wide array within the first 4096 columns, as an index of the narrow one: same row, same column. -/
def colIx (i : S768x65536.Idx) (h : (i 1).val < 4096) : S768x4096.Idx :=
  ValueIdx.ix2 (⟨(i 0).val, (i 0).isLt⟩ : Fin 768) (⟨(i 1).val, h⟩ : Fin 4096)

/-- What the output array ends holding: the input's array on the first 4096 columns, its own entry contents elsewhere. -/
def G3 (c : Dev nD) : S768x65536.Idx → Elt F .f32 :=
  fun i => if h : (i 1).val < 4096 then in3 VV c (colIx i h) else out3 VV c i

/-- Both windows sit at block `(0, t)` at point `t`. -/
theorem idx_facts3 : ∀ t : Fin cfg3.N, win3_0.index t (0 : Fin 2) = 0 ∧ win3_0.index t (1 : Fin 2) = t.val
    ∧ win3_1.index t (0 : Fin 2) = 0 ∧ win3_1.index t (1 : Fin 2) = t.val ∧ t.val < 2 :=
  (by decide +kernel : ∀ t : Fin grid3.N, _)

/-- What point `t` writes back is block `t` of `G3`. -/
theorem flushed3_eq (c : Dev nD) (t : Fin cfg3.N) :
    (datV3 VV WW OO c).flushed 1 t = ((cfg3.win 1).blk t).view.read (Elt F) (G3 VV c) := by
  show (cfg3.win 1).cut (grid3.coords t) ((datV3 VV WW OO c).after 1 t) = _
  rw [after3_1, k3_pay1_eq]
  obtain ⟨e0, e1, e2, e3, e4⟩ := idx_facts3 t
  funext j
  have hj0 : (j 0).val < 768 := (j 0).isLt
  have hj1 : (j 1).val < 2048 := (j 1).isLt
  have k0 : ((((cfg3.win 1).blk t).view.emb j) 0).val = win3_1.index t (0 : Fin 2) * 768 + 1 * (j 0).val := rfl
  have k1 : ((((cfg3.win 1).blk t).view.emb j) 1).val = win3_1.index t (1 : Fin 2) * 2048 + 1 * (j 1).val := rfl
  have hlt : ((((cfg3.win 1).blk t).view.emb j) 1).val < 4096 := by rw [k1]; omega
  show in3 VV c (((cfg3.win 0).blk t).view.emb j) = G3 VV c (((cfg3.win 1).blk t).view.emb j)
  unfold G3
  rw [dif_pos hlt]
  have h0 : ((cfg3.win 0).blk t).view.emb j = colIx (((cfg3.win 1).blk t).view.emb j) hlt := by
    funext a; apply Fin.ext
    match a with
    | ⟨0, _⟩ =>
      show win3_0.index t (0 : Fin 2) * 768 + 1 * (j 0).val = ((((cfg3.win 1).blk t).view.emb j) 0).val
      rw [k0]; omega
    | ⟨1, _⟩ =>
      show win3_0.index t (1 : Fin 2) * 2048 + 1 * (j 1).val = ((((cfg3.win 1).blk t).view.emb j) 1).val
      rw [k1]; omega
  rw [h0]

/-- An index of the array is in point `t`'s block iff each coordinate is in the block's range on its axis. -/
theorem mem_blk3 (t : Fin cfg3.N) (i : S768x65536.Idx) :
    i ∈ ((cfg3.win 1).blk t).view.set ↔ ∀ a : Fin 2, win3_1.index t a * S768x2048.size a ≤ (i a).val ∧ (i a).val < win3_1.index t a * S768x2048.size a + S768x2048.size a := by
  show i ∈ ((View.whole main_v18).slice (win3_1.rect t)).set ↔ _
  rw [View.set_slice_whole, Rect.mem_set_unit]
  exact Iff.rfl

/-- The covered indices: the first 4096 columns. -/
theorem covered_iff3 (i : S768x65536.Idx) :
    (∃ t : Fin cfg3.N, (cfg3.win 1).flush t = true ∧ i ∈ ((cfg3.win 1).blk t).view.set) ↔ (i 1).val < 4096 := by
  constructor
  · rintro ⟨t, -, hi⟩
    rw [mem_blk3] at hi
    have b1 : win3_1.index t (1 : Fin 2) * 2048 ≤ (i 1).val ∧ (i 1).val < win3_1.index t (1 : Fin 2) * 2048 + 2048 := hi 1
    obtain ⟨e0, e1, e2, e3, e4⟩ := idx_facts3 t
    omega
  · intro h
    have hi0 : (i 0).val < 768 := (i 0).isLt
    have hN : cfg3.N = 2 := Gen.N_3
    let t : Fin cfg3.N := ⟨(i 1).val / 2048, by rw [hN]; omega⟩
    obtain ⟨e0, e1, e2, e3, e4⟩ := idx_facts3 t
    have ht : t.val = (i 1).val / 2048 := rfl
    refine ⟨t, Gen.flush3_1 t, ?_⟩
    rw [mem_blk3]
    intro a
    match a with
    | ⟨0, _⟩ => show win3_1.index t (0 : Fin 2) * 768 ≤ (i 0).val ∧ (i 0).val < win3_1.index t (0 : Fin 2) * 768 + 768; omega
    | ⟨1, _⟩ => show win3_1.index t (1 : Fin 2) * 2048 ≤ (i 1).val ∧ (i 1).val < win3_1.index t (1 : Fin 2) * 2048 + 2048; omega

/-- THE OUTPUT ARRAY after the region. -/
theorem final3 (c : Dev nD) : (datV3 VV WW OO c).arrAt 1 cfg3.N = G3 VV c := by
  funext i
  rw [(datV3 VV WW OO c).arrAt_eq_piecewise 1 (G3 VV c) (fun t _ => flushed3_eq VV WW OO c t) i]
  by_cases h : (i 1).val < 4096
  · rw [if_pos ((covered_iff3 i).mpr h)]
  · rw [if_neg (fun hc => h ((covered_iff3 i).mp hc))]
    show out3 VV c i = G3 VV c i
    unfold G3; rw [dif_neg h]

/-! ## The region -/

/-- After the third region, with the output named: the unscoped buffers at a valuation that agrees with the entry
    valuation off the output's array and holds there `G3`: the input's array on the first 4096 columns, the output's own
    entry contents on the others; the same tally. -/
def postV2 (d : Dev nD) : sProp 𝕄 :=
  iprop((∃ V' : Valuation τ sig (Elt F), ⌜(∀ b, b ∉ outs cfg3 → V' b = VV d b)
        ∧ (V' (Proc.devRef (τ := τ) .tc main_v18) : S768x65536.Idx → Elt F .f32) = G3 VV d⌝
      ∗ StableHlo.held (SparseCore.T d) (Pipeline.ucRefs τ sig) V') ∗ owesT WW OO d)

theorem entryV2 (c : Dev nD) :
    (StableHlo.held (SparseCore.T c) (Pipeline.ucRefs τ sig) (VV c) : sProp 𝕄)
      ⊢ iprop((pdatsV2 VV WW OO 2 c).arrays ((pdatsV2 VV WW OO 2 c).arrAt · 0) ∗ Pipeline.unscopedRest spec3 c (fun b => VV c b)) := by
  have h1 := Pipeline.arrays_of_unscopedBufs (pcfgs (F := F)) adm (pdatsV2 VV WW OO) (p := 2) Gen.winFacts3 Gen.arr_whole3 c
    ((datV3 VV WW OO c).share_full fun _ => rfl) (fun b => VV c b) (fun _ => rfl)
  rw [Pipeline.unscopedBufs_held (Ix := HIx 1) (Name := ℕ) (U := UU) (Lvl := ℕ) c (VV c)] at h1
  exact h1

def regV2 (hO : ∀ g, OO g none = 0) :
    Pipeline.RegionSeg (pcfgs (F := F)) adm (pdatsV2 VV WW OO) (none : HIx 1) defs₀ 𝒱₀ (K (F := F)).L (K (F := F)).lev 2 where
  win := Gen.winFacts3.to₀
  block_pos := Gen.block_pos3
  stage_whole := Gen.stage_whole3
  K := PEmpty
  osem k := k.elim
  ho := Pipeline.OwnSemFacts.none _
  hbody c := (body_obligation3v VV WW OO c).loose
  hwaits c := Pipeline.cellsWaits_intro (Pipeline.pin (pcfgs (F := F)) adm) (pdatsV2 VV WW OO) none 2 c
    fun w s t => (K (F := F)).mayWait_none _ hO
  pre c := preR VV WW OO c
  post c := postV2 VV WW OO c
  X _ := iprop(emp)
  Y _ := iprop(emp)
  Z c := Pipeline.unscopedRest spec3 c (fun b => VV c b)
  hentry c := by
    rw [Pipeline.ownSems0_none, prefHeld2]
    unfold preR
    iintro ⟨⟨Hh, HO⟩, -, -⟩
    imodintro
    ihave Ha := (entryV2 VV WW OO c) $$ Hh
    icases Ha with ⟨Ha, Hr⟩
    isplitl [Ha]; · iexact Ha
    isplitr; · iempintro
    isplitl [HO]; · iapply (owesAtV_intro (datV3 VV WW OO c) WW OO 0 rfl rfl); iexact HO
    isplitr; · iempintro
    iexact Hr
  hin c := by
    rw [show (pdatsV2 VV WW OO 2 c).Φ 0 = Pipeline.scopedRest spec3 c from rfl]
    iintro ⟨-, -, H⟩; iexact H
  hout c := by
    rw [show (pdatsV2 VV WW OO 2 c).Φ (Fin.last _) = Pipeline.scopedRest spec3 c from rfl, Pipeline.ownSems0_none]
    iintro H
    isplitr; · iempintro
    isplitr; · iempintro
    iexact H
  hexit c := by
    unfold postV2
    iintro ⟨Ha, HO, -, HZ⟩
    imodintro
    isplitl [Ha HZ]
    · ihave H := (exit_heldV (datV3 VV WW OO c) (VV c) ((datV3 VV WW OO c).share_full fun _ => rfl) (fun _ => rfl)
          Gen.winFacts3 Gen.arr_whole3 cfg3.N) $$ [Ha HZ]
      · isplitl [Ha]; · iexact Ha
        iexact HZ
      icases H with ⟨%V', %h, Hh⟩
      iexists V'; isplitr
      · ipureintro; exact ⟨h.1, (h.2 1).trans (final3 VV WW OO c)⟩
      iexact Hh
    iapply (owesAtV_elim (datV3 VV WW OO c) WW OO (Fin.last _) rfl rfl); iexact HO

/-- The third pallas_call's custom call on core `d`, with the output array's final contents named. -/
theorem region2V (hO : ∀ g, OO g none = 0) (d : Dev nD) {α : Type}
    (k : PUnit → Prog (TpuEff nD τ sig (Elt F) (ΛP (F := F)) .tc) α) (Q : α → sProp 𝕄) :
    iprop((iprop(boundary (SparseCore.T d) ∗ postV2 VV WW OO d) -∗ wp frame (wpE D 𝒱 (SparseCore.T d) none) Set.univ (k ⟨⟩) Q)
        ∗ boundary (SparseCore.T d) ∗ preR VV WW OO d ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE D 𝒱 (SparseCore.T d) none) Set.univ (.op (.customCall (Pipeline.entry 2) ()) k) Q :=
  (regV2 VV WW OO hO).wp (pcfgs (F := F)) adm (pdatsV2 VV WW OO) none pcell_inj EP defs₀ 𝒱₀ (K (F := F)).L (K (F := F)).lev d none
    (fun u hu => nomatch hu) k Q

end Cert.KernelIdeal.Hand

end
-- ==== Proof.KernelMath.lean ====
/- The kernel's arrangement of the same mathematics, over real arrays: the weights multiplied together before the data
   meets them, the fusion layer's sum cut into its two halves, and the facts about the three float literals and the
   layer norm's denominator that the extended-real reading of the kernel needs. No program is imported. -/
import proofs.«211565_g20684562498226_cont_8to1_684_24_alg».proof.Proof.Spec

noncomputable section

namespace Cert.Spec

open scoped BigOperators
open Idealize.ShloMosaic

/-! ## The three float literals as reals -/

/-- The word the programs divide a row sum by denotes 768. -/
theorem ofBits_768 : Ideal.ofBits .f32 0x44400000#32 = ((768 : ℝ) : EReal) := by
  simp [Ideal.ofBits, Ideal.ieee]
  norm_cast
  norm_num

theorem ofBits_eps_val : Ideal.ofBits .f32 0x3727C5AC#32 = ((10995116 * (2:ℝ)^(-40:ℤ) : ℝ) : EReal) := by
  simp [Ideal.ofBits, Ideal.ieee]

theorem ofBits_delta_val : Ideal.ofBits .f32 0x2B8CBCCC#32 = ((9223372 * (2:ℝ)^(-63:ℤ) : ℝ) : EReal) := by
  simp [Ideal.ofBits, Ideal.ieee]

/-- ε's word denotes the real number `eps`. -/
theorem ofBits_eps : Ideal.ofBits .f32 0x3727C5AC#32 = ((eps : ℝ) : EReal) := by
  unfold eps; rw [ofBits_eps_val, EReal.toReal_coe]

/-- δ's word denotes the real number `delta`. -/
theorem ofBits_delta : Ideal.ofBits .f32 0x2B8CBCCC#32 = ((delta : ℝ) : EReal) := by
  unfold delta; rw [ofBits_delta_val, EReal.toReal_coe]

theorem eps_pos : 0 < eps := by
  unfold eps; rw [ofBits_eps_val, EReal.toReal_coe]; positivity

theorem delta_pos : 0 < delta := by
  unfold delta; rw [ofBits_delta_val, EReal.toReal_coe]; positivity

/-! ## The pre-multiplied weights -/

section

/-- The value projection followed by the output projection, as one matrix: `W2 i k = ∑ j, ipw (1536 + j) i * ow k j`. -/
def W2 (ipw : Fin 2304 → Fin 768 → ℝ) (ow : Fin 768 → Fin 768 → ℝ) (i k : Fin 768) : ℝ := ∑ j : Fin 768, ipw (vrow j) i * ow k j

/-- The text projection folded in: `mt i k = ∑ j, tW j i * W2 j k`. -/
def mt (tW : Fin 768 → Fin 768 → ℝ) (ipw : Fin 2304 → Fin 768 → ℝ) (ow : Fin 768 → Fin 768 → ℝ) (i k : Fin 768) : ℝ := ∑ j : Fin 768, tW j i * W2 ipw ow j k

/-- The graph projection folded in: `mg i k = ∑ j, gW j i * W2 j k`. -/
def mg (gW : Fin 768 → Fin 768 → ℝ) (ipw : Fin 2304 → Fin 768 → ℝ) (ow : Fin 768 → Fin 768 → ℝ) (i k : Fin 768) : ℝ := ∑ j : Fin 768, gW j i * W2 ipw ow j k

/-- The value bias through the output projection, plus the output bias. -/
def bvow (ipb : Fin 2304 → ℝ) (ow : Fin 768 → Fin 768 → ℝ) (ob : Fin 768 → ℝ) (k : Fin 768) : ℝ := (∑ j : Fin 768, ipb (vrow j) * ow k j) + ob k

/-- The text side's constant row. -/
def ct (tb : Fin 768 → ℝ) (ipw : Fin 2304 → Fin 768 → ℝ) (ipb : Fin 2304 → ℝ) (ow : Fin 768 → Fin 768 → ℝ) (ob : Fin 768 → ℝ) (k : Fin 768) : ℝ := (∑ j : Fin 768, tb j * W2 ipw ow j k) + bvow ipb ow ob k

/-- The graph side's constant row. -/
def cg (gb : Fin 768 → ℝ) (ipw : Fin 2304 → Fin 768 → ℝ) (ipb : Fin 2304 → ℝ) (ow : Fin 768 → Fin 768 → ℝ) (ob : Fin 768 → ℝ) (k : Fin 768) : ℝ := (∑ j : Fin 768, gb j * W2 ipw ow j k) + bvow ipb ow ob k

/-- Column `i` of the fusion weights' first half. -/
def lo (i : Fin 768) : Fin 1536 := ⟨i.val, by omega⟩
/-- Column `768 + i`: the second half. -/
def hi (i : Fin 768) : Fin 1536 := ⟨768 + i.val, by omega⟩

/-- The first half of the fusion weights, transposed. -/
def p1t (pW : Fin 768 → Fin 1536 → ℝ) (i k : Fin 768) : ℝ := pW k (lo i)
/-- The second half of the fusion weights, transposed. -/
def p2t (pW : Fin 768 → Fin 1536 → ℝ) (i k : Fin 768) : ℝ := pW k (hi i)

end

/-- Moving a matrix across a sum of products: `∑ j, (∑ l, a l * B j l) * c j = ∑ l, a l * ∑ j, B j l * c j`. -/
theorem sum_mul_sum_assoc {A B' : Type*} [Fintype A] [Fintype B'] (a : A → ℝ) (B : B' → A → ℝ) (c : B' → ℝ) :
    ∑ j, (∑ l, a l * B j l) * c j = ∑ l, a l * ∑ j, B j l * c j := by
  simp only [Finset.sum_mul, Finset.mul_sum]
  rw [Finset.sum_comm]
  exact Finset.sum_congr rfl fun l _ => Finset.sum_congr rfl fun j _ => by ring

/-- Two affine maps after an affine map, with the two linear parts multiplied first. -/
theorem affine_chain {A B' C : Type*} [Fintype A] [Fintype B'] [Fintype C]
    (x : A → ℝ) (G : B' → A → ℝ) (g : B' → ℝ) (V : C → B' → ℝ) (v : C → ℝ) (O : C → ℝ) (o : ℝ) :
    (∑ l, x l * ∑ j, G j l * ∑ i, V i j * O i) + ((∑ j, g j * ∑ i, V i j * O i) + ((∑ i, v i * O i) + o))
      = (∑ i, ((∑ j, ((∑ l, x l * G j l) + g j) * V i j) + v i) * O i) + o := by
  have h1 : ∑ i, (∑ j, ((∑ l, x l * G j l) + g j) * V i j) * O i
      = ∑ j, ((∑ l, x l * G j l) + g j) * ∑ i, V i j * O i :=
    sum_mul_sum_assoc (fun j => (∑ l, x l * G j l) + g j) V O
  have h2 : ∑ j, (∑ l, x l * G j l) * (∑ i, V i j * O i) = ∑ l, x l * ∑ j, G j l * ∑ i, V i j * O i :=
    sum_mul_sum_assoc x G (fun j => ∑ i, V i j * O i)
  simp only [add_mul, Finset.sum_add_distrib] at h1 ⊢
  rw [h1, h2]; ring

section
variable (txt gph : Fin 4096 → Fin 768 → ℝ) (tW gW ow : Fin 768 → Fin 768 → ℝ) (tb gb ob pb l1g l1b l2g l2b lfg lfb : Fin 768 → ℝ)
  (ipw : Fin 2304 → Fin 768 → ℝ) (ipb : Fin 2304 → ℝ) (pW : Fin 768 → Fin 1536 → ℝ)

/-- The first attention's output from the pre-multiplied graph weights. -/
theorem o1_eq (r : Fin 4096) (k : Fin 768) :
    (∑ i : Fin 768, gph r i * mg gW ipw ow i k) + cg gb ipw ipb ow ob k = oA gph gW gb ipw ipb ow ob r k := by
  unfold oA oproj vA vproj gu mg cg bvow W2
  exact affine_chain (gph r) gW gb (fun i j => ipw (vrow i) j) (fun i => ipb (vrow i)) (ow k) (ob k)

/-- The second attention's output from the pre-multiplied text weights. -/
theorem o2_eq (r : Fin 4096) (k : Fin 768) :
    (∑ i : Fin 768, txt r i * mt tW ipw ow i k) + ct tb ipw ipb ow ob k = oB txt tW tb ipw ipb ow ob r k := by
  unfold oB oproj vB vproj tu mt ct bvow W2
  exact affine_chain (txt r) tW tb (fun i j => ipw (vrow i) j) (fun i => ipb (vrow i)) (ow k) (ob k)

/-- The fusion layer's sum over 1536 columns is the two halves' sums. -/
theorem out_split (r : Fin 4096) (k : Fin 768) :
    ∑ i : Fin 1536, fused txt gph tW tb gW gb ipw ipb ow ob l1g l1b l2g l2b r i * pW k i
      = (∑ i : Fin 768, LN (oA gph gW gb ipw ipb ow ob) l1g l1b r i * p1t pW i k)
        + ∑ i : Fin 768, LN (oB txt tW tb ipw ipb ow ob) l2g l2b r i * p2t pW i k := by
  have h := Fin.sum_univ_add (M := ℝ) (a := 768) (b := 768)
    (fun i : Fin (768 + 768) => fused txt gph tW tb gW gb ipw ipb ow ob l1g l1b l2g l2b r i * pW k i)
  refine h.trans ?_
  congr 1

end

/-! ## Layer norm: positivity, and the reciprocal square root -/

theorem var_nonneg (x : Fin 4096 → Fin 768 → ℝ) (r : Fin 4096) : 0 ≤ var x r := by
  unfold var; exact div_nonneg (Finset.sum_nonneg fun k _ => sq_nonneg _) (by norm_num)

theorem var_add_eps_pos (x : Fin 4096 → Fin 768 → ℝ) (r : Fin 4096) : 0 < var x r + eps :=
  add_pos_of_nonneg_of_pos (var_nonneg x r) eps_pos

/-- The norm's denominator is positive. -/
theorem norm_add_delta_pos (s : ℝ) : 0 < Real.sqrt s + delta :=
  add_pos_of_nonneg_of_pos (Real.sqrt_nonneg s) delta_pos

end Cert.Spec

end
-- ==== Proof.KernelPay0.lean ====
/- The first TensorCore kernel's stored values as mathematics: read at the extended reals with real inputs, each of its
   six stores is the coercion of the corresponding pre-multiplied real array (the two matrices, the two constant rows,
   the two transposed halves of the fusion weights). Also the vocabulary the later kernels' payloads use: real arrays
   read as vectors of extended reals, the coercion of a finite sum, and a product into the zero accumulator read at an index. -/
import proofs.«211565_g20684562498226_cont_8to1_684_24_alg».proof.Proof.Gen.KernelIdeal.Skeleton
import proofs.«211565_g20684562498226_cont_8to1_684_24_alg».proof.Proof.KernelMath
import Idealize.ShloMosaic.PureOps.Ideal.Laws
import Idealize.ShloMosaic.Lib.ValueLayout

noncomputable section

namespace Cert.KernelIdeal.Hand.Val

open scoped BigOperators
open Idealize.ShloMosaic Idealize.ShloMosaic.ValueIdx Cert.KernelIdeal Cert.KernelIdeal.Gen

/-- A real matrix read as a vector of extended reals. -/
def cm {a b : ℕ} (X : Fin a → Fin b → ℝ) : (⟨2, ![a, b]⟩ : Shape).Idx → EReal :=
  fun idx => ((X (idx 0) (idx 1) : ℝ) : EReal)

/-- A real row read as a one-row vector of extended reals. -/
def cr {b : ℕ} (x : Fin b → ℝ) : (⟨2, ![1, b]⟩ : Shape).Idx → EReal :=
  fun idx => ((x (idx 1) : ℝ) : EReal)

theorem cm_ix2 {a b : ℕ} (X : Fin a → Fin b → ℝ) (p : Fin a) (q : Fin b) : cm X (ix2 p q) = ((X p q : ℝ) : EReal) := rfl
theorem cr_ix2 {b : ℕ} (x : Fin b → ℝ) (u : Fin 1) (q : Fin b) : cr x (ix2 u q) = ((x q : ℝ) : EReal) := rfl

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A 768×768 by 768×768 product into the zero accumulator, read at `(p, q)`: the sum over the shared index. -/
theorem matmul_768_768_apply (prec : Option ContractPrecision) (A B : FVec Ideal S768x768 .f32) (p q : Fin 768) :
    matmul dot_S768x768_S768x768_S768x768_1_0_0_1_n_n prec A B (constant S768x768 .f32 0x00000000#32) (ix2 p q)
      = ∑ j : Fin 768, A (ix2 p j) * B (ix2 j q) := by
  simp only [matmul]
  rw [Ideal.matmul_constant_zero_apply,
    ← Equiv.sum_comp (contrEquiv1 dot_S768x768_S768x768_S768x768_1_0_0_1_n_n 768 rfl rfl).symm]
  refine Finset.sum_congr rfl fun j _ => ?_
  have hl : dot_S768x768_S768x768_S768x768_1_0_0_1_n_n.lhsIdx (ix2 p q)
      ((contrEquiv1 dot_S768x768_S768x768_S768x768_1_0_0_1_n_n 768 rfl rfl).symm j) = ix2 p j := by
    funext a; refine Fin.ext ?_
    match a with
    | ⟨0, _⟩ => rfl
    | ⟨1, _⟩ =>
      exact (DotDims.lhsIdx_val_of_single dot_S768x768_S768x768_S768x768_1_0_0_1_n_n (cl := 1) rfl (ix2 p q) _).trans
        (contrEquiv1_symm_val dot_S768x768_S768x768_S768x768_1_0_0_1_n_n 768 rfl rfl j)
  have hr : dot_S768x768_S768x768_S768x768_1_0_0_1_n_n.rhsIdx (ix2 p q)
      ((contrEquiv1 dot_S768x768_S768x768_S768x768_1_0_0_1_n_n 768 rfl rfl).symm j) = ix2 j q := by
    funext a; refine Fin.ext ?_
    match a with
    | ⟨0, _⟩ =>
      exact (DotDims.rhsIdx_val_of_single dot_S768x768_S768x768_S768x768_1_0_0_1_n_n (cr := 0) rfl (ix2 p q) _).trans
        (contrEquiv1_symm_val dot_S768x768_S768x768_S768x768_1_0_0_1_n_n 768 rfl rfl j)
    | ⟨1, _⟩ => rfl
  rw [hl, hr]

/-- A 1×768 by 768×768 product into the zero accumulator, read at `(u, q)`: the sum over the shared index. -/
theorem matmul_1_768_apply (prec : Option ContractPrecision) (A : FVec Ideal S1x768 .f32) (B : FVec Ideal S768x768 .f32)
    (u : Fin 1) (q : Fin 768) :
    matmul dot_S1x768_S768x768_S1x768_1_0_0_1_n_n prec A B (constant S1x768 .f32 0x00000000#32) (ix2 u q)
      = ∑ j : Fin 768, A (ix2 u j) * B (ix2 j q) := by
  simp only [matmul]
  rw [Ideal.matmul_constant_zero_apply,
    ← Equiv.sum_comp (contrEquiv1 dot_S1x768_S768x768_S1x768_1_0_0_1_n_n 768 rfl rfl).symm]
  refine Finset.sum_congr rfl fun j _ => ?_
  have hl : dot_S1x768_S768x768_S1x768_1_0_0_1_n_n.lhsIdx (ix2 u q)
      ((contrEquiv1 dot_S1x768_S768x768_S1x768_1_0_0_1_n_n 768 rfl rfl).symm j) = ix2 u j := by
    funext a; refine Fin.ext ?_
    match a with
    | ⟨0, _⟩ => rfl
    | ⟨1, _⟩ =>
      exact (DotDims.lhsIdx_val_of_single dot_S1x768_S768x768_S1x768_1_0_0_1_n_n (cl := 1) rfl (ix2 u q) _).trans
        (contrEquiv1_symm_val dot_S1x768_S768x768_S1x768_1_0_0_1_n_n 768 rfl rfl j)
  have hr : dot_S1x768_S768x768_S1x768_1_0_0_1_n_n.rhsIdx (ix2 u q)
      ((contrEquiv1 dot_S1x768_S768x768_S1x768_1_0_0_1_n_n 768 rfl rfl).symm j) = ix2 j q := by
    funext a; refine Fin.ext ?_
    match a with
    | ⟨0, _⟩ =>
      exact (DotDims.rhsIdx_val_of_single dot_S1x768_S768x768_S1x768_1_0_0_1_n_n (cr := 0) rfl (ix2 u q) _).trans
        (contrEquiv1_symm_val dot_S1x768_S768x768_S1x768_1_0_0_1_n_n 768 rfl rfl j)
    | ⟨1, _⟩ => rfl
  rw [hl, hr]

open Cert.Spec (vrow)

/-- The value-then-output matrix: at `(i, k)` the sum over `j` of `Wv j i * ow k j`. -/
theorem k0_pay4_apply (Wv ow : Fin 768 → Fin 768 → ℝ) (i k : Fin 768) :
    k0_pay4 (F := Ideal) (cm Wv) (cm ow) (ix2 i k) = ((∑ j : Fin 768, Wv j i * ow k j : ℝ) : EReal) := by
  unfold k0_pay4
  rw [matmul_768_768_apply, coe_sum]
  refine Finset.sum_congr rfl fun j _ => ?_
  rw [transpose_ix2_apply, transpose_ix2_apply, shapeCast_self, cm_ix2, cm_ix2, EReal.coe_mul]

/-- … which on the value rows of the input projection is `W2`. -/
theorem k0_pay4_W2 (ipw : Fin 2304 → Fin 768 → ℝ) (ow : Fin 768 → Fin 768 → ℝ) (i k : Fin 768) :
    k0_pay4 (F := Ideal) (cm fun a b => ipw (vrow a) b) (cm ow) (ix2 i k) = ((Spec.W2 ipw ow i k : ℝ) : EReal) :=
  k0_pay4_apply (fun a b => ipw (vrow a) b) ow i k

/-- The stored text matrix is `mt`. -/
theorem k0_pay5_mt (tW : Fin 768 → Fin 768 → ℝ) (ipw : Fin 2304 → Fin 768 → ℝ) (ow : Fin 768 → Fin 768 → ℝ) (i k : Fin 768) :
    k0_pay5 (F := Ideal) (cm fun a b => ipw (vrow a) b) (cm ow) (cm tW) (ix2 i k) = ((Spec.mt tW ipw ow i k : ℝ) : EReal) := by
  unfold k0_pay5
  rw [truncf_apply, matmul_768_768_apply]
  unfold Spec.mt
  rw [coe_sum]
  refine Finset.sum_congr rfl fun j _ => ?_
  rw [transpose_ix2_apply, cm_ix2, k0_pay4_W2, EReal.coe_mul]

/-- The stored graph matrix is `mg`. -/
theorem k0_pay6_mg (gW : Fin 768 → Fin 768 → ℝ) (ipw : Fin 2304 → Fin 768 → ℝ) (ow : Fin 768 → Fin 768 → ℝ) (i k : Fin 768) :
    k0_pay6 (F := Ideal) (cm fun a b => ipw (vrow a) b) (cm ow) (cm gW) (ix2 i k) = ((Spec.mg gW ipw ow i k : ℝ) : EReal) := by
  unfold k0_pay6
  rw [truncf_apply, matmul_768_768_apply]
  unfold Spec.mg
  rw [coe_sum]
  refine Finset.sum_congr rfl fun j _ => ?_
  rw [transpose_ix2_apply, cm_ix2, k0_pay4_W2, EReal.coe_mul]

/-- The value bias through the output projection plus the output bias is `bvow`. -/
theorem k0_pay7_bvow (ipb : Fin 2304 → ℝ) (ow : Fin 768 → Fin 768 → ℝ) (ob : Fin 768 → ℝ) (u : Fin 1) (k : Fin 768) :
    k0_pay7 (F := Ideal) (cr fun a => ipb (vrow a)) (cm ow) (cr ob) (ix2 u k) = ((Spec.bvow ipb ow ob k : ℝ) : EReal) := by
  unfold k0_pay7
  rw [addf_apply, matmul_1_768_apply, shapeCast_self, shapeCast_self]
  unfold Spec.bvow
  rw [EReal.coe_add, coe_sum, cr_ix2]
  refine congrArg (fun t : EReal => t + ((ob k : ℝ) : EReal)) (Finset.sum_congr rfl fun j _ => ?_)
  rw [transpose_ix2_apply, cr_ix2, cm_ix2, EReal.coe_mul]

/-- The stored text constant row is `ct`. -/
theorem k0_pay8_ct (tb : Fin 768 → ℝ) (ipw : Fin 2304 → Fin 768 → ℝ) (ipb : Fin 2304 → ℝ) (ow : Fin 768 → Fin 768 → ℝ)
    (ob : Fin 768 → ℝ) (u : Fin 1) (k : Fin 768) :
    k0_pay8 (F := Ideal) (cm fun a b => ipw (vrow a) b) (cm ow) (cr fun a => ipb (vrow a)) (cm ow) (cr ob) (cr tb) (ix2 u k)
      = ((Spec.ct tb ipw ipb ow ob k : ℝ) : EReal) := by
  unfold k0_pay8
  rw [addf_apply, matmul_1_768_apply, k0_pay7_bvow, shapeCast_self]
  unfold Spec.ct
  rw [EReal.coe_add, coe_sum]
  refine congrArg (fun t : EReal => t + ((Spec.bvow ipb ow ob k : ℝ) : EReal)) (Finset.sum_congr rfl fun j _ => ?_)
  rw [cr_ix2, k0_pay4_W2, EReal.coe_mul]

/-- The stored graph constant row is `cg`. -/
theorem k0_pay1_cg (gb : Fin 768 → ℝ) (ipw : Fin 2304 → Fin 768 → ℝ) (ipb : Fin 2304 → ℝ) (ow : Fin 768 → Fin 768 → ℝ)
    (ob : Fin 768 → ℝ) (u : Fin 1) (k : Fin 768) :
    k0_pay1 (F := Ideal) (k0_pay4 (cm fun a b => ipw (vrow a) b) (cm ow))
        (k0_pay7 (cr fun a => ipb (vrow a)) (cm ow) (cr ob)) (cr gb) (ix2 u k)
      = ((Spec.cg gb ipw ipb ow ob k : ℝ) : EReal) := by
  unfold k0_pay1
  rw [addf_apply, matmul_1_768_apply, k0_pay7_bvow, shapeCast_self]
  unfold Spec.cg
  rw [EReal.coe_add, coe_sum]
  refine congrArg (fun t : EReal => t + ((Spec.bvow ipb ow ob k : ℝ) : EReal)) (Finset.sum_congr rfl fun j _ => ?_)
  rw [cr_ix2, k0_pay4_W2, EReal.coe_mul]

/-- A stored half of the fusion weights is the loaded half transposed. -/
theorem k0_pay2_apply (v : Vec Ideal S768x768 .f32) (a b : Fin 768) : k0_pay2 (F := Ideal) v (ix2 a b) = v (ix2 b a) := by
  unfold k0_pay2
  rw [truncf_apply, transpose_ix2_apply]

theorem k0_pay3_apply (v : Vec Ideal S768x768 .f32) (a b : Fin 768) : k0_pay3 (F := Ideal) v (ix2 a b) = v (ix2 b a) := by
  unfold k0_pay3
  rw [truncf_apply, transpose_ix2_apply]

/-- The first half: `p1t`. -/
theorem k0_pay2_p1t (pW : Fin 768 → Fin 1536 → ℝ) (i k : Fin 768) :
    k0_pay2 (F := Ideal) (cm fun c a => pW c (Spec.lo a)) (ix2 i k) = ((Spec.p1t pW i k : ℝ) : EReal) := by
  rw [k0_pay2_apply]; rfl

/-- The second half: `p2t`. -/
theorem k0_pay3_p2t (pW : Fin 768 → Fin 1536 → ℝ) (i k : Fin 768) :
    k0_pay3 (F := Ideal) (cm fun c a => pW c (Spec.hi a)) (ix2 i k) = ((Spec.p2t pW i k : ℝ) : EReal) := by
  rw [k0_pay3_apply]; rfl

end Cert.KernelIdeal.Hand.Val
end
-- ==== Proof.ValChain.lean ====
/- The buffer contents along @main as mathematics: from argument arrays that are coercions of real arrays, each straight
   line of host operations and each kernel region leaves the buffers it writes at the coercion of a named real array. -/
import proofs.«211565_g20684562498226_cont_8to1_684_24_alg».proof.Proof.MainOpsFacts
import proofs.«211565_g20684562498226_cont_8to1_684_24_alg».proof.Proof.Regions
import proofs.«211565_g20684562498226_cont_8to1_684_24_alg».proof.Proof.RegionsVal2
import proofs.«211565_g20684562498226_cont_8to1_684_24_alg».proof.Proof.KernelPay0

noncomputable section

namespace Cert.KernelIdeal.Hand.Val

open scoped BigOperators
open Idealize.ShloMosaic Idealize.ShloMosaic.ValueIdx Idealize.ShloMosaic.StableHlo
open Cert.KernelIdeal Cert.KernelIdeal.Gen Cert.KernelIdeal.Hand
open Cert.Spec (vrow)

/-- A real vector read as a vector of extended reals. -/
def c1 {n : ℕ} (x : Fin n → ℝ) : (⟨1, ![n]⟩ : Shape).Idx → EReal := fun idx => ((x (idx 0) : ℝ) : EReal)
theorem c1_ix1 {n : ℕ} (x : Fin n → ℝ) (i : Fin n) : c1 x (ix1 i) = ((x i : ℝ) : EReal) := rfl

/-- The real arrays behind the nineteen float arguments. -/
structure RealArgs where
  txt : Fin 4096 → Fin 768 → ℝ
  gph : Fin 4096 → Fin 768 → ℝ
  tW : Fin 768 → Fin 768 → ℝ
  tb : Fin 768 → ℝ
  gW : Fin 768 → Fin 768 → ℝ
  gb : Fin 768 → ℝ
  ipw : Fin 2304 → Fin 768 → ℝ
  ipb : Fin 2304 → ℝ
  ow : Fin 768 → Fin 768 → ℝ
  ob : Fin 768 → ℝ
  pW : Fin 768 → Fin 1536 → ℝ
  pb : Fin 768 → ℝ
  l1g : Fin 768 → ℝ
  l1b : Fin 768 → ℝ
  l2g : Fin 768 → ℝ
  l2b : Fin 768 → ℝ
  lfg : Fin 768 → ℝ
  lfb : Fin 768 → ℝ
  queue : Fin 768 → Fin 65536 → ℝ

variable (R : RealArgs) (V V' : Valuation τ sig (Elt Ideal))

/-- Every float argument array is the coercion of its real array, and the pointer is zero. -/
structure I0 : Prop where
  a0 : (V (Proc.devRef (τ := τ) .tc main_arg0) : S4096x768.Idx → Elt Ideal .f32) = cm R.txt
  a1 : (V (Proc.devRef (τ := τ) .tc main_arg1) : S4096x768.Idx → Elt Ideal .f32) = cm R.gph
  a2 : (V (Proc.devRef (τ := τ) .tc main_arg2) : S768x768.Idx → Elt Ideal .f32) = cm R.tW
  a3 : (V (Proc.devRef (τ := τ) .tc main_arg3) : S768.Idx → Elt Ideal .f32) = c1 R.tb
  a4 : (V (Proc.devRef (τ := τ) .tc main_arg4) : S768x768.Idx → Elt Ideal .f32) = cm R.gW
  a5 : (V (Proc.devRef (τ := τ) .tc main_arg5) : S768.Idx → Elt Ideal .f32) = c1 R.gb
  a6 : (V (Proc.devRef (τ := τ) .tc main_arg6) : S2304x768.Idx → Elt Ideal .f32) = cm R.ipw
  a7 : (V (Proc.devRef (τ := τ) .tc main_arg7) : S2304.Idx → Elt Ideal .f32) = c1 R.ipb
  a8 : (V (Proc.devRef (τ := τ) .tc main_arg8) : S768x768.Idx → Elt Ideal .f32) = cm R.ow
  a9 : (V (Proc.devRef (τ := τ) .tc main_arg9) : S768.Idx → Elt Ideal .f32) = c1 R.ob
  a10 : (V (Proc.devRef (τ := τ) .tc main_arg10) : S768x1536.Idx → Elt Ideal .f32) = cm R.pW
  a11 : (V (Proc.devRef (τ := τ) .tc main_arg11) : S768.Idx → Elt Ideal .f32) = c1 R.pb
  a12 : (V (Proc.devRef (τ := τ) .tc main_arg12) : S768.Idx → Elt Ideal .f32) = c1 R.l1g
  a13 : (V (Proc.devRef (τ := τ) .tc main_arg13) : S768.Idx → Elt Ideal .f32) = c1 R.l1b
  a14 : (V (Proc.devRef (τ := τ) .tc main_arg14) : S768.Idx → Elt Ideal .f32) = c1 R.l2g
  a15 : (V (Proc.devRef (τ := τ) .tc main_arg15) : S768.Idx → Elt Ideal .f32) = c1 R.l2b
  a16 : (V (Proc.devRef (τ := τ) .tc main_arg16) : S768.Idx → Elt Ideal .f32) = c1 R.lfg
  a17 : (V (Proc.devRef (τ := τ) .tc main_arg17) : S768.Idx → Elt Ideal .f32) = c1 R.lfb
  a18 : (V (Proc.devRef (τ := τ) .tc main_arg18) : S768x65536.Idx → Elt Ideal .f32) = cm R.queue
  a19 : (V (Proc.devRef (τ := τ) .tc main_arg19) : S1.Idx → Elt Ideal .i32) = fun _ => 0#32

/-- The arguments are where they were wherever the argument arrays are. -/
theorem I0.of_eq {R : RealArgs} {V V' : Valuation τ sig (Elt Ideal)} (h : I0 R V) (e : ∀ b ∈ argRefs, V' b = V b) : I0 R V' := by
  have e' : ∀ r : Ref sig .tc, Proc.devRef (τ := τ) .tc r ∈ argRefs → V' (Proc.devRef (τ := τ) .tc r) = V (Proc.devRef (τ := τ) .tc r) :=
    fun r hr => e _ hr
  exact ⟨(e' main_arg0 (by decide)).trans h.a0, (e' main_arg1 (by decide)).trans h.a1, (e' main_arg2 (by decide)).trans h.a2,
    (e' main_arg3 (by decide)).trans h.a3, (e' main_arg4 (by decide)).trans h.a4, (e' main_arg5 (by decide)).trans h.a5,
    (e' main_arg6 (by decide)).trans h.a6, (e' main_arg7 (by decide)).trans h.a7, (e' main_arg8 (by decide)).trans h.a8,
    (e' main_arg9 (by decide)).trans h.a9, (e' main_arg10 (by decide)).trans h.a10, (e' main_arg11 (by decide)).trans h.a11,
    (e' main_arg12 (by decide)).trans h.a12, (e' main_arg13 (by decide)).trans h.a13, (e' main_arg14 (by decide)).trans h.a14,
    (e' main_arg15 (by decide)).trans h.a15, (e' main_arg16 (by decide)).trans h.a16, (e' main_arg17 (by decide)).trans h.a17,
    (e' main_arg18 (by decide)).trans h.a18, (e' main_arg19 (by decide)).trans h.a19⟩

/-- A line of host operations keeps every buffer outside its written list. -/
theorem after_keep {ops : List (HloOp τ sig (Elt Ideal))} {W : List (Ref sig .tc)}
    (hw : ∀ op ∈ ops, op.writes ⊆ (W.map (Proc.devRef (τ := τ) .tc)).toFinset) (V : Valuation τ sig (Elt Ideal))
    (r : Ref sig .tc) (hr : r ∉ W) : after ops V (Proc.devRef .tc r) = V (Proc.devRef .tc r) :=
  after_of_writes_sub ops V (List.forall_iff_forall_mem.mpr hw) hr

/-- A line of host operations that writes no argument array keeps the arguments. -/
theorem I0.after {R : RealArgs} {V : Valuation τ sig (Elt Ideal)} (h : I0 R V) (ops : List (HloOp τ sig (Elt Ideal)))
    (hk : ∀ op ∈ ops, ∀ b ∈ argRefs, b ∉ op.writes) : I0 R (after ops V) :=
  h.of_eq fun b hb => after_of_forall_not_mem ops V fun op hop => hk op hop b hb

/-- After the first line: also the value rows of the input projection and the four vectors as rows. -/
structure I1 : Prop extends I0 R V where
  v0 : (V (Proc.devRef (τ := τ) .tc main_v0) : S768x768.Idx → Elt Ideal .f32) = cm fun a b => R.ipw (vrow a) b
  v2 : (V (Proc.devRef (τ := τ) .tc main_v2) : S1x768.Idx → Elt Ideal .f32) = cr fun a => R.ipb (vrow a)
  v3 : (V (Proc.devRef (τ := τ) .tc main_v3) : S1x768.Idx → Elt Ideal .f32) = cr R.tb
  v4 : (V (Proc.devRef (τ := τ) .tc main_v4) : S1x768.Idx → Elt Ideal .f32) = cr R.gb
  v5 : (V (Proc.devRef (τ := τ) .tc main_v5) : S1x768.Idx → Elt Ideal .f32) = cr R.ob

/-- A vector `[b]` as a row `[1, b]`. -/
theorem reshape_c1 {b : ℕ} (x : Fin b → ℝ) (h : (⟨1, ![b]⟩ : Shape).ShapeCasts ⟨2, ![1, b]⟩) :
    shapeCast ⟨2, ![1, b]⟩ (c1 x) h = cr x := by
  funext j
  obtain ⟨u, q, rfl⟩ : ∃ (u : Fin 1) (q : Fin b), j = ix2 u q := ⟨j 0, j 1, eq_ix2 j⟩
  rw [shapeCast_a_1a_apply]; rfl

/-- A vector cut from `o` reads, at `j`, the source at `o + j`. -/
theorem slice1_eq {α : Type} {n m : ℕ} (o : ℕ) (X : (⟨1, ![n]⟩ : Shape).Idx → α)
    (h : (⟨1, ![n]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

theorem T0 {R : RealArgs} {V : Valuation τ sig (Elt Ideal)} (h : I0 R V) : I1 R (after (ops0 (F := Ideal)) V) := by
  refine { toI0 := h.after _ ops0_keep, v0 := ?_, v2 := ?_, v3 := ?_, v4 := ?_, v5 := ?_ }
  · after_results_simp
    rw [h.a6]
    funext j
    obtain ⟨a, b, rfl⟩ : ∃ (a : Fin 768) (b : Fin 768), j = ix2 a b := ⟨j 0, j 1, eq_ix2 j⟩
    rw [slice2_axis0_eq]; rfl
  · after_results_simp
    rw [h.a7]
    funext j
    obtain ⟨u, q, rfl⟩ : ∃ (u : Fin 1) (q : Fin 768), j = ix2 u q := ⟨j 0, j 1, eq_ix2 j⟩
    show shapeCast S1x768 (extractStridedSlice S768 ![1536] (c1 R.ipb) slices_S2304_S768_1536) shapeCasts_S768_S1x768 (ix2 u q) = _
    rw [shapeCast_a_1a_apply, slice1_eq]; rfl
  · after_results_simp
    rw [h.a3]
    exact reshape_c1 R.tb shapeCasts_S768_S1x768
  · after_results_simp
    rw [h.a5]
    exact reshape_c1 R.gb shapeCasts_S768_S1x768
  · after_results_simp
    rw [h.a9]
    exact reshape_c1 R.ob shapeCasts_S768_S1x768

/-- After the first kernel: also its six outputs, the pre-multiplied arrays. -/
structure I2 : Prop extends I1 R V where
  v6_0 : (V (Proc.devRef (τ := τ) .tc main_v6_0) : S768x768.Idx → Elt Ideal .bf16) = cm (Spec.mt R.tW R.ipw R.ow)
  v6_1 : (V (Proc.devRef (τ := τ) .tc main_v6_1) : S768x768.Idx → Elt Ideal .bf16) = cm (Spec.mg R.gW R.ipw R.ow)
  v6_2 : (V (Proc.devRef (τ := τ) .tc main_v6_2) : S1x768.Idx → Elt Ideal .f32) = cr (Spec.ct R.tb R.ipw R.ipb R.ow R.ob)
  v6_3 : (V (Proc.devRef (τ := τ) .tc main_v6_3) : S1x768.Idx → Elt Ideal .f32) = cr (Spec.cg R.gb R.ipw R.ipb R.ow R.ob)
  v6_4 : (V (Proc.devRef (τ := τ) .tc main_v6_4) : S768x768.Idx → Elt Ideal .bf16) = cm (Spec.p1t R.pW)
  v6_5 : (V (Proc.devRef (τ := τ) .tc main_v6_5) : S768x768.Idx → Elt Ideal .bf16) = cm (Spec.p2t R.pW)

/-- The facts of `I1` where the valuation agrees on the argument arrays and on the five buffers the first line wrote. -/
theorem I1.of_eq {R : RealArgs} {V V' : Valuation τ sig (Elt Ideal)} (h : I1 R V)
    (e : ∀ r : Ref sig .tc, r ∈ ([main_arg0, main_arg1, main_arg2, main_arg3, main_arg4, main_arg5, main_arg6, main_arg7, main_arg8, main_arg9,
      main_arg10, main_arg11, main_arg12, main_arg13, main_arg14, main_arg15, main_arg16, main_arg17, main_arg18, main_arg19,
      main_v0, main_v2, main_v3, main_v4, main_v5] : List (Ref sig .tc)) →
      V' (Proc.devRef (τ := τ) .tc r) = V (Proc.devRef (τ := τ) .tc r)) : I1 R V' :=
  { a0 := (e main_arg0 (by decide)).trans h.a0, a1 := (e main_arg1 (by decide)).trans h.a1, a2 := (e main_arg2 (by decide)).trans h.a2,
    a3 := (e main_arg3 (by decide)).trans h.a3, a4 := (e main_arg4 (by decide)).trans h.a4, a5 := (e main_arg5 (by decide)).trans h.a5,
    a6 := (e main_arg6 (by decide)).trans h.a6, a7 := (e main_arg7 (by decide)).trans h.a7, a8 := (e main_arg8 (by decide)).trans h.a8,
    a9 := (e main_arg9 (by decide)).trans h.a9, a10 := (e main_arg10 (by decide)).trans h.a10, a11 := (e main_arg11 (by decide)).trans h.a11,
    a12 := (e main_arg12 (by decide)).trans h.a12, a13 := (e main_arg13 (by decide)).trans h.a13, a14 := (e main_arg14 (by decide)).trans h.a14,
    a15 := (e main_arg15 (by decide)).trans h.a15, a16 := (e main_arg16 (by decide)).trans h.a16, a17 := (e main_arg17 (by decide)).trans h.a17,
    a18 := (e main_arg18 (by decide)).trans h.a18, a19 := (e main_arg19 (by decide)).trans h.a19,
    v0 := (e main_v0 (by decide)).trans h.v0, v2 := (e main_v2 (by decide)).trans h.v2, v3 := (e main_v3 (by decide)).trans h.v3,
    v4 := (e main_v4 (by decide)).trans h.v4, v5 := (e main_v5 (by decide)).trans h.v5 }

/-- The left half of a 768×1536 real matrix, loaded. -/
theorem ld_left (pW : Fin 768 → Fin 1536 → ℝ) :
    (View.ld (cm pW : S768x1536.Idx → Elt Ideal .f32)
        (Rect.unit (s := S768x1536) ![0, 0] S768x768.size inb_S768x1536_S768x768_0_0) : S768x768.Idx → Elt Ideal .f32)
      = cm fun c a => pW c (Spec.lo a) := by
  funext j
  obtain ⟨c, a, rfl⟩ : ∃ (c : Fin 768) (a : Fin 768), j = ix2 c a := ⟨j 0, j 1, eq_ix2 j⟩
  have he : (Rect.unit (s := S768x1536) ![0, 0] S768x768.size inb_S768x1536_S768x768_0_0).emb (ix2 c a) = ix2 c (Spec.lo a) := by
    funext ax; refine Fin.ext ?_
    match ax with
    | ⟨0, _⟩ => show 0 + 1 * c.val = c.val; omega
    | ⟨1, _⟩ => show 0 + 1 * a.val = a.val; omega
  show cm pW ((Rect.unit (s := S768x1536) ![0, 0] S768x768.size inb_S768x1536_S768x768_0_0).emb (ix2 c a)) = _
  rw [he]; rfl

/-- The right half. -/
theorem ld_right (pW : Fin 768 → Fin 1536 → ℝ) :
    (View.ld (cm pW : S768x1536.Idx → Elt Ideal .f32)
        (Rect.unit (s := S768x1536) ![0, 768] S768x768.size inb_S768x1536_S768x768_0_768) : S768x768.Idx → Elt Ideal .f32)
      = cm fun c a => pW c (Spec.hi a) := by
  funext j
  obtain ⟨c, a, rfl⟩ : ∃ (c : Fin 768) (a : Fin 768), j = ix2 c a := ⟨j 0, j 1, eq_ix2 j⟩
  have he : (Rect.unit (s := S768x1536) ![0, 768] S768x768.size inb_S768x1536_S768x768_0_768).emb (ix2 c a) = ix2 c (Spec.hi a) := by
    funext ax; refine Fin.ext ?_
    match ax with
    | ⟨0, _⟩ => show 0 + 1 * c.val = c.val; omega
    | ⟨1, _⟩ => show 768 + 1 * a.val = 768 + a.val; omega
  show cm pW ((Rect.unit (s := S768x1536) ![0, 768] S768x768.size inb_S768x1536_S768x768_0_768).emb (ix2 c a)) = _
  rw [he]; rfl
/-- The first kernel region: its six output arrays end at the body's payloads of the arrays it found. -/
theorem T1 {R : RealArgs} {V V' : Valuation τ sig (Elt Ideal)} (h : I1 R V)
    (hk : ∀ b, b ∉ outs cfg0 → V' b = V b)
    (e0 : (V' (Proc.devRef (τ := τ) .tc main_v6_0) : S768x768.Idx → Elt Ideal .bf16)
      = k0_pay5 (V (Proc.devRef (τ := τ) .tc main_v0)) (V (Proc.devRef (τ := τ) .tc main_arg8)) (V (Proc.devRef (τ := τ) .tc main_arg2)))
    (e1 : (V' (Proc.devRef (τ := τ) .tc main_v6_1) : S768x768.Idx → Elt Ideal .bf16)
      = k0_pay6 (V (Proc.devRef (τ := τ) .tc main_v0)) (V (Proc.devRef (τ := τ) .tc main_arg8)) (V (Proc.devRef (τ := τ) .tc main_arg4)))
    (e2 : (V' (Proc.devRef (τ := τ) .tc main_v6_2) : S1x768.Idx → Elt Ideal .f32)
      = k0_pay8 (V (Proc.devRef (τ := τ) .tc main_v0)) (V (Proc.devRef (τ := τ) .tc main_arg8)) (V (Proc.devRef (τ := τ) .tc main_v2))
          (V (Proc.devRef (τ := τ) .tc main_arg8)) (V (Proc.devRef (τ := τ) .tc main_v5)) (V (Proc.devRef (τ := τ) .tc main_v3)))
    (e3 : (V' (Proc.devRef (τ := τ) .tc main_v6_3) : S1x768.Idx → Elt Ideal .f32)
      = k0_pay1 (k0_pay4 (V (Proc.devRef (τ := τ) .tc main_v0)) (V (Proc.devRef (τ := τ) .tc main_arg8)))
          (k0_pay7 (V (Proc.devRef (τ := τ) .tc main_v2)) (V (Proc.devRef (τ := τ) .tc main_arg8)) (V (Proc.devRef (τ := τ) .tc main_v5)))
          (V (Proc.devRef (τ := τ) .tc main_v4)))
    (e4 : (V' (Proc.devRef (τ := τ) .tc main_v6_4) : S768x768.Idx → Elt Ideal .bf16)
      = k0_pay2 (View.ld (V (Proc.devRef (τ := τ) .tc main_arg10) : S768x1536.Idx → Elt Ideal .f32)
          (Rect.unit (s := S768x1536) ![0, 0] S768x768.size inb_S768x1536_S768x768_0_0)))
    (e5 : (V' (Proc.devRef (τ := τ) .tc main_v6_5) : S768x768.Idx → Elt Ideal .bf16)
      = k0_pay3 (View.ld (V (Proc.devRef (τ := τ) .tc main_arg10) : S768x1536.Idx → Elt Ideal .f32)
          (Rect.unit (s := S768x1536) ![0, 768] S768x768.size inb_S768x1536_S768x768_0_768))) : I2 R V' := by
  have hne : ∀ r : Ref sig .tc, r ∉ ([main_v6_0, main_v6_1, main_v6_2, main_v6_3, main_v6_4, main_v6_5] : List (Ref sig .tc)) →
      V' (Proc.devRef (τ := τ) .tc r) = V (Proc.devRef (τ := τ) .tc r) := fun r hr => hk _ (by
    rw [outs0_eq]
    simp only [Finset.mem_insert, Finset.mem_singleton, not_or]
    simp only [List.mem_cons, List.not_mem_nil, or_false, not_or] at hr
    exact ⟨fun e => hr.1 (Proc.devRef_injective _ e), fun e => hr.2.1 (Proc.devRef_injective _ e),
      fun e => hr.2.2.1 (Proc.devRef_injective _ e), fun e => hr.2.2.2.1 (Proc.devRef_injective _ e),
      fun e => hr.2.2.2.2.1 (Proc.devRef_injective _ e), fun e => hr.2.2.2.2.2 (Proc.devRef_injective _ e)⟩)
  have h1 : I1 R V' := h.of_eq fun r hr => hne r (by
    revert r; decide)
  refine { toI1 := h1, v6_0 := ?_, v6_1 := ?_, v6_2 := ?_, v6_3 := ?_, v6_4 := ?_, v6_5 := ?_ }
  · rw [e0, h.v0, h.a8, h.a2]
    funext j
    obtain ⟨i, k, rfl⟩ : ∃ (i : Fin 768) (k : Fin 768), j = ix2 i k := ⟨j 0, j 1, eq_ix2 j⟩
    exact k0_pay5_mt R.tW R.ipw R.ow i k
  · rw [e1, h.v0, h.a8, h.a4]
    funext j
    obtain ⟨i, k, rfl⟩ : ∃ (i : Fin 768) (k : Fin 768), j = ix2 i k := ⟨j 0, j 1, eq_ix2 j⟩
    exact k0_pay6_mg R.gW R.ipw R.ow i k
  · rw [e2, h.v0, h.a8, h.v2, h.v5, h.v3]
    funext j
    obtain ⟨u, k, rfl⟩ : ∃ (u : Fin 1) (k : Fin 768), j = ix2 u k := ⟨j 0, j 1, eq_ix2 j⟩
    exact k0_pay8_ct R.tb R.ipw R.ipb R.ow R.ob u k
  · rw [e3, h.v0, h.a8, h.v2, h.v5, h.v4]
    funext j
    obtain ⟨u, k, rfl⟩ : ∃ (u : Fin 1) (k : Fin 768), j = ix2 u k := ⟨j 0, j 1, eq_ix2 j⟩
    exact k0_pay1_cg R.gb R.ipw R.ipb R.ow R.ob u k
  · rw [e4, h.a10, ld_left]
    funext j
    obtain ⟨i, k, rfl⟩ : ∃ (i : Fin 768) (k : Fin 768), j = ix2 i k := ⟨j 0, j 1, eq_ix2 j⟩
    exact k0_pay2_p1t R.pW i k
  · rw [e5, h.a10, ld_right]
    funext j
    obtain ⟨i, k, rfl⟩ : ∃ (i : Fin 768) (k : Fin 768), j = ix2 i k := ⟨j 0, j 1, eq_ix2 j⟩
    exact k0_pay3_p2t R.pW i k

theorem I2.of_eq {R : RealArgs} {V V' : Valuation τ sig (Elt Ideal)} (h : I2 R V)
    (e : ∀ r : Ref sig .tc, r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_v0, main_v2, main_v3, main_v4, main_v5, main_v6_0, main_v6_1, main_v6_2, main_v6_3, main_v6_4, main_v6_5] : List (Ref sig .tc)) →
      V' (Proc.devRef (τ := τ) .tc r) = V (Proc.devRef (τ := τ) .tc r)) : I2 R V' :=
  { a0 := (e main_arg0 (by decide)).trans h.a0,
    a1 := (e main_arg1 (by decide)).trans h.a1,
    a2 := (e main_arg2 (by decide)).trans h.a2,
    a3 := (e main_arg3 (by decide)).trans h.a3,
    a4 := (e main_arg4 (by decide)).trans h.a4,
    a5 := (e main_arg5 (by decide)).trans h.a5,
    a6 := (e main_arg6 (by decide)).trans h.a6,
    a7 := (e main_arg7 (by decide)).trans h.a7,
    a8 := (e main_arg8 (by decide)).trans h.a8,
    a9 := (e main_arg9 (by decide)).trans h.a9,
    a10 := (e main_arg10 (by decide)).trans h.a10,
    a11 := (e main_arg11 (by decide)).trans h.a11,
    a12 := (e main_arg12 (by decide)).trans h.a12,
    a13 := (e main_arg13 (by decide)).trans h.a13,
    a14 := (e main_arg14 (by decide)).trans h.a14,
    a15 := (e main_arg15 (by decide)).trans h.a15,
    a16 := (e main_arg16 (by decide)).trans h.a16,
    a17 := (e main_arg17 (by decide)).trans h.a17,
    a18 := (e main_arg18 (by decide)).trans h.a18,
    a19 := (e main_arg19 (by decide)).trans h.a19,
    v0 := (e main_v0 (by decide)).trans h.v0,
    v2 := (e main_v2 (by decide)).trans h.v2,
    v3 := (e main_v3 (by decide)).trans h.v3,
    v4 := (e main_v4 (by decide)).trans h.v4,
    v5 := (e main_v5 (by decide)).trans h.v5,
    v6_0 := (e main_v6_0 (by decide)).trans h.v6_0,
    v6_1 := (e main_v6_1 (by decide)).trans h.v6_1,
    v6_2 := (e main_v6_2 (by decide)).trans h.v6_2,
    v6_3 := (e main_v6_3 (by decide)).trans h.v6_3,
    v6_4 := (e main_v6_4 (by decide)).trans h.v6_4,
    v6_5 := (e main_v6_5 (by decide)).trans h.v6_5 }

/-- After the copy of the queue: its columns from 4096 on are the queue's. -/
structure I3 : Prop extends I2 R V where
  v7 : ∀ (row : Fin 768) (col : Fin 65536), 4096 ≤ col.val →
    (V (Proc.devRef (τ := τ) .tc main_v7) : S768x65536.Idx → Elt Ideal .f32) (ix2 row col) = ((R.queue row col : ℝ) : EReal)

theorem I3.of_eq {R : RealArgs} {V V' : Valuation τ sig (Elt Ideal)} (h : I3 R V)
    (e : ∀ r : Ref sig .tc, r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_v0, main_v2, main_v3, main_v4, main_v5, main_v6_0, main_v6_1, main_v6_2, main_v6_3, main_v6_4, main_v6_5, main_v7] : List (Ref sig .tc)) →
      V' (Proc.devRef (τ := τ) .tc r) = V (Proc.devRef (τ := τ) .tc r)) : I3 R V' :=
  { a0 := (e main_arg0 (by decide)).trans h.a0,
    a1 := (e main_arg1 (by decide)).trans h.a1,
    a2 := (e main_arg2 (by decide)).trans h.a2,
    a3 := (e main_arg3 (by decide)).trans h.a3,
    a4 := (e main_arg4 (by decide)).trans h.a4,
    a5 := (e main_arg5 (by decide)).trans h.a5,
    a6 := (e main_arg6 (by decide)).trans h.a6,
    a7 := (e main_arg7 (by decide)).trans h.a7,
    a8 := (e main_arg8 (by decide)).trans h.a8,
    a9 := (e main_arg9 (by decide)).trans h.a9,
    a10 := (e main_arg10 (by decide)).trans h.a10,
    a11 := (e main_arg11 (by decide)).trans h.a11,
    a12 := (e main_arg12 (by decide)).trans h.a12,
    a13 := (e main_arg13 (by decide)).trans h.a13,
    a14 := (e main_arg14 (by decide)).trans h.a14,
    a15 := (e main_arg15 (by decide)).trans h.a15,
    a16 := (e main_arg16 (by decide)).trans h.a16,
    a17 := (e main_arg17 (by decide)).trans h.a17,
    a18 := (e main_arg18 (by decide)).trans h.a18,
    a19 := (e main_arg19 (by decide)).trans h.a19,
    v0 := (e main_v0 (by decide)).trans h.v0,
    v2 := (e main_v2 (by decide)).trans h.v2,
    v3 := (e main_v3 (by decide)).trans h.v3,
    v4 := (e main_v4 (by decide)).trans h.v4,
    v5 := (e main_v5 (by decide)).trans h.v5,
    v6_0 := (e main_v6_0 (by decide)).trans h.v6_0,
    v6_1 := (e main_v6_1 (by decide)).trans h.v6_1,
    v6_2 := (e main_v6_2 (by decide)).trans h.v6_2,
    v6_3 := (e main_v6_3 (by decide)).trans h.v6_3,
    v6_4 := (e main_v6_4 (by decide)).trans h.v6_4,
    v6_5 := (e main_v6_5 (by decide)).trans h.v6_5,
    v7 := fun row col hc => by rw [e main_v7 (by decide)]; exact h.v7 row col hc }

/-- The copy of the queue writes one buffer. -/
theorem T2 {R : RealArgs} {V V' : Valuation τ sig (Elt Ideal)} (h : I2 R V)
    (hk : ∀ b, b ≠ Proc.devRef (τ := τ) .tc main_v7 → V' b = V b)
    (hq : ∀ (row : Fin 768) (col : Fin 65536), 4096 ≤ col.val →
      (V' (Proc.devRef (τ := τ) .tc main_v7) : S768x65536.Idx → Elt Ideal .f32) (ix2 row col) = ((R.queue row col : ℝ) : EReal)) : I3 R V' :=
  { toI2 := h.of_eq (fun r hr => hk _ (devRef_ne_of_ne (by revert r; decide))), v7 := hq }

/-- Before the second kernel: the two data arrays narrowed (no change at the extended reals), seven vectors as rows. -/
structure I4 : Prop extends I3 R V where
  v8 : (V (Proc.devRef (τ := τ) .tc main_v8) : S4096x768.Idx → Elt Ideal .bf16) = cm R.txt
  v9 : (V (Proc.devRef (τ := τ) .tc main_v9) : S4096x768.Idx → Elt Ideal .bf16) = cm R.gph
  v10 : (V (Proc.devRef (τ := τ) .tc main_v10) : S1x768.Idx → Elt Ideal .f32) = cr R.pb
  v11 : (V (Proc.devRef (τ := τ) .tc main_v11) : S1x768.Idx → Elt Ideal .f32) = cr R.l1g
  v12 : (V (Proc.devRef (τ := τ) .tc main_v12) : S1x768.Idx → Elt Ideal .f32) = cr R.l1b
  v13 : (V (Proc.devRef (τ := τ) .tc main_v13) : S1x768.Idx → Elt Ideal .f32) = cr R.l2g
  v14 : (V (Proc.devRef (τ := τ) .tc main_v14) : S1x768.Idx → Elt Ideal .f32) = cr R.l2b
  v15 : (V (Proc.devRef (τ := τ) .tc main_v15) : S1x768.Idx → Elt Ideal .f32) = cr R.lfg
  v16 : (V (Proc.devRef (τ := τ) .tc main_v16) : S1x768.Idx → Elt Ideal .f32) = cr R.lfb

theorem I4.of_eq {R : RealArgs} {V V' : Valuation τ sig (Elt Ideal)} (h : I4 R V)
    (e : ∀ r : Ref sig .tc, r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_v0, main_v2, main_v3, main_v4, main_v5, main_v6_0, main_v6_1, main_v6_2, main_v6_3, main_v6_4, main_v6_5, main_v7, main_v8, main_v9, main_v10, main_v11, main_v12, main_v13, main_v14, main_v15, main_v16] : List (Ref sig .tc)) →
      V' (Proc.devRef (τ := τ) .tc r) = V (Proc.devRef (τ := τ) .tc r)) : I4 R V' :=
  { a0 := (e main_arg0 (by decide)).trans h.a0,
    a1 := (e main_arg1 (by decide)).trans h.a1,
    a2 := (e main_arg2 (by decide)).trans h.a2,
    a3 := (e main_arg3 (by decide)).trans h.a3,
    a4 := (e main_arg4 (by decide)).trans h.a4,
    a5 := (e main_arg5 (by decide)).trans h.a5,
    a6 := (e main_arg6 (by decide)).trans h.a6,
    a7 := (e main_arg7 (by decide)).trans h.a7,
    a8 := (e main_arg8 (by decide)).trans h.a8,
    a9 := (e main_arg9 (by decide)).trans h.a9,
    a10 := (e main_arg10 (by decide)).trans h.a10,
    a11 := (e main_arg11 (by decide)).trans h.a11,
    a12 := (e main_arg12 (by decide)).trans h.a12,
    a13 := (e main_arg13 (by decide)).trans h.a13,
    a14 := (e main_arg14 (by decide)).trans h.a14,
    a15 := (e main_arg15 (by decide)).trans h.a15,
    a16 := (e main_arg16 (by decide)).trans h.a16,
    a17 := (e main_arg17 (by decide)).trans h.a17,
    a18 := (e main_arg18 (by decide)).trans h.a18,
    a19 := (e main_arg19 (by decide)).trans h.a19,
    v0 := (e main_v0 (by decide)).trans h.v0,
    v2 := (e main_v2 (by decide)).trans h.v2,
    v3 := (e main_v3 (by decide)).trans h.v3,
    v4 := (e main_v4 (by decide)).trans h.v4,
    v5 := (e main_v5 (by decide)).trans h.v5,
    v6_0 := (e main_v6_0 (by decide)).trans h.v6_0,
    v6_1 := (e main_v6_1 (by decide)).trans h.v6_1,
    v6_2 := (e main_v6_2 (by decide)).trans h.v6_2,
    v6_3 := (e main_v6_3 (by decide)).trans h.v6_3,
    v6_4 := (e main_v6_4 (by decide)).trans h.v6_4,
    v6_5 := (e main_v6_5 (by decide)).trans h.v6_5,
    v7 := fun row col hc => by rw [e main_v7 (by decide)]; exact h.v7 row col hc,
    v8 := (e main_v8 (by decide)).trans h.v8,
    v9 := (e main_v9 (by decide)).trans h.v9,
    v10 := (e main_v10 (by decide)).trans h.v10,
    v11 := (e main_v11 (by decide)).trans h.v11,
    v12 := (e main_v12 (by decide)).trans h.v12,
    v13 := (e main_v13 (by decide)).trans h.v13,
    v14 := (e main_v14 (by decide)).trans h.v14,
    v15 := (e main_v15 (by decide)).trans h.v15,
    v16 := (e main_v16 (by decide)).trans h.v16 }

theorem T3 {R : RealArgs} {V : Valuation τ sig (Elt Ideal)} (h : I3 R V) : I4 R (after (ops1 (F := Ideal)) V) := by
  have h3 : I3 R (after (ops1 (F := Ideal)) V) := h.of_eq fun r hr => after_keep ops1_writes V r (by
    revert r; decide)
  refine { toI3 := h3, v8 := ?_, v9 := ?_, v10 := ?_, v11 := ?_, v12 := ?_, v13 := ?_, v14 := ?_, v15 := ?_, v16 := ?_ }
  · after_results_simp
    rw [h.a0]; rfl
  · after_results_simp
    rw [h.a1]; rfl
  · after_results_simp
    rw [h.a11]; exact reshape_c1 R.pb shapeCasts_S768_S1x768
  · after_results_simp
    rw [h.a12]; exact reshape_c1 R.l1g shapeCasts_S768_S1x768
  · after_results_simp
    rw [h.a13]; exact reshape_c1 R.l1b shapeCasts_S768_S1x768
  · after_results_simp
    rw [h.a14]; exact reshape_c1 R.l2g shapeCasts_S768_S1x768
  · after_results_simp
    rw [h.a15]; exact reshape_c1 R.l2b shapeCasts_S768_S1x768
  · after_results_simp
    rw [h.a16]; exact reshape_c1 R.lfg shapeCasts_S768_S1x768
  · after_results_simp
    rw [h.a17]; exact reshape_c1 R.lfb shapeCasts_S768_S1x768

/-- The specification's first result on the real inputs. -/
def RealArgs.keys (R : RealArgs) : Fin 4096 → Fin 768 → ℝ := Spec.keys R.txt R.gph R.tW R.tb R.gW R.gb R.ipw R.ipb R.ow R.ob R.pW R.pb R.l1g R.l1b R.l2g R.l2b R.lfg R.lfb
/-- The specification's second result on the real inputs. -/
def RealArgs.newQueue (R : RealArgs) : Fin 768 → Fin 65536 → ℝ := Spec.newQueue R.txt R.gph R.tW R.tb R.gW R.gb R.ipw R.ipb R.ow R.ob R.pW R.pb R.l1g R.l1b R.l2g R.l2b R.lfg R.lfb R.queue

/-- After the second kernel: the keys and their transpose. -/
structure I5 : Prop extends I4 R V where
  v17_0 : (V (Proc.devRef (τ := τ) .tc main_v17_0) : S4096x768.Idx → Elt Ideal .f32) = cm R.keys
  v17_1 : (V (Proc.devRef (τ := τ) .tc main_v17_1) : S768x4096.Idx → Elt Ideal .f32) = cm fun k r => R.keys r k

theorem I5.of_eq {R : RealArgs} {V V' : Valuation τ sig (Elt Ideal)} (h : I5 R V)
    (e : ∀ r : Ref sig .tc, r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_v0, main_v2, main_v3, main_v4, main_v5, main_v6_0, main_v6_1, main_v6_2, main_v6_3, main_v6_4, main_v6_5, main_v7, main_v8, main_v9, main_v10, main_v11, main_v12, main_v13, main_v14, main_v15, main_v16, main_v17_0, main_v17_1] : List (Ref sig .tc)) →
      V' (Proc.devRef (τ := τ) .tc r) = V (Proc.devRef (τ := τ) .tc r)) : I5 R V' :=
  { a0 := (e main_arg0 (by decide)).trans h.a0,
    a1 := (e main_arg1 (by decide)).trans h.a1,
    a2 := (e main_arg2 (by decide)).trans h.a2,
    a3 := (e main_arg3 (by decide)).trans h.a3,
    a4 := (e main_arg4 (by decide)).trans h.a4,
    a5 := (e main_arg5 (by decide)).trans h.a5,
    a6 := (e main_arg6 (by decide)).trans h.a6,
    a7 := (e main_arg7 (by decide)).trans h.a7,
    a8 := (e main_arg8 (by decide)).trans h.a8,
    a9 := (e main_arg9 (by decide)).trans h.a9,
    a10 := (e main_arg10 (by decide)).trans h.a10,
    a11 := (e main_arg11 (by decide)).trans h.a11,
    a12 := (e main_arg12 (by decide)).trans h.a12,
    a13 := (e main_arg13 (by decide)).trans h.a13,
    a14 := (e main_arg14 (by decide)).trans h.a14,
    a15 := (e main_arg15 (by decide)).trans h.a15,
    a16 := (e main_arg16 (by decide)).trans h.a16,
    a17 := (e main_arg17 (by decide)).trans h.a17,
    a18 := (e main_arg18 (by decide)).trans h.a18,
    a19 := (e main_arg19 (by decide)).trans h.a19,
    v0 := (e main_v0 (by decide)).trans h.v0,
    v2 := (e main_v2 (by decide)).trans h.v2,
    v3 := (e main_v3 (by decide)).trans h.v3,
    v4 := (e main_v4 (by decide)).trans h.v4,
    v5 := (e main_v5 (by decide)).trans h.v5,
    v6_0 := (e main_v6_0 (by decide)).trans h.v6_0,
    v6_1 := (e main_v6_1 (by decide)).trans h.v6_1,
    v6_2 := (e main_v6_2 (by decide)).trans h.v6_2,
    v6_3 := (e main_v6_3 (by decide)).trans h.v6_3,
    v6_4 := (e main_v6_4 (by decide)).trans h.v6_4,
    v6_5 := (e main_v6_5 (by decide)).trans h.v6_5,
    v7 := fun row col hc => by rw [e main_v7 (by decide)]; exact h.v7 row col hc,
    v8 := (e main_v8 (by decide)).trans h.v8,
    v9 := (e main_v9 (by decide)).trans h.v9,
    v10 := (e main_v10 (by decide)).trans h.v10,
    v11 := (e main_v11 (by decide)).trans h.v11,
    v12 := (e main_v12 (by decide)).trans h.v12,
    v13 := (e main_v13 (by decide)).trans h.v13,
    v14 := (e main_v14 (by decide)).trans h.v14,
    v15 := (e main_v15 (by decide)).trans h.v15,
    v16 := (e main_v16 (by decide)).trans h.v16,
    v17_0 := (e main_v17_0 (by decide)).trans h.v17_0,
    v17_1 := (e main_v17_1 (by decide)).trans h.v17_1 }

/-- After the copy into the aliased output: its columns from 4096 on are the queue's. -/
structure I6 : Prop extends I5 R V where
  v18 : ∀ (row : Fin 768) (col : Fin 65536), 4096 ≤ col.val →
    (V (Proc.devRef (τ := τ) .tc main_v18) : S768x65536.Idx → Elt Ideal .f32) (ix2 row col) = ((R.queue row col : ℝ) : EReal)

theorem T5 {R : RealArgs} {V : Valuation τ sig (Elt Ideal)} (h : I5 R V) : I6 R (after (ops2 (F := Ideal)) V) := by
  have h5 : I5 R (after (ops2 (F := Ideal)) V) := h.of_eq fun r hr => after_keep ops2_writes V r (by
    revert r; decide)
  refine { toI5 := h5, v18 := fun row col hc => ?_ }
  after_results_simp
  exact h.v7 row col hc

/-- After the third kernel: the new queue. -/
structure I7 : Prop extends I5 R V where
  q : (V (Proc.devRef (τ := τ) .tc main_v18) : S768x65536.Idx → Elt Ideal .f32) = cm R.newQueue

theorem T6 {R : RealArgs} (VV : Dev nD → Valuation τ sig (Elt Ideal)) (d : Dev nD) {V' : Valuation τ sig (Elt Ideal)}
    (h : I6 R (VV d)) (hk : ∀ b, b ∉ outs cfg3 → V' b = VV d b)
    (hG : (V' (Proc.devRef (τ := τ) .tc main_v18) : S768x65536.Idx → Elt Ideal .f32) = G3 VV d) : I7 R V' := by
  have h5 : I5 R V' := h.toI5.of_eq fun r hr => hk _ (by
    rw [outs3_eq, Finset.mem_singleton]
    exact devRef_ne_of_ne (by revert r; decide))
  refine { toI5 := h5, q := ?_ }
  rw [hG]
  funext i
  obtain ⟨row, col, rfl⟩ : ∃ (row : Fin 768) (col : Fin 65536), i = ix2 row col := ⟨i 0, i 1, eq_ix2 i⟩
  unfold G3
  by_cases hc : ((ix2 row col : S768x65536.Idx) 1).val < 4096
  · rw [dif_pos hc]
    show (VV d (Proc.devRef (τ := τ) .tc main_v17_1) : S768x4096.Idx → Elt Ideal .f32) (colIx (ix2 row col) hc) = _
    rw [h.v17_1]
    show ((R.keys ⟨col.val, hc⟩ row : ℝ) : EReal) = ((R.newQueue row col : ℝ) : EReal)
    unfold RealArgs.newQueue Spec.newQueue
    rw [dif_pos hc]; rfl
  · rw [dif_neg hc]
    show (VV d (Proc.devRef (τ := τ) .tc main_v18) : S768x65536.Idx → Elt Ideal .f32) (ix2 row col) = _
    rw [h.v18 row col (not_lt.mp hc)]
    show ((R.queue row col : ℝ) : EReal) = ((R.newQueue row col : ℝ) : EReal)
    unfold RealArgs.newQueue Spec.newQueue
    rw [dif_neg hc]

/-- Contents moved to a typed reference's buffer type and back are the contents. -/
theorem ofBuf_toBuf {T : BufTy} (x : TRef sig T) (v : T.Contents (Elt Ideal)) : x.ofBuf (x.toBuf v) = v := by
  cases x with
  | mk r h a b => cases h; rfl

/-- The three results, beside the arguments still where they were. -/
structure Ifin : Prop extends I0 R V where
  keys : (V (Proc.devRef (τ := τ) .tc main_v17_0) : S4096x768.Idx → Elt Ideal .f32) = cm R.keys
  queue : (V (Proc.devRef (τ := τ) .tc main_v18) : S768x65536.Idx → Elt Ideal .f32) = cm R.newQueue
  ptr : (V (Proc.devRef (τ := τ) .tc main_v21) : S1.Idx → Elt Ideal .i32) = fun _ => 4096#32

theorem T7 {R : RealArgs} {V : Valuation τ sig (Elt Ideal)} (h : I7 R V) : Ifin R (after (ops3 (F := Ideal)) V) := by
  refine { toI0 := h.toI5.toI4.toI3.toI2.toI1.toI0.after _ ops3_keep, keys := ?_, queue := ?_, ptr := ?_ }
  · rw [after_keep ops3_writes V main_v17_0 (by decide)]; exact h.v17_0
  · rw [after_keep ops3_writes V main_v18 (by decide)]; exact h.q
  · after_results_simp
    rw [h.a19]
    simp only [ofBuf_toBuf]
    funext i
    simp [select, cmpi, andi, addi, Host.remsi, constantI, IntOp.remsi, broadcastInDim, TRef.toBuf, TRef.ofBuf]
    decide +revert

end Cert.KernelIdeal.Hand.Val
end
-- ==== Proof.Algebraic.lean ====
/- The agreement of the idealized kernel and the idealized reference: under the precondition the arguments are the
   coercions of real arrays (the pointer 0); the reference's three results are then the specification's values of those
   arrays, and so are the kernel's (its side is taken here as a hypothesis, `KernelRun`); the two runs therefore end with
   equal results, which the claim's witnesses name. -/
import proofs.«211565_g20684562498226_cont_8to1_684_24_alg».proof.Defs
import proofs.«211565_g20684562498226_cont_8to1_684_24_alg».proof.Proof.RefFinal
import proofs.«211565_g20684562498226_cont_8to1_684_24_alg».proof.Proof.RefRun
import proofs.«211565_g20684562498226_cont_8to1_684_24_alg».proof.Proof.ValChain

noncomputable section

namespace Cert.Proof.Alg

open Idealize.ShloMosaic Idealize.SL.Sem Idealize.ShloMosaic.ValueIdx
open Cert.KernelIdeal.Hand.Val (RealArgs I0 cm c1)

/-- The specification's first result at a bundle of real arrays, as an array of extended reals. -/
def specKeys (R : RealArgs) : (⟨2, ![4096, 768]⟩ : Shape).Idx → EReal :=
  cm fun r k => Cert.Spec.keys R.txt R.gph R.tW R.tb R.gW R.gb R.ipw R.ipb R.ow R.ob R.pW R.pb R.l1g R.l1b R.l2g R.l2b R.lfg R.lfb r k

/-- The specification's second result at a bundle of real arrays, as an array of extended reals. -/
def specQueue (R : RealArgs) : (⟨2, ![768, 65536]⟩ : Shape).Idx → EReal :=
  cm fun row col => Cert.Spec.newQueue R.txt R.gph R.tW R.tb R.gW R.gb R.ipw R.ipb R.ow R.ob R.pW R.pb R.l1g R.l1b R.l2g R.l2b R.lfg R.lfb R.queue row col

/-- The kernel's side: from a memory whose argument arrays are, on each device, the coercions of a bundle of real
    arrays (the pointer 0), every weakly fair execution terminates with the three results at the specification's
    values of that bundle and the arguments unchanged. -/
def KernelRun : Prop :=
  ∀ (m : (ℓ : Loc Cert.KernelIdeal.nD Cert.KernelIdeal.τ Cert.KernelIdeal.sig) → Buf (Elt Ideal) ℓ) (g : Dev Cert.KernelIdeal.nD → PrngReg) (R : Dev Cert.KernelIdeal.nD → RealArgs),
    (∀ c : Dev Cert.KernelIdeal.nD, I0 (R c) (StableHlo.launchContents m c)) →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v17_0) = specKeys (R c)
      ∧ r.2.mem ((c.tc : Thread Cert.KernelIdeal.nD Cert.KernelIdeal.τ).loc Cert.KernelIdeal.main_v18) = specQueue (R c)
      ∧ r.2.mem ((c.tc : Thread Cert.KernelIdeal.nD Cert.KernelIdeal.τ).loc Cert.KernelIdeal.main_v21) = (fun _ => Cert.Spec.newPtr)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

/-- The two idealized programs agree: given the kernel's side, both runs end at the specification's values of the real
    arrays the precondition makes the arguments the coercions of. -/
theorem algebraic (hK : KernelRun) :
    @Cert.algebraic_KernelIdeal_ReferenceIdeal Cert.KernelIdeal.Gen.facts Cert.ReferenceIdeal.Gen.facts Cert.Pre_input_domain.Gen.facts := by
  intro m g m' g' hpre hagree
  have W : ∀ c : Dev Cert.KernelIdeal.nD, ∃ R : RealArgs, I0 R (StableHlo.launchContents m c)
      ∧ Cert.ReferenceIdeal.RefRun.out_keys (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) = specKeys R
      ∧ Cert.ReferenceIdeal.RefRun.out_queue (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) = specQueue R
      ∧ Cert.ReferenceIdeal.RefRun.out_ptr (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) = fun _ => Cert.Spec.newPtr := by
    intro c
    obtain ⟨txt, gph, tW, tb, gW, gb, ipw, ipb, ow, ob, pW, pb, l1g, l1b, l2g, l2b, lfg, lfb, queue, ⟨e0, e1, e2, e3, e4, e5, e6, e7, e8, e9, e10, e11, e12, e13, e14, e15, e16, e17, e18, e19⟩, hk, hq, hp⟩ :=
      Cert.ReferenceIdeal.RefSpec.ref_results _ _ _ _ _ _ _ _ _ _ _ _ _ _ _ _ _ _ _ _ (hpre c)
    refine ⟨⟨txt, gph, tW, tb, gW, gb, ipw, ipb, ow, ob, pW, pb, l1g, l1b, l2g, l2b, lfg, lfb, queue⟩, ⟨e0, e1, e2, e3, e4, e5, e6, e7, e8, e9, e10, e11, e12, e13, e14, e15, e16, e17, e18, e19⟩, ?_, ?_, hp⟩
    · funext j
      rw [eq_ix2 j]
      exact hk (j 0) (j 1)
    · funext j
      rw [eq_ix2 j]
      exact hq (j 0) (j 1)
  choose R hI hk hq hp using W
  refine ⟨fun c => specKeys (R c), fun c => specQueue (R c), fun c => fun _ => Cert.Spec.newPtr, hK m g R hI, ?_⟩
  refine (θ_run _ _ _).mono (fun _ h c => ?_) (Cert.ReferenceIdeal.RefRun.run (F := Ideal) m' g')
  obtain ⟨a0, a1, a2, a3, a4, a5, a6, a7, a8, a9, a10, a11, a12, a13, a14, a15, a16, a17, a18, a19⟩ := hagree c
  obtain ⟨h1, h2, h3, hrest⟩ := h c
  rw [a0, a1, a2, a3, a4, a5, a6, a7, a8, a9, a10, a11, a12, a13, a14, a15, a16, a17, a18, a19] at h1 h2 h3
  exact ⟨h1.trans (hk c), h2.trans (hq c), h3.trans (hp c), hrest⟩

/-- The kernel's side stated for one bundle of real arrays shared by every device. -/
def KernelRun1 : Prop :=
  ∀ (m : (ℓ : Loc Cert.KernelIdeal.nD Cert.KernelIdeal.τ Cert.KernelIdeal.sig) → Buf (Elt Ideal) ℓ) (g : Dev Cert.KernelIdeal.nD → PrngReg) (R : RealArgs),
    (∀ c : Dev Cert.KernelIdeal.nD, I0 R (StableHlo.launchContents m c)) →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v17_0) = specKeys R
      ∧ r.2.mem ((c.tc : Thread Cert.KernelIdeal.nD Cert.KernelIdeal.τ).loc Cert.KernelIdeal.main_v18) = specQueue R
      ∧ r.2.mem ((c.tc : Thread Cert.KernelIdeal.nD Cert.KernelIdeal.τ).loc Cert.KernelIdeal.main_v21) = (fun _ => Cert.Spec.newPtr)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

/-- There is one device, so a bundle per device is the bundle of that device. -/
theorem KernelRun.of_single (h1 : KernelRun1) : KernelRun := fun m g R hI => by
  have hc : ∀ c : Dev Cert.KernelIdeal.nD, c = (0 : Fin 1) := fun c => Subsingleton.elim (α := Fin 1) c 0
  have hR : ∀ c, R c = R (0 : Fin 1) := fun c => congrArg R (hc c)
  refine (θ_run _ _ _).mono (fun _ h c => ?_) (h1 m g (R (0 : Fin 1)) fun c => hR c ▸ hI c)
  rw [hR c]
  exact h c

end Cert.Proof.Alg

end
-- ==== Proof.RegionsVal0.lean ====
/-
  The first TensorCore pallas_call with its six output arrays' final contents named: the exact proof data (each input's
  staging buffer keeps its block, each output's ends at the body's payload of the input blocks), the body with what it
  leaves, each output array after the one write-back as that payload of the input ARRAYS (every window's block is its
  whole array), and the region's step.
-/
import proofs.«211565_g20684562498226_cont_8to1_684_24_alg».proof.Proof.Setup
import proofs.«211565_g20684562498226_cont_8to1_684_24_alg».proof.Proof.Gen.KernelIdeal.Points
import Idealize.ShloMosaic.Lib.Pipeline.Frame
import proofs.«211565_g20684562498226_cont_8to1_684_24_alg».proof.Proof.RegionsValData

noncomputable section

namespace Cert.KernelIdeal.Hand

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The first pallas_call with its six output arrays' final contents named -/

variable (VV : Dev nD → Valuation τ sig (Elt F)) (WW : Waits sig (HIx 1)) (OO : CellTallies nD τ sig (HIx 1))

/-- Window `w`'s block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (VV c (Pipeline.arrRef spec0 w))

/-- The exact proof data: each input's staging buffer keeps its block, each output's ends at the body's payload. -/
def datV0 (c : Dev nD) : Pipeline.Dat τ (Elt F) (HIx 1) ℕ UU ℕ cfg0 c where
  A w := VV c (Pipeline.arrRef spec0 w)
  after w t := match w with
    | ⟨0, _⟩ => iblk0 VV c 0 t
    | ⟨1, _⟩ => iblk0 VV c 1 t
    | ⟨2, _⟩ => iblk0 VV c 2 t
    | ⟨3, _⟩ => iblk0 VV c 3 t
    | ⟨4, _⟩ => iblk0 VV c 4 t
    | ⟨5, _⟩ => iblk0 VV c 5 t
    | ⟨6, _⟩ => iblk0 VV c 6 t
    | ⟨7, _⟩ => iblk0 VV c 7 t
    | ⟨8, _⟩ => iblk0 VV c 8 t
    | ⟨9, _⟩ => k0_pay5 (iblk0 VV c 4 t) (iblk0 VV c 6 t) (iblk0 VV c 0 t)
    | ⟨10, _⟩ => k0_pay6 (iblk0 VV c 4 t) (iblk0 VV c 6 t) (iblk0 VV c 2 t)
    | ⟨11, _⟩ => k0_pay8 (iblk0 VV c 4 t) (iblk0 VV c 6 t) (iblk0 VV c 5 t) (iblk0 VV c 6 t) (iblk0 VV c 7 t) (iblk0 VV c 1 t)
    | ⟨12, _⟩ => k0_pay1 (k0_pay4 (iblk0 VV c 4 t) (iblk0 VV c 6 t)) (k0_pay7 (iblk0 VV c 5 t) (iblk0 VV c 6 t) (iblk0 VV c 7 t)) (iblk0 VV c 3 t)
    | ⟨13, _⟩ => k0_pay2 (View.ld (iblk0 VV c 8 t) (Rect.unit (s := S768x1536) ![0, 0] S768x768.size inb_S768x1536_S768x768_0_0))
    | ⟨14, _⟩ => k0_pay3 (View.ld (iblk0 VV c 8 t) (Rect.unit (s := S768x1536) ![0, 768] S768x768.size inb_S768x1536_S768x768_0_768))
  Φ _ := Pipeline.scopedRest spec0 c
  q _ := fullShare
  owed _ := OO
  recorded _ := recB WW

/-- The family the region is stated over: the first pipeline's data, nothing said of the others. -/
def pdatsV0 : (p : Fin 3) → (c : Dev nD) → Pipeline.Dat τ (Elt F) (HIx 1) ℕ UU ℕ (Pipeline.pin (pcfgs (F := F)) adm p) c
  | 0 => fun c => datV0 VV WW OO c
  | 1 => fun c => datTriv cfg2 c
  | 2 => fun c => datTriv cfg3 c

theorem after0_0 (c : Dev nD) (t : Fin cfg0.N) : (datV0 VV WW OO c).after 0 t = iblk0 VV c 0 t := by dsimp only [datV0]
theorem after0_1 (c : Dev nD) (t : Fin cfg0.N) : (datV0 VV WW OO c).after 1 t = iblk0 VV c 1 t := by dsimp only [datV0]
theorem after0_2 (c : Dev nD) (t : Fin cfg0.N) : (datV0 VV WW OO c).after 2 t = iblk0 VV c 2 t := by dsimp only [datV0]
theorem after0_3 (c : Dev nD) (t : Fin cfg0.N) : (datV0 VV WW OO c).after 3 t = iblk0 VV c 3 t := by dsimp only [datV0]
theorem after0_4 (c : Dev nD) (t : Fin cfg0.N) : (datV0 VV WW OO c).after 4 t = iblk0 VV c 4 t := by dsimp only [datV0]
theorem after0_5 (c : Dev nD) (t : Fin cfg0.N) : (datV0 VV WW OO c).after 5 t = iblk0 VV c 5 t := by dsimp only [datV0]
theorem after0_6 (c : Dev nD) (t : Fin cfg0.N) : (datV0 VV WW OO c).after 6 t = iblk0 VV c 6 t := by dsimp only [datV0]
theorem after0_7 (c : Dev nD) (t : Fin cfg0.N) : (datV0 VV WW OO c).after 7 t = iblk0 VV c 7 t := by dsimp only [datV0]
theorem after0_8 (c : Dev nD) (t : Fin cfg0.N) : (datV0 VV WW OO c).after 8 t = iblk0 VV c 8 t := by dsimp only [datV0]
theorem after0_9 (c : Dev nD) (t : Fin cfg0.N) : (datV0 VV WW OO c).after 9 t = k0_pay5 (iblk0 VV c 4 t) (iblk0 VV c 6 t) (iblk0 VV c 0 t) := by dsimp only [datV0]
theorem after0_10 (c : Dev nD) (t : Fin cfg0.N) : (datV0 VV WW OO c).after 10 t = k0_pay6 (iblk0 VV c 4 t) (iblk0 VV c 6 t) (iblk0 VV c 2 t) := by dsimp only [datV0]
theorem after0_11 (c : Dev nD) (t : Fin cfg0.N) : (datV0 VV WW OO c).after 11 t = k0_pay8 (iblk0 VV c 4 t) (iblk0 VV c 6 t) (iblk0 VV c 5 t) (iblk0 VV c 6 t) (iblk0 VV c 7 t) (iblk0 VV c 1 t) := by dsimp only [datV0]
theorem after0_12 (c : Dev nD) (t : Fin cfg0.N) : (datV0 VV WW OO c).after 12 t = k0_pay1 (k0_pay4 (iblk0 VV c 4 t) (iblk0 VV c 6 t)) (k0_pay7 (iblk0 VV c 5 t) (iblk0 VV c 6 t) (iblk0 VV c 7 t)) (iblk0 VV c 3 t) := by dsimp only [datV0]
theorem after0_13 (c : Dev nD) (t : Fin cfg0.N) : (datV0 VV WW OO c).after 13 t = k0_pay2 (View.ld (iblk0 VV c 8 t) (Rect.unit (s := S768x1536) ![0, 0] S768x768.size inb_S768x1536_S768x768_0_0)) := by dsimp only [datV0]
theorem after0_14 (c : Dev nD) (t : Fin cfg0.N) : (datV0 VV WW OO c).after 14 t = k0_pay3 (View.ld (iblk0 VV c 8 t) (Rect.unit (s := S768x1536) ![0, 768] S768x768.size inb_S768x1536_S768x768_0_768)) := by dsimp only [datV0]

theorem before0_0 (c : Dev nD) (t : Fin cfg0.N) (d) : (datV0 VV WW OO c).before 0 t d = iblk0 VV c 0 t :=
  ((datV0 VV WW OO c).before_in_eq_fetched 0 rfl (fun _ => rfl) (fun _ _ _ => rfl)
    (fun t => by rw [after0_0]; unfold Pipeline.Dat.blockOf iblk0; rfl) t d).trans
    (by unfold Pipeline.Dat.fetched Pipeline.Dat.blockOf iblk0; rfl)
theorem before0_1 (c : Dev nD) (t : Fin cfg0.N) (d) : (datV0 VV WW OO c).before 1 t d = iblk0 VV c 1 t :=
  ((datV0 VV WW OO c).before_in_eq_fetched 1 rfl (fun _ => rfl) (fun _ _ _ => rfl)
    (fun t => by rw [after0_1]; unfold Pipeline.Dat.blockOf iblk0; rfl) t d).trans
    (by unfold Pipeline.Dat.fetched Pipeline.Dat.blockOf iblk0; rfl)
theorem before0_2 (c : Dev nD) (t : Fin cfg0.N) (d) : (datV0 VV WW OO c).before 2 t d = iblk0 VV c 2 t :=
  ((datV0 VV WW OO c).before_in_eq_fetched 2 rfl (fun _ => rfl) (fun _ _ _ => rfl)
    (fun t => by rw [after0_2]; unfold Pipeline.Dat.blockOf iblk0; rfl) t d).trans
    (by unfold Pipeline.Dat.fetched Pipeline.Dat.blockOf iblk0; rfl)
theorem before0_3 (c : Dev nD) (t : Fin cfg0.N) (d) : (datV0 VV WW OO c).before 3 t d = iblk0 VV c 3 t :=
  ((datV0 VV WW OO c).before_in_eq_fetched 3 rfl (fun _ => rfl) (fun _ _ _ => rfl)
    (fun t => by rw [after0_3]; unfold Pipeline.Dat.blockOf iblk0; rfl) t d).trans
    (by unfold Pipeline.Dat.fetched Pipeline.Dat.blockOf iblk0; rfl)
theorem before0_4 (c : Dev nD) (t : Fin cfg0.N) (d) : (datV0 VV WW OO c).before 4 t d = iblk0 VV c 4 t :=
  ((datV0 VV WW OO c).before_in_eq_fetched 4 rfl (fun _ => rfl) (fun _ _ _ => rfl)
    (fun t => by rw [after0_4]; unfold Pipeline.Dat.blockOf iblk0; rfl) t d).trans
    (by unfold Pipeline.Dat.fetched Pipeline.Dat.blockOf iblk0; rfl)
theorem before0_5 (c : Dev nD) (t : Fin cfg0.N) (d) : (datV0 VV WW OO c).before 5 t d = iblk0 VV c 5 t :=
  ((datV0 VV WW OO c).before_in_eq_fetched 5 rfl (fun _ => rfl) (fun _ _ _ => rfl)
    (fun t => by rw [after0_5]; unfold Pipeline.Dat.blockOf iblk0; rfl) t d).trans
    (by unfold Pipeline.Dat.fetched Pipeline.Dat.blockOf iblk0; rfl)
theorem before0_6 (c : Dev nD) (t : Fin cfg0.N) (d) : (datV0 VV WW OO c).before 6 t d = iblk0 VV c 6 t :=
  ((datV0 VV WW OO c).before_in_eq_fetched 6 rfl (fun _ => rfl) (fun _ _ _ => rfl)
    (fun t => by rw [after0_6]; unfold Pipeline.Dat.blockOf iblk0; rfl) t d).trans
    (by unfold Pipeline.Dat.fetched Pipeline.Dat.blockOf iblk0; rfl)
theorem before0_7 (c : Dev nD) (t : Fin cfg0.N) (d) : (datV0 VV WW OO c).before 7 t d = iblk0 VV c 7 t :=
  ((datV0 VV WW OO c).before_in_eq_fetched 7 rfl (fun _ => rfl) (fun _ _ _ => rfl)
    (fun t => by rw [after0_7]; unfold Pipeline.Dat.blockOf iblk0; rfl) t d).trans
    (by unfold Pipeline.Dat.fetched Pipeline.Dat.blockOf iblk0; rfl)
theorem before0_8 (c : Dev nD) (t : Fin cfg0.N) (d) : (datV0 VV WW OO c).before 8 t d = iblk0 VV c 8 t :=
  ((datV0 VV WW OO c).before_in_eq_fetched 8 rfl (fun _ => rfl) (fun _ _ _ => rfl)
    (fun t => by rw [after0_8]; unfold Pipeline.Dat.blockOf iblk0; rfl) t d).trans
    (by unfold Pipeline.Dat.fetched Pipeline.Dat.blockOf iblk0; rfl)

set_option maxHeartbeats 8000000 in
/-- The body on any staging memrefs, with what it leaves: every input block as it was, every output block at its payload
    of the input blocks. -/
theorem run0v (c : Dev nD) (arg0 : Memref sig .tc .vmem S768x768 .f32) (harg0 : arg0.IsWhole) (arg1 : Memref sig .tc .vmem S1x768 .f32) (harg1 : arg1.IsWhole) (arg2 : Memref sig .tc .vmem S768x768 .f32) (harg2 : arg2.IsWhole) (arg3 : Memref sig .tc .vmem S1x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x1536 .f32) (harg8 : arg8.IsWhole) (arg9 : Memref sig .tc .vmem S768x768 .bf16) (harg9 : arg9.IsWhole) (arg10 : Memref sig .tc .vmem S768x768 .bf16) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole)
    (x0 : Vec F S768x768 .f32) (x1 : Vec F S1x768 .f32) (x2 : Vec F S768x768 .f32) (x3 : Vec F S1x768 .f32) (x4 : Vec F S768x768 .f32) (x5 : Vec F S1x768 .f32) (x6 : Vec F S768x768 .f32) (x7 : Vec F S1x768 .f32) (x8 : Vec F S768x1536 .f32) (E : Set ℕ) (Q : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare (k0_pay5 x4 x6 x0)
            ∗ owns (c : Thread nD τ) arg10 fullShare (k0_pay6 x4 x6 x2)
            ∗ owns (c : Thread nD τ) arg11 fullShare (k0_pay8 x4 x6 x5 x6 x7 x1)
            ∗ owns (c : Thread nD τ) arg12 fullShare (k0_pay1 (k0_pay4 x4 x6) (k0_pay7 x5 x6 x7) x3)
            ∗ owns (c : Thread nD τ) arg13 fullShare (k0_pay2 (View.ld x8 (Rect.unit (s := S768x1536) ![0, 0] S768x768.size inb_S768x1536_S768x768_0_0)))
            ∗ owns (c : Thread nD τ) arg14 fullShare (k0_pay3 (View.ld x8 (Rect.unit (s := S768x1536) ![0, 768] S768x768.size inb_S768x1536_S768x768_0_768)))) -∗ Q ⟨⟩))
      ⊢ wp frame (wpE (defs₀ (F := F)) Variants.none c none) E (cc0__prep_body arg0 harg0 arg1 harg1 arg2 harg2 arg3 harg3 arg4 harg4 arg5 harg5 arg6 harg6 arg7 harg7 arg8 harg8 arg9 harg9 arg10 harg10 arg11 harg11 arg12 harg12 arg13 harg13 arg14 harg14) Q := by
  simp only [cc0__prep_body_eq_skeleton]; unfold cc0__prep_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg0.eq_unread hf0
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  sl_exec
  sl_step
  iapply Hk
  isplitl [H0]
  · iexists _; isplitr
    · ipureintro; exact harg0.read_unread _
    iexact H0
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    swap
    · iexact H9
    ipureintro
    rw [View.read_writes_eq_canon _ _ _ (fun y => ⟨_, List.mem_singleton_self _, View.mem_set_unit_zero hz2 inb_S768x768_S768x768_0_0 y⟩), View.canon_unit_zero hz2]
    simp only [View.readAt_eq_ld, Memref.IsWhole.read_unread, View.ld_unit_zero (S := S768x768) hz2, View.ld_unit_zero (S := S1x768) hz2]
    try rfl
  isplitl [H10]
  · iexists _; isplitr
    swap
    · iexact H10
    ipureintro
    rw [View.read_writes_eq_canon _ _ _ (fun y => ⟨_, List.mem_singleton_self _, View.mem_set_unit_zero hz2 inb_S768x768_S768x768_0_0 y⟩), View.canon_unit_zero hz2]
    simp only [View.readAt_eq_ld, Memref.IsWhole.read_unread, View.ld_unit_zero (S := S768x768) hz2, View.ld_unit_zero (S := S1x768) hz2]
    try rfl
  isplitl [H11]
  · iexists _; isplitr
    swap
    · iexact H11
    ipureintro
    rw [View.read_writes_eq_canon _ _ _ (fun y => ⟨_, List.mem_singleton_self _, View.mem_set_unit_zero hz2 inb_S1x768_S1x768_0_0 y⟩), View.canon_unit_zero hz2]
    simp only [View.readAt_eq_ld, Memref.IsWhole.read_unread, View.ld_unit_zero (S := S768x768) hz2, View.ld_unit_zero (S := S1x768) hz2]
    try rfl
  isplitl [H12]
  · iexists _; isplitr
    swap
    · iexact H12
    ipureintro
    rw [View.read_writes_eq_canon _ _ _ (fun y => ⟨_, List.mem_singleton_self _, View.mem_set_unit_zero hz2 inb_S1x768_S1x768_0_0 y⟩), View.canon_unit_zero hz2]
    unfold run0v.sl.r run0v.sl.r_1
    simp only [View.readAt_eq_ld, Memref.IsWhole.read_unread, View.ld_unit_zero (S := S768x768) hz2, View.ld_unit_zero (S := S1x768) hz2]
    try rfl
  isplitl [H13]
  · iexists _; isplitr
    swap
    · iexact H13
    ipureintro
    rw [View.read_writes_eq_canon _ _ _ (fun y => ⟨_, List.mem_singleton_self _, View.mem_set_unit_zero hz2 inb_S768x768_S768x768_0_0 y⟩), View.canon_unit_zero hz2]
    simp only [View.readAt_eq_ld, Memref.IsWhole.read_unread, View.ld_unit_zero (S := S768x768) hz2, View.ld_unit_zero (S := S1x768) hz2]
    try rfl
  iexists _; isplitr
  swap
  · iexact H14
  ipureintro
  rw [View.read_writes_eq_canon _ _ _ (fun y => ⟨_, List.mem_singleton_self _, View.mem_set_unit_zero hz2 inb_S768x768_S768x768_0_0 y⟩), View.canon_unit_zero hz2]
  simp only [View.readAt_eq_ld, Memref.IsWhole.read_unread, View.ld_unit_zero (S := S768x768) hz2, View.ld_unit_zero (S := S1x768) hz2]
  try rfl

set_option maxHeartbeats 4000000 in
/-- The body at the point. -/
theorem sound_body0v (c : Dev nD) (t : Fin cfg0.N) :
    iprop((datV0 VV WW OO c).Φ t.castSucc ∗ (datV0 VV WW OO c).owesAt none t.castSucc
        ∗ (∃ d, owns (c : Thread nD τ) (Gen.st0_0 t) fullShare ((datV0 VV WW OO c).before 0 t d))
        ∗ (∃ d, owns (c : Thread nD τ) (Gen.st0_1 t) fullShare ((datV0 VV WW OO c).before 1 t d))
        ∗ (∃ d, owns (c : Thread nD τ) (Gen.st0_2 t) fullShare ((datV0 VV WW OO c).before 2 t d))
        ∗ (∃ d, owns (c : Thread nD τ) (Gen.st0_3 t) fullShare ((datV0 VV WW OO c).before 3 t d))
        ∗ (∃ d, owns (c : Thread nD τ) (Gen.st0_4 t) fullShare ((datV0 VV WW OO c).before 4 t d))
        ∗ (∃ d, owns (c : Thread nD τ) (Gen.st0_5 t) fullShare ((datV0 VV WW OO c).before 5 t d))
        ∗ (∃ d, owns (c : Thread nD τ) (Gen.st0_6 t) fullShare ((datV0 VV WW OO c).before 6 t d))
        ∗ (∃ d, owns (c : Thread nD τ) (Gen.st0_7 t) fullShare ((datV0 VV WW OO c).before 7 t d))
        ∗ (∃ d, owns (c : Thread nD τ) (Gen.st0_8 t) fullShare ((datV0 VV WW OO c).before 8 t d))
        ∗ (∃ d, owns (c : Thread nD τ) (Gen.st0_9 t) fullShare ((datV0 VV WW OO c).before 9 t d))
        ∗ (∃ d, owns (c : Thread nD τ) (Gen.st0_10 t) fullShare ((datV0 VV WW OO c).before 10 t d))
        ∗ (∃ d, owns (c : Thread nD τ) (Gen.st0_11 t) fullShare ((datV0 VV WW OO c).before 11 t d))
        ∗ (∃ d, owns (c : Thread nD τ) (Gen.st0_12 t) fullShare ((datV0 VV WW OO c).before 12 t d))
        ∗ (∃ d, owns (c : Thread nD τ) (Gen.st0_13 t) fullShare ((datV0 VV WW OO c).before 13 t d))
        ∗ (∃ d, owns (c : Thread nD τ) (Gen.st0_14 t) fullShare ((datV0 VV WW OO c).before 14 t d)))
      ⊢ wp frame (wpE (defs₀ (F := F)) Variants.none c none) Set.univ (Gen.bodyAt0 t) (fun _ =>
          iprop((datV0 VV WW OO c).Φ t.succ ∗ (datV0 VV WW OO c).owesAt none t.succ
            ∗ owns (c : Thread nD τ) (Gen.st0_0 t) fullShare ((datV0 VV WW OO c).after 0 t)
            ∗ owns (c : Thread nD τ) (Gen.st0_1 t) fullShare ((datV0 VV WW OO c).after 1 t)
            ∗ owns (c : Thread nD τ) (Gen.st0_2 t) fullShare ((datV0 VV WW OO c).after 2 t)
            ∗ owns (c : Thread nD τ) (Gen.st0_3 t) fullShare ((datV0 VV WW OO c).after 3 t)
            ∗ owns (c : Thread nD τ) (Gen.st0_4 t) fullShare ((datV0 VV WW OO c).after 4 t)
            ∗ owns (c : Thread nD τ) (Gen.st0_5 t) fullShare ((datV0 VV WW OO c).after 5 t)
            ∗ owns (c : Thread nD τ) (Gen.st0_6 t) fullShare ((datV0 VV WW OO c).after 6 t)
            ∗ owns (c : Thread nD τ) (Gen.st0_7 t) fullShare ((datV0 VV WW OO c).after 7 t)
            ∗ owns (c : Thread nD τ) (Gen.st0_8 t) fullShare ((datV0 VV WW OO c).after 8 t)
            ∗ owns (c : Thread nD τ) (Gen.st0_9 t) fullShare ((datV0 VV WW OO c).after 9 t)
            ∗ owns (c : Thread nD τ) (Gen.st0_10 t) fullShare ((datV0 VV WW OO c).after 10 t)
            ∗ owns (c : Thread nD τ) (Gen.st0_11 t) fullShare ((datV0 VV WW OO c).after 11 t)
            ∗ owns (c : Thread nD τ) (Gen.st0_12 t) fullShare ((datV0 VV WW OO c).after 12 t)
            ∗ owns (c : Thread nD τ) (Gen.st0_13 t) fullShare ((datV0 VV WW OO c).after 13 t)
            ∗ owns (c : Thread nD τ) (Gen.st0_14 t) fullShare ((datV0 VV WW OO c).after 14 t))) := by
  simp only [before0_0, before0_1, before0_2, before0_3, before0_4, before0_5, before0_6, before0_7, before0_8]
  rw [show (datV0 VV WW OO c).Φ t.succ = (datV0 VV WW OO c).Φ t.castSucc from rfl,
    show (datV0 VV WW OO c).owesAt none t.succ = (datV0 VV WW OO c).owesAt none t.castSucc from rfl,
    after0_0, after0_1, after0_2, after0_3, after0_4, after0_5, after0_6, after0_7, after0_8, after0_9, after0_10, after0_11, after0_12, after0_13, after0_14]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run0v c _ _ _ _ _ _ _ _ _ _ _ _ _ _ _ _ _ _ _ _ _ _ _ _ _ _ _ _ _ _ (iblk0 VV c 0 t) (iblk0 VV c 1 t) (iblk0 VV c 2 t) (iblk0 VV c 3 t) (iblk0 VV c 4 t) (iblk0 VV c 5 t) (iblk0 VV c 6 t) (iblk0 VV c 7 t) (iblk0 VV c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation0v (c : Dev nD) : Pipeline.BodyObligation (datV0 VV WW OO c) (defs₀ (F := F)) 𝒱₀ (none : HIx 1) Set.univ := fun t => by
  rw [Gen.bigSep_W0, Gen.bigSep_W0]
  exact sound_body0v VV WW OO c t

/-! ## The output arrays after the region, as functions of the input arrays -/

/-- Each window's array as the region finds it. -/
abbrev a0_0 (c : Dev nD) : S768x768.Idx → Elt F .f32 := VV c (Proc.devRef (τ := τ) .tc main_arg2)
abbrev a0_1 (c : Dev nD) : S1x768.Idx → Elt F .f32 := VV c (Proc.devRef (τ := τ) .tc main_v3)
abbrev a0_2 (c : Dev nD) : S768x768.Idx → Elt F .f32 := VV c (Proc.devRef (τ := τ) .tc main_arg4)
abbrev a0_3 (c : Dev nD) : S1x768.Idx → Elt F .f32 := VV c (Proc.devRef (τ := τ) .tc main_v4)
abbrev a0_4 (c : Dev nD) : S768x768.Idx → Elt F .f32 := VV c (Proc.devRef (τ := τ) .tc main_v0)
abbrev a0_5 (c : Dev nD) : S1x768.Idx → Elt F .f32 := VV c (Proc.devRef (τ := τ) .tc main_v2)
abbrev a0_6 (c : Dev nD) : S768x768.Idx → Elt F .f32 := VV c (Proc.devRef (τ := τ) .tc main_arg8)
abbrev a0_7 (c : Dev nD) : S1x768.Idx → Elt F .f32 := VV c (Proc.devRef (τ := τ) .tc main_v5)
abbrev a0_8 (c : Dev nD) : S768x1536.Idx → Elt F .f32 := VV c (Proc.devRef (τ := τ) .tc main_arg10)
abbrev a0_9 (c : Dev nD) : S768x768.Idx → Elt F .bf16 := VV c (Proc.devRef (τ := τ) .tc main_v6_0)
abbrev a0_10 (c : Dev nD) : S768x768.Idx → Elt F .bf16 := VV c (Proc.devRef (τ := τ) .tc main_v6_1)
abbrev a0_11 (c : Dev nD) : S1x768.Idx → Elt F .f32 := VV c (Proc.devRef (τ := τ) .tc main_v6_2)
abbrev a0_12 (c : Dev nD) : S1x768.Idx → Elt F .f32 := VV c (Proc.devRef (τ := τ) .tc main_v6_3)
abbrev a0_13 (c : Dev nD) : S768x768.Idx → Elt F .bf16 := VV c (Proc.devRef (τ := τ) .tc main_v6_4)
abbrev a0_14 (c : Dev nD) : S768x768.Idx → Elt F .bf16 := VV c (Proc.devRef (τ := τ) .tc main_v6_5)

/-- Every window sits at block `(0, 0)`: its block is its whole array. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-- Reading window 0's block off an array reads the whole array. -/
theorem read_blk0_0 (t : Fin cfg0.N) (G : S768x768.Idx → Elt F .f32) : ((cfg0.win 0).blk t).view.read (Elt F) G = G := by
  have hi := idx_facts0 t
  funext j
  show G (((cfg0.win 0).blk t).view.emb j) = G j
  congr 1; funext a; apply Fin.ext
  match a with
  | ⟨0, _⟩ => show win0_0.index t (0 : Fin 2) * 768 + 1 * (j 0).val = (j 0).val; omega
  | ⟨1, _⟩ => show win0_0.index t (1 : Fin 2) * 768 + 1 * (j 1).val = (j 1).val; omega

/-- Reading window 1's block off an array reads the whole array. -/
theorem read_blk0_1 (t : Fin cfg0.N) (G : S1x768.Idx → Elt F .f32) : ((cfg0.win 1).blk t).view.read (Elt F) G = G := by
  have hi := idx_facts0 t
  funext j
  show G (((cfg0.win 1).blk t).view.emb j) = G j
  congr 1; funext a; apply Fin.ext
  match a with
  | ⟨0, _⟩ => show win0_1.index t (0 : Fin 2) * 1 + 1 * (j 0).val = (j 0).val; omega
  | ⟨1, _⟩ => show win0_1.index t (1 : Fin 2) * 768 + 1 * (j 1).val = (j 1).val; omega

/-- Reading window 2's block off an array reads the whole array. -/
theorem read_blk0_2 (t : Fin cfg0.N) (G : S768x768.Idx → Elt F .f32) : ((cfg0.win 2).blk t).view.read (Elt F) G = G := by
  have hi := idx_facts0 t
  funext j
  show G (((cfg0.win 2).blk t).view.emb j) = G j
  congr 1; funext a; apply Fin.ext
  match a with
  | ⟨0, _⟩ => show win0_2.index t (0 : Fin 2) * 768 + 1 * (j 0).val = (j 0).val; omega
  | ⟨1, _⟩ => show win0_2.index t (1 : Fin 2) * 768 + 1 * (j 1).val = (j 1).val; omega

/-- Reading window 3's block off an array reads the whole array. -/
theorem read_blk0_3 (t : Fin cfg0.N) (G : S1x768.Idx → Elt F .f32) : ((cfg0.win 3).blk t).view.read (Elt F) G = G := by
  have hi := idx_facts0 t
  funext j
  show G (((cfg0.win 3).blk t).view.emb j) = G j
  congr 1; funext a; apply Fin.ext
  match a with
  | ⟨0, _⟩ => show win0_3.index t (0 : Fin 2) * 1 + 1 * (j 0).val = (j 0).val; omega
  | ⟨1, _⟩ => show win0_3.index t (1 : Fin 2) * 768 + 1 * (j 1).val = (j 1).val; omega

/-- Reading window 4's block off an array reads the whole array. -/
theorem read_blk0_4 (t : Fin cfg0.N) (G : S768x768.Idx → Elt F .f32) : ((cfg0.win 4).blk t).view.read (Elt F) G = G := by
  have hi := idx_facts0 t
  funext j
  show G (((cfg0.win 4).blk t).view.emb j) = G j
  congr 1; funext a; apply Fin.ext
  match a with
  | ⟨0, _⟩ => show win0_4.index t (0 : Fin 2) * 768 + 1 * (j 0).val = (j 0).val; omega
  | ⟨1, _⟩ => show win0_4.index t (1 : Fin 2) * 768 + 1 * (j 1).val = (j 1).val; omega

/-- Reading window 5's block off an array reads the whole array. -/
theorem read_blk0_5 (t : Fin cfg0.N) (G : S1x768.Idx → Elt F .f32) : ((cfg0.win 5).blk t).view.read (Elt F) G = G := by
  have hi := idx_facts0 t
  funext j
  show G (((cfg0.win 5).blk t).view.emb j) = G j
  congr 1; funext a; apply Fin.ext
  match a with
  | ⟨0, _⟩ => show win0_5.index t (0 : Fin 2) * 1 + 1 * (j 0).val = (j 0).val; omega
  | ⟨1, _⟩ => show win0_5.index t (1 : Fin 2) * 768 + 1 * (j 1).val = (j 1).val; omega

/-- Reading window 6's block off an array reads the whole array. -/
theorem read_blk0_6 (t : Fin cfg0.N) (G : S768x768.Idx → Elt F .f32) : ((cfg0.win 6).blk t).view.read (Elt F) G = G := by
  have hi := idx_facts0 t
  funext j
  show G (((cfg0.win 6).blk t).view.emb j) = G j
  congr 1; funext a; apply Fin.ext
  match a with
  | ⟨0, _⟩ => show win0_6.index t (0 : Fin 2) * 768 + 1 * (j 0).val = (j 0).val; omega
  | ⟨1, _⟩ => show win0_6.index t (1 : Fin 2) * 768 + 1 * (j 1).val = (j 1).val; omega

/-- Reading window 7's block off an array reads the whole array. -/
theorem read_blk0_7 (t : Fin cfg0.N) (G : S1x768.Idx → Elt F .f32) : ((cfg0.win 7).blk t).view.read (Elt F) G = G := by
  have hi := idx_facts0 t
  funext j
  show G (((cfg0.win 7).blk t).view.emb j) = G j
  congr 1; funext a; apply Fin.ext
  match a with
  | ⟨0, _⟩ => show win0_7.index t (0 : Fin 2) * 1 + 1 * (j 0).val = (j 0).val; omega
  | ⟨1, _⟩ => show win0_7.index t (1 : Fin 2) * 768 + 1 * (j 1).val = (j 1).val; omega

/-- Reading window 8's block off an array reads the whole array. -/
theorem read_blk0_8 (t : Fin cfg0.N) (G : S768x1536.Idx → Elt F .f32) : ((cfg0.win 8).blk t).view.read (Elt F) G = G := by
  have hi := idx_facts0 t
  funext j
  show G (((cfg0.win 8).blk t).view.emb j) = G j
  congr 1; funext a; apply Fin.ext
  match a with
  | ⟨0, _⟩ => show win0_8.index t (0 : Fin 2) * 768 + 1 * (j 0).val = (j 0).val; omega
  | ⟨1, _⟩ => show win0_8.index t (1 : Fin 2) * 1536 + 1 * (j 1).val = (j 1).val; omega

/-- Reading window 9's block off an array reads the whole array. -/
theorem read_blk0_9 (t : Fin cfg0.N) (G : S768x768.Idx → Elt F .bf16) : ((cfg0.win 9).blk t).view.read (Elt F) G = G := by
  have hi := idx_facts0 t
  funext j
  show G (((cfg0.win 9).blk t).view.emb j) = G j
  congr 1; funext a; apply Fin.ext
  match a with
  | ⟨0, _⟩ => show win0_9.index t (0 : Fin 2) * 768 + 1 * (j 0).val = (j 0).val; omega
  | ⟨1, _⟩ => show win0_9.index t (1 : Fin 2) * 768 + 1 * (j 1).val = (j 1).val; omega

/-- Reading window 10's block off an array reads the whole array. -/
theorem read_blk0_10 (t : Fin cfg0.N) (G : S768x768.Idx → Elt F .bf16) : ((cfg0.win 10).blk t).view.read (Elt F) G = G := by
  have hi := idx_facts0 t
  funext j
  show G (((cfg0.win 10).blk t).view.emb j) = G j
  congr 1; funext a; apply Fin.ext
  match a with
  | ⟨0, _⟩ => show win0_10.index t (0 : Fin 2) * 768 + 1 * (j 0).val = (j 0).val; omega
  | ⟨1, _⟩ => show win0_10.index t (1 : Fin 2) * 768 + 1 * (j 1).val = (j 1).val; omega

/-- Reading window 11's block off an array reads the whole array. -/
theorem read_blk0_11 (t : Fin cfg0.N) (G : S1x768.Idx → Elt F .f32) : ((cfg0.win 11).blk t).view.read (Elt F) G = G := by
  have hi := idx_facts0 t
  funext j
  show G (((cfg0.win 11).blk t).view.emb j) = G j
  congr 1; funext a; apply Fin.ext
  match a with
  | ⟨0, _⟩ => show win0_11.index t (0 : Fin 2) * 1 + 1 * (j 0).val = (j 0).val; omega
  | ⟨1, _⟩ => show win0_11.index t (1 : Fin 2) * 768 + 1 * (j 1).val = (j 1).val; omega

/-- Reading window 12's block off an array reads the whole array. -/
theorem read_blk0_12 (t : Fin cfg0.N) (G : S1x768.Idx → Elt F .f32) : ((cfg0.win 12).blk t).view.read (Elt F) G = G := by
  have hi := idx_facts0 t
  funext j
  show G (((cfg0.win 12).blk t).view.emb j) = G j
  congr 1; funext a; apply Fin.ext
  match a with
  | ⟨0, _⟩ => show win0_12.index t (0 : Fin 2) * 1 + 1 * (j 0).val = (j 0).val; omega
  | ⟨1, _⟩ => show win0_12.index t (1 : Fin 2) * 768 + 1 * (j 1).val = (j 1).val; omega

/-- Reading window 13's block off an array reads the whole array. -/
theorem read_blk0_13 (t : Fin cfg0.N) (G : S768x768.Idx → Elt F .bf16) : ((cfg0.win 13).blk t).view.read (Elt F) G = G := by
  have hi := idx_facts0 t
  funext j
  show G (((cfg0.win 13).blk t).view.emb j) = G j
  congr 1; funext a; apply Fin.ext
  match a with
  | ⟨0, _⟩ => show win0_13.index t (0 : Fin 2) * 768 + 1 * (j 0).val = (j 0).val; omega
  | ⟨1, _⟩ => show win0_13.index t (1 : Fin 2) * 768 + 1 * (j 1).val = (j 1).val; omega

/-- Reading window 14's block off an array reads the whole array. -/
theorem read_blk0_14 (t : Fin cfg0.N) (G : S768x768.Idx → Elt F .bf16) : ((cfg0.win 14).blk t).view.read (Elt F) G = G := by
  have hi := idx_facts0 t
  funext j
  show G (((cfg0.win 14).blk t).view.emb j) = G j
  congr 1; funext a; apply Fin.ext
  match a with
  | ⟨0, _⟩ => show win0_14.index t (0 : Fin 2) * 768 + 1 * (j 0).val = (j 0).val; omega
  | ⟨1, _⟩ => show win0_14.index t (1 : Fin 2) * 768 + 1 * (j 1).val = (j 1).val; omega

theorem iblk0_eq_0 (c : Dev nD) (t : Fin cfg0.N) : iblk0 VV c 0 t = a0_0 VV c := read_blk0_0 t _
theorem iblk0_eq_1 (c : Dev nD) (t : Fin cfg0.N) : iblk0 VV c 1 t = a0_1 VV c := read_blk0_1 t _
theorem iblk0_eq_2 (c : Dev nD) (t : Fin cfg0.N) : iblk0 VV c 2 t = a0_2 VV c := read_blk0_2 t _
theorem iblk0_eq_3 (c : Dev nD) (t : Fin cfg0.N) : iblk0 VV c 3 t = a0_3 VV c := read_blk0_3 t _
theorem iblk0_eq_4 (c : Dev nD) (t : Fin cfg0.N) : iblk0 VV c 4 t = a0_4 VV c := read_blk0_4 t _
theorem iblk0_eq_5 (c : Dev nD) (t : Fin cfg0.N) : iblk0 VV c 5 t = a0_5 VV c := read_blk0_5 t _
theorem iblk0_eq_6 (c : Dev nD) (t : Fin cfg0.N) : iblk0 VV c 6 t = a0_6 VV c := read_blk0_6 t _
theorem iblk0_eq_7 (c : Dev nD) (t : Fin cfg0.N) : iblk0 VV c 7 t = a0_7 VV c := read_blk0_7 t _
theorem iblk0_eq_8 (c : Dev nD) (t : Fin cfg0.N) : iblk0 VV c 8 t = a0_8 VV c := read_blk0_8 t _

/-- Every index of output window 9's array is in its one block. -/
theorem mem_blk0_9 (t : Fin cfg0.N) (i : S768x768.Idx) : i ∈ ((cfg0.win 9).blk t).view.set := by
  have hi := idx_facts0 t
  show i ∈ ((View.whole main_v6_0).slice (win0_9.rect t)).set
  rw [View.set_slice_whole, Rect.mem_set_unit]
  intro a
  match a with
  | ⟨0, _⟩ => show win0_9.index t (0 : Fin 2) * 768 ≤ (i 0).val ∧ (i 0).val < win0_9.index t (0 : Fin 2) * 768 + 768; have h0 : (i 0).val < 768 := (i 0).isLt; omega
  | ⟨1, _⟩ => show win0_9.index t (1 : Fin 2) * 768 ≤ (i 1).val ∧ (i 1).val < win0_9.index t (1 : Fin 2) * 768 + 768; have h1 : (i 1).val < 768 := (i 1).isLt; omega

/-- OUTPUT 0 after the region: the body's payload of the input arrays. -/
theorem final0_9 (c : Dev nD) : (datV0 VV WW OO c).arrAt 9 cfg0.N = (k0_pay5 (a0_4 VV c) (a0_6 VV c) (a0_0 VV c) : S768x768.Idx → Elt F .bf16) :=
  (datV0 VV WW OO c).arrAt_eq_of_cover 9 (k0_pay5 (a0_4 VV c) (a0_6 VV c) (a0_0 VV c)) (fun t _ => by
      show (cfg0.win 9).cut (grid0.coords t) ((datV0 VV WW OO c).after 9 t) = _
      rw [after0_9, read_blk0_9, iblk0_eq_4, iblk0_eq_6, iblk0_eq_0]
      rfl)
    (fun i => ⟨Gen.t0_0, Gen.flush0_9 Gen.t0_0, mem_blk0_9 _ i⟩)

/-- Every index of output window 10's array is in its one block. -/
theorem mem_blk0_10 (t : Fin cfg0.N) (i : S768x768.Idx) : i ∈ ((cfg0.win 10).blk t).view.set := by
  have hi := idx_facts0 t
  show i ∈ ((View.whole main_v6_1).slice (win0_10.rect t)).set
  rw [View.set_slice_whole, Rect.mem_set_unit]
  intro a
  match a with
  | ⟨0, _⟩ => show win0_10.index t (0 : Fin 2) * 768 ≤ (i 0).val ∧ (i 0).val < win0_10.index t (0 : Fin 2) * 768 + 768; have h0 : (i 0).val < 768 := (i 0).isLt; omega
  | ⟨1, _⟩ => show win0_10.index t (1 : Fin 2) * 768 ≤ (i 1).val ∧ (i 1).val < win0_10.index t (1 : Fin 2) * 768 + 768; have h1 : (i 1).val < 768 := (i 1).isLt; omega

/-- OUTPUT 1 after the region: the body's payload of the input arrays. -/
theorem final0_10 (c : Dev nD) : (datV0 VV WW OO c).arrAt 10 cfg0.N = (k0_pay6 (a0_4 VV c) (a0_6 VV c) (a0_2 VV c) : S768x768.Idx → Elt F .bf16) :=
  (datV0 VV WW OO c).arrAt_eq_of_cover 10 (k0_pay6 (a0_4 VV c) (a0_6 VV c) (a0_2 VV c)) (fun t _ => by
      show (cfg0.win 10).cut (grid0.coords t) ((datV0 VV WW OO c).after 10 t) = _
      rw [after0_10, read_blk0_10, iblk0_eq_4, iblk0_eq_6, iblk0_eq_2]
      rfl)
    (fun i => ⟨Gen.t0_0, Gen.flush0_10 Gen.t0_0, mem_blk0_10 _ i⟩)

/-- Every index of output window 11's array is in its one block. -/
theorem mem_blk0_11 (t : Fin cfg0.N) (i : S1x768.Idx) : i ∈ ((cfg0.win 11).blk t).view.set := by
  have hi := idx_facts0 t
  show i ∈ ((View.whole main_v6_2).slice (win0_11.rect t)).set
  rw [View.set_slice_whole, Rect.mem_set_unit]
  intro a
  match a with
  | ⟨0, _⟩ => show win0_11.index t (0 : Fin 2) * 1 ≤ (i 0).val ∧ (i 0).val < win0_11.index t (0 : Fin 2) * 1 + 1; have h0 : (i 0).val < 1 := (i 0).isLt; omega
  | ⟨1, _⟩ => show win0_11.index t (1 : Fin 2) * 768 ≤ (i 1).val ∧ (i 1).val < win0_11.index t (1 : Fin 2) * 768 + 768; have h1 : (i 1).val < 768 := (i 1).isLt; omega

/-- OUTPUT 2 after the region: the body's payload of the input arrays. -/
theorem final0_11 (c : Dev nD) : (datV0 VV WW OO c).arrAt 11 cfg0.N = (k0_pay8 (a0_4 VV c) (a0_6 VV c) (a0_5 VV c) (a0_6 VV c) (a0_7 VV c) (a0_1 VV c) : S1x768.Idx → Elt F .f32) :=
  (datV0 VV WW OO c).arrAt_eq_of_cover 11 (k0_pay8 (a0_4 VV c) (a0_6 VV c) (a0_5 VV c) (a0_6 VV c) (a0_7 VV c) (a0_1 VV c)) (fun t _ => by
      show (cfg0.win 11).cut (grid0.coords t) ((datV0 VV WW OO c).after 11 t) = _
      rw [after0_11, read_blk0_11, iblk0_eq_4, iblk0_eq_6, iblk0_eq_5, iblk0_eq_7, iblk0_eq_1]
      rfl)
    (fun i => ⟨Gen.t0_0, Gen.flush0_11 Gen.t0_0, mem_blk0_11 _ i⟩)

/-- Every index of output window 12's array is in its one block. -/
theorem mem_blk0_12 (t : Fin cfg0.N) (i : S1x768.Idx) : i ∈ ((cfg0.win 12).blk t).view.set := by
  have hi := idx_facts0 t
  show i ∈ ((View.whole main_v6_3).slice (win0_12.rect t)).set
  rw [View.set_slice_whole, Rect.mem_set_unit]
  intro a
  match a with
  | ⟨0, _⟩ => show win0_12.index t (0 : Fin 2) * 1 ≤ (i 0).val ∧ (i 0).val < win0_12.index t (0 : Fin 2) * 1 + 1; have h0 : (i 0).val < 1 := (i 0).isLt; omega
  | ⟨1, _⟩ => show win0_12.index t (1 : Fin 2) * 768 ≤ (i 1).val ∧ (i 1).val < win0_12.index t (1 : Fin 2) * 768 + 768; have h1 : (i 1).val < 768 := (i 1).isLt; omega

/-- OUTPUT 3 after the region: the body's payload of the input arrays. -/
theorem final0_12 (c : Dev nD) : (datV0 VV WW OO c).arrAt 12 cfg0.N = (k0_pay1 (k0_pay4 (a0_4 VV c) (a0_6 VV c)) (k0_pay7 (a0_5 VV c) (a0_6 VV c) (a0_7 VV c)) (a0_3 VV c) : S1x768.Idx → Elt F .f32) :=
  (datV0 VV WW OO c).arrAt_eq_of_cover 12 (k0_pay1 (k0_pay4 (a0_4 VV c) (a0_6 VV c)) (k0_pay7 (a0_5 VV c) (a0_6 VV c) (a0_7 VV c)) (a0_3 VV c)) (fun t _ => by
      show (cfg0.win 12).cut (grid0.coords t) ((datV0 VV WW OO c).after 12 t) = _
      rw [after0_12, read_blk0_12, iblk0_eq_4, iblk0_eq_6, iblk0_eq_5, iblk0_eq_7, iblk0_eq_3]
      rfl)
    (fun i => ⟨Gen.t0_0, Gen.flush0_12 Gen.t0_0, mem_blk0_12 _ i⟩)

/-- Every index of output window 13's array is in its one block. -/
theorem mem_blk0_13 (t : Fin cfg0.N) (i : S768x768.Idx) : i ∈ ((cfg0.win 13).blk t).view.set := by
  have hi := idx_facts0 t
  show i ∈ ((View.whole main_v6_4).slice (win0_13.rect t)).set
  rw [View.set_slice_whole, Rect.mem_set_unit]
  intro a
  match a with
  | ⟨0, _⟩ => show win0_13.index t (0 : Fin 2) * 768 ≤ (i 0).val ∧ (i 0).val < win0_13.index t (0 : Fin 2) * 768 + 768; have h0 : (i 0).val < 768 := (i 0).isLt; omega
  | ⟨1, _⟩ => show win0_13.index t (1 : Fin 2) * 768 ≤ (i 1).val ∧ (i 1).val < win0_13.index t (1 : Fin 2) * 768 + 768; have h1 : (i 1).val < 768 := (i 1).isLt; omega

/-- OUTPUT 4 after the region: the body's payload of the input arrays. -/
theorem final0_13 (c : Dev nD) : (datV0 VV WW OO c).arrAt 13 cfg0.N = (k0_pay2 (View.ld (a0_8 VV c) (Rect.unit (s := S768x1536) ![0, 0] S768x768.size inb_S768x1536_S768x768_0_0)) : S768x768.Idx → Elt F .bf16) :=
  (datV0 VV WW OO c).arrAt_eq_of_cover 13 (k0_pay2 (View.ld (a0_8 VV c) (Rect.unit (s := S768x1536) ![0, 0] S768x768.size inb_S768x1536_S768x768_0_0))) (fun t _ => by
      show (cfg0.win 13).cut (grid0.coords t) ((datV0 VV WW OO c).after 13 t) = _
      rw [after0_13, read_blk0_13, iblk0_eq_8]
      rfl)
    (fun i => ⟨Gen.t0_0, Gen.flush0_13 Gen.t0_0, mem_blk0_13 _ i⟩)

/-- Every index of output window 14's array is in its one block. -/
theorem mem_blk0_14 (t : Fin cfg0.N) (i : S768x768.Idx) : i ∈ ((cfg0.win 14).blk t).view.set := by
  have hi := idx_facts0 t
  show i ∈ ((View.whole main_v6_5).slice (win0_14.rect t)).set
  rw [View.set_slice_whole, Rect.mem_set_unit]
  intro a
  match a with
  | ⟨0, _⟩ => show win0_14.index t (0 : Fin 2) * 768 ≤ (i 0).val ∧ (i 0).val < win0_14.index t (0 : Fin 2) * 768 + 768; have h0 : (i 0).val < 768 := (i 0).isLt; omega
  | ⟨1, _⟩ => show win0_14.index t (1 : Fin 2) * 768 ≤ (i 1).val ∧ (i 1).val < win0_14.index t (1 : Fin 2) * 768 + 768; have h1 : (i 1).val < 768 := (i 1).isLt; omega

/-- OUTPUT 5 after the region: the body's payload of the input arrays. -/
theorem final0_14 (c : Dev nD) : (datV0 VV WW OO c).arrAt 14 cfg0.N = (k0_pay3 (View.ld (a0_8 VV c) (Rect.unit (s := S768x1536) ![0, 768] S768x768.size inb_S768x1536_S768x768_0_768)) : S768x768.Idx → Elt F .bf16) :=
  (datV0 VV WW OO c).arrAt_eq_of_cover 14 (k0_pay3 (View.ld (a0_8 VV c) (Rect.unit (s := S768x1536) ![0, 768] S768x768.size inb_S768x1536_S768x768_0_768))) (fun t _ => by
      show (cfg0.win 14).cut (grid0.coords t) ((datV0 VV WW OO c).after 14 t) = _
      rw [after0_14, read_blk0_14, iblk0_eq_8]
      rfl)
    (fun i => ⟨Gen.t0_0, Gen.flush0_14 Gen.t0_0, mem_blk0_14 _ i⟩)

/-! ## The region -/

/-- After the first region, with the outputs named: the unscoped buffers at a valuation that agrees with the entry
    valuation off the six output arrays and holds at each the body's payload of the input arrays as the region found
    them; the same tally. -/
def postV0 (d : Dev nD) : sProp 𝕄 :=
  iprop((∃ V' : Valuation τ sig (Elt F), ⌜(∀ b, b ∉ outs cfg0 → V' b = VV d b)
        ∧ (V' (Proc.devRef (τ := τ) .tc main_v6_0) : S768x768.Idx → Elt F .bf16) = k0_pay5 (a0_4 VV d) (a0_6 VV d) (a0_0 VV d)
        ∧ (V' (Proc.devRef (τ := τ) .tc main_v6_1) : S768x768.Idx → Elt F .bf16) = k0_pay6 (a0_4 VV d) (a0_6 VV d) (a0_2 VV d)
        ∧ (V' (Proc.devRef (τ := τ) .tc main_v6_2) : S1x768.Idx → Elt F .f32) = k0_pay8 (a0_4 VV d) (a0_6 VV d) (a0_5 VV d) (a0_6 VV d) (a0_7 VV d) (a0_1 VV d)
        ∧ (V' (Proc.devRef (τ := τ) .tc main_v6_3) : S1x768.Idx → Elt F .f32) = k0_pay1 (k0_pay4 (a0_4 VV d) (a0_6 VV d)) (k0_pay7 (a0_5 VV d) (a0_6 VV d) (a0_7 VV d)) (a0_3 VV d)
        ∧ (V' (Proc.devRef (τ := τ) .tc main_v6_4) : S768x768.Idx → Elt F .bf16) = k0_pay2 (View.ld (a0_8 VV d) (Rect.unit (s := S768x1536) ![0, 0] S768x768.size inb_S768x1536_S768x768_0_0))
        ∧ (V' (Proc.devRef (τ := τ) .tc main_v6_5) : S768x768.Idx → Elt F .bf16) = k0_pay3 (View.ld (a0_8 VV d) (Rect.unit (s := S768x1536) ![0, 768] S768x768.size inb_S768x1536_S768x768_0_768))⌝
      ∗ StableHlo.held (SparseCore.T d) (Pipeline.ucRefs τ sig) V') ∗ owesT WW OO d)

theorem entryV0 (c : Dev nD) :
    (StableHlo.held (SparseCore.T c) (Pipeline.ucRefs τ sig) (VV c) : sProp 𝕄)
      ⊢ iprop((pdatsV0 VV WW OO 0 c).arrays ((pdatsV0 VV WW OO 0 c).arrAt · 0) ∗ Pipeline.unscopedRest spec0 c (fun b => VV c b)) := by
  have h1 := Pipeline.arrays_of_unscopedBufs (pcfgs (F := F)) adm (pdatsV0 VV WW OO) (p := 0) Gen.winFacts0 Gen.arr_whole0 c
    ((datV0 VV WW OO c).share_full fun _ => rfl) (fun b => VV c b) (fun _ => rfl)
  rw [Pipeline.unscopedBufs_held (Ix := HIx 1) (Name := ℕ) (U := UU) (Lvl := ℕ) c (VV c)] at h1
  exact h1

def regV0 (hO : ∀ g, OO g none = 0) :
    Pipeline.RegionSeg (pcfgs (F := F)) adm (pdatsV0 VV WW OO) (none : HIx 1) defs₀ 𝒱₀ (K (F := F)).L (K (F := F)).lev 0 where
  win := Gen.winFacts0.to₀
  block_pos := Gen.block_pos0
  stage_whole := Gen.stage_whole0
  K := PEmpty
  osem k := k.elim
  ho := Pipeline.OwnSemFacts.none _
  hbody c := (body_obligation0v VV WW OO c).loose
  hwaits c := Pipeline.cellsWaits_intro (Pipeline.pin (pcfgs (F := F)) adm) (pdatsV0 VV WW OO) none 0 c
    fun w s t => (K (F := F)).mayWait_none _ hO
  pre c := preR VV WW OO c
  post c := postV0 VV WW OO c
  X _ := iprop(emp)
  Y _ := iprop(emp)
  Z c := Pipeline.unscopedRest spec0 c (fun b => VV c b)
  hentry c := by
    rw [Pipeline.ownSems0_none, prefHeld0]
    unfold preR
    iintro ⟨⟨Hh, HO⟩, -, -⟩
    imodintro
    ihave Ha := (entryV0 VV WW OO c) $$ Hh
    icases Ha with ⟨Ha, Hr⟩
    isplitl [Ha]; · iexact Ha
    isplitr; · iempintro
    isplitl [HO]; · iapply (owesAtV_intro (datV0 VV WW OO c) WW OO 0 rfl rfl); iexact HO
    isplitr; · iempintro
    iexact Hr
  hin c := by
    rw [show (pdatsV0 VV WW OO 0 c).Φ 0 = Pipeline.scopedRest spec0 c from rfl]
    iintro ⟨-, -, H⟩; iexact H
  hout c := by
    rw [show (pdatsV0 VV WW OO 0 c).Φ (Fin.last _) = Pipeline.scopedRest spec0 c from rfl, Pipeline.ownSems0_none]
    iintro H
    isplitr; · iempintro
    isplitr; · iempintro
    iexact H
  hexit c := by
    unfold postV0
    iintro ⟨Ha, HO, -, HZ⟩
    imodintro
    isplitl [Ha HZ]
    · ihave H := (exit_heldV (datV0 VV WW OO c) (VV c) ((datV0 VV WW OO c).share_full fun _ => rfl) (fun _ => rfl)
          Gen.winFacts0 Gen.arr_whole0 cfg0.N) $$ [Ha HZ]
      · isplitl [Ha]; · iexact Ha
        iexact HZ
      icases H with ⟨%V', %h, Hh⟩
      iexists V'; isplitr
      · ipureintro
        exact ⟨h.1, (h.2 9).trans (final0_9 VV WW OO c), (h.2 10).trans (final0_10 VV WW OO c), (h.2 11).trans (final0_11 VV WW OO c),
          (h.2 12).trans (final0_12 VV WW OO c), (h.2 13).trans (final0_13 VV WW OO c), (h.2 14).trans (final0_14 VV WW OO c)⟩
      iexact Hh
    iapply (owesAtV_elim (datV0 VV WW OO c) WW OO (Fin.last _) rfl rfl); iexact HO

/-- The first pallas_call's custom call on core `d`, with the six output arrays' final contents named. -/
theorem region0V (hO : ∀ g, OO g none = 0) (d : Dev nD) {α : Type}
    (k : PUnit → Prog (TpuEff nD τ sig (Elt F) (ΛP (F := F)) .tc) α) (Q : α → sProp 𝕄) :
    iprop((iprop(boundary (SparseCore.T d) ∗ postV0 VV WW OO d) -∗ wp frame (wpE D 𝒱 (SparseCore.T d) none) Set.univ (k ⟨⟩) Q)
        ∗ boundary (SparseCore.T d) ∗ preR VV WW OO d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE D 𝒱 (SparseCore.T d) none) Set.univ (.op (.customCall (Pipeline.entry 0) ()) k) Q :=
  (regV0 VV WW OO hO).wp (pcfgs (F := F)) adm (pdatsV0 VV WW OO) none pcell_inj EP defs₀ 𝒱₀ (K (F := F)).L (K (F := F)).lev d none
    (fun u hu => nomatch hu) k Q

end Cert.KernelIdeal.Hand

end
-- ==== Proof.RegionsVal1.lean ====
/-
  The second TensorCore pallas_call with its two output arrays' final contents named: the exact proof data (each input's
  staging buffer keeps its block — the thirteen constant windows' their whole arrays, fetched once —, each output's ends
  at the body's payload of the input blocks), the body with what it leaves, the two output arrays after the eight
  write-backs in closed form — row `512 t + p` of the first (column `512 t + p` of the second) is row (column) `p` of what
  the body stores at point `t`, of rows `512 t …` of the two moving inputs —, and the region's step.
-/
import proofs.«211565_g20684562498226_cont_8to1_684_24_alg».proof.Proof.Setup
import proofs.«211565_g20684562498226_cont_8to1_684_24_alg».proof.Proof.Gen.KernelIdeal.Points
import Idealize.ShloMosaic.Lib.Pipeline.Frame
import proofs.«211565_g20684562498226_cont_8to1_684_24_alg».proof.Proof.RegionsValData

noncomputable section

namespace Cert.KernelIdeal.Hand

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The second pallas_call with its two output arrays' final contents named -/

/-- The body's value before the last layer norm, of the blocks it reads. -/
def dense78 (x1 : Vec F S512x768 .bf16) (x2 : Vec F S512x768 .bf16) (x3 : Vec F S768x768 .bf16) (x4 : Vec F S768x768 .bf16) (x5 : Vec F S1x768 .f32) (x6 : Vec F S1x768 .f32) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) : FVec F S512x768 .f32 :=
  k2_pay8 (k2_pay3 x1 x3 x5) (k2_pay4 x10) (k2_pay5 x11) (k2_pay6 x2 x4 x6) (k2_pay7 x2 x4 x6) x12 x13 x7 x8 x9

/-- What the body stores into the first output's block, -/
def dense16 (x1 : Vec F S512x768 .bf16) (x2 : Vec F S512x768 .bf16) (x3 : Vec F S768x768 .bf16) (x4 : Vec F S768x768 .bf16) (x5 : Vec F S1x768 .f32) (x6 : Vec F S1x768 .f32) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S1x768 .f32) (x15 : Vec F S1x768 .f32) : FVec F S512x768 .f32 :=
  k2_pay1 (dense78 x1 x2 x3 x4 x5 x6 x7 x8 x9 x10 x11 x12 x13) x14 x15

/-- and into the second's (its transpose). -/
def dense17 (x1 : Vec F S512x768 .bf16) (x2 : Vec F S512x768 .bf16) (x3 : Vec F S768x768 .bf16) (x4 : Vec F S768x768 .bf16) (x5 : Vec F S1x768 .f32) (x6 : Vec F S1x768 .f32) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S1x768 .f32) (x15 : Vec F S1x768 .f32) : FVec F S768x512 .f32 :=
  k2_pay2 (dense78 x1 x2 x3 x4 x5 x6 x7 x8 x9 x10 x11 x12 x13) x14 x15

variable (VV : Dev nD → Valuation τ sig (Elt F)) (WW : Waits sig (HIx 1)) (OO : CellTallies nD τ sig (HIx 1))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (VV c (Pipeline.arrRef spec2 w))

/-- The exact proof data: each input's staging buffer keeps its block, each output's ends at the body's payload. -/
def datV2 (c : Dev nD) : Pipeline.Dat τ (Elt F) (HIx 1) ℕ UU ℕ cfg2 c where
  A w := VV c (Pipeline.arrRef spec2 w)
  after w t := match w with
    | ⟨0, _⟩ => iblk2 VV c 0 t
    | ⟨1, _⟩ => iblk2 VV c 1 t
    | ⟨2, _⟩ => iblk2 VV c 2 t
    | ⟨3, _⟩ => iblk2 VV c 3 t
    | ⟨4, _⟩ => iblk2 VV c 4 t
    | ⟨5, _⟩ => iblk2 VV c 5 t
    | ⟨6, _⟩ => iblk2 VV c 6 t
    | ⟨7, _⟩ => iblk2 VV c 7 t
    | ⟨8, _⟩ => iblk2 VV c 8 t
    | ⟨9, _⟩ => iblk2 VV c 9 t
    | ⟨10, _⟩ => iblk2 VV c 10 t
    | ⟨11, _⟩ => iblk2 VV c 11 t
    | ⟨12, _⟩ => iblk2 VV c 12 t
    | ⟨13, _⟩ => iblk2 VV c 13 t
    | ⟨14, _⟩ => iblk2 VV c 14 t
    | ⟨15, _⟩ => dense16 (iblk2 VV c 0 t) (iblk2 VV c 1 t) (iblk2 VV c 2 t) (iblk2 VV c 3 t) (iblk2 VV c 4 t) (iblk2 VV c 5 t) (iblk2 VV c 6 t) (iblk2 VV c 7 t) (iblk2 VV c 8 t) (iblk2 VV c 9 t) (iblk2 VV c 10 t) (iblk2 VV c 11 t) (iblk2 VV c 12 t) (iblk2 VV c 13 t) (iblk2 VV c 14 t)
    | ⟨16, _⟩ => dense17 (iblk2 VV c 0 t) (iblk2 VV c 1 t) (iblk2 VV c 2 t) (iblk2 VV c 3 t) (iblk2 VV c 4 t) (iblk2 VV c 5 t) (iblk2 VV c 6 t) (iblk2 VV c 7 t) (iblk2 VV c 8 t) (iblk2 VV c 9 t) (iblk2 VV c 10 t) (iblk2 VV c 11 t) (iblk2 VV c 12 t) (iblk2 VV c 13 t) (iblk2 VV c 14 t)
    | ⟨_ + 17, h⟩ => absurd h (Nat.not_lt.2 (Nat.le_add_left _ _))
  Φ _ := Pipeline.scopedRest spec2 c
  q _ := fullShare
  owed _ := OO
  recorded _ := recB WW

/-- The family the region is stated over: the second pipeline's data, nothing said of the others. -/
def pdatsV1 : (p : Fin 3) → (c : Dev nD) → Pipeline.Dat τ (Elt F) (HIx 1) ℕ UU ℕ (Pipeline.pin (pcfgs (F := F)) adm p) c
  | 0 => fun c => datTriv cfg0 c
  | 1 => fun c => datV2 VV WW OO c
  | 2 => fun c => datTriv cfg3 c

theorem after2_0 (c : Dev nD) (t : Fin cfg2.N) : (datV2 VV WW OO c).after 0 t = iblk2 VV c 0 t := by dsimp only [datV2]
theorem after2_1 (c : Dev nD) (t : Fin cfg2.N) : (datV2 VV WW OO c).after 1 t = iblk2 VV c 1 t := by dsimp only [datV2]
theorem after2_2 (c : Dev nD) (t : Fin cfg2.N) : (datV2 VV WW OO c).after 2 t = iblk2 VV c 2 t := by dsimp only [datV2]
theorem after2_3 (c : Dev nD) (t : Fin cfg2.N) : (datV2 VV WW OO c).after 3 t = iblk2 VV c 3 t := by dsimp only [datV2]
theorem after2_4 (c : Dev nD) (t : Fin cfg2.N) : (datV2 VV WW OO c).after 4 t = iblk2 VV c 4 t := by dsimp only [datV2]
theorem after2_5 (c : Dev nD) (t : Fin cfg2.N) : (datV2 VV WW OO c).after 5 t = iblk2 VV c 5 t := by dsimp only [datV2]
theorem after2_6 (c : Dev nD) (t : Fin cfg2.N) : (datV2 VV WW OO c).after 6 t = iblk2 VV c 6 t := by dsimp only [datV2]
theorem after2_7 (c : Dev nD) (t : Fin cfg2.N) : (datV2 VV WW OO c).after 7 t = iblk2 VV c 7 t := by dsimp only [datV2]
theorem after2_8 (c : Dev nD) (t : Fin cfg2.N) : (datV2 VV WW OO c).after 8 t = iblk2 VV c 8 t := by dsimp only [datV2]
theorem after2_9 (c : Dev nD) (t : Fin cfg2.N) : (datV2 VV WW OO c).after 9 t = iblk2 VV c 9 t := by dsimp only [datV2]
theorem after2_10 (c : Dev nD) (t : Fin cfg2.N) : (datV2 VV WW OO c).after 10 t = iblk2 VV c 10 t := by dsimp only [datV2]
theorem after2_11 (c : Dev nD) (t : Fin cfg2.N) : (datV2 VV WW OO c).after 11 t = iblk2 VV c 11 t := by dsimp only [datV2]
theorem after2_12 (c : Dev nD) (t : Fin cfg2.N) : (datV2 VV WW OO c).after 12 t = iblk2 VV c 12 t := by dsimp only [datV2]
theorem after2_13 (c : Dev nD) (t : Fin cfg2.N) : (datV2 VV WW OO c).after 13 t = iblk2 VV c 13 t := by dsimp only [datV2]
theorem after2_14 (c : Dev nD) (t : Fin cfg2.N) : (datV2 VV WW OO c).after 14 t = iblk2 VV c 14 t := by dsimp only [datV2]
theorem after2_15 (c : Dev nD) (t : Fin cfg2.N) : (datV2 VV WW OO c).after 15 t = dense16 (iblk2 VV c 0 t) (iblk2 VV c 1 t) (iblk2 VV c 2 t) (iblk2 VV c 3 t) (iblk2 VV c 4 t) (iblk2 VV c 5 t) (iblk2 VV c 6 t) (iblk2 VV c 7 t) (iblk2 VV c 8 t) (iblk2 VV c 9 t) (iblk2 VV c 10 t) (iblk2 VV c 11 t) (iblk2 VV c 12 t) (iblk2 VV c 13 t) (iblk2 VV c 14 t) := by dsimp only [datV2]
theorem after2_16 (c : Dev nD) (t : Fin cfg2.N) : (datV2 VV WW OO c).after 16 t = dense17 (iblk2 VV c 0 t) (iblk2 VV c 1 t) (iblk2 VV c 2 t) (iblk2 VV c 3 t) (iblk2 VV c 4 t) (iblk2 VV c 5 t) (iblk2 VV c 6 t) (iblk2 VV c 7 t) (iblk2 VV c 8 t) (iblk2 VV c 9 t) (iblk2 VV c 10 t) (iblk2 VV c 11 t) (iblk2 VV c 12 t) (iblk2 VV c 13 t) (iblk2 VV c 14 t) := by dsimp only [datV2]

theorem before2_0 (c : Dev nD) (t : Fin cfg2.N) (d) : (datV2 VV WW OO c).before 0 t d = iblk2 VV c 0 t :=
  ((datV2 VV WW OO c).before_in_eq_fetched 0 rfl (fun _ => rfl) (fun _ _ _ => rfl)
    (fun t => by rw [after2_0]; unfold Pipeline.Dat.blockOf iblk2; rfl) t d).trans
    (by unfold Pipeline.Dat.fetched Pipeline.Dat.blockOf iblk2; rfl)
theorem before2_1 (c : Dev nD) (t : Fin cfg2.N) (d) : (datV2 VV WW OO c).before 1 t d = iblk2 VV c 1 t :=
  ((datV2 VV WW OO c).before_in_eq_fetched 1 rfl (fun _ => rfl) (fun _ _ _ => rfl)
    (fun t => by rw [after2_1]; unfold Pipeline.Dat.blockOf iblk2; rfl) t d).trans
    (by unfold Pipeline.Dat.fetched Pipeline.Dat.blockOf iblk2; rfl)
theorem before2_2 (c : Dev nD) (t : Fin cfg2.N) (d) : (datV2 VV WW OO c).before 2 t d = iblk2 VV c 2 t :=
  ((datV2 VV WW OO c).before_in_eq_fetched 2 rfl (fun _ => rfl) (fun _ _ _ => rfl)
    (fun t => by rw [after2_2]; unfold Pipeline.Dat.blockOf iblk2; rfl) t d).trans
    (by unfold Pipeline.Dat.fetched Pipeline.Dat.blockOf iblk2; rfl)
theorem before2_3 (c : Dev nD) (t : Fin cfg2.N) (d) : (datV2 VV WW OO c).before 3 t d = iblk2 VV c 3 t :=
  ((datV2 VV WW OO c).before_in_eq_fetched 3 rfl (fun _ => rfl) (fun _ _ _ => rfl)
    (fun t => by rw [after2_3]; unfold Pipeline.Dat.blockOf iblk2; rfl) t d).trans
    (by unfold Pipeline.Dat.fetched Pipeline.Dat.blockOf iblk2; rfl)
theorem before2_4 (c : Dev nD) (t : Fin cfg2.N) (d) : (datV2 VV WW OO c).before 4 t d = iblk2 VV c 4 t :=
  ((datV2 VV WW OO c).before_in_eq_fetched 4 rfl (fun _ => rfl) (fun _ _ _ => rfl)
    (fun t => by rw [after2_4]; unfold Pipeline.Dat.blockOf iblk2; rfl) t d).trans
    (by unfold Pipeline.Dat.fetched Pipeline.Dat.blockOf iblk2; rfl)
theorem before2_5 (c : Dev nD) (t : Fin cfg2.N) (d) : (datV2 VV WW OO c).before 5 t d = iblk2 VV c 5 t :=
  ((datV2 VV WW OO c).before_in_eq_fetched 5 rfl (fun _ => rfl) (fun _ _ _ => rfl)
    (fun t => by rw [after2_5]; unfold Pipeline.Dat.blockOf iblk2; rfl) t d).trans
    (by unfold Pipeline.Dat.fetched Pipeline.Dat.blockOf iblk2; rfl)
theorem before2_6 (c : Dev nD) (t : Fin cfg2.N) (d) : (datV2 VV WW OO c).before 6 t d = iblk2 VV c 6 t :=
  ((datV2 VV WW OO c).before_in_eq_fetched 6 rfl (fun _ => rfl) (fun _ _ _ => rfl)
    (fun t => by rw [after2_6]; unfold Pipeline.Dat.blockOf iblk2; rfl) t d).trans
    (by unfold Pipeline.Dat.fetched Pipeline.Dat.blockOf iblk2; rfl)
theorem before2_7 (c : Dev nD) (t : Fin cfg2.N) (d) : (datV2 VV WW OO c).before 7 t d = iblk2 VV c 7 t :=
  ((datV2 VV WW OO c).before_in_eq_fetched 7 rfl (fun _ => rfl) (fun _ _ _ => rfl)
    (fun t => by rw [after2_7]; unfold Pipeline.Dat.blockOf iblk2; rfl) t d).trans
    (by unfold Pipeline.Dat.fetched Pipeline.Dat.blockOf iblk2; rfl)
theorem before2_8 (c : Dev nD) (t : Fin cfg2.N) (d) : (datV2 VV WW OO c).before 8 t d = iblk2 VV c 8 t :=
  ((datV2 VV WW OO c).before_in_eq_fetched 8 rfl (fun _ => rfl) (fun _ _ _ => rfl)
    (fun t => by rw [after2_8]; unfold Pipeline.Dat.blockOf iblk2; rfl) t d).trans
    (by unfold Pipeline.Dat.fetched Pipeline.Dat.blockOf iblk2; rfl)
theorem before2_9 (c : Dev nD) (t : Fin cfg2.N) (d) : (datV2 VV WW OO c).before 9 t d = iblk2 VV c 9 t :=
  ((datV2 VV WW OO c).before_in_eq_fetched 9 rfl (fun _ => rfl) (fun _ _ _ => rfl)
    (fun t => by rw [after2_9]; unfold Pipeline.Dat.blockOf iblk2; rfl) t d).trans
    (by unfold Pipeline.Dat.fetched Pipeline.Dat.blockOf iblk2; rfl)
theorem before2_10 (c : Dev nD) (t : Fin cfg2.N) (d) : (datV2 VV WW OO c).before 10 t d = iblk2 VV c 10 t :=
  ((datV2 VV WW OO c).before_in_eq_fetched 10 rfl (fun _ => rfl) (fun _ _ _ => rfl)
    (fun t => by rw [after2_10]; unfold Pipeline.Dat.blockOf iblk2; rfl) t d).trans
    (by unfold Pipeline.Dat.fetched Pipeline.Dat.blockOf iblk2; rfl)
theorem before2_11 (c : Dev nD) (t : Fin cfg2.N) (d) : (datV2 VV WW OO c).before 11 t d = iblk2 VV c 11 t :=
  ((datV2 VV WW OO c).before_in_eq_fetched 11 rfl (fun _ => rfl) (fun _ _ _ => rfl)
    (fun t => by rw [after2_11]; unfold Pipeline.Dat.blockOf iblk2; rfl) t d).trans
    (by unfold Pipeline.Dat.fetched Pipeline.Dat.blockOf iblk2; rfl)
theorem before2_12 (c : Dev nD) (t : Fin cfg2.N) (d) : (datV2 VV WW OO c).before 12 t d = iblk2 VV c 12 t :=
  ((datV2 VV WW OO c).before_in_eq_fetched 12 rfl (fun _ => rfl) (fun _ _ _ => rfl)
    (fun t => by rw [after2_12]; unfold Pipeline.Dat.blockOf iblk2; rfl) t d).trans
    (by unfold Pipeline.Dat.fetched Pipeline.Dat.blockOf iblk2; rfl)
theorem before2_13 (c : Dev nD) (t : Fin cfg2.N) (d) : (datV2 VV WW OO c).before 13 t d = iblk2 VV c 13 t :=
  ((datV2 VV WW OO c).before_in_eq_fetched 13 rfl (fun _ => rfl) (fun _ _ _ => rfl)
    (fun t => by rw [after2_13]; unfold Pipeline.Dat.blockOf iblk2; rfl) t d).trans
    (by unfold Pipeline.Dat.fetched Pipeline.Dat.blockOf iblk2; rfl)
theorem before2_14 (c : Dev nD) (t : Fin cfg2.N) (d) : (datV2 VV WW OO c).before 14 t d = iblk2 VV c 14 t :=
  ((datV2 VV WW OO c).before_in_eq_fetched 14 rfl (fun _ => rfl) (fun _ _ _ => rfl)
    (fun t => by rw [after2_14]; unfold Pipeline.Dat.blockOf iblk2; rfl) t d).trans
    (by unfold Pipeline.Dat.fetched Pipeline.Dat.blockOf iblk2; rfl)

set_option maxHeartbeats 16000000 in
/-- The body on any staging memrefs at any point, with what it leaves: every input block as it was, the two output
    blocks at their payloads of the input blocks. -/
theorem run1v (c : Dev nD) (i : grid2.Coords) (arg1 : Memref sig .tc .vmem S512x768 .bf16) (harg1 : arg1.IsWhole) (arg2 : Memref sig .tc .vmem S512x768 .bf16) (harg2 : arg2.IsWhole) (arg3 : Memref sig .tc .vmem S768x768 .bf16) (harg3 : arg3.IsWhole) (arg4 : Memref sig .tc .vmem S768x768 .bf16) (harg4 : arg4.IsWhole) (arg5 : Memref sig .tc .vmem S1x768 .f32) (harg5 : arg5.IsWhole) (arg6 : Memref sig .tc .vmem S1x768 .f32) (harg6 : arg6.IsWhole) (arg7 : Memref sig .tc .vmem S768x768 .bf16) (harg7 : arg7.IsWhole) (arg8 : Memref sig .tc .vmem S768x768 .bf16) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S512x768 .f32) (harg16 : arg16.IsWhole) (arg17 : Memref sig .tc .vmem S768x512 .f32) (harg17 : arg17.IsWhole)
    (x1 : Vec F S512x768 .bf16) (x2 : Vec F S512x768 .bf16) (x3 : Vec F S768x768 .bf16) (x4 : Vec F S768x768 .bf16) (x5 : Vec F S1x768 .f32) (x6 : Vec F S1x768 .f32) (x7 : Vec F S768x768 .bf16) (x8 : Vec F S768x768 .bf16) (x9 : Vec F S1x768 .f32) (x10 : Vec F S1x768 .f32) (x11 : Vec F S1x768 .f32) (x12 : Vec F S1x768 .f32) (x13 : Vec F S1x768 .f32) (x14 : Vec F S1x768 .f32) (x15 : Vec F S1x768 .f32) (E : Set ℕ) (Q : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ (∃ d, owns (c : Thread nD τ) arg16 fullShare d)
        ∗ (∃ d, owns (c : Thread nD τ) arg17 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare x14
            ∗ owns (c : Thread nD τ) arg15 fullShare x15
            ∗ owns (c : Thread nD τ) arg16 fullShare (dense16 x1 x2 x3 x4 x5 x6 x7 x8 x9 x10 x11 x12 x13 x14 x15)
            ∗ owns (c : Thread nD τ) arg17 fullShare (dense17 x1 x2 x3 x4 x5 x6 x7 x8 x9 x10 x11 x12 x13 x14 x15)) -∗ Q ⟨⟩))
      ⊢ wp frame (wpE (defs₀ (F := F)) Variants.none c none) E (cc2__dense_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  simp only [cc2__dense_body_eq_skeleton]; unfold cc2__dense_body_skel
  simp only [k2_part1_eq_skeleton, k2_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    · ipureintro; exact harg13.read_unread _
    iexact H13
  isplitl [H14]
  · iexists _; isplitr
    · ipureintro; exact harg14.read_unread _
    iexact H14
  isplitl [H15]
  · iexists _; isplitr
    · ipureintro; exact harg15.read_unread _
    iexact H15
  isplitl [H16]
  · iexists _; isplitr
    swap
    · iexact H16
    ipureintro
    rw [View.read_writes_eq_canon _ _ _ (fun y => ⟨_, List.mem_singleton_self _, View.mem_set_unit_zero hz2 inb_S512x768_S512x768_0_0 y⟩), View.canon_unit_zero hz2]
    unfold dense16 dense78
    unfold run1v.sl.r_5
    try unfold run1v.sl.r
    try unfold run1v.sl.r_1
    try unfold run1v.sl.r_2
    try unfold run1v.sl.r_3
    try unfold run1v.sl.r_4
    try simp only [View.readAt_eq_ld, Memref.IsWhole.read_unread, View.ld_unit_zero (S := S768x768) hz2, View.ld_unit_zero (S := S1x768) hz2, View.ld_unit_zero (S := S512x768) hz2]
    try rfl
  iexists _; isplitr
  swap
  · iexact H17
  ipureintro
  rw [View.read_writes_eq_canon _ _ _ (fun y => ⟨_, List.mem_singleton_self _, View.mem_set_unit_zero hz2 inb_S768x512_S768x512_0_0 y⟩), View.canon_unit_zero hz2]
  unfold dense17 dense78
  unfold run1v.sl.r_5
  try unfold run1v.sl.r
  try unfold run1v.sl.r_1
  try unfold run1v.sl.r_2
  try unfold run1v.sl.r_3
  try unfold run1v.sl.r_4
  try simp only [View.readAt_eq_ld, Memref.IsWhole.read_unread, View.ld_unit_zero (S := S768x768) hz2, View.ld_unit_zero (S := S1x768) hz2, View.ld_unit_zero (S := S512x768) hz2]
  try rfl

set_option maxHeartbeats 8000000 in
/-- The body at any point. -/
theorem sound_body1v (c : Dev nD) (t : Fin cfg2.N) :
    iprop((datV2 VV WW OO c).Φ t.castSucc ∗ (datV2 VV WW OO c).owesAt none t.castSucc
        ∗ (∃ d, owns (c : Thread nD τ) (Gen.st2_0 t) fullShare ((datV2 VV WW OO c).before 0 t d))
        ∗ (∃ d, owns (c : Thread nD τ) (Gen.st2_1 t) fullShare ((datV2 VV WW OO c).before 1 t d))
        ∗ (∃ d, owns (c : Thread nD τ) (Gen.st2_2 t) fullShare ((datV2 VV WW OO c).before 2 t d))
        ∗ (∃ d, owns (c : Thread nD τ) (Gen.st2_3 t) fullShare ((datV2 VV WW OO c).before 3 t d))
        ∗ (∃ d, owns (c : Thread nD τ) (Gen.st2_4 t) fullShare ((datV2 VV WW OO c).before 4 t d))
        ∗ (∃ d, owns (c : Thread nD τ) (Gen.st2_5 t) fullShare ((datV2 VV WW OO c).before 5 t d))
        ∗ (∃ d, owns (c : Thread nD τ) (Gen.st2_6 t) fullShare ((datV2 VV WW OO c).before 6 t d))
        ∗ (∃ d, owns (c : Thread nD τ) (Gen.st2_7 t) fullShare ((datV2 VV WW OO c).before 7 t d))
        ∗ (∃ d, owns (c : Thread nD τ) (Gen.st2_8 t) fullShare ((datV2 VV WW OO c).before 8 t d))
        ∗ (∃ d, owns (c : Thread nD τ) (Gen.st2_9 t) fullShare ((datV2 VV WW OO c).before 9 t d))
        ∗ (∃ d, owns (c : Thread nD τ) (Gen.st2_10 t) fullShare ((datV2 VV WW OO c).before 10 t d))
        ∗ (∃ d, owns (c : Thread nD τ) (Gen.st2_11 t) fullShare ((datV2 VV WW OO c).before 11 t d))
        ∗ (∃ d, owns (c : Thread nD τ) (Gen.st2_12 t) fullShare ((datV2 VV WW OO c).before 12 t d))
        ∗ (∃ d, owns (c : Thread nD τ) (Gen.st2_13 t) fullShare ((datV2 VV WW OO c).before 13 t d))
        ∗ (∃ d, owns (c : Thread nD τ) (Gen.st2_14 t) fullShare ((datV2 VV WW OO c).before 14 t d))
        ∗ (∃ d, owns (c : Thread nD τ) (Gen.st2_15 t) fullShare ((datV2 VV WW OO c).before 15 t d))
        ∗ (∃ d, owns (c : Thread nD τ) (Gen.st2_16 t) fullShare ((datV2 VV WW OO c).before 16 t d)))
      ⊢ wp frame (wpE (defs₀ (F := F)) Variants.none c none) Set.univ (Gen.bodyAt2 t) (fun _ =>
          iprop((datV2 VV WW OO c).Φ t.succ ∗ (datV2 VV WW OO c).owesAt none t.succ
            ∗ owns (c : Thread nD τ) (Gen.st2_0 t) fullShare ((datV2 VV WW OO c).after 0 t)
            ∗ owns (c : Thread nD τ) (Gen.st2_1 t) fullShare ((datV2 VV WW OO c).after 1 t)
            ∗ owns (c : Thread nD τ) (Gen.st2_2 t) fullShare ((datV2 VV WW OO c).after 2 t)
            ∗ owns (c : Thread nD τ) (Gen.st2_3 t) fullShare ((datV2 VV WW OO c).after 3 t)
            ∗ owns (c : Thread nD τ) (Gen.st2_4 t) fullShare ((datV2 VV WW OO c).after 4 t)
            ∗ owns (c : Thread nD τ) (Gen.st2_5 t) fullShare ((datV2 VV WW OO c).after 5 t)
            ∗ owns (c : Thread nD τ) (Gen.st2_6 t) fullShare ((datV2 VV WW OO c).after 6 t)
            ∗ owns (c : Thread nD τ) (Gen.st2_7 t) fullShare ((datV2 VV WW OO c).after 7 t)
            ∗ owns (c : Thread nD τ) (Gen.st2_8 t) fullShare ((datV2 VV WW OO c).after 8 t)
            ∗ owns (c : Thread nD τ) (Gen.st2_9 t) fullShare ((datV2 VV WW OO c).after 9 t)
            ∗ owns (c : Thread nD τ) (Gen.st2_10 t) fullShare ((datV2 VV WW OO c).after 10 t)
            ∗ owns (c : Thread nD τ) (Gen.st2_11 t) fullShare ((datV2 VV WW OO c).after 11 t)
            ∗ owns (c : Thread nD τ) (Gen.st2_12 t) fullShare ((datV2 VV WW OO c).after 12 t)
            ∗ owns (c : Thread nD τ) (Gen.st2_13 t) fullShare ((datV2 VV WW OO c).after 13 t)
            ∗ owns (c : Thread nD τ) (Gen.st2_14 t) fullShare ((datV2 VV WW OO c).after 14 t)
            ∗ owns (c : Thread nD τ) (Gen.st2_15 t) fullShare ((datV2 VV WW OO c).after 15 t)
            ∗ owns (c : Thread nD τ) (Gen.st2_16 t) fullShare ((datV2 VV WW OO c).after 16 t))) := by
  simp only [before2_0, before2_1, before2_2, before2_3, before2_4, before2_5, before2_6, before2_7, before2_8, before2_9, before2_10, before2_11, before2_12, before2_13, before2_14]
  rw [show (datV2 VV WW OO c).Φ t.succ = (datV2 VV WW OO c).Φ t.castSucc from rfl,
    show (datV2 VV WW OO c).owesAt none t.succ = (datV2 VV WW OO c).owesAt none t.castSucc from rfl,
    after2_0, after2_1, after2_2, after2_3, after2_4, after2_5, after2_6, after2_7, after2_8, after2_9, after2_10, after2_11, after2_12, after2_13, after2_14, after2_15, after2_16]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run1v c _ _ _ _ _ _ _ _ _ _ _ _ _ _ _ _ _ _ _ _ _ _ _ _ _ _ _ _ _ _ _ _ _ _ _ (iblk2 VV c 0 t) (iblk2 VV c 1 t) (iblk2 VV c 2 t) (iblk2 VV c 3 t) (iblk2 VV c 4 t) (iblk2 VV c 5 t) (iblk2 VV c 6 t) (iblk2 VV c 7 t) (iblk2 VV c 8 t) (iblk2 VV c 9 t) (iblk2 VV c 10 t) (iblk2 VV c 11 t) (iblk2 VV c 12 t) (iblk2 VV c 13 t) (iblk2 VV c 14 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_obligation1v (c : Dev nD) : Pipeline.BodyObligation (datV2 VV WW OO c) (defs₀ (F := F)) 𝒱₀ (none : HIx 1) Set.univ := fun t => by
  rw [Gen.bigSep_W2, Gen.bigSep_W2]
  exact sound_body1v VV WW OO c t

/-! ## The output arrays after the region, in closed form -/

/-- Each window's array as the region finds it. -/
abbrev a2_0 (c : Dev nD) : S4096x768.Idx → Elt F .bf16 := VV c (Proc.devRef (τ := τ) .tc main_v8)
abbrev a2_1 (c : Dev nD) : S4096x768.Idx → Elt F .bf16 := VV c (Proc.devRef (τ := τ) .tc main_v9)
abbrev a2_2 (c : Dev nD) : S768x768.Idx → Elt F .bf16 := VV c (Proc.devRef (τ := τ) .tc main_v6_0)
abbrev a2_3 (c : Dev nD) : S768x768.Idx → Elt F .bf16 := VV c (Proc.devRef (τ := τ) .tc main_v6_1)
abbrev a2_4 (c : Dev nD) : S1x768.Idx → Elt F .f32 := VV c (Proc.devRef (τ := τ) .tc main_v6_2)
abbrev a2_5 (c : Dev nD) : S1x768.Idx → Elt F .f32 := VV c (Proc.devRef (τ := τ) .tc main_v6_3)
abbrev a2_6 (c : Dev nD) : S768x768.Idx → Elt F .bf16 := VV c (Proc.devRef (τ := τ) .tc main_v6_4)
abbrev a2_7 (c : Dev nD) : S768x768.Idx → Elt F .bf16 := VV c (Proc.devRef (τ := τ) .tc main_v6_5)
abbrev a2_8 (c : Dev nD) : S1x768.Idx → Elt F .f32 := VV c (Proc.devRef (τ := τ) .tc main_v10)
abbrev a2_9 (c : Dev nD) : S1x768.Idx → Elt F .f32 := VV c (Proc.devRef (τ := τ) .tc main_v11)
abbrev a2_10 (c : Dev nD) : S1x768.Idx → Elt F .f32 := VV c (Proc.devRef (τ := τ) .tc main_v12)
abbrev a2_11 (c : Dev nD) : S1x768.Idx → Elt F .f32 := VV c (Proc.devRef (τ := τ) .tc main_v13)
abbrev a2_12 (c : Dev nD) : S1x768.Idx → Elt F .f32 := VV c (Proc.devRef (τ := τ) .tc main_v14)
abbrev a2_13 (c : Dev nD) : S1x768.Idx → Elt F .f32 := VV c (Proc.devRef (τ := τ) .tc main_v15)
abbrev a2_14 (c : Dev nD) : S1x768.Idx → Elt F .f32 := VV c (Proc.devRef (τ := τ) .tc main_v16)
abbrev a2_15 (c : Dev nD) : S4096x768.Idx → Elt F .f32 := VV c (Proc.devRef (τ := τ) .tc main_v17_0)
abbrev a2_16 (c : Dev nD) : S768x4096.Idx → Elt F .f32 := VV c (Proc.devRef (τ := τ) .tc main_v17_1)

/-- Rows `512 q … 512 q + 511` of a 4096-row array: row `p` of the block is row `512 q + p` of the array. -/
def rowBlk {e : EltTy} (A : S4096x768.Idx → Elt F e) (q : Fin 8) : S512x768.Idx → Elt F e :=
  fun j => A (ValueIdx.ix2 (⟨512 * q.val + (j 0).val, by have h : (j 0).val < 512 := (j 0).isLt; have := q.isLt; omega⟩ : Fin 4096)
    (⟨(j 1).val, (j 1).isLt⟩ : Fin 768))

/-- What the body stores at the point whose row block is `q`: into the first output's block, and the second's. -/
def denseAt16 (c : Dev nD) (q : Fin 8) : S512x768.Idx → Elt F .f32 := dense16 (rowBlk (a2_0 VV c) q) (rowBlk (a2_1 VV c) q) (a2_2 VV c) (a2_3 VV c) (a2_4 VV c) (a2_5 VV c) (a2_6 VV c) (a2_7 VV c) (a2_8 VV c) (a2_9 VV c) (a2_10 VV c) (a2_11 VV c) (a2_12 VV c) (a2_13 VV c) (a2_14 VV c)
def denseAt17 (c : Dev nD) (q : Fin 8) : S768x512.Idx → Elt F .f32 := dense17 (rowBlk (a2_0 VV c) q) (rowBlk (a2_1 VV c) q) (a2_2 VV c) (a2_3 VV c) (a2_4 VV c) (a2_5 VV c) (a2_6 VV c) (a2_7 VV c) (a2_8 VV c) (a2_9 VV c) (a2_10 VV c) (a2_11 VV c) (a2_12 VV c) (a2_13 VV c) (a2_14 VV c)

/-- The row block of a row, and the row within it; the column block of a column, and the column within it. -/
def qRow (i : S4096x768.Idx) : Fin 8 := ⟨(i 0).val / 512, by have h : (i 0).val < 4096 := (i 0).isLt; omega⟩
def inRow (i : S4096x768.Idx) : S512x768.Idx :=
  ValueIdx.ix2 (⟨(i 0).val % 512, Nat.mod_lt _ (by decide)⟩ : Fin 512) (⟨(i 1).val, (i 1).isLt⟩ : Fin 768)
def qCol (i : S768x4096.Idx) : Fin 8 := ⟨(i 1).val / 512, by have h : (i 1).val < 4096 := (i 1).isLt; omega⟩
def inCol (i : S768x4096.Idx) : S768x512.Idx :=
  ValueIdx.ix2 (⟨(i 0).val, (i 0).isLt⟩ : Fin 768) (⟨(i 1).val % 512, Nat.mod_lt _ (by decide)⟩ : Fin 512)

/-- THE FIRST OUTPUT: row `r` is row `r % 512` of what the body stores at the point of row block `r / 512`; -/
def G15 (c : Dev nD) : S4096x768.Idx → Elt F .f32 := fun i => denseAt16 VV c (qRow i) (inRow i)
/-- THE SECOND: column `j` is column `j % 512` of what it stores there for the second output. -/
def G16 (c : Dev nD) : S768x4096.Idx → Elt F .f32 := fun i => denseAt17 VV c (qCol i) (inCol i)

/-- The windows' block indices at point `t`: the two moving inputs and the first output at `(t, 0)`, the second
    output at `(0, t)`, every other window at `(0, 0)`. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0
    ∧ win2_14.index t (0 : Fin 2) = 0 ∧ win2_14.index t (1 : Fin 2) = 0
    ∧ win2_15.index t (0 : Fin 2) = t.val ∧ win2_15.index t (1 : Fin 2) = 0
    ∧ win2_16.index t (0 : Fin 2) = 0 ∧ win2_16.index t (1 : Fin 2) = t.val ∧ t.val < 8 :=
  (by decide +kernel : ∀ t : Fin grid2.N, _)

/-- The point as a row / column block. -/
def tq (t : Fin cfg2.N) : Fin 8 := ⟨t.val, (idx_facts2 t).2.2.2.2.2.2.2.2.2.2.2.2.2.2.2.2.2.2.2.2.2.2.2.2.2.2.2.2.2.2.2.2.2.2⟩

theorem iblk2_eq_0 (c : Dev nD) (t : Fin cfg2.N) : iblk2 VV c 0 t = rowBlk (a2_0 VV c) (tq t) := by
  have hi := idx_facts2 t
  funext j
  show a2_0 VV c (((cfg2.win 0).blk t).view.emb j) = a2_0 VV c _
  congr 1; funext a; apply Fin.ext
  match a with
  | ⟨0, _⟩ => show win2_0.index t (0 : Fin 2) * 512 + 1 * (j 0).val = 512 * t.val + (j 0).val; omega
  | ⟨1, _⟩ => show win2_0.index t (1 : Fin 2) * 768 + 1 * (j 1).val = (j 1).val; omega

theorem iblk2_eq_1 (c : Dev nD) (t : Fin cfg2.N) : iblk2 VV c 1 t = rowBlk (a2_1 VV c) (tq t) := by
  have hi := idx_facts2 t
  funext j
  show a2_1 VV c (((cfg2.win 1).blk t).view.emb j) = a2_1 VV c _
  congr 1; funext a; apply Fin.ext
  match a with
  | ⟨0, _⟩ => show win2_1.index t (0 : Fin 2) * 512 + 1 * (j 0).val = 512 * t.val + (j 0).val; omega
  | ⟨1, _⟩ => show win2_1.index t (1 : Fin 2) * 768 + 1 * (j 1).val = (j 1).val; omega

theorem iblk2_eq_2 (c : Dev nD) (t : Fin cfg2.N) : iblk2 VV c 2 t = a2_2 VV c := by
  have hi := idx_facts2 t
  funext j
  show a2_2 VV c (((cfg2.win 2).blk t).view.emb j) = a2_2 VV c j
  congr 1; funext a; apply Fin.ext
  match a with
  | ⟨0, _⟩ => show win2_2.index t (0 : Fin 2) * 768 + 1 * (j 0).val = (j 0).val; omega
  | ⟨1, _⟩ => show win2_2.index t (1 : Fin 2) * 768 + 1 * (j 1).val = (j 1).val; omega

theorem iblk2_eq_3 (c : Dev nD) (t : Fin cfg2.N) : iblk2 VV c 3 t = a2_3 VV c := by
  have hi := idx_facts2 t
  funext j
  show a2_3 VV c (((cfg2.win 3).blk t).view.emb j) = a2_3 VV c j
  congr 1; funext a; apply Fin.ext
  match a with
  | ⟨0, _⟩ => show win2_3.index t (0 : Fin 2) * 768 + 1 * (j 0).val = (j 0).val; omega
  | ⟨1, _⟩ => show win2_3.index t (1 : Fin 2) * 768 + 1 * (j 1).val = (j 1).val; omega

theorem iblk2_eq_4 (c : Dev nD) (t : Fin cfg2.N) : iblk2 VV c 4 t = a2_4 VV c := by
  have hi := idx_facts2 t
  funext j
  show a2_4 VV c (((cfg2.win 4).blk t).view.emb j) = a2_4 VV c j
  congr 1; funext a; apply Fin.ext
  match a with
  | ⟨0, _⟩ => show win2_4.index t (0 : Fin 2) * 1 + 1 * (j 0).val = (j 0).val; omega
  | ⟨1, _⟩ => show win2_4.index t (1 : Fin 2) * 768 + 1 * (j 1).val = (j 1).val; omega

theorem iblk2_eq_5 (c : Dev nD) (t : Fin cfg2.N) : iblk2 VV c 5 t = a2_5 VV c := by
  have hi := idx_facts2 t
  funext j
  show a2_5 VV c (((cfg2.win 5).blk t).view.emb j) = a2_5 VV c j
  congr 1; funext a; apply Fin.ext
  match a with
  | ⟨0, _⟩ => show win2_5.index t (0 : Fin 2) * 1 + 1 * (j 0).val = (j 0).val; omega
  | ⟨1, _⟩ => show win2_5.index t (1 : Fin 2) * 768 + 1 * (j 1).val = (j 1).val; omega

theorem iblk2_eq_6 (c : Dev nD) (t : Fin cfg2.N) : iblk2 VV c 6 t = a2_6 VV c := by
  have hi := idx_facts2 t
  funext j
  show a2_6 VV c (((cfg2.win 6).blk t).view.emb j) = a2_6 VV c j
  congr 1; funext a; apply Fin.ext
  match a with
  | ⟨0, _⟩ => show win2_6.index t (0 : Fin 2) * 768 + 1 * (j 0).val = (j 0).val; omega
  | ⟨1, _⟩ => show win2_6.index t (1 : Fin 2) * 768 + 1 * (j 1).val = (j 1).val; omega

theorem iblk2_eq_7 (c : Dev nD) (t : Fin cfg2.N) : iblk2 VV c 7 t = a2_7 VV c := by
  have hi := idx_facts2 t
  funext j
  show a2_7 VV c (((cfg2.win 7).blk t).view.emb j) = a2_7 VV c j
  congr 1; funext a; apply Fin.ext
  match a with
  | ⟨0, _⟩ => show win2_7.index t (0 : Fin 2) * 768 + 1 * (j 0).val = (j 0).val; omega
  | ⟨1, _⟩ => show win2_7.index t (1 : Fin 2) * 768 + 1 * (j 1).val = (j 1).val; omega

theorem iblk2_eq_8 (c : Dev nD) (t : Fin cfg2.N) : iblk2 VV c 8 t = a2_8 VV c := by
  have hi := idx_facts2 t
  funext j
  show a2_8 VV c (((cfg2.win 8).blk t).view.emb j) = a2_8 VV c j
  congr 1; funext a; apply Fin.ext
  match a with
  | ⟨0, _⟩ => show win2_8.index t (0 : Fin 2) * 1 + 1 * (j 0).val = (j 0).val; omega
  | ⟨1, _⟩ => show win2_8.index t (1 : Fin 2) * 768 + 1 * (j 1).val = (j 1).val; omega

theorem iblk2_eq_9 (c : Dev nD) (t : Fin cfg2.N) : iblk2 VV c 9 t = a2_9 VV c := by
  have hi := idx_facts2 t
  funext j
  show a2_9 VV c (((cfg2.win 9).blk t).view.emb j) = a2_9 VV c j
  congr 1; funext a; apply Fin.ext
  match a with
  | ⟨0, _⟩ => show win2_9.index t (0 : Fin 2) * 1 + 1 * (j 0).val = (j 0).val; omega
  | ⟨1, _⟩ => show win2_9.index t (1 : Fin 2) * 768 + 1 * (j 1).val = (j 1).val; omega

theorem iblk2_eq_10 (c : Dev nD) (t : Fin cfg2.N) : iblk2 VV c 10 t = a2_10 VV c := by
  have hi := idx_facts2 t
  funext j
  show a2_10 VV c (((cfg2.win 10).blk t).view.emb j) = a2_10 VV c j
  congr 1; funext a; apply Fin.ext
  match a with
  | ⟨0, _⟩ => show win2_10.index t (0 : Fin 2) * 1 + 1 * (j 0).val = (j 0).val; omega
  | ⟨1, _⟩ => show win2_10.index t (1 : Fin 2) * 768 + 1 * (j 1).val = (j 1).val; omega

theorem iblk2_eq_11 (c : Dev nD) (t : Fin cfg2.N) : iblk2 VV c 11 t = a2_11 VV c := by
  have hi := idx_facts2 t
  funext j
  show a2_11 VV c (((cfg2.win 11).blk t).view.emb j) = a2_11 VV c j
  congr 1; funext a; apply Fin.ext
  match a with
  | ⟨0, _⟩ => show win2_11.index t (0 : Fin 2) * 1 + 1 * (j 0).val = (j 0).val; omega
  | ⟨1, _⟩ => show win2_11.index t (1 : Fin 2) * 768 + 1 * (j 1).val = (j 1).val; omega

theorem iblk2_eq_12 (c : Dev nD) (t : Fin cfg2.N) : iblk2 VV c 12 t = a2_12 VV c := by
  have hi := idx_facts2 t
  funext j
  show a2_12 VV c (((cfg2.win 12).blk t).view.emb j) = a2_12 VV c j
  congr 1; funext a; apply Fin.ext
  match a with
  | ⟨0, _⟩ => show win2_12.index t (0 : Fin 2) * 1 + 1 * (j 0).val = (j 0).val; omega
  | ⟨1, _⟩ => show win2_12.index t (1 : Fin 2) * 768 + 1 * (j 1).val = (j 1).val; omega

theorem iblk2_eq_13 (c : Dev nD) (t : Fin cfg2.N) : iblk2 VV c 13 t = a2_13 VV c := by
  have hi := idx_facts2 t
  funext j
  show a2_13 VV c (((cfg2.win 13).blk t).view.emb j) = a2_13 VV c j
  congr 1; funext a; apply Fin.ext
  match a with
  | ⟨0, _⟩ => show win2_13.index t (0 : Fin 2) * 1 + 1 * (j 0).val = (j 0).val; omega
  | ⟨1, _⟩ => show win2_13.index t (1 : Fin 2) * 768 + 1 * (j 1).val = (j 1).val; omega

theorem iblk2_eq_14 (c : Dev nD) (t : Fin cfg2.N) : iblk2 VV c 14 t = a2_14 VV c := by
  have hi := idx_facts2 t
  funext j
  show a2_14 VV c (((cfg2.win 14).blk t).view.emb j) = a2_14 VV c j
  congr 1; funext a; apply Fin.ext
  match a with
  | ⟨0, _⟩ => show win2_14.index t (0 : Fin 2) * 1 + 1 * (j 0).val = (j 0).val; omega
  | ⟨1, _⟩ => show win2_14.index t (1 : Fin 2) * 768 + 1 * (j 1).val = (j 1).val; omega

/-- What point `t` writes back to the first output is block `t` of `G15`. -/
theorem flushed15_eq (c : Dev nD) (t : Fin cfg2.N) :
    (datV2 VV WW OO c).flushed 15 t = ((cfg2.win 15).blk t).view.read (Elt F) (G15 VV c) := by
  show (cfg2.win 15).cut (grid2.coords t) ((datV2 VV WW OO c).after 15 t) = _
  rw [after2_15, iblk2_eq_0, iblk2_eq_1, iblk2_eq_2, iblk2_eq_3, iblk2_eq_4, iblk2_eq_5, iblk2_eq_6, iblk2_eq_7, iblk2_eq_8, iblk2_eq_9, iblk2_eq_10, iblk2_eq_11, iblk2_eq_12, iblk2_eq_13, iblk2_eq_14]
  have hi := idx_facts2 t
  funext j
  have hj0 : (j 0).val < 512 := (j 0).isLt
  have hj1 : (j 1).val < 768 := (j 1).isLt
  have k0 : ((((cfg2.win 15).blk t).view.emb j) 0).val = win2_15.index t (0 : Fin 2) * 512 + 1 * (j 0).val := rfl
  have k1 : ((((cfg2.win 15).blk t).view.emb j) 1).val = win2_15.index t (1 : Fin 2) * 768 + 1 * (j 1).val := rfl
  show denseAt16 VV c (tq t) j = G15 VV c (((cfg2.win 15).blk t).view.emb j)
  unfold G15
  have hq : qRow (((cfg2.win 15).blk t).view.emb j) = tq t := Fin.ext (by
    show ((((cfg2.win 15).blk t).view.emb j) 0).val / 512 = t.val
    rw [k0]; omega)
  have hr : inRow (((cfg2.win 15).blk t).view.emb j) = j := by
    funext a; apply Fin.ext
    match a with
    | ⟨0, _⟩ => show ((((cfg2.win 15).blk t).view.emb j) 0).val % 512 = (j 0).val; rw [k0]; omega
    | ⟨1, _⟩ => show ((((cfg2.win 15).blk t).view.emb j) 1).val = (j 1).val; rw [k1]; omega
  rw [hq, hr]

/-- What point `t` writes back to the second output is block `t` of `G16`. -/
theorem flushed16_eq (c : Dev nD) (t : Fin cfg2.N) :
    (datV2 VV WW OO c).flushed 16 t = ((cfg2.win 16).blk t).view.read (Elt F) (G16 VV c) := by
  show (cfg2.win 16).cut (grid2.coords t) ((datV2 VV WW OO c).after 16 t) = _
  rw [after2_16, iblk2_eq_0, iblk2_eq_1, iblk2_eq_2, iblk2_eq_3, iblk2_eq_4, iblk2_eq_5, iblk2_eq_6, iblk2_eq_7, iblk2_eq_8, iblk2_eq_9, iblk2_eq_10, iblk2_eq_11, iblk2_eq_12, iblk2_eq_13, iblk2_eq_14]
  have hi := idx_facts2 t
  funext j
  have hj0 : (j 0).val < 768 := (j 0).isLt
  have hj1 : (j 1).val < 512 := (j 1).isLt
  have k0 : ((((cfg2.win 16).blk t).view.emb j) 0).val = win2_16.index t (0 : Fin 2) * 768 + 1 * (j 0).val := rfl
  have k1 : ((((cfg2.win 16).blk t).view.emb j) 1).val = win2_16.index t (1 : Fin 2) * 512 + 1 * (j 1).val := rfl
  show denseAt17 VV c (tq t) j = G16 VV c (((cfg2.win 16).blk t).view.emb j)
  unfold G16
  have hq : qCol (((cfg2.win 16).blk t).view.emb j) = tq t := Fin.ext (by
    show ((((cfg2.win 16).blk t).view.emb j) 1).val / 512 = t.val
    rw [k1]; omega)
  have hr : inCol (((cfg2.win 16).blk t).view.emb j) = j := by
    funext a; apply Fin.ext
    match a with
    | ⟨0, _⟩ => show ((((cfg2.win 16).blk t).view.emb j) 0).val = (j 0).val; rw [k0]; omega
    | ⟨1, _⟩ => show ((((cfg2.win 16).blk t).view.emb j) 1).val % 512 = (j 1).val; rw [k1]; omega
  rw [hq, hr]

/-- Every row is in the block of its row block; every column in the block of its column block. -/
theorem cover15 (i : S4096x768.Idx) : ∃ t : Fin cfg2.N, (cfg2.win 15).flush t = true ∧ i ∈ ((cfg2.win 15).blk t).view.set := by
  have hi0 : (i 0).val < 4096 := (i 0).isLt
  have hi1 : (i 1).val < 768 := (i 1).isLt
  have hN : cfg2.N = 8 := Gen.N_2
  let t : Fin cfg2.N := ⟨(i 0).val / 512, by rw [hN]; omega⟩
  have ht : t.val = (i 0).val / 512 := rfl
  have hi := idx_facts2 t
  refine ⟨t, Gen.flush2_15 t, ?_⟩
  show i ∈ ((View.whole main_v17_0).slice (win2_15.rect t)).set
  rw [View.set_slice_whole, Rect.mem_set_unit]
  intro a
  match a with
  | ⟨0, _⟩ => show win2_15.index t (0 : Fin 2) * 512 ≤ (i 0).val ∧ (i 0).val < win2_15.index t (0 : Fin 2) * 512 + 512; omega
  | ⟨1, _⟩ => show win2_15.index t (1 : Fin 2) * 768 ≤ (i 1).val ∧ (i 1).val < win2_15.index t (1 : Fin 2) * 768 + 768; omega

theorem cover16 (i : S768x4096.Idx) : ∃ t : Fin cfg2.N, (cfg2.win 16).flush t = true ∧ i ∈ ((cfg2.win 16).blk t).view.set := by
  have hi0 : (i 0).val < 768 := (i 0).isLt
  have hi1 : (i 1).val < 4096 := (i 1).isLt
  have hN : cfg2.N = 8 := Gen.N_2
  let t : Fin cfg2.N := ⟨(i 1).val / 512, by rw [hN]; omega⟩
  have ht : t.val = (i 1).val / 512 := rfl
  have hi := idx_facts2 t
  refine ⟨t, Gen.flush2_16 t, ?_⟩
  show i ∈ ((View.whole main_v17_1).slice (win2_16.rect t)).set
  rw [View.set_slice_whole, Rect.mem_set_unit]
  intro a
  match a with
  | ⟨0, _⟩ => show win2_16.index t (0 : Fin 2) * 768 ≤ (i 0).val ∧ (i 0).val < win2_16.index t (0 : Fin 2) * 768 + 768; omega
  | ⟨1, _⟩ => show win2_16.index t (1 : Fin 2) * 512 ≤ (i 1).val ∧ (i 1).val < win2_16.index t (1 : Fin 2) * 512 + 512; omega

/-- THE OUTPUT ARRAYS after the region. -/
theorem final2_15 (c : Dev nD) : (datV2 VV WW OO c).arrAt 15 cfg2.N = G15 VV c :=
  (datV2 VV WW OO c).arrAt_eq_of_cover 15 (G15 VV c) (fun t _ => flushed15_eq VV WW OO c t) cover15
theorem final2_16 (c : Dev nD) : (datV2 VV WW OO c).arrAt 16 cfg2.N = G16 VV c :=
  (datV2 VV WW OO c).arrAt_eq_of_cover 16 (G16 VV c) (fun t _ => flushed16_eq VV WW OO c t) cover16

/-- The first output at row `512 t + p`, column `k`: what the body stores at point `t`, at `(p, k)`. -/
theorem G15_at (c : Dev nD) (t : Fin 8) (p : Fin 512) (k : Fin 768) (h : 512 * t.val + p.val < 4096) :
    G15 VV c (ValueIdx.ix2 (⟨512 * t.val + p.val, h⟩ : Fin 4096) k) = denseAt16 VV c t (ValueIdx.ix2 p k) := by
  unfold G15
  have hq : qRow (ValueIdx.ix2 (⟨512 * t.val + p.val, h⟩ : Fin 4096) k) = t := Fin.ext (by
    show (512 * t.val + p.val) / 512 = t.val
    have := p.isLt; omega)
  have hr : inRow (ValueIdx.ix2 (⟨512 * t.val + p.val, h⟩ : Fin 4096) k) = ValueIdx.ix2 p k := by
    funext a; apply Fin.ext
    match a with
    | ⟨0, _⟩ => show (512 * t.val + p.val) % 512 = p.val; have := p.isLt; omega
    | ⟨1, _⟩ => rfl
  rw [hq, hr]

/-- The second output at row `k`, column `512 t + p`: what the body stores at point `t`, at `(k, p)`. -/
theorem G16_at (c : Dev nD) (t : Fin 8) (p : Fin 512) (k : Fin 768) (h : 512 * t.val + p.val < 4096) :
    G16 VV c (ValueIdx.ix2 k (⟨512 * t.val + p.val, h⟩ : Fin 4096)) = denseAt17 VV c t (ValueIdx.ix2 k p) := by
  unfold G16
  have hq : qCol (ValueIdx.ix2 k (⟨512 * t.val + p.val, h⟩ : Fin 4096)) = t := Fin.ext (by
    show (512 * t.val + p.val) / 512 = t.val
    have := p.isLt; omega)
  have hr : inCol (ValueIdx.ix2 k (⟨512 * t.val + p.val, h⟩ : Fin 4096)) = ValueIdx.ix2 k p := by
    funext a; apply Fin.ext
    match a with
    | ⟨0, _⟩ => rfl
    | ⟨1, _⟩ => show (512 * t.val + p.val) % 512 = p.val; have := p.isLt; omega
  rw [hq, hr]

/-! ## The region -/

/-- After the second region, with the outputs named: the unscoped buffers at a valuation that agrees with the entry
    valuation off the two output arrays and holds there `G15` and `G16` (`G15_at`, `G16_at` read them at a row or a
    column `512 t + p`); the same tally. -/
def postV1 (d : Dev nD) : sProp 𝕄 :=
  iprop((∃ V' : Valuation τ sig (Elt F), ⌜(∀ b, b ∉ outs cfg2 → V' b = VV d b)
        ∧ (V' (Proc.devRef (τ := τ) .tc main_v17_0) : S4096x768.Idx → Elt F .f32) = G15 VV d
        ∧ (V' (Proc.devRef (τ := τ) .tc main_v17_1) : S768x4096.Idx → Elt F .f32) = G16 VV d⌝
      ∗ StableHlo.held (SparseCore.T d) (Pipeline.ucRefs τ sig) V') ∗ owesT WW OO d)

theorem entryV1 (c : Dev nD) :
    (StableHlo.held (SparseCore.T c) (Pipeline.ucRefs τ sig) (VV c) : sProp 𝕄)
      ⊢ iprop((pdatsV1 VV WW OO 1 c).arrays ((pdatsV1 VV WW OO 1 c).arrAt · 0) ∗ Pipeline.unscopedRest spec2 c (fun b => VV c b)) := by
  have h1 := Pipeline.arrays_of_unscopedBufs (pcfgs (F := F)) adm (pdatsV1 VV WW OO) (p := 1) Gen.winFacts2 Gen.arr_whole2 c
    ((datV2 VV WW OO c).share_full fun _ => rfl) (fun b => VV c b) (fun _ => rfl)
  rw [Pipeline.unscopedBufs_held (Ix := HIx 1) (Name := ℕ) (U := UU) (Lvl := ℕ) c (VV c)] at h1
  exact h1

def regV1 (hO : ∀ g, OO g none = 0) :
    Pipeline.RegionSeg (pcfgs (F := F)) adm (pdatsV1 VV WW OO) (none : HIx 1) defs₀ 𝒱₀ (K (F := F)).L (K (F := F)).lev 1 where
  win := Gen.winFacts2.to₀
  block_pos := Gen.block_pos2
  stage_whole := Gen.stage_whole2
  K := PEmpty
  osem k := k.elim
  ho := Pipeline.OwnSemFacts.none _
  hbody c := (body_obligation1v VV WW OO c).loose
  hwaits c := Pipeline.cellsWaits_intro (Pipeline.pin (pcfgs (F := F)) adm) (pdatsV1 VV WW OO) none 1 c
    fun w s t => (K (F := F)).mayWait_none _ hO
  pre c := preR VV WW OO c
  post c := postV1 VV WW OO c
  X _ := iprop(emp)
  Y _ := iprop(emp)
  Z c := Pipeline.unscopedRest spec2 c (fun b => VV c b)
  hentry c := by
    rw [Pipeline.ownSems0_none, prefHeld1]
    unfold preR
    iintro ⟨⟨Hh, HO⟩, -, -⟩
    imodintro
    ihave Ha := (entryV1 VV WW OO c) $$ Hh
    icases Ha with ⟨Ha, Hr⟩
    isplitl [Ha]; · iexact Ha
    isplitr; · iempintro
    isplitl [HO]; · iapply (owesAtV_intro (datV2 VV WW OO c) WW OO 0 rfl rfl); iexact HO
    isplitr; · iempintro
    iexact Hr
  hin c := by
    rw [show (pdatsV1 VV WW OO 1 c).Φ 0 = Pipeline.scopedRest spec2 c from rfl]
    iintro ⟨-, -, H⟩; iexact H
  hout c := by
    rw [show (pdatsV1 VV WW OO 1 c).Φ (Fin.last _) = Pipeline.scopedRest spec2 c from rfl, Pipeline.ownSems0_none]
    iintro H
    isplitr; · iempintro
    isplitr; · iempintro
    iexact H
  hexit c := by
    unfold postV1
    iintro ⟨Ha, HO, -, HZ⟩
    imodintro
    isplitl [Ha HZ]
    · ihave H := (exit_heldV (datV2 VV WW OO c) (VV c) ((datV2 VV WW OO c).share_full fun _ => rfl) (fun _ => rfl)
          Gen.winFacts2 Gen.arr_whole2 cfg2.N) $$ [Ha HZ]
      · isplitl [Ha]; · iexact Ha
        iexact HZ
      icases H with ⟨%V', %h, Hh⟩
      iexists V'; isplitr
      · ipureintro
        exact ⟨h.1, (h.2 15).trans (final2_15 VV WW OO c), (h.2 16).trans (final2_16 VV WW OO c)⟩
      iexact Hh
    iapply (owesAtV_elim (datV2 VV WW OO c) WW OO (Fin.last _) rfl rfl); iexact HO

/-- The second pallas_call's custom call on core `d`, with the two output arrays' final contents named. -/
theorem region1V (hO : ∀ g, OO g none = 0) (d : Dev nD) {α : Type}
    (k : PUnit → Prog (TpuEff nD τ sig (Elt F) (ΛP (F := F)) .tc) α) (Q : α → sProp 𝕄) :
    iprop((iprop(boundary (SparseCore.T d) ∗ postV1 VV WW OO d) -∗ wp frame (wpE D 𝒱 (SparseCore.T d) none) Set.univ (k ⟨⟩) Q)
        ∗ boundary (SparseCore.T d) ∗ preR VV WW OO d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE D 𝒱 (SparseCore.T d) none) Set.univ (.op (.customCall (Pipeline.entry 1) ()) k) Q :=
  (regV1 VV WW OO hO).wp (pcfgs (F := F)) adm (pdatsV1 VV WW OO) none pcell_inj EP defs₀ 𝒱₀ (K (F := F)).L (K (F := F)).lev d none
    (fun u hu => nomatch hu) k Q

end Cert.KernelIdeal.Hand

end
-- ==== Proof.KernelPay2.lean ====
/- The second TensorCore kernel's stored values as mathematics. Its body is a composition of a few stages — a block
   times a matrix plus a row, a row mean, centring, the reciprocal square root of the mean square plus ε, gain and bias,
   the two-half fusion product, the division by the norm plus δ — and on a block whose rows are real rows of the inputs
   each stage is the coercion of a real formula: every denominator is a positive real, so no infinity arises. Composed,
   the stored block is the specification's `keys` at the block's rows, and the second store is its transpose. -/
import proofs.«211565_g20684562498226_cont_8to1_684_24_alg».proof.Proof.KernelPay0

noncomputable section

namespace Cert.KernelIdeal.Hand.Val

open scoped BigOperators
open Idealize.ShloMosaic Idealize.ShloMosaic.ValueIdx Cert.KernelIdeal Cert.KernelIdeal.Gen

open Cert.Spec (eps delta)

/-! ## Readings the dense kernel needs beyond the first kernel's -/

/-- A 512×768 by 768×768 product into the zero accumulator, read at `(p, q)`: the sum over the shared index. -/
theorem matmul_512_768_apply {φ₁ φ₂ : FTy} (prec : Option ContractPrecision) (A : FVec Ideal S512x768 φ₁)
    (B : FVec Ideal S768x768 φ₂) (p : Fin 512) (q : Fin 768) :
    matmul dot_S512x768_S768x768_S512x768_1_0_0_1_n_n prec A B (constant S512x768 .f32 0x00000000#32) (ix2 p q)
      = ∑ j : Fin 768, A (ix2 p j) * B (ix2 j q) := by
  simp only [matmul]
  rw [Ideal.matmul_constant_zero_apply,
    ← Equiv.sum_comp (contrEquiv1 dot_S512x768_S768x768_S512x768_1_0_0_1_n_n 768 rfl rfl).symm]
  refine Finset.sum_congr rfl fun j _ => ?_
  have hl : dot_S512x768_S768x768_S512x768_1_0_0_1_n_n.lhsIdx (ix2 p q)
      ((contrEquiv1 dot_S512x768_S768x768_S512x768_1_0_0_1_n_n 768 rfl rfl).symm j) = ix2 p j := by
    funext a; refine Fin.ext ?_
    match a with
    | ⟨0, _⟩ => rfl
    | ⟨1, _⟩ =>
      exact (DotDims.lhsIdx_val_of_single dot_S512x768_S768x768_S512x768_1_0_0_1_n_n (cl := 1) rfl (ix2 p q) _).trans
        (contrEquiv1_symm_val dot_S512x768_S768x768_S512x768_1_0_0_1_n_n 768 rfl rfl j)
  have hr : dot_S512x768_S768x768_S512x768_1_0_0_1_n_n.rhsIdx (ix2 p q)
      ((contrEquiv1 dot_S512x768_S768x768_S512x768_1_0_0_1_n_n 768 rfl rfl).symm j) = ix2 j q := by
    funext a; refine Fin.ext ?_
    match a with
    | ⟨0, _⟩ =>
      exact (DotDims.rhsIdx_val_of_single dot_S512x768_S768x768_S512x768_1_0_0_1_n_n (cr := 0) rfl (ix2 p q) _).trans
        (contrEquiv1_symm_val dot_S512x768_S768x768_S512x768_1_0_0_1_n_n 768 rfl rfl j)
    | ⟨1, _⟩ => rfl
  rw [hl, hr]

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rsqrt_apply {s : Shape} {φ : FTy} (a : FVec Ideal s φ) (i : s.Idx) : rsqrt a i = Ideal.rsqrt (a i) := rfl
theorem sqrt_apply {s : Shape} {φ : FTy} (a : FVec Ideal s φ) (i : s.Idx) : sqrt a i = Ideal.sqrt (a i) := rfl

/-- A quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- The reciprocal square root of a positive real. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The square root of a real that is not negative. -/
theorem sqrt_coe_nonneg (r : ℝ) (hr : 0 ≤ r) : Ideal.sqrt (r : EReal) = ((Real.sqrt r : ℝ) : EReal) := by
  rw [Ideal.sqrt_coe, if_neg (not_lt.mpr hr)]

theorem scalar_768 : Scalar.ofBits (F := Ideal) .f32 0x44400000#32 = ((768 : ℝ) : EReal) := Spec.ofBits_768
theorem scalar_eps : Scalar.ofBits (F := Ideal) .f32 0x3727C5AC#32 = ((eps : ℝ) : EReal) := Spec.ofBits_eps
theorem scalar_delta : Scalar.ofBits (F := Ideal) .f32 0x2B8CBCCC#32 = ((delta : ℝ) : EReal) := Spec.ofBits_delta

/-- A row sum of a 512×768 block, read at row `p`. -/
theorem rowsum_apply (X : FVec Ideal S512x768 .f32) (p : Fin 512) :
    multiReduction .add [1] S512 X 0x00000000#32 reduces_S512x768_S512 (.inl rfl) rfl (ix1 p)
      = ∑ k : Fin 768, X (ix2 p k) := by
  refine (Ideal.multiReduction_add_single X 0x00000000#32 reduces_S512x768_S512 (.inl rfl) rfl (ix1 p)).trans ?_
  refine Finset.sum_congr rfl fun k _ => congrArg X ?_
  funext a
  match a with
  | ⟨0, _⟩ => rfl
  | ⟨1, _⟩ => rfl

/-! ## The dense kernel's stages, as functions of vectors -/

/-- A block times a matrix plus a row. -/
def affV (x : FVec Ideal S512x768 .bf16) (m : FVec Ideal S768x768 .bf16) (c : FVec Ideal S1x768 .f32) :
    FVec Ideal S512x768 .f32 :=
  addf (matmul dot_S512x768_S768x768_S512x768_1_0_0_1_n_n none (shapeCast S512x768 x shapeCasts_S512x768_S512x768)
      (shapeCast S768x768 m shapeCasts_S768x768_S768x768) (constant S512x768 .f32 0x00000000#32))
    (broadcastTo S512x768 (shapeCast S1x768 c shapeCasts_S1x768_S1x768) broadcasts_S1x768_S512x768)

/-- Each row's sum over 768, as a column. -/
def meanV (X : FVec Ideal S512x768 .f32) : FVec Ideal S512x1 .f32 :=
  divf (shapeCast S512x1 (multiReduction .add [1] S512 X 0x00000000#32 reduces_S512x768_S512 (.inl rfl) rfl)
      shapeCasts_S512_S512x1) (broadcast S512x1 (Scalar.ofBits .f32 0x44400000#32))

/-- Each row minus its mean. -/
def centerV (X : FVec Ideal S512x768 .f32) : FVec Ideal S512x768 .f32 :=
  subf X (broadcastTo S512x768 (meanV X) broadcasts_S512x1_S512x768)

/-- The reciprocal square root of each centred row's mean square plus ε. -/
def rstdV (C : FVec Ideal S512x768 .f32) : FVec Ideal S512x1 .f32 :=
  rsqrt (addf (meanV (mulf C C)) (broadcast S512x1 (Scalar.ofBits .f32 0x3727C5AC#32)))

/-- Centred rows times a column, times a gain row, plus a bias row. -/
def scaleV (C : FVec Ideal S512x768 .f32) (R : FVec Ideal S512x1 .f32) (g b : FVec Ideal S1x768 .f32) :
    FVec Ideal S512x768 .f32 :=
  addf (mulf (mulf C (broadcastTo S512x768 R broadcasts_S512x1_S512x768))
      (broadcastTo S512x768 g broadcasts_S1x768_S512x768)) (broadcastTo S512x768 b broadcasts_S1x768_S512x768)

/-- Two blocks through the two halves of the fusion weights, plus the bias row. -/
def outV (Y1 Y2 : FVec Ideal S512x768 .f32) (P1 P2 : FVec Ideal S768x768 .bf16) (PB : FVec Ideal S1x768 .f32) :
    FVec Ideal S512x768 .f32 :=
  addf (addf (matmul dot_S512x768_S768x768_S512x768_1_0_0_1_n_n none (truncf .bf16 Y1 bitsLt_bf16_f32) P1 (constant S512x768 .f32 0x00000000#32))
      (matmul dot_S512x768_S768x768_S512x768_1_0_0_1_n_n none (truncf .bf16 Y2 bitsLt_bf16_f32) P2 (constant S512x768 .f32 0x00000000#32)))
    (broadcastTo S512x768 PB broadcasts_S1x768_S512x768)

/-- Each row over its Euclidean norm plus δ. -/
def normV (Y : FVec Ideal S512x768 .f32) : FVec Ideal S512x768 .f32 :=
  divf Y (broadcastTo S512x768
    (addf (sqrt (shapeCast S512x1 (multiReduction .add [1] S512 (mulf Y Y) 0x00000000#32 reduces_S512x768_S512 (.inl rfl) rfl)
        shapeCasts_S512_S512x1)) (broadcast S512x1 (Scalar.ofBits .f32 0x2B8CBCCC#32))) broadcasts_S512x1_S512x768)

/-! The payloads are compositions of the stages. -/

theorem k2_pay3_eq (v9 : Vec Ideal S512x768 .bf16) (v11 : Vec Ideal S768x768 .bf16) (v14 : Vec Ideal S1x768 .f32) :
    k2_pay3 (F := Ideal) v9 v11 v14 = affV v9 v11 v14 := rfl
theorem k2_pay6_eq (v0 : Vec Ideal S512x768 .bf16) (v2 : Vec Ideal S768x768 .bf16) (v5 : Vec Ideal S1x768 .f32) :
    k2_pay6 (F := Ideal) v0 v2 v5 = centerV (affV v0 v2 v5) := rfl
theorem k2_pay7_eq (v0 : Vec Ideal S512x768 .bf16) (v2 : Vec Ideal S768x768 .bf16) (v5 : Vec Ideal S1x768 .f32) :
    k2_pay7 (F := Ideal) v0 v2 v5 = rstdV (k2_pay6 v0 v2 v5) := rfl
theorem k2_pay8_eq (v17 : FVec Ideal S512x768 .f32) (v19 v21 : FVec Ideal S1x768 .f32) (v27 : FVec Ideal S512x768 .f32)
    (v35 : FVec Ideal S512x1 .f32) (v43 v45 : Vec Ideal S1x768 .f32) (v68 v71 : Vec Ideal S768x768 .bf16)
    (v75 : Vec Ideal S1x768 .f32) :
    k2_pay8 (F := Ideal) v17 v19 v21 v27 v35 v43 v45 v68 v71 v75
      = outV (scaleV v27 v35 v19 v21)
          (scaleV (centerV v17) (rstdV (centerV v17)) (shapeCast S1x768 v43 shapeCasts_S1x768_S1x768)
            (shapeCast S1x768 v45 shapeCasts_S1x768_S1x768))
          (shapeCast S768x768 v68 shapeCasts_S768x768_S768x768) (shapeCast S768x768 v71 shapeCasts_S768x768_S768x768)
          (shapeCast S1x768 v75 shapeCasts_S1x768_S1x768) := rfl
theorem k2_pay1_eq (v78 : FVec Ideal S512x768 .f32) (v79 v81 : Vec Ideal S1x768 .f32) :
    k2_pay1 (F := Ideal) v78 v79 v81
      = normV (scaleV (centerV v78) (rstdV (centerV v78)) (shapeCast S1x768 v79 shapeCasts_S1x768_S1x768)
          (shapeCast S1x768 v81 shapeCasts_S1x768_S1x768)) := rfl

/-! ## Each stage on real data -/

theorem affV_apply (x : Fin 512 → Fin 768 → ℝ) (m : Fin 768 → Fin 768 → ℝ) (c : Fin 768 → ℝ) (p : Fin 512) (k : Fin 768) :
    affV (cm x) (cm m) (cr c) (ix2 p k) = (((∑ i : Fin 768, x p i * m i k) + c k : ℝ) : EReal) := by
  unfold affV
  rw [addf_apply, matmul_512_768_apply, broadcastTo_1b_ab_apply, shapeCast_self, shapeCast_self, shapeCast_self,
    cr_ix2, EReal.coe_add, coe_sum]
  refine congrArg (fun t : EReal => t + ((c k : ℝ) : EReal)) (Finset.sum_congr rfl fun i _ => ?_)
  rw [cm_ix2, cm_ix2, EReal.coe_mul]

theorem meanV_apply (X : FVec Ideal S512x768 .f32) (x : Fin 512 → Fin 768 → ℝ)
    (hX : ∀ p k, X (ix2 p k) = ((x p k : ℝ) : EReal)) (p : Fin 512) (u : Fin 1) :
    meanV X (ix2 p u) = (((∑ k : Fin 768, x p k) / 768 : ℝ) : EReal) := by
  unfold meanV
  rw [divf_apply, broadcast_apply, shapeCast_a_a1_apply, rowsum_apply, scalar_768,
    Finset.sum_congr rfl (fun k _ => hX p k), ← coe_sum, div_coe_coe _ _ (by norm_num)]

theorem centerV_apply (X : FVec Ideal S512x768 .f32) (x : Fin 512 → Fin 768 → ℝ)
    (hX : ∀ p k, X (ix2 p k) = ((x p k : ℝ) : EReal)) (p : Fin 512) (k : Fin 768) :
    centerV X (ix2 p k) = ((x p k - (∑ j : Fin 768, x p j) / 768 : ℝ) : EReal) := by
  unfold centerV
  rw [subf_apply, broadcastTo_a1_ab_apply, meanV_apply X x hX, hX, ← EReal.coe_sub]

theorem rstdV_apply (C : FVec Ideal S512x768 .f32) (c : Fin 512 → Fin 768 → ℝ)
    (hC : ∀ p k, C (ix2 p k) = ((c p k : ℝ) : EReal)) (p : Fin 512) (u : Fin 1) :
    rstdV C (ix2 p u) = (((Real.sqrt ((∑ j : Fin 768, c p j * c p j) / 768 + eps))⁻¹ : ℝ) : EReal) := by
  unfold rstdV
  rw [rsqrt_apply, addf_apply, broadcast_apply, scalar_eps,
    meanV_apply (mulf C C) (fun p k => c p k * c p k) (fun p k => by rw [mulf_apply, hC, EReal.coe_mul]),
    ← EReal.coe_add, rsqrt_coe_pos]
  exact add_pos_of_nonneg_of_pos
    (div_nonneg (Finset.sum_nonneg fun j _ => mul_self_nonneg _) (by norm_num)) Spec.eps_pos

theorem scaleV_apply (C : FVec Ideal S512x768 .f32) (c : Fin 512 → Fin 768 → ℝ)
    (hC : ∀ p k, C (ix2 p k) = ((c p k : ℝ) : EReal)) (R : FVec Ideal S512x1 .f32) (s : Fin 512 → ℝ)
    (hR : ∀ p u, R (ix2 p u) = ((s p : ℝ) : EReal)) (g b : Fin 768 → ℝ) (p : Fin 512) (k : Fin 768) :
    scaleV C R (cr g) (cr b) (ix2 p k) = ((c p k * s p * g k + b k : ℝ) : EReal) := by
  unfold scaleV
  rw [addf_apply, mulf_apply, mulf_apply, broadcastTo_a1_ab_apply, broadcastTo_1b_ab_apply, broadcastTo_1b_ab_apply,
    hC, hR, cr_ix2, cr_ix2, ← EReal.coe_mul, ← EReal.coe_mul, ← EReal.coe_add]

/-- The kernel's layer norm (reciprocal square root, squares as products) is the specification's. -/
theorem LN_eq_kernel (Xs : Fin 4096 → Fin 768 → ℝ) (g b : Fin 768 → ℝ) (r : Fin 4096) (k : Fin 768) :
    (Xs r k - Spec.mean Xs r)
        * (Real.sqrt ((∑ j : Fin 768, (Xs r j - Spec.mean Xs r) * (Xs r j - Spec.mean Xs r)) / 768 + eps))⁻¹ * g k + b k
      = Spec.LN Xs g b r k := by
  unfold Spec.LN Spec.var
  simp only [sq, div_eq_mul_inv]

/-- Layer norm of a block whose rows are rows `ρ p` of a real array. -/
theorem LNV_apply (X : FVec Ideal S512x768 .f32) (Xs : Fin 4096 → Fin 768 → ℝ) (ρ : Fin 512 → Fin 4096)
    (hX : ∀ p k, X (ix2 p k) = ((Xs (ρ p) k : ℝ) : EReal)) (g b : Fin 768 → ℝ) (p : Fin 512) (k : Fin 768) :
    scaleV (centerV X) (rstdV (centerV X)) (cr g) (cr b) (ix2 p k) = ((Spec.LN Xs g b (ρ p) k : ℝ) : EReal) := by
  have hC : ∀ p k, centerV X (ix2 p k) = ((Xs (ρ p) k - Spec.mean Xs (ρ p) : ℝ) : EReal) :=
    fun p k => centerV_apply X (fun p k => Xs (ρ p) k) hX p k
  have hR := rstdV_apply (centerV X) (fun p k => Xs (ρ p) k - Spec.mean Xs (ρ p)) hC
  rw [scaleV_apply (centerV X) _ hC (rstdV (centerV X)) _ hR g b p k, LN_eq_kernel]

theorem outV_apply (Y1 : FVec Ideal S512x768 .f32) (y1 : Fin 512 → Fin 768 → ℝ)
    (hY1 : ∀ p k, Y1 (ix2 p k) = ((y1 p k : ℝ) : EReal)) (Y2 : FVec Ideal S512x768 .f32) (y2 : Fin 512 → Fin 768 → ℝ)
    (hY2 : ∀ p k, Y2 (ix2 p k) = ((y2 p k : ℝ) : EReal)) (q1 q2 : Fin 768 → Fin 768 → ℝ) (pb : Fin 768 → ℝ)
    (p : Fin 512) (k : Fin 768) :
    outV Y1 Y2 (cm q1) (cm q2) (cr pb) (ix2 p k)
      = ((((∑ i : Fin 768, y1 p i * q1 i k) + ∑ i : Fin 768, y2 p i * q2 i k) + pb k : ℝ) : EReal) := by
  unfold outV
  rw [addf_apply, addf_apply, matmul_512_768_apply, matmul_512_768_apply, broadcastTo_1b_ab_apply, cr_ix2,
    EReal.coe_add, EReal.coe_add, coe_sum, coe_sum]
  refine congrArg (fun t : EReal => t + ((pb k : ℝ) : EReal)) (congrArg₂ (· + ·) ?_ ?_)
  · refine Finset.sum_congr rfl fun i _ => ?_
    rw [truncf_apply, hY1, cm_ix2, EReal.coe_mul]
  · refine Finset.sum_congr rfl fun i _ => ?_
    rw [truncf_apply, hY2, cm_ix2, EReal.coe_mul]

theorem normV_apply (Y : FVec Ideal S512x768 .f32) (y : Fin 512 → Fin 768 → ℝ)
    (hY : ∀ p k, Y (ix2 p k) = ((y p k : ℝ) : EReal)) (p : Fin 512) (k : Fin 768) :
    normV Y (ix2 p k) = ((y p k / (Real.sqrt (∑ j : Fin 768, y p j * y p j) + delta) : ℝ) : EReal) := by
  unfold normV
  rw [divf_apply, broadcastTo_a1_ab_apply, addf_apply, broadcast_apply, scalar_delta, sqrt_apply, shapeCast_a_a1_apply,
    rowsum_apply, Finset.sum_congr rfl (fun j _ => show mulf Y Y (ix2 p j) = ((y p j * y p j : ℝ) : EReal) by
      rw [mulf_apply, hY, EReal.coe_mul]), ← coe_sum,
    sqrt_coe_nonneg _ (Finset.sum_nonneg fun j _ => mul_self_nonneg _), ← EReal.coe_add, hY,
    div_coe_coe _ _ (Spec.norm_add_delta_pos _).ne']

/-! ## The dense kernel's stored values on a block whose rows are rows `ρ p` of the inputs -/

section keys
variable (txt gph : Fin 4096 → Fin 768 → ℝ) (tW gW ow : Fin 768 → Fin 768 → ℝ)
  (tb gb ob pb l1g l1b l2g l2b lfg lfb : Fin 768 → ℝ)
  (ipw : Fin 2304 → Fin 768 → ℝ) (ipb : Fin 2304 → ℝ) (pW : Fin 768 → Fin 1536 → ℝ) (ρ : Fin 512 → Fin 4096)

/-- The first attention's output on the block, from the pre-multiplied graph weights. -/
theorem o1V_apply (p : Fin 512) (k : Fin 768) :
    affV (cm fun p i => gph (ρ p) i) (cm (Spec.mg gW ipw ow)) (cr (Spec.cg gb ipw ipb ow ob)) (ix2 p k) = ((Spec.oA gph gW gb ipw ipb ow ob (ρ p) k : ℝ) : EReal) :=
  (affV_apply _ _ _ p k).trans (congrArg Real.toEReal (Spec.o1_eq gph gW ow gb ob ipw ipb (ρ p) k))

/-- The second attention's output on the block, from the pre-multiplied text weights. -/
theorem o2V_apply (p : Fin 512) (k : Fin 768) :
    affV (cm fun p i => txt (ρ p) i) (cm (Spec.mt tW ipw ow)) (cr (Spec.ct tb ipw ipb ow ob)) (ix2 p k) = ((Spec.oB txt tW tb ipw ipb ow ob (ρ p) k : ℝ) : EReal) :=
  (affV_apply _ _ _ p k).trans (congrArg Real.toEReal (Spec.o2_eq txt tW ow tb ob ipw ipb (ρ p) k))

theorem k2_pay4_cr (g : Fin 768 → ℝ) : k2_pay4 (F := Ideal) (cr g) = cr g := by
  unfold k2_pay4; exact shapeCast_self _ _
theorem k2_pay5_cr (g : Fin 768 → ℝ) : k2_pay5 (F := Ideal) (cr g) = cr g := by
  unfold k2_pay5; exact shapeCast_self _ _

/-- The fusion layer on the block: the specification's `out` at the block's rows. -/
theorem k2_pay8_out (p : Fin 512) (k : Fin 768) :
    (k2_pay8 (F := Ideal) (k2_pay3 (cm fun p i => txt (ρ p) i) (cm (Spec.mt tW ipw ow)) (cr (Spec.ct tb ipw ipb ow ob))) (k2_pay4 (cr l1g)) (k2_pay5 (cr l1b))
        (k2_pay6 (cm fun p i => gph (ρ p) i) (cm (Spec.mg gW ipw ow)) (cr (Spec.cg gb ipw ipb ow ob))) (k2_pay7 (cm fun p i => gph (ρ p) i) (cm (Spec.mg gW ipw ow)) (cr (Spec.cg gb ipw ipb ow ob)))
        (cr l2g) (cr l2b) (cm (Spec.p1t pW)) (cm (Spec.p2t pW)) (cr pb)) (ix2 p k)
      = ((Spec.out txt gph tW tb gW gb ipw ipb ow ob pW pb l1g l1b l2g l2b (ρ p) k : ℝ) : EReal) := by
  rw [k2_pay8_eq, k2_pay7_eq, k2_pay6_eq, k2_pay3_eq, k2_pay4_cr, k2_pay5_cr, shapeCast_self, shapeCast_self,
    shapeCast_self, shapeCast_self, shapeCast_self]
  rw [outV_apply _ (fun p k => Spec.LN (Spec.oA gph gW gb ipw ipb ow ob) l1g l1b (ρ p) k)
      (LNV_apply _ (Spec.oA gph gW gb ipw ipb ow ob) ρ (o1V_apply gph gW ow gb ob ipw ipb ρ) l1g l1b)
      _ (fun p k => Spec.LN (Spec.oB txt tW tb ipw ipb ow ob) l2g l2b (ρ p) k)
      (LNV_apply _ (Spec.oB txt tW tb ipw ipb ow ob) ρ (o2V_apply txt tW ow tb ob ipw ipb ρ) l2g l2b)
      (Spec.p1t pW) (Spec.p2t pW) pb p k, EReal.coe_eq_coe_iff]
  unfold Spec.out
  rw [Spec.out_split]

/-- The stored keys block: at `(p, k)` the specification's `keys` at row `ρ p`. -/
theorem k2_pay1_keys (p : Fin 512) (k : Fin 768) :
    k2_pay1 (F := Ideal) (k2_pay8 (F := Ideal) (k2_pay3 (cm fun p i => txt (ρ p) i) (cm (Spec.mt tW ipw ow)) (cr (Spec.ct tb ipw ipb ow ob))) (k2_pay4 (cr l1g)) (k2_pay5 (cr l1b))
        (k2_pay6 (cm fun p i => gph (ρ p) i) (cm (Spec.mg gW ipw ow)) (cr (Spec.cg gb ipw ipb ow ob))) (k2_pay7 (cm fun p i => gph (ρ p) i) (cm (Spec.mg gW ipw ow)) (cr (Spec.cg gb ipw ipb ow ob)))
        (cr l2g) (cr l2b) (cm (Spec.p1t pW)) (cm (Spec.p2t pW)) (cr pb)) (cr lfg) (cr lfb) (ix2 p k)
      = ((Spec.keys txt gph tW tb gW gb ipw ipb ow ob pW pb l1g l1b l2g l2b lfg lfb (ρ p) k : ℝ) : EReal) := by
  rw [k2_pay1_eq, shapeCast_self, shapeCast_self]
  rw [normV_apply _ (fun p k => Spec.outn txt gph tW tb gW gb ipw ipb ow ob pW pb l1g l1b l2g l2b lfg lfb (ρ p) k)
      (LNV_apply _ (Spec.out txt gph tW tb gW gb ipw ipb ow ob pW pb l1g l1b l2g l2b) ρ (k2_pay8_out txt gph tW gW ow tb gb ob pb l1g l1b l2g l2b ipw ipb pW ρ) lfg lfb) p k,
    EReal.coe_eq_coe_iff]
  unfold Spec.keys
  simp only [sq]

/-- The stored transposed block: at `(k, p)` the same value. -/
theorem k2_pay2_keys (p : Fin 512) (k : Fin 768) :
    k2_pay2 (F := Ideal) (k2_pay8 (F := Ideal) (k2_pay3 (cm fun p i => txt (ρ p) i) (cm (Spec.mt tW ipw ow)) (cr (Spec.ct tb ipw ipb ow ob))) (k2_pay4 (cr l1g)) (k2_pay5 (cr l1b))
        (k2_pay6 (cm fun p i => gph (ρ p) i) (cm (Spec.mg gW ipw ow)) (cr (Spec.cg gb ipw ipb ow ob))) (k2_pay7 (cm fun p i => gph (ρ p) i) (cm (Spec.mg gW ipw ow)) (cr (Spec.cg gb ipw ipb ow ob)))
        (cr l2g) (cr l2b) (cm (Spec.p1t pW)) (cm (Spec.p2t pW)) (cr pb)) (cr lfg) (cr lfb) (ix2 k p)
      = ((Spec.keys txt gph tW tb gW gb ipw ipb ow ob pW pb l1g l1b l2g l2b lfg lfb (ρ p) k : ℝ) : EReal) := by
  unfold k2_pay2
  rw [transpose_ix2_apply]
  exact k2_pay1_keys txt gph tW gW ow tb gb ob pb l1g l1b l2g l2b lfg lfb ipw ipb pW ρ p k

end keys

end Cert.KernelIdeal.Hand.Val
end
-- ==== Proof.ValChain4.lean ====
/- The second kernel region in the chain of buffer contents: from the body's two stored payloads at every grid point
   to the specification's keys, first block by block over any spelling of the two data arrays' row blocks, then for the
   region's two output arrays as the region's own value statement names them. -/
import proofs.«211565_g20684562498226_cont_8to1_684_24_alg».proof.Proof.ValChain
import proofs.«211565_g20684562498226_cont_8to1_684_24_alg».proof.Proof.KernelPay2
import proofs.«211565_g20684562498226_cont_8to1_684_24_alg».proof.Proof.RegionsVal1

noncomputable section

namespace Cert.KernelIdeal.Hand.Val

open scoped BigOperators
open Idealize.ShloMosaic Idealize.ShloMosaic.ValueIdx Idealize.ShloMosaic.StableHlo
open Cert.KernelIdeal Cert.KernelIdeal.Gen Cert.KernelIdeal.Hand

/-- Row `p` of row block `t` of a 4096-row array. -/
def blkRow (t : Fin 8) (p : Fin 512) : Fin 4096 := ⟨512 * t.val + p.val, by have := t.isLt; have := p.isLt; omega⟩

/-- Every row is a row of a row block. -/
theorem exists_blkRow (r : Fin 4096) : ∃ (t : Fin 8) (p : Fin 512), r = blkRow t p :=
  ⟨⟨r.val / 512, by have := r.isLt; omega⟩, ⟨r.val % 512, Nat.mod_lt _ (by norm_num)⟩,
    Fin.ext (by show r.val = 512 * (r.val / 512) + r.val % 512; omega)⟩

/-- The second kernel region, block by block: where at every point the two output arrays hold the body's two stored
    payloads of the point's blocks (`B8 t`, `B9 t`: block `t` of the two data arrays) and of the thirteen whole arrays,
    they end at the specification's keys and their transpose. -/
theorem T4_core {R : RealArgs} {V V' : Valuation τ sig (Elt Ideal)} (h : I4 R V)
    (hk : ∀ b, b ∉ outs cfg2 → V' b = V b)
    (B8 B9 : Fin 8 → S512x768.Idx → Elt Ideal .bf16)
    (hB8 : ∀ t, B8 t = cm fun p i => R.txt (blkRow t p) i)
    (hB9 : ∀ t, B9 t = cm fun p i => R.gph (blkRow t p) i)
    (e0 : ∀ (t : Fin 8) (p : Fin 512) (k : Fin 768),
      (V' (Proc.devRef (τ := τ) .tc main_v17_0) : S4096x768.Idx → Elt Ideal .f32) (ix2 (blkRow t p) k)
        = k2_pay1 (F := Ideal) (k2_pay8 (F := Ideal) (k2_pay3 (B8 t) (V (Proc.devRef (τ := τ) .tc main_v6_0)) (V (Proc.devRef (τ := τ) .tc main_v6_2))) (k2_pay4 (V (Proc.devRef (τ := τ) .tc main_v11))) (k2_pay5 (V (Proc.devRef (τ := τ) .tc main_v12)))
          (k2_pay6 (B9 t) (V (Proc.devRef (τ := τ) .tc main_v6_1)) (V (Proc.devRef (τ := τ) .tc main_v6_3))) (k2_pay7 (B9 t) (V (Proc.devRef (τ := τ) .tc main_v6_1)) (V (Proc.devRef (τ := τ) .tc main_v6_3)))
          (V (Proc.devRef (τ := τ) .tc main_v13)) (V (Proc.devRef (τ := τ) .tc main_v14)) (V (Proc.devRef (τ := τ) .tc main_v6_4)) (V (Proc.devRef (τ := τ) .tc main_v6_5)) (V (Proc.devRef (τ := τ) .tc main_v10)))
            (V (Proc.devRef (τ := τ) .tc main_v15)) (V (Proc.devRef (τ := τ) .tc main_v16)) (ix2 p k))
    (e1 : ∀ (t : Fin 8) (p : Fin 512) (k : Fin 768),
      (V' (Proc.devRef (τ := τ) .tc main_v17_1) : S768x4096.Idx → Elt Ideal .f32) (ix2 k (blkRow t p))
        = k2_pay2 (F := Ideal) (k2_pay8 (F := Ideal) (k2_pay3 (B8 t) (V (Proc.devRef (τ := τ) .tc main_v6_0)) (V (Proc.devRef (τ := τ) .tc main_v6_2))) (k2_pay4 (V (Proc.devRef (τ := τ) .tc main_v11))) (k2_pay5 (V (Proc.devRef (τ := τ) .tc main_v12)))
          (k2_pay6 (B9 t) (V (Proc.devRef (τ := τ) .tc main_v6_1)) (V (Proc.devRef (τ := τ) .tc main_v6_3))) (k2_pay7 (B9 t) (V (Proc.devRef (τ := τ) .tc main_v6_1)) (V (Proc.devRef (τ := τ) .tc main_v6_3)))
          (V (Proc.devRef (τ := τ) .tc main_v13)) (V (Proc.devRef (τ := τ) .tc main_v14)) (V (Proc.devRef (τ := τ) .tc main_v6_4)) (V (Proc.devRef (τ := τ) .tc main_v6_5)) (V (Proc.devRef (τ := τ) .tc main_v10)))
            (V (Proc.devRef (τ := τ) .tc main_v15)) (V (Proc.devRef (τ := τ) .tc main_v16)) (ix2 k p)) : I5 R V' := by
  have h4 : I4 R V' := h.of_eq fun r hr => hk _ (by
    rw [outs2_eq]
    simp only [Finset.mem_insert, Finset.mem_singleton, not_or]
    exact ⟨devRef_ne_of_ne (by revert r; decide), devRef_ne_of_ne (by revert r; decide)⟩)
  refine { toI4 := h4, v17_0 := ?_, v17_1 := ?_ }
  · funext j
    obtain ⟨r, k, rfl⟩ : ∃ (r : Fin 4096) (k : Fin 768), j = ix2 r k := ⟨j 0, j 1, eq_ix2 j⟩
    obtain ⟨t, p, rfl⟩ := exists_blkRow r
    rw [e0 t p k, hB8 t, hB9 t, h.v6_0, h.v6_1, h.v6_2, h.v6_3, h.v6_4, h.v6_5, h.v10, h.v11, h.v12, h.v13, h.v14, h.v15, h.v16]
    exact k2_pay1_keys R.txt R.gph R.tW R.gW R.ow R.tb R.gb R.ob R.pb R.l1g R.l1b R.l2g R.l2b R.lfg R.lfb R.ipw R.ipb R.pW (blkRow t) p k
  · funext j
    obtain ⟨k, r, rfl⟩ : ∃ (k : Fin 768) (r : Fin 4096), j = ix2 k r := ⟨j 0, j 1, eq_ix2 j⟩
    obtain ⟨t, p, rfl⟩ := exists_blkRow r
    rw [e1 t p k, hB8 t, hB9 t, h.v6_0, h.v6_1, h.v6_2, h.v6_3, h.v6_4, h.v6_5, h.v10, h.v11, h.v12, h.v13, h.v14, h.v15, h.v16]
    exact k2_pay2_keys R.txt R.gph R.tW R.gW R.ow R.tb R.gb R.ob R.pb R.l1g R.l1b R.l2g R.l2b R.lfg R.lfb R.ipw R.ipb R.pW (blkRow t) p k

/-- The second kernel region, from its two output arrays as the region's value statement leaves them. -/
theorem T4 {R : RealArgs} (VV : Dev nD → Valuation τ sig (Elt Ideal)) (d : Dev nD) {V' : Valuation τ sig (Elt Ideal)}
    (h : I4 R (VV d)) (hk : ∀ b, b ∉ outs cfg2 → V' b = VV d b)
    (h15 : (V' (Proc.devRef (τ := τ) .tc main_v17_0) : S4096x768.Idx → Elt Ideal .f32) = G15 VV d)
    (h16 : (V' (Proc.devRef (τ := τ) .tc main_v17_1) : S768x4096.Idx → Elt Ideal .f32) = G16 VV d) : I5 R V' := by
  refine T4_core h hk (fun t => rowBlk (a2_0 VV d) t) (fun t => rowBlk (a2_1 VV d) t) (fun t => ?_) (fun t => ?_)
    (fun t p k => ?_) (fun t p k => ?_)
  · show rowBlk (VV d (Proc.devRef (τ := τ) .tc main_v8)) t = _
    rw [h.v8]
    funext j
    obtain ⟨p, i, rfl⟩ : ∃ (p : Fin 512) (i : Fin 768), j = ix2 p i := ⟨j 0, j 1, eq_ix2 j⟩
    rfl
  · show rowBlk (VV d (Proc.devRef (τ := τ) .tc main_v9)) t = _
    rw [h.v9]
    funext j
    obtain ⟨p, i, rfl⟩ : ∃ (p : Fin 512) (i : Fin 768), j = ix2 p i := ⟨j 0, j 1, eq_ix2 j⟩
    rfl
  · rw [h15]
    exact G15_at VV d t p k _
  · rw [h16]
    exact G16_at VV d t p k _

end Cert.KernelIdeal.Hand.Val
end
-- ==== Proof.KernelVal.lean ====
/- The kernel's value run, wired from its pieces: each kernel region's value statement as a step of @main with the
   relation it establishes between the buffers' contents before and after, the nine facts along @main with the steps
   between them, and the run of the device's threads ending at the last fact, read off at the three result arrays and the
   twenty argument arrays. -/
import proofs.«211565_g20684562498226_cont_8to1_684_24_alg».proof.Proof.MainRun2
import proofs.«211565_g20684562498226_cont_8to1_684_24_alg».proof.Proof.Regions
import proofs.«211565_g20684562498226_cont_8to1_684_24_alg».proof.Proof.ScTileV
import proofs.«211565_g20684562498226_cont_8to1_684_24_alg».proof.Proof.RegionsVal0
import proofs.«211565_g20684562498226_cont_8to1_684_24_alg».proof.Proof.RegionsVal1
import proofs.«211565_g20684562498226_cont_8to1_684_24_alg».proof.Proof.RegionsVal2
import proofs.«211565_g20684562498226_cont_8to1_684_24_alg».proof.Proof.ValChain4
import proofs.«211565_g20684562498226_cont_8to1_684_24_alg».proof.Proof.Algebraic

noncomputable section

namespace Cert.KernelIdeal.Hand

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

/-- A region's proof over named thread states, whose exit state holds the buffers at a valuation related to the entry
    one by `Rel`, is a region step with that relation. -/
theorem regionStepV_of [FloatOps F] {p : Fin 3} (Rel : Valuation τ sig (Elt F) → Valuation τ sig (Elt F) → Prop)
    (post : (Dev nD → Valuation τ sig (Elt F)) → Waits sig (HIx 1) → CellTallies nD τ sig (HIx 1) → Dev nD → sProp 𝕄)
    (hpost : ∀ (V : Valuation τ sig (Elt F)) (W : Waits sig (HIx 1)) (O : CellTallies nD τ sig (HIx 1)) (d : Dev nD),
      post (fun _ => V) W O d
        = iprop((∃ V' : Valuation τ sig (Elt F), ⌜Rel V V'⌝ ∗ StableHlo.held (SparseCore.T d) (Pipeline.ucRefs τ sig) V') ∗ owesT W O d))
    (h : ∀ (VV : Dev nD → Valuation τ sig (Elt F)) (WW : Waits sig (HIx 1)) (OO : CellTallies nD τ sig (HIx 1)), (∀ g, OO g none = 0) →
      ∀ (d : Dev nD) {α : Type} (k : PUnit → Prog (TpuEff nD τ sig (Elt F) (ΛP (F := F)) .tc) α) (Q : α → sProp 𝕄),
      iprop((iprop(boundary (SparseCore.T d) ∗ post VV WW OO d) -∗ wp frame (wpE (D (F := F)) 𝒱 (SparseCore.T d) none) Set.univ (k ⟨⟩) Q)
          ∗ boundary (SparseCore.T d) ∗ preR VV WW OO d ∗ levAts (K (F := F)).L (K (F := F)).lev
          ∗ Pipeline.cellsGhost (Pipeline.pin (pcfgs (F := F)) adm) EP p d ∗ Pipeline.toksInit (Pipeline.pin (pcfgs (F := F)) adm) EP p d)
        ⊢ wp frame (wpE (D (F := F)) 𝒱 (SparseCore.T d) none) Set.univ (.op (.customCall (Pipeline.entry p) ()) k) Q) :
    RegionStep (F := F) p Rel := by
  intro d O W hO V α k Q
  have h0 : iprop((∀ (V' : Valuation τ sig (Elt F)) (W' : Waits sig (HIx 1)),
            iprop(⌜Rel V V'⌝ ∗ ⌜∀ x ∈ W', x ∈ W ∨ x.2 = none⌝ ∗ boundary (SparseCore.T d) ∗ held (SparseCore.T d) Sall V' ∗ owes (SparseCore.T d) O W')
              -∗ wp frame (wpE (D (F := F)) 𝒱 (SparseCore.T d) none) Set.univ (k ⟨⟩) Q)
        ∗ boundary (SparseCore.T d) ∗ held (SparseCore.T d) Sall V ∗ owes (SparseCore.T d) O W ∗ levAts (K (F := F)).L (K (F := F)).lev ∗ Gq p d)
      ⊢ iprop((iprop(boundary (SparseCore.T d) ∗ post (fun _ => V) W O d) -∗ wp frame (wpE (D (F := F)) 𝒱 (SparseCore.T d) none) Set.univ (k ⟨⟩) Q)
          ∗ boundary (SparseCore.T d) ∗ preR (fun _ => V) W O d ∗ levAts (K (F := F)).L (K (F := F)).lev
          ∗ Pipeline.cellsGhost (Pipeline.pin (pcfgs (F := F)) adm) EP p d ∗ Pipeline.toksInit (Pipeline.pin (pcfgs (F := F)) adm) EP p d) := by
    rw [hpost V W O d]
    unfold preR owesT
    iintro ⟨Hk, Hb, Hh, HO, Hlev, HG⟩
    isplitl [Hk]
    · iintro ⟨Hb, ⟨%V', %hV', Hh⟩, ⟨%W', %hW', HO⟩⟩
      ispecialize Hk $$ %V'
      ispecialize Hk $$ %W'
      iapply Hk
      isplitr; · ipureintro; exact hV'
      isplitr; · ipureintro; exact hW'
      isplitl [Hb]; · iexact Hb
      isplitl [Hh]; · iexact Hh
      iexact HO
    · isplitl [Hb]; · iexact Hb
      isplitl [Hh HO]
      · isplitl [Hh]; · iexact Hh
        iexists W; isplitr
        · ipureintro; exact fun x hx => .inl hx
        · iexact HO
      isplitl [Hlev]; · iexact Hlev
      iexact HG
  exact BI.Entails.trans h0 (h (fun _ => V) W O hO d k Q)

end Cert.KernelIdeal.Hand

namespace Cert.KernelIdeal.Hand.Val

open Cert.KernelIdeal Cert.KernelIdeal.Gen Cert.KernelIdeal.Hand
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-- The one device. -/
abbrev d0 : Dev nD := ⟨0, by decide⟩

/-- What the first kernel region does to the buffers' contents: nothing off its six output arrays, and each of those
    ends at the body's payload of the arrays the region found. -/
def Rel0 (V V' : Valuation τ sig (Elt Ideal)) : Prop :=
  (∀ b, b ∉ outs cfg0 → V' b = V b)
  ∧ (V' (Proc.devRef (τ := τ) .tc main_v6_0) : S768x768.Idx → Elt Ideal .bf16) = k0_pay5 (V (Proc.devRef (τ := τ) .tc main_v0)) (V (Proc.devRef (τ := τ) .tc main_arg8)) (V (Proc.devRef (τ := τ) .tc main_arg2))
  ∧ (V' (Proc.devRef (τ := τ) .tc main_v6_1) : S768x768.Idx → Elt Ideal .bf16) = k0_pay6 (V (Proc.devRef (τ := τ) .tc main_v0)) (V (Proc.devRef (τ := τ) .tc main_arg8)) (V (Proc.devRef (τ := τ) .tc main_arg4))
  ∧ (V' (Proc.devRef (τ := τ) .tc main_v6_2) : S1x768.Idx → Elt Ideal .f32) = k0_pay8 (V (Proc.devRef (τ := τ) .tc main_v0)) (V (Proc.devRef (τ := τ) .tc main_arg8)) (V (Proc.devRef (τ := τ) .tc main_v2)) (V (Proc.devRef (τ := τ) .tc main_arg8)) (V (Proc.devRef (τ := τ) .tc main_v5)) (V (Proc.devRef (τ := τ) .tc main_v3))
  ∧ (V' (Proc.devRef (τ := τ) .tc main_v6_3) : S1x768.Idx → Elt Ideal .f32) = k0_pay1 (k0_pay4 (V (Proc.devRef (τ := τ) .tc main_v0)) (V (Proc.devRef (τ := τ) .tc main_arg8))) (k0_pay7 (V (Proc.devRef (τ := τ) .tc main_v2)) (V (Proc.devRef (τ := τ) .tc main_arg8)) (V (Proc.devRef (τ := τ) .tc main_v5))) (V (Proc.devRef (τ := τ) .tc main_v4))
  ∧ (V' (Proc.devRef (τ := τ) .tc main_v6_4) : S768x768.Idx → Elt Ideal .bf16) = k0_pay2 (View.ld ((V (Proc.devRef (τ := τ) .tc main_arg10)) : S768x1536.Idx → Elt Ideal .f32) (Rect.unit (s := S768x1536) ![0, 0] S768x768.size inb_S768x1536_S768x768_0_0))
  ∧ (V' (Proc.devRef (τ := τ) .tc main_v6_5) : S768x768.Idx → Elt Ideal .bf16) = k0_pay3 (View.ld ((V (Proc.devRef (τ := τ) .tc main_arg10)) : S768x1536.Idx → Elt Ideal .f32) (Rect.unit (s := S768x1536) ![0, 768] S768x768.size inb_S768x1536_S768x768_0_768))

/-- What the third kernel region does: nothing off its output array, which ends at the input's array on the first
    4096 columns and at its own entry contents on the others. -/
def Rel2 (V V' : Valuation τ sig (Elt Ideal)) : Prop :=
  (∀ b, b ∉ outs cfg3 → V' b = V b)
  ∧ (V' (Proc.devRef (τ := τ) .tc main_v18) : S768x65536.Idx → Elt Ideal .f32) = G3 (fun _ => V) d0

theorem regionStepV0 : RegionStep (F := Ideal) 0 Rel0 :=
  regionStepV_of Rel0 (fun VV WW OO d => postV0 VV WW OO d) (fun V W O d => rfl)
    (fun VV WW OO hO d _ k Q => region0V VV WW OO hO d k Q)

/-- What the second kernel region does: nothing off its two output arrays, which end at the body's two stored
    payloads, row block by row block. -/
def Rel1 (V V' : Valuation τ sig (Elt Ideal)) : Prop :=
  (∀ b, b ∉ outs cfg2 → V' b = V b)
  ∧ (V' (Proc.devRef (τ := τ) .tc main_v17_0) : S4096x768.Idx → Elt Ideal .f32) = G15 (fun _ => V) d0
  ∧ (V' (Proc.devRef (τ := τ) .tc main_v17_1) : S768x4096.Idx → Elt Ideal .f32) = G16 (fun _ => V) d0

theorem regionStepV1 : RegionStep (F := Ideal) 1 Rel1 :=
  regionStepV_of Rel1 (fun VV WW OO d => postV1 VV WW OO d) (fun V W O d => by
      obtain rfl : d = d0 := Subsingleton.elim _ _
      rfl)
    (fun VV WW OO hO d _ k Q => region1V VV WW OO hO d k Q)

theorem regionStepV2 : RegionStep (F := Ideal) 2 Rel2 :=
  regionStepV_of Rel2 (fun VV WW OO d => postV2 VV WW OO d) (fun V W O d => by
      obtain rfl : d = d0 := Subsingleton.elim _ _
      rfl)
    (fun VV WW OO hO d _ k Q => region2V VV WW OO hO d k Q)

/-- The nine facts along @main. -/
def stageI (R : RealArgs) : Fin 9 → Valuation τ sig (Elt Ideal) → Prop
  | ⟨0, _⟩ => I0 R
  | ⟨1, _⟩ => I1 R
  | ⟨2, _⟩ => I2 R
  | ⟨3, _⟩ => I3 R
  | ⟨4, _⟩ => I4 R
  | ⟨5, _⟩ => I5 R
  | ⟨6, _⟩ => I6 R
  | ⟨7, _⟩ => I7 R
  | ⟨8, _⟩ => Ifin R

/-- The stages of the value run: from arguments that are the coercions of the real arrays `R`, the facts `I0 … Ifin`
    and the steps between them. -/
def valStages (m : (ℓ : Loc nD τ sig) → Buf (Elt Ideal) ℓ) (d : Dev nD) (R : RealArgs)
    (h0 : I0 R (StableHlo.launchContents m d)) : Stages (F := Ideal) m d where
  I := stageI R
  Rel0 := Rel0
  Rel1 := Rel1
  Rel2 := Rel2
  h0 := h0
  t0 := fun V h => T0 h
  t1 := fun V V' h hr => T1 h hr.1 hr.2.1 hr.2.2.1 hr.2.2.2.1 hr.2.2.2.2.1 hr.2.2.2.2.2.1 hr.2.2.2.2.2.2
  tq := fun V h => (I0.a18 (I1.toI0 (I2.toI1 h))).trans h0.a18.symm
  t2 := fun V g h hg => T2 h (fun b hb => Function.update_of_ne hb g V) (fun row col hc => by
    show (Function.update V o' g o' : S768x65536.Idx → Elt Ideal .f32) (ix2 row col) = _
    rw [Function.update_self]
    exact (hg (ix2 row col) hc).trans (congrFun h0.a18 (ix2 row col)))
  t3 := fun V h => T3 h
  t4 := fun V V' h hr => T4 (fun _ => V) d0 h hr.1 hr.2.1 hr.2.2
  t5 := fun V h => T5 h
  t6 := fun V V' h hr => T6 (fun _ => V) d0 h hr.1 hr.2
  t7 := fun V h => T7 h

/-- THE KERNEL'S VALUE RUN: from argument arrays that are, on each device, the coercions of real arrays (the pointer
    zero), every weakly fair execution terminates with the three results at the specification's values of those arrays
    and the arguments unchanged. -/
theorem kernelRun : Cert.Proof.Alg.KernelRun := fun m g R hI =>
  (θ_run _ _ _).mono (fun r h c => by
      obtain ⟨V, hV, hr⟩ := h c
      replace hV : Ifin (R c) V := hV
      have mem : ∀ x : Ref sig .tc, Proc.devRef (τ := τ) .tc x ∈ Sall → r.2.mem (c, Proc.devRef (τ := τ) .tc x) = V (Proc.devRef (τ := τ) .tc x) :=
        fun x hx => hr _ hx
      exact ⟨(mem main_v17_0 (Finset.mem_filter.mpr ⟨StableHlo.devRef_mem_tcRefs main_v17_0, by decide⟩)).trans hV.keys,
        (mem main_v18 (Finset.mem_filter.mpr ⟨StableHlo.devRef_mem_tcRefs main_v18, by decide⟩)).trans hV.queue,
        (mem main_v21 (Finset.mem_filter.mpr ⟨StableHlo.devRef_mem_tcRefs main_v21, by decide⟩)).trans hV.ptr,
        (mem main_arg0 (args_sub (by decide))).trans (hV.toI0.a0.trans (hI c).a0.symm),
        (mem main_arg1 (args_sub (by decide))).trans (hV.toI0.a1.trans (hI c).a1.symm),
        (mem main_arg2 (args_sub (by decide))).trans (hV.toI0.a2.trans (hI c).a2.symm),
        (mem main_arg3 (args_sub (by decide))).trans (hV.toI0.a3.trans (hI c).a3.symm),
        (mem main_arg4 (args_sub (by decide))).trans (hV.toI0.a4.trans (hI c).a4.symm),
        (mem main_arg5 (args_sub (by decide))).trans (hV.toI0.a5.trans (hI c).a5.symm),
        (mem main_arg6 (args_sub (by decide))).trans (hV.toI0.a6.trans (hI c).a6.symm),
        (mem main_arg7 (args_sub (by decide))).trans (hV.toI0.a7.trans (hI c).a7.symm),
        (mem main_arg8 (args_sub (by decide))).trans (hV.toI0.a8.trans (hI c).a8.symm),
        (mem main_arg9 (args_sub (by decide))).trans (hV.toI0.a9.trans (hI c).a9.symm),
        (mem main_arg10 (args_sub (by decide))).trans (hV.toI0.a10.trans (hI c).a10.symm),
        (mem main_arg11 (args_sub (by decide))).trans (hV.toI0.a11.trans (hI c).a11.symm),
        (mem main_arg12 (args_sub (by decide))).trans (hV.toI0.a12.trans (hI c).a12.symm),
        (mem main_arg13 (args_sub (by decide))).trans (hV.toI0.a13.trans (hI c).a13.symm),
        (mem main_arg14 (args_sub (by decide))).trans (hV.toI0.a14.trans (hI c).a14.symm),
        (mem main_arg15 (args_sub (by decide))).trans (hV.toI0.a15.trans (hI c).a15.symm),
        (mem main_arg16 (args_sub (by decide))).trans (hV.toI0.a16.trans (hI c).a16.symm),
        (mem main_arg17 (args_sub (by decide))).trans (hV.toI0.a17.trans (hI c).a17.symm),
        (mem main_arg18 (args_sub (by decide))).trans (hV.toI0.a18.trans (hI c).a18.symm),
        (mem main_arg19 (args_sub (by decide))).trans (hV.toI0.a19.trans (hI c).a19.symm)⟩)
    (run_mainG m g (fun d => valStages m d (R d) (hI d)) (tileOblV m facts)
      (fun _ => regionStepV0) (fun _ => regionStepV1) (fun _ => regionStepV2))

end Cert.KernelIdeal.Hand.Val
end
-- ==== Proof.lean ====
/-
  The proof of `Cert.Claim`: the frames of the three programs, the (empty) idealization ledger, and the equality of
  the two idealized programs' results.

  The kernel is one program of four parts run by the device's 35 threads: a first TensorCore kernel pre-multiplies
  the weights (value projection · output projection, then each of the two input projections with that product, and the
  matching biases); the 32 vector subcores of the two SparseCores meanwhile copy the queue's columns 4096 … 65535, 24
  rows each, through a ring of four buffers; a second TensorCore kernel computes, per block of 512 rows, the two
  projected inputs, three layer norms and the final normalisation (the keys, and their transpose); a third writes the
  transposed keys over the queue copy's first 4096 columns. The reference computes the same keys without
  pre-multiplying (the single-key attention's softmax is 1) and overwrites the queue's columns 0 … 4095 (the pointer is
  0 by the precondition) by a scatter.

  Results: both idealized programs are proved equal to one real-valued specification of the keys, the new queue and
  the new pointer — the reference by reading its operations at an index on finite inputs, the kernel by reading its
  kernels' stored values at an index and reassociating the matrix products in the reals (sums commute and
  distribute on finite values; a product with (v + ε)^(-1/2) is a quotient by its square root for v + ε > 0); the
  kernel's buffers are followed through @main's eight segments, the copy's strips holding the queue's words.

  Frames: every weakly fair execution of all threads terminates with no fault and the argument arrays unchanged —
  @main segment by segment (host operations over the buffers held whole, each kernel region by its body's run, the
  SparseCore call by the launch theorem's call rule), the vector subcores' task once at a symbolic subcore with a loop
  invariant over the copies in flight; the reference's frame from its run as a list of host operations.
-/
import proofs.«211565_g20684562498226_cont_8to1_684_24_alg».proof.Defs
import proofs.«211565_g20684562498226_cont_8to1_684_24_alg».proof.Proof.Gen.Kernel
import proofs.«211565_g20684562498226_cont_8to1_684_24_alg».proof.Proof.Gen.Kernel.Skeleton
import proofs.«211565_g20684562498226_cont_8to1_684_24_alg».proof.Proof.Gen.Kernel.Launch
import proofs.«211565_g20684562498226_cont_8to1_684_24_alg».proof.Proof.Gen.Kernel.Regions
import proofs.«211565_g20684562498226_cont_8to1_684_24_alg».proof.Proof.Gen.Kernel.Points
import proofs.«211565_g20684562498226_cont_8to1_684_24_alg».proof.Proof.Gen.KernelIdeal
import proofs.«211565_g20684562498226_cont_8to1_684_24_alg».proof.Proof.Gen.KernelIdeal.Skeleton
import proofs.«211565_g20684562498226_cont_8to1_684_24_alg».proof.Proof.Gen.KernelIdeal.Launch
import proofs.«211565_g20684562498226_cont_8to1_684_24_alg».proof.Proof.Gen.KernelIdeal.Regions
import proofs.«211565_g20684562498226_cont_8to1_684_24_alg».proof.Proof.Gen.KernelIdeal.Points
import proofs.«211565_g20684562498226_cont_8to1_684_24_alg».proof.Proof.Gen.ReferenceIdeal
import proofs.«211565_g20684562498226_cont_8to1_684_24_alg».proof.Proof.Gen.Pre_input_domain
import proofs.«211565_g20684562498226_cont_8to1_684_24_alg».proof.Proof.Frames
import proofs.«211565_g20684562498226_cont_8to1_684_24_alg».proof.Proof.Bits.Frames
import proofs.«211565_g20684562498226_cont_8to1_684_24_alg».proof.Proof.RefFrame
import proofs.«211565_g20684562498226_cont_8to1_684_24_alg».proof.Proof.RefRun
import proofs.«211565_g20684562498226_cont_8to1_684_24_alg».proof.Proof.Algebraic
import proofs.«211565_g20684562498226_cont_8to1_684_24_alg».proof.Proof.KernelVal
import Idealize.ShloMosaic.Adequacy
import Idealize.ShloMosaic.Init

noncomputable section

namespace Cert.Proof

open Idealize.ShloMosaic Idealize.SL.Sem

/-- The word-level program's frame: its run with the arguments read off one by one. -/
theorem frame_k : @Cert.frame_Kernel Cert.Kernel.Gen.facts Cert.Pre_input_domain.Gen.facts := fun m ρ _ =>
  (θ_run (Cert.Kernel.defs (F := Bits)) _ _).mono (fun _ h c =>
    ⟨h c (Idealize.ShloMosaic.Proc.devRef .tc Cert.Kernel.main_arg0) (by decide),
      h c (Idealize.ShloMosaic.Proc.devRef .tc Cert.Kernel.main_arg1) (by decide),
      h c (Idealize.ShloMosaic.Proc.devRef .tc Cert.Kernel.main_arg2) (by decide),
      h c (Idealize.ShloMosaic.Proc.devRef .tc Cert.Kernel.main_arg3) (by decide),
      h c (Idealize.ShloMosaic.Proc.devRef .tc Cert.Kernel.main_arg4) (by decide),
      h c (Idealize.ShloMosaic.Proc.devRef .tc Cert.Kernel.main_arg5) (by decide),
      h c (Idealize.ShloMosaic.Proc.devRef .tc Cert.Kernel.main_arg6) (by decide),
      h c (Idealize.ShloMosaic.Proc.devRef .tc Cert.Kernel.main_arg7) (by decide),
      h c (Idealize.ShloMosaic.Proc.devRef .tc Cert.Kernel.main_arg8) (by decide),
      h c (Idealize.ShloMosaic.Proc.devRef .tc Cert.Kernel.main_arg9) (by decide),
      h c (Idealize.ShloMosaic.Proc.devRef .tc Cert.Kernel.main_arg10) (by decide),
      h c (Idealize.ShloMosaic.Proc.devRef .tc Cert.Kernel.main_arg11) (by decide),
      h c (Idealize.ShloMosaic.Proc.devRef .tc Cert.Kernel.main_arg12) (by decide),
      h c (Idealize.ShloMosaic.Proc.devRef .tc Cert.Kernel.main_arg13) (by decide),
      h c (Idealize.ShloMosaic.Proc.devRef .tc Cert.Kernel.main_arg14) (by decide),
      h c (Idealize.ShloMosaic.Proc.devRef .tc Cert.Kernel.main_arg15) (by decide),
      h c (Idealize.ShloMosaic.Proc.devRef .tc Cert.Kernel.main_arg16) (by decide),
      h c (Idealize.ShloMosaic.Proc.devRef .tc Cert.Kernel.main_arg17) (by decide),
      h c (Idealize.ShloMosaic.Proc.devRef .tc Cert.Kernel.main_arg18) (by decide),
      h c (Idealize.ShloMosaic.Proc.devRef .tc Cert.Kernel.main_arg19) (by decide)⟩)
    (Cert.Kernel.Hand.frame_run (F := Bits) m ρ)

/-- The idealized program's frame: the same run at the extended reals. -/
theorem frame_ki : @Cert.frame_KernelIdeal Cert.KernelIdeal.Gen.facts Cert.Pre_input_domain.Gen.facts := fun m ρ _ =>
  (θ_run (Cert.KernelIdeal.defs (F := Ideal)) _ _).mono (fun _ h c =>
    ⟨h c (Idealize.ShloMosaic.Proc.devRef .tc Cert.KernelIdeal.main_arg0) (by decide),
      h c (Idealize.ShloMosaic.Proc.devRef .tc Cert.KernelIdeal.main_arg1) (by decide),
      h c (Idealize.ShloMosaic.Proc.devRef .tc Cert.KernelIdeal.main_arg2) (by decide),
      h c (Idealize.ShloMosaic.Proc.devRef .tc Cert.KernelIdeal.main_arg3) (by decide),
      h c (Idealize.ShloMosaic.Proc.devRef .tc Cert.KernelIdeal.main_arg4) (by decide),
      h c (Idealize.ShloMosaic.Proc.devRef .tc Cert.KernelIdeal.main_arg5) (by decide),
      h c (Idealize.ShloMosaic.Proc.devRef .tc Cert.KernelIdeal.main_arg6) (by decide),
      h c (Idealize.ShloMosaic.Proc.devRef .tc Cert.KernelIdeal.main_arg7) (by decide),
      h c (Idealize.ShloMosaic.Proc.devRef .tc Cert.KernelIdeal.main_arg8) (by decide),
      h c (Idealize.ShloMosaic.Proc.devRef .tc Cert.KernelIdeal.main_arg9) (by decide),
      h c (Idealize.ShloMosaic.Proc.devRef .tc Cert.KernelIdeal.main_arg10) (by decide),
      h c (Idealize.ShloMosaic.Proc.devRef .tc Cert.KernelIdeal.main_arg11) (by decide),
      h c (Idealize.ShloMosaic.Proc.devRef .tc Cert.KernelIdeal.main_arg12) (by decide),
      h c (Idealize.ShloMosaic.Proc.devRef .tc Cert.KernelIdeal.main_arg13) (by decide),
      h c (Idealize.ShloMosaic.Proc.devRef .tc Cert.KernelIdeal.main_arg14) (by decide),
      h c (Idealize.ShloMosaic.Proc.devRef .tc Cert.KernelIdeal.main_arg15) (by decide),
      h c (Idealize.ShloMosaic.Proc.devRef .tc Cert.KernelIdeal.main_arg16) (by decide),
      h c (Idealize.ShloMosaic.Proc.devRef .tc Cert.KernelIdeal.main_arg17) (by decide),
      h c (Idealize.ShloMosaic.Proc.devRef .tc Cert.KernelIdeal.main_arg18) (by decide),
      h c (Idealize.ShloMosaic.Proc.devRef .tc Cert.KernelIdeal.main_arg19) (by decide)⟩)
    (Cert.KernelIdeal.Hand.frame_run (F := Ideal) m ρ)

theorem claim : Cert.Claim := ⟨Cert.Kernel.Gen.facts, Cert.KernelIdeal.Gen.facts, Cert.ReferenceIdeal.Gen.facts, Cert.Pre_input_domain.Gen.facts,
  frame_k, frame_ki, Cert.ReferenceIdeal.RefRun.frame_ri, trivial,
  Cert.Proof.Alg.algebraic Cert.KernelIdeal.Hand.Val.kernelRun⟩

end Cert.Proof

end
